-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v156)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v156) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64 : Shape := ⟨2, ![64, 64]⟩
abbrev S64 : Shape := ⟨1, ![64]⟩
abbrev S4096 : Shape := ⟨1, ![4096]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S64 : S_.BroadcastsInDim S64 (![] : Fin 0 → Fin S64.rank)
  reducesTo_S64_S_d0 : S64.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg0 : FVec F S64x64 .f32) (main_arg4 : FVec F S4096 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_cst_8 : FVec F S_ .f32 := constant S_ .f32 0xFF800000#32
  let main_v24 : FVec F S_ .f32 := (fun x v => Host.reduce FloatOps.maximumf x v reducesTo_S64x64_S_d0_1 h_S_) main_arg0 main_cst_8
  let main_cst_9 : FVec F S_ .f32 := constant S_ .f32 0x00000000#32
  let main_v25 : IVec S_ 1 := cmpf .une main_v24 main_cst_9
  let main_v26 : IVec S_ 1 := andi main_v23 main_v25
  main_v26

def fn {F : FTy → Type} [FloatOps F] (main_arg0 : FVec F S64x64 .f32) (main_arg1 : FVec F S64 .f32) (main_arg2 : FVec F S64x64 .f32) (main_arg3 : FVec F S64x64 .f32) (main_arg4 : FVec F S4096 .f32) : IVec S_ 1 :=
  let main_v0 : FVec F S64x64 .f32 := Host.absf main_arg0
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_c : IVec S_ 1 := constantI S_ 1 1#1
  let main_v3 : IVec S_ 1 := (fun x v => Host.reduce IntOp.andi x v reducesTo_S64x64_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg0 main_arg4 main_v13 main_v16
-- ==== Kernel.lean ====
abbrev S64x64 : Shape := ⟨2, ![64, 64]⟩
abbrev S64 : Shape := ⟨1, ![64]⟩
abbrev S4096 : Shape := ⟨1, ![4096]⟩
abbrev S_ : Shape := ⟨0, ![]⟩
abbrev S1x64 : Shape := ⟨2, ![1, 64]⟩
abbrev S4032 : Shape := ⟨1, ![4032]⟩
abbrev S4095 : Shape := ⟨1, ![4095]⟩
abbrev S1 : Shape := ⟨1, ![1]⟩
abbrev S4096x1 : Shape := ⟨2, ![4096, 1]⟩
abbrev S4096x15 : Shape := ⟨2, ![4096, 15]⟩
abbrev S4096x128 : Shape := ⟨2, ![4096, 128]⟩
abbrev S12288x12288 : Shape := ⟨2, ![12288, 12288]⟩
abbrev S512x1024 : Shape := ⟨2, ![512, 1024]⟩
abbrev S512x128 : Shape := ⟨2, ![512, 128]⟩
abbrev S512x1 : Shape := ⟨2, ![512, 1]⟩

abbrev nBuf : Space → Nat
  | .hbm => 214
  | .vmem => 3
  | .smem => 0
  | _ => 0

abbrev hbmTy0_0 (i : Nat) : BufTy := match i % 128 with
  | 0 => ⟨S64x64, .f32⟩
  | 1 => ⟨S64, .f32⟩
  | 2 => ⟨S64x64, .f32⟩
  | 3 => ⟨S64x64, .f32⟩
  | 4 => ⟨S4096, .f32⟩
  | 5 => ⟨S64x64, .f32⟩
  | 6 => ⟨S_, .f32⟩
  | 7 => ⟨S64x64, .f32⟩
  | 8 => ⟨S64x64, .f32⟩
  | 9 => ⟨S64x64, .f32⟩
  | 10 => ⟨S_, .f32⟩
  | 11 => ⟨S64x64, .f32⟩
  | 12 => ⟨S64x64, .f32⟩
  | 13 => ⟨S64x64, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S64x64, .f32⟩
  | 21 => ⟨S4096, .f32⟩
  | 22 => ⟨S4096, .f32⟩
  | 23 => ⟨S4096, .f32⟩
  | 24 => ⟨S4096, .f32⟩
  | 25 => ⟨S4096, .f32⟩
  | 26 => ⟨S_, .f32⟩
  | 27 => ⟨S64, .f32⟩
  | 28 => ⟨S64, .f32⟩
  | 29 => ⟨S_, .f32⟩
  | 30 => ⟨S64, .f32⟩
  | 31 => ⟨S64, .f32⟩
  | 32 => ⟨S_, .f32⟩
  | 33 => ⟨S64, .f32⟩
  | 34 => ⟨S64, .f32⟩
  | 35 => ⟨S_, .f32⟩
  | 36 => ⟨S64, .f32⟩
  | 37 => ⟨S64, .f32⟩
  | 38 => ⟨S1x64, .f32⟩
  | 39 => ⟨S64x64, .f32⟩
  | 40 => ⟨S4096, .f32⟩
  | 41 => ⟨S1x64, .f32⟩
  | 42 => ⟨S64x64, .f32⟩
  | 43 => ⟨S4096, .f32⟩
  | 44 => ⟨S_, .f32⟩
  | 45 => ⟨S4096, .f32⟩
  | 46 => ⟨S4096, .f32⟩
  | 47 => ⟨S4096, .f32⟩
  | 48 => ⟨S64x64, .f32⟩
  | 49 => ⟨S4096, .f32⟩
  | 50 => ⟨S_, .f32⟩
  | 51 => ⟨S4096, .f32⟩
  | 52 => ⟨S4096, .f32⟩
  | 53 => ⟨S_, .f32⟩
  | 54 => ⟨S4096, .f32⟩
  | 55 => ⟨S4096, .f32⟩
  | 56 => ⟨S64x64, .f32⟩
  | 57 => ⟨S4096, .f32⟩
  | 58 => ⟨S_, .f32⟩
  | 59 => ⟨S4096, .f32⟩
  | 60 => ⟨S4096, .f32⟩
  | 61 => ⟨S_, .f32⟩
  | 62 => ⟨S4096, .f32⟩
  | 63 => ⟨S4096, .f32⟩
  | 64 => ⟨S_, .f32⟩
  | 65 => ⟨S4096, .f32⟩
  | 66 => ⟨S4096, .f32⟩
  | 67 => ⟨S4096, .f32⟩
  | 68 => ⟨S64x64, .f32⟩
  | 69 => ⟨S4096, .f32⟩
  | 70 => ⟨S_, .f32⟩
  | 71 => ⟨S4096, .f32⟩
  | 72 => ⟨S4096, .f32⟩
  | 73 => ⟨S_, .f32⟩
  | 74 => ⟨S4096, .f32⟩
  | 75 => ⟨S4096, .f32⟩
  | 76 => ⟨S64x64, .f32⟩
  | 77 => ⟨S4096, .f32⟩
  | 78 => ⟨S_, .f32⟩
  | 79 => ⟨S4096, .f32⟩
  | 80 => ⟨S4096, .f32⟩
  | 81 => ⟨S_, .f32⟩
  | 82 => ⟨S4096, .f32⟩
  | 83 => ⟨S4096, .f32⟩
  | 84 => ⟨S_, .f32⟩
  | 85 => ⟨S4096, .f32⟩
  | 86 => ⟨S4096, .f32⟩
  | 87 => ⟨S4096, .f32⟩
  | 88 => ⟨S_, .f32⟩
  | 89 => ⟨S64, .f32⟩
  | 90 => ⟨S4032, .f32⟩
  | 91 => ⟨S4096, .f32⟩
  | 92 => ⟨S4032, .f32⟩
  | 93 => ⟨S_, .f32⟩
  | 94 => ⟨S64, .f32⟩
  | 95 => ⟨S4096, .f32⟩
  | 96 => ⟨S4032, .f32⟩
  | 97 => ⟨S_, .f32⟩
  | 98 => ⟨S64, .f32⟩
  | 99 => ⟨S4096, .f32⟩
  | 100 => ⟨S4095, .f32⟩
  | 101 => ⟨S_, .f32⟩
  | 102 => ⟨S1, .f32⟩
  | 103 => ⟨S4096, .f32⟩
  | 104 => ⟨S4095, .f32⟩
  | 105 => ⟨S_, .f32⟩
  | 106 => ⟨S1, .f32⟩
  | 107 => ⟨S4096, .f32⟩
  | 108 => ⟨S4032, .f32⟩
  | 109 => ⟨S_, .f32⟩
  | 110 => ⟨S64, .f32⟩
  | 111 => ⟨S4096, .f32⟩
  | 112 => ⟨S4095, .f32⟩
  | 113 => ⟨S_, .f32⟩
  | 114 => ⟨S1, .f32⟩
  | 115 => ⟨S4096, .f32⟩
  | 116 => ⟨S4096, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S4096, .i32⟩
  | 124 => ⟨S4096, .i32⟩
  | 125 => ⟨S_, .i32⟩
  | 126 => ⟨S4096, .i32⟩
  | 127 => ⟨S4096, .i1⟩
  | _ => ⟨S64x64, .f32⟩

abbrev hbmTy0_1 (i : Nat) : BufTy := match i % 128 with
  | 0 => ⟨S_, .i32⟩
  | 1 => ⟨S4096, .i32⟩
  | 2 => ⟨S4096, .i1⟩
  | 3 => ⟨S_, .i32⟩
  | 4 => ⟨S_, .i1⟩
  | 5 => ⟨S4096, .i1⟩
  | 6 => ⟨S4096, .i1⟩
  | 7 => ⟨S4096, .i1⟩
  | 8 => ⟨S4096, .i32⟩
  | 9 => ⟨S4096, .i32⟩
  | 10 => ⟨S4096, .i32⟩
  | 11 => ⟨S_, .i32⟩
  | 12 => ⟨S4096, .i32⟩
  | 13 => ⟨S4096, .i1⟩
  | 14 => ⟨S4096, .f32⟩
  | 15 => ⟨S_, .i32⟩
  | 16 => ⟨S4096, .i32⟩
  | 17 => ⟨S4096, .i1⟩
  | 18 => ⟨S4096, .f32⟩
  | 19 => ⟨S4096, .f32⟩
  | 20 => ⟨S4096, .f32⟩
  | 21 => ⟨S4096, .f32⟩
  | 22 => ⟨S4096, .f32⟩
  | 23 => ⟨S4096, .f32⟩
  | 24 => ⟨S4096, .f32⟩
  | 25 => ⟨S4096, .f32⟩
  | 26 => ⟨S4096, .f32⟩
  | 27 => ⟨S4096, .f32⟩
  | 28 => ⟨S4096, .f32⟩
  | 29 => ⟨S4096, .f32⟩
  | 30 => ⟨S4096, .f32⟩
  | 31 => ⟨S4096, .f32⟩
  | 32 => ⟨S4096, .f32⟩
  | 33 => ⟨S4096, .f32⟩
  | 34 => ⟨S4096, .f32⟩
  | 35 => ⟨S4096, .f32⟩
  | 36 => ⟨S4096, .f32⟩
  | 37 => ⟨S4096, .f32⟩
  | 38 => ⟨S4096, .f32⟩
  | 39 => ⟨S4096, .f32⟩
  | 40 => ⟨S4096, .f32⟩
  | 41 => ⟨S4096, .f32⟩
  | 42 => ⟨S4096, .f32⟩
  | 43 => ⟨S4096, .f32⟩
  | 44 => ⟨S4096, .f32⟩
  | 45 => ⟨S4096, .f32⟩
  | 46 => ⟨S4096, .f32⟩
  | 47 => ⟨S4096, .f32⟩
  | 48 => ⟨S4096, .f32⟩
  | 49 => ⟨S4096, .f32⟩
  | 50 => ⟨S4096, .f32⟩
  | 51 => ⟨S4096, .f32⟩
  | 52 => ⟨S4096, .f32⟩
  | 53 => ⟨S4096, .f32⟩
  | 54 => ⟨S4096, .f32⟩
  | 55 => ⟨S4096, .f32⟩
  | 56 => ⟨S4096, .f32⟩
  | 57 => ⟨S4096, .f32⟩
  | 58 => ⟨S4096, .f32⟩
  | 59 => ⟨S4096, .f32⟩
  | 60 => ⟨S4096, .f32⟩
  | 61 => ⟨S4096, .f32⟩
  | 62 => ⟨S4096, .f32⟩
  | 63 => ⟨S4096, .f32⟩
  | 64 => ⟨S4096, .f32⟩
  | 65 => ⟨S4096, .f32⟩
  | 66 => ⟨S4096x1, .f32⟩
  | 67 => ⟨S4096x1, .f32⟩
  | 68 => ⟨S4096x1, .f32⟩
  | 69 => ⟨S4096x1, .f32⟩
  | 70 => ⟨S4096x1, .f32⟩
  | 71 => ⟨S4096x1, .f32⟩
  | 72 => ⟨S4096x1, .f32⟩
  | 73 => ⟨S4096x1, .f32⟩
  | 74 => ⟨S4096x1, .f32⟩
  | 75 => ⟨S4096x1, .f32⟩
  | 76 => ⟨S4096x1, .f32⟩
  | 77 => ⟨S4096x1, .f32⟩
  | 78 => ⟨S4096x1, .f32⟩
  | 79 => ⟨S4096x1, .f32⟩
  | 80 => ⟨S4096x1, .f32⟩
  | 81 => ⟨S4096x15, .f32⟩
  | 82 => ⟨S_, .i32⟩
  | 83 => ⟨S_, .f32⟩
  | 84 => ⟨S4096x128, .f32⟩
  | 85 => ⟨S12288x12288, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S512x1024, .f32⟩
  | .local _ .vmem, ⟨2, _⟩ => ⟨S512x1024, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_16 : Ref sig .tc := ⟨.hbm, 78, rfl⟩
abbrev main_v56 : Ref sig .tc := ⟨.hbm, 79, rfl⟩
abbrev main_v57 : Ref sig .tc := ⟨.hbm, 80, rfl⟩
abbrev main_cst_17 : Ref sig .tc := ⟨.hbm, 81, rfl⟩
abbrev main_v58 : Ref sig .tc := ⟨.hbm, 82, rfl⟩
abbrev main_v59 : Ref sig .tc := ⟨.hbm, 83, rfl⟩
abbrev main_cst_18 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_19 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_20 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_21 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_22 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_23 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_24 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_25 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c : Ref sig .tc := ⟨.hbm, 117, rfl⟩
abbrev main_call0_v0 : Ref sig .tc := ⟨.hbm, 118, rfl⟩
abbrev main_call0_c : Ref sig .tc := ⟨.hbm, 119, rfl⟩
abbrev main_call0_v1 : Ref sig .tc := ⟨.hbm, 120, rfl⟩
abbrev main_call0_c_0 : Ref sig .tc := ⟨.hbm, 121, rfl⟩
abbrev main_call0_v2 : Ref sig .tc := ⟨.hbm, 122, rfl⟩
abbrev main_call0_v3 : Ref sig .tc := ⟨.hbm, 123, rfl⟩
abbrev main_call0_v4 : Ref sig .tc := ⟨.hbm, 124, rfl⟩
abbrev main_call0_c_1 : Ref sig .tc := ⟨.hbm, 125, rfl⟩
abbrev main_call0_v5 : Ref sig .tc := ⟨.hbm, 126, rfl⟩
abbrev main_call0_v6 : Ref sig .tc := ⟨.hbm, 127, rfl⟩
abbrev main_call0_c_2 : Ref sig .tc := ⟨.hbm, 128, rfl⟩
abbrev main_call0_v7 : Ref sig .tc := ⟨.hbm, 129, rfl⟩
abbrev main_call0_v8 : Ref sig .tc := ⟨.hbm, 130, rfl⟩
abbrev main_call0_c_3 : Ref sig .tc := ⟨.hbm, 131, rfl⟩
abbrev main_call0_v9 : Ref sig .tc := ⟨.hbm, 132, rfl⟩
abbrev main_call0_v10 : Ref sig .tc := ⟨.hbm, 133, rfl⟩
abbrev main_call0_v11 : Ref sig .tc := ⟨.hbm, 134, rfl⟩
abbrev main_call0_v12 : Ref sig .tc := ⟨.hbm, 135, rfl⟩
abbrev main_call0_v13 : Ref sig .tc := ⟨.hbm, 136, rfl⟩
abbrev main_call0_v14 : Ref sig .tc := ⟨.hbm, 137, rfl⟩
abbrev main_v85 : Ref sig .tc := ⟨.hbm, 138, rfl⟩
abbrev main_c_26 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_c_27 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_c_28 : Ref sig .tc := ⟨.hbm, 210, rfl⟩
abbrev main_call1_v0 : Ref sig .tc := ⟨.hbm, 211, rfl⟩
abbrev main_v155 : Ref sig .tc := ⟨.hbm, 212, rfl⟩
abbrev main_v156 : Ref sig .tc := ⟨.hbm, 213, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨3, ![9, 8, 4], ![false, false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond2 (i : grid0.Coords) : BitVec 1 :=
  let arg0 : BitVec 32 := BitVec.ofNat 32 (i 0).val
  let c5_i32 : BitVec 32 := 5#32
  let v3 : BitVec 1 := Scalar.cmpi .eq arg0 c5_i32
  let c7_i32 : BitVec 32 := 7#32
  let v4 : BitVec 1 := Scalar.cmpi .eq arg0 c7_i32
  let v5 : BitVec 1 := Scalar.ori v3 v4
  let arg2 : BitVec 32 := BitVec.ofNat 32 (i 2).val
  let c1024_i32 : BitVec 32 := 1024#32
  let v2 : BitVec 32 := Scalar.muli arg2 c1024_i32
  let arg1 : BitVec 32 := BitVec.ofNat 32 (i 1).val
  let c512_i32 : BitVec 32 := 512#32
  let v0 : BitVec 32 := Scalar.muli arg1 c512_i32
  let v1 : BitVec 32 := v0
  let v6 : BitVec 32 := Scalar.subi v2 v1
  let c511_i32 : BitVec 32 := 511#32
  let v7 : BitVec 32 := Scalar.subi v6 c511_i32
  let c64_i32 : BitVec 32 := 64#32
  let v10 : BitVec 1 := Scalar.cmpi .sle v7 c64_i32
  let v8 : BitVec 32 := Scalar.subi v2 v1
  let c1023_i32 : BitVec 32 := 1023#32
  let v9 : BitVec 32 := Scalar.addi v8 c1023_i32
  let c_m64_i32 : BitVec 32 := 4294967232#32
  let v11 : BitVec 1 := Scalar.cmpi .sge v9 c_m64_i32
  let v12 : BitVec 1 := Scalar.andi v10 v11
  let v_true : BitVec 1 := 1#1
  let v13 : BitVec 1 := Scalar.xori v12 v_true
  let v14 : BitVec 1 := Scalar.ori v5 v13
  let true_0 : BitVec 1 := 1#1
  let v15 : BitVec 1 := Scalar.xori v14 true_0
  let c0_i32_1 : BitVec 32 := 0#32
  let v18 : BitVec 1 := Scalar.cmpi .eq arg0 c0_i32_1
  let v19 : BitVec 1 := Scalar.andi v15 v18
  let v20 : BitVec 32 := Scalar.extui v19
  let c0_i32_2 : BitVec 32 := 0#32
  let v21 : BitVec 1 := Scalar.cmpi .ne v20 c0_i32_2
  v21

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v52 : Index := Scalar.indexCast v1
  let c0 : Index := 0#32
  ![v52.toNat, 0]
def k0_cond3 (i : grid0.Coords) : BitVec 1 :=
  let arg0 : BitVec 32 := BitVec.ofNat 32 (i 0).val
  let c5_i32 : BitVec 32 := 5#32
  let v3 : BitVec 1 := Scalar.cmpi .eq arg0 c5_i32
  let c7_i32 : BitVec 32 := 7#32
  let v4 : BitVec 1 := Scalar.cmpi .eq arg0 c7_i32
  let v5 : BitVec 1 := Scalar.ori v3 v4
  let arg2 : BitVec 32 := BitVec.ofNat 32 (i 2).val
  let c1024_i32 : BitVec 32 := 1024#32
  let v2 : BitVec 32 := Scalar.muli arg2 c1024_i32
  let arg1 : BitVec 32 := BitVec.ofNat 32 (i 1).val
  let c512_i32 : BitVec 32 := 512#32
  let v0 : BitVec 32 := Scalar.muli arg1 c512_i32
  let v1 : BitVec 32 := v0
  let v6 : BitVec 32 := Scalar.subi v2 v1
  let c511_i32 : BitVec 32 := 511#32
  let v7 : BitVec 32 := Scalar.subi v6 c511_i32
  let c64_i32 : BitVec 32 := 64#32
  let v10 : BitVec 1 := Scalar.cmpi .sle v7 c64_i32
  let v8 : BitVec 32 := Scalar.subi v2 v1
  let c1023_i32 : BitVec 32 := 1023#32
  let v9 : BitVec 32 := Scalar.addi v8 c1023_i32
  let c_m64_i32 : BitVec 32 := 4294967232#32
  let v11 : BitVec 1 := Scalar.cmpi .sge v9 c_m64_i32
  let v12 : BitVec 1 := Scalar.andi v10 v11
  let v_true : BitVec 1 := 1#1
  let v13 : BitVec 1 := Scalar.xori v12 v_true
  let v14 : BitVec 1 := Scalar.ori v5 v13
  let true_0 : BitVec 1 := 1#1
  let v15 : BitVec 1 := Scalar.xori v14 true_0
  let c1_i32 : BitVec 32 := 1#32
  let v22 : BitVec 1 := Scalar.cmpi .eq arg0 c1_i32
  let v23 : BitVec 1 := Scalar.andi v15 v22
  let v24 : BitVec 32 := Scalar.extui v23
  let c0_i32_3 : BitVec 32 := 0#32
  let v25 : BitVec 1 := Scalar.cmpi .ne v24 c0_i32_3
  v25

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v52 : Index := Scalar.indexCast v1
  let c0 : Index := 0#32
  ![v52.toNat, 0]
def k0_cond4 (i : grid0.Coords) : BitVec 1 :=
  let arg0 : BitVec 32 := BitVec.ofNat 32 (i 0).val
  let c5_i32 : BitVec 32 := 5#32
  let v3 : BitVec 1 := Scalar.cmpi .eq arg0 c5_i32
  let c7_i32 : BitVec 32 := 7#32
  let v4 : BitVec 1 := Scalar.cmpi .eq arg0 c7_i32
  let v5 : BitVec 1 := Scalar.ori v3 v4
  let arg2 : BitVec 32 := BitVec.ofNat 32 (i 2).val
  let c1024_i32 : BitVec 32 := 1024#32
  let v2 : BitVec 32 := Scalar.muli arg2 c1024_i32
  let arg1 : BitVec 32 := BitVec.ofNat 32 (i 1).val
  let c512_i32 : BitVec 32 := 512#32
  let v0 : BitVec 32 := Scalar.muli arg1 c512_i32
  let v1 : BitVec 32 := v0
  let v6 : BitVec 32 := Scalar.subi v2 v1
  let c511_i32 : BitVec 32 := 511#32
  let v7 : BitVec 32 := Scalar.subi v6 c511_i32
  let c64_i32 : BitVec 32 := 64#32
  let v10 : BitVec 1 := Scalar.cmpi .sle v7 c64_i32
  let v8 : BitVec 32 := Scalar.subi v2 v1
  let c1023_i32 : BitVec 32 := 1023#32
  let v9 : BitVec 32 := Scalar.addi v8 c1023_i32
  let c_m64_i32 : BitVec 32 := 4294967232#32
  let v11 : BitVec 1 := Scalar.cmpi .sge v9 c_m64_i32
  let v12 : BitVec 1 := Scalar.andi v10 v11
  let v_true : BitVec 1 := 1#1
  let v13 : BitVec 1 := Scalar.xori v12 v_true
  let v14 : BitVec 1 := Scalar.ori v5 v13
  let true_0 : BitVec 1 := 1#1
  let v15 : BitVec 1 := Scalar.xori v14 true_0
  let c2_i32 : BitVec 32 := 2#32
  let v26 : BitVec 1 := Scalar.cmpi .eq arg0 c2_i32
  let v27 : BitVec 1 := Scalar.andi v15 v26
  let v28 : BitVec 32 := Scalar.extui v27
  let c0_i32_4 : BitVec 32 := 0#32
  let v29 : BitVec 1 := Scalar.cmpi .ne v28 c0_i32_4
  v29

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v52 : Index := Scalar.indexCast v1
  let c0 : Index := 0#32
  ![v52.toNat, 0]
def k0_cond5 (i : grid0.Coords) : BitVec 1 :=
  let arg0 : BitVec 32 := BitVec.ofNat 32 (i 0).val
  let c5_i32 : BitVec 32 := 5#32
  let v3 : BitVec 1 := Scalar.cmpi .eq arg0 c5_i32
  let c7_i32 : BitVec 32 := 7#32
  let v4 : BitVec 1 := Scalar.cmpi .eq arg0 c7_i32
  let v5 : BitVec 1 := Scalar.ori v3 v4
  let arg2 : BitVec 32 := BitVec.ofNat 32 (i 2).val
  let c1024_i32 : BitVec 32 := 1024#32
  let v2 : BitVec 32 := Scalar.muli arg2 c1024_i32
  let arg1 : BitVec 32 := BitVec.ofNat 32 (i 1).val
  let c512_i32 : BitVec 32 := 512#32
  let v0 : BitVec 32 := Scalar.muli arg1 c512_i32
  let v1 : BitVec 32 := v0
  let v6 : BitVec 32 := Scalar.subi v2 v1
  let c511_i32 : BitVec 32 := 511#32
  let v7 : BitVec 32 := Scalar.subi v6 c511_i32
  let c64_i32 : BitVec 32 := 64#32
  let v10 : BitVec 1 := Scalar.cmpi .sle v7 c64_i32
  let v8 : BitVec 32 := Scalar.subi v2 v1
  let c1023_i32 : BitVec 32 := 1023#32
  let v9 : BitVec 32 := Scalar.addi v8 c1023_i32
  let c_m64_i32 : BitVec 32 := 4294967232#32
  let v11 : BitVec 1 := Scalar.cmpi .sge v9 c_m64_i32
  let v12 : BitVec 1 := Scalar.andi v10 v11
  let v_true : BitVec 1 := 1#1
  let v13 : BitVec 1 := Scalar.xori v12 v_true
  let v14 : BitVec 1 := Scalar.ori v5 v13
  let true_0 : BitVec 1 := 1#1
  let v15 : BitVec 1 := Scalar.xori v14 true_0
  let c3_i32 : BitVec 32 := 3#32
  let v30 : BitVec 1 := Scalar.cmpi .eq arg0 c3_i32
  let v31 : BitVec 1 := Scalar.andi v15 v30
  let v32 : BitVec 32 := Scalar.extui v31
  let c0_i32_5 : BitVec 32 := 0#32
  let v33 : BitVec 1 := Scalar.cmpi .ne v32 c0_i32_5
  v33

def k0_off4 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v52 : Index := Scalar.indexCast v1
  let c0 : Index := 0#32
  ![v52.toNat, 0]
def k0_cond6 (i : grid0.Coords) : BitVec 1 :=
  let arg0 : BitVec 32 := BitVec.ofNat 32 (i 0).val
  let c5_i32 : BitVec 32 := 5#32
  let v3 : BitVec 1 := Scalar.cmpi .eq arg0 c5_i32
  let c7_i32 : BitVec 32 := 7#32
  let v4 : BitVec 1 := Scalar.cmpi .eq arg0 c7_i32
  let v5 : BitVec 1 := Scalar.ori v3 v4
  let arg2 : BitVec 32 := BitVec.ofNat 32 (i 2).val
  let c1024_i32 : BitVec 32 := 1024#32
  let v2 : BitVec 32 := Scalar.muli arg2 c1024_i32
  let arg1 : BitVec 32 := BitVec.ofNat 32 (i 1).val
  let c512_i32 : BitVec 32 := 512#32
  let v0 : BitVec 32 := Scalar.muli arg1 c512_i32
  let v1 : BitVec 32 := v0
  let v6 : BitVec 32 := Scalar.subi v2 v1
  let c511_i32 : BitVec 32 := 511#32
  let v7 : BitVec 32 := Scalar.subi v6 c511_i32
  let c64_i32 : BitVec 32 := 64#32
  let v10 : BitVec 1 := Scalar.cmpi .sle v7 c64_i32
  let v8 : BitVec 32 := Scalar.subi v2 v1
  let c1023_i32 : BitVec 32 := 1023#32
  let v9 : BitVec 32 := Scalar.addi v8 c1023_i32
  let c_m64_i32 : BitVec 32 := 4294967232#32
  let v11 : BitVec 1 := Scalar.cmpi .sge v9 c_m64_i32
  let v12 : BitVec 1 := Scalar.andi v10 v11
  let v_true : BitVec 1 := 1#1
  let v13 : BitVec 1 := Scalar.xori v12 v_true
  let v14 : BitVec 1 := Scalar.ori v5 v13
  let true_0 : BitVec 1 := 1#1
  let v15 : BitVec 1 := Scalar.xori v14 true_0
  let c4_i32 : BitVec 32 := 4#32
  let v34 : BitVec 1 := Scalar.cmpi .eq arg0 c4_i32
  let v35 : BitVec 1 := Scalar.andi v15 v34
  let v36 : BitVec 32 := Scalar.extui v35
  let c0_i32_6 : BitVec 32 := 0#32
  let v37 : BitVec 1 := Scalar.cmpi .ne v36 c0_i32_6
  v37

def k0_off5 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v52 : Index := Scalar.indexCast v1
  let c0 : Index := 0#32
  ![v52.toNat, 0]
def k0_cond7 (i : grid0.Coords) : BitVec 1 :=
  let arg0 : BitVec 32 := BitVec.ofNat 32 (i 0).val
  let c5_i32 : BitVec 32 := 5#32
  let v3 : BitVec 1 := Scalar.cmpi .eq arg0 c5_i32
  let c7_i32 : BitVec 32 := 7#32
  let v4 : BitVec 1 := Scalar.cmpi .eq arg0 c7_i32
  let v5 : BitVec 1 := Scalar.ori v3 v4
  let arg2 : BitVec 32 := BitVec.ofNat 32 (i 2).val
  let c1024_i32 : BitVec 32 := 1024#32
  let v2 : BitVec 32 := Scalar.muli arg2 c1024_i32
  let arg1 : BitVec 32 := BitVec.ofNat 32 (i 1).val
  let c512_i32 : BitVec 32 := 512#32
  let v0 : BitVec 32 := Scalar.muli arg1 c512_i32
  let v1 : BitVec 32 := v0
  let v6 : BitVec 32 := Scalar.subi v2 v1
  let c511_i32 : BitVec 32 := 511#32
  let v7 : BitVec 32 := Scalar.subi v6 c511_i32
  let c64_i32 : BitVec 32 := 64#32
  let v10 : BitVec 1 := Scalar.cmpi .sle v7 c64_i32
  let v8 : BitVec 32 := Scalar.subi v2 v1
  let c1023_i32 : BitVec 32 := 1023#32
  let v9 : BitVec 32 := Scalar.addi v8 c1023_i32
  let c_m64_i32 : BitVec 32 := 4294967232#32
  let v11 : BitVec 1 := Scalar.cmpi .sge v9 c_m64_i32
  let v12 : BitVec 1 := Scalar.andi v10 v11
  let v_true : BitVec 1 := 1#1
  let v13 : BitVec 1 := Scalar.xori v12 v_true
  let v14 : BitVec 1 := Scalar.ori v5 v13
  let true_0 : BitVec 1 := 1#1
  let v15 : BitVec 1 := Scalar.xori v14 true_0
  let c6_i32 : BitVec 32 := 6#32
  let v38 : BitVec 1 := Scalar.cmpi .eq arg0 c6_i32
  let v39 : BitVec 1 := Scalar.andi v15 v38
  let v40 : BitVec 32 := Scalar.extui v39
  let c0_i32_7 : BitVec 32 := 0#32
  let v41 : BitVec 1 := Scalar.cmpi .ne v40 c0_i32_7
  v41

def k0_off6 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v52 : Index := Scalar.indexCast v1
  let c0 : Index := 0#32
  ![v52.toNat, 0]
def k0_cond8 (i : grid0.Coords) : BitVec 1 :=
  let arg0 : BitVec 32 := BitVec.ofNat 32 (i 0).val
  let c5_i32 : BitVec 32 := 5#32
  let v3 : BitVec 1 := Scalar.cmpi .eq arg0 c5_i32
  let c7_i32 : BitVec 32 := 7#32
  let v4 : BitVec 1 := Scalar.cmpi .eq arg0 c7_i32
  let v5 : BitVec 1 := Scalar.ori v3 v4
  let arg2 : BitVec 32 := BitVec.ofNat 32 (i 2).val
  let c1024_i32 : BitVec 32 := 1024#32
  let v2 : BitVec 32 := Scalar.muli arg2 c1024_i32
  let arg1 : BitVec 32 := BitVec.ofNat 32 (i 1).val
  let c512_i32 : BitVec 32 := 512#32
  let v0 : BitVec 32 := Scalar.muli arg1 c512_i32
  let v1 : BitVec 32 := v0
  let v6 : BitVec 32 := Scalar.subi v2 v1
  let c511_i32 : BitVec 32 := 511#32
  let v7 : BitVec 32 := Scalar.subi v6 c511_i32
  let c64_i32 : BitVec 32 := 64#32
  let v10 : BitVec 1 := Scalar.cmpi .sle v7 c64_i32
  let v8 : BitVec 32 := Scalar.subi v2 v1
  let c1023_i32 : BitVec 32 := 1023#32
  let v9 : BitVec 32 := Scalar.addi v8 c1023_i32
  let c_m64_i32 : BitVec 32 := 4294967232#32
  let v11 : BitVec 1 := Scalar.cmpi .sge v9 c_m64_i32
  let v12 : BitVec 1 := Scalar.andi v10 v11
  let v_true : BitVec 1 := 1#1
  let v13 : BitVec 1 := Scalar.xori v12 v_true
  let v14 : BitVec 1 := Scalar.ori v5 v13
  let true_0 : BitVec 1 := 1#1
  let v15 : BitVec 1 := Scalar.xori v14 true_0
  let c8_i32 : BitVec 32 := 8#32
  let v42 : BitVec 1 := Scalar.cmpi .eq arg0 c8_i32
  let v43 : BitVec 1 := Scalar.andi v15 v42
  let v44 : BitVec 32 := Scalar.extui v43
  let c0_i32_8 : BitVec 32 := 0#32
  let v45 : BitVec 1 := Scalar.cmpi .ne v44 c0_i32_8
  v45

def k0_off7 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v52 : Index := Scalar.indexCast v1
  let c0 : Index := 0#32
  ![v52.toNat, 0]
def k0_cond1 (i : grid0.Coords) : BitVec 1 :=
  let arg0 : BitVec 32 := BitVec.ofNat 32 (i 0).val
  let c5_i32 : BitVec 32 := 5#32
  let v3 : BitVec 1 := Scalar.cmpi .eq arg0 c5_i32
  let c7_i32 : BitVec 32 := 7#32
  let v4 : BitVec 1 := Scalar.cmpi .eq arg0 c7_i32
  let v5 : BitVec 1 := Scalar.ori v3 v4
  let arg2 : BitVec 32 := BitVec.ofNat 32 (i 2).val
  let c1024_i32 : BitVec 32 := 1024#32
  let v2 : BitVec 32 := Scalar.muli arg2 c1024_i32
  let arg1 : BitVec 32 := BitVec.ofNat 32 (i 1).val
  let c512_i32 : BitVec 32 := 512#32
  let v0 : BitVec 32 := Scalar.muli arg1 c512_i32
  let v1 : BitVec 32 := v0
  let v6 : BitVec 32 := Scalar.subi v2 v1
  let c511_i32 : BitVec 32 := 511#32
  let v7 : BitVec 32 := Scalar.subi v6 c511_i32
  let c64_i32 : BitVec 32 := 64#32
  let v10 : BitVec 1 := Scalar.cmpi .sle v7 c64_i32
  let v8 : BitVec 32 := Scalar.subi v2 v1
  let c1023_i32 : BitVec 32 := 1023#32
  let v9 : BitVec 32 := Scalar.addi v8 c1023_i32
  let c_m64_i32 : BitVec 32 := 4294967232#32
  let v11 : BitVec 1 := Scalar.cmpi .sge v9 c_m64_i32
  let v12 : BitVec 1 := Scalar.andi v10 v11
  let v_true : BitVec 1 := 1#1
  let v13 : BitVec 1 := Scalar.xori v12 v_true
  let v14 : BitVec 1 := Scalar.ori v5 v13
  let v16 : BitVec 32 := Scalar.extui v14
  let c0_i32 : BitVec 32 := 0#32
  let v17 : BitVec 1 := Scalar.cmpi .ne v16 c0_i32
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.muli v16 c8_i32
  let v28 : BitVec 32 := Scalar.addi v27 arg1
  let c4_i32 : BitVec 32 := 4#32
  let v29 : BitVec 32 := Scalar.muli v26 c4_i32
  let v30 : BitVec 32 := Scalar.addi v29 arg2
  let c0_i32_10 : BitVec 32 := 0#32
  ![v28.toNat, v30.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

class Facts₀ : Prop where
  shapeCasts_S4096_S64x64 : S4096.ShapeCasts S64x64
  bcast_S_S64x64 : S_.BroadcastsInDim S64x64 (![] : Fin 0 → Fin S64x64.rank)
  reducesTo_S64x64_S_d0_1 : S64x64.ReducesTo [0, 1] S_
  h_S_ : 0 < S_.numel
  transposes_S64x64_S64x64_1_0 : S64x64.Transposes [1, 0] S64x64
  shapeCasts_S64x64_S4096 : S64x64.ShapeCasts S4096
  bcast_S_S4096 : S_.BroadcastsInDim S4096 (![] : Fin 0 → Fin S4096.rank)
  bcast_S_S64 : S_.BroadcastsInDim S64 (![] : Fin 0 → Fin S64.rank)
  shapeCasts_S64_S1x64 : S64.ShapeCasts S1x64
  bcast_S1x64_S64x64_0_1 : S1x64.BroadcastsInDim S64x64 (![0, 1] : Fin 2 → Fin S64x64.rank)
  slices_S4096_S4032_0 : S4096.Slices ![0] S4032
  concatenates_S64_S4032_S4096_d0 : Shape.Concatenates [S64, S4032] S4096 0
  slices_S4096_S4032_64 : S4096.Slices ![64] S4032
  concatenates_S4032_S64_S4096_d0 : Shape.Concatenates [S4032, S64] S4096 0
  slices_S4096_S4095_1 : S4096.Slices ![1] S4095
  bcast_S_S1 : S_.BroadcastsInDim S1 (![] : Fin 0 → Fin S1.rank)
  concatenates_S4095_S1_S4096_d0 : Shape.Concatenates [S4095, S1] S4096 0
  bcast_S4096_S4096x1_0 : S4096.BroadcastsInDim S4096x1 (![0] : Fin 1 → Fin S4096x1.rank)
  concatenates_S4096x1_S4096x1_S4096x1_S4096x1_S4096x1_S4096x1_S4096x1_S4096x1_S4096x1_S4096x1_S4096x1_S4096x1_S4096x1_S4096x1_S4096x1_S4096x15_d1 : Shape.Concatenates [S4096x1, S4096x1, S4096x1, S4096x1, S4096x1, S4096x1, S4096x1, S4096x1, S4096x1, S4096x1, S4096x1, S4096x1, S4096x1, S4096x1, S4096x1] S4096x15 1
  pads_S4096x15_S4096x128_000_01130 : S4096x15.Pads (![0, 0] : Fin 2 → Nat) ![0, 113] ![0, 0] S4096x128
  inb_S512x1024_S512x1024_0_0 : ∀ a, (![0, 0] : Fin 2 → Nat) a + S512x1024.size a ≤ S512x1024.size a
  h_S512x1024 : 0 < S512x1024.numel
  iota_S512x1024_d1_w32 : S512x1024.Iotas .tc 32 [1]
  iota_S512x1024_d0_w32 : S512x1024.Iotas .tc 32 [0]
  h_S512x128 : 0 < S512x128.numel
  shapeCasts_S512x128_S512x128 : S512x128.ShapeCasts S512x128
  slices_S512x128_o0_0_S512x1 : S512x128.Slices ![0, 0] S512x1
  shapeCasts_S512x1_S512x1 : S512x1.ShapeCasts S512x1
  broadcasts_S512x1_S512x1024 : S512x1.Broadcasts S512x1024
  slices_S512x128_o0_1_S512x1 : S512x128.Slices ![0, 1] S512x1
  slices_S512x128_o0_2_S512x1 : S512x128.Slices ![0, 2] S512x1
  slices_S512x128_o0_3_S512x1 : S512x128.Slices ![0, 3] S512x1
  slices_S512x128_o0_4_S512x1 : S512x128.Slices ![0, 4] S512x1
  slices_S512x128_o0_5_S512x1 : S512x128.Slices ![0, 5] S512x1
  slices_S512x128_o0_6_S512x1 : S512x128.Slices ![0, 6] S512x1
  slices_S512x128_o0_7_S512x1 : S512x128.Slices ![0, 7] S512x1
  slices_S512x128_o0_8_S512x1 : S512x128.Slices ![0, 8] S512x1
  slices_S512x128_o0_9_S512x1 : S512x128.Slices ![0, 9] S512x1
  slices_S512x128_o0_10_S512x1 : S512x128.Slices ![0, 10] S512x1
  slices_S512x128_o0_11_S512x1 : S512x128.Slices ![0, 11] S512x1
  slices_S512x128_o0_12_S512x1 : S512x128.Slices ![0, 12] S512x1
  slices_S512x128_o0_13_S512x1 : S512x128.Slices ![0, 13] S512x1
  slices_S512x128_o0_14_S512x1 : S512x128.Slices ![0, 14] S512x1
  hrank0 : 0 < grid0.rank
  k0_mult1_dvd : ∀ i : grid0.Coords, 512 ∣ (k0_mult1 i).toNat
  k0_off1_inb : ∀ i : grid0.Coords, ∀ (k0_h2 : k0_cond2 i = 1#1), ∀ a, (k0_off1 i) a + S512x128.size a ≤ S4096x128.size a
  k0_off2_inb : ∀ i : grid0.Coords, ∀ (k0_h3 : k0_cond3 i = 1#1), ∀ a, (k0_off2 i) a + S512x128.size a ≤ S4096x128.size a
  k0_off3_inb : ∀ i : grid0.Coords, ∀ (k0_h4 : k0_cond4 i = 1#1), ∀ a, (k0_off3 i) a + S512x128.size a ≤ S4096x128.size a
  k0_off4_inb : ∀ i : grid0.Coords, ∀ (k0_h5 : k0_cond5 i = 1#1), ∀ a, (k0_off4 i) a + S512x128.size a ≤ S4096x128.size a
  k0_off5_inb : ∀ i : grid0.Coords, ∀ (k0_h6 : k0_cond6 i = 1#1), ∀ a, (k0_off5 i) a + S512x128.size a ≤ S4096x128.size a
  k0_off6_inb : ∀ i : grid0.Coords, ∀ (k0_h7 : k0_cond7 i = 1#1), ∀ a, (k0_off6 i) a + S512x128.size a ≤ S4096x128.size a
  k0_off7_inb : ∀ i : grid0.Coords, ∀ (k0_h8 : k0_cond8 i = 1#1), ∀ a, (k0_off7 i) a + S512x128.size a ≤ S4096x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S12288x12288.size a
  hwx0_1 : ∀ i : grid0.Coords, EltTy.bits .f32 = 32 ∨ (Rect.block (s := S12288x12288) S512x1024.size (cc0_transform_1 i) (hinb0_1 i)).WholeWords (EltTy.packing .f32)

variable [Facts₀]

abbrev win0_0 : Pipeline.Window sig grid0 :=
  Pipeline.Window.ofSpec (Memref.whole main_v155) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v156) S512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) && !(k0_cond3 i == 1#1) && !(k0_cond4 i == 1#1) && !(k0_cond5 i == 1#1) && !(k0_cond6 i == 1#1) && !(k0_cond7 i == 1#1) && !(k0_cond8 i == 1#1) | ⟨_ + 2, h⟩ => absurd h (Nat.not_lt.2 (Nat.le_add_left _ _))

class Facts : Prop extends Facts₀ where

variable [Facts]
-- ==== ReferenceIdeal.lean ====
abbrev S64x64 : Shape := ⟨2, ![64, 64]⟩
abbrev S64 : Shape := ⟨1, ![64]⟩
abbrev S4096 : Shape := ⟨1, ![4096]⟩
abbrev S4032 : Shape := ⟨1, ![4032]⟩
abbrev S_ : Shape := ⟨0, ![]⟩
abbrev S1x64 : Shape := ⟨2, ![1, 64]⟩
abbrev S4096x4096 : Shape := ⟨2, ![4096, 4096]⟩
abbrev S4096x1 : Shape := ⟨2, ![4096, 1]⟩
abbrev S4096x2 : Shape := ⟨2, ![4096, 2]⟩
abbrev S4032x1 : Shape := ⟨2, ![4032, 1]⟩
abbrev S4032x2 : Shape := ⟨2, ![4032, 2]⟩
abbrev S1x4096 : Shape := ⟨2, ![1, 4096]⟩
abbrev S4096x12288 : Shape := ⟨2, ![4096, 12288]⟩
abbrev S12288x12288 : Shape := ⟨2, ![12288, 12288]⟩

abbrev nBuf : Space → Nat
  | .hbm => 319
  | .vmem => 0
  | .smem => 0
  | _ => 0

abbrev hbmTy0_0 (i : Nat) : BufTy := match i % 128 with
  | 0 => ⟨S64x64, .f32⟩
  | 1 => ⟨S64, .f32⟩
  | 2 => ⟨S64x64, .f32⟩
  | 3 => ⟨S64x64, .f32⟩
  | 4 => ⟨S4096, .f32⟩
  | 5 => ⟨S4096, .i32⟩
  | 6 => ⟨S4096, .i1⟩
  | 7 => ⟨S4096, .i1⟩
  | 8 => ⟨S4032, .i32⟩
  | 9 => ⟨S4032, .i1⟩
  | 10 => ⟨S4032, .i32⟩
  | 11 => ⟨S4032, .i1⟩
  | 12 => ⟨S4096, .i1⟩
  | 13 => ⟨S4096, .i1⟩
  | 14 => ⟨S4032, .i32⟩
  | 15 => ⟨S4032, .i1⟩
  | 16 => ⟨S4032, .i1⟩
  | 17 => ⟨S4096, .i1⟩
  | 18 => ⟨S4096, .i1⟩
  | 19 => ⟨S4032, .i32⟩
  | 20 => ⟨S4032, .i1⟩
  | 21 => ⟨S4032, .i32⟩
  | 22 => ⟨S4032, .i1⟩
  | 23 => ⟨S4032, .i32⟩
  | 24 => ⟨S4032, .i1⟩
  | 25 => ⟨S4096, .i1⟩
  | 26 => ⟨S4096, .i1⟩
  | 27 => ⟨S4032, .i32⟩
  | 28 => ⟨S4032, .i1⟩
  | 29 => ⟨S4032, .i1⟩
  | 30 => ⟨S4032, .i32⟩
  | 31 => ⟨S4032, .i1⟩
  | 32 => ⟨S64x64, .f32⟩
  | 33 => ⟨S_, .f32⟩
  | 34 => ⟨S64x64, .f32⟩
  | 35 => ⟨S64x64, .f32⟩
  | 36 => ⟨S64x64, .f32⟩
  | 37 => ⟨S_, .f32⟩
  | 38 => ⟨S64x64, .f32⟩
  | 39 => ⟨S64x64, .f32⟩
  | 40 => ⟨S64x64, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S64x64, .f32⟩
  | 48 => ⟨S4096, .f32⟩
  | 49 => ⟨S_, .f32⟩
  | 50 => ⟨S64, .f32⟩
  | 51 => ⟨S64, .f32⟩
  | 52 => ⟨S_, .f32⟩
  | 53 => ⟨S64, .f32⟩
  | 54 => ⟨S64, .f32⟩
  | 55 => ⟨S1x64, .f32⟩
  | 56 => ⟨S64x64, .f32⟩
  | 57 => ⟨S4096, .f32⟩
  | 58 => ⟨S_, .f32⟩
  | 59 => ⟨S64, .f32⟩
  | 60 => ⟨S64, .f32⟩
  | 61 => ⟨S_, .f32⟩
  | 62 => ⟨S64, .f32⟩
  | 63 => ⟨S64, .f32⟩
  | 64 => ⟨S1x64, .f32⟩
  | 65 => ⟨S64x64, .f32⟩
  | 66 => ⟨S4096, .f32⟩
  | 67 => ⟨S64x64, .f32⟩
  | 68 => ⟨S4096, .f32⟩
  | 69 => ⟨S_, .f32⟩
  | 70 => ⟨S4096, .f32⟩
  | 71 => ⟨S4096, .f32⟩
  | 72 => ⟨S_, .f32⟩
  | 73 => ⟨S4096, .f32⟩
  | 74 => ⟨S4096, .f32⟩
  | 75 => ⟨S64x64, .f32⟩
  | 76 => ⟨S4096, .f32⟩
  | 77 => ⟨S_, .f32⟩
  | 78 => ⟨S4096, .f32⟩
  | 79 => ⟨S4096, .f32⟩
  | 80 => ⟨S_, .f32⟩
  | 81 => ⟨S4096, .f32⟩
  | 82 => ⟨S4096, .f32⟩
  | 83 => ⟨S64x64, .f32⟩
  | 84 => ⟨S4096, .f32⟩
  | 85 => ⟨S_, .f32⟩
  | 86 => ⟨S4096, .f32⟩
  | 87 => ⟨S4096, .f32⟩
  | 88 => ⟨S_, .f32⟩
  | 89 => ⟨S4096, .f32⟩
  | 90 => ⟨S4096, .f32⟩
  | 91 => ⟨S64x64, .f32⟩
  | 92 => ⟨S4096, .f32⟩
  | 93 => ⟨S_, .f32⟩
  | 94 => ⟨S4096, .f32⟩
  | 95 => ⟨S4096, .f32⟩
  | 96 => ⟨S_, .f32⟩
  | 97 => ⟨S4096, .f32⟩
  | 98 => ⟨S4096, .f32⟩
  | 99 => ⟨S_, .f32⟩
  | 100 => ⟨S4096x4096, .f32⟩
  | 101 => ⟨S4096, .f32⟩
  | 102 => ⟨S4096, .f32⟩
  | 103 => ⟨S_, .i32⟩
  | 104 => ⟨S4096, .i32⟩
  | 105 => ⟨S4096, .i32⟩
  | 106 => ⟨S4096, .i32⟩
  | 107 => ⟨S_, .i32⟩
  | 108 => ⟨S4096, .i32⟩
  | 109 => ⟨S4096, .i32⟩
  | 110 => ⟨S4096, .i32⟩
  | 111 => ⟨S4096x1, .i32⟩
  | 112 => ⟨S4096x1, .i32⟩
  | 113 => ⟨S4096x2, .i32⟩
  | 114 => ⟨S4096x4096, .f32⟩
  | 115 => ⟨S4032, .f32⟩
  | 116 => ⟨S4032, .f32⟩
  | 117 => ⟨S4032, .f32⟩
  | 118 => ⟨S4032, .f32⟩
  | 119 => ⟨S_, .i32⟩
  | 120 => ⟨S4032, .i32⟩
  | 121 => ⟨S4032, .i32⟩
  | 122 => ⟨S4032, .i32⟩
  | 123 => ⟨S_, .i32⟩
  | 124 => ⟨S4032, .i32⟩
  | 125 => ⟨S4032, .i32⟩
  | 126 => ⟨S4032, .i32⟩
  | 127 => ⟨S4032x1, .i32⟩
  | _ => ⟨S64x64, .f32⟩

abbrev hbmTy0_1 (i : Nat) : BufTy := match i % 128 with
  | 0 => ⟨S4032x1, .i32⟩
  | 1 => ⟨S4032x2, .i32⟩
  | 2 => ⟨S4096x4096, .f32⟩
  | 3 => ⟨S4096, .f32⟩
  | 4 => ⟨S4096, .f32⟩
  | 5 => ⟨S4096, .f32⟩
  | 6 => ⟨S_, .i32⟩
  | 7 => ⟨S4096, .i32⟩
  | 8 => ⟨S4096, .i32⟩
  | 9 => ⟨S4096, .i32⟩
  | 10 => ⟨S_, .i32⟩
  | 11 => ⟨S4096, .i32⟩
  | 12 => ⟨S4096, .i32⟩
  | 13 => ⟨S4096, .i32⟩
  | 14 => ⟨S4096x1, .i32⟩
  | 15 => ⟨S4096x1, .i32⟩
  | 16 => ⟨S4096x2, .i32⟩
  | 17 => ⟨S4096x4096, .f32⟩
  | 18 => ⟨S4032, .f32⟩
  | 19 => ⟨S4032, .f32⟩
  | 20 => ⟨S4032, .f32⟩
  | 21 => ⟨S_, .i32⟩
  | 22 => ⟨S4032, .i32⟩
  | 23 => ⟨S4032, .i32⟩
  | 24 => ⟨S4032, .i32⟩
  | 25 => ⟨S_, .i32⟩
  | 26 => ⟨S4032, .i32⟩
  | 27 => ⟨S4032, .i32⟩
  | 28 => ⟨S4032, .i32⟩
  | 29 => ⟨S4032x1, .i32⟩
  | 30 => ⟨S4032x1, .i32⟩
  | 31 => ⟨S4032x2, .i32⟩
  | 32 => ⟨S4096x4096, .f32⟩
  | 33 => ⟨S4096, .f32⟩
  | 34 => ⟨S4096, .f32⟩
  | 35 => ⟨S_, .i32⟩
  | 36 => ⟨S4096, .i32⟩
  | 37 => ⟨S4096, .i32⟩
  | 38 => ⟨S4096, .i32⟩
  | 39 => ⟨S_, .i32⟩
  | 40 => ⟨S4096, .i32⟩
  | 41 => ⟨S4096, .i32⟩
  | 42 => ⟨S4096, .i32⟩
  | 43 => ⟨S4096x1, .i32⟩
  | 44 => ⟨S4096x1, .i32⟩
  | 45 => ⟨S4096x2, .i32⟩
  | 46 => ⟨S4096x4096, .f32⟩
  | 47 => ⟨S_, .i32⟩
  | 48 => ⟨S4032, .i32⟩
  | 49 => ⟨S4032, .i32⟩
  | 50 => ⟨S4032, .i32⟩
  | 51 => ⟨S4032x1, .i32⟩
  | 52 => ⟨S4032, .f32⟩
  | 53 => ⟨S4032, .f32⟩
  | 54 => ⟨S4032, .f32⟩
  | 55 => ⟨S4032, .f32⟩
  | 56 => ⟨S_, .i32⟩
  | 57 => ⟨S4032, .i32⟩
  | 58 => ⟨S4032, .i32⟩
  | 59 => ⟨S4032, .i32⟩
  | 60 => ⟨S_, .i32⟩
  | 61 => ⟨S4032, .i32⟩
  | 62 => ⟨S4032, .i32⟩
  | 63 => ⟨S4032, .i32⟩
  | 64 => ⟨S4032x1, .i32⟩
  | 65 => ⟨S4032x1, .i32⟩
  | 66 => ⟨S4032x2, .i32⟩
  | 67 => ⟨S4096x4096, .f32⟩
  | 68 => ⟨S4096, .f32⟩
  | 69 => ⟨S4096, .f32⟩
  | 70 => ⟨S4096, .f32⟩
  | 71 => ⟨S_, .i32⟩
  | 72 => ⟨S4096, .i32⟩
  | 73 => ⟨S4096, .i32⟩
  | 74 => ⟨S4096, .i32⟩
  | 75 => ⟨S_, .i32⟩
  | 76 => ⟨S4096, .i32⟩
  | 77 => ⟨S4096, .i32⟩
  | 78 => ⟨S4096, .i32⟩
  | 79 => ⟨S4096x1, .i32⟩
  | 80 => ⟨S4096x1, .i32⟩
  | 81 => ⟨S4096x2, .i32⟩
  | 82 => ⟨S4096x4096, .f32⟩
  | 83 => ⟨S_, .i32⟩
  | 84 => ⟨S4032, .i32⟩
  | 85 => ⟨S4032, .i32⟩
  | 86 => ⟨S4032, .i32⟩
  | 87 => ⟨S4032x1, .i32⟩
  | 88 => ⟨S4032, .f32⟩
  | 89 => ⟨S4032, .f32⟩
  | 90 => ⟨S4032, .f32⟩
  | 91 => ⟨S_, .i32⟩
  | 92 => ⟨S4032, .i32⟩
  | 93 => ⟨S4032, .i32⟩
  | 94 => ⟨S4032, .i32⟩
  | 95 => ⟨S_, .i32⟩
  | 96 => ⟨S4032, .i32⟩
  | 97 => ⟨S4032, .i32⟩
  | 98 => ⟨S4032, .i32⟩
  | 99 => ⟨S4032x1, .i32⟩
  | 100 => ⟨S4032x1, .i32⟩
  | 101 => ⟨S4032x2, .i32⟩
  | 102 => ⟨S4096x4096, .f32⟩
  | 103 => ⟨S_, .f32⟩
  | 104 => ⟨S4096, .f32⟩
  | 105 => ⟨S4096, .f32⟩
  | 106 => ⟨S_, .f32⟩
  | 107 => ⟨S4096, .f32⟩
  | 108 => ⟨S4096, .f32⟩
  | 109 => ⟨S_, .f32⟩
  | 110 => ⟨S4096, .f32⟩
  | 111 => ⟨S4096, .f32⟩
  | 112 => ⟨S1x4096, .f32⟩
  | 113 => ⟨S4096x4096, .f32⟩
  | 114 => ⟨S4096x4096, .f32⟩
  | 115 => ⟨S1x4096, .f32⟩
  | 116 => ⟨S4096x4096, .f32⟩
  | 117 => ⟨S4096x4096, .f32⟩
  | 118 => ⟨S4096, .f32⟩
  | 119 => ⟨S_, .f32⟩
  | 120 => ⟨S4096, .f32⟩
  | 121 => ⟨S4096x4096, .i32⟩
  | 122 => ⟨S4096x4096, .i32⟩
  | 123 => ⟨S_, .i32⟩
  | 124 => ⟨S4096x4096, .i32⟩
  | 125 => ⟨S4096x4096, .i32⟩
  | 126 => ⟨S4096x4096, .i1⟩
  | 127 => ⟨S4096x1, .f32⟩
  | _ => ⟨S64x64, .f32⟩

abbrev hbmTy0_2 (i : Nat) : BufTy := match i % 128 with
  | 0 => ⟨S_, .f32⟩
  | 1 => ⟨S4096x4096, .f32⟩
  | 2 => ⟨S4096x4096, .f32⟩
  | 3 => ⟨S4096x4096, .f32⟩
  | 4 => ⟨S4096x1, .f32⟩
  | 5 => ⟨S4096x4096, .f32⟩
  | 6 => ⟨S4096x4096, .f32⟩
  | 7 => ⟨S4096x4096, .f32⟩
  | 8 => ⟨S4096x4096, .f32⟩
  | 9 => ⟨S4096x4096, .f32⟩
  | 10 => ⟨S4096x4096, .f32⟩
  | 11 => ⟨S4096x1, .f32⟩
  | 12 => ⟨S4096x4096, .f32⟩
  | 13 => ⟨S4096x4096, .f32⟩
  | 14 => ⟨S4096, .f32⟩
  | 15 => ⟨S1x4096, .f32⟩
  | 16 => ⟨S4096x4096, .f32⟩
  | 17 => ⟨S4096x4096, .f32⟩
  | 18 => ⟨S4096x1, .f32⟩
  | 19 => ⟨S4096x4096, .f32⟩
  | 20 => ⟨S4096x4096, .f32⟩
  | 21 => ⟨S4096, .f32⟩
  | 22 => ⟨S1x4096, .f32⟩
  | 23 => ⟨S4096x4096, .f32⟩
  | 24 => ⟨S4096x4096, .f32⟩
  | 25 => ⟨S4096x1, .f32⟩
  | 26 => ⟨S4096x4096, .f32⟩
  | 27 => ⟨S4096x4096, .f32⟩
  | 28 => ⟨S4096, .f32⟩
  | 29 => ⟨S_, .f32⟩
  | 30 => ⟨S4096, .f32⟩
  | 31 => ⟨S4096x4096, .i32⟩
  | 32 => ⟨S4096x4096, .i32⟩
  | 33 => ⟨S_, .i32⟩
  | 34 => ⟨S4096x4096, .i32⟩
  | 35 => ⟨S4096x4096, .i32⟩
  | 36 => ⟨S4096x4096, .i1⟩
  | 37 => ⟨S4096x1, .f32⟩
  | 38 => ⟨S_, .f32⟩
  | 39 => ⟨S4096x4096, .f32⟩
  | 40 => ⟨S4096x4096, .f32⟩
  | 41 => ⟨S4096x4096, .f32⟩
  | 42 => ⟨S4096x1, .f32⟩
  | 43 => ⟨S4096x4096, .f32⟩
  | 44 => ⟨S4096x4096, .f32⟩
  | 45 => ⟨S4096, .f32⟩
  | 46 => ⟨S_, .f32⟩
  | 47 => ⟨S4096, .f32⟩
  | 48 => ⟨S4096x4096, .i32⟩
  | 49 => ⟨S4096x4096, .i32⟩
  | 50 => ⟨S_, .i32⟩
  | 51 => ⟨S4096x4096, .i32⟩
  | 52 => ⟨S4096x4096, .i32⟩
  | 53 => ⟨S4096x4096, .i1⟩
  | 54 => ⟨S4096x1, .f32⟩
  | 55 => ⟨S_, .f32⟩
  | 56 => ⟨S4096x4096, .f32⟩
  | 57 => ⟨S4096x4096, .f32⟩
  | 58 => ⟨S4096x4096, .f32⟩
  | 59 => ⟨S4096x12288, .f32⟩
  | 60 => ⟨S4096x12288, .f32⟩
  | 61 => ⟨S4096x12288, .f32⟩
  | 62 => ⟨S12288x12288, .f32⟩
  | _ => ⟨S64x64, .f32⟩

abbrev hbmTy (i : Nat) : BufTy := match i / 128 with
  | 0 => hbmTy0_0 i
  | 1 => hbmTy0_1 i
  | 2 => hbmTy0_2 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_c_7 : Ref sig .tc := ⟨.hbm, 13, rfl⟩
abbrev main_c_8 : Ref sig .tc := ⟨.hbm, 14, rfl⟩
abbrev main_c_9 : Ref sig .tc := ⟨.hbm, 15, rfl⟩
abbrev main_c_10 : Ref sig .tc := ⟨.hbm, 16, rfl⟩
abbrev main_c_11 : Ref sig .tc := ⟨.hbm, 17, rfl⟩
abbrev main_c_12 : Ref sig .tc := ⟨.hbm, 18, rfl⟩
abbrev main_c_13 : Ref sig .tc := ⟨.hbm, 19, rfl⟩
abbrev main_c_14 : Ref sig .tc := ⟨.hbm, 20, rfl⟩
abbrev main_c_15 : Ref sig .tc := ⟨.hbm, 21, rfl⟩
abbrev main_c_16 : Ref sig .tc := ⟨.hbm, 22, rfl⟩
abbrev main_c_17 : Ref sig .tc := ⟨.hbm, 23, rfl⟩
abbrev main_c_18 : Ref sig .tc := ⟨.hbm, 24, rfl⟩
abbrev main_c_19 : Ref sig .tc := ⟨.hbm, 25, rfl⟩
abbrev main_c_20 : Ref sig .tc := ⟨.hbm, 26, rfl⟩
abbrev main_c_21 : Ref sig .tc := ⟨.hbm, 27, rfl⟩
abbrev main_c_22 : Ref sig .tc := ⟨.hbm, 28, rfl⟩
abbrev main_c_23 : Ref sig .tc := ⟨.hbm, 29, rfl⟩
abbrev main_c_24 : Ref sig .tc := ⟨.hbm, 30, rfl⟩
abbrev main_c_25 : Ref sig .tc := ⟨.hbm, 31, rfl⟩
abbrev main_v0 : Ref sig .tc := ⟨.hbm, 32, rfl⟩
abbrev main_cst : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_cst_26 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_cst_27 : Ref sig .tc := ⟨.hbm, 41, rfl⟩
abbrev main_v7 : Ref sig .tc := ⟨.hbm, 42, rfl⟩
abbrev main_cst_28 : Ref sig .tc := ⟨.hbm, 43, rfl⟩
abbrev main_v8 : Ref sig .tc := ⟨.hbm, 44, rfl⟩
abbrev main_cst_29 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_30 : Ref sig .tc := ⟨.hbm, 49, rfl⟩
abbrev main_v12 : Ref sig .tc := ⟨.hbm, 50, rfl⟩
abbrev main_v13 : Ref sig .tc := ⟨.hbm, 51, rfl⟩
abbrev main_cst_31 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_32 : Ref sig .tc := ⟨.hbm, 58, rfl⟩
abbrev main_v19 : Ref sig .tc := ⟨.hbm, 59, rfl⟩
abbrev main_v20 : Ref sig .tc := ⟨.hbm, 60, rfl⟩
abbrev main_cst_33 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst_34 : Ref sig .tc := ⟨.hbm, 69, rfl⟩
abbrev main_v28 : Ref sig .tc := ⟨.hbm, 70, rfl⟩
abbrev main_v29 : Ref sig .tc := ⟨.hbm, 71, rfl⟩
abbrev main_cst_35 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_36 : Ref sig .tc := ⟨.hbm, 77, rfl⟩
abbrev main_v34 : Ref sig .tc := ⟨.hbm, 78, rfl⟩
abbrev main_v35 : Ref sig .tc := ⟨.hbm, 79, rfl⟩
abbrev main_cst_37 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_38 : Ref sig .tc := ⟨.hbm, 85, rfl⟩
abbrev main_v40 : Ref sig .tc := ⟨.hbm, 86, rfl⟩
abbrev main_v41 : Ref sig .tc := ⟨.hbm, 87, rfl⟩
abbrev main_cst_39 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_cst_40 : Ref sig .tc := ⟨.hbm, 93, rfl⟩
abbrev main_v46 : Ref sig .tc := ⟨.hbm, 94, rfl⟩
abbrev main_v47 : Ref sig .tc := ⟨.hbm, 95, rfl⟩
abbrev main_cst_41 : Ref sig .tc := ⟨.hbm, 96, rfl⟩
abbrev main_v48 : Ref sig .tc := ⟨.hbm, 97, rfl⟩
abbrev main_v49 : Ref sig .tc := ⟨.hbm, 98, rfl⟩
abbrev main_cst_42 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_c_43 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_c_44 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_c_45 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_c_46 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_c_47 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_c_48 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_c_49 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_c_50 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_c_51 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_c_52 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_c_53 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_c_54 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_c_55 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_c_56 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_c_57 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_c_58 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_c_59 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_c_60 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_cst_61 : Ref sig .tc := ⟨.hbm, 231, rfl⟩
abbrev main_v163 : Ref sig .tc := ⟨.hbm, 232, rfl⟩
abbrev main_v164 : Ref sig .tc := ⟨.hbm, 233, rfl⟩
abbrev main_cst_62 : Ref sig .tc := ⟨.hbm, 234, rfl⟩
abbrev main_v165 : Ref sig .tc := ⟨.hbm, 235, rfl⟩
abbrev main_v166 : Ref sig .tc := ⟨.hbm, 236, rfl⟩
abbrev main_cst_63 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_call0_cst : Ref sig .tc := ⟨.hbm, 247, rfl⟩
abbrev main_call0_v0 : Ref sig .tc := ⟨.hbm, 248, rfl⟩
abbrev main_call0_v1 : Ref sig .tc := ⟨.hbm, 249, rfl⟩
abbrev main_call0_v2 : Ref sig .tc := ⟨.hbm, 250, rfl⟩
abbrev main_call0_c : Ref sig .tc := ⟨.hbm, 251, rfl⟩
abbrev main_call0_v3 : Ref sig .tc := ⟨.hbm, 252, rfl⟩
abbrev main_call0_v4 : Ref sig .tc := ⟨.hbm, 253, rfl⟩
abbrev main_call0_v5 : Ref sig .tc := ⟨.hbm, 254, rfl⟩
abbrev main_call0_v6 : Ref sig .tc := ⟨.hbm, 255, rfl⟩
abbrev main_call0_cst_0 : Ref sig .tc := ⟨.hbm, 256, rfl⟩
abbrev main_call0_call0_v0 : Ref sig .tc := ⟨.hbm, 257, rfl⟩
abbrev main_call0_call0_v1 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_call1_cst : Ref sig .tc := ⟨.hbm, 285, rfl⟩
abbrev main_call1_v0 : Ref sig .tc := ⟨.hbm, 286, rfl⟩
abbrev main_call1_v1 : Ref sig .tc := ⟨.hbm, 287, rfl⟩
abbrev main_call1_v2 : Ref sig .tc := ⟨.hbm, 288, rfl⟩
abbrev main_call1_c : Ref sig .tc := ⟨.hbm, 289, rfl⟩
abbrev main_call1_v3 : Ref sig .tc := ⟨.hbm, 290, rfl⟩
abbrev main_call1_v4 : Ref sig .tc := ⟨.hbm, 291, rfl⟩
abbrev main_call1_v5 : Ref sig .tc := ⟨.hbm, 292, rfl⟩
abbrev main_call1_v6 : Ref sig .tc := ⟨.hbm, 293, rfl⟩
abbrev main_call1_cst_0 : Ref sig .tc := ⟨.hbm, 294, rfl⟩
abbrev main_call1_call0_v0 : Ref sig .tc := ⟨.hbm, 295, rfl⟩
abbrev main_call1_call0_v1 : Ref sig .tc := ⟨.hbm, 296, rfl⟩
abbrev main_v202 : Ref sig .tc := ⟨.hbm, 297, rfl⟩
abbrev main_v203 : Ref sig .tc := ⟨.hbm, 298, rfl⟩
abbrev main_v204 : Ref sig .tc := ⟨.hbm, 299, rfl⟩
abbrev main_v205 : Ref sig .tc := ⟨.hbm, 300, rfl⟩
abbrev main_v206 : Ref sig .tc := ⟨.hbm, 301, rfl⟩
abbrev main_call2_cst : Ref sig .tc := ⟨.hbm, 302, rfl⟩
abbrev main_call2_v0 : Ref sig .tc := ⟨.hbm, 303, rfl⟩
abbrev main_call2_v1 : Ref sig .tc := ⟨.hbm, 304, rfl⟩
abbrev main_call2_v2 : Ref sig .tc := ⟨.hbm, 305, rfl⟩
abbrev main_call2_c : Ref sig .tc := ⟨.hbm, 306, rfl⟩
abbrev main_call2_v3 : Ref sig .tc := ⟨.hbm, 307, rfl⟩
abbrev main_call2_v4 : Ref sig .tc := ⟨.hbm, 308, rfl⟩
abbrev main_call2_v5 : Ref sig .tc := ⟨.hbm, 309, rfl⟩
abbrev main_call2_v6 : Ref sig .tc := ⟨.hbm, 310, rfl⟩
abbrev main_call2_cst_0 : Ref sig .tc := ⟨.hbm, 311, rfl⟩
abbrev main_call2_call0_v0 : Ref sig .tc := ⟨.hbm, 312, rfl⟩
abbrev main_call2_call0_v1 : Ref sig .tc := ⟨.hbm, 313, rfl⟩
abbrev main_v207 : Ref sig .tc := ⟨.hbm, 314, rfl⟩
abbrev main_call3_v0 : Ref sig .tc := ⟨.hbm, 315, rfl⟩
abbrev main_call3_v1 : Ref sig .tc := ⟨.hbm, 316, rfl⟩
abbrev main_call3_v2 : Ref sig .tc := ⟨.hbm, 317, rfl⟩
abbrev main_v208 : Ref sig .tc := ⟨.hbm, 318, rfl⟩

abbrev nD : Nat := 1
abbrev τ : Topo := Topo.v7x

variable {F : FTy → Type} [FloatOps F]

class Facts₀ : Prop where
  shapeCasts_S4096_S64x64 : S4096.ShapeCasts S64x64
  bcast_S_S64x64 : S_.BroadcastsInDim S64x64 (![] : Fin 0 → Fin S64x64.rank)
  reducesTo_S64x64_S_d0_1 : S64x64.ReducesTo [0, 1] S_
  h_S_ : 0 < S_.numel
  transposes_S64x64_S64x64_1_0 : S64x64.Transposes [1, 0] S64x64
  shapeCasts_S64x64_S4096 : S64x64.ShapeCasts S4096
  bcast_S_S64 : S_.BroadcastsInDim S64 (![] : Fin 0 → Fin S64.rank)
  shapeCasts_S64_S1x64 : S64.ShapeCasts S1x64
  bcast_S1x64_S64x64_0_1 : S1x64.BroadcastsInDim S64x64 (![0, 1] : Fin 2 → Fin S64x64.rank)
  bcast_S_S4096 : S_.BroadcastsInDim S4096 (![] : Fin 0 → Fin S4096.rank)
  bcast_S_S4096x4096 : S_.BroadcastsInDim S4096x4096 (![] : Fin 0 → Fin S4096x4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  slices_S4096_S4032_0 : S4096.Slices ![0] S4032
  bcast_S_S4032 : S_.BroadcastsInDim S4032 (![] : Fin 0 → Fin S4032.rank)
  bcast_S4032_S4032x1_0 : S4032.BroadcastsInDim S4032x1 (![0] : Fin 1 → Fin S4032x1.rank)
  concatenates_S4032x1_S4032x1_S4032x2_d1 : Shape.Concatenates [S4032x1, S4032x1] S4032x2 1
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  pads_S4096_S4096_000 : S4096.Pads (![0] : Fin 1 → Nat) ![0] ![0] S4096
  bcast_S4096x1_S4096x4096_0_1 : S4096x1.BroadcastsInDim S4096x4096 (![0, 1] : Fin 2 → Fin S4096x4096.rank)
  concatenates_S4096x4096_S4096x4096_S4096x4096_S4096x12288_d1 : Shape.Concatenates [S4096x4096, S4096x4096, S4096x4096] S4096x12288 1
  concatenates_S4096x12288_S4096x12288_S4096x12288_S12288x12288_d0 : Shape.Concatenates [S4096x12288, S4096x12288, S4096x12288] S12288x12288 0
  scatter_S4096x4096_S4096x2_S4096_n_01_01_1_wf : ScatterDims.WF S4096x4096 S4096x2 S4096 [] [0, 1] [0, 1] 1
  scatter_S4096x4096_S4032x2_S4032_n_01_01_1_wf : ScatterDims.WF S4096x4096 S4032x2 S4032 [] [0, 1] [0, 1] 1
  gather_S4096_S4032x1_S4032_n_0_n_n_0_1_1_wf : GatherDims.WF S4096 S4032x1 S4032 [] [0] [] [0] [] 1 ![1]
  dot_S4096x4096_S4096x4096_S4096x4096_1_0_0_1_n_n_wf : DotDims.WF S4096x4096 S4096x4096 S4096x4096 [1] [0] [0] [1] [] []

variable [Facts₀]

def scatter_S4096x4096_S4096x2_S4096_n_01_01_1 : ScatterDims S4096x4096 S4096x2 S4096 where
  updateWindowDims := []
  insertedWindowDims := [0, 1]
  scatterDimsToOperandDims := [0, 1]
  indexVectorDim := 1
  wf := scatter_S4096x4096_S4096x2_S4096_n_01_01_1_wf
def scatter_S4096x4096_S4032x2_S4032_n_01_01_1 : ScatterDims S4096x4096 S4032x2 S4032 where
  updateWindowDims := []
  insertedWindowDims := [0, 1]
  scatterDimsToOperandDims := [0, 1]
  indexVectorDim := 1
  wf := scatter_S4096x4096_S4032x2_S4032_n_01_01_1_wf
def gather_S4096_S4032x1_S4032_n_0_n_n_0_1_1 : GatherDims S4096 S4032x1 S4032 where
  offsetDims := []
  collapsedSliceDims := [0]
  operandBatchingDims := []
  startIndicesBatchingDims := []
  startIndexMap := [0]
  indexVectorDim := 1
  sliceSizes := ![1]
  wf := gather_S4096_S4032x1_S4032_n_0_n_n_0_1_1_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.FrmBaseK.lean ====
/-
  The frame of `Kernel`'s @main, part one: the program up to its one region.

  @main is four stretches of host operations (the row-indexed coefficient table: fifteen columns of
  4096 entries, stacked and padded to 128 lanes) followed by one region over a 9 × 8 × 4 grid. Here:
  the contents `V` of every buffer when the region is entered (the fold of the four stretches over the
  launch memory), that the five argument arrays are among the buffers no host operation writes, the
  block of a window at a grid point read off `V`, that the table's staging buffer holds the whole table
  at every point (it is fetched once and its block index never moves), and the frame claim's post read
  off a run of the region to the library's frame post. Everything is stated at any float instance.
-/
import proofs.«134289_j17918603559171_2_alg».proof.Proof.Gen.Kernel.Launch
import proofs.«134289_j17918603559171_2_alg».proof.Proof.Gen.Kernel.Skeleton
import proofs.«134289_j17918603559171_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the four stretches of host operations folded over
    the launch memory. -/
abbrev V (c : Dev nD) (b : Ref sig .tc) : Buf (Elt F) ((c : Thread nD τ).loc b) :=
  StableHlo.after (List.flatten [hostOps0, hostOps0_1, hostOps0_2, hostOps0_3]) (fun b => m (c, b)) b

set_option maxHeartbeats 4000000 in
theorem hostOps0_fresh : (hostOps0 : List (HloOp τ sig (Elt F))).Forall fun op => op.fresh = ∅ := by
  simp only [List.Forall]; repeat' constructor
set_option maxHeartbeats 4000000 in
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
set_option maxHeartbeats 4000000 in
theorem hostOps0_3_fresh : (hostOps0_3 : List (HloOp τ sig (Elt F))).Forall fun op => op.fresh = ∅ := by
  simp only [List.Forall]; repeat' constructor

/-- @main is the four stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

set_option maxHeartbeats 4000000 in
/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide)))
set_option maxHeartbeats 4000000 in
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide)))
set_option maxHeartbeats 4000000 in
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide)))
set_option maxHeartbeats 4000000 in
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide)))
set_option maxHeartbeats 4000000 in
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The table's staging buffer holds the whole table at every point, fetched there or not: its block
    index is constant over the grid. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- For any proof data whose arrays are the region-entry contents, a run to the library's frame post
    leaves the five argument arrays as launched: none of them is an array of the pipeline, and no host
    operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

end Cert.Kernel.Frm

end
-- ==== Proof.FrmRunsK.lean ====
/-
  The frame of `Kernel`, part two: the kernel body run once per control case.

  The body is eight conditionals on the grid coordinates alone. Exactly one holds at a grid point
  (`cases_at`, decided over the 288 points): either the output tile lies off every band or in an
  always-zero block and the body stores zeros, or the tile belongs to one of the seven banded blocks
  and the body loads the 512 rows of the coefficient table that the tile's rows name, forms the sum
  of the selected columns, and stores it. In every case the whole 512 × 1024 output buffer is
  overwritten by one store; the run of a case records that store as the piece the buffer ends with.
-/
import proofs.«134289_j17918603559171_2_alg».proof.Proof.FrmBaseK

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of the output window, through which its contents are stated. -/
abbrev VO : View sig .tc .vmem S512x1024 .f32 := (Memref.whole cc0_stg1_0 : Memref sig .tc .vmem S512x1024 .f32).view
/-- Each window's current staging memref at point `t`, as the pipeline passes it, and its wholeness. -/
abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)

set_option maxHeartbeats 4000000 in
/-- Case Z — the tile is off every band or in an always-zero block: a zero store: the piece the output buffer ends with, and the body's run to it. -/
noncomputable def runZ (c : Dev nD) (i : grid0.Coords) (arg3 : Memref sig .tc .vmem S4096x128 .f32) (harg3 : arg3.IsWhole) (arg4 : Memref sig .tc .vmem S512x1024 .f32) (harg4 : arg4.IsWhole)
    (h1 : k0_cond1 i = 1#1) (h2 : ¬k0_cond2 i = 1#1) (h3 : ¬k0_cond3 i = 1#1) (h4 : ¬k0_cond4 i = 1#1) (h5 : ¬k0_cond5 i = 1#1) (h6 : ¬k0_cond6 i = 1#1) (h7 : ¬k0_cond7 i = 1#1) (h8 : ¬k0_cond8 i = 1#1)
    (x0 : Vec F S4096x128 .f32) :
    { L : List (View.Piece (Elt F) S512x1024 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L)) -∗ K ⟨⟩))
          ⊢ wp frame (wpE (defs₀ (F := F)) Variants.none c none) E (cc0__euler_matrix_kernel i arg3 harg3 arg4 harg4) K } := by
  refine ⟨?_, fun E K => ?run⟩
  case run =>
    simp only [cc0__euler_matrix_kernel_eq_skeleton]; unfold cc0__euler_matrix_kernel_skel
    simp only [k0_part2_eq_skeleton, k0_part1_eq_skeleton]
    unfold owns
    iintro ⟨⟨%f0, %hf0, H0⟩, ⟨%d1, %f1, -, H1⟩, Hk⟩
    obtain rfl := harg3.eq_unread hf0
    sl_exec (disch := first | exact h1 | exact h2 | exact h3 | exact h4 | exact h5 | exact h6 | exact h7 | exact h8)
    sl_step
    iapply Hk
    isplitl [H0]
    · iexists _; isplitr; · ipureintro; exact harg3.read_unread _
      iexact H0
    iexists _; iexact H1

set_option maxHeartbeats 4000000 in
/-- Case A — block 0 (five diagonals): the piece the output buffer ends with, and the body's run to it. -/
noncomputable def runA (c : Dev nD) (i : grid0.Coords) (arg3 : Memref sig .tc .vmem S4096x128 .f32) (harg3 : arg3.IsWhole) (arg4 : Memref sig .tc .vmem S512x1024 .f32) (harg4 : arg4.IsWhole)
    (h1 : ¬k0_cond1 i = 1#1) (h2 : k0_cond2 i = 1#1) (h3 : ¬k0_cond3 i = 1#1) (h4 : ¬k0_cond4 i = 1#1) (h5 : ¬k0_cond5 i = 1#1) (h6 : ¬k0_cond6 i = 1#1) (h7 : ¬k0_cond7 i = 1#1) (h8 : ¬k0_cond8 i = 1#1)
    (x0 : Vec F S4096x128 .f32) :
    { L : List (View.Piece (Elt F) S512x1024 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L)) -∗ K ⟨⟩))
          ⊢ wp frame (wpE (defs₀ (F := F)) Variants.none c none) E (cc0__euler_matrix_kernel i arg3 harg3 arg4 harg4) K } := by
  refine ⟨?_, fun E K => ?run⟩
  case run =>
    simp only [cc0__euler_matrix_kernel_eq_skeleton]; unfold cc0__euler_matrix_kernel_skel
    simp only [k0_part2_eq_skeleton, k0_part1_eq_skeleton]
    unfold owns
    iintro ⟨⟨%f0, %hf0, H0⟩, ⟨%d1, %f1, -, H1⟩, Hk⟩
    obtain rfl := harg3.eq_unread hf0
    sl_exec (disch := first | exact h1 | exact h2 | exact h3 | exact h4 | exact h5 | exact h6 | exact h7 | exact h8)
    sl_step
    iapply Hk
    isplitl [H0]
    · iexists _; isplitr; · ipureintro; exact harg3.read_unread _
      iexact H0
    iexists _; iexact H1

set_option maxHeartbeats 4000000 in
/-- Case B — block 1 (two diagonals): the piece the output buffer ends with, and the body's run to it. -/
noncomputable def runB (c : Dev nD) (i : grid0.Coords) (arg3 : Memref sig .tc .vmem S4096x128 .f32) (harg3 : arg3.IsWhole) (arg4 : Memref sig .tc .vmem S512x1024 .f32) (harg4 : arg4.IsWhole)
    (h1 : ¬k0_cond1 i = 1#1) (h2 : ¬k0_cond2 i = 1#1) (h3 : k0_cond3 i = 1#1) (h4 : ¬k0_cond4 i = 1#1) (h5 : ¬k0_cond5 i = 1#1) (h6 : ¬k0_cond6 i = 1#1) (h7 : ¬k0_cond7 i = 1#1) (h8 : ¬k0_cond8 i = 1#1)
    (x0 : Vec F S4096x128 .f32) :
    { L : List (View.Piece (Elt F) S512x1024 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L)) -∗ K ⟨⟩))
          ⊢ wp frame (wpE (defs₀ (F := F)) Variants.none c none) E (cc0__euler_matrix_kernel i arg3 harg3 arg4 harg4) K } := by
  refine ⟨?_, fun E K => ?run⟩
  case run =>
    simp only [cc0__euler_matrix_kernel_eq_skeleton]; unfold cc0__euler_matrix_kernel_skel
    simp only [k0_part2_eq_skeleton, k0_part1_eq_skeleton]
    unfold owns
    iintro ⟨⟨%f0, %hf0, H0⟩, ⟨%d1, %f1, -, H1⟩, Hk⟩
    obtain rfl := harg3.eq_unread hf0
    sl_exec (disch := first | exact h1 | exact h2 | exact h3 | exact h4 | exact h5 | exact h6 | exact h7 | exact h8)
    sl_step
    iapply Hk
    isplitl [H0]
    · iexists _; isplitr; · ipureintro; exact harg3.read_unread _
      iexact H0
    iexists _; iexact H1

set_option maxHeartbeats 4000000 in
/-- Case C — block 2 (two diagonals): the piece the output buffer ends with, and the body's run to it. -/
noncomputable def runC (c : Dev nD) (i : grid0.Coords) (arg3 : Memref sig .tc .vmem S4096x128 .f32) (harg3 : arg3.IsWhole) (arg4 : Memref sig .tc .vmem S512x1024 .f32) (harg4 : arg4.IsWhole)
    (h1 : ¬k0_cond1 i = 1#1) (h2 : ¬k0_cond2 i = 1#1) (h3 : ¬k0_cond3 i = 1#1) (h4 : k0_cond4 i = 1#1) (h5 : ¬k0_cond5 i = 1#1) (h6 : ¬k0_cond6 i = 1#1) (h7 : ¬k0_cond7 i = 1#1) (h8 : ¬k0_cond8 i = 1#1)
    (x0 : Vec F S4096x128 .f32) :
    { L : List (View.Piece (Elt F) S512x1024 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L)) -∗ K ⟨⟩))
          ⊢ wp frame (wpE (defs₀ (F := F)) Variants.none c none) E (cc0__euler_matrix_kernel i arg3 harg3 arg4 harg4) K } := by
  refine ⟨?_, fun E K => ?run⟩
  case run =>
    simp only [cc0__euler_matrix_kernel_eq_skeleton]; unfold cc0__euler_matrix_kernel_skel
    simp only [k0_part2_eq_skeleton, k0_part1_eq_skeleton]
    unfold owns
    iintro ⟨⟨%f0, %hf0, H0⟩, ⟨%d1, %f1, -, H1⟩, Hk⟩
    obtain rfl := harg3.eq_unread hf0
    sl_exec (disch := first | exact h1 | exact h2 | exact h3 | exact h4 | exact h5 | exact h6 | exact h7 | exact h8)
    sl_step
    iapply Hk
    isplitl [H0]
    · iexists _; isplitr; · ipureintro; exact harg3.read_unread _
      iexact H0
    iexists _; iexact H1

set_option maxHeartbeats 4000000 in
/-- Case D — block 3 (two diagonals): the piece the output buffer ends with, and the body's run to it. -/
noncomputable def runD (c : Dev nD) (i : grid0.Coords) (arg3 : Memref sig .tc .vmem S4096x128 .f32) (harg3 : arg3.IsWhole) (arg4 : Memref sig .tc .vmem S512x1024 .f32) (harg4 : arg4.IsWhole)
    (h1 : ¬k0_cond1 i = 1#1) (h2 : ¬k0_cond2 i = 1#1) (h3 : ¬k0_cond3 i = 1#1) (h4 : ¬k0_cond4 i = 1#1) (h5 : k0_cond5 i = 1#1) (h6 : ¬k0_cond6 i = 1#1) (h7 : ¬k0_cond7 i = 1#1) (h8 : ¬k0_cond8 i = 1#1)
    (x0 : Vec F S4096x128 .f32) :
    { L : List (View.Piece (Elt F) S512x1024 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L)) -∗ K ⟨⟩))
          ⊢ wp frame (wpE (defs₀ (F := F)) Variants.none c none) E (cc0__euler_matrix_kernel i arg3 harg3 arg4 harg4) K } := by
  refine ⟨?_, fun E K => ?run⟩
  case run =>
    simp only [cc0__euler_matrix_kernel_eq_skeleton]; unfold cc0__euler_matrix_kernel_skel
    simp only [k0_part2_eq_skeleton, k0_part1_eq_skeleton]
    unfold owns
    iintro ⟨⟨%f0, %hf0, H0⟩, ⟨%d1, %f1, -, H1⟩, Hk⟩
    obtain rfl := harg3.eq_unread hf0
    sl_exec (disch := first | exact h1 | exact h2 | exact h3 | exact h4 | exact h5 | exact h6 | exact h7 | exact h8)
    sl_step
    iapply Hk
    isplitl [H0]
    · iexists _; isplitr; · ipureintro; exact harg3.read_unread _
      iexact H0
    iexists _; iexact H1

set_option maxHeartbeats 4000000 in
/-- Case E — block 4 (one diagonal): the piece the output buffer ends with, and the body's run to it. -/
noncomputable def runE (c : Dev nD) (i : grid0.Coords) (arg3 : Memref sig .tc .vmem S4096x128 .f32) (harg3 : arg3.IsWhole) (arg4 : Memref sig .tc .vmem S512x1024 .f32) (harg4 : arg4.IsWhole)
    (h1 : ¬k0_cond1 i = 1#1) (h2 : ¬k0_cond2 i = 1#1) (h3 : ¬k0_cond3 i = 1#1) (h4 : ¬k0_cond4 i = 1#1) (h5 : ¬k0_cond5 i = 1#1) (h6 : k0_cond6 i = 1#1) (h7 : ¬k0_cond7 i = 1#1) (h8 : ¬k0_cond8 i = 1#1)
    (x0 : Vec F S4096x128 .f32) :
    { L : List (View.Piece (Elt F) S512x1024 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L)) -∗ K ⟨⟩))
          ⊢ wp frame (wpE (defs₀ (F := F)) Variants.none c none) E (cc0__euler_matrix_kernel i arg3 harg3 arg4 harg4) K } := by
  refine ⟨?_, fun E K => ?run⟩
  case run =>
    simp only [cc0__euler_matrix_kernel_eq_skeleton]; unfold cc0__euler_matrix_kernel_skel
    simp only [k0_part2_eq_skeleton, k0_part1_eq_skeleton]
    unfold owns
    iintro ⟨⟨%f0, %hf0, H0⟩, ⟨%d1, %f1, -, H1⟩, Hk⟩
    obtain rfl := harg3.eq_unread hf0
    sl_exec (disch := first | exact h1 | exact h2 | exact h3 | exact h4 | exact h5 | exact h6 | exact h7 | exact h8)
    sl_step
    iapply Hk
    isplitl [H0]
    · iexists _; isplitr; · ipureintro; exact harg3.read_unread _
      iexact H0
    iexists _; iexact H1

set_option maxHeartbeats 4000000 in
/-- Case G — block 6 (two diagonals): the piece the output buffer ends with, and the body's run to it. -/
noncomputable def runG (c : Dev nD) (i : grid0.Coords) (arg3 : Memref sig .tc .vmem S4096x128 .f32) (harg3 : arg3.IsWhole) (arg4 : Memref sig .tc .vmem S512x1024 .f32) (harg4 : arg4.IsWhole)
    (h1 : ¬k0_cond1 i = 1#1) (h2 : ¬k0_cond2 i = 1#1) (h3 : ¬k0_cond3 i = 1#1) (h4 : ¬k0_cond4 i = 1#1) (h5 : ¬k0_cond5 i = 1#1) (h6 : ¬k0_cond6 i = 1#1) (h7 : k0_cond7 i = 1#1) (h8 : ¬k0_cond8 i = 1#1)
    (x0 : Vec F S4096x128 .f32) :
    { L : List (View.Piece (Elt F) S512x1024 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L)) -∗ K ⟨⟩))
          ⊢ wp frame (wpE (defs₀ (F := F)) Variants.none c none) E (cc0__euler_matrix_kernel i arg3 harg3 arg4 harg4) K } := by
  refine ⟨?_, fun E K => ?run⟩
  case run =>
    simp only [cc0__euler_matrix_kernel_eq_skeleton]; unfold cc0__euler_matrix_kernel_skel
    simp only [k0_part2_eq_skeleton, k0_part1_eq_skeleton]
    unfold owns
    iintro ⟨⟨%f0, %hf0, H0⟩, ⟨%d1, %f1, -, H1⟩, Hk⟩
    obtain rfl := harg3.eq_unread hf0
    sl_exec (disch := first | exact h1 | exact h2 | exact h3 | exact h4 | exact h5 | exact h6 | exact h7 | exact h8)
    sl_step
    iapply Hk
    isplitl [H0]
    · iexists _; isplitr; · ipureintro; exact harg3.read_unread _
      iexact H0
    iexists _; iexact H1

set_option maxHeartbeats 4000000 in
/-- Case I — block 8 (one diagonal): the piece the output buffer ends with, and the body's run to it. -/
noncomputable def runI (c : Dev nD) (i : grid0.Coords) (arg3 : Memref sig .tc .vmem S4096x128 .f32) (harg3 : arg3.IsWhole) (arg4 : Memref sig .tc .vmem S512x1024 .f32) (harg4 : arg4.IsWhole)
    (h1 : ¬k0_cond1 i = 1#1) (h2 : ¬k0_cond2 i = 1#1) (h3 : ¬k0_cond3 i = 1#1) (h4 : ¬k0_cond4 i = 1#1) (h5 : ¬k0_cond5 i = 1#1) (h6 : ¬k0_cond6 i = 1#1) (h7 : ¬k0_cond7 i = 1#1) (h8 : k0_cond8 i = 1#1)
    (x0 : Vec F S4096x128 .f32) :
    { L : List (View.Piece (Elt F) S512x1024 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L)) -∗ K ⟨⟩))
          ⊢ wp frame (wpE (defs₀ (F := F)) Variants.none c none) E (cc0__euler_matrix_kernel i arg3 harg3 arg4 harg4) K } := by
  refine ⟨?_, fun E K => ?run⟩
  case run =>
    simp only [cc0__euler_matrix_kernel_eq_skeleton]; unfold cc0__euler_matrix_kernel_skel
    simp only [k0_part2_eq_skeleton, k0_part1_eq_skeleton]
    unfold owns
    iintro ⟨⟨%f0, %hf0, H0⟩, ⟨%d1, %f1, -, H1⟩, Hk⟩
    obtain rfl := harg3.eq_unread hf0
    sl_exec (disch := first | exact h1 | exact h2 | exact h3 | exact h4 | exact h5 | exact h6 | exact h7 | exact h8)
    sl_step
    iapply Hk
    isplitl [H0]
    · iexists _; isplitr; · ipureintro; exact harg3.read_unread _
      iexact H0
    iexists _; iexact H1

end Cert.Kernel.Frm

end
-- ==== Proof.FrmK.lean ====
/-
  The frame of `Kernel`, part three: the proof data of the region, the body obligation, the run of
  @main and the frame.

  At a grid point exactly one of the body's eight conditions holds; the output buffer then ends at the
  one piece that case's run stores, read back over anything (the piece covers the buffer). That is
  what the region writes back at the point (`outsAt`); the table's buffer is left as it was. With these
  as the proof data the library's frame run applies, and its post read at the five argument arrays
  (which no window stages and no host operation writes) is the frame.
-/
import proofs.«134289_j17918603559171_2_alg».proof.Proof.FrmRunsK

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's eight conditions at a grid point -/

/-- The eight conditions at point `t`, as words: the zero store, then blocks 0, 1, 2, 3, 4, 6, 8. -/
def cw (t : Fin cfg0.N) : Fin 8 → BitVec 1 :=
  ![k0_cond1 (grid0.coords t), k0_cond2 (grid0.coords t), k0_cond3 (grid0.coords t), k0_cond4 (grid0.coords t),
    k0_cond5 (grid0.coords t), k0_cond6 (grid0.coords t), k0_cond7 (grid0.coords t), k0_cond8 (grid0.coords t)]

/-- No two of them hold at one point — decided over the grid. -/
theorem excl : ∀ t : Fin cfg0.N, ∀ a b : Fin 8, a ≠ b → cw t a = 1#1 → ¬cw t b = 1#1 :=
  (by decide +kernel : ∀ t : Fin grid0.N, ∀ a b : Fin 8, a ≠ b → cw t a = 1#1 → ¬cw t b = 1#1)

/-- One of them holds at every point — decided over the grid. -/
theorem exh : ∀ t : Fin cfg0.N, cw t 0 = 1#1 ∨ cw t 1 = 1#1 ∨ cw t 2 = 1#1 ∨ cw t 3 = 1#1 ∨ cw t 4 = 1#1 ∨ cw t 5 = 1#1 ∨ cw t 6 = 1#1 ∨ cw t 7 = 1#1 :=
  (by decide +kernel : ∀ t : Fin grid0.N, cw t 0 = 1#1 ∨ cw t 1 = 1#1 ∨ cw t 2 = 1#1 ∨ cw t 3 = 1#1 ∨ cw t 4 = 1#1 ∨ cw t 5 = 1#1 ∨ cw t 6 = 1#1 ∨ cw t 7 = 1#1)

/-- So the output window is never idle: at every point the body stores into it — decided over the grid. -/
theorem idle1_false : ∀ t : Fin cfg0.N, cfg0.idle 1 (cfg0.grid.coords t) = false :=
  (by decide +kernel : ∀ t : Fin grid0.N, idle0 1 (grid0.coords t) = false)

/-! ## What each case leaves in the output buffer -/

/-- Case Z's piece covers the output buffer. -/
theorem coverZ (c : Dev nD) (t : Fin cfg0.N) (h : cw t 0 = 1#1) (x0 : Vec F S4096x128 .f32) (y : S512x1024.Idx) :
    ∃ pc ∈ (runZ (F := F) c (grid0.coords t) (ms0 t) (hs0 t) (ms1 t) (hs1 t) h (excl t 0 1 (by decide) h) (excl t 0 2 (by decide) h) (excl t 0 3 (by decide) h) (excl t 0 4 (by decide) h) (excl t 0 5 (by decide) h) (excl t 0 6 (by decide) h) (excl t 0 7 (by decide) h) x0).1, y ∈ pc.1.set :=
  View.cover_of_tiledL (runZ (F := F) c (grid0.coords t) (ms0 t) (hs0 t) (ms1 t) (hs1 t) h (excl t 0 1 (by decide) h) (excl t 0 2 (by decide) h) (excl t 0 3 (by decide) h) (excl t 0 4 (by decide) h) (excl t 0 5 (by decide) h) (excl t 0 6 (by decide) h) (excl t 0 7 (by decide) h) x0).1 S512x1024.size (by sl_kernel_rfl) y

/-- What case Z leaves in the output buffer: its piece read back. -/
def outZ (c : Dev nD) (t : Fin cfg0.N) (h : cw t 0 = 1#1) (x0 : Vec F S4096x128 .f32) : Vec F S512x1024 .f32 :=
  VO.read (Elt F) (VO.writes (Elt F) VO.junk (runZ (F := F) c (grid0.coords t) (ms0 t) (hs0 t) (ms1 t) (hs1 t) h (excl t 0 1 (by decide) h) (excl t 0 2 (by decide) h) (excl t 0 3 (by decide) h) (excl t 0 4 (by decide) h) (excl t 0 5 (by decide) h) (excl t 0 6 (by decide) h) (excl t 0 7 (by decide) h) x0).1)

/-- Case A's piece covers the output buffer. -/
theorem coverA (c : Dev nD) (t : Fin cfg0.N) (h : cw t 1 = 1#1) (x0 : Vec F S4096x128 .f32) (y : S512x1024.Idx) :
    ∃ pc ∈ (runA (F := F) c (grid0.coords t) (ms0 t) (hs0 t) (ms1 t) (hs1 t) (excl t 1 0 (by decide) h) h (excl t 1 2 (by decide) h) (excl t 1 3 (by decide) h) (excl t 1 4 (by decide) h) (excl t 1 5 (by decide) h) (excl t 1 6 (by decide) h) (excl t 1 7 (by decide) h) x0).1, y ∈ pc.1.set :=
  View.cover_of_tiledL (runA (F := F) c (grid0.coords t) (ms0 t) (hs0 t) (ms1 t) (hs1 t) (excl t 1 0 (by decide) h) h (excl t 1 2 (by decide) h) (excl t 1 3 (by decide) h) (excl t 1 4 (by decide) h) (excl t 1 5 (by decide) h) (excl t 1 6 (by decide) h) (excl t 1 7 (by decide) h) x0).1 S512x1024.size (by sl_kernel_rfl) y

/-- What case A leaves in the output buffer: its piece read back. -/
def outA (c : Dev nD) (t : Fin cfg0.N) (h : cw t 1 = 1#1) (x0 : Vec F S4096x128 .f32) : Vec F S512x1024 .f32 :=
  VO.read (Elt F) (VO.writes (Elt F) VO.junk (runA (F := F) c (grid0.coords t) (ms0 t) (hs0 t) (ms1 t) (hs1 t) (excl t 1 0 (by decide) h) h (excl t 1 2 (by decide) h) (excl t 1 3 (by decide) h) (excl t 1 4 (by decide) h) (excl t 1 5 (by decide) h) (excl t 1 6 (by decide) h) (excl t 1 7 (by decide) h) x0).1)

/-- Case B's piece covers the output buffer. -/
theorem coverB (c : Dev nD) (t : Fin cfg0.N) (h : cw t 2 = 1#1) (x0 : Vec F S4096x128 .f32) (y : S512x1024.Idx) :
    ∃ pc ∈ (runB (F := F) c (grid0.coords t) (ms0 t) (hs0 t) (ms1 t) (hs1 t) (excl t 2 0 (by decide) h) (excl t 2 1 (by decide) h) h (excl t 2 3 (by decide) h) (excl t 2 4 (by decide) h) (excl t 2 5 (by decide) h) (excl t 2 6 (by decide) h) (excl t 2 7 (by decide) h) x0).1, y ∈ pc.1.set :=
  View.cover_of_tiledL (runB (F := F) c (grid0.coords t) (ms0 t) (hs0 t) (ms1 t) (hs1 t) (excl t 2 0 (by decide) h) (excl t 2 1 (by decide) h) h (excl t 2 3 (by decide) h) (excl t 2 4 (by decide) h) (excl t 2 5 (by decide) h) (excl t 2 6 (by decide) h) (excl t 2 7 (by decide) h) x0).1 S512x1024.size (by sl_kernel_rfl) y

/-- What case B leaves in the output buffer: its piece read back. -/
def outB (c : Dev nD) (t : Fin cfg0.N) (h : cw t 2 = 1#1) (x0 : Vec F S4096x128 .f32) : Vec F S512x1024 .f32 :=
  VO.read (Elt F) (VO.writes (Elt F) VO.junk (runB (F := F) c (grid0.coords t) (ms0 t) (hs0 t) (ms1 t) (hs1 t) (excl t 2 0 (by decide) h) (excl t 2 1 (by decide) h) h (excl t 2 3 (by decide) h) (excl t 2 4 (by decide) h) (excl t 2 5 (by decide) h) (excl t 2 6 (by decide) h) (excl t 2 7 (by decide) h) x0).1)

/-- Case C's piece covers the output buffer. -/
theorem coverC (c : Dev nD) (t : Fin cfg0.N) (h : cw t 3 = 1#1) (x0 : Vec F S4096x128 .f32) (y : S512x1024.Idx) :
    ∃ pc ∈ (runC (F := F) c (grid0.coords t) (ms0 t) (hs0 t) (ms1 t) (hs1 t) (excl t 3 0 (by decide) h) (excl t 3 1 (by decide) h) (excl t 3 2 (by decide) h) h (excl t 3 4 (by decide) h) (excl t 3 5 (by decide) h) (excl t 3 6 (by decide) h) (excl t 3 7 (by decide) h) x0).1, y ∈ pc.1.set :=
  View.cover_of_tiledL (runC (F := F) c (grid0.coords t) (ms0 t) (hs0 t) (ms1 t) (hs1 t) (excl t 3 0 (by decide) h) (excl t 3 1 (by decide) h) (excl t 3 2 (by decide) h) h (excl t 3 4 (by decide) h) (excl t 3 5 (by decide) h) (excl t 3 6 (by decide) h) (excl t 3 7 (by decide) h) x0).1 S512x1024.size (by sl_kernel_rfl) y

/-- What case C leaves in the output buffer: its piece read back. -/
def outC (c : Dev nD) (t : Fin cfg0.N) (h : cw t 3 = 1#1) (x0 : Vec F S4096x128 .f32) : Vec F S512x1024 .f32 :=
  VO.read (Elt F) (VO.writes (Elt F) VO.junk (runC (F := F) c (grid0.coords t) (ms0 t) (hs0 t) (ms1 t) (hs1 t) (excl t 3 0 (by decide) h) (excl t 3 1 (by decide) h) (excl t 3 2 (by decide) h) h (excl t 3 4 (by decide) h) (excl t 3 5 (by decide) h) (excl t 3 6 (by decide) h) (excl t 3 7 (by decide) h) x0).1)

/-- Case D's piece covers the output buffer. -/
theorem coverD (c : Dev nD) (t : Fin cfg0.N) (h : cw t 4 = 1#1) (x0 : Vec F S4096x128 .f32) (y : S512x1024.Idx) :
    ∃ pc ∈ (runD (F := F) c (grid0.coords t) (ms0 t) (hs0 t) (ms1 t) (hs1 t) (excl t 4 0 (by decide) h) (excl t 4 1 (by decide) h) (excl t 4 2 (by decide) h) (excl t 4 3 (by decide) h) h (excl t 4 5 (by decide) h) (excl t 4 6 (by decide) h) (excl t 4 7 (by decide) h) x0).1, y ∈ pc.1.set :=
  View.cover_of_tiledL (runD (F := F) c (grid0.coords t) (ms0 t) (hs0 t) (ms1 t) (hs1 t) (excl t 4 0 (by decide) h) (excl t 4 1 (by decide) h) (excl t 4 2 (by decide) h) (excl t 4 3 (by decide) h) h (excl t 4 5 (by decide) h) (excl t 4 6 (by decide) h) (excl t 4 7 (by decide) h) x0).1 S512x1024.size (by sl_kernel_rfl) y

/-- What case D leaves in the output buffer: its piece read back. -/
def outD (c : Dev nD) (t : Fin cfg0.N) (h : cw t 4 = 1#1) (x0 : Vec F S4096x128 .f32) : Vec F S512x1024 .f32 :=
  VO.read (Elt F) (VO.writes (Elt F) VO.junk (runD (F := F) c (grid0.coords t) (ms0 t) (hs0 t) (ms1 t) (hs1 t) (excl t 4 0 (by decide) h) (excl t 4 1 (by decide) h) (excl t 4 2 (by decide) h) (excl t 4 3 (by decide) h) h (excl t 4 5 (by decide) h) (excl t 4 6 (by decide) h) (excl t 4 7 (by decide) h) x0).1)

/-- Case E's piece covers the output buffer. -/
theorem coverE (c : Dev nD) (t : Fin cfg0.N) (h : cw t 5 = 1#1) (x0 : Vec F S4096x128 .f32) (y : S512x1024.Idx) :
    ∃ pc ∈ (runE (F := F) c (grid0.coords t) (ms0 t) (hs0 t) (ms1 t) (hs1 t) (excl t 5 0 (by decide) h) (excl t 5 1 (by decide) h) (excl t 5 2 (by decide) h) (excl t 5 3 (by decide) h) (excl t 5 4 (by decide) h) h (excl t 5 6 (by decide) h) (excl t 5 7 (by decide) h) x0).1, y ∈ pc.1.set :=
  View.cover_of_tiledL (runE (F := F) c (grid0.coords t) (ms0 t) (hs0 t) (ms1 t) (hs1 t) (excl t 5 0 (by decide) h) (excl t 5 1 (by decide) h) (excl t 5 2 (by decide) h) (excl t 5 3 (by decide) h) (excl t 5 4 (by decide) h) h (excl t 5 6 (by decide) h) (excl t 5 7 (by decide) h) x0).1 S512x1024.size (by sl_kernel_rfl) y

/-- What case E leaves in the output buffer: its piece read back. -/
def outE (c : Dev nD) (t : Fin cfg0.N) (h : cw t 5 = 1#1) (x0 : Vec F S4096x128 .f32) : Vec F S512x1024 .f32 :=
  VO.read (Elt F) (VO.writes (Elt F) VO.junk (runE (F := F) c (grid0.coords t) (ms0 t) (hs0 t) (ms1 t) (hs1 t) (excl t 5 0 (by decide) h) (excl t 5 1 (by decide) h) (excl t 5 2 (by decide) h) (excl t 5 3 (by decide) h) (excl t 5 4 (by decide) h) h (excl t 5 6 (by decide) h) (excl t 5 7 (by decide) h) x0).1)

/-- Case G's piece covers the output buffer. -/
theorem coverG (c : Dev nD) (t : Fin cfg0.N) (h : cw t 6 = 1#1) (x0 : Vec F S4096x128 .f32) (y : S512x1024.Idx) :
    ∃ pc ∈ (runG (F := F) c (grid0.coords t) (ms0 t) (hs0 t) (ms1 t) (hs1 t) (excl t 6 0 (by decide) h) (excl t 6 1 (by decide) h) (excl t 6 2 (by decide) h) (excl t 6 3 (by decide) h) (excl t 6 4 (by decide) h) (excl t 6 5 (by decide) h) h (excl t 6 7 (by decide) h) x0).1, y ∈ pc.1.set :=
  View.cover_of_tiledL (runG (F := F) c (grid0.coords t) (ms0 t) (hs0 t) (ms1 t) (hs1 t) (excl t 6 0 (by decide) h) (excl t 6 1 (by decide) h) (excl t 6 2 (by decide) h) (excl t 6 3 (by decide) h) (excl t 6 4 (by decide) h) (excl t 6 5 (by decide) h) h (excl t 6 7 (by decide) h) x0).1 S512x1024.size (by sl_kernel_rfl) y

/-- What case G leaves in the output buffer: its piece read back. -/
def outG (c : Dev nD) (t : Fin cfg0.N) (h : cw t 6 = 1#1) (x0 : Vec F S4096x128 .f32) : Vec F S512x1024 .f32 :=
  VO.read (Elt F) (VO.writes (Elt F) VO.junk (runG (F := F) c (grid0.coords t) (ms0 t) (hs0 t) (ms1 t) (hs1 t) (excl t 6 0 (by decide) h) (excl t 6 1 (by decide) h) (excl t 6 2 (by decide) h) (excl t 6 3 (by decide) h) (excl t 6 4 (by decide) h) (excl t 6 5 (by decide) h) h (excl t 6 7 (by decide) h) x0).1)

/-- Case I's piece covers the output buffer. -/
theorem coverI (c : Dev nD) (t : Fin cfg0.N) (h : cw t 7 = 1#1) (x0 : Vec F S4096x128 .f32) (y : S512x1024.Idx) :
    ∃ pc ∈ (runI (F := F) c (grid0.coords t) (ms0 t) (hs0 t) (ms1 t) (hs1 t) (excl t 7 0 (by decide) h) (excl t 7 1 (by decide) h) (excl t 7 2 (by decide) h) (excl t 7 3 (by decide) h) (excl t 7 4 (by decide) h) (excl t 7 5 (by decide) h) (excl t 7 6 (by decide) h) h x0).1, y ∈ pc.1.set :=
  View.cover_of_tiledL (runI (F := F) c (grid0.coords t) (ms0 t) (hs0 t) (ms1 t) (hs1 t) (excl t 7 0 (by decide) h) (excl t 7 1 (by decide) h) (excl t 7 2 (by decide) h) (excl t 7 3 (by decide) h) (excl t 7 4 (by decide) h) (excl t 7 5 (by decide) h) (excl t 7 6 (by decide) h) h x0).1 S512x1024.size (by sl_kernel_rfl) y

/-- What case I leaves in the output buffer: its piece read back. -/
def outI (c : Dev nD) (t : Fin cfg0.N) (h : cw t 7 = 1#1) (x0 : Vec F S4096x128 .f32) : Vec F S512x1024 .f32 :=
  VO.read (Elt F) (VO.writes (Elt F) VO.junk (runI (F := F) c (grid0.coords t) (ms0 t) (hs0 t) (ms1 t) (hs1 t) (excl t 7 0 (by decide) h) (excl t 7 1 (by decide) h) (excl t 7 2 (by decide) h) (excl t 7 3 (by decide) h) (excl t 7 4 (by decide) h) (excl t 7 5 (by decide) h) (excl t 7 6 (by decide) h) h x0).1)

/-! ## What the region writes back at each point -/

/-- The output buffer after the body at point `t`: the contents of the case the point is in, on the
    table as the region finds it. -/
def outsAt (c : Dev nD) (t : Fin cfg0.N) : Vec F S512x1024 .f32 :=
  if h : cw t 0 = 1#1 then outZ (F := F) c t h (iblk m c 0 t)
  else if h : cw t 1 = 1#1 then outA (F := F) c t h (iblk m c 0 t)
  else if h : cw t 2 = 1#1 then outB (F := F) c t h (iblk m c 0 t)
  else if h : cw t 3 = 1#1 then outC (F := F) c t h (iblk m c 0 t)
  else if h : cw t 4 = 1#1 then outD (F := F) c t h (iblk m c 0 t)
  else if h : cw t 5 = 1#1 then outE (F := F) c t h (iblk m c 0 t)
  else if h : cw t 6 = 1#1 then outG (F := F) c t h (iblk m c 0 t)
  else if h : cw t 7 = 1#1 then outI (F := F) c t h (iblk m c 0 t)
  else VO.read (Elt F) VO.junk

theorem outsAt_Z (c : Dev nD) (t : Fin cfg0.N) (h : cw t 0 = 1#1) : outsAt m c t = outZ (F := F) c t h (iblk m c 0 t) :=
  (dif_pos h)
theorem outsAt_A (c : Dev nD) (t : Fin cfg0.N) (h : cw t 1 = 1#1) : outsAt m c t = outA (F := F) c t h (iblk m c 0 t) :=
  ((dif_neg (excl t 1 0 (by decide) h)).trans (dif_pos h))
theorem outsAt_B (c : Dev nD) (t : Fin cfg0.N) (h : cw t 2 = 1#1) : outsAt m c t = outB (F := F) c t h (iblk m c 0 t) :=
  ((dif_neg (excl t 2 0 (by decide) h)).trans ((dif_neg (excl t 2 1 (by decide) h)).trans (dif_pos h)))
theorem outsAt_C (c : Dev nD) (t : Fin cfg0.N) (h : cw t 3 = 1#1) : outsAt m c t = outC (F := F) c t h (iblk m c 0 t) :=
  ((dif_neg (excl t 3 0 (by decide) h)).trans ((dif_neg (excl t 3 1 (by decide) h)).trans ((dif_neg (excl t 3 2 (by decide) h)).trans (dif_pos h))))
theorem outsAt_D (c : Dev nD) (t : Fin cfg0.N) (h : cw t 4 = 1#1) : outsAt m c t = outD (F := F) c t h (iblk m c 0 t) :=
  ((dif_neg (excl t 4 0 (by decide) h)).trans ((dif_neg (excl t 4 1 (by decide) h)).trans ((dif_neg (excl t 4 2 (by decide) h)).trans ((dif_neg (excl t 4 3 (by decide) h)).trans (dif_pos h)))))
theorem outsAt_E (c : Dev nD) (t : Fin cfg0.N) (h : cw t 5 = 1#1) : outsAt m c t = outE (F := F) c t h (iblk m c 0 t) :=
  ((dif_neg (excl t 5 0 (by decide) h)).trans ((dif_neg (excl t 5 1 (by decide) h)).trans ((dif_neg (excl t 5 2 (by decide) h)).trans ((dif_neg (excl t 5 3 (by decide) h)).trans ((dif_neg (excl t 5 4 (by decide) h)).trans (dif_pos h))))))
theorem outsAt_G (c : Dev nD) (t : Fin cfg0.N) (h : cw t 6 = 1#1) : outsAt m c t = outG (F := F) c t h (iblk m c 0 t) :=
  ((dif_neg (excl t 6 0 (by decide) h)).trans ((dif_neg (excl t 6 1 (by decide) h)).trans ((dif_neg (excl t 6 2 (by decide) h)).trans ((dif_neg (excl t 6 3 (by decide) h)).trans ((dif_neg (excl t 6 4 (by decide) h)).trans ((dif_neg (excl t 6 5 (by decide) h)).trans (dif_pos h)))))))
theorem outsAt_I (c : Dev nD) (t : Fin cfg0.N) (h : cw t 7 = 1#1) : outsAt m c t = outI (F := F) c t h (iblk m c 0 t) :=
  ((dif_neg (excl t 7 0 (by decide) h)).trans ((dif_neg (excl t 7 1 (by decide) h)).trans ((dif_neg (excl t 7 2 (by decide) h)).trans ((dif_neg (excl t 7 3 (by decide) h)).trans ((dif_neg (excl t 7 4 (by decide) h)).trans ((dif_neg (excl t 7 5 (by decide) h)).trans ((dif_neg (excl t 7 6 (by decide) h)).trans (dif_pos h))))))))

/-! ## The pipeline's proof data -/

/-- The arrays as the region finds them; after the body at point `t` the table's buffer at the table and
    the output's at `outsAt`; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outsAt m c t := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t))

set_option maxHeartbeats 4000000 in
/-- The body at any point: the table's buffer holds the table; the point is in one of the eight cases,
    and that case's run applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  rcases exh t with h | h | h | h | h | h | h | h
  · rw [outsAt_Z m c t h]
    unfold outZ
    iintro ⟨HΦ, Ho, ⟨%d0, H0⟩, ⟨%d1, H1⟩⟩
    iapply ((runZ (F := F) c (grid0.coords t) (ms0 t) (hs0 t) (ms1 t) (hs1 t) h (excl t 0 1 (by decide) h) (excl t 0 2 (by decide) h) (excl t 0 3 (by decide) h) (excl t 0 4 (by decide) h) (excl t 0 5 (by decide) h) (excl t 0 6 (by decide) h) (excl t 0 7 (by decide) h) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverZ c t h _)
  · rw [outsAt_A m c t h]
    unfold outA
    iintro ⟨HΦ, Ho, ⟨%d0, H0⟩, ⟨%d1, H1⟩⟩
    iapply ((runA (F := F) c (grid0.coords t) (ms0 t) (hs0 t) (ms1 t) (hs1 t) (excl t 1 0 (by decide) h) h (excl t 1 2 (by decide) h) (excl t 1 3 (by decide) h) (excl t 1 4 (by decide) h) (excl t 1 5 (by decide) h) (excl t 1 6 (by decide) h) (excl t 1 7 (by decide) h) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverA c t h _)
  · rw [outsAt_B m c t h]
    unfold outB
    iintro ⟨HΦ, Ho, ⟨%d0, H0⟩, ⟨%d1, H1⟩⟩
    iapply ((runB (F := F) c (grid0.coords t) (ms0 t) (hs0 t) (ms1 t) (hs1 t) (excl t 2 0 (by decide) h) (excl t 2 1 (by decide) h) h (excl t 2 3 (by decide) h) (excl t 2 4 (by decide) h) (excl t 2 5 (by decide) h) (excl t 2 6 (by decide) h) (excl t 2 7 (by decide) h) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverB c t h _)
  · rw [outsAt_C m c t h]
    unfold outC
    iintro ⟨HΦ, Ho, ⟨%d0, H0⟩, ⟨%d1, H1⟩⟩
    iapply ((runC (F := F) c (grid0.coords t) (ms0 t) (hs0 t) (ms1 t) (hs1 t) (excl t 3 0 (by decide) h) (excl t 3 1 (by decide) h) (excl t 3 2 (by decide) h) h (excl t 3 4 (by decide) h) (excl t 3 5 (by decide) h) (excl t 3 6 (by decide) h) (excl t 3 7 (by decide) h) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverC c t h _)
  · rw [outsAt_D m c t h]
    unfold outD
    iintro ⟨HΦ, Ho, ⟨%d0, H0⟩, ⟨%d1, H1⟩⟩
    iapply ((runD (F := F) c (grid0.coords t) (ms0 t) (hs0 t) (ms1 t) (hs1 t) (excl t 4 0 (by decide) h) (excl t 4 1 (by decide) h) (excl t 4 2 (by decide) h) (excl t 4 3 (by decide) h) h (excl t 4 5 (by decide) h) (excl t 4 6 (by decide) h) (excl t 4 7 (by decide) h) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverD c t h _)
  · rw [outsAt_E m c t h]
    unfold outE
    iintro ⟨HΦ, Ho, ⟨%d0, H0⟩, ⟨%d1, H1⟩⟩
    iapply ((runE (F := F) c (grid0.coords t) (ms0 t) (hs0 t) (ms1 t) (hs1 t) (excl t 5 0 (by decide) h) (excl t 5 1 (by decide) h) (excl t 5 2 (by decide) h) (excl t 5 3 (by decide) h) (excl t 5 4 (by decide) h) h (excl t 5 6 (by decide) h) (excl t 5 7 (by decide) h) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverE c t h _)
  · rw [outsAt_G m c t h]
    unfold outG
    iintro ⟨HΦ, Ho, ⟨%d0, H0⟩, ⟨%d1, H1⟩⟩
    iapply ((runG (F := F) c (grid0.coords t) (ms0 t) (hs0 t) (ms1 t) (hs1 t) (excl t 6 0 (by decide) h) (excl t 6 1 (by decide) h) (excl t 6 2 (by decide) h) (excl t 6 3 (by decide) h) (excl t 6 4 (by decide) h) (excl t 6 5 (by decide) h) h (excl t 6 7 (by decide) h) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverG c t h _)
  · rw [outsAt_I m c t h]
    unfold outI
    iintro ⟨HΦ, Ho, ⟨%d0, H0⟩, ⟨%d1, H1⟩⟩
    iapply ((runI (F := F) c (grid0.coords t) (ms0 t) (hs0 t) (ms1 t) (hs1 t) (excl t 7 0 (by decide) h) (excl t 7 1 (by decide) h) (excl t 7 2 (by decide) h) (excl t 7 3 (by decide) h) (excl t 7 4 (by decide) h) (excl t 7 5 (by decide) h) (excl t 7 6 (by decide) h) h (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverI c t h _)

theorem body_obligation (c : Dev nD) : BodyObligation (dats (F := F) m 0 c) (defs₀ (F := F)) Variants.none () Set.univ := fun t => by
  rw [bigSep_W0, bigSep_W0]
  rw [idle1_false t]
  exact sound_body m c t

/-! ## The run and the frame -/

set_option backward.isDefEq.respectTransparency.types false in
/-- Every weakly fair execution of @main terminates, and every final state has the pipeline's arrays
    at what the proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Frm

end
-- ==== Proof.FrmBaseI.lean ====
/-
  The frame of `KernelIdeal`'s @main, part one: the program up to its one region.

  @main is four stretches of host operations (the row-indexed coefficient table: fifteen columns of
  4096 entries, stacked and padded to 128 lanes) followed by one region over a 9 × 8 × 4 grid. Here:
  the contents `V` of every buffer when the region is entered (the fold of the four stretches over the
  launch memory), that the five argument arrays are among the buffers no host operation writes, the
  block of a window at a grid point read off `V`, that the table's staging buffer holds the whole table
  at every point (it is fetched once and its block index never moves), and the frame claim's post read
  off a run of the region to the library's frame post. Everything is stated at any float instance.
-/
import proofs.«134289_j17918603559171_2_alg».proof.Proof.Gen.KernelIdeal.Launch
import proofs.«134289_j17918603559171_2_alg».proof.Proof.Gen.KernelIdeal.Skeleton
import proofs.«134289_j17918603559171_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the four stretches of host operations folded over
    the launch memory. -/
abbrev V (c : Dev nD) (b : Ref sig .tc) : Buf (Elt F) ((c : Thread nD τ).loc b) :=
  StableHlo.after (List.flatten [hostOps0, hostOps0_1, hostOps0_2, hostOps0_3]) (fun b => m (c, b)) b

set_option maxHeartbeats 4000000 in
theorem hostOps0_fresh : (hostOps0 : List (HloOp τ sig (Elt F))).Forall fun op => op.fresh = ∅ := by
  simp only [List.Forall]; repeat' constructor
set_option maxHeartbeats 4000000 in
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
set_option maxHeartbeats 4000000 in
theorem hostOps0_3_fresh : (hostOps0_3 : List (HloOp τ sig (Elt F))).Forall fun op => op.fresh = ∅ := by
  simp only [List.Forall]; repeat' constructor

/-- @main is the four stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

set_option maxHeartbeats 4000000 in
/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide)))
set_option maxHeartbeats 4000000 in
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide)))
set_option maxHeartbeats 4000000 in
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide)))
set_option maxHeartbeats 4000000 in
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide)))
set_option maxHeartbeats 4000000 in
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The table's staging buffer holds the whole table at every point, fetched there or not: its block
    index is constant over the grid. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- For any proof data whose arrays are the region-entry contents, a run to the library's frame post
    leaves the five argument arrays as launched: none of them is an array of the pipeline, and no host
    operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

end Cert.KernelIdeal.Frm

end
-- ==== Proof.FrmRunsI.lean ====
/-
  The frame of `KernelIdeal`, part two: the kernel body run once per control case.

  The body is eight conditionals on the grid coordinates alone. Exactly one holds at a grid point
  (`cases_at`, decided over the 288 points): either the output tile lies off every band or in an
  always-zero block and the body stores zeros, or the tile belongs to one of the seven banded blocks
  and the body loads the 512 rows of the coefficient table that the tile's rows name, forms the sum
  of the selected columns, and stores it. In every case the whole 512 × 1024 output buffer is
  overwritten by one store; the run of a case records that store as the piece the buffer ends with.
-/
import proofs.«134289_j17918603559171_2_alg».proof.Proof.FrmBaseI

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of the output window, through which its contents are stated. -/
abbrev VO : View sig .tc .vmem S512x1024 .f32 := (Memref.whole cc0_stg1_0 : Memref sig .tc .vmem S512x1024 .f32).view
/-- Each window's current staging memref at point `t`, as the pipeline passes it, and its wholeness. -/
abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)

set_option maxHeartbeats 4000000 in
/-- Case Z — the tile is off every band or in an always-zero block: a zero store: the piece the output buffer ends with, and the body's run to it. -/
noncomputable def runZ (c : Dev nD) (i : grid0.Coords) (arg3 : Memref sig .tc .vmem S4096x128 .f32) (harg3 : arg3.IsWhole) (arg4 : Memref sig .tc .vmem S512x1024 .f32) (harg4 : arg4.IsWhole)
    (h1 : k0_cond1 i = 1#1) (h2 : ¬k0_cond2 i = 1#1) (h3 : ¬k0_cond3 i = 1#1) (h4 : ¬k0_cond4 i = 1#1) (h5 : ¬k0_cond5 i = 1#1) (h6 : ¬k0_cond6 i = 1#1) (h7 : ¬k0_cond7 i = 1#1) (h8 : ¬k0_cond8 i = 1#1)
    (x0 : Vec F S4096x128 .f32) :
    { L : List (View.Piece (Elt F) S512x1024 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L)) -∗ K ⟨⟩))
          ⊢ wp frame (wpE (defs₀ (F := F)) Variants.none c none) E (cc0__euler_matrix_kernel i arg3 harg3 arg4 harg4) K } := by
  refine ⟨?_, fun E K => ?run⟩
  case run =>
    simp only [cc0__euler_matrix_kernel_eq_skeleton]; unfold cc0__euler_matrix_kernel_skel
    simp only [k0_part2_eq_skeleton, k0_part1_eq_skeleton]
    unfold owns
    iintro ⟨⟨%f0, %hf0, H0⟩, ⟨%d1, %f1, -, H1⟩, Hk⟩
    obtain rfl := harg3.eq_unread hf0
    sl_exec (disch := first | exact h1 | exact h2 | exact h3 | exact h4 | exact h5 | exact h6 | exact h7 | exact h8)
    sl_step
    iapply Hk
    isplitl [H0]
    · iexists _; isplitr; · ipureintro; exact harg3.read_unread _
      iexact H0
    iexists _; iexact H1

set_option maxHeartbeats 4000000 in
/-- Case A — block 0 (five diagonals): the piece the output buffer ends with, and the body's run to it. -/
noncomputable def runA (c : Dev nD) (i : grid0.Coords) (arg3 : Memref sig .tc .vmem S4096x128 .f32) (harg3 : arg3.IsWhole) (arg4 : Memref sig .tc .vmem S512x1024 .f32) (harg4 : arg4.IsWhole)
    (h1 : ¬k0_cond1 i = 1#1) (h2 : k0_cond2 i = 1#1) (h3 : ¬k0_cond3 i = 1#1) (h4 : ¬k0_cond4 i = 1#1) (h5 : ¬k0_cond5 i = 1#1) (h6 : ¬k0_cond6 i = 1#1) (h7 : ¬k0_cond7 i = 1#1) (h8 : ¬k0_cond8 i = 1#1)
    (x0 : Vec F S4096x128 .f32) :
    { L : List (View.Piece (Elt F) S512x1024 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L)) -∗ K ⟨⟩))
          ⊢ wp frame (wpE (defs₀ (F := F)) Variants.none c none) E (cc0__euler_matrix_kernel i arg3 harg3 arg4 harg4) K } := by
  refine ⟨?_, fun E K => ?run⟩
  case run =>
    simp only [cc0__euler_matrix_kernel_eq_skeleton]; unfold cc0__euler_matrix_kernel_skel
    simp only [k0_part2_eq_skeleton, k0_part1_eq_skeleton]
    unfold owns
    iintro ⟨⟨%f0, %hf0, H0⟩, ⟨%d1, %f1, -, H1⟩, Hk⟩
    obtain rfl := harg3.eq_unread hf0
    sl_exec (disch := first | exact h1 | exact h2 | exact h3 | exact h4 | exact h5 | exact h6 | exact h7 | exact h8)
    sl_step
    iapply Hk
    isplitl [H0]
    · iexists _; isplitr; · ipureintro; exact harg3.read_unread _
      iexact H0
    iexists _; iexact H1

set_option maxHeartbeats 4000000 in
/-- Case B — block 1 (two diagonals): the piece the output buffer ends with, and the body's run to it. -/
noncomputable def runB (c : Dev nD) (i : grid0.Coords) (arg3 : Memref sig .tc .vmem S4096x128 .f32) (harg3 : arg3.IsWhole) (arg4 : Memref sig .tc .vmem S512x1024 .f32) (harg4 : arg4.IsWhole)
    (h1 : ¬k0_cond1 i = 1#1) (h2 : ¬k0_cond2 i = 1#1) (h3 : k0_cond3 i = 1#1) (h4 : ¬k0_cond4 i = 1#1) (h5 : ¬k0_cond5 i = 1#1) (h6 : ¬k0_cond6 i = 1#1) (h7 : ¬k0_cond7 i = 1#1) (h8 : ¬k0_cond8 i = 1#1)
    (x0 : Vec F S4096x128 .f32) :
    { L : List (View.Piece (Elt F) S512x1024 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L)) -∗ K ⟨⟩))
          ⊢ wp frame (wpE (defs₀ (F := F)) Variants.none c none) E (cc0__euler_matrix_kernel i arg3 harg3 arg4 harg4) K } := by
  refine ⟨?_, fun E K => ?run⟩
  case run =>
    simp only [cc0__euler_matrix_kernel_eq_skeleton]; unfold cc0__euler_matrix_kernel_skel
    simp only [k0_part2_eq_skeleton, k0_part1_eq_skeleton]
    unfold owns
    iintro ⟨⟨%f0, %hf0, H0⟩, ⟨%d1, %f1, -, H1⟩, Hk⟩
    obtain rfl := harg3.eq_unread hf0
    sl_exec (disch := first | exact h1 | exact h2 | exact h3 | exact h4 | exact h5 | exact h6 | exact h7 | exact h8)
    sl_step
    iapply Hk
    isplitl [H0]
    · iexists _; isplitr; · ipureintro; exact harg3.read_unread _
      iexact H0
    iexists _; iexact H1

set_option maxHeartbeats 4000000 in
/-- Case C — block 2 (two diagonals): the piece the output buffer ends with, and the body's run to it. -/
noncomputable def runC (c : Dev nD) (i : grid0.Coords) (arg3 : Memref sig .tc .vmem S4096x128 .f32) (harg3 : arg3.IsWhole) (arg4 : Memref sig .tc .vmem S512x1024 .f32) (harg4 : arg4.IsWhole)
    (h1 : ¬k0_cond1 i = 1#1) (h2 : ¬k0_cond2 i = 1#1) (h3 : ¬k0_cond3 i = 1#1) (h4 : k0_cond4 i = 1#1) (h5 : ¬k0_cond5 i = 1#1) (h6 : ¬k0_cond6 i = 1#1) (h7 : ¬k0_cond7 i = 1#1) (h8 : ¬k0_cond8 i = 1#1)
    (x0 : Vec F S4096x128 .f32) :
    { L : List (View.Piece (Elt F) S512x1024 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L)) -∗ K ⟨⟩))
          ⊢ wp frame (wpE (defs₀ (F := F)) Variants.none c none) E (cc0__euler_matrix_kernel i arg3 harg3 arg4 harg4) K } := by
  refine ⟨?_, fun E K => ?run⟩
  case run =>
    simp only [cc0__euler_matrix_kernel_eq_skeleton]; unfold cc0__euler_matrix_kernel_skel
    simp only [k0_part2_eq_skeleton, k0_part1_eq_skeleton]
    unfold owns
    iintro ⟨⟨%f0, %hf0, H0⟩, ⟨%d1, %f1, -, H1⟩, Hk⟩
    obtain rfl := harg3.eq_unread hf0
    sl_exec (disch := first | exact h1 | exact h2 | exact h3 | exact h4 | exact h5 | exact h6 | exact h7 | exact h8)
    sl_step
    iapply Hk
    isplitl [H0]
    · iexists _; isplitr; · ipureintro; exact harg3.read_unread _
      iexact H0
    iexists _; iexact H1

set_option maxHeartbeats 4000000 in
/-- Case D — block 3 (two diagonals): the piece the output buffer ends with, and the body's run to it. -/
noncomputable def runD (c : Dev nD) (i : grid0.Coords) (arg3 : Memref sig .tc .vmem S4096x128 .f32) (harg3 : arg3.IsWhole) (arg4 : Memref sig .tc .vmem S512x1024 .f32) (harg4 : arg4.IsWhole)
    (h1 : ¬k0_cond1 i = 1#1) (h2 : ¬k0_cond2 i = 1#1) (h3 : ¬k0_cond3 i = 1#1) (h4 : ¬k0_cond4 i = 1#1) (h5 : k0_cond5 i = 1#1) (h6 : ¬k0_cond6 i = 1#1) (h7 : ¬k0_cond7 i = 1#1) (h8 : ¬k0_cond8 i = 1#1)
    (x0 : Vec F S4096x128 .f32) :
    { L : List (View.Piece (Elt F) S512x1024 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L)) -∗ K ⟨⟩))
          ⊢ wp frame (wpE (defs₀ (F := F)) Variants.none c none) E (cc0__euler_matrix_kernel i arg3 harg3 arg4 harg4) K } := by
  refine ⟨?_, fun E K => ?run⟩
  case run =>
    simp only [cc0__euler_matrix_kernel_eq_skeleton]; unfold cc0__euler_matrix_kernel_skel
    simp only [k0_part2_eq_skeleton, k0_part1_eq_skeleton]
    unfold owns
    iintro ⟨⟨%f0, %hf0, H0⟩, ⟨%d1, %f1, -, H1⟩, Hk⟩
    obtain rfl := harg3.eq_unread hf0
    sl_exec (disch := first | exact h1 | exact h2 | exact h3 | exact h4 | exact h5 | exact h6 | exact h7 | exact h8)
    sl_step
    iapply Hk
    isplitl [H0]
    · iexists _; isplitr; · ipureintro; exact harg3.read_unread _
      iexact H0
    iexists _; iexact H1

set_option maxHeartbeats 4000000 in
/-- Case E — block 4 (one diagonal): the piece the output buffer ends with, and the body's run to it. -/
noncomputable def runE (c : Dev nD) (i : grid0.Coords) (arg3 : Memref sig .tc .vmem S4096x128 .f32) (harg3 : arg3.IsWhole) (arg4 : Memref sig .tc .vmem S512x1024 .f32) (harg4 : arg4.IsWhole)
    (h1 : ¬k0_cond1 i = 1#1) (h2 : ¬k0_cond2 i = 1#1) (h3 : ¬k0_cond3 i = 1#1) (h4 : ¬k0_cond4 i = 1#1) (h5 : ¬k0_cond5 i = 1#1) (h6 : k0_cond6 i = 1#1) (h7 : ¬k0_cond7 i = 1#1) (h8 : ¬k0_cond8 i = 1#1)
    (x0 : Vec F S4096x128 .f32) :
    { L : List (View.Piece (Elt F) S512x1024 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L)) -∗ K ⟨⟩))
          ⊢ wp frame (wpE (defs₀ (F := F)) Variants.none c none) E (cc0__euler_matrix_kernel i arg3 harg3 arg4 harg4) K } := by
  refine ⟨?_, fun E K => ?run⟩
  case run =>
    simp only [cc0__euler_matrix_kernel_eq_skeleton]; unfold cc0__euler_matrix_kernel_skel
    simp only [k0_part2_eq_skeleton, k0_part1_eq_skeleton]
    unfold owns
    iintro ⟨⟨%f0, %hf0, H0⟩, ⟨%d1, %f1, -, H1⟩, Hk⟩
    obtain rfl := harg3.eq_unread hf0
    sl_exec (disch := first | exact h1 | exact h2 | exact h3 | exact h4 | exact h5 | exact h6 | exact h7 | exact h8)
    sl_step
    iapply Hk
    isplitl [H0]
    · iexists _; isplitr; · ipureintro; exact harg3.read_unread _
      iexact H0
    iexists _; iexact H1

set_option maxHeartbeats 4000000 in
/-- Case G — block 6 (two diagonals): the piece the output buffer ends with, and the body's run to it. -/
noncomputable def runG (c : Dev nD) (i : grid0.Coords) (arg3 : Memref sig .tc .vmem S4096x128 .f32) (harg3 : arg3.IsWhole) (arg4 : Memref sig .tc .vmem S512x1024 .f32) (harg4 : arg4.IsWhole)
    (h1 : ¬k0_cond1 i = 1#1) (h2 : ¬k0_cond2 i = 1#1) (h3 : ¬k0_cond3 i = 1#1) (h4 : ¬k0_cond4 i = 1#1) (h5 : ¬k0_cond5 i = 1#1) (h6 : ¬k0_cond6 i = 1#1) (h7 : k0_cond7 i = 1#1) (h8 : ¬k0_cond8 i = 1#1)
    (x0 : Vec F S4096x128 .f32) :
    { L : List (View.Piece (Elt F) S512x1024 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L)) -∗ K ⟨⟩))
          ⊢ wp frame (wpE (defs₀ (F := F)) Variants.none c none) E (cc0__euler_matrix_kernel i arg3 harg3 arg4 harg4) K } := by
  refine ⟨?_, fun E K => ?run⟩
  case run =>
    simp only [cc0__euler_matrix_kernel_eq_skeleton]; unfold cc0__euler_matrix_kernel_skel
    simp only [k0_part2_eq_skeleton, k0_part1_eq_skeleton]
    unfold owns
    iintro ⟨⟨%f0, %hf0, H0⟩, ⟨%d1, %f1, -, H1⟩, Hk⟩
    obtain rfl := harg3.eq_unread hf0
    sl_exec (disch := first | exact h1 | exact h2 | exact h3 | exact h4 | exact h5 | exact h6 | exact h7 | exact h8)
    sl_step
    iapply Hk
    isplitl [H0]
    · iexists _; isplitr; · ipureintro; exact harg3.read_unread _
      iexact H0
    iexists _; iexact H1

set_option maxHeartbeats 4000000 in
/-- Case I — block 8 (one diagonal): the piece the output buffer ends with, and the body's run to it. -/
noncomputable def runI (c : Dev nD) (i : grid0.Coords) (arg3 : Memref sig .tc .vmem S4096x128 .f32) (harg3 : arg3.IsWhole) (arg4 : Memref sig .tc .vmem S512x1024 .f32) (harg4 : arg4.IsWhole)
    (h1 : ¬k0_cond1 i = 1#1) (h2 : ¬k0_cond2 i = 1#1) (h3 : ¬k0_cond3 i = 1#1) (h4 : ¬k0_cond4 i = 1#1) (h5 : ¬k0_cond5 i = 1#1) (h6 : ¬k0_cond6 i = 1#1) (h7 : ¬k0_cond7 i = 1#1) (h8 : k0_cond8 i = 1#1)
    (x0 : Vec F S4096x128 .f32) :
    { L : List (View.Piece (Elt F) S512x1024 .f32) //
      ∀ (E : Set ℕ) (K : PUnit → sProp 𝕄),
        iprop(owns (c : Thread nD τ) arg3 fullShare x0 ∗ (∃ d, owns (c : Thread nD τ) arg4 fullShare d)
            ∗ (iprop(owns (c : Thread nD τ) arg3 fullShare x0 ∗ (∃ f, arg4.view.loc (c : Thread nD τ) ↦[arg4.view.set]{fullShare} arg4.view.writes (Elt F) f L)) -∗ K ⟨⟩))
          ⊢ wp frame (wpE (defs₀ (F := F)) Variants.none c none) E (cc0__euler_matrix_kernel i arg3 harg3 arg4 harg4) K } := by
  refine ⟨?_, fun E K => ?run⟩
  case run =>
    simp only [cc0__euler_matrix_kernel_eq_skeleton]; unfold cc0__euler_matrix_kernel_skel
    simp only [k0_part2_eq_skeleton, k0_part1_eq_skeleton]
    unfold owns
    iintro ⟨⟨%f0, %hf0, H0⟩, ⟨%d1, %f1, -, H1⟩, Hk⟩
    obtain rfl := harg3.eq_unread hf0
    sl_exec (disch := first | exact h1 | exact h2 | exact h3 | exact h4 | exact h5 | exact h6 | exact h7 | exact h8)
    sl_step
    iapply Hk
    isplitl [H0]
    · iexists _; isplitr; · ipureintro; exact harg3.read_unread _
      iexact H0
    iexists _; iexact H1

end Cert.KernelIdeal.Frm

end
-- ==== Proof.FrmI.lean ====
/-
  The frame of `KernelIdeal`, part three: the proof data of the region, the body obligation, the run of
  @main and the frame.

  At a grid point exactly one of the body's eight conditions holds; the output buffer then ends at the
  one piece that case's run stores, read back over anything (the piece covers the buffer). That is
  what the region writes back at the point (`outsAt`); the table's buffer is left as it was. With these
  as the proof data the library's frame run applies, and its post read at the five argument arrays
  (which no window stages and no host operation writes) is the frame.
-/
import proofs.«134289_j17918603559171_2_alg».proof.Proof.FrmRunsI

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's eight conditions at a grid point -/

/-- The eight conditions at point `t`, as words: the zero store, then blocks 0, 1, 2, 3, 4, 6, 8. -/
def cw (t : Fin cfg0.N) : Fin 8 → BitVec 1 :=
  ![k0_cond1 (grid0.coords t), k0_cond2 (grid0.coords t), k0_cond3 (grid0.coords t), k0_cond4 (grid0.coords t),
    k0_cond5 (grid0.coords t), k0_cond6 (grid0.coords t), k0_cond7 (grid0.coords t), k0_cond8 (grid0.coords t)]

/-- No two of them hold at one point — decided over the grid. -/
theorem excl : ∀ t : Fin cfg0.N, ∀ a b : Fin 8, a ≠ b → cw t a = 1#1 → ¬cw t b = 1#1 :=
  (by decide +kernel : ∀ t : Fin grid0.N, ∀ a b : Fin 8, a ≠ b → cw t a = 1#1 → ¬cw t b = 1#1)

/-- One of them holds at every point — decided over the grid. -/
theorem exh : ∀ t : Fin cfg0.N, cw t 0 = 1#1 ∨ cw t 1 = 1#1 ∨ cw t 2 = 1#1 ∨ cw t 3 = 1#1 ∨ cw t 4 = 1#1 ∨ cw t 5 = 1#1 ∨ cw t 6 = 1#1 ∨ cw t 7 = 1#1 :=
  (by decide +kernel : ∀ t : Fin grid0.N, cw t 0 = 1#1 ∨ cw t 1 = 1#1 ∨ cw t 2 = 1#1 ∨ cw t 3 = 1#1 ∨ cw t 4 = 1#1 ∨ cw t 5 = 1#1 ∨ cw t 6 = 1#1 ∨ cw t 7 = 1#1)

/-- So the output window is never idle: at every point the body stores into it — decided over the grid. -/
theorem idle1_false : ∀ t : Fin cfg0.N, cfg0.idle 1 (cfg0.grid.coords t) = false :=
  (by decide +kernel : ∀ t : Fin grid0.N, idle0 1 (grid0.coords t) = false)

/-! ## What each case leaves in the output buffer -/

/-- Case Z's piece covers the output buffer. -/
theorem coverZ (c : Dev nD) (t : Fin cfg0.N) (h : cw t 0 = 1#1) (x0 : Vec F S4096x128 .f32) (y : S512x1024.Idx) :
    ∃ pc ∈ (runZ (F := F) c (grid0.coords t) (ms0 t) (hs0 t) (ms1 t) (hs1 t) h (excl t 0 1 (by decide) h) (excl t 0 2 (by decide) h) (excl t 0 3 (by decide) h) (excl t 0 4 (by decide) h) (excl t 0 5 (by decide) h) (excl t 0 6 (by decide) h) (excl t 0 7 (by decide) h) x0).1, y ∈ pc.1.set :=
  View.cover_of_tiledL (runZ (F := F) c (grid0.coords t) (ms0 t) (hs0 t) (ms1 t) (hs1 t) h (excl t 0 1 (by decide) h) (excl t 0 2 (by decide) h) (excl t 0 3 (by decide) h) (excl t 0 4 (by decide) h) (excl t 0 5 (by decide) h) (excl t 0 6 (by decide) h) (excl t 0 7 (by decide) h) x0).1 S512x1024.size (by sl_kernel_rfl) y

/-- What case Z leaves in the output buffer: its piece read back. -/
def outZ (c : Dev nD) (t : Fin cfg0.N) (h : cw t 0 = 1#1) (x0 : Vec F S4096x128 .f32) : Vec F S512x1024 .f32 :=
  VO.read (Elt F) (VO.writes (Elt F) VO.junk (runZ (F := F) c (grid0.coords t) (ms0 t) (hs0 t) (ms1 t) (hs1 t) h (excl t 0 1 (by decide) h) (excl t 0 2 (by decide) h) (excl t 0 3 (by decide) h) (excl t 0 4 (by decide) h) (excl t 0 5 (by decide) h) (excl t 0 6 (by decide) h) (excl t 0 7 (by decide) h) x0).1)

/-- Case A's piece covers the output buffer. -/
theorem coverA (c : Dev nD) (t : Fin cfg0.N) (h : cw t 1 = 1#1) (x0 : Vec F S4096x128 .f32) (y : S512x1024.Idx) :
    ∃ pc ∈ (runA (F := F) c (grid0.coords t) (ms0 t) (hs0 t) (ms1 t) (hs1 t) (excl t 1 0 (by decide) h) h (excl t 1 2 (by decide) h) (excl t 1 3 (by decide) h) (excl t 1 4 (by decide) h) (excl t 1 5 (by decide) h) (excl t 1 6 (by decide) h) (excl t 1 7 (by decide) h) x0).1, y ∈ pc.1.set :=
  View.cover_of_tiledL (runA (F := F) c (grid0.coords t) (ms0 t) (hs0 t) (ms1 t) (hs1 t) (excl t 1 0 (by decide) h) h (excl t 1 2 (by decide) h) (excl t 1 3 (by decide) h) (excl t 1 4 (by decide) h) (excl t 1 5 (by decide) h) (excl t 1 6 (by decide) h) (excl t 1 7 (by decide) h) x0).1 S512x1024.size (by sl_kernel_rfl) y

/-- What case A leaves in the output buffer: its piece read back. -/
def outA (c : Dev nD) (t : Fin cfg0.N) (h : cw t 1 = 1#1) (x0 : Vec F S4096x128 .f32) : Vec F S512x1024 .f32 :=
  VO.read (Elt F) (VO.writes (Elt F) VO.junk (runA (F := F) c (grid0.coords t) (ms0 t) (hs0 t) (ms1 t) (hs1 t) (excl t 1 0 (by decide) h) h (excl t 1 2 (by decide) h) (excl t 1 3 (by decide) h) (excl t 1 4 (by decide) h) (excl t 1 5 (by decide) h) (excl t 1 6 (by decide) h) (excl t 1 7 (by decide) h) x0).1)

/-- Case B's piece covers the output buffer. -/
theorem coverB (c : Dev nD) (t : Fin cfg0.N) (h : cw t 2 = 1#1) (x0 : Vec F S4096x128 .f32) (y : S512x1024.Idx) :
    ∃ pc ∈ (runB (F := F) c (grid0.coords t) (ms0 t) (hs0 t) (ms1 t) (hs1 t) (excl t 2 0 (by decide) h) (excl t 2 1 (by decide) h) h (excl t 2 3 (by decide) h) (excl t 2 4 (by decide) h) (excl t 2 5 (by decide) h) (excl t 2 6 (by decide) h) (excl t 2 7 (by decide) h) x0).1, y ∈ pc.1.set :=
  View.cover_of_tiledL (runB (F := F) c (grid0.coords t) (ms0 t) (hs0 t) (ms1 t) (hs1 t) (excl t 2 0 (by decide) h) (excl t 2 1 (by decide) h) h (excl t 2 3 (by decide) h) (excl t 2 4 (by decide) h) (excl t 2 5 (by decide) h) (excl t 2 6 (by decide) h) (excl t 2 7 (by decide) h) x0).1 S512x1024.size (by sl_kernel_rfl) y

/-- What case B leaves in the output buffer: its piece read back. -/
def outB (c : Dev nD) (t : Fin cfg0.N) (h : cw t 2 = 1#1) (x0 : Vec F S4096x128 .f32) : Vec F S512x1024 .f32 :=
  VO.read (Elt F) (VO.writes (Elt F) VO.junk (runB (F := F) c (grid0.coords t) (ms0 t) (hs0 t) (ms1 t) (hs1 t) (excl t 2 0 (by decide) h) (excl t 2 1 (by decide) h) h (excl t 2 3 (by decide) h) (excl t 2 4 (by decide) h) (excl t 2 5 (by decide) h) (excl t 2 6 (by decide) h) (excl t 2 7 (by decide) h) x0).1)

/-- Case C's piece covers the output buffer. -/
theorem coverC (c : Dev nD) (t : Fin cfg0.N) (h : cw t 3 = 1#1) (x0 : Vec F S4096x128 .f32) (y : S512x1024.Idx) :
    ∃ pc ∈ (runC (F := F) c (grid0.coords t) (ms0 t) (hs0 t) (ms1 t) (hs1 t) (excl t 3 0 (by decide) h) (excl t 3 1 (by decide) h) (excl t 3 2 (by decide) h) h (excl t 3 4 (by decide) h) (excl t 3 5 (by decide) h) (excl t 3 6 (by decide) h) (excl t 3 7 (by decide) h) x0).1, y ∈ pc.1.set :=
  View.cover_of_tiledL (runC (F := F) c (grid0.coords t) (ms0 t) (hs0 t) (ms1 t) (hs1 t) (excl t 3 0 (by decide) h) (excl t 3 1 (by decide) h) (excl t 3 2 (by decide) h) h (excl t 3 4 (by decide) h) (excl t 3 5 (by decide) h) (excl t 3 6 (by decide) h) (excl t 3 7 (by decide) h) x0).1 S512x1024.size (by sl_kernel_rfl) y

/-- What case C leaves in the output buffer: its piece read back. -/
def outC (c : Dev nD) (t : Fin cfg0.N) (h : cw t 3 = 1#1) (x0 : Vec F S4096x128 .f32) : Vec F S512x1024 .f32 :=
  VO.read (Elt F) (VO.writes (Elt F) VO.junk (runC (F := F) c (grid0.coords t) (ms0 t) (hs0 t) (ms1 t) (hs1 t) (excl t 3 0 (by decide) h) (excl t 3 1 (by decide) h) (excl t 3 2 (by decide) h) h (excl t 3 4 (by decide) h) (excl t 3 5 (by decide) h) (excl t 3 6 (by decide) h) (excl t 3 7 (by decide) h) x0).1)

/-- Case D's piece covers the output buffer. -/
theorem coverD (c : Dev nD) (t : Fin cfg0.N) (h : cw t 4 = 1#1) (x0 : Vec F S4096x128 .f32) (y : S512x1024.Idx) :
    ∃ pc ∈ (runD (F := F) c (grid0.coords t) (ms0 t) (hs0 t) (ms1 t) (hs1 t) (excl t 4 0 (by decide) h) (excl t 4 1 (by decide) h) (excl t 4 2 (by decide) h) (excl t 4 3 (by decide) h) h (excl t 4 5 (by decide) h) (excl t 4 6 (by decide) h) (excl t 4 7 (by decide) h) x0).1, y ∈ pc.1.set :=
  View.cover_of_tiledL (runD (F := F) c (grid0.coords t) (ms0 t) (hs0 t) (ms1 t) (hs1 t) (excl t 4 0 (by decide) h) (excl t 4 1 (by decide) h) (excl t 4 2 (by decide) h) (excl t 4 3 (by decide) h) h (excl t 4 5 (by decide) h) (excl t 4 6 (by decide) h) (excl t 4 7 (by decide) h) x0).1 S512x1024.size (by sl_kernel_rfl) y

/-- What case D leaves in the output buffer: its piece read back. -/
def outD (c : Dev nD) (t : Fin cfg0.N) (h : cw t 4 = 1#1) (x0 : Vec F S4096x128 .f32) : Vec F S512x1024 .f32 :=
  VO.read (Elt F) (VO.writes (Elt F) VO.junk (runD (F := F) c (grid0.coords t) (ms0 t) (hs0 t) (ms1 t) (hs1 t) (excl t 4 0 (by decide) h) (excl t 4 1 (by decide) h) (excl t 4 2 (by decide) h) (excl t 4 3 (by decide) h) h (excl t 4 5 (by decide) h) (excl t 4 6 (by decide) h) (excl t 4 7 (by decide) h) x0).1)

/-- Case E's piece covers the output buffer. -/
theorem coverE (c : Dev nD) (t : Fin cfg0.N) (h : cw t 5 = 1#1) (x0 : Vec F S4096x128 .f32) (y : S512x1024.Idx) :
    ∃ pc ∈ (runE (F := F) c (grid0.coords t) (ms0 t) (hs0 t) (ms1 t) (hs1 t) (excl t 5 0 (by decide) h) (excl t 5 1 (by decide) h) (excl t 5 2 (by decide) h) (excl t 5 3 (by decide) h) (excl t 5 4 (by decide) h) h (excl t 5 6 (by decide) h) (excl t 5 7 (by decide) h) x0).1, y ∈ pc.1.set :=
  View.cover_of_tiledL (runE (F := F) c (grid0.coords t) (ms0 t) (hs0 t) (ms1 t) (hs1 t) (excl t 5 0 (by decide) h) (excl t 5 1 (by decide) h) (excl t 5 2 (by decide) h) (excl t 5 3 (by decide) h) (excl t 5 4 (by decide) h) h (excl t 5 6 (by decide) h) (excl t 5 7 (by decide) h) x0).1 S512x1024.size (by sl_kernel_rfl) y

/-- What case E leaves in the output buffer: its piece read back. -/
def outE (c : Dev nD) (t : Fin cfg0.N) (h : cw t 5 = 1#1) (x0 : Vec F S4096x128 .f32) : Vec F S512x1024 .f32 :=
  VO.read (Elt F) (VO.writes (Elt F) VO.junk (runE (F := F) c (grid0.coords t) (ms0 t) (hs0 t) (ms1 t) (hs1 t) (excl t 5 0 (by decide) h) (excl t 5 1 (by decide) h) (excl t 5 2 (by decide) h) (excl t 5 3 (by decide) h) (excl t 5 4 (by decide) h) h (excl t 5 6 (by decide) h) (excl t 5 7 (by decide) h) x0).1)

/-- Case G's piece covers the output buffer. -/
theorem coverG (c : Dev nD) (t : Fin cfg0.N) (h : cw t 6 = 1#1) (x0 : Vec F S4096x128 .f32) (y : S512x1024.Idx) :
    ∃ pc ∈ (runG (F := F) c (grid0.coords t) (ms0 t) (hs0 t) (ms1 t) (hs1 t) (excl t 6 0 (by decide) h) (excl t 6 1 (by decide) h) (excl t 6 2 (by decide) h) (excl t 6 3 (by decide) h) (excl t 6 4 (by decide) h) (excl t 6 5 (by decide) h) h (excl t 6 7 (by decide) h) x0).1, y ∈ pc.1.set :=
  View.cover_of_tiledL (runG (F := F) c (grid0.coords t) (ms0 t) (hs0 t) (ms1 t) (hs1 t) (excl t 6 0 (by decide) h) (excl t 6 1 (by decide) h) (excl t 6 2 (by decide) h) (excl t 6 3 (by decide) h) (excl t 6 4 (by decide) h) (excl t 6 5 (by decide) h) h (excl t 6 7 (by decide) h) x0).1 S512x1024.size (by sl_kernel_rfl) y

/-- What case G leaves in the output buffer: its piece read back. -/
def outG (c : Dev nD) (t : Fin cfg0.N) (h : cw t 6 = 1#1) (x0 : Vec F S4096x128 .f32) : Vec F S512x1024 .f32 :=
  VO.read (Elt F) (VO.writes (Elt F) VO.junk (runG (F := F) c (grid0.coords t) (ms0 t) (hs0 t) (ms1 t) (hs1 t) (excl t 6 0 (by decide) h) (excl t 6 1 (by decide) h) (excl t 6 2 (by decide) h) (excl t 6 3 (by decide) h) (excl t 6 4 (by decide) h) (excl t 6 5 (by decide) h) h (excl t 6 7 (by decide) h) x0).1)

/-- Case I's piece covers the output buffer. -/
theorem coverI (c : Dev nD) (t : Fin cfg0.N) (h : cw t 7 = 1#1) (x0 : Vec F S4096x128 .f32) (y : S512x1024.Idx) :
    ∃ pc ∈ (runI (F := F) c (grid0.coords t) (ms0 t) (hs0 t) (ms1 t) (hs1 t) (excl t 7 0 (by decide) h) (excl t 7 1 (by decide) h) (excl t 7 2 (by decide) h) (excl t 7 3 (by decide) h) (excl t 7 4 (by decide) h) (excl t 7 5 (by decide) h) (excl t 7 6 (by decide) h) h x0).1, y ∈ pc.1.set :=
  View.cover_of_tiledL (runI (F := F) c (grid0.coords t) (ms0 t) (hs0 t) (ms1 t) (hs1 t) (excl t 7 0 (by decide) h) (excl t 7 1 (by decide) h) (excl t 7 2 (by decide) h) (excl t 7 3 (by decide) h) (excl t 7 4 (by decide) h) (excl t 7 5 (by decide) h) (excl t 7 6 (by decide) h) h x0).1 S512x1024.size (by sl_kernel_rfl) y

/-- What case I leaves in the output buffer: its piece read back. -/
def outI (c : Dev nD) (t : Fin cfg0.N) (h : cw t 7 = 1#1) (x0 : Vec F S4096x128 .f32) : Vec F S512x1024 .f32 :=
  VO.read (Elt F) (VO.writes (Elt F) VO.junk (runI (F := F) c (grid0.coords t) (ms0 t) (hs0 t) (ms1 t) (hs1 t) (excl t 7 0 (by decide) h) (excl t 7 1 (by decide) h) (excl t 7 2 (by decide) h) (excl t 7 3 (by decide) h) (excl t 7 4 (by decide) h) (excl t 7 5 (by decide) h) (excl t 7 6 (by decide) h) h x0).1)

/-! ## What the region writes back at each point -/

/-- The output buffer after the body at point `t`: the contents of the case the point is in, on the
    table as the region finds it. -/
def outsAt (c : Dev nD) (t : Fin cfg0.N) : Vec F S512x1024 .f32 :=
  if h : cw t 0 = 1#1 then outZ (F := F) c t h (iblk m c 0 t)
  else if h : cw t 1 = 1#1 then outA (F := F) c t h (iblk m c 0 t)
  else if h : cw t 2 = 1#1 then outB (F := F) c t h (iblk m c 0 t)
  else if h : cw t 3 = 1#1 then outC (F := F) c t h (iblk m c 0 t)
  else if h : cw t 4 = 1#1 then outD (F := F) c t h (iblk m c 0 t)
  else if h : cw t 5 = 1#1 then outE (F := F) c t h (iblk m c 0 t)
  else if h : cw t 6 = 1#1 then outG (F := F) c t h (iblk m c 0 t)
  else if h : cw t 7 = 1#1 then outI (F := F) c t h (iblk m c 0 t)
  else VO.read (Elt F) VO.junk

theorem outsAt_Z (c : Dev nD) (t : Fin cfg0.N) (h : cw t 0 = 1#1) : outsAt m c t = outZ (F := F) c t h (iblk m c 0 t) :=
  (dif_pos h)
theorem outsAt_A (c : Dev nD) (t : Fin cfg0.N) (h : cw t 1 = 1#1) : outsAt m c t = outA (F := F) c t h (iblk m c 0 t) :=
  ((dif_neg (excl t 1 0 (by decide) h)).trans (dif_pos h))
theorem outsAt_B (c : Dev nD) (t : Fin cfg0.N) (h : cw t 2 = 1#1) : outsAt m c t = outB (F := F) c t h (iblk m c 0 t) :=
  ((dif_neg (excl t 2 0 (by decide) h)).trans ((dif_neg (excl t 2 1 (by decide) h)).trans (dif_pos h)))
theorem outsAt_C (c : Dev nD) (t : Fin cfg0.N) (h : cw t 3 = 1#1) : outsAt m c t = outC (F := F) c t h (iblk m c 0 t) :=
  ((dif_neg (excl t 3 0 (by decide) h)).trans ((dif_neg (excl t 3 1 (by decide) h)).trans ((dif_neg (excl t 3 2 (by decide) h)).trans (dif_pos h))))
theorem outsAt_D (c : Dev nD) (t : Fin cfg0.N) (h : cw t 4 = 1#1) : outsAt m c t = outD (F := F) c t h (iblk m c 0 t) :=
  ((dif_neg (excl t 4 0 (by decide) h)).trans ((dif_neg (excl t 4 1 (by decide) h)).trans ((dif_neg (excl t 4 2 (by decide) h)).trans ((dif_neg (excl t 4 3 (by decide) h)).trans (dif_pos h)))))
theorem outsAt_E (c : Dev nD) (t : Fin cfg0.N) (h : cw t 5 = 1#1) : outsAt m c t = outE (F := F) c t h (iblk m c 0 t) :=
  ((dif_neg (excl t 5 0 (by decide) h)).trans ((dif_neg (excl t 5 1 (by decide) h)).trans ((dif_neg (excl t 5 2 (by decide) h)).trans ((dif_neg (excl t 5 3 (by decide) h)).trans ((dif_neg (excl t 5 4 (by decide) h)).trans (dif_pos h))))))
theorem outsAt_G (c : Dev nD) (t : Fin cfg0.N) (h : cw t 6 = 1#1) : outsAt m c t = outG (F := F) c t h (iblk m c 0 t) :=
  ((dif_neg (excl t 6 0 (by decide) h)).trans ((dif_neg (excl t 6 1 (by decide) h)).trans ((dif_neg (excl t 6 2 (by decide) h)).trans ((dif_neg (excl t 6 3 (by decide) h)).trans ((dif_neg (excl t 6 4 (by decide) h)).trans ((dif_neg (excl t 6 5 (by decide) h)).trans (dif_pos h)))))))
theorem outsAt_I (c : Dev nD) (t : Fin cfg0.N) (h : cw t 7 = 1#1) : outsAt m c t = outI (F := F) c t h (iblk m c 0 t) :=
  ((dif_neg (excl t 7 0 (by decide) h)).trans ((dif_neg (excl t 7 1 (by decide) h)).trans ((dif_neg (excl t 7 2 (by decide) h)).trans ((dif_neg (excl t 7 3 (by decide) h)).trans ((dif_neg (excl t 7 4 (by decide) h)).trans ((dif_neg (excl t 7 5 (by decide) h)).trans ((dif_neg (excl t 7 6 (by decide) h)).trans (dif_pos h))))))))

/-! ## The pipeline's proof data -/

/-- The arrays as the region finds them; after the body at point `t` the table's buffer at the table and
    the output's at `outsAt`; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outsAt m c t := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t))

set_option maxHeartbeats 4000000 in
/-- The body at any point: the table's buffer holds the table; the point is in one of the eight cases,
    and that case's run applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  rcases exh t with h | h | h | h | h | h | h | h
  · rw [outsAt_Z m c t h]
    unfold outZ
    iintro ⟨HΦ, Ho, ⟨%d0, H0⟩, ⟨%d1, H1⟩⟩
    iapply ((runZ (F := F) c (grid0.coords t) (ms0 t) (hs0 t) (ms1 t) (hs1 t) h (excl t 0 1 (by decide) h) (excl t 0 2 (by decide) h) (excl t 0 3 (by decide) h) (excl t 0 4 (by decide) h) (excl t 0 5 (by decide) h) (excl t 0 6 (by decide) h) (excl t 0 7 (by decide) h) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverZ c t h _)
  · rw [outsAt_A m c t h]
    unfold outA
    iintro ⟨HΦ, Ho, ⟨%d0, H0⟩, ⟨%d1, H1⟩⟩
    iapply ((runA (F := F) c (grid0.coords t) (ms0 t) (hs0 t) (ms1 t) (hs1 t) (excl t 1 0 (by decide) h) h (excl t 1 2 (by decide) h) (excl t 1 3 (by decide) h) (excl t 1 4 (by decide) h) (excl t 1 5 (by decide) h) (excl t 1 6 (by decide) h) (excl t 1 7 (by decide) h) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverA c t h _)
  · rw [outsAt_B m c t h]
    unfold outB
    iintro ⟨HΦ, Ho, ⟨%d0, H0⟩, ⟨%d1, H1⟩⟩
    iapply ((runB (F := F) c (grid0.coords t) (ms0 t) (hs0 t) (ms1 t) (hs1 t) (excl t 2 0 (by decide) h) (excl t 2 1 (by decide) h) h (excl t 2 3 (by decide) h) (excl t 2 4 (by decide) h) (excl t 2 5 (by decide) h) (excl t 2 6 (by decide) h) (excl t 2 7 (by decide) h) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverB c t h _)
  · rw [outsAt_C m c t h]
    unfold outC
    iintro ⟨HΦ, Ho, ⟨%d0, H0⟩, ⟨%d1, H1⟩⟩
    iapply ((runC (F := F) c (grid0.coords t) (ms0 t) (hs0 t) (ms1 t) (hs1 t) (excl t 3 0 (by decide) h) (excl t 3 1 (by decide) h) (excl t 3 2 (by decide) h) h (excl t 3 4 (by decide) h) (excl t 3 5 (by decide) h) (excl t 3 6 (by decide) h) (excl t 3 7 (by decide) h) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverC c t h _)
  · rw [outsAt_D m c t h]
    unfold outD
    iintro ⟨HΦ, Ho, ⟨%d0, H0⟩, ⟨%d1, H1⟩⟩
    iapply ((runD (F := F) c (grid0.coords t) (ms0 t) (hs0 t) (ms1 t) (hs1 t) (excl t 4 0 (by decide) h) (excl t 4 1 (by decide) h) (excl t 4 2 (by decide) h) (excl t 4 3 (by decide) h) h (excl t 4 5 (by decide) h) (excl t 4 6 (by decide) h) (excl t 4 7 (by decide) h) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverD c t h _)
  · rw [outsAt_E m c t h]
    unfold outE
    iintro ⟨HΦ, Ho, ⟨%d0, H0⟩, ⟨%d1, H1⟩⟩
    iapply ((runE (F := F) c (grid0.coords t) (ms0 t) (hs0 t) (ms1 t) (hs1 t) (excl t 5 0 (by decide) h) (excl t 5 1 (by decide) h) (excl t 5 2 (by decide) h) (excl t 5 3 (by decide) h) (excl t 5 4 (by decide) h) h (excl t 5 6 (by decide) h) (excl t 5 7 (by decide) h) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverE c t h _)
  · rw [outsAt_G m c t h]
    unfold outG
    iintro ⟨HΦ, Ho, ⟨%d0, H0⟩, ⟨%d1, H1⟩⟩
    iapply ((runG (F := F) c (grid0.coords t) (ms0 t) (hs0 t) (ms1 t) (hs1 t) (excl t 6 0 (by decide) h) (excl t 6 1 (by decide) h) (excl t 6 2 (by decide) h) (excl t 6 3 (by decide) h) (excl t 6 4 (by decide) h) (excl t 6 5 (by decide) h) h (excl t 6 7 (by decide) h) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverG c t h _)
  · rw [outsAt_I m c t h]
    unfold outI
    iintro ⟨HΦ, Ho, ⟨%d0, H0⟩, ⟨%d1, H1⟩⟩
    iapply ((runI (F := F) c (grid0.coords t) (ms0 t) (hs0 t) (ms1 t) (hs1 t) (excl t 7 0 (by decide) h) (excl t 7 1 (by decide) h) (excl t 7 2 (by decide) h) (excl t 7 3 (by decide) h) (excl t 7 4 (by decide) h) (excl t 7 5 (by decide) h) (excl t 7 6 (by decide) h) h (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverI c t h _)

theorem body_obligation (c : Dev nD) : BodyObligation (dats (F := F) m 0 c) (defs₀ (F := F)) Variants.none () Set.univ := fun t => by
  rw [bigSep_W0, bigSep_W0]
  rw [idle1_false t]
  exact sound_body m c t

/-! ## The run and the frame -/

set_option backward.isDefEq.respectTransparency.types false in
/-- Every weakly fair execution of @main terminates, and every final state has the pipeline's arrays
    at what the proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Frm

end
-- ==== Proof.RefStages.lean ====
/- The reference program's host operations as pure stages at the ideal instance: one definition per
   buffer of @main (a called function's values under the call's own buffer names), each the printed operation
   applied to the stages of its operands and to the five argument arrays. `result` is the returned array. -/
import proofs.«134289_j17918603559171_2_alg».proof.ReferenceIdeal
import proofs.«134289_j17918603559171_2_alg».proof.Proof.Gen.ReferenceIdeal
import Idealize.ShloMosaic.PureOps.Ideal

noncomputable section

namespace Cert.ReferenceIdeal.RefStages

open Idealize.ShloMosaic Cert.ReferenceIdeal Cert.ReferenceIdeal.Facts₀ Cert.ReferenceIdeal.Facts

/-- `main_c`. -/
def res_c (a0 : FVec Ideal S64x64 .f32) (a1 : FVec Ideal S64 .f32) (a2 a3 : FVec Ideal S64x64 .f32) (a4 : FVec Ideal S4096 .f32) : IVec S4096 32 :=
  fun i => lit0 (S4096.rowMajor i)

/-- `main_c_0`. -/
def res_c_0 (a0 : FVec Ideal S64x64 .f32) (a1 : FVec Ideal S64 .f32) (a2 a3 : FVec Ideal S64x64 .f32) (a4 : FVec Ideal S4096 .f32) : IVec S4096 1 :=
  constantI S4096 1 0#1

/-- `main_c_1`. -/
def res_c_1 (a0 : FVec Ideal S64x64 .f32) (a1 : FVec Ideal S64 .f32) (a2 a3 : FVec Ideal S64x64 .f32) (a4 : FVec Ideal S4096 .f32) : IVec S4096 1 :=
  constantI S4096 1 0#1

/-- `main_c_2`. -/
def res_c_2 (a0 : FVec Ideal S64x64 .f32) (a1 : FVec Ideal S64 .f32) (a2 a3 : FVec Ideal S64x64 .f32) (a4 : FVec Ideal S4096 .f32) : IVec S4032 32 :=
  fun i => lit1 (S4032.rowMajor i)

/-- `main_c_3`. -/
def res_c_3 (a0 : FVec Ideal S64x64 .f32) (a1 : FVec Ideal S64 .f32) (a2 a3 : FVec Ideal S64x64 .f32) (a4 : FVec Ideal S4096 .f32) : IVec S4032 1 :=
  constantI S4032 1 0#1

/-- `main_c_4`. -/
def res_c_4 (a0 : FVec Ideal S64x64 .f32) (a1 : FVec Ideal S64 .f32) (a2 a3 : FVec Ideal S64x64 .f32) (a4 : FVec Ideal S4096 .f32) : IVec S4032 32 :=
  fun i => lit2 (S4032.rowMajor i)

/-- `main_c_5`. -/
def res_c_5 (a0 : FVec Ideal S64x64 .f32) (a1 : FVec Ideal S64 .f32) (a2 a3 : FVec Ideal S64x64 .f32) (a4 : FVec Ideal S4096 .f32) : IVec S4032 1 :=
  constantI S4032 1 0#1

/-- `main_c_6`. -/
def res_c_6 (a0 : FVec Ideal S64x64 .f32) (a1 : FVec Ideal S64 .f32) (a2 a3 : FVec Ideal S64x64 .f32) (a4 : FVec Ideal S4096 .f32) : IVec S4096 1 :=
  constantI S4096 1 0#1

/-- `main_c_7`. -/
def res_c_7 (a0 : FVec Ideal S64x64 .f32) (a1 : FVec Ideal S64 .f32) (a2 a3 : FVec Ideal S64x64 .f32) (a4 : FVec Ideal S4096 .f32) : IVec S4096 1 :=
  constantI S4096 1 0#1

/-- `main_c_8`. -/
def res_c_8 (a0 : FVec Ideal S64x64 .f32) (a1 : FVec Ideal S64 .f32) (a2 a3 : FVec Ideal S64x64 .f32) (a4 : FVec Ideal S4096 .f32) : IVec S4032 32 :=
  fun i => lit3 (S4032.rowMajor i)

/-- `main_c_9`. -/
def res_c_9 (a0 : FVec Ideal S64x64 .f32) (a1 : FVec Ideal S64 .f32) (a2 a3 : FVec Ideal S64x64 .f32) (a4 : FVec Ideal S4096 .f32) : IVec S4032 1 :=
  constantI S4032 1 0#1

/-- `main_c_10`. -/
def res_c_10 (a0 : FVec Ideal S64x64 .f32) (a1 : FVec Ideal S64 .f32) (a2 a3 : FVec Ideal S64x64 .f32) (a4 : FVec Ideal S4096 .f32) : IVec S4032 1 :=
  constantI S4032 1 0#1

/-- `main_c_11`. -/
def res_c_11 (a0 : FVec Ideal S64x64 .f32) (a1 : FVec Ideal S64 .f32) (a2 a3 : FVec Ideal S64x64 .f32) (a4 : FVec Ideal S4096 .f32) : IVec S4096 1 :=
  constantI S4096 1 0#1

/-- `main_c_12`. -/
def res_c_12 (a0 : FVec Ideal S64x64 .f32) (a1 : FVec Ideal S64 .f32) (a2 a3 : FVec Ideal S64x64 .f32) (a4 : FVec Ideal S4096 .f32) : IVec S4096 1 :=
  constantI S4096 1 0#1

/-- `main_c_13`. -/
def res_c_13 (a0 : FVec Ideal S64x64 .f32) (a1 : FVec Ideal S64 .f32) (a2 a3 : FVec Ideal S64x64 .f32) (a4 : FVec Ideal S4096 .f32) : IVec S4032 32 :=
  fun i => lit4 (S4032.rowMajor i)

/-- `main_c_14`. -/
def res_c_14 (a0 : FVec Ideal S64x64 .f32) (a1 : FVec Ideal S64 .f32) (a2 a3 : FVec Ideal S64x64 .f32) (a4 : FVec Ideal S4096 .f32) : IVec S4032 1 :=
  constantI S4032 1 0#1

/-- `main_c_15`. -/
def res_c_15 (a0 : FVec Ideal S64x64 .f32) (a1 : FVec Ideal S64 .f32) (a2 a3 : FVec Ideal S64x64 .f32) (a4 : FVec Ideal S4096 .f32) : IVec S4032 32 :=
  fun i => lit5 (S4032.rowMajor i)

/-- `main_c_16`. -/
def res_c_16 (a0 : FVec Ideal S64x64 .f32) (a1 : FVec Ideal S64 .f32) (a2 a3 : FVec Ideal S64x64 .f32) (a4 : FVec Ideal S4096 .f32) : IVec S4032 1 :=
  constantI S4032 1 0#1

/-- `main_c_17`. -/
def res_c_17 (a0 : FVec Ideal S64x64 .f32) (a1 : FVec Ideal S64 .f32) (a2 a3 : FVec Ideal S64x64 .f32) (a4 : FVec Ideal S4096 .f32) : IVec S4032 32 :=
  fun i => lit6 (S4032.rowMajor i)

/-- `main_c_18`. -/
def res_c_18 (a0 : FVec Ideal S64x64 .f32) (a1 : FVec Ideal S64 .f32) (a2 a3 : FVec Ideal S64x64 .f32) (a4 : FVec Ideal S4096 .f32) : IVec S4032 1 :=
  constantI S4032 1 0#1

/-- `main_c_19`. -/
def res_c_19 (a0 : FVec Ideal S64x64 .f32) (a1 : FVec Ideal S64 .f32) (a2 a3 : FVec Ideal S64x64 .f32) (a4 : FVec Ideal S4096 .f32) : IVec S4096 1 :=
  constantI S4096 1 0#1

/-- `main_c_20`. -/
def res_c_20 (a0 : FVec Ideal S64x64 .f32) (a1 : FVec Ideal S64 .f32) (a2 a3 : FVec Ideal S64x64 .f32) (a4 : FVec Ideal S4096 .f32) : IVec S4096 1 :=
  constantI S4096 1 0#1

/-- `main_c_21`. -/
def res_c_21 (a0 : FVec Ideal S64x64 .f32) (a1 : FVec Ideal S64 .f32) (a2 a3 : FVec Ideal S64x64 .f32) (a4 : FVec Ideal S4096 .f32) : IVec S4032 32 :=
  fun i => lit7 (S4032.rowMajor i)

/-- `main_c_22`. -/
def res_c_22 (a0 : FVec Ideal S64x64 .f32) (a1 : FVec Ideal S64 .f32) (a2 a3 : FVec Ideal S64x64 .f32) (a4 : FVec Ideal S4096 .f32) : IVec S4032 1 :=
  constantI S4032 1 0#1

/-- `main_c_23`. -/
def res_c_23 (a0 : FVec Ideal S64x64 .f32) (a1 : FVec Ideal S64 .f32) (a2 a3 : FVec Ideal S64x64 .f32) (a4 : FVec Ideal S4096 .f32) : IVec S4032 1 :=
  constantI S4032 1 0#1

/-- `main_c_24`. -/
def res_c_24 (a0 : FVec Ideal S64x64 .f32) (a1 : FVec Ideal S64 .f32) (a2 a3 : FVec Ideal S64x64 .f32) (a4 : FVec Ideal S4096 .f32) : IVec S4032 32 :=
  fun i => lit8 (S4032.rowMajor i)

/-- `main_c_25`. -/
def res_c_25 (a0 : FVec Ideal S64x64 .f32) (a1 : FVec Ideal S64 .f32) (a2 a3 : FVec Ideal S64x64 .f32) (a4 : FVec Ideal S4096 .f32) : IVec S4032 1 :=
  constantI S4032 1 0#1

/-- `main_v0`. -/
def res_v0 (a0 : FVec Ideal S64x64 .f32) (a1 : FVec Ideal S64 .f32) (a2 a3 : FVec Ideal S64x64 .f32) (a4 : FVec Ideal S4096 .f32) : FVec Ideal S64x64 .f32 :=
  shapeCast S64x64 a4 shapeCasts_S4096_S64x64

/-- `main_cst`. -/
def res_cst (a0 : FVec Ideal S64x64 .f32) (a1 : FVec Ideal S64 .f32) (a2 a3 : FVec Ideal S64x64 .f32) (a4 : FVec Ideal S4096 .f32) : FVec Ideal S_ .f32 :=
  constant (F := Ideal) S_ .f32 0x3A83126F#32

/-- `main_v1`. -/
def res_v1 (a0 : FVec Ideal S64x64 .f32) (a1 : FVec Ideal S64 .f32) (a2 a3 : FVec Ideal S64x64 .f32) (a4 : FVec Ideal S4096 .f32) : FVec Ideal S64x64 .f32 :=
  broadcastInDim S64x64 ![] bcast_S_S64x64 (res_cst a0 a1 a2 a3 a4)

/-- `main_v2`. -/
def res_v2 (a0 : FVec Ideal S64x64 .f32) (a1 : FVec Ideal S64 .f32) (a2 a3 : FVec Ideal S64x64 .f32) (a4 : FVec Ideal S4096 .f32) : FVec Ideal S64x64 .f32 :=
  mulf (F := Ideal) (res_v1 a0 a1 a2 a3 a4) (res_v0 a0 a1 a2 a3 a4)

/-- `main_v3`. -/
def res_v3 (a0 : FVec Ideal S64x64 .f32) (a1 : FVec Ideal S64 .f32) (a2 a3 : FVec Ideal S64x64 .f32) (a4 : FVec Ideal S4096 .f32) : FVec Ideal S64x64 .f32 :=
  subf (F := Ideal) a2 (res_v2 a0 a1 a2 a3 a4)

/-- `main_cst_26`. -/
def res_cst_26 (a0 : FVec Ideal S64x64 .f32) (a1 : FVec Ideal S64 .f32) (a2 a3 : FVec Ideal S64x64 .f32) (a4 : FVec Ideal S4096 .f32) : FVec Ideal S_ .f32 :=
  constant (F := Ideal) S_ .f32 0x3A83126F#32

/-- `main_v4`. -/
def res_v4 (a0 : FVec Ideal S64x64 .f32) (a1 : FVec Ideal S64 .f32) (a2 a3 : FVec Ideal S64x64 .f32) (a4 : FVec Ideal S4096 .f32) : FVec Ideal S64x64 .f32 :=
  broadcastInDim S64x64 ![] bcast_S_S64x64 (res_cst_26 a0 a1 a2 a3 a4)

/-- `main_v5`. -/
def res_v5 (a0 : FVec Ideal S64x64 .f32) (a1 : FVec Ideal S64 .f32) (a2 a3 : FVec Ideal S64x64 .f32) (a4 : FVec Ideal S4096 .f32) : FVec Ideal S64x64 .f32 :=
  mulf (F := Ideal) (res_v4 a0 a1 a2 a3 a4) (res_v0 a0 a1 a2 a3 a4)

/-- `main_v6`. -/
def res_v6 (a0 : FVec Ideal S64x64 .f32) (a1 : FVec Ideal S64 .f32) (a2 a3 : FVec Ideal S64x64 .f32) (a4 : FVec Ideal S4096 .f32) : FVec Ideal S64x64 .f32 :=
  subf (F := Ideal) a3 (res_v5 a0 a1 a2 a3 a4)

/-- `main_cst_27`. -/
def res_cst_27 (a0 : FVec Ideal S64x64 .f32) (a1 : FVec Ideal S64 .f32) (a2 a3 : FVec Ideal S64x64 .f32) (a4 : FVec Ideal S4096 .f32) : FVec Ideal S_ .f32 :=
  constant (F := Ideal) S_ .f32 0xFF800000#32

/-- `main_v7`. -/
def res_v7 (a0 : FVec Ideal S64x64 .f32) (a1 : FVec Ideal S64 .f32) (a2 a3 : FVec Ideal S64x64 .f32) (a4 : FVec Ideal S4096 .f32) : FVec Ideal S_ .f32 :=
  Host.reduce (FloatOps.maximumf (F := Ideal)) a0 (res_cst_27 a0 a1 a2 a3 a4) reducesTo_S64x64_S_d0_1 h_S_

/-- `main_cst_28`. -/
def res_cst_28 (a0 : FVec Ideal S64x64 .f32) (a1 : FVec Ideal S64 .f32) (a2 a3 : FVec Ideal S64x64 .f32) (a4 : FVec Ideal S4096 .f32) : FVec Ideal S_ .f32 :=
  constant (F := Ideal) S_ .f32 0x41200000#32

/-- `main_v8`. -/
def res_v8 (a0 : FVec Ideal S64x64 .f32) (a1 : FVec Ideal S64 .f32) (a2 a3 : FVec Ideal S64x64 .f32) (a4 : FVec Ideal S4096 .f32) : FVec Ideal S_ .f32 :=
  mulf (F := Ideal) (res_cst_28 a0 a1 a2 a3 a4) (res_v7 a0 a1 a2 a3 a4)

/-- `main_cst_29`. -/
def res_cst_29 (a0 : FVec Ideal S64x64 .f32) (a1 : FVec Ideal S64 .f32) (a2 a3 : FVec Ideal S64x64 .f32) (a4 : FVec Ideal S4096 .f32) : FVec Ideal S_ .f32 :=
  constant (F := Ideal) S_ .f32 0x3FB504F3#32

/-- `main_v9`. -/
def res_v9 (a0 : FVec Ideal S64x64 .f32) (a1 : FVec Ideal S64 .f32) (a2 a3 : FVec Ideal S64x64 .f32) (a4 : FVec Ideal S4096 .f32) : FVec Ideal S_ .f32 :=
  mulf (F := Ideal) (res_v8 a0 a1 a2 a3 a4) (res_cst_29 a0 a1 a2 a3 a4)

/-- `main_v10`. -/
def res_v10 (a0 : FVec Ideal S64x64 .f32) (a1 : FVec Ideal S64 .f32) (a2 a3 : FVec Ideal S64x64 .f32) (a4 : FVec Ideal S4096 .f32) : FVec Ideal S64x64 .f32 :=
  transpose S64x64 [1, 0] a0 transposes_S64x64_S64x64_1_0

/-- `main_v11`. -/
def res_v11 (a0 : FVec Ideal S64x64 .f32) (a1 : FVec Ideal S64 .f32) (a2 a3 : FVec Ideal S64x64 .f32) (a4 : FVec Ideal S4096 .f32) : FVec Ideal S4096 .f32 :=
  shapeCast S4096 (res_v10 a0 a1 a2 a3 a4) shapeCasts_S64x64_S4096

/-- `main_cst_30`. -/
def res_cst_30 (a0 : FVec Ideal S64x64 .f32) (a1 : FVec Ideal S64 .f32) (a2 a3 : FVec Ideal S64x64 .f32) (a4 : FVec Ideal S4096 .f32) : FVec Ideal S_ .f32 :=
  constant (F := Ideal) S_ .f32 0x40000000#32

/-- `main_v12`. -/
def res_v12 (a0 : FVec Ideal S64x64 .f32) (a1 : FVec Ideal S64 .f32) (a2 a3 : FVec Ideal S64x64 .f32) (a4 : FVec Ideal S4096 .f32) : FVec Ideal S64 .f32 :=
  broadcastInDim S64 ![] bcast_S_S64 (res_cst_30 a0 a1 a2 a3 a4)

/-- `main_v13`. -/
def res_v13 (a0 : FVec Ideal S64x64 .f32) (a1 : FVec Ideal S64 .f32) (a2 a3 : FVec Ideal S64x64 .f32) (a4 : FVec Ideal S4096 .f32) : FVec Ideal S64 .f32 :=
  Host.divf (F := Ideal) a1 (res_v12 a0 a1 a2 a3 a4)

/-- `main_cst_31`. -/
def res_cst_31 (a0 : FVec Ideal S64x64 .f32) (a1 : FVec Ideal S64 .f32) (a2 a3 : FVec Ideal S64x64 .f32) (a4 : FVec Ideal S4096 .f32) : FVec Ideal S_ .f32 :=
  constant (F := Ideal) S_ .f32 0x3F800000#32

/-- `main_v14`. -/
def res_v14 (a0 : FVec Ideal S64x64 .f32) (a1 : FVec Ideal S64 .f32) (a2 a3 : FVec Ideal S64x64 .f32) (a4 : FVec Ideal S4096 .f32) : FVec Ideal S64 .f32 :=
  broadcastInDim S64 ![] bcast_S_S64 (res_cst_31 a0 a1 a2 a3 a4)

/-- `main_v15`. -/
def res_v15 (a0 : FVec Ideal S64x64 .f32) (a1 : FVec Ideal S64 .f32) (a2 a3 : FVec Ideal S64x64 .f32) (a4 : FVec Ideal S4096 .f32) : FVec Ideal S64 .f32 :=
  subf (F := Ideal) (res_v14 a0 a1 a2 a3 a4) (res_v13 a0 a1 a2 a3 a4)

/-- `main_v16`. -/
def res_v16 (a0 : FVec Ideal S64x64 .f32) (a1 : FVec Ideal S64 .f32) (a2 a3 : FVec Ideal S64x64 .f32) (a4 : FVec Ideal S4096 .f32) : FVec Ideal S1x64 .f32 :=
  shapeCast S1x64 (res_v15 a0 a1 a2 a3 a4) shapeCasts_S64_S1x64

/-- `main_v17`. -/
def res_v17 (a0 : FVec Ideal S64x64 .f32) (a1 : FVec Ideal S64 .f32) (a2 a3 : FVec Ideal S64x64 .f32) (a4 : FVec Ideal S4096 .f32) : FVec Ideal S64x64 .f32 :=
  broadcastInDim S64x64 ![0, 1] bcast_S1x64_S64x64_0_1 (res_v16 a0 a1 a2 a3 a4)

/-- `main_v18`. -/
def res_v18 (a0 : FVec Ideal S64x64 .f32) (a1 : FVec Ideal S64 .f32) (a2 a3 : FVec Ideal S64x64 .f32) (a4 : FVec Ideal S4096 .f32) : FVec Ideal S4096 .f32 :=
  shapeCast S4096 (res_v17 a0 a1 a2 a3 a4) shapeCasts_S64x64_S4096

/-- `main_cst_32`. -/
def res_cst_32 (a0 : FVec Ideal S64x64 .f32) (a1 : FVec Ideal S64 .f32) (a2 a3 : FVec Ideal S64x64 .f32) (a4 : FVec Ideal S4096 .f32) : FVec Ideal S_ .f32 :=
  constant (F := Ideal) S_ .f32 0x40000000#32

/-- `main_v19`. -/
def res_v19 (a0 : FVec Ideal S64x64 .f32) (a1 : FVec Ideal S64 .f32) (a2 a3 : FVec Ideal S64x64 .f32) (a4 : FVec Ideal S4096 .f32) : FVec Ideal S64 .f32 :=
  broadcastInDim S64 ![] bcast_S_S64 (res_cst_32 a0 a1 a2 a3 a4)

/-- `main_v20`. -/
def res_v20 (a0 : FVec Ideal S64x64 .f32) (a1 : FVec Ideal S64 .f32) (a2 a3 : FVec Ideal S64x64 .f32) (a4 : FVec Ideal S4096 .f32) : FVec Ideal S64 .f32 :=
  Host.divf (F := Ideal) a1 (res_v19 a0 a1 a2 a3 a4)

/-- `main_cst_33`. -/
def res_cst_33 (a0 : FVec Ideal S64x64 .f32) (a1 : FVec Ideal S64 .f32) (a2 a3 : FVec Ideal S64x64 .f32) (a4 : FVec Ideal S4096 .f32) : FVec Ideal S_ .f32 :=
  constant (F := Ideal) S_ .f32 0x3F800000#32

/-- `main_v21`. -/
def res_v21 (a0 : FVec Ideal S64x64 .f32) (a1 : FVec Ideal S64 .f32) (a2 a3 : FVec Ideal S64x64 .f32) (a4 : FVec Ideal S4096 .f32) : FVec Ideal S64 .f32 :=
  broadcastInDim S64 ![] bcast_S_S64 (res_cst_33 a0 a1 a2 a3 a4)

/-- `main_v22`. -/
def res_v22 (a0 : FVec Ideal S64x64 .f32) (a1 : FVec Ideal S64 .f32) (a2 a3 : FVec Ideal S64x64 .f32) (a4 : FVec Ideal S4096 .f32) : FVec Ideal S64 .f32 :=
  addf (F := Ideal) (res_v21 a0 a1 a2 a3 a4) (res_v20 a0 a1 a2 a3 a4)

/-- `main_v23`. -/
def res_v23 (a0 : FVec Ideal S64x64 .f32) (a1 : FVec Ideal S64 .f32) (a2 a3 : FVec Ideal S64x64 .f32) (a4 : FVec Ideal S4096 .f32) : FVec Ideal S1x64 .f32 :=
  shapeCast S1x64 (res_v22 a0 a1 a2 a3 a4) shapeCasts_S64_S1x64

/-- `main_v24`. -/
def res_v24 (a0 : FVec Ideal S64x64 .f32) (a1 : FVec Ideal S64 .f32) (a2 a3 : FVec Ideal S64x64 .f32) (a4 : FVec Ideal S4096 .f32) : FVec Ideal S64x64 .f32 :=
  broadcastInDim S64x64 ![0, 1] bcast_S1x64_S64x64_0_1 (res_v23 a0 a1 a2 a3 a4)

/-- `main_v25`. -/
def res_v25 (a0 : FVec Ideal S64x64 .f32) (a1 : FVec Ideal S64 .f32) (a2 a3 : FVec Ideal S64x64 .f32) (a4 : FVec Ideal S4096 .f32) : FVec Ideal S4096 .f32 :=
  shapeCast S4096 (res_v24 a0 a1 a2 a3 a4) shapeCasts_S64x64_S4096

/-- `main_v26`. -/
def res_v26 (a0 : FVec Ideal S64x64 .f32) (a1 : FVec Ideal S64 .f32) (a2 a3 : FVec Ideal S64x64 .f32) (a4 : FVec Ideal S4096 .f32) : FVec Ideal S64x64 .f32 :=
  transpose S64x64 [1, 0] (res_v3 a0 a1 a2 a3 a4) transposes_S64x64_S64x64_1_0

/-- `main_v27`. -/
def res_v27 (a0 : FVec Ideal S64x64 .f32) (a1 : FVec Ideal S64 .f32) (a2 a3 : FVec Ideal S64x64 .f32) (a4 : FVec Ideal S4096 .f32) : FVec Ideal S4096 .f32 :=
  shapeCast S4096 (res_v26 a0 a1 a2 a3 a4) shapeCasts_S64x64_S4096

/-- `main_cst_34`. -/
def res_cst_34 (a0 : FVec Ideal S64x64 .f32) (a1 : FVec Ideal S64 .f32) (a2 a3 : FVec Ideal S64x64 .f32) (a4 : FVec Ideal S4096 .f32) : FVec Ideal S_ .f32 :=
  constant (F := Ideal) S_ .f32 0x40000000#32

/-- `main_v28`. -/
def res_v28 (a0 : FVec Ideal S64x64 .f32) (a1 : FVec Ideal S64 .f32) (a2 a3 : FVec Ideal S64x64 .f32) (a4 : FVec Ideal S4096 .f32) : FVec Ideal S4096 .f32 :=
  broadcastInDim S4096 ![] bcast_S_S4096 (res_cst_34 a0 a1 a2 a3 a4)

/-- `main_v29`. -/
def res_v29 (a0 : FVec Ideal S64x64 .f32) (a1 : FVec Ideal S64 .f32) (a2 a3 : FVec Ideal S64x64 .f32) (a4 : FVec Ideal S4096 .f32) : FVec Ideal S4096 .f32 :=
  Host.divf (F := Ideal) (res_v27 a0 a1 a2 a3 a4) (res_v28 a0 a1 a2 a3 a4)

/-- `main_cst_35`. -/
def res_cst_35 (a0 : FVec Ideal S64x64 .f32) (a1 : FVec Ideal S64 .f32) (a2 a3 : FVec Ideal S64x64 .f32) (a4 : FVec Ideal S4096 .f32) : FVec Ideal S_ .f32 :=
  constant (F := Ideal) S_ .f32 0x3F800000#32

/-- `main_v30`. -/
def res_v30 (a0 : FVec Ideal S64x64 .f32) (a1 : FVec Ideal S64 .f32) (a2 a3 : FVec Ideal S64x64 .f32) (a4 : FVec Ideal S4096 .f32) : FVec Ideal S4096 .f32 :=
  broadcastInDim S4096 ![] bcast_S_S4096 (res_cst_35 a0 a1 a2 a3 a4)

/-- `main_v31`. -/
def res_v31 (a0 : FVec Ideal S64x64 .f32) (a1 : FVec Ideal S64 .f32) (a2 a3 : FVec Ideal S64x64 .f32) (a4 : FVec Ideal S4096 .f32) : FVec Ideal S4096 .f32 :=
  addf (F := Ideal) (res_v30 a0 a1 a2 a3 a4) (res_v29 a0 a1 a2 a3 a4)

/-- `main_v32`. -/
def res_v32 (a0 : FVec Ideal S64x64 .f32) (a1 : FVec Ideal S64 .f32) (a2 a3 : FVec Ideal S64x64 .f32) (a4 : FVec Ideal S4096 .f32) : FVec Ideal S64x64 .f32 :=
  transpose S64x64 [1, 0] (res_v3 a0 a1 a2 a3 a4) transposes_S64x64_S64x64_1_0

/-- `main_v33`. -/
def res_v33 (a0 : FVec Ideal S64x64 .f32) (a1 : FVec Ideal S64 .f32) (a2 a3 : FVec Ideal S64x64 .f32) (a4 : FVec Ideal S4096 .f32) : FVec Ideal S4096 .f32 :=
  shapeCast S4096 (res_v32 a0 a1 a2 a3 a4) shapeCasts_S64x64_S4096

/-- `main_cst_36`. -/
def res_cst_36 (a0 : FVec Ideal S64x64 .f32) (a1 : FVec Ideal S64 .f32) (a2 a3 : FVec Ideal S64x64 .f32) (a4 : FVec Ideal S4096 .f32) : FVec Ideal S_ .f32 :=
  constant (F := Ideal) S_ .f32 0x40000000#32

/-- `main_v34`. -/
def res_v34 (a0 : FVec Ideal S64x64 .f32) (a1 : FVec Ideal S64 .f32) (a2 a3 : FVec Ideal S64x64 .f32) (a4 : FVec Ideal S4096 .f32) : FVec Ideal S4096 .f32 :=
  broadcastInDim S4096 ![] bcast_S_S4096 (res_cst_36 a0 a1 a2 a3 a4)

/-- `main_v35`. -/
def res_v35 (a0 : FVec Ideal S64x64 .f32) (a1 : FVec Ideal S64 .f32) (a2 a3 : FVec Ideal S64x64 .f32) (a4 : FVec Ideal S4096 .f32) : FVec Ideal S4096 .f32 :=
  Host.divf (F := Ideal) (res_v33 a0 a1 a2 a3 a4) (res_v34 a0 a1 a2 a3 a4)

/-- `main_cst_37`. -/
def res_cst_37 (a0 : FVec Ideal S64x64 .f32) (a1 : FVec Ideal S64 .f32) (a2 a3 : FVec Ideal S64x64 .f32) (a4 : FVec Ideal S4096 .f32) : FVec Ideal S_ .f32 :=
  constant (F := Ideal) S_ .f32 0x3F800000#32

/-- `main_v36`. -/
def res_v36 (a0 : FVec Ideal S64x64 .f32) (a1 : FVec Ideal S64 .f32) (a2 a3 : FVec Ideal S64x64 .f32) (a4 : FVec Ideal S4096 .f32) : FVec Ideal S4096 .f32 :=
  broadcastInDim S4096 ![] bcast_S_S4096 (res_cst_37 a0 a1 a2 a3 a4)

/-- `main_v37`. -/
def res_v37 (a0 : FVec Ideal S64x64 .f32) (a1 : FVec Ideal S64 .f32) (a2 a3 : FVec Ideal S64x64 .f32) (a4 : FVec Ideal S4096 .f32) : FVec Ideal S4096 .f32 :=
  subf (F := Ideal) (res_v36 a0 a1 a2 a3 a4) (res_v35 a0 a1 a2 a3 a4)

/-- `main_v38`. -/
def res_v38 (a0 : FVec Ideal S64x64 .f32) (a1 : FVec Ideal S64 .f32) (a2 a3 : FVec Ideal S64x64 .f32) (a4 : FVec Ideal S4096 .f32) : FVec Ideal S64x64 .f32 :=
  transpose S64x64 [1, 0] (res_v6 a0 a1 a2 a3 a4) transposes_S64x64_S64x64_1_0

/-- `main_v39`. -/
def res_v39 (a0 : FVec Ideal S64x64 .f32) (a1 : FVec Ideal S64 .f32) (a2 a3 : FVec Ideal S64x64 .f32) (a4 : FVec Ideal S4096 .f32) : FVec Ideal S4096 .f32 :=
  shapeCast S4096 (res_v38 a0 a1 a2 a3 a4) shapeCasts_S64x64_S4096

/-- `main_cst_38`. -/
def res_cst_38 (a0 : FVec Ideal S64x64 .f32) (a1 : FVec Ideal S64 .f32) (a2 a3 : FVec Ideal S64x64 .f32) (a4 : FVec Ideal S4096 .f32) : FVec Ideal S_ .f32 :=
  constant (F := Ideal) S_ .f32 0x40000000#32

/-- `main_v40`. -/
def res_v40 (a0 : FVec Ideal S64x64 .f32) (a1 : FVec Ideal S64 .f32) (a2 a3 : FVec Ideal S64x64 .f32) (a4 : FVec Ideal S4096 .f32) : FVec Ideal S4096 .f32 :=
  broadcastInDim S4096 ![] bcast_S_S4096 (res_cst_38 a0 a1 a2 a3 a4)

/-- `main_v41`. -/
def res_v41 (a0 : FVec Ideal S64x64 .f32) (a1 : FVec Ideal S64 .f32) (a2 a3 : FVec Ideal S64x64 .f32) (a4 : FVec Ideal S4096 .f32) : FVec Ideal S4096 .f32 :=
  Host.divf (F := Ideal) (res_v39 a0 a1 a2 a3 a4) (res_v40 a0 a1 a2 a3 a4)

/-- `main_cst_39`. -/
def res_cst_39 (a0 : FVec Ideal S64x64 .f32) (a1 : FVec Ideal S64 .f32) (a2 a3 : FVec Ideal S64x64 .f32) (a4 : FVec Ideal S4096 .f32) : FVec Ideal S_ .f32 :=
  constant (F := Ideal) S_ .f32 0x3F800000#32

/-- `main_v42`. -/
def res_v42 (a0 : FVec Ideal S64x64 .f32) (a1 : FVec Ideal S64 .f32) (a2 a3 : FVec Ideal S64x64 .f32) (a4 : FVec Ideal S4096 .f32) : FVec Ideal S4096 .f32 :=
  broadcastInDim S4096 ![] bcast_S_S4096 (res_cst_39 a0 a1 a2 a3 a4)

/-- `main_v43`. -/
def res_v43 (a0 : FVec Ideal S64x64 .f32) (a1 : FVec Ideal S64 .f32) (a2 a3 : FVec Ideal S64x64 .f32) (a4 : FVec Ideal S4096 .f32) : FVec Ideal S4096 .f32 :=
  addf (F := Ideal) (res_v42 a0 a1 a2 a3 a4) (res_v41 a0 a1 a2 a3 a4)

/-- `main_v44`. -/
def res_v44 (a0 : FVec Ideal S64x64 .f32) (a1 : FVec Ideal S64 .f32) (a2 a3 : FVec Ideal S64x64 .f32) (a4 : FVec Ideal S4096 .f32) : FVec Ideal S64x64 .f32 :=
  transpose S64x64 [1, 0] (res_v6 a0 a1 a2 a3 a4) transposes_S64x64_S64x64_1_0

/-- `main_v45`. -/
def res_v45 (a0 : FVec Ideal S64x64 .f32) (a1 : FVec Ideal S64 .f32) (a2 a3 : FVec Ideal S64x64 .f32) (a4 : FVec Ideal S4096 .f32) : FVec Ideal S4096 .f32 :=
  shapeCast S4096 (res_v44 a0 a1 a2 a3 a4) shapeCasts_S64x64_S4096

/-- `main_cst_40`. -/
def res_cst_40 (a0 : FVec Ideal S64x64 .f32) (a1 : FVec Ideal S64 .f32) (a2 a3 : FVec Ideal S64x64 .f32) (a4 : FVec Ideal S4096 .f32) : FVec Ideal S_ .f32 :=
  constant (F := Ideal) S_ .f32 0x40000000#32

/-- `main_v46`. -/
def res_v46 (a0 : FVec Ideal S64x64 .f32) (a1 : FVec Ideal S64 .f32) (a2 a3 : FVec Ideal S64x64 .f32) (a4 : FVec Ideal S4096 .f32) : FVec Ideal S4096 .f32 :=
  broadcastInDim S4096 ![] bcast_S_S4096 (res_cst_40 a0 a1 a2 a3 a4)

/-- `main_v47`. -/
def res_v47 (a0 : FVec Ideal S64x64 .f32) (a1 : FVec Ideal S64 .f32) (a2 a3 : FVec Ideal S64x64 .f32) (a4 : FVec Ideal S4096 .f32) : FVec Ideal S4096 .f32 :=
  Host.divf (F := Ideal) (res_v45 a0 a1 a2 a3 a4) (res_v46 a0 a1 a2 a3 a4)

/-- `main_cst_41`. -/
def res_cst_41 (a0 : FVec Ideal S64x64 .f32) (a1 : FVec Ideal S64 .f32) (a2 a3 : FVec Ideal S64x64 .f32) (a4 : FVec Ideal S4096 .f32) : FVec Ideal S_ .f32 :=
  constant (F := Ideal) S_ .f32 0x3F800000#32

/-- `main_v48`. -/
def res_v48 (a0 : FVec Ideal S64x64 .f32) (a1 : FVec Ideal S64 .f32) (a2 a3 : FVec Ideal S64x64 .f32) (a4 : FVec Ideal S4096 .f32) : FVec Ideal S4096 .f32 :=
  broadcastInDim S4096 ![] bcast_S_S4096 (res_cst_41 a0 a1 a2 a3 a4)

/-- `main_v49`. -/
def res_v49 (a0 : FVec Ideal S64x64 .f32) (a1 : FVec Ideal S64 .f32) (a2 a3 : FVec Ideal S64x64 .f32) (a4 : FVec Ideal S4096 .f32) : FVec Ideal S4096 .f32 :=
  subf (F := Ideal) (res_v48 a0 a1 a2 a3 a4) (res_v47 a0 a1 a2 a3 a4)

/-- `main_cst_42`. -/
def res_cst_42 (a0 : FVec Ideal S64x64 .f32) (a1 : FVec Ideal S64 .f32) (a2 a3 : FVec Ideal S64x64 .f32) (a4 : FVec Ideal S4096 .f32) : FVec Ideal S_ .f32 :=
  constant (F := Ideal) S_ .f32 0x00000000#32

/-- `main_v50`. -/
def res_v50 (a0 : FVec Ideal S64x64 .f32) (a1 : FVec Ideal S64 .f32) (a2 a3 : FVec Ideal S64x64 .f32) (a4 : FVec Ideal S4096 .f32) : FVec Ideal S4096x4096 .f32 :=
  broadcastInDim S4096x4096 ![] bcast_S_S4096x4096 (res_cst_42 a0 a1 a2 a3 a4)

/-- `main_v51`. -/
def res_v51 (a0 : FVec Ideal S64x64 .f32) (a1 : FVec Ideal S64 .f32) (a2 a3 : FVec Ideal S64x64 .f32) (a4 : FVec Ideal S4096 .f32) : FVec Ideal S4096 .f32 :=
  broadcastInDim S4096 ![] bcast_S_S4096 (res_v9 a0 a1 a2 a3 a4)

/-- `main_v52`. -/
def res_v52 (a0 : FVec Ideal S64x64 .f32) (a1 : FVec Ideal S64 .f32) (a2 a3 : FVec Ideal S64x64 .f32) (a4 : FVec Ideal S4096 .f32) : FVec Ideal S4096 .f32 :=
  Host.divf (F := Ideal) (res_v11 a0 a1 a2 a3 a4) (res_v51 a0 a1 a2 a3 a4)

/-- `main_c_43`. -/
def res_c_43 (a0 : FVec Ideal S64x64 .f32) (a1 : FVec Ideal S64 .f32) (a2 a3 : FVec Ideal S64x64 .f32) (a4 : FVec Ideal S4096 .f32) : IVec S_ 32 :=
  constantI S_ 32 4096#32

/-- `main_v53`. -/
def res_v53 (a0 : FVec Ideal S64x64 .f32) (a1 : FVec Ideal S64 .f32) (a2 a3 : FVec Ideal S64x64 .f32) (a4 : FVec Ideal S4096 .f32) : IVec S4096 32 :=
  broadcastInDim S4096 ![] bcast_S_S4096 (res_c_43 a0 a1 a2 a3 a4)

/-- `main_v54`. -/
def res_v54 (a0 : FVec Ideal S64x64 .f32) (a1 : FVec Ideal S64 .f32) (a2 a3 : FVec Ideal S64x64 .f32) (a4 : FVec Ideal S4096 .f32) : IVec S4096 32 :=
  addi (res_c a0 a1 a2 a3 a4) (res_v53 a0 a1 a2 a3 a4)

/-- `main_v55`. -/
def res_v55 (a0 : FVec Ideal S64x64 .f32) (a1 : FVec Ideal S64 .f32) (a2 a3 : FVec Ideal S64x64 .f32) (a4 : FVec Ideal S4096 .f32) : IVec S4096 32 :=
  select (res_c_0 a0 a1 a2 a3 a4) (res_v54 a0 a1 a2 a3 a4) (res_c a0 a1 a2 a3 a4)

/-- `main_c_44`. -/
def res_c_44 (a0 : FVec Ideal S64x64 .f32) (a1 : FVec Ideal S64 .f32) (a2 a3 : FVec Ideal S64x64 .f32) (a4 : FVec Ideal S4096 .f32) : IVec S_ 32 :=
  constantI S_ 32 4096#32

/-- `main_v56`. -/
def res_v56 (a0 : FVec Ideal S64x64 .f32) (a1 : FVec Ideal S64 .f32) (a2 a3 : FVec Ideal S64x64 .f32) (a4 : FVec Ideal S4096 .f32) : IVec S4096 32 :=
  broadcastInDim S4096 ![] bcast_S_S4096 (res_c_44 a0 a1 a2 a3 a4)

/-- `main_v57`. -/
def res_v57 (a0 : FVec Ideal S64x64 .f32) (a1 : FVec Ideal S64 .f32) (a2 a3 : FVec Ideal S64x64 .f32) (a4 : FVec Ideal S4096 .f32) : IVec S4096 32 :=
  addi (res_c a0 a1 a2 a3 a4) (res_v56 a0 a1 a2 a3 a4)

/-- `main_v58`. -/
def res_v58 (a0 : FVec Ideal S64x64 .f32) (a1 : FVec Ideal S64 .f32) (a2 a3 : FVec Ideal S64x64 .f32) (a4 : FVec Ideal S4096 .f32) : IVec S4096 32 :=
  select (res_c_1 a0 a1 a2 a3 a4) (res_v57 a0 a1 a2 a3 a4) (res_c a0 a1 a2 a3 a4)

/-- `main_v59`. -/
def res_v59 (a0 : FVec Ideal S64x64 .f32) (a1 : FVec Ideal S64 .f32) (a2 a3 : FVec Ideal S64x64 .f32) (a4 : FVec Ideal S4096 .f32) : IVec S4096x1 32 :=
  broadcastInDim S4096x1 ![0] bcast_S4096_S4096x1_0 (res_v55 a0 a1 a2 a3 a4)

/-- `main_v60`. -/
def res_v60 (a0 : FVec Ideal S64x64 .f32) (a1 : FVec Ideal S64 .f32) (a2 a3 : FVec Ideal S64x64 .f32) (a4 : FVec Ideal S4096 .f32) : IVec S4096x1 32 :=
  broadcastInDim S4096x1 ![0] bcast_S4096_S4096x1_0 (res_v58 a0 a1 a2 a3 a4)

/-- `main_v61`. -/
def res_v61 (a0 : FVec Ideal S64x64 .f32) (a1 : FVec Ideal S64 .f32) (a2 a3 : FVec Ideal S64x64 .f32) (a4 : FVec Ideal S4096 .f32) : IVec S4096x2 32 :=
  concatenate S4096x2 1 [⟨S4096x1, (res_v59 a0 a1 a2 a3 a4)⟩, ⟨S4096x1, (res_v60 a0 a1 a2 a3 a4)⟩] concatenates_S4096x1_S4096x1_S4096x2_d1

/-- `main_v62`. -/
def res_v62 (a0 : FVec Ideal S64x64 .f32) (a1 : FVec Ideal S64 .f32) (a2 a3 : FVec Ideal S64x64 .f32) (a4 : FVec Ideal S4096 .f32) : FVec Ideal S4096x4096 .f32 :=
  Host.scatter scatter_S4096x4096_S4096x2_S4096_n_01_01_1 (fun _ b => b) (res_v50 a0 a1 a2 a3 a4) (res_v61 a0 a1 a2 a3 a4) (res_v52 a0 a1 a2 a3 a4)

/-- `main_v63`. -/
def res_v63 (a0 : FVec Ideal S64x64 .f32) (a1 : FVec Ideal S64 .f32) (a2 a3 : FVec Ideal S64x64 .f32) (a4 : FVec Ideal S4096 .f32) : FVec Ideal S4032 .f32 :=
  extractStridedSlice S4032 ![0] (res_v11 a0 a1 a2 a3 a4) slices_S4096_S4032_0

/-- `main_v64`. -/
def res_v64 (a0 : FVec Ideal S64x64 .f32) (a1 : FVec Ideal S64 .f32) (a2 a3 : FVec Ideal S64x64 .f32) (a4 : FVec Ideal S4096 .f32) : FVec Ideal S4032 .f32 :=
  Host.negf (F := Ideal) (res_v63 a0 a1 a2 a3 a4)

/-- `main_v65`. -/
def res_v65 (a0 : FVec Ideal S64x64 .f32) (a1 : FVec Ideal S64 .f32) (a2 a3 : FVec Ideal S64x64 .f32) (a4 : FVec Ideal S4096 .f32) : FVec Ideal S4032 .f32 :=
  broadcastInDim S4032 ![] bcast_S_S4032 (res_v9 a0 a1 a2 a3 a4)

/-- `main_v66`. -/
def res_v66 (a0 : FVec Ideal S64x64 .f32) (a1 : FVec Ideal S64 .f32) (a2 a3 : FVec Ideal S64x64 .f32) (a4 : FVec Ideal S4096 .f32) : FVec Ideal S4032 .f32 :=
  Host.divf (F := Ideal) (res_v64 a0 a1 a2 a3 a4) (res_v65 a0 a1 a2 a3 a4)

/-- `main_c_45`. -/
def res_c_45 (a0 : FVec Ideal S64x64 .f32) (a1 : FVec Ideal S64 .f32) (a2 a3 : FVec Ideal S64x64 .f32) (a4 : FVec Ideal S4096 .f32) : IVec S_ 32 :=
  constantI S_ 32 4096#32

/-- `main_v67`. -/
def res_v67 (a0 : FVec Ideal S64x64 .f32) (a1 : FVec Ideal S64 .f32) (a2 a3 : FVec Ideal S64x64 .f32) (a4 : FVec Ideal S4096 .f32) : IVec S4032 32 :=
  broadcastInDim S4032 ![] bcast_S_S4032 (res_c_45 a0 a1 a2 a3 a4)

/-- `main_v68`. -/
def res_v68 (a0 : FVec Ideal S64x64 .f32) (a1 : FVec Ideal S64 .f32) (a2 a3 : FVec Ideal S64x64 .f32) (a4 : FVec Ideal S4096 .f32) : IVec S4032 32 :=
  addi (res_c_2 a0 a1 a2 a3 a4) (res_v67 a0 a1 a2 a3 a4)

/-- `main_v69`. -/
def res_v69 (a0 : FVec Ideal S64x64 .f32) (a1 : FVec Ideal S64 .f32) (a2 a3 : FVec Ideal S64x64 .f32) (a4 : FVec Ideal S4096 .f32) : IVec S4032 32 :=
  select (res_c_3 a0 a1 a2 a3 a4) (res_v68 a0 a1 a2 a3 a4) (res_c_2 a0 a1 a2 a3 a4)

/-- `main_c_46`. -/
def res_c_46 (a0 : FVec Ideal S64x64 .f32) (a1 : FVec Ideal S64 .f32) (a2 a3 : FVec Ideal S64x64 .f32) (a4 : FVec Ideal S4096 .f32) : IVec S_ 32 :=
  constantI S_ 32 4096#32

/-- `main_v70`. -/
def res_v70 (a0 : FVec Ideal S64x64 .f32) (a1 : FVec Ideal S64 .f32) (a2 a3 : FVec Ideal S64x64 .f32) (a4 : FVec Ideal S4096 .f32) : IVec S4032 32 :=
  broadcastInDim S4032 ![] bcast_S_S4032 (res_c_46 a0 a1 a2 a3 a4)

/-- `main_v71`. -/
def res_v71 (a0 : FVec Ideal S64x64 .f32) (a1 : FVec Ideal S64 .f32) (a2 a3 : FVec Ideal S64x64 .f32) (a4 : FVec Ideal S4096 .f32) : IVec S4032 32 :=
  addi (res_c_4 a0 a1 a2 a3 a4) (res_v70 a0 a1 a2 a3 a4)

/-- `main_v72`. -/
def res_v72 (a0 : FVec Ideal S64x64 .f32) (a1 : FVec Ideal S64 .f32) (a2 a3 : FVec Ideal S64x64 .f32) (a4 : FVec Ideal S4096 .f32) : IVec S4032 32 :=
  select (res_c_5 a0 a1 a2 a3 a4) (res_v71 a0 a1 a2 a3 a4) (res_c_4 a0 a1 a2 a3 a4)

/-- `main_v73`. -/
def res_v73 (a0 : FVec Ideal S64x64 .f32) (a1 : FVec Ideal S64 .f32) (a2 a3 : FVec Ideal S64x64 .f32) (a4 : FVec Ideal S4096 .f32) : IVec S4032x1 32 :=
  broadcastInDim S4032x1 ![0] bcast_S4032_S4032x1_0 (res_v69 a0 a1 a2 a3 a4)

/-- `main_v74`. -/
def res_v74 (a0 : FVec Ideal S64x64 .f32) (a1 : FVec Ideal S64 .f32) (a2 a3 : FVec Ideal S64x64 .f32) (a4 : FVec Ideal S4096 .f32) : IVec S4032x1 32 :=
  broadcastInDim S4032x1 ![0] bcast_S4032_S4032x1_0 (res_v72 a0 a1 a2 a3 a4)

/-- `main_v75`. -/
def res_v75 (a0 : FVec Ideal S64x64 .f32) (a1 : FVec Ideal S64 .f32) (a2 a3 : FVec Ideal S64x64 .f32) (a4 : FVec Ideal S4096 .f32) : IVec S4032x2 32 :=
  concatenate S4032x2 1 [⟨S4032x1, (res_v73 a0 a1 a2 a3 a4)⟩, ⟨S4032x1, (res_v74 a0 a1 a2 a3 a4)⟩] concatenates_S4032x1_S4032x1_S4032x2_d1

/-- `main_v76`. -/
def res_v76 (a0 : FVec Ideal S64x64 .f32) (a1 : FVec Ideal S64 .f32) (a2 a3 : FVec Ideal S64x64 .f32) (a4 : FVec Ideal S4096 .f32) : FVec Ideal S4096x4096 .f32 :=
  Host.scatter scatter_S4096x4096_S4032x2_S4032_n_01_01_1 (fun _ b => b) (res_v62 a0 a1 a2 a3 a4) (res_v75 a0 a1 a2 a3 a4) (res_v66 a0 a1 a2 a3 a4)

/-- `main_v77`. -/
def res_v77 (a0 : FVec Ideal S64x64 .f32) (a1 : FVec Ideal S64 .f32) (a2 a3 : FVec Ideal S64x64 .f32) (a4 : FVec Ideal S4096 .f32) : FVec Ideal S4096 .f32 :=
  Host.negf (F := Ideal) (res_v11 a0 a1 a2 a3 a4)

/-- `main_v78`. -/
def res_v78 (a0 : FVec Ideal S64x64 .f32) (a1 : FVec Ideal S64 .f32) (a2 a3 : FVec Ideal S64x64 .f32) (a4 : FVec Ideal S4096 .f32) : FVec Ideal S4096 .f32 :=
  broadcastInDim S4096 ![] bcast_S_S4096 (res_v9 a0 a1 a2 a3 a4)

/-- `main_v79`. -/
def res_v79 (a0 : FVec Ideal S64x64 .f32) (a1 : FVec Ideal S64 .f32) (a2 a3 : FVec Ideal S64x64 .f32) (a4 : FVec Ideal S4096 .f32) : FVec Ideal S4096 .f32 :=
  Host.divf (F := Ideal) (res_v77 a0 a1 a2 a3 a4) (res_v78 a0 a1 a2 a3 a4)

/-- `main_c_47`. -/
def res_c_47 (a0 : FVec Ideal S64x64 .f32) (a1 : FVec Ideal S64 .f32) (a2 a3 : FVec Ideal S64x64 .f32) (a4 : FVec Ideal S4096 .f32) : IVec S_ 32 :=
  constantI S_ 32 4096#32

/-- `main_v80`. -/
def res_v80 (a0 : FVec Ideal S64x64 .f32) (a1 : FVec Ideal S64 .f32) (a2 a3 : FVec Ideal S64x64 .f32) (a4 : FVec Ideal S4096 .f32) : IVec S4096 32 :=
  broadcastInDim S4096 ![] bcast_S_S4096 (res_c_47 a0 a1 a2 a3 a4)

/-- `main_v81`. -/
def res_v81 (a0 : FVec Ideal S64x64 .f32) (a1 : FVec Ideal S64 .f32) (a2 a3 : FVec Ideal S64x64 .f32) (a4 : FVec Ideal S4096 .f32) : IVec S4096 32 :=
  addi (res_c a0 a1 a2 a3 a4) (res_v80 a0 a1 a2 a3 a4)

/-- `main_v82`. -/
def res_v82 (a0 : FVec Ideal S64x64 .f32) (a1 : FVec Ideal S64 .f32) (a2 a3 : FVec Ideal S64x64 .f32) (a4 : FVec Ideal S4096 .f32) : IVec S4096 32 :=
  select (res_c_6 a0 a1 a2 a3 a4) (res_v81 a0 a1 a2 a3 a4) (res_c a0 a1 a2 a3 a4)

/-- `main_c_48`. -/
def res_c_48 (a0 : FVec Ideal S64x64 .f32) (a1 : FVec Ideal S64 .f32) (a2 a3 : FVec Ideal S64x64 .f32) (a4 : FVec Ideal S4096 .f32) : IVec S_ 32 :=
  constantI S_ 32 4096#32

/-- `main_v83`. -/
def res_v83 (a0 : FVec Ideal S64x64 .f32) (a1 : FVec Ideal S64 .f32) (a2 a3 : FVec Ideal S64x64 .f32) (a4 : FVec Ideal S4096 .f32) : IVec S4096 32 :=
  broadcastInDim S4096 ![] bcast_S_S4096 (res_c_48 a0 a1 a2 a3 a4)

/-- `main_v84`. -/
def res_v84 (a0 : FVec Ideal S64x64 .f32) (a1 : FVec Ideal S64 .f32) (a2 a3 : FVec Ideal S64x64 .f32) (a4 : FVec Ideal S4096 .f32) : IVec S4096 32 :=
  addi (res_c a0 a1 a2 a3 a4) (res_v83 a0 a1 a2 a3 a4)

/-- `main_v85`. -/
def res_v85 (a0 : FVec Ideal S64x64 .f32) (a1 : FVec Ideal S64 .f32) (a2 a3 : FVec Ideal S64x64 .f32) (a4 : FVec Ideal S4096 .f32) : IVec S4096 32 :=
  select (res_c_7 a0 a1 a2 a3 a4) (res_v84 a0 a1 a2 a3 a4) (res_c a0 a1 a2 a3 a4)

/-- `main_v86`. -/
def res_v86 (a0 : FVec Ideal S64x64 .f32) (a1 : FVec Ideal S64 .f32) (a2 a3 : FVec Ideal S64x64 .f32) (a4 : FVec Ideal S4096 .f32) : IVec S4096x1 32 :=
  broadcastInDim S4096x1 ![0] bcast_S4096_S4096x1_0 (res_v82 a0 a1 a2 a3 a4)

/-- `main_v87`. -/
def res_v87 (a0 : FVec Ideal S64x64 .f32) (a1 : FVec Ideal S64 .f32) (a2 a3 : FVec Ideal S64x64 .f32) (a4 : FVec Ideal S4096 .f32) : IVec S4096x1 32 :=
  broadcastInDim S4096x1 ![0] bcast_S4096_S4096x1_0 (res_v85 a0 a1 a2 a3 a4)

/-- `main_v88`. -/
def res_v88 (a0 : FVec Ideal S64x64 .f32) (a1 : FVec Ideal S64 .f32) (a2 a3 : FVec Ideal S64x64 .f32) (a4 : FVec Ideal S4096 .f32) : IVec S4096x2 32 :=
  concatenate S4096x2 1 [⟨S4096x1, (res_v86 a0 a1 a2 a3 a4)⟩, ⟨S4096x1, (res_v87 a0 a1 a2 a3 a4)⟩] concatenates_S4096x1_S4096x1_S4096x2_d1

/-- `main_v89`. -/
def res_v89 (a0 : FVec Ideal S64x64 .f32) (a1 : FVec Ideal S64 .f32) (a2 a3 : FVec Ideal S64x64 .f32) (a4 : FVec Ideal S4096 .f32) : FVec Ideal S4096x4096 .f32 :=
  Host.scatter scatter_S4096x4096_S4096x2_S4096_n_01_01_1 (fun _ b => b) (res_v50 a0 a1 a2 a3 a4) (res_v88 a0 a1 a2 a3 a4) (res_v79 a0 a1 a2 a3 a4)

/-- `main_v90`. -/
def res_v90 (a0 : FVec Ideal S64x64 .f32) (a1 : FVec Ideal S64 .f32) (a2 a3 : FVec Ideal S64x64 .f32) (a4 : FVec Ideal S4096 .f32) : FVec Ideal S4032 .f32 :=
  extractStridedSlice S4032 ![0] (res_v11 a0 a1 a2 a3 a4) slices_S4096_S4032_0

/-- `main_v91`. -/
def res_v91 (a0 : FVec Ideal S64x64 .f32) (a1 : FVec Ideal S64 .f32) (a2 a3 : FVec Ideal S64x64 .f32) (a4 : FVec Ideal S4096 .f32) : FVec Ideal S4032 .f32 :=
  broadcastInDim S4032 ![] bcast_S_S4032 (res_v9 a0 a1 a2 a3 a4)

/-- `main_v92`. -/
def res_v92 (a0 : FVec Ideal S64x64 .f32) (a1 : FVec Ideal S64 .f32) (a2 a3 : FVec Ideal S64x64 .f32) (a4 : FVec Ideal S4096 .f32) : FVec Ideal S4032 .f32 :=
  Host.divf (F := Ideal) (res_v90 a0 a1 a2 a3 a4) (res_v91 a0 a1 a2 a3 a4)

/-- `main_c_49`. -/
def res_c_49 (a0 : FVec Ideal S64x64 .f32) (a1 : FVec Ideal S64 .f32) (a2 a3 : FVec Ideal S64x64 .f32) (a4 : FVec Ideal S4096 .f32) : IVec S_ 32 :=
  constantI S_ 32 4096#32

/-- `main_v93`. -/
def res_v93 (a0 : FVec Ideal S64x64 .f32) (a1 : FVec Ideal S64 .f32) (a2 a3 : FVec Ideal S64x64 .f32) (a4 : FVec Ideal S4096 .f32) : IVec S4032 32 :=
  broadcastInDim S4032 ![] bcast_S_S4032 (res_c_49 a0 a1 a2 a3 a4)

/-- `main_v94`. -/
def res_v94 (a0 : FVec Ideal S64x64 .f32) (a1 : FVec Ideal S64 .f32) (a2 a3 : FVec Ideal S64x64 .f32) (a4 : FVec Ideal S4096 .f32) : IVec S4032 32 :=
  addi (res_c_8 a0 a1 a2 a3 a4) (res_v93 a0 a1 a2 a3 a4)

/-- `main_v95`. -/
def res_v95 (a0 : FVec Ideal S64x64 .f32) (a1 : FVec Ideal S64 .f32) (a2 a3 : FVec Ideal S64x64 .f32) (a4 : FVec Ideal S4096 .f32) : IVec S4032 32 :=
  select (res_c_9 a0 a1 a2 a3 a4) (res_v94 a0 a1 a2 a3 a4) (res_c_8 a0 a1 a2 a3 a4)

/-- `main_c_50`. -/
def res_c_50 (a0 : FVec Ideal S64x64 .f32) (a1 : FVec Ideal S64 .f32) (a2 a3 : FVec Ideal S64x64 .f32) (a4 : FVec Ideal S4096 .f32) : IVec S_ 32 :=
  constantI S_ 32 4096#32

/-- `main_v96`. -/
def res_v96 (a0 : FVec Ideal S64x64 .f32) (a1 : FVec Ideal S64 .f32) (a2 a3 : FVec Ideal S64x64 .f32) (a4 : FVec Ideal S4096 .f32) : IVec S4032 32 :=
  broadcastInDim S4032 ![] bcast_S_S4032 (res_c_50 a0 a1 a2 a3 a4)

/-- `main_v97`. -/
def res_v97 (a0 : FVec Ideal S64x64 .f32) (a1 : FVec Ideal S64 .f32) (a2 a3 : FVec Ideal S64x64 .f32) (a4 : FVec Ideal S4096 .f32) : IVec S4032 32 :=
  addi (res_c_2 a0 a1 a2 a3 a4) (res_v96 a0 a1 a2 a3 a4)

/-- `main_v98`. -/
def res_v98 (a0 : FVec Ideal S64x64 .f32) (a1 : FVec Ideal S64 .f32) (a2 a3 : FVec Ideal S64x64 .f32) (a4 : FVec Ideal S4096 .f32) : IVec S4032 32 :=
  select (res_c_10 a0 a1 a2 a3 a4) (res_v97 a0 a1 a2 a3 a4) (res_c_2 a0 a1 a2 a3 a4)

/-- `main_v99`. -/
def res_v99 (a0 : FVec Ideal S64x64 .f32) (a1 : FVec Ideal S64 .f32) (a2 a3 : FVec Ideal S64x64 .f32) (a4 : FVec Ideal S4096 .f32) : IVec S4032x1 32 :=
  broadcastInDim S4032x1 ![0] bcast_S4032_S4032x1_0 (res_v95 a0 a1 a2 a3 a4)

/-- `main_v100`. -/
def res_v100 (a0 : FVec Ideal S64x64 .f32) (a1 : FVec Ideal S64 .f32) (a2 a3 : FVec Ideal S64x64 .f32) (a4 : FVec Ideal S4096 .f32) : IVec S4032x1 32 :=
  broadcastInDim S4032x1 ![0] bcast_S4032_S4032x1_0 (res_v98 a0 a1 a2 a3 a4)

/-- `main_v101`. -/
def res_v101 (a0 : FVec Ideal S64x64 .f32) (a1 : FVec Ideal S64 .f32) (a2 a3 : FVec Ideal S64x64 .f32) (a4 : FVec Ideal S4096 .f32) : IVec S4032x2 32 :=
  concatenate S4032x2 1 [⟨S4032x1, (res_v99 a0 a1 a2 a3 a4)⟩, ⟨S4032x1, (res_v100 a0 a1 a2 a3 a4)⟩] concatenates_S4032x1_S4032x1_S4032x2_d1

/-- `main_v102`. -/
def res_v102 (a0 : FVec Ideal S64x64 .f32) (a1 : FVec Ideal S64 .f32) (a2 a3 : FVec Ideal S64x64 .f32) (a4 : FVec Ideal S4096 .f32) : FVec Ideal S4096x4096 .f32 :=
  Host.scatter scatter_S4096x4096_S4032x2_S4032_n_01_01_1 (fun _ b => b) (res_v89 a0 a1 a2 a3 a4) (res_v101 a0 a1 a2 a3 a4) (res_v92 a0 a1 a2 a3 a4)

/-- `main_v103`. -/
def res_v103 (a0 : FVec Ideal S64x64 .f32) (a1 : FVec Ideal S64 .f32) (a2 a3 : FVec Ideal S64x64 .f32) (a4 : FVec Ideal S4096 .f32) : FVec Ideal S4096 .f32 :=
  broadcastInDim S4096 ![] bcast_S_S4096 (res_v9 a0 a1 a2 a3 a4)

/-- `main_v104`. -/
def res_v104 (a0 : FVec Ideal S64x64 .f32) (a1 : FVec Ideal S64 .f32) (a2 a3 : FVec Ideal S64x64 .f32) (a4 : FVec Ideal S4096 .f32) : FVec Ideal S4096 .f32 :=
  Host.divf (F := Ideal) (res_v11 a0 a1 a2 a3 a4) (res_v103 a0 a1 a2 a3 a4)

/-- `main_c_51`. -/
def res_c_51 (a0 : FVec Ideal S64x64 .f32) (a1 : FVec Ideal S64 .f32) (a2 a3 : FVec Ideal S64x64 .f32) (a4 : FVec Ideal S4096 .f32) : IVec S_ 32 :=
  constantI S_ 32 4096#32

/-- `main_v105`. -/
def res_v105 (a0 : FVec Ideal S64x64 .f32) (a1 : FVec Ideal S64 .f32) (a2 a3 : FVec Ideal S64x64 .f32) (a4 : FVec Ideal S4096 .f32) : IVec S4096 32 :=
  broadcastInDim S4096 ![] bcast_S_S4096 (res_c_51 a0 a1 a2 a3 a4)

/-- `main_v106`. -/
def res_v106 (a0 : FVec Ideal S64x64 .f32) (a1 : FVec Ideal S64 .f32) (a2 a3 : FVec Ideal S64x64 .f32) (a4 : FVec Ideal S4096 .f32) : IVec S4096 32 :=
  addi (res_c a0 a1 a2 a3 a4) (res_v105 a0 a1 a2 a3 a4)

/-- `main_v107`. -/
def res_v107 (a0 : FVec Ideal S64x64 .f32) (a1 : FVec Ideal S64 .f32) (a2 a3 : FVec Ideal S64x64 .f32) (a4 : FVec Ideal S4096 .f32) : IVec S4096 32 :=
  select (res_c_11 a0 a1 a2 a3 a4) (res_v106 a0 a1 a2 a3 a4) (res_c a0 a1 a2 a3 a4)

/-- `main_c_52`. -/
def res_c_52 (a0 : FVec Ideal S64x64 .f32) (a1 : FVec Ideal S64 .f32) (a2 a3 : FVec Ideal S64x64 .f32) (a4 : FVec Ideal S4096 .f32) : IVec S_ 32 :=
  constantI S_ 32 4096#32

/-- `main_v108`. -/
def res_v108 (a0 : FVec Ideal S64x64 .f32) (a1 : FVec Ideal S64 .f32) (a2 a3 : FVec Ideal S64x64 .f32) (a4 : FVec Ideal S4096 .f32) : IVec S4096 32 :=
  broadcastInDim S4096 ![] bcast_S_S4096 (res_c_52 a0 a1 a2 a3 a4)

/-- `main_v109`. -/
def res_v109 (a0 : FVec Ideal S64x64 .f32) (a1 : FVec Ideal S64 .f32) (a2 a3 : FVec Ideal S64x64 .f32) (a4 : FVec Ideal S4096 .f32) : IVec S4096 32 :=
  addi (res_c a0 a1 a2 a3 a4) (res_v108 a0 a1 a2 a3 a4)

/-- `main_v110`. -/
def res_v110 (a0 : FVec Ideal S64x64 .f32) (a1 : FVec Ideal S64 .f32) (a2 a3 : FVec Ideal S64x64 .f32) (a4 : FVec Ideal S4096 .f32) : IVec S4096 32 :=
  select (res_c_12 a0 a1 a2 a3 a4) (res_v109 a0 a1 a2 a3 a4) (res_c a0 a1 a2 a3 a4)

/-- `main_v111`. -/
def res_v111 (a0 : FVec Ideal S64x64 .f32) (a1 : FVec Ideal S64 .f32) (a2 a3 : FVec Ideal S64x64 .f32) (a4 : FVec Ideal S4096 .f32) : IVec S4096x1 32 :=
  broadcastInDim S4096x1 ![0] bcast_S4096_S4096x1_0 (res_v107 a0 a1 a2 a3 a4)

/-- `main_v112`. -/
def res_v112 (a0 : FVec Ideal S64x64 .f32) (a1 : FVec Ideal S64 .f32) (a2 a3 : FVec Ideal S64x64 .f32) (a4 : FVec Ideal S4096 .f32) : IVec S4096x1 32 :=
  broadcastInDim S4096x1 ![0] bcast_S4096_S4096x1_0 (res_v110 a0 a1 a2 a3 a4)

/-- `main_v113`. -/
def res_v113 (a0 : FVec Ideal S64x64 .f32) (a1 : FVec Ideal S64 .f32) (a2 a3 : FVec Ideal S64x64 .f32) (a4 : FVec Ideal S4096 .f32) : IVec S4096x2 32 :=
  concatenate S4096x2 1 [⟨S4096x1, (res_v111 a0 a1 a2 a3 a4)⟩, ⟨S4096x1, (res_v112 a0 a1 a2 a3 a4)⟩] concatenates_S4096x1_S4096x1_S4096x2_d1

/-- `main_v114`. -/
def res_v114 (a0 : FVec Ideal S64x64 .f32) (a1 : FVec Ideal S64 .f32) (a2 a3 : FVec Ideal S64x64 .f32) (a4 : FVec Ideal S4096 .f32) : FVec Ideal S4096x4096 .f32 :=
  Host.scatter scatter_S4096x4096_S4096x2_S4096_n_01_01_1 (fun _ b => b) (res_v50 a0 a1 a2 a3 a4) (res_v113 a0 a1 a2 a3 a4) (res_v104 a0 a1 a2 a3 a4)

/-- `main_c_53`. -/
def res_c_53 (a0 : FVec Ideal S64x64 .f32) (a1 : FVec Ideal S64 .f32) (a2 a3 : FVec Ideal S64x64 .f32) (a4 : FVec Ideal S4096 .f32) : IVec S_ 32 :=
  constantI S_ 32 4096#32

/-- `main_v115`. -/
def res_v115 (a0 : FVec Ideal S64x64 .f32) (a1 : FVec Ideal S64 .f32) (a2 a3 : FVec Ideal S64x64 .f32) (a4 : FVec Ideal S4096 .f32) : IVec S4032 32 :=
  broadcastInDim S4032 ![] bcast_S_S4032 (res_c_53 a0 a1 a2 a3 a4)

/-- `main_v116`. -/
def res_v116 (a0 : FVec Ideal S64x64 .f32) (a1 : FVec Ideal S64 .f32) (a2 a3 : FVec Ideal S64x64 .f32) (a4 : FVec Ideal S4096 .f32) : IVec S4032 32 :=
  addi (res_c_13 a0 a1 a2 a3 a4) (res_v115 a0 a1 a2 a3 a4)

/-- `main_v117`. -/
def res_v117 (a0 : FVec Ideal S64x64 .f32) (a1 : FVec Ideal S64 .f32) (a2 a3 : FVec Ideal S64x64 .f32) (a4 : FVec Ideal S4096 .f32) : IVec S4032 32 :=
  select (res_c_14 a0 a1 a2 a3 a4) (res_v116 a0 a1 a2 a3 a4) (res_c_13 a0 a1 a2 a3 a4)

/-- `main_v118`. -/
def res_v118 (a0 : FVec Ideal S64x64 .f32) (a1 : FVec Ideal S64 .f32) (a2 a3 : FVec Ideal S64x64 .f32) (a4 : FVec Ideal S4096 .f32) : IVec S4032x1 32 :=
  broadcastInDim S4032x1 ![0] bcast_S4032_S4032x1_0 (res_v117 a0 a1 a2 a3 a4)

/-- `main_v119`. -/
def res_v119 (a0 : FVec Ideal S64x64 .f32) (a1 : FVec Ideal S64 .f32) (a2 a3 : FVec Ideal S64x64 .f32) (a4 : FVec Ideal S4096 .f32) : FVec Ideal S4032 .f32 :=
  Host.gather gather_S4096_S4032x1_S4032_n_0_n_n_0_1_1 (res_v11 a0 a1 a2 a3 a4) (res_v118 a0 a1 a2 a3 a4)

/-- `main_v120`. -/
def res_v120 (a0 : FVec Ideal S64x64 .f32) (a1 : FVec Ideal S64 .f32) (a2 a3 : FVec Ideal S64x64 .f32) (a4 : FVec Ideal S4096 .f32) : FVec Ideal S4032 .f32 :=
  Host.negf (F := Ideal) (res_v119 a0 a1 a2 a3 a4)

/-- `main_v121`. -/
def res_v121 (a0 : FVec Ideal S64x64 .f32) (a1 : FVec Ideal S64 .f32) (a2 a3 : FVec Ideal S64x64 .f32) (a4 : FVec Ideal S4096 .f32) : FVec Ideal S4032 .f32 :=
  broadcastInDim S4032 ![] bcast_S_S4032 (res_v9 a0 a1 a2 a3 a4)

/-- `main_v122`. -/
def res_v122 (a0 : FVec Ideal S64x64 .f32) (a1 : FVec Ideal S64 .f32) (a2 a3 : FVec Ideal S64x64 .f32) (a4 : FVec Ideal S4096 .f32) : FVec Ideal S4032 .f32 :=
  Host.divf (F := Ideal) (res_v120 a0 a1 a2 a3 a4) (res_v121 a0 a1 a2 a3 a4)

/-- `main_c_54`. -/
def res_c_54 (a0 : FVec Ideal S64x64 .f32) (a1 : FVec Ideal S64 .f32) (a2 a3 : FVec Ideal S64x64 .f32) (a4 : FVec Ideal S4096 .f32) : IVec S_ 32 :=
  constantI S_ 32 4096#32

/-- `main_v123`. -/
def res_v123 (a0 : FVec Ideal S64x64 .f32) (a1 : FVec Ideal S64 .f32) (a2 a3 : FVec Ideal S64x64 .f32) (a4 : FVec Ideal S4096 .f32) : IVec S4032 32 :=
  broadcastInDim S4032 ![] bcast_S_S4032 (res_c_54 a0 a1 a2 a3 a4)

/-- `main_v124`. -/
def res_v124 (a0 : FVec Ideal S64x64 .f32) (a1 : FVec Ideal S64 .f32) (a2 a3 : FVec Ideal S64x64 .f32) (a4 : FVec Ideal S4096 .f32) : IVec S4032 32 :=
  addi (res_c_15 a0 a1 a2 a3 a4) (res_v123 a0 a1 a2 a3 a4)

/-- `main_v125`. -/
def res_v125 (a0 : FVec Ideal S64x64 .f32) (a1 : FVec Ideal S64 .f32) (a2 a3 : FVec Ideal S64x64 .f32) (a4 : FVec Ideal S4096 .f32) : IVec S4032 32 :=
  select (res_c_16 a0 a1 a2 a3 a4) (res_v124 a0 a1 a2 a3 a4) (res_c_15 a0 a1 a2 a3 a4)

/-- `main_c_55`. -/
def res_c_55 (a0 : FVec Ideal S64x64 .f32) (a1 : FVec Ideal S64 .f32) (a2 a3 : FVec Ideal S64x64 .f32) (a4 : FVec Ideal S4096 .f32) : IVec S_ 32 :=
  constantI S_ 32 4096#32

/-- `main_v126`. -/
def res_v126 (a0 : FVec Ideal S64x64 .f32) (a1 : FVec Ideal S64 .f32) (a2 a3 : FVec Ideal S64x64 .f32) (a4 : FVec Ideal S4096 .f32) : IVec S4032 32 :=
  broadcastInDim S4032 ![] bcast_S_S4032 (res_c_55 a0 a1 a2 a3 a4)

/-- `main_v127`. -/
def res_v127 (a0 : FVec Ideal S64x64 .f32) (a1 : FVec Ideal S64 .f32) (a2 a3 : FVec Ideal S64x64 .f32) (a4 : FVec Ideal S4096 .f32) : IVec S4032 32 :=
  addi (res_c_17 a0 a1 a2 a3 a4) (res_v126 a0 a1 a2 a3 a4)

/-- `main_v128`. -/
def res_v128 (a0 : FVec Ideal S64x64 .f32) (a1 : FVec Ideal S64 .f32) (a2 a3 : FVec Ideal S64x64 .f32) (a4 : FVec Ideal S4096 .f32) : IVec S4032 32 :=
  select (res_c_18 a0 a1 a2 a3 a4) (res_v127 a0 a1 a2 a3 a4) (res_c_17 a0 a1 a2 a3 a4)

/-- `main_v129`. -/
def res_v129 (a0 : FVec Ideal S64x64 .f32) (a1 : FVec Ideal S64 .f32) (a2 a3 : FVec Ideal S64x64 .f32) (a4 : FVec Ideal S4096 .f32) : IVec S4032x1 32 :=
  broadcastInDim S4032x1 ![0] bcast_S4032_S4032x1_0 (res_v125 a0 a1 a2 a3 a4)

/-- `main_v130`. -/
def res_v130 (a0 : FVec Ideal S64x64 .f32) (a1 : FVec Ideal S64 .f32) (a2 a3 : FVec Ideal S64x64 .f32) (a4 : FVec Ideal S4096 .f32) : IVec S4032x1 32 :=
  broadcastInDim S4032x1 ![0] bcast_S4032_S4032x1_0 (res_v128 a0 a1 a2 a3 a4)

/-- `main_v131`. -/
def res_v131 (a0 : FVec Ideal S64x64 .f32) (a1 : FVec Ideal S64 .f32) (a2 a3 : FVec Ideal S64x64 .f32) (a4 : FVec Ideal S4096 .f32) : IVec S4032x2 32 :=
  concatenate S4032x2 1 [⟨S4032x1, (res_v129 a0 a1 a2 a3 a4)⟩, ⟨S4032x1, (res_v130 a0 a1 a2 a3 a4)⟩] concatenates_S4032x1_S4032x1_S4032x2_d1

/-- `main_v132`. -/
def res_v132 (a0 : FVec Ideal S64x64 .f32) (a1 : FVec Ideal S64 .f32) (a2 a3 : FVec Ideal S64x64 .f32) (a4 : FVec Ideal S4096 .f32) : FVec Ideal S4096x4096 .f32 :=
  Host.scatter scatter_S4096x4096_S4032x2_S4032_n_01_01_1 (fun _ b => b) (res_v114 a0 a1 a2 a3 a4) (res_v131 a0 a1 a2 a3 a4) (res_v122 a0 a1 a2 a3 a4)

/-- `main_v133`. -/
def res_v133 (a0 : FVec Ideal S64x64 .f32) (a1 : FVec Ideal S64 .f32) (a2 a3 : FVec Ideal S64x64 .f32) (a4 : FVec Ideal S4096 .f32) : FVec Ideal S4096 .f32 :=
  Host.negf (F := Ideal) (res_v11 a0 a1 a2 a3 a4)

/-- `main_v134`. -/
def res_v134 (a0 : FVec Ideal S64x64 .f32) (a1 : FVec Ideal S64 .f32) (a2 a3 : FVec Ideal S64x64 .f32) (a4 : FVec Ideal S4096 .f32) : FVec Ideal S4096 .f32 :=
  broadcastInDim S4096 ![] bcast_S_S4096 (res_v9 a0 a1 a2 a3 a4)

/-- `main_v135`. -/
def res_v135 (a0 : FVec Ideal S64x64 .f32) (a1 : FVec Ideal S64 .f32) (a2 a3 : FVec Ideal S64x64 .f32) (a4 : FVec Ideal S4096 .f32) : FVec Ideal S4096 .f32 :=
  Host.divf (F := Ideal) (res_v133 a0 a1 a2 a3 a4) (res_v134 a0 a1 a2 a3 a4)

/-- `main_c_56`. -/
def res_c_56 (a0 : FVec Ideal S64x64 .f32) (a1 : FVec Ideal S64 .f32) (a2 a3 : FVec Ideal S64x64 .f32) (a4 : FVec Ideal S4096 .f32) : IVec S_ 32 :=
  constantI S_ 32 4096#32

/-- `main_v136`. -/
def res_v136 (a0 : FVec Ideal S64x64 .f32) (a1 : FVec Ideal S64 .f32) (a2 a3 : FVec Ideal S64x64 .f32) (a4 : FVec Ideal S4096 .f32) : IVec S4096 32 :=
  broadcastInDim S4096 ![] bcast_S_S4096 (res_c_56 a0 a1 a2 a3 a4)

/-- `main_v137`. -/
def res_v137 (a0 : FVec Ideal S64x64 .f32) (a1 : FVec Ideal S64 .f32) (a2 a3 : FVec Ideal S64x64 .f32) (a4 : FVec Ideal S4096 .f32) : IVec S4096 32 :=
  addi (res_c a0 a1 a2 a3 a4) (res_v136 a0 a1 a2 a3 a4)

/-- `main_v138`. -/
def res_v138 (a0 : FVec Ideal S64x64 .f32) (a1 : FVec Ideal S64 .f32) (a2 a3 : FVec Ideal S64x64 .f32) (a4 : FVec Ideal S4096 .f32) : IVec S4096 32 :=
  select (res_c_19 a0 a1 a2 a3 a4) (res_v137 a0 a1 a2 a3 a4) (res_c a0 a1 a2 a3 a4)

/-- `main_c_57`. -/
def res_c_57 (a0 : FVec Ideal S64x64 .f32) (a1 : FVec Ideal S64 .f32) (a2 a3 : FVec Ideal S64x64 .f32) (a4 : FVec Ideal S4096 .f32) : IVec S_ 32 :=
  constantI S_ 32 4096#32

/-- `main_v139`. -/
def res_v139 (a0 : FVec Ideal S64x64 .f32) (a1 : FVec Ideal S64 .f32) (a2 a3 : FVec Ideal S64x64 .f32) (a4 : FVec Ideal S4096 .f32) : IVec S4096 32 :=
  broadcastInDim S4096 ![] bcast_S_S4096 (res_c_57 a0 a1 a2 a3 a4)

/-- `main_v140`. -/
def res_v140 (a0 : FVec Ideal S64x64 .f32) (a1 : FVec Ideal S64 .f32) (a2 a3 : FVec Ideal S64x64 .f32) (a4 : FVec Ideal S4096 .f32) : IVec S4096 32 :=
  addi (res_c a0 a1 a2 a3 a4) (res_v139 a0 a1 a2 a3 a4)

/-- `main_v141`. -/
def res_v141 (a0 : FVec Ideal S64x64 .f32) (a1 : FVec Ideal S64 .f32) (a2 a3 : FVec Ideal S64x64 .f32) (a4 : FVec Ideal S4096 .f32) : IVec S4096 32 :=
  select (res_c_20 a0 a1 a2 a3 a4) (res_v140 a0 a1 a2 a3 a4) (res_c a0 a1 a2 a3 a4)

/-- `main_v142`. -/
def res_v142 (a0 : FVec Ideal S64x64 .f32) (a1 : FVec Ideal S64 .f32) (a2 a3 : FVec Ideal S64x64 .f32) (a4 : FVec Ideal S4096 .f32) : IVec S4096x1 32 :=
  broadcastInDim S4096x1 ![0] bcast_S4096_S4096x1_0 (res_v138 a0 a1 a2 a3 a4)

/-- `main_v143`. -/
def res_v143 (a0 : FVec Ideal S64x64 .f32) (a1 : FVec Ideal S64 .f32) (a2 a3 : FVec Ideal S64x64 .f32) (a4 : FVec Ideal S4096 .f32) : IVec S4096x1 32 :=
  broadcastInDim S4096x1 ![0] bcast_S4096_S4096x1_0 (res_v141 a0 a1 a2 a3 a4)

/-- `main_v144`. -/
def res_v144 (a0 : FVec Ideal S64x64 .f32) (a1 : FVec Ideal S64 .f32) (a2 a3 : FVec Ideal S64x64 .f32) (a4 : FVec Ideal S4096 .f32) : IVec S4096x2 32 :=
  concatenate S4096x2 1 [⟨S4096x1, (res_v142 a0 a1 a2 a3 a4)⟩, ⟨S4096x1, (res_v143 a0 a1 a2 a3 a4)⟩] concatenates_S4096x1_S4096x1_S4096x2_d1

/-- `main_v145`. -/
def res_v145 (a0 : FVec Ideal S64x64 .f32) (a1 : FVec Ideal S64 .f32) (a2 a3 : FVec Ideal S64x64 .f32) (a4 : FVec Ideal S4096 .f32) : FVec Ideal S4096x4096 .f32 :=
  Host.scatter scatter_S4096x4096_S4096x2_S4096_n_01_01_1 (fun _ b => b) (res_v50 a0 a1 a2 a3 a4) (res_v144 a0 a1 a2 a3 a4) (res_v135 a0 a1 a2 a3 a4)

/-- `main_c_58`. -/
def res_c_58 (a0 : FVec Ideal S64x64 .f32) (a1 : FVec Ideal S64 .f32) (a2 a3 : FVec Ideal S64x64 .f32) (a4 : FVec Ideal S4096 .f32) : IVec S_ 32 :=
  constantI S_ 32 4096#32

/-- `main_v146`. -/
def res_v146 (a0 : FVec Ideal S64x64 .f32) (a1 : FVec Ideal S64 .f32) (a2 a3 : FVec Ideal S64x64 .f32) (a4 : FVec Ideal S4096 .f32) : IVec S4032 32 :=
  broadcastInDim S4032 ![] bcast_S_S4032 (res_c_58 a0 a1 a2 a3 a4)

/-- `main_v147`. -/
def res_v147 (a0 : FVec Ideal S64x64 .f32) (a1 : FVec Ideal S64 .f32) (a2 a3 : FVec Ideal S64x64 .f32) (a4 : FVec Ideal S4096 .f32) : IVec S4032 32 :=
  addi (res_c_21 a0 a1 a2 a3 a4) (res_v146 a0 a1 a2 a3 a4)

/-- `main_v148`. -/
def res_v148 (a0 : FVec Ideal S64x64 .f32) (a1 : FVec Ideal S64 .f32) (a2 a3 : FVec Ideal S64x64 .f32) (a4 : FVec Ideal S4096 .f32) : IVec S4032 32 :=
  select (res_c_22 a0 a1 a2 a3 a4) (res_v147 a0 a1 a2 a3 a4) (res_c_21 a0 a1 a2 a3 a4)

/-- `main_v149`. -/
def res_v149 (a0 : FVec Ideal S64x64 .f32) (a1 : FVec Ideal S64 .f32) (a2 a3 : FVec Ideal S64x64 .f32) (a4 : FVec Ideal S4096 .f32) : IVec S4032x1 32 :=
  broadcastInDim S4032x1 ![0] bcast_S4032_S4032x1_0 (res_v148 a0 a1 a2 a3 a4)

/-- `main_v150`. -/
def res_v150 (a0 : FVec Ideal S64x64 .f32) (a1 : FVec Ideal S64 .f32) (a2 a3 : FVec Ideal S64x64 .f32) (a4 : FVec Ideal S4096 .f32) : FVec Ideal S4032 .f32 :=
  Host.gather gather_S4096_S4032x1_S4032_n_0_n_n_0_1_1 (res_v11 a0 a1 a2 a3 a4) (res_v149 a0 a1 a2 a3 a4)

/-- `main_v151`. -/
def res_v151 (a0 : FVec Ideal S64x64 .f32) (a1 : FVec Ideal S64 .f32) (a2 a3 : FVec Ideal S64x64 .f32) (a4 : FVec Ideal S4096 .f32) : FVec Ideal S4032 .f32 :=
  broadcastInDim S4032 ![] bcast_S_S4032 (res_v9 a0 a1 a2 a3 a4)

/-- `main_v152`. -/
def res_v152 (a0 : FVec Ideal S64x64 .f32) (a1 : FVec Ideal S64 .f32) (a2 a3 : FVec Ideal S64x64 .f32) (a4 : FVec Ideal S4096 .f32) : FVec Ideal S4032 .f32 :=
  Host.divf (F := Ideal) (res_v150 a0 a1 a2 a3 a4) (res_v151 a0 a1 a2 a3 a4)

/-- `main_c_59`. -/
def res_c_59 (a0 : FVec Ideal S64x64 .f32) (a1 : FVec Ideal S64 .f32) (a2 a3 : FVec Ideal S64x64 .f32) (a4 : FVec Ideal S4096 .f32) : IVec S_ 32 :=
  constantI S_ 32 4096#32

/-- `main_v153`. -/
def res_v153 (a0 : FVec Ideal S64x64 .f32) (a1 : FVec Ideal S64 .f32) (a2 a3 : FVec Ideal S64x64 .f32) (a4 : FVec Ideal S4096 .f32) : IVec S4032 32 :=
  broadcastInDim S4032 ![] bcast_S_S4032 (res_c_59 a0 a1 a2 a3 a4)

/-- `main_v154`. -/
def res_v154 (a0 : FVec Ideal S64x64 .f32) (a1 : FVec Ideal S64 .f32) (a2 a3 : FVec Ideal S64x64 .f32) (a4 : FVec Ideal S4096 .f32) : IVec S4032 32 :=
  addi (res_c_21 a0 a1 a2 a3 a4) (res_v153 a0 a1 a2 a3 a4)

/-- `main_v155`. -/
def res_v155 (a0 : FVec Ideal S64x64 .f32) (a1 : FVec Ideal S64 .f32) (a2 a3 : FVec Ideal S64x64 .f32) (a4 : FVec Ideal S4096 .f32) : IVec S4032 32 :=
  select (res_c_23 a0 a1 a2 a3 a4) (res_v154 a0 a1 a2 a3 a4) (res_c_21 a0 a1 a2 a3 a4)

/-- `main_c_60`. -/
def res_c_60 (a0 : FVec Ideal S64x64 .f32) (a1 : FVec Ideal S64 .f32) (a2 a3 : FVec Ideal S64x64 .f32) (a4 : FVec Ideal S4096 .f32) : IVec S_ 32 :=
  constantI S_ 32 4096#32

/-- `main_v156`. -/
def res_v156 (a0 : FVec Ideal S64x64 .f32) (a1 : FVec Ideal S64 .f32) (a2 a3 : FVec Ideal S64x64 .f32) (a4 : FVec Ideal S4096 .f32) : IVec S4032 32 :=
  broadcastInDim S4032 ![] bcast_S_S4032 (res_c_60 a0 a1 a2 a3 a4)

/-- `main_v157`. -/
def res_v157 (a0 : FVec Ideal S64x64 .f32) (a1 : FVec Ideal S64 .f32) (a2 a3 : FVec Ideal S64x64 .f32) (a4 : FVec Ideal S4096 .f32) : IVec S4032 32 :=
  addi (res_c_24 a0 a1 a2 a3 a4) (res_v156 a0 a1 a2 a3 a4)

/-- `main_v158`. -/
def res_v158 (a0 : FVec Ideal S64x64 .f32) (a1 : FVec Ideal S64 .f32) (a2 a3 : FVec Ideal S64x64 .f32) (a4 : FVec Ideal S4096 .f32) : IVec S4032 32 :=
  select (res_c_25 a0 a1 a2 a3 a4) (res_v157 a0 a1 a2 a3 a4) (res_c_24 a0 a1 a2 a3 a4)

/-- `main_v159`. -/
def res_v159 (a0 : FVec Ideal S64x64 .f32) (a1 : FVec Ideal S64 .f32) (a2 a3 : FVec Ideal S64x64 .f32) (a4 : FVec Ideal S4096 .f32) : IVec S4032x1 32 :=
  broadcastInDim S4032x1 ![0] bcast_S4032_S4032x1_0 (res_v155 a0 a1 a2 a3 a4)

/-- `main_v160`. -/
def res_v160 (a0 : FVec Ideal S64x64 .f32) (a1 : FVec Ideal S64 .f32) (a2 a3 : FVec Ideal S64x64 .f32) (a4 : FVec Ideal S4096 .f32) : IVec S4032x1 32 :=
  broadcastInDim S4032x1 ![0] bcast_S4032_S4032x1_0 (res_v158 a0 a1 a2 a3 a4)

/-- `main_v161`. -/
def res_v161 (a0 : FVec Ideal S64x64 .f32) (a1 : FVec Ideal S64 .f32) (a2 a3 : FVec Ideal S64x64 .f32) (a4 : FVec Ideal S4096 .f32) : IVec S4032x2 32 :=
  concatenate S4032x2 1 [⟨S4032x1, (res_v159 a0 a1 a2 a3 a4)⟩, ⟨S4032x1, (res_v160 a0 a1 a2 a3 a4)⟩] concatenates_S4032x1_S4032x1_S4032x2_d1

/-- `main_v162`. -/
def res_v162 (a0 : FVec Ideal S64x64 .f32) (a1 : FVec Ideal S64 .f32) (a2 a3 : FVec Ideal S64x64 .f32) (a4 : FVec Ideal S4096 .f32) : FVec Ideal S4096x4096 .f32 :=
  Host.scatter scatter_S4096x4096_S4032x2_S4032_n_01_01_1 (fun _ b => b) (res_v145 a0 a1 a2 a3 a4) (res_v161 a0 a1 a2 a3 a4) (res_v152 a0 a1 a2 a3 a4)

/-- `main_cst_61`. -/
def res_cst_61 (a0 : FVec Ideal S64x64 .f32) (a1 : FVec Ideal S64 .f32) (a2 a3 : FVec Ideal S64x64 .f32) (a4 : FVec Ideal S4096 .f32) : FVec Ideal S_ .f32 :=
  constant (F := Ideal) S_ .f32 0x3F800000#32

/-- `main_v163`. -/
def res_v163 (a0 : FVec Ideal S64x64 .f32) (a1 : FVec Ideal S64 .f32) (a2 a3 : FVec Ideal S64x64 .f32) (a4 : FVec Ideal S4096 .f32) : FVec Ideal S4096 .f32 :=
  broadcastInDim S4096 ![] bcast_S_S4096 (res_cst_61 a0 a1 a2 a3 a4)

/-- `main_v164`. -/
def res_v164 (a0 : FVec Ideal S64x64 .f32) (a1 : FVec Ideal S64 .f32) (a2 a3 : FVec Ideal S64x64 .f32) (a4 : FVec Ideal S4096 .f32) : FVec Ideal S4096 .f32 :=
  Host.divf (F := Ideal) (res_v163 a0 a1 a2 a3 a4) (res_v18 a0 a1 a2 a3 a4)

/-- `main_cst_62`. -/
def res_cst_62 (a0 : FVec Ideal S64x64 .f32) (a1 : FVec Ideal S64 .f32) (a2 a3 : FVec Ideal S64x64 .f32) (a4 : FVec Ideal S4096 .f32) : FVec Ideal S_ .f32 :=
  constant (F := Ideal) S_ .f32 0x3F800000#32

/-- `main_v165`. -/
def res_v165 (a0 : FVec Ideal S64x64 .f32) (a1 : FVec Ideal S64 .f32) (a2 a3 : FVec Ideal S64x64 .f32) (a4 : FVec Ideal S4096 .f32) : FVec Ideal S4096 .f32 :=
  broadcastInDim S4096 ![] bcast_S_S4096 (res_cst_62 a0 a1 a2 a3 a4)

/-- `main_v166`. -/
def res_v166 (a0 : FVec Ideal S64x64 .f32) (a1 : FVec Ideal S64 .f32) (a2 a3 : FVec Ideal S64x64 .f32) (a4 : FVec Ideal S4096 .f32) : FVec Ideal S4096 .f32 :=
  Host.divf (F := Ideal) (res_v165 a0 a1 a2 a3 a4) (res_v31 a0 a1 a2 a3 a4)

/-- `main_cst_63`. -/
def res_cst_63 (a0 : FVec Ideal S64x64 .f32) (a1 : FVec Ideal S64 .f32) (a2 a3 : FVec Ideal S64x64 .f32) (a4 : FVec Ideal S4096 .f32) : FVec Ideal S_ .f32 :=
  constant (F := Ideal) S_ .f32 0x3F800000#32

/-- `main_v167`. -/
def res_v167 (a0 : FVec Ideal S64x64 .f32) (a1 : FVec Ideal S64 .f32) (a2 a3 : FVec Ideal S64x64 .f32) (a4 : FVec Ideal S4096 .f32) : FVec Ideal S4096 .f32 :=
  broadcastInDim S4096 ![] bcast_S_S4096 (res_cst_63 a0 a1 a2 a3 a4)

/-- `main_v168`. -/
def res_v168 (a0 : FVec Ideal S64x64 .f32) (a1 : FVec Ideal S64 .f32) (a2 a3 : FVec Ideal S64x64 .f32) (a4 : FVec Ideal S4096 .f32) : FVec Ideal S4096 .f32 :=
  Host.divf (F := Ideal) (res_v167 a0 a1 a2 a3 a4) (res_v43 a0 a1 a2 a3 a4)

/-- `main_v169`. -/
def res_v169 (a0 : FVec Ideal S64x64 .f32) (a1 : FVec Ideal S64 .f32) (a2 a3 : FVec Ideal S64x64 .f32) (a4 : FVec Ideal S4096 .f32) : FVec Ideal S1x4096 .f32 :=
  broadcastInDim S1x4096 ![1] bcast_S4096_S1x4096_1 (res_v166 a0 a1 a2 a3 a4)

/-- `main_v170`. -/
def res_v170 (a0 : FVec Ideal S64x64 .f32) (a1 : FVec Ideal S64 .f32) (a2 a3 : FVec Ideal S64x64 .f32) (a4 : FVec Ideal S4096 .f32) : FVec Ideal S4096x4096 .f32 :=
  broadcastInDim S4096x4096 ![0, 1] bcast_S1x4096_S4096x4096_0_1 (res_v169 a0 a1 a2 a3 a4)

/-- `main_v171`. -/
def res_v171 (a0 : FVec Ideal S64x64 .f32) (a1 : FVec Ideal S64 .f32) (a2 a3 : FVec Ideal S64x64 .f32) (a4 : FVec Ideal S4096 .f32) : FVec Ideal S4096x4096 .f32 :=
  mulf (F := Ideal) (res_v76 a0 a1 a2 a3 a4) (res_v170 a0 a1 a2 a3 a4)

/-- `main_v172`. -/
def res_v172 (a0 : FVec Ideal S64x64 .f32) (a1 : FVec Ideal S64 .f32) (a2 a3 : FVec Ideal S64x64 .f32) (a4 : FVec Ideal S4096 .f32) : FVec Ideal S1x4096 .f32 :=
  broadcastInDim S1x4096 ![1] bcast_S4096_S1x4096_1 (res_v168 a0 a1 a2 a3 a4)

/-- `main_v173`. -/
def res_v173 (a0 : FVec Ideal S64x64 .f32) (a1 : FVec Ideal S64 .f32) (a2 a3 : FVec Ideal S64x64 .f32) (a4 : FVec Ideal S4096 .f32) : FVec Ideal S4096x4096 .f32 :=
  broadcastInDim S4096x4096 ![0, 1] bcast_S1x4096_S4096x4096_0_1 (res_v172 a0 a1 a2 a3 a4)

/-- `main_v174`. -/
def res_v174 (a0 : FVec Ideal S64x64 .f32) (a1 : FVec Ideal S64 .f32) (a2 a3 : FVec Ideal S64x64 .f32) (a4 : FVec Ideal S4096 .f32) : FVec Ideal S4096x4096 .f32 :=
  mulf (F := Ideal) (res_v132 a0 a1 a2 a3 a4) (res_v173 a0 a1 a2 a3 a4)

/-- `main_v175`. -/
def res_v175 (a0 : FVec Ideal S64x64 .f32) (a1 : FVec Ideal S64 .f32) (a2 a3 : FVec Ideal S64x64 .f32) (a4 : FVec Ideal S4096 .f32) : FVec Ideal S4096 .f32 :=
  mulf (F := Ideal) (res_v164 a0 a1 a2 a3 a4) (res_v25 a0 a1 a2 a3 a4)

/-- `main_call0_cst`. -/
def res_call0_cst (a0 : FVec Ideal S64x64 .f32) (a1 : FVec Ideal S64 .f32) (a2 a3 : FVec Ideal S64x64 .f32) (a4 : FVec Ideal S4096 .f32) : FVec Ideal S_ .f32 :=
  constant (F := Ideal) S_ .f32 0x00000000#32

/-- `main_call0_v0`. -/
def res_call0_v0 (a0 : FVec Ideal S64x64 .f32) (a1 : FVec Ideal S64 .f32) (a2 a3 : FVec Ideal S64x64 .f32) (a4 : FVec Ideal S4096 .f32) : FVec Ideal S4096 .f32 :=
  pad S4096 ![0] ![0] ![0] (res_v175 a0 a1 a2 a3 a4) (res_call0_cst a0 a1 a2 a3 a4) pads_S4096_S4096_000 h_S_

/-- `main_call0_v1`. -/
def res_call0_v1 (a0 : FVec Ideal S64x64 .f32) (a1 : FVec Ideal S64 .f32) (a2 a3 : FVec Ideal S64x64 .f32) (a4 : FVec Ideal S4096 .f32) : IVec S4096x4096 32 :=
  iotaInDim S4096x4096 32 0

/-- `main_call0_v2`. -/
def res_call0_v2 (a0 : FVec Ideal S64x64 .f32) (a1 : FVec Ideal S64 .f32) (a2 a3 : FVec Ideal S64x64 .f32) (a4 : FVec Ideal S4096 .f32) : IVec S4096x4096 32 :=
  iotaInDim S4096x4096 32 1

/-- `main_call0_c`. -/
def res_call0_c (a0 : FVec Ideal S64x64 .f32) (a1 : FVec Ideal S64 .f32) (a2 a3 : FVec Ideal S64x64 .f32) (a4 : FVec Ideal S4096 .f32) : IVec S_ 32 :=
  constantI S_ 32 0#32

/-- `main_call0_v3`. -/
def res_call0_v3 (a0 : FVec Ideal S64x64 .f32) (a1 : FVec Ideal S64 .f32) (a2 a3 : FVec Ideal S64x64 .f32) (a4 : FVec Ideal S4096 .f32) : IVec S4096x4096 32 :=
  broadcastInDim S4096x4096 ![] bcast_S_S4096x4096 (res_call0_c a0 a1 a2 a3 a4)

/-- `main_call0_v4`. -/
def res_call0_v4 (a0 : FVec Ideal S64x64 .f32) (a1 : FVec Ideal S64 .f32) (a2 a3 : FVec Ideal S64x64 .f32) (a4 : FVec Ideal S4096 .f32) : IVec S4096x4096 32 :=
  addi (res_call0_v1 a0 a1 a2 a3 a4) (res_call0_v3 a0 a1 a2 a3 a4)

/-- `main_call0_v5`. -/
def res_call0_v5 (a0 : FVec Ideal S64x64 .f32) (a1 : FVec Ideal S64 .f32) (a2 a3 : FVec Ideal S64x64 .f32) (a4 : FVec Ideal S4096 .f32) : IVec S4096x4096 1 :=
  cmpi .eq (res_call0_v4 a0 a1 a2 a3 a4) (res_call0_v2 a0 a1 a2 a3 a4)

/-- `main_call0_v6`. -/
def res_call0_v6 (a0 : FVec Ideal S64x64 .f32) (a1 : FVec Ideal S64 .f32) (a2 a3 : FVec Ideal S64x64 .f32) (a4 : FVec Ideal S4096 .f32) : FVec Ideal S4096x1 .f32 :=
  broadcastInDim S4096x1 ![0] bcast_S4096_S4096x1_0 (res_call0_v0 a0 a1 a2 a3 a4)

/-- `main_call0_cst_0`. -/
def res_call0_cst_0 (a0 : FVec Ideal S64x64 .f32) (a1 : FVec Ideal S64 .f32) (a2 a3 : FVec Ideal S64x64 .f32) (a4 : FVec Ideal S4096 .f32) : FVec Ideal S_ .f32 :=
  constant (F := Ideal) S_ .f32 0x00000000#32

/-- `main_call0_call0_v0`. -/
def res_call0_call0_v0 (a0 : FVec Ideal S64x64 .f32) (a1 : FVec Ideal S64 .f32) (a2 a3 : FVec Ideal S64x64 .f32) (a4 : FVec Ideal S4096 .f32) : FVec Ideal S4096x4096 .f32 :=
  broadcastInDim S4096x4096 ![0, 1] bcast_S4096x1_S4096x4096_0_1 (res_call0_v6 a0 a1 a2 a3 a4)

/-- `main_call0_call0_v1`. -/
def res_call0_call0_v1 (a0 : FVec Ideal S64x64 .f32) (a1 : FVec Ideal S64 .f32) (a2 a3 : FVec Ideal S64x64 .f32) (a4 : FVec Ideal S4096 .f32) : FVec Ideal S4096x4096 .f32 :=
  broadcastInDim S4096x4096 ![] bcast_S_S4096x4096 (res_call0_cst_0 a0 a1 a2 a3 a4)

/-- `main_v176`. -/
def res_v176 (a0 : FVec Ideal S64x64 .f32) (a1 : FVec Ideal S64 .f32) (a2 a3 : FVec Ideal S64x64 .f32) (a4 : FVec Ideal S4096 .f32) : FVec Ideal S4096x4096 .f32 :=
  select (res_call0_v5 a0 a1 a2 a3 a4) (res_call0_call0_v0 a0 a1 a2 a3 a4) (res_call0_call0_v1 a0 a1 a2 a3 a4)

/-- `main_v177`. -/
def res_v177 (a0 : FVec Ideal S64x64 .f32) (a1 : FVec Ideal S64 .f32) (a2 a3 : FVec Ideal S64x64 .f32) (a4 : FVec Ideal S4096 .f32) : FVec Ideal S4096x1 .f32 :=
  broadcastInDim S4096x1 ![0] bcast_S4096_S4096x1_0 (res_v164 a0 a1 a2 a3 a4)

/-- `main_v178`. -/
def res_v178 (a0 : FVec Ideal S64x64 .f32) (a1 : FVec Ideal S64 .f32) (a2 a3 : FVec Ideal S64x64 .f32) (a4 : FVec Ideal S4096 .f32) : FVec Ideal S4096x4096 .f32 :=
  Host.dotGeneral (F := Ideal) dot_S4096x4096_S4096x4096_S4096x4096_1_0_0_1_n_n none (res_v171 a0 a1 a2 a3 a4) (res_v102 a0 a1 a2 a3 a4)

/-- `main_v179`. -/
def res_v179 (a0 : FVec Ideal S64x64 .f32) (a1 : FVec Ideal S64 .f32) (a2 a3 : FVec Ideal S64x64 .f32) (a4 : FVec Ideal S4096 .f32) : FVec Ideal S4096x4096 .f32 :=
  Host.dotGeneral (F := Ideal) dot_S4096x4096_S4096x4096_S4096x4096_1_0_0_1_n_n none (res_v174 a0 a1 a2 a3 a4) (res_v162 a0 a1 a2 a3 a4)

/-- `main_v180`. -/
def res_v180 (a0 : FVec Ideal S64x64 .f32) (a1 : FVec Ideal S64 .f32) (a2 a3 : FVec Ideal S64x64 .f32) (a4 : FVec Ideal S4096 .f32) : FVec Ideal S4096x4096 .f32 :=
  addf (F := Ideal) (res_v178 a0 a1 a2 a3 a4) (res_v179 a0 a1 a2 a3 a4)

/-- `main_v181`. -/
def res_v181 (a0 : FVec Ideal S64x64 .f32) (a1 : FVec Ideal S64 .f32) (a2 a3 : FVec Ideal S64x64 .f32) (a4 : FVec Ideal S4096 .f32) : FVec Ideal S4096x4096 .f32 :=
  broadcastInDim S4096x4096 ![0, 1] bcast_S4096x1_S4096x4096_0_1 (res_v177 a0 a1 a2 a3 a4)

/-- `main_v182`. -/
def res_v182 (a0 : FVec Ideal S64x64 .f32) (a1 : FVec Ideal S64 .f32) (a2 a3 : FVec Ideal S64x64 .f32) (a4 : FVec Ideal S4096 .f32) : FVec Ideal S4096x4096 .f32 :=
  mulf (F := Ideal) (res_v181 a0 a1 a2 a3 a4) (res_v180 a0 a1 a2 a3 a4)

/-- `main_v183`. -/
def res_v183 (a0 : FVec Ideal S64x64 .f32) (a1 : FVec Ideal S64 .f32) (a2 a3 : FVec Ideal S64x64 .f32) (a4 : FVec Ideal S4096 .f32) : FVec Ideal S4096x4096 .f32 :=
  addf (F := Ideal) (res_v176 a0 a1 a2 a3 a4) (res_v182 a0 a1 a2 a3 a4)

/-- `main_v184`. -/
def res_v184 (a0 : FVec Ideal S64x64 .f32) (a1 : FVec Ideal S64 .f32) (a2 a3 : FVec Ideal S64x64 .f32) (a4 : FVec Ideal S4096 .f32) : FVec Ideal S4096x1 .f32 :=
  broadcastInDim S4096x1 ![0] bcast_S4096_S4096x1_0 (res_v164 a0 a1 a2 a3 a4)

/-- `main_v185`. -/
def res_v185 (a0 : FVec Ideal S64x64 .f32) (a1 : FVec Ideal S64 .f32) (a2 a3 : FVec Ideal S64x64 .f32) (a4 : FVec Ideal S4096 .f32) : FVec Ideal S4096x4096 .f32 :=
  broadcastInDim S4096x4096 ![0, 1] bcast_S4096x1_S4096x4096_0_1 (res_v184 a0 a1 a2 a3 a4)

/-- `main_v186`. -/
def res_v186 (a0 : FVec Ideal S64x64 .f32) (a1 : FVec Ideal S64 .f32) (a2 a3 : FVec Ideal S64x64 .f32) (a4 : FVec Ideal S4096 .f32) : FVec Ideal S4096x4096 .f32 :=
  mulf (F := Ideal) (res_v185 a0 a1 a2 a3 a4) (res_v76 a0 a1 a2 a3 a4)

/-- `main_v187`. -/
def res_v187 (a0 : FVec Ideal S64x64 .f32) (a1 : FVec Ideal S64 .f32) (a2 a3 : FVec Ideal S64x64 .f32) (a4 : FVec Ideal S4096 .f32) : FVec Ideal S4096 .f32 :=
  mulf (F := Ideal) (res_v166 a0 a1 a2 a3 a4) (res_v37 a0 a1 a2 a3 a4)

/-- `main_v188`. -/
def res_v188 (a0 : FVec Ideal S64x64 .f32) (a1 : FVec Ideal S64 .f32) (a2 a3 : FVec Ideal S64x64 .f32) (a4 : FVec Ideal S4096 .f32) : FVec Ideal S1x4096 .f32 :=
  broadcastInDim S1x4096 ![1] bcast_S4096_S1x4096_1 (res_v187 a0 a1 a2 a3 a4)

/-- `main_v189`. -/
def res_v189 (a0 : FVec Ideal S64x64 .f32) (a1 : FVec Ideal S64 .f32) (a2 a3 : FVec Ideal S64x64 .f32) (a4 : FVec Ideal S4096 .f32) : FVec Ideal S4096x4096 .f32 :=
  broadcastInDim S4096x4096 ![0, 1] bcast_S1x4096_S4096x4096_0_1 (res_v188 a0 a1 a2 a3 a4)

/-- `main_v190`. -/
def res_v190 (a0 : FVec Ideal S64x64 .f32) (a1 : FVec Ideal S64 .f32) (a2 a3 : FVec Ideal S64x64 .f32) (a4 : FVec Ideal S4096 .f32) : FVec Ideal S4096x4096 .f32 :=
  mulf (F := Ideal) (res_v186 a0 a1 a2 a3 a4) (res_v189 a0 a1 a2 a3 a4)

/-- `main_v191`. -/
def res_v191 (a0 : FVec Ideal S64x64 .f32) (a1 : FVec Ideal S64 .f32) (a2 a3 : FVec Ideal S64x64 .f32) (a4 : FVec Ideal S4096 .f32) : FVec Ideal S4096x1 .f32 :=
  broadcastInDim S4096x1 ![0] bcast_S4096_S4096x1_0 (res_v164 a0 a1 a2 a3 a4)

/-- `main_v192`. -/
def res_v192 (a0 : FVec Ideal S64x64 .f32) (a1 : FVec Ideal S64 .f32) (a2 a3 : FVec Ideal S64x64 .f32) (a4 : FVec Ideal S4096 .f32) : FVec Ideal S4096x4096 .f32 :=
  broadcastInDim S4096x4096 ![0, 1] bcast_S4096x1_S4096x4096_0_1 (res_v191 a0 a1 a2 a3 a4)

/-- `main_v193`. -/
def res_v193 (a0 : FVec Ideal S64x64 .f32) (a1 : FVec Ideal S64 .f32) (a2 a3 : FVec Ideal S64x64 .f32) (a4 : FVec Ideal S4096 .f32) : FVec Ideal S4096x4096 .f32 :=
  mulf (F := Ideal) (res_v192 a0 a1 a2 a3 a4) (res_v132 a0 a1 a2 a3 a4)

/-- `main_v194`. -/
def res_v194 (a0 : FVec Ideal S64x64 .f32) (a1 : FVec Ideal S64 .f32) (a2 a3 : FVec Ideal S64x64 .f32) (a4 : FVec Ideal S4096 .f32) : FVec Ideal S4096 .f32 :=
  mulf (F := Ideal) (res_v168 a0 a1 a2 a3 a4) (res_v49 a0 a1 a2 a3 a4)

/-- `main_v195`. -/
def res_v195 (a0 : FVec Ideal S64x64 .f32) (a1 : FVec Ideal S64 .f32) (a2 a3 : FVec Ideal S64x64 .f32) (a4 : FVec Ideal S4096 .f32) : FVec Ideal S1x4096 .f32 :=
  broadcastInDim S1x4096 ![1] bcast_S4096_S1x4096_1 (res_v194 a0 a1 a2 a3 a4)

/-- `main_v196`. -/
def res_v196 (a0 : FVec Ideal S64x64 .f32) (a1 : FVec Ideal S64 .f32) (a2 a3 : FVec Ideal S64x64 .f32) (a4 : FVec Ideal S4096 .f32) : FVec Ideal S4096x4096 .f32 :=
  broadcastInDim S4096x4096 ![0, 1] bcast_S1x4096_S4096x4096_0_1 (res_v195 a0 a1 a2 a3 a4)

/-- `main_v197`. -/
def res_v197 (a0 : FVec Ideal S64x64 .f32) (a1 : FVec Ideal S64 .f32) (a2 a3 : FVec Ideal S64x64 .f32) (a4 : FVec Ideal S4096 .f32) : FVec Ideal S4096x4096 .f32 :=
  mulf (F := Ideal) (res_v193 a0 a1 a2 a3 a4) (res_v196 a0 a1 a2 a3 a4)

/-- `main_v198`. -/
def res_v198 (a0 : FVec Ideal S64x64 .f32) (a1 : FVec Ideal S64 .f32) (a2 a3 : FVec Ideal S64x64 .f32) (a4 : FVec Ideal S4096 .f32) : FVec Ideal S4096x1 .f32 :=
  broadcastInDim S4096x1 ![0] bcast_S4096_S4096x1_0 (res_v166 a0 a1 a2 a3 a4)

/-- `main_v199`. -/
def res_v199 (a0 : FVec Ideal S64x64 .f32) (a1 : FVec Ideal S64 .f32) (a2 a3 : FVec Ideal S64x64 .f32) (a4 : FVec Ideal S4096 .f32) : FVec Ideal S4096x4096 .f32 :=
  broadcastInDim S4096x4096 ![0, 1] bcast_S4096x1_S4096x4096_0_1 (res_v198 a0 a1 a2 a3 a4)

/-- `main_v200`. -/
def res_v200 (a0 : FVec Ideal S64x64 .f32) (a1 : FVec Ideal S64 .f32) (a2 a3 : FVec Ideal S64x64 .f32) (a4 : FVec Ideal S4096 .f32) : FVec Ideal S4096x4096 .f32 :=
  mulf (F := Ideal) (res_v199 a0 a1 a2 a3 a4) (res_v102 a0 a1 a2 a3 a4)

/-- `main_v201`. -/
def res_v201 (a0 : FVec Ideal S64x64 .f32) (a1 : FVec Ideal S64 .f32) (a2 a3 : FVec Ideal S64x64 .f32) (a4 : FVec Ideal S4096 .f32) : FVec Ideal S4096 .f32 :=
  mulf (F := Ideal) (res_v166 a0 a1 a2 a3 a4) (res_v37 a0 a1 a2 a3 a4)

/-- `main_call1_cst`. -/
def res_call1_cst (a0 : FVec Ideal S64x64 .f32) (a1 : FVec Ideal S64 .f32) (a2 a3 : FVec Ideal S64x64 .f32) (a4 : FVec Ideal S4096 .f32) : FVec Ideal S_ .f32 :=
  constant (F := Ideal) S_ .f32 0x00000000#32

/-- `main_call1_v0`. -/
def res_call1_v0 (a0 : FVec Ideal S64x64 .f32) (a1 : FVec Ideal S64 .f32) (a2 a3 : FVec Ideal S64x64 .f32) (a4 : FVec Ideal S4096 .f32) : FVec Ideal S4096 .f32 :=
  pad S4096 ![0] ![0] ![0] (res_v201 a0 a1 a2 a3 a4) (res_call1_cst a0 a1 a2 a3 a4) pads_S4096_S4096_000 h_S_

/-- `main_call1_v1`. -/
def res_call1_v1 (a0 : FVec Ideal S64x64 .f32) (a1 : FVec Ideal S64 .f32) (a2 a3 : FVec Ideal S64x64 .f32) (a4 : FVec Ideal S4096 .f32) : IVec S4096x4096 32 :=
  iotaInDim S4096x4096 32 0

/-- `main_call1_v2`. -/
def res_call1_v2 (a0 : FVec Ideal S64x64 .f32) (a1 : FVec Ideal S64 .f32) (a2 a3 : FVec Ideal S64x64 .f32) (a4 : FVec Ideal S4096 .f32) : IVec S4096x4096 32 :=
  iotaInDim S4096x4096 32 1

/-- `main_call1_c`. -/
def res_call1_c (a0 : FVec Ideal S64x64 .f32) (a1 : FVec Ideal S64 .f32) (a2 a3 : FVec Ideal S64x64 .f32) (a4 : FVec Ideal S4096 .f32) : IVec S_ 32 :=
  constantI S_ 32 0#32

/-- `main_call1_v3`. -/
def res_call1_v3 (a0 : FVec Ideal S64x64 .f32) (a1 : FVec Ideal S64 .f32) (a2 a3 : FVec Ideal S64x64 .f32) (a4 : FVec Ideal S4096 .f32) : IVec S4096x4096 32 :=
  broadcastInDim S4096x4096 ![] bcast_S_S4096x4096 (res_call1_c a0 a1 a2 a3 a4)

/-- `main_call1_v4`. -/
def res_call1_v4 (a0 : FVec Ideal S64x64 .f32) (a1 : FVec Ideal S64 .f32) (a2 a3 : FVec Ideal S64x64 .f32) (a4 : FVec Ideal S4096 .f32) : IVec S4096x4096 32 :=
  addi (res_call1_v1 a0 a1 a2 a3 a4) (res_call1_v3 a0 a1 a2 a3 a4)

/-- `main_call1_v5`. -/
def res_call1_v5 (a0 : FVec Ideal S64x64 .f32) (a1 : FVec Ideal S64 .f32) (a2 a3 : FVec Ideal S64x64 .f32) (a4 : FVec Ideal S4096 .f32) : IVec S4096x4096 1 :=
  cmpi .eq (res_call1_v4 a0 a1 a2 a3 a4) (res_call1_v2 a0 a1 a2 a3 a4)

/-- `main_call1_v6`. -/
def res_call1_v6 (a0 : FVec Ideal S64x64 .f32) (a1 : FVec Ideal S64 .f32) (a2 a3 : FVec Ideal S64x64 .f32) (a4 : FVec Ideal S4096 .f32) : FVec Ideal S4096x1 .f32 :=
  broadcastInDim S4096x1 ![0] bcast_S4096_S4096x1_0 (res_call1_v0 a0 a1 a2 a3 a4)

/-- `main_call1_cst_0`. -/
def res_call1_cst_0 (a0 : FVec Ideal S64x64 .f32) (a1 : FVec Ideal S64 .f32) (a2 a3 : FVec Ideal S64x64 .f32) (a4 : FVec Ideal S4096 .f32) : FVec Ideal S_ .f32 :=
  constant (F := Ideal) S_ .f32 0x00000000#32

/-- `main_call1_call0_v0`. -/
def res_call1_call0_v0 (a0 : FVec Ideal S64x64 .f32) (a1 : FVec Ideal S64 .f32) (a2 a3 : FVec Ideal S64x64 .f32) (a4 : FVec Ideal S4096 .f32) : FVec Ideal S4096x4096 .f32 :=
  broadcastInDim S4096x4096 ![0, 1] bcast_S4096x1_S4096x4096_0_1 (res_call1_v6 a0 a1 a2 a3 a4)

/-- `main_call1_call0_v1`. -/
def res_call1_call0_v1 (a0 : FVec Ideal S64x64 .f32) (a1 : FVec Ideal S64 .f32) (a2 a3 : FVec Ideal S64x64 .f32) (a4 : FVec Ideal S4096 .f32) : FVec Ideal S4096x4096 .f32 :=
  broadcastInDim S4096x4096 ![] bcast_S_S4096x4096 (res_call1_cst_0 a0 a1 a2 a3 a4)

/-- `main_v202`. -/
def res_v202 (a0 : FVec Ideal S64x64 .f32) (a1 : FVec Ideal S64 .f32) (a2 a3 : FVec Ideal S64x64 .f32) (a4 : FVec Ideal S4096 .f32) : FVec Ideal S4096x4096 .f32 :=
  select (res_call1_v5 a0 a1 a2 a3 a4) (res_call1_call0_v0 a0 a1 a2 a3 a4) (res_call1_call0_v1 a0 a1 a2 a3 a4)

/-- `main_v203`. -/
def res_v203 (a0 : FVec Ideal S64x64 .f32) (a1 : FVec Ideal S64 .f32) (a2 a3 : FVec Ideal S64x64 .f32) (a4 : FVec Ideal S4096 .f32) : FVec Ideal S4096x1 .f32 :=
  broadcastInDim S4096x1 ![0] bcast_S4096_S4096x1_0 (res_v168 a0 a1 a2 a3 a4)

/-- `main_v204`. -/
def res_v204 (a0 : FVec Ideal S64x64 .f32) (a1 : FVec Ideal S64 .f32) (a2 a3 : FVec Ideal S64x64 .f32) (a4 : FVec Ideal S4096 .f32) : FVec Ideal S4096x4096 .f32 :=
  broadcastInDim S4096x4096 ![0, 1] bcast_S4096x1_S4096x4096_0_1 (res_v203 a0 a1 a2 a3 a4)

/-- `main_v205`. -/
def res_v205 (a0 : FVec Ideal S64x64 .f32) (a1 : FVec Ideal S64 .f32) (a2 a3 : FVec Ideal S64x64 .f32) (a4 : FVec Ideal S4096 .f32) : FVec Ideal S4096x4096 .f32 :=
  mulf (F := Ideal) (res_v204 a0 a1 a2 a3 a4) (res_v162 a0 a1 a2 a3 a4)

/-- `main_v206`. -/
def res_v206 (a0 : FVec Ideal S64x64 .f32) (a1 : FVec Ideal S64 .f32) (a2 a3 : FVec Ideal S64x64 .f32) (a4 : FVec Ideal S4096 .f32) : FVec Ideal S4096 .f32 :=
  mulf (F := Ideal) (res_v168 a0 a1 a2 a3 a4) (res_v49 a0 a1 a2 a3 a4)

/-- `main_call2_cst`. -/
def res_call2_cst (a0 : FVec Ideal S64x64 .f32) (a1 : FVec Ideal S64 .f32) (a2 a3 : FVec Ideal S64x64 .f32) (a4 : FVec Ideal S4096 .f32) : FVec Ideal S_ .f32 :=
  constant (F := Ideal) S_ .f32 0x00000000#32

/-- `main_call2_v0`. -/
def res_call2_v0 (a0 : FVec Ideal S64x64 .f32) (a1 : FVec Ideal S64 .f32) (a2 a3 : FVec Ideal S64x64 .f32) (a4 : FVec Ideal S4096 .f32) : FVec Ideal S4096 .f32 :=
  pad S4096 ![0] ![0] ![0] (res_v206 a0 a1 a2 a3 a4) (res_call2_cst a0 a1 a2 a3 a4) pads_S4096_S4096_000 h_S_

/-- `main_call2_v1`. -/
def res_call2_v1 (a0 : FVec Ideal S64x64 .f32) (a1 : FVec Ideal S64 .f32) (a2 a3 : FVec Ideal S64x64 .f32) (a4 : FVec Ideal S4096 .f32) : IVec S4096x4096 32 :=
  iotaInDim S4096x4096 32 0

/-- `main_call2_v2`. -/
def res_call2_v2 (a0 : FVec Ideal S64x64 .f32) (a1 : FVec Ideal S64 .f32) (a2 a3 : FVec Ideal S64x64 .f32) (a4 : FVec Ideal S4096 .f32) : IVec S4096x4096 32 :=
  iotaInDim S4096x4096 32 1

/-- `main_call2_c`. -/
def res_call2_c (a0 : FVec Ideal S64x64 .f32) (a1 : FVec Ideal S64 .f32) (a2 a3 : FVec Ideal S64x64 .f32) (a4 : FVec Ideal S4096 .f32) : IVec S_ 32 :=
  constantI S_ 32 0#32

/-- `main_call2_v3`. -/
def res_call2_v3 (a0 : FVec Ideal S64x64 .f32) (a1 : FVec Ideal S64 .f32) (a2 a3 : FVec Ideal S64x64 .f32) (a4 : FVec Ideal S4096 .f32) : IVec S4096x4096 32 :=
  broadcastInDim S4096x4096 ![] bcast_S_S4096x4096 (res_call2_c a0 a1 a2 a3 a4)

/-- `main_call2_v4`. -/
def res_call2_v4 (a0 : FVec Ideal S64x64 .f32) (a1 : FVec Ideal S64 .f32) (a2 a3 : FVec Ideal S64x64 .f32) (a4 : FVec Ideal S4096 .f32) : IVec S4096x4096 32 :=
  addi (res_call2_v1 a0 a1 a2 a3 a4) (res_call2_v3 a0 a1 a2 a3 a4)

/-- `main_call2_v5`. -/
def res_call2_v5 (a0 : FVec Ideal S64x64 .f32) (a1 : FVec Ideal S64 .f32) (a2 a3 : FVec Ideal S64x64 .f32) (a4 : FVec Ideal S4096 .f32) : IVec S4096x4096 1 :=
  cmpi .eq (res_call2_v4 a0 a1 a2 a3 a4) (res_call2_v2 a0 a1 a2 a3 a4)

/-- `main_call2_v6`. -/
def res_call2_v6 (a0 : FVec Ideal S64x64 .f32) (a1 : FVec Ideal S64 .f32) (a2 a3 : FVec Ideal S64x64 .f32) (a4 : FVec Ideal S4096 .f32) : FVec Ideal S4096x1 .f32 :=
  broadcastInDim S4096x1 ![0] bcast_S4096_S4096x1_0 (res_call2_v0 a0 a1 a2 a3 a4)

/-- `main_call2_cst_0`. -/
def res_call2_cst_0 (a0 : FVec Ideal S64x64 .f32) (a1 : FVec Ideal S64 .f32) (a2 a3 : FVec Ideal S64x64 .f32) (a4 : FVec Ideal S4096 .f32) : FVec Ideal S_ .f32 :=
  constant (F := Ideal) S_ .f32 0x00000000#32

/-- `main_call2_call0_v0`. -/
def res_call2_call0_v0 (a0 : FVec Ideal S64x64 .f32) (a1 : FVec Ideal S64 .f32) (a2 a3 : FVec Ideal S64x64 .f32) (a4 : FVec Ideal S4096 .f32) : FVec Ideal S4096x4096 .f32 :=
  broadcastInDim S4096x4096 ![0, 1] bcast_S4096x1_S4096x4096_0_1 (res_call2_v6 a0 a1 a2 a3 a4)

/-- `main_call2_call0_v1`. -/
def res_call2_call0_v1 (a0 : FVec Ideal S64x64 .f32) (a1 : FVec Ideal S64 .f32) (a2 a3 : FVec Ideal S64x64 .f32) (a4 : FVec Ideal S4096 .f32) : FVec Ideal S4096x4096 .f32 :=
  broadcastInDim S4096x4096 ![] bcast_S_S4096x4096 (res_call2_cst_0 a0 a1 a2 a3 a4)

/-- `main_v207`. -/
def res_v207 (a0 : FVec Ideal S64x64 .f32) (a1 : FVec Ideal S64 .f32) (a2 a3 : FVec Ideal S64x64 .f32) (a4 : FVec Ideal S4096 .f32) : FVec Ideal S4096x4096 .f32 :=
  select (res_call2_v5 a0 a1 a2 a3 a4) (res_call2_call0_v0 a0 a1 a2 a3 a4) (res_call2_call0_v1 a0 a1 a2 a3 a4)

/-- `main_call3_v0`. -/
def res_call3_v0 (a0 : FVec Ideal S64x64 .f32) (a1 : FVec Ideal S64 .f32) (a2 a3 : FVec Ideal S64x64 .f32) (a4 : FVec Ideal S4096 .f32) : FVec Ideal S4096x12288 .f32 :=
  concatenate S4096x12288 1 [⟨S4096x4096, res_v183 a0 a1 a2 a3 a4⟩, ⟨S4096x4096, res_v190 a0 a1 a2 a3 a4⟩, ⟨S4096x4096, res_v197 a0 a1 a2 a3 a4⟩] concatenates_S4096x4096_S4096x4096_S4096x4096_S4096x12288_d1

/-- `main_call3_v1`. -/
def res_call3_v1 (a0 : FVec Ideal S64x64 .f32) (a1 : FVec Ideal S64 .f32) (a2 a3 : FVec Ideal S64x64 .f32) (a4 : FVec Ideal S4096 .f32) : FVec Ideal S4096x12288 .f32 :=
  concatenate S4096x12288 1 [⟨S4096x4096, res_v200 a0 a1 a2 a3 a4⟩, ⟨S4096x4096, res_v202 a0 a1 a2 a3 a4⟩, ⟨S4096x4096, res_v50 a0 a1 a2 a3 a4⟩] concatenates_S4096x4096_S4096x4096_S4096x4096_S4096x12288_d1

/-- `main_call3_v2`. -/
def res_call3_v2 (a0 : FVec Ideal S64x64 .f32) (a1 : FVec Ideal S64 .f32) (a2 a3 : FVec Ideal S64x64 .f32) (a4 : FVec Ideal S4096 .f32) : FVec Ideal S4096x12288 .f32 :=
  concatenate S4096x12288 1 [⟨S4096x4096, res_v205 a0 a1 a2 a3 a4⟩, ⟨S4096x4096, res_v50 a0 a1 a2 a3 a4⟩, ⟨S4096x4096, res_v207 a0 a1 a2 a3 a4⟩] concatenates_S4096x4096_S4096x4096_S4096x4096_S4096x12288_d1

/-- `main_v208`. -/
def res_v208 (a0 : FVec Ideal S64x64 .f32) (a1 : FVec Ideal S64 .f32) (a2 a3 : FVec Ideal S64x64 .f32) (a4 : FVec Ideal S4096 .f32) : FVec Ideal S12288x12288 .f32 :=
  concatenate S12288x12288 0 [⟨S4096x12288, res_call3_v0 a0 a1 a2 a3 a4⟩, ⟨S4096x12288, res_call3_v1 a0 a1 a2 a3 a4⟩, ⟨S4096x12288, res_call3_v2 a0 a1 a2 a3 a4⟩] concatenates_S4096x12288_S4096x12288_S4096x12288_S12288x12288_d0

/-- The array @main returns: the block matrix assembled from the nine blocks. -/
def result (a0 : FVec Ideal S64x64 .f32) (a1 : FVec Ideal S64 .f32) (a2 a3 : FVec Ideal S64x64 .f32) (a4 : FVec Ideal S4096 .f32) : FVec Ideal S12288x12288 .f32 :=
  res_v208 a0 a1 a2 a3 a4

end Cert.ReferenceIdeal.RefStages

end
-- ==== Proof.RefOps.lean ====
/- The reference program's @main as a list of its host operations (a called function's operations inline, over the
   call's own buffers), cut into short windows; that @main is the sequence of the list; the buffers each window
   writes; and that every operation touches TensorCore buffers only. -/
import proofs.«134289_j17918603559171_2_alg».proof.ReferenceIdeal
import proofs.«134289_j17918603559171_2_alg».proof.Proof.Gen.ReferenceIdeal
import Idealize.ShloMosaic.Lib.StableHlo.Run
import Idealize.ShloMosaic.PureOps.Ideal

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The index pairs of a scatter: two columns of indices side by side. -/
def pairIdx4096 (a b : IVec S4096x1 32) : IVec S4096x2 32 :=
  concatenate S4096x2 1 [⟨S4096x1, a⟩, ⟨S4096x1, b⟩] concatenates_S4096x1_S4096x1_S4096x2_d1

/-- The same over the shorter index range. -/
def pairIdx4032 (a b : IVec S4032x1 32) : IVec S4032x2 32 :=
  concatenate S4032x2 1 [⟨S4032x1, a⟩, ⟨S4032x1, b⟩] concatenates_S4032x1_S4032x1_S4032x2_d1

/-- The contents after two lists run one after the other. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Operations 1 … 20 of 314. -/
abbrev w01 : List (HloOp τ sig (Elt F)) :=
  [ nullary main_c (fun i => lit0 (S4096.rowMajor i)),
    nullary main_c_0 (constantI S4096 1 0#1),
    nullary main_c_1 (constantI S4096 1 0#1),
    nullary main_c_2 (fun i => lit1 (S4032.rowMajor i)),
    nullary main_c_3 (constantI S4032 1 0#1),
    nullary main_c_4 (fun i => lit2 (S4032.rowMajor i)),
    nullary main_c_5 (constantI S4032 1 0#1),
    nullary main_c_6 (constantI S4096 1 0#1),
    nullary main_c_7 (constantI S4096 1 0#1),
    nullary main_c_8 (fun i => lit3 (S4032.rowMajor i)),
    nullary main_c_9 (constantI S4032 1 0#1),
    nullary main_c_10 (constantI S4032 1 0#1),
    nullary main_c_11 (constantI S4096 1 0#1),
    nullary main_c_12 (constantI S4096 1 0#1),
    nullary main_c_13 (fun i => lit4 (S4032.rowMajor i)),
    nullary main_c_14 (constantI S4032 1 0#1),
    nullary main_c_15 (fun i => lit5 (S4032.rowMajor i)),
    nullary main_c_16 (constantI S4032 1 0#1),
    nullary main_c_17 (fun i => lit6 (S4032.rowMajor i)),
    nullary main_c_18 (constantI S4032 1 0#1) ]

/-- The buffers window `w01` writes. -/
abbrev w01_W : List (Ref sig .tc) := [main_c, main_c_0, main_c_1, main_c_2, main_c_3, main_c_4, main_c_5, main_c_6, main_c_7, main_c_8, main_c_9, main_c_10, main_c_11, main_c_12, main_c_13, main_c_14, main_c_15, main_c_16, main_c_17, main_c_18]

/-- Operations 21 … 40 of 314. -/
abbrev w02 : List (HloOp τ sig (Elt F)) :=
  [ nullary main_c_19 (constantI S4096 1 0#1),
    nullary main_c_20 (constantI S4096 1 0#1),
    nullary main_c_21 (fun i => lit7 (S4032.rowMajor i)),
    nullary main_c_22 (constantI S4032 1 0#1),
    nullary main_c_23 (constantI S4032 1 0#1),
    nullary main_c_24 (fun i => lit8 (S4032.rowMajor i)),
    nullary main_c_25 (constantI S4032 1 0#1),
    reshape main_arg4 main_v0 rfl shapeCasts_S4096_S64x64,
    nullary main_cst (constant S_ .f32 0x3A83126F#32),
    unary main_cst main_v1 (broadcastInDim S64x64 ![] bcast_S_S64x64 : (⟨S_, .f32⟩ : BufTy).Contents (Elt F) → (⟨S64x64, .f32⟩ : BufTy).Contents (Elt F)),
    binary main_v1 main_v0 main_v2 (mulf : (⟨S64x64, .f32⟩ : BufTy).Contents (Elt F) → (⟨S64x64, .f32⟩ : BufTy).Contents (Elt F) → (⟨S64x64, .f32⟩ : BufTy).Contents (Elt F)),
    binary main_arg2 main_v2 main_v3 (subf : (⟨S64x64, .f32⟩ : BufTy).Contents (Elt F) → (⟨S64x64, .f32⟩ : BufTy).Contents (Elt F) → (⟨S64x64, .f32⟩ : BufTy).Contents (Elt F)),
    nullary main_cst_26 (constant S_ .f32 0x3A83126F#32),
    unary main_cst_26 main_v4 (broadcastInDim S64x64 ![] bcast_S_S64x64 : (⟨S_, .f32⟩ : BufTy).Contents (Elt F) → (⟨S64x64, .f32⟩ : BufTy).Contents (Elt F)),
    binary main_v4 main_v0 main_v5 (mulf : (⟨S64x64, .f32⟩ : BufTy).Contents (Elt F) → (⟨S64x64, .f32⟩ : BufTy).Contents (Elt F) → (⟨S64x64, .f32⟩ : BufTy).Contents (Elt F)),
    binary main_arg3 main_v5 main_v6 (subf : (⟨S64x64, .f32⟩ : BufTy).Contents (Elt F) → (⟨S64x64, .f32⟩ : BufTy).Contents (Elt F) → (⟨S64x64, .f32⟩ : BufTy).Contents (Elt F)),
    nullary main_cst_27 (constant S_ .f32 0xFF800000#32),
    binary main_arg0 main_cst_27 main_v7 ((fun x v => Host.reduce FloatOps.maximumf x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_28 (constant S_ .f32 0x41200000#32),
    binary main_cst_28 main_v7 main_v8 (mulf : (⟨S_, .f32⟩ : BufTy).Contents (Elt F) → (⟨S_, .f32⟩ : BufTy).Contents (Elt F) → (⟨S_, .f32⟩ : BufTy).Contents (Elt F)) ]

/-- The buffers window `w02` writes. -/
abbrev w02_W : List (Ref sig .tc) := [main_c_19, main_c_20, main_c_21, main_c_22, main_c_23, main_c_24, main_c_25, main_v0, main_cst, main_v1, main_v2, main_v3, main_cst_26, main_v4, main_v5, main_v6, main_cst_27, main_v7, main_cst_28, main_v8]

/-- Operations 41 … 60 of 314. -/
abbrev w03 : List (HloOp τ sig (Elt F)) :=
  [ nullary main_cst_29 (constant S_ .f32 0x3FB504F3#32),
    binary main_v8 main_cst_29 main_v9 (mulf : (⟨S_, .f32⟩ : BufTy).Contents (Elt F) → (⟨S_, .f32⟩ : BufTy).Contents (Elt F) → (⟨S_, .f32⟩ : BufTy).Contents (Elt F)),
    unary main_arg0 main_v10 ((transpose S64x64 [1, 0] · transposes_S64x64_S64x64_1_0) : (⟨S64x64, .f32⟩ : BufTy).Contents (Elt F) → (⟨S64x64, .f32⟩ : BufTy).Contents (Elt F)),
    reshape main_v10 main_v11 rfl shapeCasts_S64x64_S4096,
    nullary main_cst_30 (constant S_ .f32 0x40000000#32),
    unary main_cst_30 main_v12 (broadcastInDim S64 ![] bcast_S_S64 : (⟨S_, .f32⟩ : BufTy).Contents (Elt F) → (⟨S64, .f32⟩ : BufTy).Contents (Elt F)),
    binary main_arg1 main_v12 main_v13 (Host.divf : (⟨S64, .f32⟩ : BufTy).Contents (Elt F) → (⟨S64, .f32⟩ : BufTy).Contents (Elt F) → (⟨S64, .f32⟩ : BufTy).Contents (Elt F)),
    nullary main_cst_31 (constant S_ .f32 0x3F800000#32),
    unary main_cst_31 main_v14 (broadcastInDim S64 ![] bcast_S_S64 : (⟨S_, .f32⟩ : BufTy).Contents (Elt F) → (⟨S64, .f32⟩ : BufTy).Contents (Elt F)),
    binary main_v14 main_v13 main_v15 (subf : (⟨S64, .f32⟩ : BufTy).Contents (Elt F) → (⟨S64, .f32⟩ : BufTy).Contents (Elt F) → (⟨S64, .f32⟩ : BufTy).Contents (Elt F)),
    reshape main_v15 main_v16 rfl shapeCasts_S64_S1x64,
    unary main_v16 main_v17 (broadcastInDim S64x64 ![0, 1] bcast_S1x64_S64x64_0_1 : (⟨S1x64, .f32⟩ : BufTy).Contents (Elt F) → (⟨S64x64, .f32⟩ : BufTy).Contents (Elt F)),
    reshape main_v17 main_v18 rfl shapeCasts_S64x64_S4096,
    nullary main_cst_32 (constant S_ .f32 0x40000000#32),
    unary main_cst_32 main_v19 (broadcastInDim S64 ![] bcast_S_S64 : (⟨S_, .f32⟩ : BufTy).Contents (Elt F) → (⟨S64, .f32⟩ : BufTy).Contents (Elt F)),
    binary main_arg1 main_v19 main_v20 (Host.divf : (⟨S64, .f32⟩ : BufTy).Contents (Elt F) → (⟨S64, .f32⟩ : BufTy).Contents (Elt F) → (⟨S64, .f32⟩ : BufTy).Contents (Elt F)),
    nullary main_cst_33 (constant S_ .f32 0x3F800000#32),
    unary main_cst_33 main_v21 (broadcastInDim S64 ![] bcast_S_S64 : (⟨S_, .f32⟩ : BufTy).Contents (Elt F) → (⟨S64, .f32⟩ : BufTy).Contents (Elt F)),
    binary main_v21 main_v20 main_v22 (addf : (⟨S64, .f32⟩ : BufTy).Contents (Elt F) → (⟨S64, .f32⟩ : BufTy).Contents (Elt F) → (⟨S64, .f32⟩ : BufTy).Contents (Elt F)),
    reshape main_v22 main_v23 rfl shapeCasts_S64_S1x64 ]

/-- The buffers window `w03` writes. -/
abbrev w03_W : List (Ref sig .tc) := [main_cst_29, main_v9, main_v10, main_v11, main_cst_30, main_v12, main_v13, main_cst_31, main_v14, main_v15, main_v16, main_v17, main_v18, main_cst_32, main_v19, main_v20, main_cst_33, main_v21, main_v22, main_v23]

/-- Operations 61 … 80 of 314. -/
abbrev w04 : List (HloOp τ sig (Elt F)) :=
  [ unary main_v23 main_v24 (broadcastInDim S64x64 ![0, 1] bcast_S1x64_S64x64_0_1 : (⟨S1x64, .f32⟩ : BufTy).Contents (Elt F) → (⟨S64x64, .f32⟩ : BufTy).Contents (Elt F)),
    reshape main_v24 main_v25 rfl shapeCasts_S64x64_S4096,
    unary main_v3 main_v26 ((transpose S64x64 [1, 0] · transposes_S64x64_S64x64_1_0) : (⟨S64x64, .f32⟩ : BufTy).Contents (Elt F) → (⟨S64x64, .f32⟩ : BufTy).Contents (Elt F)),
    reshape main_v26 main_v27 rfl shapeCasts_S64x64_S4096,
    nullary main_cst_34 (constant S_ .f32 0x40000000#32),
    unary main_cst_34 main_v28 (broadcastInDim S4096 ![] bcast_S_S4096 : (⟨S_, .f32⟩ : BufTy).Contents (Elt F) → (⟨S4096, .f32⟩ : BufTy).Contents (Elt F)),
    binary main_v27 main_v28 main_v29 (Host.divf : (⟨S4096, .f32⟩ : BufTy).Contents (Elt F) → (⟨S4096, .f32⟩ : BufTy).Contents (Elt F) → (⟨S4096, .f32⟩ : BufTy).Contents (Elt F)),
    nullary main_cst_35 (constant S_ .f32 0x3F800000#32),
    unary main_cst_35 main_v30 (broadcastInDim S4096 ![] bcast_S_S4096 : (⟨S_, .f32⟩ : BufTy).Contents (Elt F) → (⟨S4096, .f32⟩ : BufTy).Contents (Elt F)),
    binary main_v30 main_v29 main_v31 (addf : (⟨S4096, .f32⟩ : BufTy).Contents (Elt F) → (⟨S4096, .f32⟩ : BufTy).Contents (Elt F) → (⟨S4096, .f32⟩ : BufTy).Contents (Elt F)),
    unary main_v3 main_v32 ((transpose S64x64 [1, 0] · transposes_S64x64_S64x64_1_0) : (⟨S64x64, .f32⟩ : BufTy).Contents (Elt F) → (⟨S64x64, .f32⟩ : BufTy).Contents (Elt F)),
    reshape main_v32 main_v33 rfl shapeCasts_S64x64_S4096,
    nullary main_cst_36 (constant S_ .f32 0x40000000#32),
    unary main_cst_36 main_v34 (broadcastInDim S4096 ![] bcast_S_S4096 : (⟨S_, .f32⟩ : BufTy).Contents (Elt F) → (⟨S4096, .f32⟩ : BufTy).Contents (Elt F)),
    binary main_v33 main_v34 main_v35 (Host.divf : (⟨S4096, .f32⟩ : BufTy).Contents (Elt F) → (⟨S4096, .f32⟩ : BufTy).Contents (Elt F) → (⟨S4096, .f32⟩ : BufTy).Contents (Elt F)),
    nullary main_cst_37 (constant S_ .f32 0x3F800000#32),
    unary main_cst_37 main_v36 (broadcastInDim S4096 ![] bcast_S_S4096 : (⟨S_, .f32⟩ : BufTy).Contents (Elt F) → (⟨S4096, .f32⟩ : BufTy).Contents (Elt F)),
    binary main_v36 main_v35 main_v37 (subf : (⟨S4096, .f32⟩ : BufTy).Contents (Elt F) → (⟨S4096, .f32⟩ : BufTy).Contents (Elt F) → (⟨S4096, .f32⟩ : BufTy).Contents (Elt F)),
    unary main_v6 main_v38 ((transpose S64x64 [1, 0] · transposes_S64x64_S64x64_1_0) : (⟨S64x64, .f32⟩ : BufTy).Contents (Elt F) → (⟨S64x64, .f32⟩ : BufTy).Contents (Elt F)),
    reshape main_v38 main_v39 rfl shapeCasts_S64x64_S4096 ]

/-- The buffers window `w04` writes. -/
abbrev w04_W : List (Ref sig .tc) := [main_v24, main_v25, main_v26, main_v27, main_cst_34, main_v28, main_v29, main_cst_35, main_v30, main_v31, main_v32, main_v33, main_cst_36, main_v34, main_v35, main_cst_37, main_v36, main_v37, main_v38, main_v39]

/-- Operations 81 … 100 of 314. -/
abbrev w05 : List (HloOp τ sig (Elt F)) :=
  [ nullary main_cst_38 (constant S_ .f32 0x40000000#32),
    unary main_cst_38 main_v40 (broadcastInDim S4096 ![] bcast_S_S4096 : (⟨S_, .f32⟩ : BufTy).Contents (Elt F) → (⟨S4096, .f32⟩ : BufTy).Contents (Elt F)),
    binary main_v39 main_v40 main_v41 (Host.divf : (⟨S4096, .f32⟩ : BufTy).Contents (Elt F) → (⟨S4096, .f32⟩ : BufTy).Contents (Elt F) → (⟨S4096, .f32⟩ : BufTy).Contents (Elt F)),
    nullary main_cst_39 (constant S_ .f32 0x3F800000#32),
    unary main_cst_39 main_v42 (broadcastInDim S4096 ![] bcast_S_S4096 : (⟨S_, .f32⟩ : BufTy).Contents (Elt F) → (⟨S4096, .f32⟩ : BufTy).Contents (Elt F)),
    binary main_v42 main_v41 main_v43 (addf : (⟨S4096, .f32⟩ : BufTy).Contents (Elt F) → (⟨S4096, .f32⟩ : BufTy).Contents (Elt F) → (⟨S4096, .f32⟩ : BufTy).Contents (Elt F)),
    unary main_v6 main_v44 ((transpose S64x64 [1, 0] · transposes_S64x64_S64x64_1_0) : (⟨S64x64, .f32⟩ : BufTy).Contents (Elt F) → (⟨S64x64, .f32⟩ : BufTy).Contents (Elt F)),
    reshape main_v44 main_v45 rfl shapeCasts_S64x64_S4096,
    nullary main_cst_40 (constant S_ .f32 0x40000000#32),
    unary main_cst_40 main_v46 (broadcastInDim S4096 ![] bcast_S_S4096 : (⟨S_, .f32⟩ : BufTy).Contents (Elt F) → (⟨S4096, .f32⟩ : BufTy).Contents (Elt F)),
    binary main_v45 main_v46 main_v47 (Host.divf : (⟨S4096, .f32⟩ : BufTy).Contents (Elt F) → (⟨S4096, .f32⟩ : BufTy).Contents (Elt F) → (⟨S4096, .f32⟩ : BufTy).Contents (Elt F)),
    nullary main_cst_41 (constant S_ .f32 0x3F800000#32),
    unary main_cst_41 main_v48 (broadcastInDim S4096 ![] bcast_S_S4096 : (⟨S_, .f32⟩ : BufTy).Contents (Elt F) → (⟨S4096, .f32⟩ : BufTy).Contents (Elt F)),
    binary main_v48 main_v47 main_v49 (subf : (⟨S4096, .f32⟩ : BufTy).Contents (Elt F) → (⟨S4096, .f32⟩ : BufTy).Contents (Elt F) → (⟨S4096, .f32⟩ : BufTy).Contents (Elt F)),
    nullary main_cst_42 (constant S_ .f32 0x00000000#32),
    unary main_cst_42 main_v50 (broadcastInDim S4096x4096 ![] bcast_S_S4096x4096 : (⟨S_, .f32⟩ : BufTy).Contents (Elt F) → (⟨S4096x4096, .f32⟩ : BufTy).Contents (Elt F)),
    unary main_v9 main_v51 (broadcastInDim S4096 ![] bcast_S_S4096 : (⟨S_, .f32⟩ : BufTy).Contents (Elt F) → (⟨S4096, .f32⟩ : BufTy).Contents (Elt F)),
    binary main_v11 main_v51 main_v52 (Host.divf : (⟨S4096, .f32⟩ : BufTy).Contents (Elt F) → (⟨S4096, .f32⟩ : BufTy).Contents (Elt F) → (⟨S4096, .f32⟩ : BufTy).Contents (Elt F)),
    nullary main_c_43 (constantI S_ 32 4096#32),
    unary main_c_43 main_v53 (broadcastInDim S4096 ![] bcast_S_S4096 : (⟨S_, .i32⟩ : BufTy).Contents (Elt F) → (⟨S4096, .i32⟩ : BufTy).Contents (Elt F)) ]

/-- The buffers window `w05` writes. -/
abbrev w05_W : List (Ref sig .tc) := [main_cst_38, main_v40, main_v41, main_cst_39, main_v42, main_v43, main_v44, main_v45, main_cst_40, main_v46, main_v47, main_cst_41, main_v48, main_v49, main_cst_42, main_v50, main_v51, main_v52, main_c_43, main_v53]

/-- Operations 101 … 120 of 314. -/
abbrev w06 : List (HloOp τ sig (Elt F)) :=
  [ binary main_c main_v53 main_v54 (addi : (⟨S4096, .i32⟩ : BufTy).Contents (Elt F) → (⟨S4096, .i32⟩ : BufTy).Contents (Elt F) → (⟨S4096, .i32⟩ : BufTy).Contents (Elt F)),
    ternary main_c_0 main_v54 main_c main_v55 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_44 (constantI S_ 32 4096#32),
    unary main_c_44 main_v56 (broadcastInDim S4096 ![] bcast_S_S4096 : (⟨S_, .i32⟩ : BufTy).Contents (Elt F) → (⟨S4096, .i32⟩ : BufTy).Contents (Elt F)),
    binary main_c main_v56 main_v57 (addi : (⟨S4096, .i32⟩ : BufTy).Contents (Elt F) → (⟨S4096, .i32⟩ : BufTy).Contents (Elt F) → (⟨S4096, .i32⟩ : BufTy).Contents (Elt F)),
    ternary main_c_1 main_v57 main_c main_v58 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v55 main_v59 (broadcastInDim S4096x1 ![0] bcast_S4096_S4096x1_0 : (⟨S4096, .i32⟩ : BufTy).Contents (Elt F) → (⟨S4096x1, .i32⟩ : BufTy).Contents (Elt F)),
    unary main_v58 main_v60 (broadcastInDim S4096x1 ![0] bcast_S4096_S4096x1_0 : (⟨S4096, .i32⟩ : BufTy).Contents (Elt F) → (⟨S4096x1, .i32⟩ : BufTy).Contents (Elt F)),
    binary main_v59 main_v60 main_v61 pairIdx4096,
    ternary main_v50 main_v61 main_v52 main_v62 ((fun x i u => Host.scatter scatter_S4096x4096_S4096x2_S4096_n_01_01_1 (fun _ b => b) x i u) : (⟨S4096x4096, .f32⟩ : BufTy).Contents (Elt F) → (⟨S4096x2, .i32⟩ : BufTy).Contents (Elt F) → (⟨S4096, .f32⟩ : BufTy).Contents (Elt F) → (⟨S4096x4096, .f32⟩ : BufTy).Contents (Elt F)),
    unary main_v11 main_v63 ((extractStridedSlice S4032 ![0] · slices_S4096_S4032_0) : (⟨S4096, .f32⟩ : BufTy).Contents (Elt F) → (⟨S4032, .f32⟩ : BufTy).Contents (Elt F)),
    unary main_v63 main_v64 (Host.negf : (⟨S4032, .f32⟩ : BufTy).Contents (Elt F) → (⟨S4032, .f32⟩ : BufTy).Contents (Elt F)),
    unary main_v9 main_v65 (broadcastInDim S4032 ![] bcast_S_S4032 : (⟨S_, .f32⟩ : BufTy).Contents (Elt F) → (⟨S4032, .f32⟩ : BufTy).Contents (Elt F)),
    binary main_v64 main_v65 main_v66 (Host.divf : (⟨S4032, .f32⟩ : BufTy).Contents (Elt F) → (⟨S4032, .f32⟩ : BufTy).Contents (Elt F) → (⟨S4032, .f32⟩ : BufTy).Contents (Elt F)),
    nullary main_c_45 (constantI S_ 32 4096#32),
    unary main_c_45 main_v67 (broadcastInDim S4032 ![] bcast_S_S4032 : (⟨S_, .i32⟩ : BufTy).Contents (Elt F) → (⟨S4032, .i32⟩ : BufTy).Contents (Elt F)),
    binary main_c_2 main_v67 main_v68 (addi : (⟨S4032, .i32⟩ : BufTy).Contents (Elt F) → (⟨S4032, .i32⟩ : BufTy).Contents (Elt F) → (⟨S4032, .i32⟩ : BufTy).Contents (Elt F)),
    ternary main_c_3 main_v68 main_c_2 main_v69 (select : (⟨S4032, .i1⟩ : BufTy).Contents (Elt F) → (⟨S4032, .i32⟩ : BufTy).Contents (Elt F) → (⟨S4032, .i32⟩ : BufTy).Contents (Elt F) → (⟨S4032, .i32⟩ : BufTy).Contents (Elt F)),
    nullary main_c_46 (constantI S_ 32 4096#32),
    unary main_c_46 main_v70 (broadcastInDim S4032 ![] bcast_S_S4032 : (⟨S_, .i32⟩ : BufTy).Contents (Elt F) → (⟨S4032, .i32⟩ : BufTy).Contents (Elt F)) ]

/-- The buffers window `w06` writes. -/
abbrev w06_W : List (Ref sig .tc) := [main_v54, main_v55, main_c_44, main_v56, main_v57, main_v58, main_v59, main_v60, main_v61, main_v62, main_v63, main_v64, main_v65, main_v66, main_c_45, main_v67, main_v68, main_v69, main_c_46, main_v70]

/-- Operations 121 … 140 of 314. -/
abbrev w07 : List (HloOp τ sig (Elt F)) :=
  [ binary main_c_4 main_v70 main_v71 (addi : (⟨S4032, .i32⟩ : BufTy).Contents (Elt F) → (⟨S4032, .i32⟩ : BufTy).Contents (Elt F) → (⟨S4032, .i32⟩ : BufTy).Contents (Elt F)),
    ternary main_c_5 main_v71 main_c_4 main_v72 (select : (⟨S4032, .i1⟩ : BufTy).Contents (Elt F) → (⟨S4032, .i32⟩ : BufTy).Contents (Elt F) → (⟨S4032, .i32⟩ : BufTy).Contents (Elt F) → (⟨S4032, .i32⟩ : BufTy).Contents (Elt F)),
    unary main_v69 main_v73 (broadcastInDim S4032x1 ![0] bcast_S4032_S4032x1_0 : (⟨S4032, .i32⟩ : BufTy).Contents (Elt F) → (⟨S4032x1, .i32⟩ : BufTy).Contents (Elt F)),
    unary main_v72 main_v74 (broadcastInDim S4032x1 ![0] bcast_S4032_S4032x1_0 : (⟨S4032, .i32⟩ : BufTy).Contents (Elt F) → (⟨S4032x1, .i32⟩ : BufTy).Contents (Elt F)),
    binary main_v73 main_v74 main_v75 pairIdx4032,
    ternary main_v62 main_v75 main_v66 main_v76 ((fun x i u => Host.scatter scatter_S4096x4096_S4032x2_S4032_n_01_01_1 (fun _ b => b) x i u) : (⟨S4096x4096, .f32⟩ : BufTy).Contents (Elt F) → (⟨S4032x2, .i32⟩ : BufTy).Contents (Elt F) → (⟨S4032, .f32⟩ : BufTy).Contents (Elt F) → (⟨S4096x4096, .f32⟩ : BufTy).Contents (Elt F)),
    unary main_v11 main_v77 (Host.negf : (⟨S4096, .f32⟩ : BufTy).Contents (Elt F) → (⟨S4096, .f32⟩ : BufTy).Contents (Elt F)),
    unary main_v9 main_v78 (broadcastInDim S4096 ![] bcast_S_S4096 : (⟨S_, .f32⟩ : BufTy).Contents (Elt F) → (⟨S4096, .f32⟩ : BufTy).Contents (Elt F)),
    binary main_v77 main_v78 main_v79 (Host.divf : (⟨S4096, .f32⟩ : BufTy).Contents (Elt F) → (⟨S4096, .f32⟩ : BufTy).Contents (Elt F) → (⟨S4096, .f32⟩ : BufTy).Contents (Elt F)),
    nullary main_c_47 (constantI S_ 32 4096#32),
    unary main_c_47 main_v80 (broadcastInDim S4096 ![] bcast_S_S4096 : (⟨S_, .i32⟩ : BufTy).Contents (Elt F) → (⟨S4096, .i32⟩ : BufTy).Contents (Elt F)),
    binary main_c main_v80 main_v81 (addi : (⟨S4096, .i32⟩ : BufTy).Contents (Elt F) → (⟨S4096, .i32⟩ : BufTy).Contents (Elt F) → (⟨S4096, .i32⟩ : BufTy).Contents (Elt F)),
    ternary main_c_6 main_v81 main_c main_v82 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_48 (constantI S_ 32 4096#32),
    unary main_c_48 main_v83 (broadcastInDim S4096 ![] bcast_S_S4096 : (⟨S_, .i32⟩ : BufTy).Contents (Elt F) → (⟨S4096, .i32⟩ : BufTy).Contents (Elt F)),
    binary main_c main_v83 main_v84 (addi : (⟨S4096, .i32⟩ : BufTy).Contents (Elt F) → (⟨S4096, .i32⟩ : BufTy).Contents (Elt F) → (⟨S4096, .i32⟩ : BufTy).Contents (Elt F)),
    ternary main_c_7 main_v84 main_c main_v85 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v82 main_v86 (broadcastInDim S4096x1 ![0] bcast_S4096_S4096x1_0 : (⟨S4096, .i32⟩ : BufTy).Contents (Elt F) → (⟨S4096x1, .i32⟩ : BufTy).Contents (Elt F)),
    unary main_v85 main_v87 (broadcastInDim S4096x1 ![0] bcast_S4096_S4096x1_0 : (⟨S4096, .i32⟩ : BufTy).Contents (Elt F) → (⟨S4096x1, .i32⟩ : BufTy).Contents (Elt F)),
    binary main_v86 main_v87 main_v88 pairIdx4096 ]

/-- The buffers window `w07` writes. -/
abbrev w07_W : List (Ref sig .tc) := [main_v71, main_v72, main_v73, main_v74, main_v75, main_v76, main_v77, main_v78, main_v79, main_c_47, main_v80, main_v81, main_v82, main_c_48, main_v83, main_v84, main_v85, main_v86, main_v87, main_v88]

/-- Operations 141 … 160 of 314. -/
abbrev w08 : List (HloOp τ sig (Elt F)) :=
  [ ternary main_v50 main_v88 main_v79 main_v89 ((fun x i u => Host.scatter scatter_S4096x4096_S4096x2_S4096_n_01_01_1 (fun _ b => b) x i u) : (⟨S4096x4096, .f32⟩ : BufTy).Contents (Elt F) → (⟨S4096x2, .i32⟩ : BufTy).Contents (Elt F) → (⟨S4096, .f32⟩ : BufTy).Contents (Elt F) → (⟨S4096x4096, .f32⟩ : BufTy).Contents (Elt F)),
    unary main_v11 main_v90 ((extractStridedSlice S4032 ![0] · slices_S4096_S4032_0) : (⟨S4096, .f32⟩ : BufTy).Contents (Elt F) → (⟨S4032, .f32⟩ : BufTy).Contents (Elt F)),
    unary main_v9 main_v91 (broadcastInDim S4032 ![] bcast_S_S4032 : (⟨S_, .f32⟩ : BufTy).Contents (Elt F) → (⟨S4032, .f32⟩ : BufTy).Contents (Elt F)),
    binary main_v90 main_v91 main_v92 (Host.divf : (⟨S4032, .f32⟩ : BufTy).Contents (Elt F) → (⟨S4032, .f32⟩ : BufTy).Contents (Elt F) → (⟨S4032, .f32⟩ : BufTy).Contents (Elt F)),
    nullary main_c_49 (constantI S_ 32 4096#32),
    unary main_c_49 main_v93 (broadcastInDim S4032 ![] bcast_S_S4032 : (⟨S_, .i32⟩ : BufTy).Contents (Elt F) → (⟨S4032, .i32⟩ : BufTy).Contents (Elt F)),
    binary main_c_8 main_v93 main_v94 (addi : (⟨S4032, .i32⟩ : BufTy).Contents (Elt F) → (⟨S4032, .i32⟩ : BufTy).Contents (Elt F) → (⟨S4032, .i32⟩ : BufTy).Contents (Elt F)),
    ternary main_c_9 main_v94 main_c_8 main_v95 (select : (⟨S4032, .i1⟩ : BufTy).Contents (Elt F) → (⟨S4032, .i32⟩ : BufTy).Contents (Elt F) → (⟨S4032, .i32⟩ : BufTy).Contents (Elt F) → (⟨S4032, .i32⟩ : BufTy).Contents (Elt F)),
    nullary main_c_50 (constantI S_ 32 4096#32),
    unary main_c_50 main_v96 (broadcastInDim S4032 ![] bcast_S_S4032 : (⟨S_, .i32⟩ : BufTy).Contents (Elt F) → (⟨S4032, .i32⟩ : BufTy).Contents (Elt F)),
    binary main_c_2 main_v96 main_v97 (addi : (⟨S4032, .i32⟩ : BufTy).Contents (Elt F) → (⟨S4032, .i32⟩ : BufTy).Contents (Elt F) → (⟨S4032, .i32⟩ : BufTy).Contents (Elt F)),
    ternary main_c_10 main_v97 main_c_2 main_v98 (select : (⟨S4032, .i1⟩ : BufTy).Contents (Elt F) → (⟨S4032, .i32⟩ : BufTy).Contents (Elt F) → (⟨S4032, .i32⟩ : BufTy).Contents (Elt F) → (⟨S4032, .i32⟩ : BufTy).Contents (Elt F)),
    unary main_v95 main_v99 (broadcastInDim S4032x1 ![0] bcast_S4032_S4032x1_0 : (⟨S4032, .i32⟩ : BufTy).Contents (Elt F) → (⟨S4032x1, .i32⟩ : BufTy).Contents (Elt F)),
    unary main_v98 main_v100 (broadcastInDim S4032x1 ![0] bcast_S4032_S4032x1_0 : (⟨S4032, .i32⟩ : BufTy).Contents (Elt F) → (⟨S4032x1, .i32⟩ : BufTy).Contents (Elt F)),
    binary main_v99 main_v100 main_v101 pairIdx4032,
    ternary main_v89 main_v101 main_v92 main_v102 ((fun x i u => Host.scatter scatter_S4096x4096_S4032x2_S4032_n_01_01_1 (fun _ b => b) x i u) : (⟨S4096x4096, .f32⟩ : BufTy).Contents (Elt F) → (⟨S4032x2, .i32⟩ : BufTy).Contents (Elt F) → (⟨S4032, .f32⟩ : BufTy).Contents (Elt F) → (⟨S4096x4096, .f32⟩ : BufTy).Contents (Elt F)),
    unary main_v9 main_v103 (broadcastInDim S4096 ![] bcast_S_S4096 : (⟨S_, .f32⟩ : BufTy).Contents (Elt F) → (⟨S4096, .f32⟩ : BufTy).Contents (Elt F)),
    binary main_v11 main_v103 main_v104 (Host.divf : (⟨S4096, .f32⟩ : BufTy).Contents (Elt F) → (⟨S4096, .f32⟩ : BufTy).Contents (Elt F) → (⟨S4096, .f32⟩ : BufTy).Contents (Elt F)),
    nullary main_c_51 (constantI S_ 32 4096#32),
    unary main_c_51 main_v105 (broadcastInDim S4096 ![] bcast_S_S4096 : (⟨S_, .i32⟩ : BufTy).Contents (Elt F) → (⟨S4096, .i32⟩ : BufTy).Contents (Elt F)) ]

/-- The buffers window `w08` writes. -/
abbrev w08_W : List (Ref sig .tc) := [main_v89, main_v90, main_v91, main_v92, main_c_49, main_v93, main_v94, main_v95, main_c_50, main_v96, main_v97, main_v98, main_v99, main_v100, main_v101, main_v102, main_v103, main_v104, main_c_51, main_v105]

/-- Operations 161 … 180 of 314. -/
abbrev w09 : List (HloOp τ sig (Elt F)) :=
  [ binary main_c main_v105 main_v106 (addi : (⟨S4096, .i32⟩ : BufTy).Contents (Elt F) → (⟨S4096, .i32⟩ : BufTy).Contents (Elt F) → (⟨S4096, .i32⟩ : BufTy).Contents (Elt F)),
    ternary main_c_11 main_v106 main_c main_v107 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_52 (constantI S_ 32 4096#32),
    unary main_c_52 main_v108 (broadcastInDim S4096 ![] bcast_S_S4096 : (⟨S_, .i32⟩ : BufTy).Contents (Elt F) → (⟨S4096, .i32⟩ : BufTy).Contents (Elt F)),
    binary main_c main_v108 main_v109 (addi : (⟨S4096, .i32⟩ : BufTy).Contents (Elt F) → (⟨S4096, .i32⟩ : BufTy).Contents (Elt F) → (⟨S4096, .i32⟩ : BufTy).Contents (Elt F)),
    ternary main_c_12 main_v109 main_c main_v110 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v107 main_v111 (broadcastInDim S4096x1 ![0] bcast_S4096_S4096x1_0 : (⟨S4096, .i32⟩ : BufTy).Contents (Elt F) → (⟨S4096x1, .i32⟩ : BufTy).Contents (Elt F)),
    unary main_v110 main_v112 (broadcastInDim S4096x1 ![0] bcast_S4096_S4096x1_0 : (⟨S4096, .i32⟩ : BufTy).Contents (Elt F) → (⟨S4096x1, .i32⟩ : BufTy).Contents (Elt F)),
    binary main_v111 main_v112 main_v113 pairIdx4096,
    ternary main_v50 main_v113 main_v104 main_v114 ((fun x i u => Host.scatter scatter_S4096x4096_S4096x2_S4096_n_01_01_1 (fun _ b => b) x i u) : (⟨S4096x4096, .f32⟩ : BufTy).Contents (Elt F) → (⟨S4096x2, .i32⟩ : BufTy).Contents (Elt F) → (⟨S4096, .f32⟩ : BufTy).Contents (Elt F) → (⟨S4096x4096, .f32⟩ : BufTy).Contents (Elt F)),
    nullary main_c_53 (constantI S_ 32 4096#32),
    unary main_c_53 main_v115 (broadcastInDim S4032 ![] bcast_S_S4032 : (⟨S_, .i32⟩ : BufTy).Contents (Elt F) → (⟨S4032, .i32⟩ : BufTy).Contents (Elt F)),
    binary main_c_13 main_v115 main_v116 (addi : (⟨S4032, .i32⟩ : BufTy).Contents (Elt F) → (⟨S4032, .i32⟩ : BufTy).Contents (Elt F) → (⟨S4032, .i32⟩ : BufTy).Contents (Elt F)),
    ternary main_c_14 main_v116 main_c_13 main_v117 (select : (⟨S4032, .i1⟩ : BufTy).Contents (Elt F) → (⟨S4032, .i32⟩ : BufTy).Contents (Elt F) → (⟨S4032, .i32⟩ : BufTy).Contents (Elt F) → (⟨S4032, .i32⟩ : BufTy).Contents (Elt F)),
    unary main_v117 main_v118 (broadcastInDim S4032x1 ![0] bcast_S4032_S4032x1_0 : (⟨S4032, .i32⟩ : BufTy).Contents (Elt F) → (⟨S4032x1, .i32⟩ : BufTy).Contents (Elt F)),
    binary main_v11 main_v118 main_v119 ((fun x i => Host.gather gather_S4096_S4032x1_S4032_n_0_n_n_0_1_1 x i) : (⟨S4096, .f32⟩ : BufTy).Contents (Elt F) → (⟨S4032x1, .i32⟩ : BufTy).Contents (Elt F) → (⟨S4032, .f32⟩ : BufTy).Contents (Elt F)),
    unary main_v119 main_v120 (Host.negf : (⟨S4032, .f32⟩ : BufTy).Contents (Elt F) → (⟨S4032, .f32⟩ : BufTy).Contents (Elt F)),
    unary main_v9 main_v121 (broadcastInDim S4032 ![] bcast_S_S4032 : (⟨S_, .f32⟩ : BufTy).Contents (Elt F) → (⟨S4032, .f32⟩ : BufTy).Contents (Elt F)),
    binary main_v120 main_v121 main_v122 (Host.divf : (⟨S4032, .f32⟩ : BufTy).Contents (Elt F) → (⟨S4032, .f32⟩ : BufTy).Contents (Elt F) → (⟨S4032, .f32⟩ : BufTy).Contents (Elt F)),
    nullary main_c_54 (constantI S_ 32 4096#32) ]

/-- The buffers window `w09` writes. -/
abbrev w09_W : List (Ref sig .tc) := [main_v106, main_v107, main_c_52, main_v108, main_v109, main_v110, main_v111, main_v112, main_v113, main_v114, main_c_53, main_v115, main_v116, main_v117, main_v118, main_v119, main_v120, main_v121, main_v122, main_c_54]

/-- Operations 181 … 200 of 314. -/
abbrev w10 : List (HloOp τ sig (Elt F)) :=
  [ unary main_c_54 main_v123 (broadcastInDim S4032 ![] bcast_S_S4032 : (⟨S_, .i32⟩ : BufTy).Contents (Elt F) → (⟨S4032, .i32⟩ : BufTy).Contents (Elt F)),
    binary main_c_15 main_v123 main_v124 (addi : (⟨S4032, .i32⟩ : BufTy).Contents (Elt F) → (⟨S4032, .i32⟩ : BufTy).Contents (Elt F) → (⟨S4032, .i32⟩ : BufTy).Contents (Elt F)),
    ternary main_c_16 main_v124 main_c_15 main_v125 (select : (⟨S4032, .i1⟩ : BufTy).Contents (Elt F) → (⟨S4032, .i32⟩ : BufTy).Contents (Elt F) → (⟨S4032, .i32⟩ : BufTy).Contents (Elt F) → (⟨S4032, .i32⟩ : BufTy).Contents (Elt F)),
    nullary main_c_55 (constantI S_ 32 4096#32),
    unary main_c_55 main_v126 (broadcastInDim S4032 ![] bcast_S_S4032 : (⟨S_, .i32⟩ : BufTy).Contents (Elt F) → (⟨S4032, .i32⟩ : BufTy).Contents (Elt F)),
    binary main_c_17 main_v126 main_v127 (addi : (⟨S4032, .i32⟩ : BufTy).Contents (Elt F) → (⟨S4032, .i32⟩ : BufTy).Contents (Elt F) → (⟨S4032, .i32⟩ : BufTy).Contents (Elt F)),
    ternary main_c_18 main_v127 main_c_17 main_v128 (select : (⟨S4032, .i1⟩ : BufTy).Contents (Elt F) → (⟨S4032, .i32⟩ : BufTy).Contents (Elt F) → (⟨S4032, .i32⟩ : BufTy).Contents (Elt F) → (⟨S4032, .i32⟩ : BufTy).Contents (Elt F)),
    unary main_v125 main_v129 (broadcastInDim S4032x1 ![0] bcast_S4032_S4032x1_0 : (⟨S4032, .i32⟩ : BufTy).Contents (Elt F) → (⟨S4032x1, .i32⟩ : BufTy).Contents (Elt F)),
    unary main_v128 main_v130 (broadcastInDim S4032x1 ![0] bcast_S4032_S4032x1_0 : (⟨S4032, .i32⟩ : BufTy).Contents (Elt F) → (⟨S4032x1, .i32⟩ : BufTy).Contents (Elt F)),
    binary main_v129 main_v130 main_v131 pairIdx4032,
    ternary main_v114 main_v131 main_v122 main_v132 ((fun x i u => Host.scatter scatter_S4096x4096_S4032x2_S4032_n_01_01_1 (fun _ b => b) x i u) : (⟨S4096x4096, .f32⟩ : BufTy).Contents (Elt F) → (⟨S4032x2, .i32⟩ : BufTy).Contents (Elt F) → (⟨S4032, .f32⟩ : BufTy).Contents (Elt F) → (⟨S4096x4096, .f32⟩ : BufTy).Contents (Elt F)),
    unary main_v11 main_v133 (Host.negf : (⟨S4096, .f32⟩ : BufTy).Contents (Elt F) → (⟨S4096, .f32⟩ : BufTy).Contents (Elt F)),
    unary main_v9 main_v134 (broadcastInDim S4096 ![] bcast_S_S4096 : (⟨S_, .f32⟩ : BufTy).Contents (Elt F) → (⟨S4096, .f32⟩ : BufTy).Contents (Elt F)),
    binary main_v133 main_v134 main_v135 (Host.divf : (⟨S4096, .f32⟩ : BufTy).Contents (Elt F) → (⟨S4096, .f32⟩ : BufTy).Contents (Elt F) → (⟨S4096, .f32⟩ : BufTy).Contents (Elt F)),
    nullary main_c_56 (constantI S_ 32 4096#32),
    unary main_c_56 main_v136 (broadcastInDim S4096 ![] bcast_S_S4096 : (⟨S_, .i32⟩ : BufTy).Contents (Elt F) → (⟨S4096, .i32⟩ : BufTy).Contents (Elt F)),
    binary main_c main_v136 main_v137 (addi : (⟨S4096, .i32⟩ : BufTy).Contents (Elt F) → (⟨S4096, .i32⟩ : BufTy).Contents (Elt F) → (⟨S4096, .i32⟩ : BufTy).Contents (Elt F)),
    ternary main_c_19 main_v137 main_c main_v138 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_57 (constantI S_ 32 4096#32),
    unary main_c_57 main_v139 (broadcastInDim S4096 ![] bcast_S_S4096 : (⟨S_, .i32⟩ : BufTy).Contents (Elt F) → (⟨S4096, .i32⟩ : BufTy).Contents (Elt F)) ]

/-- The buffers window `w10` writes. -/
abbrev w10_W : List (Ref sig .tc) := [main_v123, main_v124, main_v125, main_c_55, main_v126, main_v127, main_v128, main_v129, main_v130, main_v131, main_v132, main_v133, main_v134, main_v135, main_c_56, main_v136, main_v137, main_v138, main_c_57, main_v139]

/-- Operations 201 … 220 of 314. -/
abbrev w11 : List (HloOp τ sig (Elt F)) :=
  [ binary main_c main_v139 main_v140 (addi : (⟨S4096, .i32⟩ : BufTy).Contents (Elt F) → (⟨S4096, .i32⟩ : BufTy).Contents (Elt F) → (⟨S4096, .i32⟩ : BufTy).Contents (Elt F)),
    ternary main_c_20 main_v140 main_c main_v141 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v138 main_v142 (broadcastInDim S4096x1 ![0] bcast_S4096_S4096x1_0 : (⟨S4096, .i32⟩ : BufTy).Contents (Elt F) → (⟨S4096x1, .i32⟩ : BufTy).Contents (Elt F)),
    unary main_v141 main_v143 (broadcastInDim S4096x1 ![0] bcast_S4096_S4096x1_0 : (⟨S4096, .i32⟩ : BufTy).Contents (Elt F) → (⟨S4096x1, .i32⟩ : BufTy).Contents (Elt F)),
    binary main_v142 main_v143 main_v144 pairIdx4096,
    ternary main_v50 main_v144 main_v135 main_v145 ((fun x i u => Host.scatter scatter_S4096x4096_S4096x2_S4096_n_01_01_1 (fun _ b => b) x i u) : (⟨S4096x4096, .f32⟩ : BufTy).Contents (Elt F) → (⟨S4096x2, .i32⟩ : BufTy).Contents (Elt F) → (⟨S4096, .f32⟩ : BufTy).Contents (Elt F) → (⟨S4096x4096, .f32⟩ : BufTy).Contents (Elt F)),
    nullary main_c_58 (constantI S_ 32 4096#32),
    unary main_c_58 main_v146 (broadcastInDim S4032 ![] bcast_S_S4032 : (⟨S_, .i32⟩ : BufTy).Contents (Elt F) → (⟨S4032, .i32⟩ : BufTy).Contents (Elt F)),
    binary main_c_21 main_v146 main_v147 (addi : (⟨S4032, .i32⟩ : BufTy).Contents (Elt F) → (⟨S4032, .i32⟩ : BufTy).Contents (Elt F) → (⟨S4032, .i32⟩ : BufTy).Contents (Elt F)),
    ternary main_c_22 main_v147 main_c_21 main_v148 (select : (⟨S4032, .i1⟩ : BufTy).Contents (Elt F) → (⟨S4032, .i32⟩ : BufTy).Contents (Elt F) → (⟨S4032, .i32⟩ : BufTy).Contents (Elt F) → (⟨S4032, .i32⟩ : BufTy).Contents (Elt F)),
    unary main_v148 main_v149 (broadcastInDim S4032x1 ![0] bcast_S4032_S4032x1_0 : (⟨S4032, .i32⟩ : BufTy).Contents (Elt F) → (⟨S4032x1, .i32⟩ : BufTy).Contents (Elt F)),
    binary main_v11 main_v149 main_v150 ((fun x i => Host.gather gather_S4096_S4032x1_S4032_n_0_n_n_0_1_1 x i) : (⟨S4096, .f32⟩ : BufTy).Contents (Elt F) → (⟨S4032x1, .i32⟩ : BufTy).Contents (Elt F) → (⟨S4032, .f32⟩ : BufTy).Contents (Elt F)),
    unary main_v9 main_v151 (broadcastInDim S4032 ![] bcast_S_S4032 : (⟨S_, .f32⟩ : BufTy).Contents (Elt F) → (⟨S4032, .f32⟩ : BufTy).Contents (Elt F)),
    binary main_v150 main_v151 main_v152 (Host.divf : (⟨S4032, .f32⟩ : BufTy).Contents (Elt F) → (⟨S4032, .f32⟩ : BufTy).Contents (Elt F) → (⟨S4032, .f32⟩ : BufTy).Contents (Elt F)),
    nullary main_c_59 (constantI S_ 32 4096#32),
    unary main_c_59 main_v153 (broadcastInDim S4032 ![] bcast_S_S4032 : (⟨S_, .i32⟩ : BufTy).Contents (Elt F) → (⟨S4032, .i32⟩ : BufTy).Contents (Elt F)),
    binary main_c_21 main_v153 main_v154 (addi : (⟨S4032, .i32⟩ : BufTy).Contents (Elt F) → (⟨S4032, .i32⟩ : BufTy).Contents (Elt F) → (⟨S4032, .i32⟩ : BufTy).Contents (Elt F)),
    ternary main_c_23 main_v154 main_c_21 main_v155 (select : (⟨S4032, .i1⟩ : BufTy).Contents (Elt F) → (⟨S4032, .i32⟩ : BufTy).Contents (Elt F) → (⟨S4032, .i32⟩ : BufTy).Contents (Elt F) → (⟨S4032, .i32⟩ : BufTy).Contents (Elt F)),
    nullary main_c_60 (constantI S_ 32 4096#32),
    unary main_c_60 main_v156 (broadcastInDim S4032 ![] bcast_S_S4032 : (⟨S_, .i32⟩ : BufTy).Contents (Elt F) → (⟨S4032, .i32⟩ : BufTy).Contents (Elt F)) ]

/-- The buffers window `w11` writes. -/
abbrev w11_W : List (Ref sig .tc) := [main_v140, main_v141, main_v142, main_v143, main_v144, main_v145, main_c_58, main_v146, main_v147, main_v148, main_v149, main_v150, main_v151, main_v152, main_c_59, main_v153, main_v154, main_v155, main_c_60, main_v156]

/-- Operations 221 … 240 of 314. -/
abbrev w12 : List (HloOp τ sig (Elt F)) :=
  [ binary main_c_24 main_v156 main_v157 (addi : (⟨S4032, .i32⟩ : BufTy).Contents (Elt F) → (⟨S4032, .i32⟩ : BufTy).Contents (Elt F) → (⟨S4032, .i32⟩ : BufTy).Contents (Elt F)),
    ternary main_c_25 main_v157 main_c_24 main_v158 (select : (⟨S4032, .i1⟩ : BufTy).Contents (Elt F) → (⟨S4032, .i32⟩ : BufTy).Contents (Elt F) → (⟨S4032, .i32⟩ : BufTy).Contents (Elt F) → (⟨S4032, .i32⟩ : BufTy).Contents (Elt F)),
    unary main_v155 main_v159 (broadcastInDim S4032x1 ![0] bcast_S4032_S4032x1_0 : (⟨S4032, .i32⟩ : BufTy).Contents (Elt F) → (⟨S4032x1, .i32⟩ : BufTy).Contents (Elt F)),
    unary main_v158 main_v160 (broadcastInDim S4032x1 ![0] bcast_S4032_S4032x1_0 : (⟨S4032, .i32⟩ : BufTy).Contents (Elt F) → (⟨S4032x1, .i32⟩ : BufTy).Contents (Elt F)),
    binary main_v159 main_v160 main_v161 pairIdx4032,
    ternary main_v145 main_v161 main_v152 main_v162 ((fun x i u => Host.scatter scatter_S4096x4096_S4032x2_S4032_n_01_01_1 (fun _ b => b) x i u) : (⟨S4096x4096, .f32⟩ : BufTy).Contents (Elt F) → (⟨S4032x2, .i32⟩ : BufTy).Contents (Elt F) → (⟨S4032, .f32⟩ : BufTy).Contents (Elt F) → (⟨S4096x4096, .f32⟩ : BufTy).Contents (Elt F)),
    nullary main_cst_61 (constant S_ .f32 0x3F800000#32),
    unary main_cst_61 main_v163 (broadcastInDim S4096 ![] bcast_S_S4096 : (⟨S_, .f32⟩ : BufTy).Contents (Elt F) → (⟨S4096, .f32⟩ : BufTy).Contents (Elt F)),
    binary main_v163 main_v18 main_v164 (Host.divf : (⟨S4096, .f32⟩ : BufTy).Contents (Elt F) → (⟨S4096, .f32⟩ : BufTy).Contents (Elt F) → (⟨S4096, .f32⟩ : BufTy).Contents (Elt F)),
    nullary main_cst_62 (constant S_ .f32 0x3F800000#32),
    unary main_cst_62 main_v165 (broadcastInDim S4096 ![] bcast_S_S4096 : (⟨S_, .f32⟩ : BufTy).Contents (Elt F) → (⟨S4096, .f32⟩ : BufTy).Contents (Elt F)),
    binary main_v165 main_v31 main_v166 (Host.divf : (⟨S4096, .f32⟩ : BufTy).Contents (Elt F) → (⟨S4096, .f32⟩ : BufTy).Contents (Elt F) → (⟨S4096, .f32⟩ : BufTy).Contents (Elt F)),
    nullary main_cst_63 (constant S_ .f32 0x3F800000#32),
    unary main_cst_63 main_v167 (broadcastInDim S4096 ![] bcast_S_S4096 : (⟨S_, .f32⟩ : BufTy).Contents (Elt F) → (⟨S4096, .f32⟩ : BufTy).Contents (Elt F)),
    binary main_v167 main_v43 main_v168 (Host.divf : (⟨S4096, .f32⟩ : BufTy).Contents (Elt F) → (⟨S4096, .f32⟩ : BufTy).Contents (Elt F) → (⟨S4096, .f32⟩ : BufTy).Contents (Elt F)),
    unary main_v166 main_v169 (broadcastInDim S1x4096 ![1] bcast_S4096_S1x4096_1 : (⟨S4096, .f32⟩ : BufTy).Contents (Elt F) → (⟨S1x4096, .f32⟩ : BufTy).Contents (Elt F)),
    unary main_v169 main_v170 (broadcastInDim S4096x4096 ![0, 1] bcast_S1x4096_S4096x4096_0_1 : (⟨S1x4096, .f32⟩ : BufTy).Contents (Elt F) → (⟨S4096x4096, .f32⟩ : BufTy).Contents (Elt F)),
    binary main_v76 main_v170 main_v171 (mulf : (⟨S4096x4096, .f32⟩ : BufTy).Contents (Elt F) → (⟨S4096x4096, .f32⟩ : BufTy).Contents (Elt F) → (⟨S4096x4096, .f32⟩ : BufTy).Contents (Elt F)),
    unary main_v168 main_v172 (broadcastInDim S1x4096 ![1] bcast_S4096_S1x4096_1 : (⟨S4096, .f32⟩ : BufTy).Contents (Elt F) → (⟨S1x4096, .f32⟩ : BufTy).Contents (Elt F)),
    unary main_v172 main_v173 (broadcastInDim S4096x4096 ![0, 1] bcast_S1x4096_S4096x4096_0_1 : (⟨S1x4096, .f32⟩ : BufTy).Contents (Elt F) → (⟨S4096x4096, .f32⟩ : BufTy).Contents (Elt F)) ]

/-- The buffers window `w12` writes. -/
abbrev w12_W : List (Ref sig .tc) := [main_v157, main_v158, main_v159, main_v160, main_v161, main_v162, main_cst_61, main_v163, main_v164, main_cst_62, main_v165, main_v166, main_cst_63, main_v167, main_v168, main_v169, main_v170, main_v171, main_v172, main_v173]

/-- Operations 241 … 242 of 314. -/
abbrev w13 : List (HloOp τ sig (Elt F)) :=
  [ binary main_v132 main_v173 main_v174 (mulf : (⟨S4096x4096, .f32⟩ : BufTy).Contents (Elt F) → (⟨S4096x4096, .f32⟩ : BufTy).Contents (Elt F) → (⟨S4096x4096, .f32⟩ : BufTy).Contents (Elt F)),
    binary main_v164 main_v25 main_v175 (mulf : (⟨S4096, .f32⟩ : BufTy).Contents (Elt F) → (⟨S4096, .f32⟩ : BufTy).Contents (Elt F) → (⟨S4096, .f32⟩ : BufTy).Contents (Elt F)) ]

/-- The buffers window `w13` writes. -/
abbrev w13_W : List (Ref sig .tc) := [main_v174, main_v175]

/-- Operations 243 … 255 of 314. -/
abbrev w14 : List (HloOp τ sig (Elt F)) :=
  [ TRef.nullary main_call0.cst (constant S_ .f32 0x00000000#32),
    TRef.binary (.of main_v175) main_call0.cst main_call0.v0 (fun x v => pad S4096 ![0] ![0] ![0] x v pads_S4096_S4096_000 h_S_),
    TRef.nullary main_call0.v1 (iotaInDim S4096x4096 32 0),
    TRef.nullary main_call0.v2 (iotaInDim S4096x4096 32 1),
    TRef.nullary main_call0.c (constantI S_ 32 0#32),
    TRef.unary main_call0.c main_call0.v3 (broadcastInDim S4096x4096 ![] bcast_S_S4096x4096),
    TRef.binary main_call0.v1 main_call0.v3 main_call0.v4 addi,
    TRef.binary main_call0.v4 main_call0.v2 main_call0.v5 (cmpi .eq),
    TRef.unary main_call0.v0 main_call0.v6 (broadcastInDim S4096x1 ![0] bcast_S4096_S4096x1_0),
    TRef.nullary main_call0.cst_0 (constant S_ .f32 0x00000000#32),
    TRef.unary main_call0.v6 main_call0.call0.v0 (broadcastInDim S4096x4096 ![0, 1] bcast_S4096x1_S4096x4096_0_1),
    TRef.unary main_call0.cst_0 main_call0.call0.v1 (broadcastInDim S4096x4096 ![] bcast_S_S4096x4096),
    TRef.ternary main_call0.v5 main_call0.call0.v0 main_call0.call0.v1 main_call0.call0.v2 select ]

/-- The buffers window `w14` writes. -/
abbrev w14_W : List (Ref sig .tc) := [main_call0_cst, main_call0_v0, main_call0_v1, main_call0_v2, main_call0_c, main_call0_v3, main_call0_v4, main_call0_v5, main_call0_v6, main_call0_cst_0, main_call0_call0_v0, main_call0_call0_v1, main_v176]

/-- Operations 256 … 280 of 314. -/
abbrev w15 : List (HloOp τ sig (Elt F)) :=
  [ unary main_v164 main_v177 (broadcastInDim S4096x1 ![0] bcast_S4096_S4096x1_0 : (⟨S4096, .f32⟩ : BufTy).Contents (Elt F) → (⟨S4096x1, .f32⟩ : BufTy).Contents (Elt F)),
    binary main_v171 main_v102 main_v178 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    binary main_v174 main_v162 main_v179 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    binary main_v178 main_v179 main_v180 (addf : (⟨S4096x4096, .f32⟩ : BufTy).Contents (Elt F) → (⟨S4096x4096, .f32⟩ : BufTy).Contents (Elt F) → (⟨S4096x4096, .f32⟩ : BufTy).Contents (Elt F)),
    unary main_v177 main_v181 (broadcastInDim S4096x4096 ![0, 1] bcast_S4096x1_S4096x4096_0_1 : (⟨S4096x1, .f32⟩ : BufTy).Contents (Elt F) → (⟨S4096x4096, .f32⟩ : BufTy).Contents (Elt F)),
    binary main_v181 main_v180 main_v182 (mulf : (⟨S4096x4096, .f32⟩ : BufTy).Contents (Elt F) → (⟨S4096x4096, .f32⟩ : BufTy).Contents (Elt F) → (⟨S4096x4096, .f32⟩ : BufTy).Contents (Elt F)),
    binary main_v176 main_v182 main_v183 (addf : (⟨S4096x4096, .f32⟩ : BufTy).Contents (Elt F) → (⟨S4096x4096, .f32⟩ : BufTy).Contents (Elt F) → (⟨S4096x4096, .f32⟩ : BufTy).Contents (Elt F)),
    unary main_v164 main_v184 (broadcastInDim S4096x1 ![0] bcast_S4096_S4096x1_0 : (⟨S4096, .f32⟩ : BufTy).Contents (Elt F) → (⟨S4096x1, .f32⟩ : BufTy).Contents (Elt F)),
    unary main_v184 main_v185 (broadcastInDim S4096x4096 ![0, 1] bcast_S4096x1_S4096x4096_0_1 : (⟨S4096x1, .f32⟩ : BufTy).Contents (Elt F) → (⟨S4096x4096, .f32⟩ : BufTy).Contents (Elt F)),
    binary main_v185 main_v76 main_v186 (mulf : (⟨S4096x4096, .f32⟩ : BufTy).Contents (Elt F) → (⟨S4096x4096, .f32⟩ : BufTy).Contents (Elt F) → (⟨S4096x4096, .f32⟩ : BufTy).Contents (Elt F)),
    binary main_v166 main_v37 main_v187 (mulf : (⟨S4096, .f32⟩ : BufTy).Contents (Elt F) → (⟨S4096, .f32⟩ : BufTy).Contents (Elt F) → (⟨S4096, .f32⟩ : BufTy).Contents (Elt F)),
    unary main_v187 main_v188 (broadcastInDim S1x4096 ![1] bcast_S4096_S1x4096_1 : (⟨S4096, .f32⟩ : BufTy).Contents (Elt F) → (⟨S1x4096, .f32⟩ : BufTy).Contents (Elt F)),
    unary main_v188 main_v189 (broadcastInDim S4096x4096 ![0, 1] bcast_S1x4096_S4096x4096_0_1 : (⟨S1x4096, .f32⟩ : BufTy).Contents (Elt F) → (⟨S4096x4096, .f32⟩ : BufTy).Contents (Elt F)),
    binary main_v186 main_v189 main_v190 (mulf : (⟨S4096x4096, .f32⟩ : BufTy).Contents (Elt F) → (⟨S4096x4096, .f32⟩ : BufTy).Contents (Elt F) → (⟨S4096x4096, .f32⟩ : BufTy).Contents (Elt F)),
    unary main_v164 main_v191 (broadcastInDim S4096x1 ![0] bcast_S4096_S4096x1_0 : (⟨S4096, .f32⟩ : BufTy).Contents (Elt F) → (⟨S4096x1, .f32⟩ : BufTy).Contents (Elt F)),
    unary main_v191 main_v192 (broadcastInDim S4096x4096 ![0, 1] bcast_S4096x1_S4096x4096_0_1 : (⟨S4096x1, .f32⟩ : BufTy).Contents (Elt F) → (⟨S4096x4096, .f32⟩ : BufTy).Contents (Elt F)),
    binary main_v192 main_v132 main_v193 (mulf : (⟨S4096x4096, .f32⟩ : BufTy).Contents (Elt F) → (⟨S4096x4096, .f32⟩ : BufTy).Contents (Elt F) → (⟨S4096x4096, .f32⟩ : BufTy).Contents (Elt F)),
    binary main_v168 main_v49 main_v194 (mulf : (⟨S4096, .f32⟩ : BufTy).Contents (Elt F) → (⟨S4096, .f32⟩ : BufTy).Contents (Elt F) → (⟨S4096, .f32⟩ : BufTy).Contents (Elt F)),
    unary main_v194 main_v195 (broadcastInDim S1x4096 ![1] bcast_S4096_S1x4096_1 : (⟨S4096, .f32⟩ : BufTy).Contents (Elt F) → (⟨S1x4096, .f32⟩ : BufTy).Contents (Elt F)),
    unary main_v195 main_v196 (broadcastInDim S4096x4096 ![0, 1] bcast_S1x4096_S4096x4096_0_1 : (⟨S1x4096, .f32⟩ : BufTy).Contents (Elt F) → (⟨S4096x4096, .f32⟩ : BufTy).Contents (Elt F)),
    binary main_v193 main_v196 main_v197 (mulf : (⟨S4096x4096, .f32⟩ : BufTy).Contents (Elt F) → (⟨S4096x4096, .f32⟩ : BufTy).Contents (Elt F) → (⟨S4096x4096, .f32⟩ : BufTy).Contents (Elt F)),
    unary main_v166 main_v198 (broadcastInDim S4096x1 ![0] bcast_S4096_S4096x1_0 : (⟨S4096, .f32⟩ : BufTy).Contents (Elt F) → (⟨S4096x1, .f32⟩ : BufTy).Contents (Elt F)),
    unary main_v198 main_v199 (broadcastInDim S4096x4096 ![0, 1] bcast_S4096x1_S4096x4096_0_1 : (⟨S4096x1, .f32⟩ : BufTy).Contents (Elt F) → (⟨S4096x4096, .f32⟩ : BufTy).Contents (Elt F)),
    binary main_v199 main_v102 main_v200 (mulf : (⟨S4096x4096, .f32⟩ : BufTy).Contents (Elt F) → (⟨S4096x4096, .f32⟩ : BufTy).Contents (Elt F) → (⟨S4096x4096, .f32⟩ : BufTy).Contents (Elt F)),
    binary main_v166 main_v37 main_v201 (mulf : (⟨S4096, .f32⟩ : BufTy).Contents (Elt F) → (⟨S4096, .f32⟩ : BufTy).Contents (Elt F) → (⟨S4096, .f32⟩ : BufTy).Contents (Elt F)) ]

/-- The buffers window `w15` writes. -/
abbrev w15_W : List (Ref sig .tc) := [main_v177, main_v178, main_v179, main_v180, main_v181, main_v182, main_v183, main_v184, main_v185, main_v186, main_v187, main_v188, main_v189, main_v190, main_v191, main_v192, main_v193, main_v194, main_v195, main_v196, main_v197, main_v198, main_v199, main_v200, main_v201]

/-- Operations 281 … 293 of 314. -/
abbrev w16 : List (HloOp τ sig (Elt F)) :=
  [ TRef.nullary main_call1.cst (constant S_ .f32 0x00000000#32),
    TRef.binary (.of main_v201) main_call1.cst main_call1.v0 (fun x v => pad S4096 ![0] ![0] ![0] x v pads_S4096_S4096_000 h_S_),
    TRef.nullary main_call1.v1 (iotaInDim S4096x4096 32 0),
    TRef.nullary main_call1.v2 (iotaInDim S4096x4096 32 1),
    TRef.nullary main_call1.c (constantI S_ 32 0#32),
    TRef.unary main_call1.c main_call1.v3 (broadcastInDim S4096x4096 ![] bcast_S_S4096x4096),
    TRef.binary main_call1.v1 main_call1.v3 main_call1.v4 addi,
    TRef.binary main_call1.v4 main_call1.v2 main_call1.v5 (cmpi .eq),
    TRef.unary main_call1.v0 main_call1.v6 (broadcastInDim S4096x1 ![0] bcast_S4096_S4096x1_0),
    TRef.nullary main_call1.cst_0 (constant S_ .f32 0x00000000#32),
    TRef.unary main_call1.v6 main_call1.call0.v0 (broadcastInDim S4096x4096 ![0, 1] bcast_S4096x1_S4096x4096_0_1),
    TRef.unary main_call1.cst_0 main_call1.call0.v1 (broadcastInDim S4096x4096 ![] bcast_S_S4096x4096),
    TRef.ternary main_call1.v5 main_call1.call0.v0 main_call1.call0.v1 main_call1.call0.v2 select ]

/-- The buffers window `w16` writes. -/
abbrev w16_W : List (Ref sig .tc) := [main_call1_cst, main_call1_v0, main_call1_v1, main_call1_v2, main_call1_c, main_call1_v3, main_call1_v4, main_call1_v5, main_call1_v6, main_call1_cst_0, main_call1_call0_v0, main_call1_call0_v1, main_v202]

/-- Operations 294 … 297 of 314. -/
abbrev w17 : List (HloOp τ sig (Elt F)) :=
  [ unary main_v168 main_v203 (broadcastInDim S4096x1 ![0] bcast_S4096_S4096x1_0 : (⟨S4096, .f32⟩ : BufTy).Contents (Elt F) → (⟨S4096x1, .f32⟩ : BufTy).Contents (Elt F)),
    unary main_v203 main_v204 (broadcastInDim S4096x4096 ![0, 1] bcast_S4096x1_S4096x4096_0_1 : (⟨S4096x1, .f32⟩ : BufTy).Contents (Elt F) → (⟨S4096x4096, .f32⟩ : BufTy).Contents (Elt F)),
    binary main_v204 main_v162 main_v205 (mulf : (⟨S4096x4096, .f32⟩ : BufTy).Contents (Elt F) → (⟨S4096x4096, .f32⟩ : BufTy).Contents (Elt F) → (⟨S4096x4096, .f32⟩ : BufTy).Contents (Elt F)),
    binary main_v168 main_v49 main_v206 (mulf : (⟨S4096, .f32⟩ : BufTy).Contents (Elt F) → (⟨S4096, .f32⟩ : BufTy).Contents (Elt F) → (⟨S4096, .f32⟩ : BufTy).Contents (Elt F)) ]

/-- The buffers window `w17` writes. -/
abbrev w17_W : List (Ref sig .tc) := [main_v203, main_v204, main_v205, main_v206]

/-- Operations 298 … 310 of 314. -/
abbrev w18 : List (HloOp τ sig (Elt F)) :=
  [ TRef.nullary main_call2.cst (constant S_ .f32 0x00000000#32),
    TRef.binary (.of main_v206) main_call2.cst main_call2.v0 (fun x v => pad S4096 ![0] ![0] ![0] x v pads_S4096_S4096_000 h_S_),
    TRef.nullary main_call2.v1 (iotaInDim S4096x4096 32 0),
    TRef.nullary main_call2.v2 (iotaInDim S4096x4096 32 1),
    TRef.nullary main_call2.c (constantI S_ 32 0#32),
    TRef.unary main_call2.c main_call2.v3 (broadcastInDim S4096x4096 ![] bcast_S_S4096x4096),
    TRef.binary main_call2.v1 main_call2.v3 main_call2.v4 addi,
    TRef.binary main_call2.v4 main_call2.v2 main_call2.v5 (cmpi .eq),
    TRef.unary main_call2.v0 main_call2.v6 (broadcastInDim S4096x1 ![0] bcast_S4096_S4096x1_0),
    TRef.nullary main_call2.cst_0 (constant S_ .f32 0x00000000#32),
    TRef.unary main_call2.v6 main_call2.call0.v0 (broadcastInDim S4096x4096 ![0, 1] bcast_S4096x1_S4096x4096_0_1),
    TRef.unary main_call2.cst_0 main_call2.call0.v1 (broadcastInDim S4096x4096 ![] bcast_S_S4096x4096),
    TRef.ternary main_call2.v5 main_call2.call0.v0 main_call2.call0.v1 main_call2.call0.v2 select ]

/-- The buffers window `w18` writes. -/
abbrev w18_W : List (Ref sig .tc) := [main_call2_cst, main_call2_v0, main_call2_v1, main_call2_v2, main_call2_c, main_call2_v3, main_call2_v4, main_call2_v5, main_call2_v6, main_call2_cst_0, main_call2_call0_v0, main_call2_call0_v1, main_v207]

/-- Operations 311 … 314 of 314. -/
abbrev w19 : List (HloOp τ sig (Elt F)) :=
  [ TRef.nary ![(TRef.of main_v183 : TRef sig ⟨S4096x4096, .f32⟩), .of main_v190, .of main_v197] main_call3.v0 (fun u => concatenate S4096x12288 1 [⟨S4096x4096, u 0⟩, ⟨S4096x4096, u 1⟩, ⟨S4096x4096, u 2⟩] concatenates_S4096x4096_S4096x4096_S4096x4096_S4096x12288_d1),
    TRef.nary ![(TRef.of main_v200 : TRef sig ⟨S4096x4096, .f32⟩), .of main_v202, .of main_v50] main_call3.v1 (fun u => concatenate S4096x12288 1 [⟨S4096x4096, u 0⟩, ⟨S4096x4096, u 1⟩, ⟨S4096x4096, u 2⟩] concatenates_S4096x4096_S4096x4096_S4096x4096_S4096x12288_d1),
    TRef.nary ![(TRef.of main_v205 : TRef sig ⟨S4096x4096, .f32⟩), .of main_v50, .of main_v207] main_call3.v2 (fun u => concatenate S4096x12288 1 [⟨S4096x4096, u 0⟩, ⟨S4096x4096, u 1⟩, ⟨S4096x4096, u 2⟩] concatenates_S4096x4096_S4096x4096_S4096x4096_S4096x12288_d1),
    TRef.nary ![main_call3.v0, main_call3.v1, main_call3.v2] main_call3.v3 (fun u => concatenate S12288x12288 0 [⟨S4096x12288, u 0⟩, ⟨S4096x12288, u 1⟩, ⟨S4096x12288, u 2⟩] concatenates_S4096x12288_S4096x12288_S4096x12288_S12288x12288_d0) ]

/-- The buffers window `w19` writes. -/
abbrev w19_W : List (Ref sig .tc) := [main_call3_v0, main_call3_v1, main_call3_v2, main_v208]

/-- The operations of @main's window 0. -/
abbrev p0 : List (HloOp τ sig (Elt F)) := w01 ++ (w02 ++ w03)

/-- The operations of @main's window 1. -/
abbrev p1 : List (HloOp τ sig (Elt F)) := w04 ++ (w05 ++ w06)

/-- The operations of @main's window 2. -/
abbrev p2 : List (HloOp τ sig (Elt F)) := w07 ++ (w08 ++ w09)

/-- The operations of @main's window 3. -/
abbrev p3 : List (HloOp τ sig (Elt F)) := w10 ++ (w11 ++ w12)

/-- The operations of @main's window 4. -/
abbrev p4 : List (HloOp τ sig (Elt F)) := w13 ++ (w14 ++ (w15 ++ (w16 ++ (w17 ++ (w18 ++ w19)))))

/-- @main's 314 operations, in order. -/
abbrev ops : List (HloOp τ sig (Elt F)) := w01 ++ (w02 ++ (w03 ++ (w04 ++ (w05 ++ (w06 ++ (w07 ++ (w08 ++ (w09 ++ (w10 ++ (w11 ++ (w12 ++ (w13 ++ (w14 ++ (w15 ++ (w16 ++ (w17 ++ (w18 ++ w19)))))))))))))))))

theorem ops_parts : (ops : List (HloOp τ sig (Elt F))) = p0 ++ (p1 ++ (p2 ++ (p3 ++ p4))) := by
  simp only [ops, p0, p1, p2, p3, p4, List.append_assoc]

set_option maxRecDepth 8192 in
set_option maxHeartbeats 4000000 in
theorem main_part0_eq (c : Dev nD) : main_part0 (F := F) c = seq p0 := rfl

set_option maxRecDepth 8192 in
set_option maxHeartbeats 4000000 in
theorem main_part1_eq (c : Dev nD) : main_part1 (F := F) c = seq p1 := rfl

set_option maxRecDepth 8192 in
set_option maxHeartbeats 4000000 in
theorem main_part2_eq (c : Dev nD) : main_part2 (F := F) c = seq p2 := rfl

set_option maxRecDepth 8192 in
set_option maxHeartbeats 4000000 in
theorem main_part3_eq (c : Dev nD) : main_part3 (F := F) c = seq p3 := rfl

set_option maxRecDepth 8192 in
set_option maxHeartbeats 4000000 in
/-- The last window: the called functions' definitions unfolded at their calls, sequencing reassociated. -/
theorem main_part4_eq (c : Dev nD) : main_part4 (F := F) c = seq p4 := by
  simp only [main_part4, fn_diag.body, fn_where.body, fn_block.body, p4, w13, w14, w15, w16, w17, w18, w19, List.cons_append, List.nil_append, seq, bind_assoc, pure_bind]

theorem main_eq (c : Dev nD) : main (F := F) c = seq ops := by
  rw [ops_parts, seq_append p0, seq_append p1, seq_append p2, seq_append p3, ← main_part0_eq c, ← main_part1_eq c, ← main_part2_eq c,
    ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem w01_sub : (w01 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub ..⟩

theorem w02_sub : (w02 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., reshape_bufs_sub .., nullary_bufs_sub .., unary_bufs_sub .., binary_bufs_sub .., binary_bufs_sub .., nullary_bufs_sub .., unary_bufs_sub .., binary_bufs_sub .., binary_bufs_sub .., nullary_bufs_sub .., binary_bufs_sub .., nullary_bufs_sub .., binary_bufs_sub ..⟩

theorem w03_sub : (w03 : List (HloOp τ sig (Elt F))).Forall fun op => op.bufs ⊆ tcRefs τ sig :=
  ⟨nullary_bufs_sub .., binary_bufs_sub .., unary_bufs_sub .., reshape_bufs_sub .., nullary_bufs_sub .., unary_bufs_sub .., binary_bufs_sub .., nullary_bufs_sub .., unary_bufs_sub .., binary_bufs_sub .., reshape_bufs_sub .., unary_bufs_sub .., reshape_bufs_sub .., nullary_bufs_sub .., unary_bufs_sub .., binary_bufs_sub .., nullary_bufs_sub .., unary_bufs_sub .., binary_bufs_sub .., reshape_bufs_sub ..⟩

theorem w04_sub : (w04 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., unary_bufs_sub .., reshape_bufs_sub ..⟩

theorem w05_sub : (w05 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., unary_bufs_sub .., binary_bufs_sub .., nullary_bufs_sub .., unary_bufs_sub ..⟩

theorem w06_sub : (w06 : List (HloOp τ sig (Elt F))).Forall fun op => op.bufs ⊆ tcRefs τ sig :=
  ⟨binary_bufs_sub .., ternary_bufs_sub .., nullary_bufs_sub .., unary_bufs_sub .., binary_bufs_sub .., ternary_bufs_sub .., unary_bufs_sub .., unary_bufs_sub .., binary_bufs_sub .., ternary_bufs_sub .., unary_bufs_sub .., unary_bufs_sub .., unary_bufs_sub .., binary_bufs_sub .., nullary_bufs_sub .., unary_bufs_sub .., binary_bufs_sub .., ternary_bufs_sub .., nullary_bufs_sub .., unary_bufs_sub ..⟩

theorem w07_sub : (w07 : List (HloOp τ sig (Elt F))).Forall fun op => op.bufs ⊆ tcRefs τ sig :=
  ⟨binary_bufs_sub .., ternary_bufs_sub .., unary_bufs_sub .., unary_bufs_sub .., binary_bufs_sub .., ternary_bufs_sub .., unary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub ..⟩

theorem w08_sub : (w08 : List (HloOp τ sig (Elt F))).Forall fun op => op.bufs ⊆ tcRefs τ sig :=
  ⟨ternary_bufs_sub .., unary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., unary_bufs_sub .., binary_bufs_sub .., nullary_bufs_sub .., unary_bufs_sub ..⟩

theorem w09_sub : (w09 : List (HloOp τ sig (Elt F))).Forall fun op => op.bufs ⊆ tcRefs τ sig :=
  ⟨binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., ternary_bufs_sub .., unary_bufs_sub .., binary_bufs_sub .., unary_bufs_sub .., unary_bufs_sub .., binary_bufs_sub .., nullary_bufs_sub ..⟩

theorem w10_sub : (w10 : List (HloOp τ sig (Elt F))).Forall fun op => op.bufs ⊆ tcRefs τ sig :=
  ⟨unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., unary_bufs_sub .., unary_bufs_sub .., binary_bufs_sub .., nullary_bufs_sub .., unary_bufs_sub .., binary_bufs_sub .., ternary_bufs_sub .., nullary_bufs_sub .., unary_bufs_sub ..⟩

theorem w11_sub : (w11 : List (HloOp τ sig (Elt F))).Forall fun op => op.bufs ⊆ tcRefs τ sig :=
  ⟨binary_bufs_sub .., ternary_bufs_sub .., unary_bufs_sub .., unary_bufs_sub .., binary_bufs_sub .., ternary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., ternary_bufs_sub .., nullary_bufs_sub .., unary_bufs_sub ..⟩

theorem w12_sub : (w12 : List (HloOp τ sig (Elt F))).Forall fun op => op.bufs ⊆ tcRefs τ sig :=
  ⟨binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub ..⟩

theorem w13_sub : (w13 : List (HloOp τ sig (Elt F))).Forall fun op => op.bufs ⊆ tcRefs τ sig :=
  ⟨binary_bufs_sub .., binary_bufs_sub ..⟩

theorem w14_sub : (w14 : List (HloOp τ sig (Elt F))).Forall fun op => op.bufs ⊆ tcRefs τ sig :=
  ⟨nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub ..⟩

theorem w15_sub : (w15 : List (HloOp τ sig (Elt F))).Forall fun op => op.bufs ⊆ tcRefs τ sig :=
  ⟨unary_bufs_sub .., binary_bufs_sub .., binary_bufs_sub .., binary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub ..⟩

theorem w16_sub : (w16 : List (HloOp τ sig (Elt F))).Forall fun op => op.bufs ⊆ tcRefs τ sig :=
  ⟨nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub ..⟩

theorem w17_sub : (w17 : List (HloOp τ sig (Elt F))).Forall fun op => op.bufs ⊆ tcRefs τ sig :=
  ⟨unary_bufs_sub .., unary_bufs_sub .., binary_bufs_sub .., binary_bufs_sub ..⟩

theorem w18_sub : (w18 : List (HloOp τ sig (Elt F))).Forall fun op => op.bufs ⊆ tcRefs τ sig :=
  ⟨nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub ..⟩

theorem w19_sub : (w19 : List (HloOp τ sig (Elt F))).Forall fun op => op.bufs ⊆ tcRefs τ sig :=
  ⟨nary_bufs_sub .., nary_bufs_sub .., nary_bufs_sub .., nary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h | h | h
    exacts [List.forall_iff_forall_mem.mp w01_sub op h, List.forall_iff_forall_mem.mp w02_sub op h, List.forall_iff_forall_mem.mp w03_sub op h, List.forall_iff_forall_mem.mp w04_sub op h, List.forall_iff_forall_mem.mp w05_sub op h, List.forall_iff_forall_mem.mp w06_sub op h, List.forall_iff_forall_mem.mp w07_sub op h, List.forall_iff_forall_mem.mp w08_sub op h, List.forall_iff_forall_mem.mp w09_sub op h, List.forall_iff_forall_mem.mp w10_sub op h, List.forall_iff_forall_mem.mp w11_sub op h, List.forall_iff_forall_mem.mp w12_sub op h, List.forall_iff_forall_mem.mp w13_sub op h, List.forall_iff_forall_mem.mp w14_sub op h, List.forall_iff_forall_mem.mp w15_sub op h, List.forall_iff_forall_mem.mp w16_sub op h, List.forall_iff_forall_mem.mp w17_sub op h, List.forall_iff_forall_mem.mp w18_sub op h, List.forall_iff_forall_mem.mp w19_sub op h]

theorem w01_fresh : ∀ op ∈ (w01 : List (HloOp τ sig (Elt F))), op.fresh = ∅ := by
  intro _ h; (repeat (cases h with | head => rfl | tail _ h => ?_)); exact nomatch h

theorem w02_fresh : ∀ op ∈ (w02 : List (HloOp τ sig (Elt F))), op.fresh = ∅ := by
  intro _ h; (repeat (cases h with | head => rfl | tail _ h => ?_)); exact nomatch h

theorem w03_fresh : ∀ op ∈ (w03 : List (HloOp τ sig (Elt F))), op.fresh = ∅ := by
  intro _ h; (repeat (cases h with | head => rfl | tail _ h => ?_)); exact nomatch h

theorem w04_fresh : ∀ op ∈ (w04 : List (HloOp τ sig (Elt F))), op.fresh = ∅ := by
  intro _ h; (repeat (cases h with | head => rfl | tail _ h => ?_)); exact nomatch h

theorem w05_fresh : ∀ op ∈ (w05 : List (HloOp τ sig (Elt F))), op.fresh = ∅ := by
  intro _ h; (repeat (cases h with | head => rfl | tail _ h => ?_)); exact nomatch h

theorem w06_fresh : ∀ op ∈ (w06 : List (HloOp τ sig (Elt F))), op.fresh = ∅ := by
  intro _ h; (repeat (cases h with | head => rfl | tail _ h => ?_)); exact nomatch h

theorem w07_fresh : ∀ op ∈ (w07 : List (HloOp τ sig (Elt F))), op.fresh = ∅ := by
  intro _ h; (repeat (cases h with | head => rfl | tail _ h => ?_)); exact nomatch h

theorem w08_fresh : ∀ op ∈ (w08 : List (HloOp τ sig (Elt F))), op.fresh = ∅ := by
  intro _ h; (repeat (cases h with | head => rfl | tail _ h => ?_)); exact nomatch h

theorem w09_fresh : ∀ op ∈ (w09 : List (HloOp τ sig (Elt F))), op.fresh = ∅ := by
  intro _ h; (repeat (cases h with | head => rfl | tail _ h => ?_)); exact nomatch h

theorem w10_fresh : ∀ op ∈ (w10 : List (HloOp τ sig (Elt F))), op.fresh = ∅ := by
  intro _ h; (repeat (cases h with | head => rfl | tail _ h => ?_)); exact nomatch h

theorem w11_fresh : ∀ op ∈ (w11 : List (HloOp τ sig (Elt F))), op.fresh = ∅ := by
  intro _ h; (repeat (cases h with | head => rfl | tail _ h => ?_)); exact nomatch h

theorem w12_fresh : ∀ op ∈ (w12 : List (HloOp τ sig (Elt F))), op.fresh = ∅ := by
  intro _ h; (repeat (cases h with | head => rfl | tail _ h => ?_)); exact nomatch h

theorem w13_fresh : ∀ op ∈ (w13 : List (HloOp τ sig (Elt F))), op.fresh = ∅ := by
  intro _ h; (repeat (cases h with | head => rfl | tail _ h => ?_)); exact nomatch h

theorem w14_fresh : ∀ op ∈ (w14 : List (HloOp τ sig (Elt F))), op.fresh = ∅ := by
  intro _ h; (repeat (cases h with | head => rfl | tail _ h => ?_)); exact nomatch h

theorem w15_fresh : ∀ op ∈ (w15 : List (HloOp τ sig (Elt F))), op.fresh = ∅ := by
  intro _ h; (repeat (cases h with | head => rfl | tail _ h => ?_)); exact nomatch h

theorem w16_fresh : ∀ op ∈ (w16 : List (HloOp τ sig (Elt F))), op.fresh = ∅ := by
  intro _ h; (repeat (cases h with | head => rfl | tail _ h => ?_)); exact nomatch h

theorem w17_fresh : ∀ op ∈ (w17 : List (HloOp τ sig (Elt F))), op.fresh = ∅ := by
  intro _ h; (repeat (cases h with | head => rfl | tail _ h => ?_)); exact nomatch h

theorem w18_fresh : ∀ op ∈ (w18 : List (HloOp τ sig (Elt F))), op.fresh = ∅ := by
  intro _ h; (repeat (cases h with | head => rfl | tail _ h => ?_)); exact nomatch h

theorem w19_fresh : ∀ op ∈ (w19 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h | h | h | h | h | h | h | h | h | h | h | h | h | h | h | h
  exacts [w01_fresh op h, w02_fresh op h, w03_fresh op h, w04_fresh op h, w05_fresh op h, w06_fresh op h, w07_fresh op h, w08_fresh op h, w09_fresh op h, w10_fresh op h, w11_fresh op h, w12_fresh op h, w13_fresh op h, w14_fresh op h, w15_fresh op h, w16_fresh op h, w17_fresh op h, w18_fresh op h, w19_fresh op h]

/-- The contents after @main, window by window. -/
theorem after_ops (V : Valuation τ sig (Elt F)) :
    after ops V = after w19 (after w18 (after w17 (after w16 (after w15 (after w14 (after w13 (after w12 (after w11 (after w10 (after w09 (after w08 (after w07 (after w06 (after w05 (after w04 (after w03 (after w02 (after w01 (V))))))))))))))))))) := by
  simp only [ops, after_append]

theorem w01_writes : (w01 : List (HloOp τ sig (Elt F))).Forall fun op => op.writes ⊆ (w01_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem w02_writes : (w02 : List (HloOp τ sig (Elt F))).Forall fun op => op.writes ⊆ (w02_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem w03_writes : (w03 : List (HloOp τ sig (Elt F))).Forall fun op => op.writes ⊆ (w03_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem w04_writes : (w04 : List (HloOp τ sig (Elt F))).Forall fun op => op.writes ⊆ (w04_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem w05_writes : (w05 : List (HloOp τ sig (Elt F))).Forall fun op => op.writes ⊆ (w05_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem w06_writes : (w06 : List (HloOp τ sig (Elt F))).Forall fun op => op.writes ⊆ (w06_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem w07_writes : (w07 : List (HloOp τ sig (Elt F))).Forall fun op => op.writes ⊆ (w07_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem w08_writes : (w08 : List (HloOp τ sig (Elt F))).Forall fun op => op.writes ⊆ (w08_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem w09_writes : (w09 : List (HloOp τ sig (Elt F))).Forall fun op => op.writes ⊆ (w09_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem w10_writes : (w10 : List (HloOp τ sig (Elt F))).Forall fun op => op.writes ⊆ (w10_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem w11_writes : (w11 : List (HloOp τ sig (Elt F))).Forall fun op => op.writes ⊆ (w11_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem w12_writes : (w12 : List (HloOp τ sig (Elt F))).Forall fun op => op.writes ⊆ (w12_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem w13_writes : (w13 : List (HloOp τ sig (Elt F))).Forall fun op => op.writes ⊆ (w13_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem w14_writes : (w14 : List (HloOp τ sig (Elt F))).Forall fun op => op.writes ⊆ (w14_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem w15_writes : (w15 : List (HloOp τ sig (Elt F))).Forall fun op => op.writes ⊆ (w15_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem w16_writes : (w16 : List (HloOp τ sig (Elt F))).Forall fun op => op.writes ⊆ (w16_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem w17_writes : (w17 : List (HloOp τ sig (Elt F))).Forall fun op => op.writes ⊆ (w17_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem w18_writes : (w18 : List (HloOp τ sig (Elt F))).Forall fun op => op.writes ⊆ (w18_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

theorem w19_writes : (w19 : List (HloOp τ sig (Elt F))).Forall fun op => op.writes ⊆ (w19_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

end Cert.ReferenceIdeal.RefRun

end
-- ==== Proof.RefLive.lean ====
/- What the device's buffers hold between the windows of the reference's @main: before window k, every buffer
   written earlier and still read later (and every argument) is at its stage. -/
import proofs.«134289_j17918603559171_2_alg».proof.Proof.RefStages
import proofs.«134289_j17918603559171_2_alg».proof.Proof.RefOps

noncomputable section

namespace Cert.ReferenceIdeal.RefRun

open Cert.ReferenceIdeal Cert.ReferenceIdeal.RefStages Idealize.ShloMosaic Idealize.ShloMosaic.TcCoe Idealize.SL.Sem Idealize.ShloMosaic.StableHlo

/-- The buffers live before window `w01`, each at its stage. -/
structure Live01 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4

/-- The buffers live before window `w02`, each at its stage. -/
structure Live02 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4
  c : V (no_index (Proc.devRef .tc main_c)) = res_c a0 a1 a2 a3 a4
  c_0 : V (no_index (Proc.devRef .tc main_c_0)) = res_c_0 a0 a1 a2 a3 a4
  c_1 : V (no_index (Proc.devRef .tc main_c_1)) = res_c_1 a0 a1 a2 a3 a4
  c_2 : V (no_index (Proc.devRef .tc main_c_2)) = res_c_2 a0 a1 a2 a3 a4
  c_3 : V (no_index (Proc.devRef .tc main_c_3)) = res_c_3 a0 a1 a2 a3 a4
  c_4 : V (no_index (Proc.devRef .tc main_c_4)) = res_c_4 a0 a1 a2 a3 a4
  c_5 : V (no_index (Proc.devRef .tc main_c_5)) = res_c_5 a0 a1 a2 a3 a4
  c_6 : V (no_index (Proc.devRef .tc main_c_6)) = res_c_6 a0 a1 a2 a3 a4
  c_7 : V (no_index (Proc.devRef .tc main_c_7)) = res_c_7 a0 a1 a2 a3 a4
  c_8 : V (no_index (Proc.devRef .tc main_c_8)) = res_c_8 a0 a1 a2 a3 a4
  c_9 : V (no_index (Proc.devRef .tc main_c_9)) = res_c_9 a0 a1 a2 a3 a4
  c_10 : V (no_index (Proc.devRef .tc main_c_10)) = res_c_10 a0 a1 a2 a3 a4
  c_11 : V (no_index (Proc.devRef .tc main_c_11)) = res_c_11 a0 a1 a2 a3 a4
  c_12 : V (no_index (Proc.devRef .tc main_c_12)) = res_c_12 a0 a1 a2 a3 a4
  c_13 : V (no_index (Proc.devRef .tc main_c_13)) = res_c_13 a0 a1 a2 a3 a4
  c_14 : V (no_index (Proc.devRef .tc main_c_14)) = res_c_14 a0 a1 a2 a3 a4
  c_15 : V (no_index (Proc.devRef .tc main_c_15)) = res_c_15 a0 a1 a2 a3 a4
  c_16 : V (no_index (Proc.devRef .tc main_c_16)) = res_c_16 a0 a1 a2 a3 a4
  c_17 : V (no_index (Proc.devRef .tc main_c_17)) = res_c_17 a0 a1 a2 a3 a4
  c_18 : V (no_index (Proc.devRef .tc main_c_18)) = res_c_18 a0 a1 a2 a3 a4

/-- The buffers live before window `w03`, each at its stage. -/
structure Live03 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4
  c : V (no_index (Proc.devRef .tc main_c)) = res_c a0 a1 a2 a3 a4
  c_0 : V (no_index (Proc.devRef .tc main_c_0)) = res_c_0 a0 a1 a2 a3 a4
  c_1 : V (no_index (Proc.devRef .tc main_c_1)) = res_c_1 a0 a1 a2 a3 a4
  c_2 : V (no_index (Proc.devRef .tc main_c_2)) = res_c_2 a0 a1 a2 a3 a4
  c_3 : V (no_index (Proc.devRef .tc main_c_3)) = res_c_3 a0 a1 a2 a3 a4
  c_4 : V (no_index (Proc.devRef .tc main_c_4)) = res_c_4 a0 a1 a2 a3 a4
  c_5 : V (no_index (Proc.devRef .tc main_c_5)) = res_c_5 a0 a1 a2 a3 a4
  c_6 : V (no_index (Proc.devRef .tc main_c_6)) = res_c_6 a0 a1 a2 a3 a4
  c_7 : V (no_index (Proc.devRef .tc main_c_7)) = res_c_7 a0 a1 a2 a3 a4
  c_8 : V (no_index (Proc.devRef .tc main_c_8)) = res_c_8 a0 a1 a2 a3 a4
  c_9 : V (no_index (Proc.devRef .tc main_c_9)) = res_c_9 a0 a1 a2 a3 a4
  c_10 : V (no_index (Proc.devRef .tc main_c_10)) = res_c_10 a0 a1 a2 a3 a4
  c_11 : V (no_index (Proc.devRef .tc main_c_11)) = res_c_11 a0 a1 a2 a3 a4
  c_12 : V (no_index (Proc.devRef .tc main_c_12)) = res_c_12 a0 a1 a2 a3 a4
  c_13 : V (no_index (Proc.devRef .tc main_c_13)) = res_c_13 a0 a1 a2 a3 a4
  c_14 : V (no_index (Proc.devRef .tc main_c_14)) = res_c_14 a0 a1 a2 a3 a4
  c_15 : V (no_index (Proc.devRef .tc main_c_15)) = res_c_15 a0 a1 a2 a3 a4
  c_16 : V (no_index (Proc.devRef .tc main_c_16)) = res_c_16 a0 a1 a2 a3 a4
  c_17 : V (no_index (Proc.devRef .tc main_c_17)) = res_c_17 a0 a1 a2 a3 a4
  c_18 : V (no_index (Proc.devRef .tc main_c_18)) = res_c_18 a0 a1 a2 a3 a4
  c_19 : V (no_index (Proc.devRef .tc main_c_19)) = res_c_19 a0 a1 a2 a3 a4
  c_20 : V (no_index (Proc.devRef .tc main_c_20)) = res_c_20 a0 a1 a2 a3 a4
  c_21 : V (no_index (Proc.devRef .tc main_c_21)) = res_c_21 a0 a1 a2 a3 a4
  c_22 : V (no_index (Proc.devRef .tc main_c_22)) = res_c_22 a0 a1 a2 a3 a4
  c_23 : V (no_index (Proc.devRef .tc main_c_23)) = res_c_23 a0 a1 a2 a3 a4
  c_24 : V (no_index (Proc.devRef .tc main_c_24)) = res_c_24 a0 a1 a2 a3 a4
  c_25 : V (no_index (Proc.devRef .tc main_c_25)) = res_c_25 a0 a1 a2 a3 a4
  v3 : V (no_index (Proc.devRef .tc main_v3)) = res_v3 a0 a1 a2 a3 a4
  v6 : V (no_index (Proc.devRef .tc main_v6)) = res_v6 a0 a1 a2 a3 a4
  v8 : V (no_index (Proc.devRef .tc main_v8)) = res_v8 a0 a1 a2 a3 a4

/-- The buffers live before window `w04`, each at its stage. -/
structure Live04 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4
  c : V (no_index (Proc.devRef .tc main_c)) = res_c a0 a1 a2 a3 a4
  c_0 : V (no_index (Proc.devRef .tc main_c_0)) = res_c_0 a0 a1 a2 a3 a4
  c_1 : V (no_index (Proc.devRef .tc main_c_1)) = res_c_1 a0 a1 a2 a3 a4
  c_2 : V (no_index (Proc.devRef .tc main_c_2)) = res_c_2 a0 a1 a2 a3 a4
  c_3 : V (no_index (Proc.devRef .tc main_c_3)) = res_c_3 a0 a1 a2 a3 a4
  c_4 : V (no_index (Proc.devRef .tc main_c_4)) = res_c_4 a0 a1 a2 a3 a4
  c_5 : V (no_index (Proc.devRef .tc main_c_5)) = res_c_5 a0 a1 a2 a3 a4
  c_6 : V (no_index (Proc.devRef .tc main_c_6)) = res_c_6 a0 a1 a2 a3 a4
  c_7 : V (no_index (Proc.devRef .tc main_c_7)) = res_c_7 a0 a1 a2 a3 a4
  c_8 : V (no_index (Proc.devRef .tc main_c_8)) = res_c_8 a0 a1 a2 a3 a4
  c_9 : V (no_index (Proc.devRef .tc main_c_9)) = res_c_9 a0 a1 a2 a3 a4
  c_10 : V (no_index (Proc.devRef .tc main_c_10)) = res_c_10 a0 a1 a2 a3 a4
  c_11 : V (no_index (Proc.devRef .tc main_c_11)) = res_c_11 a0 a1 a2 a3 a4
  c_12 : V (no_index (Proc.devRef .tc main_c_12)) = res_c_12 a0 a1 a2 a3 a4
  c_13 : V (no_index (Proc.devRef .tc main_c_13)) = res_c_13 a0 a1 a2 a3 a4
  c_14 : V (no_index (Proc.devRef .tc main_c_14)) = res_c_14 a0 a1 a2 a3 a4
  c_15 : V (no_index (Proc.devRef .tc main_c_15)) = res_c_15 a0 a1 a2 a3 a4
  c_16 : V (no_index (Proc.devRef .tc main_c_16)) = res_c_16 a0 a1 a2 a3 a4
  c_17 : V (no_index (Proc.devRef .tc main_c_17)) = res_c_17 a0 a1 a2 a3 a4
  c_18 : V (no_index (Proc.devRef .tc main_c_18)) = res_c_18 a0 a1 a2 a3 a4
  c_19 : V (no_index (Proc.devRef .tc main_c_19)) = res_c_19 a0 a1 a2 a3 a4
  c_20 : V (no_index (Proc.devRef .tc main_c_20)) = res_c_20 a0 a1 a2 a3 a4
  c_21 : V (no_index (Proc.devRef .tc main_c_21)) = res_c_21 a0 a1 a2 a3 a4
  c_22 : V (no_index (Proc.devRef .tc main_c_22)) = res_c_22 a0 a1 a2 a3 a4
  c_23 : V (no_index (Proc.devRef .tc main_c_23)) = res_c_23 a0 a1 a2 a3 a4
  c_24 : V (no_index (Proc.devRef .tc main_c_24)) = res_c_24 a0 a1 a2 a3 a4
  c_25 : V (no_index (Proc.devRef .tc main_c_25)) = res_c_25 a0 a1 a2 a3 a4
  v3 : V (no_index (Proc.devRef .tc main_v3)) = res_v3 a0 a1 a2 a3 a4
  v6 : V (no_index (Proc.devRef .tc main_v6)) = res_v6 a0 a1 a2 a3 a4
  v9 : V (no_index (Proc.devRef .tc main_v9)) = res_v9 a0 a1 a2 a3 a4
  v11 : V (no_index (Proc.devRef .tc main_v11)) = res_v11 a0 a1 a2 a3 a4
  v18 : V (no_index (Proc.devRef .tc main_v18)) = res_v18 a0 a1 a2 a3 a4
  v23 : V (no_index (Proc.devRef .tc main_v23)) = res_v23 a0 a1 a2 a3 a4

/-- The buffers live before window `w05`, each at its stage. -/
structure Live05 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4
  c : V (no_index (Proc.devRef .tc main_c)) = res_c a0 a1 a2 a3 a4
  c_0 : V (no_index (Proc.devRef .tc main_c_0)) = res_c_0 a0 a1 a2 a3 a4
  c_1 : V (no_index (Proc.devRef .tc main_c_1)) = res_c_1 a0 a1 a2 a3 a4
  c_2 : V (no_index (Proc.devRef .tc main_c_2)) = res_c_2 a0 a1 a2 a3 a4
  c_3 : V (no_index (Proc.devRef .tc main_c_3)) = res_c_3 a0 a1 a2 a3 a4
  c_4 : V (no_index (Proc.devRef .tc main_c_4)) = res_c_4 a0 a1 a2 a3 a4
  c_5 : V (no_index (Proc.devRef .tc main_c_5)) = res_c_5 a0 a1 a2 a3 a4
  c_6 : V (no_index (Proc.devRef .tc main_c_6)) = res_c_6 a0 a1 a2 a3 a4
  c_7 : V (no_index (Proc.devRef .tc main_c_7)) = res_c_7 a0 a1 a2 a3 a4
  c_8 : V (no_index (Proc.devRef .tc main_c_8)) = res_c_8 a0 a1 a2 a3 a4
  c_9 : V (no_index (Proc.devRef .tc main_c_9)) = res_c_9 a0 a1 a2 a3 a4
  c_10 : V (no_index (Proc.devRef .tc main_c_10)) = res_c_10 a0 a1 a2 a3 a4
  c_11 : V (no_index (Proc.devRef .tc main_c_11)) = res_c_11 a0 a1 a2 a3 a4
  c_12 : V (no_index (Proc.devRef .tc main_c_12)) = res_c_12 a0 a1 a2 a3 a4
  c_13 : V (no_index (Proc.devRef .tc main_c_13)) = res_c_13 a0 a1 a2 a3 a4
  c_14 : V (no_index (Proc.devRef .tc main_c_14)) = res_c_14 a0 a1 a2 a3 a4
  c_15 : V (no_index (Proc.devRef .tc main_c_15)) = res_c_15 a0 a1 a2 a3 a4
  c_16 : V (no_index (Proc.devRef .tc main_c_16)) = res_c_16 a0 a1 a2 a3 a4
  c_17 : V (no_index (Proc.devRef .tc main_c_17)) = res_c_17 a0 a1 a2 a3 a4
  c_18 : V (no_index (Proc.devRef .tc main_c_18)) = res_c_18 a0 a1 a2 a3 a4
  c_19 : V (no_index (Proc.devRef .tc main_c_19)) = res_c_19 a0 a1 a2 a3 a4
  c_20 : V (no_index (Proc.devRef .tc main_c_20)) = res_c_20 a0 a1 a2 a3 a4
  c_21 : V (no_index (Proc.devRef .tc main_c_21)) = res_c_21 a0 a1 a2 a3 a4
  c_22 : V (no_index (Proc.devRef .tc main_c_22)) = res_c_22 a0 a1 a2 a3 a4
  c_23 : V (no_index (Proc.devRef .tc main_c_23)) = res_c_23 a0 a1 a2 a3 a4
  c_24 : V (no_index (Proc.devRef .tc main_c_24)) = res_c_24 a0 a1 a2 a3 a4
  c_25 : V (no_index (Proc.devRef .tc main_c_25)) = res_c_25 a0 a1 a2 a3 a4
  v6 : V (no_index (Proc.devRef .tc main_v6)) = res_v6 a0 a1 a2 a3 a4
  v9 : V (no_index (Proc.devRef .tc main_v9)) = res_v9 a0 a1 a2 a3 a4
  v11 : V (no_index (Proc.devRef .tc main_v11)) = res_v11 a0 a1 a2 a3 a4
  v18 : V (no_index (Proc.devRef .tc main_v18)) = res_v18 a0 a1 a2 a3 a4
  v25 : V (no_index (Proc.devRef .tc main_v25)) = res_v25 a0 a1 a2 a3 a4
  v31 : V (no_index (Proc.devRef .tc main_v31)) = res_v31 a0 a1 a2 a3 a4
  v37 : V (no_index (Proc.devRef .tc main_v37)) = res_v37 a0 a1 a2 a3 a4
  v39 : V (no_index (Proc.devRef .tc main_v39)) = res_v39 a0 a1 a2 a3 a4

/-- The buffers live before window `w06`, each at its stage. -/
structure Live06 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4
  c : V (no_index (Proc.devRef .tc main_c)) = res_c a0 a1 a2 a3 a4
  c_0 : V (no_index (Proc.devRef .tc main_c_0)) = res_c_0 a0 a1 a2 a3 a4
  c_1 : V (no_index (Proc.devRef .tc main_c_1)) = res_c_1 a0 a1 a2 a3 a4
  c_2 : V (no_index (Proc.devRef .tc main_c_2)) = res_c_2 a0 a1 a2 a3 a4
  c_3 : V (no_index (Proc.devRef .tc main_c_3)) = res_c_3 a0 a1 a2 a3 a4
  c_4 : V (no_index (Proc.devRef .tc main_c_4)) = res_c_4 a0 a1 a2 a3 a4
  c_5 : V (no_index (Proc.devRef .tc main_c_5)) = res_c_5 a0 a1 a2 a3 a4
  c_6 : V (no_index (Proc.devRef .tc main_c_6)) = res_c_6 a0 a1 a2 a3 a4
  c_7 : V (no_index (Proc.devRef .tc main_c_7)) = res_c_7 a0 a1 a2 a3 a4
  c_8 : V (no_index (Proc.devRef .tc main_c_8)) = res_c_8 a0 a1 a2 a3 a4
  c_9 : V (no_index (Proc.devRef .tc main_c_9)) = res_c_9 a0 a1 a2 a3 a4
  c_10 : V (no_index (Proc.devRef .tc main_c_10)) = res_c_10 a0 a1 a2 a3 a4
  c_11 : V (no_index (Proc.devRef .tc main_c_11)) = res_c_11 a0 a1 a2 a3 a4
  c_12 : V (no_index (Proc.devRef .tc main_c_12)) = res_c_12 a0 a1 a2 a3 a4
  c_13 : V (no_index (Proc.devRef .tc main_c_13)) = res_c_13 a0 a1 a2 a3 a4
  c_14 : V (no_index (Proc.devRef .tc main_c_14)) = res_c_14 a0 a1 a2 a3 a4
  c_15 : V (no_index (Proc.devRef .tc main_c_15)) = res_c_15 a0 a1 a2 a3 a4
  c_16 : V (no_index (Proc.devRef .tc main_c_16)) = res_c_16 a0 a1 a2 a3 a4
  c_17 : V (no_index (Proc.devRef .tc main_c_17)) = res_c_17 a0 a1 a2 a3 a4
  c_18 : V (no_index (Proc.devRef .tc main_c_18)) = res_c_18 a0 a1 a2 a3 a4
  c_19 : V (no_index (Proc.devRef .tc main_c_19)) = res_c_19 a0 a1 a2 a3 a4
  c_20 : V (no_index (Proc.devRef .tc main_c_20)) = res_c_20 a0 a1 a2 a3 a4
  c_21 : V (no_index (Proc.devRef .tc main_c_21)) = res_c_21 a0 a1 a2 a3 a4
  c_22 : V (no_index (Proc.devRef .tc main_c_22)) = res_c_22 a0 a1 a2 a3 a4
  c_23 : V (no_index (Proc.devRef .tc main_c_23)) = res_c_23 a0 a1 a2 a3 a4
  c_24 : V (no_index (Proc.devRef .tc main_c_24)) = res_c_24 a0 a1 a2 a3 a4
  c_25 : V (no_index (Proc.devRef .tc main_c_25)) = res_c_25 a0 a1 a2 a3 a4
  v9 : V (no_index (Proc.devRef .tc main_v9)) = res_v9 a0 a1 a2 a3 a4
  v11 : V (no_index (Proc.devRef .tc main_v11)) = res_v11 a0 a1 a2 a3 a4
  v18 : V (no_index (Proc.devRef .tc main_v18)) = res_v18 a0 a1 a2 a3 a4
  v25 : V (no_index (Proc.devRef .tc main_v25)) = res_v25 a0 a1 a2 a3 a4
  v31 : V (no_index (Proc.devRef .tc main_v31)) = res_v31 a0 a1 a2 a3 a4
  v37 : V (no_index (Proc.devRef .tc main_v37)) = res_v37 a0 a1 a2 a3 a4
  v43 : V (no_index (Proc.devRef .tc main_v43)) = res_v43 a0 a1 a2 a3 a4
  v49 : V (no_index (Proc.devRef .tc main_v49)) = res_v49 a0 a1 a2 a3 a4
  v50 : V (no_index (Proc.devRef .tc main_v50)) = res_v50 a0 a1 a2 a3 a4
  v52 : V (no_index (Proc.devRef .tc main_v52)) = res_v52 a0 a1 a2 a3 a4
  v53 : V (no_index (Proc.devRef .tc main_v53)) = res_v53 a0 a1 a2 a3 a4

/-- The buffers live before window `w07`, each at its stage. -/
structure Live07 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4
  c : V (no_index (Proc.devRef .tc main_c)) = res_c a0 a1 a2 a3 a4
  c_2 : V (no_index (Proc.devRef .tc main_c_2)) = res_c_2 a0 a1 a2 a3 a4
  c_4 : V (no_index (Proc.devRef .tc main_c_4)) = res_c_4 a0 a1 a2 a3 a4
  c_5 : V (no_index (Proc.devRef .tc main_c_5)) = res_c_5 a0 a1 a2 a3 a4
  c_6 : V (no_index (Proc.devRef .tc main_c_6)) = res_c_6 a0 a1 a2 a3 a4
  c_7 : V (no_index (Proc.devRef .tc main_c_7)) = res_c_7 a0 a1 a2 a3 a4
  c_8 : V (no_index (Proc.devRef .tc main_c_8)) = res_c_8 a0 a1 a2 a3 a4
  c_9 : V (no_index (Proc.devRef .tc main_c_9)) = res_c_9 a0 a1 a2 a3 a4
  c_10 : V (no_index (Proc.devRef .tc main_c_10)) = res_c_10 a0 a1 a2 a3 a4
  c_11 : V (no_index (Proc.devRef .tc main_c_11)) = res_c_11 a0 a1 a2 a3 a4
  c_12 : V (no_index (Proc.devRef .tc main_c_12)) = res_c_12 a0 a1 a2 a3 a4
  c_13 : V (no_index (Proc.devRef .tc main_c_13)) = res_c_13 a0 a1 a2 a3 a4
  c_14 : V (no_index (Proc.devRef .tc main_c_14)) = res_c_14 a0 a1 a2 a3 a4
  c_15 : V (no_index (Proc.devRef .tc main_c_15)) = res_c_15 a0 a1 a2 a3 a4
  c_16 : V (no_index (Proc.devRef .tc main_c_16)) = res_c_16 a0 a1 a2 a3 a4
  c_17 : V (no_index (Proc.devRef .tc main_c_17)) = res_c_17 a0 a1 a2 a3 a4
  c_18 : V (no_index (Proc.devRef .tc main_c_18)) = res_c_18 a0 a1 a2 a3 a4
  c_19 : V (no_index (Proc.devRef .tc main_c_19)) = res_c_19 a0 a1 a2 a3 a4
  c_20 : V (no_index (Proc.devRef .tc main_c_20)) = res_c_20 a0 a1 a2 a3 a4
  c_21 : V (no_index (Proc.devRef .tc main_c_21)) = res_c_21 a0 a1 a2 a3 a4
  c_22 : V (no_index (Proc.devRef .tc main_c_22)) = res_c_22 a0 a1 a2 a3 a4
  c_23 : V (no_index (Proc.devRef .tc main_c_23)) = res_c_23 a0 a1 a2 a3 a4
  c_24 : V (no_index (Proc.devRef .tc main_c_24)) = res_c_24 a0 a1 a2 a3 a4
  c_25 : V (no_index (Proc.devRef .tc main_c_25)) = res_c_25 a0 a1 a2 a3 a4
  v9 : V (no_index (Proc.devRef .tc main_v9)) = res_v9 a0 a1 a2 a3 a4
  v11 : V (no_index (Proc.devRef .tc main_v11)) = res_v11 a0 a1 a2 a3 a4
  v18 : V (no_index (Proc.devRef .tc main_v18)) = res_v18 a0 a1 a2 a3 a4
  v25 : V (no_index (Proc.devRef .tc main_v25)) = res_v25 a0 a1 a2 a3 a4
  v31 : V (no_index (Proc.devRef .tc main_v31)) = res_v31 a0 a1 a2 a3 a4
  v37 : V (no_index (Proc.devRef .tc main_v37)) = res_v37 a0 a1 a2 a3 a4
  v43 : V (no_index (Proc.devRef .tc main_v43)) = res_v43 a0 a1 a2 a3 a4
  v49 : V (no_index (Proc.devRef .tc main_v49)) = res_v49 a0 a1 a2 a3 a4
  v50 : V (no_index (Proc.devRef .tc main_v50)) = res_v50 a0 a1 a2 a3 a4
  v62 : V (no_index (Proc.devRef .tc main_v62)) = res_v62 a0 a1 a2 a3 a4
  v66 : V (no_index (Proc.devRef .tc main_v66)) = res_v66 a0 a1 a2 a3 a4
  v69 : V (no_index (Proc.devRef .tc main_v69)) = res_v69 a0 a1 a2 a3 a4
  v70 : V (no_index (Proc.devRef .tc main_v70)) = res_v70 a0 a1 a2 a3 a4

/-- The buffers live before window `w08`, each at its stage. -/
structure Live08 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4
  c : V (no_index (Proc.devRef .tc main_c)) = res_c a0 a1 a2 a3 a4
  c_2 : V (no_index (Proc.devRef .tc main_c_2)) = res_c_2 a0 a1 a2 a3 a4
  c_8 : V (no_index (Proc.devRef .tc main_c_8)) = res_c_8 a0 a1 a2 a3 a4
  c_9 : V (no_index (Proc.devRef .tc main_c_9)) = res_c_9 a0 a1 a2 a3 a4
  c_10 : V (no_index (Proc.devRef .tc main_c_10)) = res_c_10 a0 a1 a2 a3 a4
  c_11 : V (no_index (Proc.devRef .tc main_c_11)) = res_c_11 a0 a1 a2 a3 a4
  c_12 : V (no_index (Proc.devRef .tc main_c_12)) = res_c_12 a0 a1 a2 a3 a4
  c_13 : V (no_index (Proc.devRef .tc main_c_13)) = res_c_13 a0 a1 a2 a3 a4
  c_14 : V (no_index (Proc.devRef .tc main_c_14)) = res_c_14 a0 a1 a2 a3 a4
  c_15 : V (no_index (Proc.devRef .tc main_c_15)) = res_c_15 a0 a1 a2 a3 a4
  c_16 : V (no_index (Proc.devRef .tc main_c_16)) = res_c_16 a0 a1 a2 a3 a4
  c_17 : V (no_index (Proc.devRef .tc main_c_17)) = res_c_17 a0 a1 a2 a3 a4
  c_18 : V (no_index (Proc.devRef .tc main_c_18)) = res_c_18 a0 a1 a2 a3 a4
  c_19 : V (no_index (Proc.devRef .tc main_c_19)) = res_c_19 a0 a1 a2 a3 a4
  c_20 : V (no_index (Proc.devRef .tc main_c_20)) = res_c_20 a0 a1 a2 a3 a4
  c_21 : V (no_index (Proc.devRef .tc main_c_21)) = res_c_21 a0 a1 a2 a3 a4
  c_22 : V (no_index (Proc.devRef .tc main_c_22)) = res_c_22 a0 a1 a2 a3 a4
  c_23 : V (no_index (Proc.devRef .tc main_c_23)) = res_c_23 a0 a1 a2 a3 a4
  c_24 : V (no_index (Proc.devRef .tc main_c_24)) = res_c_24 a0 a1 a2 a3 a4
  c_25 : V (no_index (Proc.devRef .tc main_c_25)) = res_c_25 a0 a1 a2 a3 a4
  v9 : V (no_index (Proc.devRef .tc main_v9)) = res_v9 a0 a1 a2 a3 a4
  v11 : V (no_index (Proc.devRef .tc main_v11)) = res_v11 a0 a1 a2 a3 a4
  v18 : V (no_index (Proc.devRef .tc main_v18)) = res_v18 a0 a1 a2 a3 a4
  v25 : V (no_index (Proc.devRef .tc main_v25)) = res_v25 a0 a1 a2 a3 a4
  v31 : V (no_index (Proc.devRef .tc main_v31)) = res_v31 a0 a1 a2 a3 a4
  v37 : V (no_index (Proc.devRef .tc main_v37)) = res_v37 a0 a1 a2 a3 a4
  v43 : V (no_index (Proc.devRef .tc main_v43)) = res_v43 a0 a1 a2 a3 a4
  v49 : V (no_index (Proc.devRef .tc main_v49)) = res_v49 a0 a1 a2 a3 a4
  v50 : V (no_index (Proc.devRef .tc main_v50)) = res_v50 a0 a1 a2 a3 a4
  v76 : V (no_index (Proc.devRef .tc main_v76)) = res_v76 a0 a1 a2 a3 a4
  v79 : V (no_index (Proc.devRef .tc main_v79)) = res_v79 a0 a1 a2 a3 a4
  v88 : V (no_index (Proc.devRef .tc main_v88)) = res_v88 a0 a1 a2 a3 a4

/-- The buffers live before window `w09`, each at its stage. -/
structure Live09 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4
  c : V (no_index (Proc.devRef .tc main_c)) = res_c a0 a1 a2 a3 a4
  c_11 : V (no_index (Proc.devRef .tc main_c_11)) = res_c_11 a0 a1 a2 a3 a4
  c_12 : V (no_index (Proc.devRef .tc main_c_12)) = res_c_12 a0 a1 a2 a3 a4
  c_13 : V (no_index (Proc.devRef .tc main_c_13)) = res_c_13 a0 a1 a2 a3 a4
  c_14 : V (no_index (Proc.devRef .tc main_c_14)) = res_c_14 a0 a1 a2 a3 a4
  c_15 : V (no_index (Proc.devRef .tc main_c_15)) = res_c_15 a0 a1 a2 a3 a4
  c_16 : V (no_index (Proc.devRef .tc main_c_16)) = res_c_16 a0 a1 a2 a3 a4
  c_17 : V (no_index (Proc.devRef .tc main_c_17)) = res_c_17 a0 a1 a2 a3 a4
  c_18 : V (no_index (Proc.devRef .tc main_c_18)) = res_c_18 a0 a1 a2 a3 a4
  c_19 : V (no_index (Proc.devRef .tc main_c_19)) = res_c_19 a0 a1 a2 a3 a4
  c_20 : V (no_index (Proc.devRef .tc main_c_20)) = res_c_20 a0 a1 a2 a3 a4
  c_21 : V (no_index (Proc.devRef .tc main_c_21)) = res_c_21 a0 a1 a2 a3 a4
  c_22 : V (no_index (Proc.devRef .tc main_c_22)) = res_c_22 a0 a1 a2 a3 a4
  c_23 : V (no_index (Proc.devRef .tc main_c_23)) = res_c_23 a0 a1 a2 a3 a4
  c_24 : V (no_index (Proc.devRef .tc main_c_24)) = res_c_24 a0 a1 a2 a3 a4
  c_25 : V (no_index (Proc.devRef .tc main_c_25)) = res_c_25 a0 a1 a2 a3 a4
  v9 : V (no_index (Proc.devRef .tc main_v9)) = res_v9 a0 a1 a2 a3 a4
  v11 : V (no_index (Proc.devRef .tc main_v11)) = res_v11 a0 a1 a2 a3 a4
  v18 : V (no_index (Proc.devRef .tc main_v18)) = res_v18 a0 a1 a2 a3 a4
  v25 : V (no_index (Proc.devRef .tc main_v25)) = res_v25 a0 a1 a2 a3 a4
  v31 : V (no_index (Proc.devRef .tc main_v31)) = res_v31 a0 a1 a2 a3 a4
  v37 : V (no_index (Proc.devRef .tc main_v37)) = res_v37 a0 a1 a2 a3 a4
  v43 : V (no_index (Proc.devRef .tc main_v43)) = res_v43 a0 a1 a2 a3 a4
  v49 : V (no_index (Proc.devRef .tc main_v49)) = res_v49 a0 a1 a2 a3 a4
  v50 : V (no_index (Proc.devRef .tc main_v50)) = res_v50 a0 a1 a2 a3 a4
  v76 : V (no_index (Proc.devRef .tc main_v76)) = res_v76 a0 a1 a2 a3 a4
  v102 : V (no_index (Proc.devRef .tc main_v102)) = res_v102 a0 a1 a2 a3 a4
  v104 : V (no_index (Proc.devRef .tc main_v104)) = res_v104 a0 a1 a2 a3 a4
  v105 : V (no_index (Proc.devRef .tc main_v105)) = res_v105 a0 a1 a2 a3 a4

/-- The buffers live before window `w10`, each at its stage. -/
structure Live10 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4
  c : V (no_index (Proc.devRef .tc main_c)) = res_c a0 a1 a2 a3 a4
  c_15 : V (no_index (Proc.devRef .tc main_c_15)) = res_c_15 a0 a1 a2 a3 a4
  c_16 : V (no_index (Proc.devRef .tc main_c_16)) = res_c_16 a0 a1 a2 a3 a4
  c_17 : V (no_index (Proc.devRef .tc main_c_17)) = res_c_17 a0 a1 a2 a3 a4
  c_18 : V (no_index (Proc.devRef .tc main_c_18)) = res_c_18 a0 a1 a2 a3 a4
  c_19 : V (no_index (Proc.devRef .tc main_c_19)) = res_c_19 a0 a1 a2 a3 a4
  c_20 : V (no_index (Proc.devRef .tc main_c_20)) = res_c_20 a0 a1 a2 a3 a4
  c_21 : V (no_index (Proc.devRef .tc main_c_21)) = res_c_21 a0 a1 a2 a3 a4
  c_22 : V (no_index (Proc.devRef .tc main_c_22)) = res_c_22 a0 a1 a2 a3 a4
  c_23 : V (no_index (Proc.devRef .tc main_c_23)) = res_c_23 a0 a1 a2 a3 a4
  c_24 : V (no_index (Proc.devRef .tc main_c_24)) = res_c_24 a0 a1 a2 a3 a4
  c_25 : V (no_index (Proc.devRef .tc main_c_25)) = res_c_25 a0 a1 a2 a3 a4
  v9 : V (no_index (Proc.devRef .tc main_v9)) = res_v9 a0 a1 a2 a3 a4
  v11 : V (no_index (Proc.devRef .tc main_v11)) = res_v11 a0 a1 a2 a3 a4
  v18 : V (no_index (Proc.devRef .tc main_v18)) = res_v18 a0 a1 a2 a3 a4
  v25 : V (no_index (Proc.devRef .tc main_v25)) = res_v25 a0 a1 a2 a3 a4
  v31 : V (no_index (Proc.devRef .tc main_v31)) = res_v31 a0 a1 a2 a3 a4
  v37 : V (no_index (Proc.devRef .tc main_v37)) = res_v37 a0 a1 a2 a3 a4
  v43 : V (no_index (Proc.devRef .tc main_v43)) = res_v43 a0 a1 a2 a3 a4
  v49 : V (no_index (Proc.devRef .tc main_v49)) = res_v49 a0 a1 a2 a3 a4
  v50 : V (no_index (Proc.devRef .tc main_v50)) = res_v50 a0 a1 a2 a3 a4
  v76 : V (no_index (Proc.devRef .tc main_v76)) = res_v76 a0 a1 a2 a3 a4
  v102 : V (no_index (Proc.devRef .tc main_v102)) = res_v102 a0 a1 a2 a3 a4
  v114 : V (no_index (Proc.devRef .tc main_v114)) = res_v114 a0 a1 a2 a3 a4
  v122 : V (no_index (Proc.devRef .tc main_v122)) = res_v122 a0 a1 a2 a3 a4
  c_54 : V (no_index (Proc.devRef .tc main_c_54)) = res_c_54 a0 a1 a2 a3 a4

/-- The buffers live before window `w11`, each at its stage. -/
structure Live11 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4
  c : V (no_index (Proc.devRef .tc main_c)) = res_c a0 a1 a2 a3 a4
  c_20 : V (no_index (Proc.devRef .tc main_c_20)) = res_c_20 a0 a1 a2 a3 a4
  c_21 : V (no_index (Proc.devRef .tc main_c_21)) = res_c_21 a0 a1 a2 a3 a4
  c_22 : V (no_index (Proc.devRef .tc main_c_22)) = res_c_22 a0 a1 a2 a3 a4
  c_23 : V (no_index (Proc.devRef .tc main_c_23)) = res_c_23 a0 a1 a2 a3 a4
  c_24 : V (no_index (Proc.devRef .tc main_c_24)) = res_c_24 a0 a1 a2 a3 a4
  c_25 : V (no_index (Proc.devRef .tc main_c_25)) = res_c_25 a0 a1 a2 a3 a4
  v9 : V (no_index (Proc.devRef .tc main_v9)) = res_v9 a0 a1 a2 a3 a4
  v11 : V (no_index (Proc.devRef .tc main_v11)) = res_v11 a0 a1 a2 a3 a4
  v18 : V (no_index (Proc.devRef .tc main_v18)) = res_v18 a0 a1 a2 a3 a4
  v25 : V (no_index (Proc.devRef .tc main_v25)) = res_v25 a0 a1 a2 a3 a4
  v31 : V (no_index (Proc.devRef .tc main_v31)) = res_v31 a0 a1 a2 a3 a4
  v37 : V (no_index (Proc.devRef .tc main_v37)) = res_v37 a0 a1 a2 a3 a4
  v43 : V (no_index (Proc.devRef .tc main_v43)) = res_v43 a0 a1 a2 a3 a4
  v49 : V (no_index (Proc.devRef .tc main_v49)) = res_v49 a0 a1 a2 a3 a4
  v50 : V (no_index (Proc.devRef .tc main_v50)) = res_v50 a0 a1 a2 a3 a4
  v76 : V (no_index (Proc.devRef .tc main_v76)) = res_v76 a0 a1 a2 a3 a4
  v102 : V (no_index (Proc.devRef .tc main_v102)) = res_v102 a0 a1 a2 a3 a4
  v132 : V (no_index (Proc.devRef .tc main_v132)) = res_v132 a0 a1 a2 a3 a4
  v135 : V (no_index (Proc.devRef .tc main_v135)) = res_v135 a0 a1 a2 a3 a4
  v138 : V (no_index (Proc.devRef .tc main_v138)) = res_v138 a0 a1 a2 a3 a4
  v139 : V (no_index (Proc.devRef .tc main_v139)) = res_v139 a0 a1 a2 a3 a4

/-- The buffers live before window `w12`, each at its stage. -/
structure Live12 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4
  c_24 : V (no_index (Proc.devRef .tc main_c_24)) = res_c_24 a0 a1 a2 a3 a4
  c_25 : V (no_index (Proc.devRef .tc main_c_25)) = res_c_25 a0 a1 a2 a3 a4
  v18 : V (no_index (Proc.devRef .tc main_v18)) = res_v18 a0 a1 a2 a3 a4
  v25 : V (no_index (Proc.devRef .tc main_v25)) = res_v25 a0 a1 a2 a3 a4
  v31 : V (no_index (Proc.devRef .tc main_v31)) = res_v31 a0 a1 a2 a3 a4
  v37 : V (no_index (Proc.devRef .tc main_v37)) = res_v37 a0 a1 a2 a3 a4
  v43 : V (no_index (Proc.devRef .tc main_v43)) = res_v43 a0 a1 a2 a3 a4
  v49 : V (no_index (Proc.devRef .tc main_v49)) = res_v49 a0 a1 a2 a3 a4
  v50 : V (no_index (Proc.devRef .tc main_v50)) = res_v50 a0 a1 a2 a3 a4
  v76 : V (no_index (Proc.devRef .tc main_v76)) = res_v76 a0 a1 a2 a3 a4
  v102 : V (no_index (Proc.devRef .tc main_v102)) = res_v102 a0 a1 a2 a3 a4
  v132 : V (no_index (Proc.devRef .tc main_v132)) = res_v132 a0 a1 a2 a3 a4
  v145 : V (no_index (Proc.devRef .tc main_v145)) = res_v145 a0 a1 a2 a3 a4
  v152 : V (no_index (Proc.devRef .tc main_v152)) = res_v152 a0 a1 a2 a3 a4
  v155 : V (no_index (Proc.devRef .tc main_v155)) = res_v155 a0 a1 a2 a3 a4
  v156 : V (no_index (Proc.devRef .tc main_v156)) = res_v156 a0 a1 a2 a3 a4

/-- The buffers live before window `w13`, each at its stage. -/
structure Live13 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4
  v25 : V (no_index (Proc.devRef .tc main_v25)) = res_v25 a0 a1 a2 a3 a4
  v37 : V (no_index (Proc.devRef .tc main_v37)) = res_v37 a0 a1 a2 a3 a4
  v49 : V (no_index (Proc.devRef .tc main_v49)) = res_v49 a0 a1 a2 a3 a4
  v50 : V (no_index (Proc.devRef .tc main_v50)) = res_v50 a0 a1 a2 a3 a4
  v76 : V (no_index (Proc.devRef .tc main_v76)) = res_v76 a0 a1 a2 a3 a4
  v102 : V (no_index (Proc.devRef .tc main_v102)) = res_v102 a0 a1 a2 a3 a4
  v132 : V (no_index (Proc.devRef .tc main_v132)) = res_v132 a0 a1 a2 a3 a4
  v162 : V (no_index (Proc.devRef .tc main_v162)) = res_v162 a0 a1 a2 a3 a4
  v164 : V (no_index (Proc.devRef .tc main_v164)) = res_v164 a0 a1 a2 a3 a4
  v166 : V (no_index (Proc.devRef .tc main_v166)) = res_v166 a0 a1 a2 a3 a4
  v168 : V (no_index (Proc.devRef .tc main_v168)) = res_v168 a0 a1 a2 a3 a4
  v171 : V (no_index (Proc.devRef .tc main_v171)) = res_v171 a0 a1 a2 a3 a4
  v173 : V (no_index (Proc.devRef .tc main_v173)) = res_v173 a0 a1 a2 a3 a4

/-- The buffers live before window `w14`, each at its stage. -/
structure Live14 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4
  v37 : V (no_index (Proc.devRef .tc main_v37)) = res_v37 a0 a1 a2 a3 a4
  v49 : V (no_index (Proc.devRef .tc main_v49)) = res_v49 a0 a1 a2 a3 a4
  v50 : V (no_index (Proc.devRef .tc main_v50)) = res_v50 a0 a1 a2 a3 a4
  v76 : V (no_index (Proc.devRef .tc main_v76)) = res_v76 a0 a1 a2 a3 a4
  v102 : V (no_index (Proc.devRef .tc main_v102)) = res_v102 a0 a1 a2 a3 a4
  v132 : V (no_index (Proc.devRef .tc main_v132)) = res_v132 a0 a1 a2 a3 a4
  v162 : V (no_index (Proc.devRef .tc main_v162)) = res_v162 a0 a1 a2 a3 a4
  v164 : V (no_index (Proc.devRef .tc main_v164)) = res_v164 a0 a1 a2 a3 a4
  v166 : V (no_index (Proc.devRef .tc main_v166)) = res_v166 a0 a1 a2 a3 a4
  v168 : V (no_index (Proc.devRef .tc main_v168)) = res_v168 a0 a1 a2 a3 a4
  v171 : V (no_index (Proc.devRef .tc main_v171)) = res_v171 a0 a1 a2 a3 a4
  v174 : V (no_index (Proc.devRef .tc main_v174)) = res_v174 a0 a1 a2 a3 a4
  v175 : V (no_index (Proc.devRef .tc main_v175)) = res_v175 a0 a1 a2 a3 a4

/-- The buffers live before window `w15`, each at its stage. -/
structure Live15 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4
  v37 : V (no_index (Proc.devRef .tc main_v37)) = res_v37 a0 a1 a2 a3 a4
  v49 : V (no_index (Proc.devRef .tc main_v49)) = res_v49 a0 a1 a2 a3 a4
  v50 : V (no_index (Proc.devRef .tc main_v50)) = res_v50 a0 a1 a2 a3 a4
  v76 : V (no_index (Proc.devRef .tc main_v76)) = res_v76 a0 a1 a2 a3 a4
  v102 : V (no_index (Proc.devRef .tc main_v102)) = res_v102 a0 a1 a2 a3 a4
  v132 : V (no_index (Proc.devRef .tc main_v132)) = res_v132 a0 a1 a2 a3 a4
  v162 : V (no_index (Proc.devRef .tc main_v162)) = res_v162 a0 a1 a2 a3 a4
  v164 : V (no_index (Proc.devRef .tc main_v164)) = res_v164 a0 a1 a2 a3 a4
  v166 : V (no_index (Proc.devRef .tc main_v166)) = res_v166 a0 a1 a2 a3 a4
  v168 : V (no_index (Proc.devRef .tc main_v168)) = res_v168 a0 a1 a2 a3 a4
  v171 : V (no_index (Proc.devRef .tc main_v171)) = res_v171 a0 a1 a2 a3 a4
  v174 : V (no_index (Proc.devRef .tc main_v174)) = res_v174 a0 a1 a2 a3 a4
  v176 : V (no_index (Proc.devRef .tc main_v176)) = res_v176 a0 a1 a2 a3 a4

/-- The buffers live before window `w16`, each at its stage. -/
structure Live16 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4
  v49 : V (no_index (Proc.devRef .tc main_v49)) = res_v49 a0 a1 a2 a3 a4
  v50 : V (no_index (Proc.devRef .tc main_v50)) = res_v50 a0 a1 a2 a3 a4
  v162 : V (no_index (Proc.devRef .tc main_v162)) = res_v162 a0 a1 a2 a3 a4
  v168 : V (no_index (Proc.devRef .tc main_v168)) = res_v168 a0 a1 a2 a3 a4
  v183 : V (no_index (Proc.devRef .tc main_v183)) = res_v183 a0 a1 a2 a3 a4
  v190 : V (no_index (Proc.devRef .tc main_v190)) = res_v190 a0 a1 a2 a3 a4
  v197 : V (no_index (Proc.devRef .tc main_v197)) = res_v197 a0 a1 a2 a3 a4
  v200 : V (no_index (Proc.devRef .tc main_v200)) = res_v200 a0 a1 a2 a3 a4
  v201 : V (no_index (Proc.devRef .tc main_v201)) = res_v201 a0 a1 a2 a3 a4

/-- The buffers live before window `w17`, each at its stage. -/
structure Live17 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4
  v49 : V (no_index (Proc.devRef .tc main_v49)) = res_v49 a0 a1 a2 a3 a4
  v50 : V (no_index (Proc.devRef .tc main_v50)) = res_v50 a0 a1 a2 a3 a4
  v162 : V (no_index (Proc.devRef .tc main_v162)) = res_v162 a0 a1 a2 a3 a4
  v168 : V (no_index (Proc.devRef .tc main_v168)) = res_v168 a0 a1 a2 a3 a4
  v183 : V (no_index (Proc.devRef .tc main_v183)) = res_v183 a0 a1 a2 a3 a4
  v190 : V (no_index (Proc.devRef .tc main_v190)) = res_v190 a0 a1 a2 a3 a4
  v197 : V (no_index (Proc.devRef .tc main_v197)) = res_v197 a0 a1 a2 a3 a4
  v200 : V (no_index (Proc.devRef .tc main_v200)) = res_v200 a0 a1 a2 a3 a4
  v202 : V (no_index (Proc.devRef .tc main_v202)) = res_v202 a0 a1 a2 a3 a4

/-- The buffers live before window `w18`, each at its stage. -/
structure Live18 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4
  v50 : V (no_index (Proc.devRef .tc main_v50)) = res_v50 a0 a1 a2 a3 a4
  v183 : V (no_index (Proc.devRef .tc main_v183)) = res_v183 a0 a1 a2 a3 a4
  v190 : V (no_index (Proc.devRef .tc main_v190)) = res_v190 a0 a1 a2 a3 a4
  v197 : V (no_index (Proc.devRef .tc main_v197)) = res_v197 a0 a1 a2 a3 a4
  v200 : V (no_index (Proc.devRef .tc main_v200)) = res_v200 a0 a1 a2 a3 a4
  v202 : V (no_index (Proc.devRef .tc main_v202)) = res_v202 a0 a1 a2 a3 a4
  v205 : V (no_index (Proc.devRef .tc main_v205)) = res_v205 a0 a1 a2 a3 a4
  v206 : V (no_index (Proc.devRef .tc main_v206)) = res_v206 a0 a1 a2 a3 a4

/-- The buffers live before window `w19`, each at its stage. -/
structure Live19 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4
  v50 : V (no_index (Proc.devRef .tc main_v50)) = res_v50 a0 a1 a2 a3 a4
  v183 : V (no_index (Proc.devRef .tc main_v183)) = res_v183 a0 a1 a2 a3 a4
  v190 : V (no_index (Proc.devRef .tc main_v190)) = res_v190 a0 a1 a2 a3 a4
  v197 : V (no_index (Proc.devRef .tc main_v197)) = res_v197 a0 a1 a2 a3 a4
  v200 : V (no_index (Proc.devRef .tc main_v200)) = res_v200 a0 a1 a2 a3 a4
  v202 : V (no_index (Proc.devRef .tc main_v202)) = res_v202 a0 a1 a2 a3 a4
  v205 : V (no_index (Proc.devRef .tc main_v205)) = res_v205 a0 a1 a2 a3 a4
  v207 : V (no_index (Proc.devRef .tc main_v207)) = res_v207 a0 a1 a2 a3 a4

/-- The buffers live after the last window, each at its stage. -/
structure Live20 (V : Valuation τ sig (Elt Ideal)) (a0 : FVec Ideal S64x64 .f32) (a1 : FVec Ideal S64 .f32) (a2 a3 : FVec Ideal S64x64 .f32) (a4 : FVec Ideal S4096 .f32) : Prop where
  arg0 : V (no_index (Proc.devRef .tc main_arg0)) = a0
  arg1 : V (no_index (Proc.devRef .tc main_arg1)) = a1
  arg2 : V (no_index (Proc.devRef .tc main_arg2)) = a2
  arg3 : V (no_index (Proc.devRef .tc main_arg3)) = a3
  arg4 : V (no_index (Proc.devRef .tc main_arg4)) = a4
  v208 : V (no_index (Proc.devRef .tc main_v208)) = res_v208 a0 a1 a2 a3 a4

end Cert.ReferenceIdeal.RefRun

end
-- ==== Proof.RefStepA.lean ====
/- The reference's run, windows w01, w02, w03: each operation's result buffer at its stage, the other live buffers kept. -/
import proofs.«134289_j17918603559171_2_alg».proof.Proof.RefLive

set_option maxRecDepth 8192
set_option maxHeartbeats 2000000

noncomputable section

namespace Cert.ReferenceIdeal.RefRun

open Cert.ReferenceIdeal Cert.ReferenceIdeal.RefStages Idealize.ShloMosaic Idealize.ShloMosaic.TcCoe Idealize.SL.Sem Idealize.ShloMosaic.StableHlo

/-- Window `w01` (operations 1 … 20): from the buffers live before it to those live after it. -/
theorem step01 (V : Valuation τ sig (Elt Ideal)) (a0 : FVec Ideal S64x64 .f32) (a1 : FVec Ideal S64 .f32) (a2 a3 : FVec Ideal S64x64 .f32) (a4 : FVec Ideal S4096 .f32) (h : Live01 V a0 a1 a2 a3 a4) :
    Live02 (after (w01 (F := Ideal)) V) a0 a1 a2 a3 a4 where
  arg0 := (after_of_writes_sub (w01 (F := Ideal)) V w01_writes (by decide)).trans h.arg0
  arg1 := (after_of_writes_sub (w01 (F := Ideal)) V w01_writes (by decide)).trans h.arg1
  arg2 := (after_of_writes_sub (w01 (F := Ideal)) V w01_writes (by decide)).trans h.arg2
  arg3 := (after_of_writes_sub (w01 (F := Ideal)) V w01_writes (by decide)).trans h.arg3
  arg4 := (after_of_writes_sub (w01 (F := Ideal)) V w01_writes (by decide)).trans h.arg4
  c := by
    simp only [w01]
    after_results_simp
    all_goals rfl
  c_0 := by
    simp only [w01]
    after_results_simp
    all_goals rfl
  c_1 := by
    simp only [w01]
    after_results_simp
    all_goals rfl
  c_2 := by
    simp only [w01]
    after_results_simp
    all_goals rfl
  c_3 := by
    simp only [w01]
    after_results_simp
    all_goals rfl
  c_4 := by
    simp only [w01]
    after_results_simp
    all_goals rfl
  c_5 := by
    simp only [w01]
    after_results_simp
    all_goals rfl
  c_6 := by
    simp only [w01]
    after_results_simp
    all_goals rfl
  c_7 := by
    simp only [w01]
    after_results_simp
    all_goals rfl
  c_8 := by
    simp only [w01]
    after_results_simp
    all_goals rfl
  c_9 := by
    simp only [w01]
    after_results_simp
    all_goals rfl
  c_10 := by
    simp only [w01]
    after_results_simp
    all_goals rfl
  c_11 := by
    simp only [w01]
    after_results_simp
    all_goals rfl
  c_12 := by
    simp only [w01]
    after_results_simp
    all_goals rfl
  c_13 := by
    simp only [w01]
    after_results_simp
    all_goals rfl
  c_14 := by
    simp only [w01]
    after_results_simp
    all_goals rfl
  c_15 := by
    simp only [w01]
    after_results_simp
    all_goals rfl
  c_16 := by
    simp only [w01]
    after_results_simp
    all_goals rfl
  c_17 := by
    simp only [w01]
    after_results_simp
    all_goals rfl
  c_18 := by
    simp only [w01]
    after_results_simp
    all_goals rfl

/-- Window `w02` (operations 21 … 40): from the buffers live before it to those live after it. -/
theorem step02 (V : Valuation τ sig (Elt Ideal)) (a0 : FVec Ideal S64x64 .f32) (a1 : FVec Ideal S64 .f32) (a2 a3 : FVec Ideal S64x64 .f32) (a4 : FVec Ideal S4096 .f32) (h : Live02 V a0 a1 a2 a3 a4) :
    Live03 (after (w02 (F := Ideal)) V) a0 a1 a2 a3 a4 where
  arg0 := (after_of_writes_sub (w02 (F := Ideal)) V w02_writes (by decide)).trans h.arg0
  arg1 := (after_of_writes_sub (w02 (F := Ideal)) V w02_writes (by decide)).trans h.arg1
  arg2 := (after_of_writes_sub (w02 (F := Ideal)) V w02_writes (by decide)).trans h.arg2
  arg3 := (after_of_writes_sub (w02 (F := Ideal)) V w02_writes (by decide)).trans h.arg3
  arg4 := (after_of_writes_sub (w02 (F := Ideal)) V w02_writes (by decide)).trans h.arg4
  c := (after_of_writes_sub (w02 (F := Ideal)) V w02_writes (by decide)).trans h.c
  c_0 := (after_of_writes_sub (w02 (F := Ideal)) V w02_writes (by decide)).trans h.c_0
  c_1 := (after_of_writes_sub (w02 (F := Ideal)) V w02_writes (by decide)).trans h.c_1
  c_2 := (after_of_writes_sub (w02 (F := Ideal)) V w02_writes (by decide)).trans h.c_2
  c_3 := (after_of_writes_sub (w02 (F := Ideal)) V w02_writes (by decide)).trans h.c_3
  c_4 := (after_of_writes_sub (w02 (F := Ideal)) V w02_writes (by decide)).trans h.c_4
  c_5 := (after_of_writes_sub (w02 (F := Ideal)) V w02_writes (by decide)).trans h.c_5
  c_6 := (after_of_writes_sub (w02 (F := Ideal)) V w02_writes (by decide)).trans h.c_6
  c_7 := (after_of_writes_sub (w02 (F := Ideal)) V w02_writes (by decide)).trans h.c_7
  c_8 := (after_of_writes_sub (w02 (F := Ideal)) V w02_writes (by decide)).trans h.c_8
  c_9 := (after_of_writes_sub (w02 (F := Ideal)) V w02_writes (by decide)).trans h.c_9
  c_10 := (after_of_writes_sub (w02 (F := Ideal)) V w02_writes (by decide)).trans h.c_10
  c_11 := (after_of_writes_sub (w02 (F := Ideal)) V w02_writes (by decide)).trans h.c_11
  c_12 := (after_of_writes_sub (w02 (F := Ideal)) V w02_writes (by decide)).trans h.c_12
  c_13 := (after_of_writes_sub (w02 (F := Ideal)) V w02_writes (by decide)).trans h.c_13
  c_14 := (after_of_writes_sub (w02 (F := Ideal)) V w02_writes (by decide)).trans h.c_14
  c_15 := (after_of_writes_sub (w02 (F := Ideal)) V w02_writes (by decide)).trans h.c_15
  c_16 := (after_of_writes_sub (w02 (F := Ideal)) V w02_writes (by decide)).trans h.c_16
  c_17 := (after_of_writes_sub (w02 (F := Ideal)) V w02_writes (by decide)).trans h.c_17
  c_18 := (after_of_writes_sub (w02 (F := Ideal)) V w02_writes (by decide)).trans h.c_18
  c_19 := by
    simp only [w02]
    after_results_simp
    all_goals rfl
  c_20 := by
    simp only [w02]
    after_results_simp
    all_goals rfl
  c_21 := by
    simp only [w02]
    after_results_simp
    all_goals rfl
  c_22 := by
    simp only [w02]
    after_results_simp
    all_goals rfl
  c_23 := by
    simp only [w02]
    after_results_simp
    all_goals rfl
  c_24 := by
    simp only [w02]
    after_results_simp
    all_goals rfl
  c_25 := by
    simp only [w02]
    after_results_simp
    all_goals rfl
  v3 := by
    simp only [w02]
    after_results_simp
    simp only [h.arg4, h.arg2] <;> rfl
  v6 := by
    simp only [w02]
    after_results_simp
    simp only [h.arg4, h.arg3] <;> rfl
  v8 := by
    simp only [w02]
    after_results_simp
    simp only [h.arg0] <;> rfl

/-- Window `w03` (operations 41 … 60): from the buffers live before it to those live after it. -/
theorem step03 (V : Valuation τ sig (Elt Ideal)) (a0 : FVec Ideal S64x64 .f32) (a1 : FVec Ideal S64 .f32) (a2 a3 : FVec Ideal S64x64 .f32) (a4 : FVec Ideal S4096 .f32) (h : Live03 V a0 a1 a2 a3 a4) :
    Live04 (after (w03 (F := Ideal)) V) a0 a1 a2 a3 a4 where
  arg0 := (after_of_writes_sub (w03 (F := Ideal)) V w03_writes (by decide)).trans h.arg0
  arg1 := (after_of_writes_sub (w03 (F := Ideal)) V w03_writes (by decide)).trans h.arg1
  arg2 := (after_of_writes_sub (w03 (F := Ideal)) V w03_writes (by decide)).trans h.arg2
  arg3 := (after_of_writes_sub (w03 (F := Ideal)) V w03_writes (by decide)).trans h.arg3
  arg4 := (after_of_writes_sub (w03 (F := Ideal)) V w03_writes (by decide)).trans h.arg4
  c := (after_of_writes_sub (w03 (F := Ideal)) V w03_writes (by decide)).trans h.c
  c_0 := (after_of_writes_sub (w03 (F := Ideal)) V w03_writes (by decide)).trans h.c_0
  c_1 := (after_of_writes_sub (w03 (F := Ideal)) V w03_writes (by decide)).trans h.c_1
  c_2 := (after_of_writes_sub (w03 (F := Ideal)) V w03_writes (by decide)).trans h.c_2
  c_3 := (after_of_writes_sub (w03 (F := Ideal)) V w03_writes (by decide)).trans h.c_3
  c_4 := (after_of_writes_sub (w03 (F := Ideal)) V w03_writes (by decide)).trans h.c_4
  c_5 := (after_of_writes_sub (w03 (F := Ideal)) V w03_writes (by decide)).trans h.c_5
  c_6 := (after_of_writes_sub (w03 (F := Ideal)) V w03_writes (by decide)).trans h.c_6
  c_7 := (after_of_writes_sub (w03 (F := Ideal)) V w03_writes (by decide)).trans h.c_7
  c_8 := (after_of_writes_sub (w03 (F := Ideal)) V w03_writes (by decide)).trans h.c_8
  c_9 := (after_of_writes_sub (w03 (F := Ideal)) V w03_writes (by decide)).trans h.c_9
  c_10 := (after_of_writes_sub (w03 (F := Ideal)) V w03_writes (by decide)).trans h.c_10
  c_11 := (after_of_writes_sub (w03 (F := Ideal)) V w03_writes (by decide)).trans h.c_11
  c_12 := (after_of_writes_sub (w03 (F := Ideal)) V w03_writes (by decide)).trans h.c_12
  c_13 := (after_of_writes_sub (w03 (F := Ideal)) V w03_writes (by decide)).trans h.c_13
  c_14 := (after_of_writes_sub (w03 (F := Ideal)) V w03_writes (by decide)).trans h.c_14
  c_15 := (after_of_writes_sub (w03 (F := Ideal)) V w03_writes (by decide)).trans h.c_15
  c_16 := (after_of_writes_sub (w03 (F := Ideal)) V w03_writes (by decide)).trans h.c_16
  c_17 := (after_of_writes_sub (w03 (F := Ideal)) V w03_writes (by decide)).trans h.c_17
  c_18 := (after_of_writes_sub (w03 (F := Ideal)) V w03_writes (by decide)).trans h.c_18
  c_19 := (after_of_writes_sub (w03 (F := Ideal)) V w03_writes (by decide)).trans h.c_19
  c_20 := (after_of_writes_sub (w03 (F := Ideal)) V w03_writes (by decide)).trans h.c_20
  c_21 := (after_of_writes_sub (w03 (F := Ideal)) V w03_writes (by decide)).trans h.c_21
  c_22 := (after_of_writes_sub (w03 (F := Ideal)) V w03_writes (by decide)).trans h.c_22
  c_23 := (after_of_writes_sub (w03 (F := Ideal)) V w03_writes (by decide)).trans h.c_23
  c_24 := (after_of_writes_sub (w03 (F := Ideal)) V w03_writes (by decide)).trans h.c_24
  c_25 := (after_of_writes_sub (w03 (F := Ideal)) V w03_writes (by decide)).trans h.c_25
  v3 := (after_of_writes_sub (w03 (F := Ideal)) V w03_writes (by decide)).trans h.v3
  v6 := (after_of_writes_sub (w03 (F := Ideal)) V w03_writes (by decide)).trans h.v6
  v9 := by
    simp only [w03]
    after_results_simp
    simp only [h.v8] <;> rfl
  v11 := by
    simp only [w03]
    after_results_simp
    simp only [h.arg0] <;> rfl
  v18 := by
    simp only [w03]
    after_results_simp
    simp only [h.arg1] <;> rfl
  v23 := by
    simp only [w03]
    after_results_simp
    simp only [h.arg1] <;> rfl

end Cert.ReferenceIdeal.RefRun

end
-- ==== Proof.RefStepB.lean ====
/- The reference's run, windows w04, w05, w06: each operation's result buffer at its stage, the other live buffers kept. -/
import proofs.«134289_j17918603559171_2_alg».proof.Proof.RefLive

set_option maxRecDepth 8192
set_option maxHeartbeats 2000000

noncomputable section

namespace Cert.ReferenceIdeal.RefRun

open Cert.ReferenceIdeal Cert.ReferenceIdeal.RefStages Idealize.ShloMosaic Idealize.ShloMosaic.TcCoe Idealize.SL.Sem Idealize.ShloMosaic.StableHlo

/-- Window `w04` (operations 61 … 80): from the buffers live before it to those live after it. -/
theorem step04 (V : Valuation τ sig (Elt Ideal)) (a0 : FVec Ideal S64x64 .f32) (a1 : FVec Ideal S64 .f32) (a2 a3 : FVec Ideal S64x64 .f32) (a4 : FVec Ideal S4096 .f32) (h : Live04 V a0 a1 a2 a3 a4) :
    Live05 (after (w04 (F := Ideal)) V) a0 a1 a2 a3 a4 where
  arg0 := (after_of_writes_sub (w04 (F := Ideal)) V w04_writes (by decide)).trans h.arg0
  arg1 := (after_of_writes_sub (w04 (F := Ideal)) V w04_writes (by decide)).trans h.arg1
  arg2 := (after_of_writes_sub (w04 (F := Ideal)) V w04_writes (by decide)).trans h.arg2
  arg3 := (after_of_writes_sub (w04 (F := Ideal)) V w04_writes (by decide)).trans h.arg3
  arg4 := (after_of_writes_sub (w04 (F := Ideal)) V w04_writes (by decide)).trans h.arg4
  c := (after_of_writes_sub (w04 (F := Ideal)) V w04_writes (by decide)).trans h.c
  c_0 := (after_of_writes_sub (w04 (F := Ideal)) V w04_writes (by decide)).trans h.c_0
  c_1 := (after_of_writes_sub (w04 (F := Ideal)) V w04_writes (by decide)).trans h.c_1
  c_2 := (after_of_writes_sub (w04 (F := Ideal)) V w04_writes (by decide)).trans h.c_2
  c_3 := (after_of_writes_sub (w04 (F := Ideal)) V w04_writes (by decide)).trans h.c_3
  c_4 := (after_of_writes_sub (w04 (F := Ideal)) V w04_writes (by decide)).trans h.c_4
  c_5 := (after_of_writes_sub (w04 (F := Ideal)) V w04_writes (by decide)).trans h.c_5
  c_6 := (after_of_writes_sub (w04 (F := Ideal)) V w04_writes (by decide)).trans h.c_6
  c_7 := (after_of_writes_sub (w04 (F := Ideal)) V w04_writes (by decide)).trans h.c_7
  c_8 := (after_of_writes_sub (w04 (F := Ideal)) V w04_writes (by decide)).trans h.c_8
  c_9 := (after_of_writes_sub (w04 (F := Ideal)) V w04_writes (by decide)).trans h.c_9
  c_10 := (after_of_writes_sub (w04 (F := Ideal)) V w04_writes (by decide)).trans h.c_10
  c_11 := (after_of_writes_sub (w04 (F := Ideal)) V w04_writes (by decide)).trans h.c_11
  c_12 := (after_of_writes_sub (w04 (F := Ideal)) V w04_writes (by decide)).trans h.c_12
  c_13 := (after_of_writes_sub (w04 (F := Ideal)) V w04_writes (by decide)).trans h.c_13
  c_14 := (after_of_writes_sub (w04 (F := Ideal)) V w04_writes (by decide)).trans h.c_14
  c_15 := (after_of_writes_sub (w04 (F := Ideal)) V w04_writes (by decide)).trans h.c_15
  c_16 := (after_of_writes_sub (w04 (F := Ideal)) V w04_writes (by decide)).trans h.c_16
  c_17 := (after_of_writes_sub (w04 (F := Ideal)) V w04_writes (by decide)).trans h.c_17
  c_18 := (after_of_writes_sub (w04 (F := Ideal)) V w04_writes (by decide)).trans h.c_18
  c_19 := (after_of_writes_sub (w04 (F := Ideal)) V w04_writes (by decide)).trans h.c_19
  c_20 := (after_of_writes_sub (w04 (F := Ideal)) V w04_writes (by decide)).trans h.c_20
  c_21 := (after_of_writes_sub (w04 (F := Ideal)) V w04_writes (by decide)).trans h.c_21
  c_22 := (after_of_writes_sub (w04 (F := Ideal)) V w04_writes (by decide)).trans h.c_22
  c_23 := (after_of_writes_sub (w04 (F := Ideal)) V w04_writes (by decide)).trans h.c_23
  c_24 := (after_of_writes_sub (w04 (F := Ideal)) V w04_writes (by decide)).trans h.c_24
  c_25 := (after_of_writes_sub (w04 (F := Ideal)) V w04_writes (by decide)).trans h.c_25
  v6 := (after_of_writes_sub (w04 (F := Ideal)) V w04_writes (by decide)).trans h.v6
  v9 := (after_of_writes_sub (w04 (F := Ideal)) V w04_writes (by decide)).trans h.v9
  v11 := (after_of_writes_sub (w04 (F := Ideal)) V w04_writes (by decide)).trans h.v11
  v18 := (after_of_writes_sub (w04 (F := Ideal)) V w04_writes (by decide)).trans h.v18
  v25 := by
    simp only [w04]
    after_results_simp
    simp only [h.v23] <;> rfl
  v31 := by
    simp only [w04]
    after_results_simp
    simp only [h.v3] <;> rfl
  v37 := by
    simp only [w04]
    after_results_simp
    simp only [h.v3] <;> rfl
  v39 := by
    simp only [w04]
    after_results_simp
    simp only [h.v6] <;> rfl

/-- Window `w05` (operations 81 … 100): from the buffers live before it to those live after it. -/
theorem step05 (V : Valuation τ sig (Elt Ideal)) (a0 : FVec Ideal S64x64 .f32) (a1 : FVec Ideal S64 .f32) (a2 a3 : FVec Ideal S64x64 .f32) (a4 : FVec Ideal S4096 .f32) (h : Live05 V a0 a1 a2 a3 a4) :
    Live06 (after (w05 (F := Ideal)) V) a0 a1 a2 a3 a4 where
  arg0 := (after_of_writes_sub (w05 (F := Ideal)) V w05_writes (by decide)).trans h.arg0
  arg1 := (after_of_writes_sub (w05 (F := Ideal)) V w05_writes (by decide)).trans h.arg1
  arg2 := (after_of_writes_sub (w05 (F := Ideal)) V w05_writes (by decide)).trans h.arg2
  arg3 := (after_of_writes_sub (w05 (F := Ideal)) V w05_writes (by decide)).trans h.arg3
  arg4 := (after_of_writes_sub (w05 (F := Ideal)) V w05_writes (by decide)).trans h.arg4
  c := (after_of_writes_sub (w05 (F := Ideal)) V w05_writes (by decide)).trans h.c
  c_0 := (after_of_writes_sub (w05 (F := Ideal)) V w05_writes (by decide)).trans h.c_0
  c_1 := (after_of_writes_sub (w05 (F := Ideal)) V w05_writes (by decide)).trans h.c_1
  c_2 := (after_of_writes_sub (w05 (F := Ideal)) V w05_writes (by decide)).trans h.c_2
  c_3 := (after_of_writes_sub (w05 (F := Ideal)) V w05_writes (by decide)).trans h.c_3
  c_4 := (after_of_writes_sub (w05 (F := Ideal)) V w05_writes (by decide)).trans h.c_4
  c_5 := (after_of_writes_sub (w05 (F := Ideal)) V w05_writes (by decide)).trans h.c_5
  c_6 := (after_of_writes_sub (w05 (F := Ideal)) V w05_writes (by decide)).trans h.c_6
  c_7 := (after_of_writes_sub (w05 (F := Ideal)) V w05_writes (by decide)).trans h.c_7
  c_8 := (after_of_writes_sub (w05 (F := Ideal)) V w05_writes (by decide)).trans h.c_8
  c_9 := (after_of_writes_sub (w05 (F := Ideal)) V w05_writes (by decide)).trans h.c_9
  c_10 := (after_of_writes_sub (w05 (F := Ideal)) V w05_writes (by decide)).trans h.c_10
  c_11 := (after_of_writes_sub (w05 (F := Ideal)) V w05_writes (by decide)).trans h.c_11
  c_12 := (after_of_writes_sub (w05 (F := Ideal)) V w05_writes (by decide)).trans h.c_12
  c_13 := (after_of_writes_sub (w05 (F := Ideal)) V w05_writes (by decide)).trans h.c_13
  c_14 := (after_of_writes_sub (w05 (F := Ideal)) V w05_writes (by decide)).trans h.c_14
  c_15 := (after_of_writes_sub (w05 (F := Ideal)) V w05_writes (by decide)).trans h.c_15
  c_16 := (after_of_writes_sub (w05 (F := Ideal)) V w05_writes (by decide)).trans h.c_16
  c_17 := (after_of_writes_sub (w05 (F := Ideal)) V w05_writes (by decide)).trans h.c_17
  c_18 := (after_of_writes_sub (w05 (F := Ideal)) V w05_writes (by decide)).trans h.c_18
  c_19 := (after_of_writes_sub (w05 (F := Ideal)) V w05_writes (by decide)).trans h.c_19
  c_20 := (after_of_writes_sub (w05 (F := Ideal)) V w05_writes (by decide)).trans h.c_20
  c_21 := (after_of_writes_sub (w05 (F := Ideal)) V w05_writes (by decide)).trans h.c_21
  c_22 := (after_of_writes_sub (w05 (F := Ideal)) V w05_writes (by decide)).trans h.c_22
  c_23 := (after_of_writes_sub (w05 (F := Ideal)) V w05_writes (by decide)).trans h.c_23
  c_24 := (after_of_writes_sub (w05 (F := Ideal)) V w05_writes (by decide)).trans h.c_24
  c_25 := (after_of_writes_sub (w05 (F := Ideal)) V w05_writes (by decide)).trans h.c_25
  v9 := (after_of_writes_sub (w05 (F := Ideal)) V w05_writes (by decide)).trans h.v9
  v11 := (after_of_writes_sub (w05 (F := Ideal)) V w05_writes (by decide)).trans h.v11
  v18 := (after_of_writes_sub (w05 (F := Ideal)) V w05_writes (by decide)).trans h.v18
  v25 := (after_of_writes_sub (w05 (F := Ideal)) V w05_writes (by decide)).trans h.v25
  v31 := (after_of_writes_sub (w05 (F := Ideal)) V w05_writes (by decide)).trans h.v31
  v37 := (after_of_writes_sub (w05 (F := Ideal)) V w05_writes (by decide)).trans h.v37
  v43 := by
    simp only [w05]
    after_results_simp
    simp only [h.v39] <;> rfl
  v49 := by
    simp only [w05]
    after_results_simp
    simp only [h.v6] <;> rfl
  v50 := by
    simp only [w05]
    after_results_simp
    all_goals rfl
  v52 := by
    simp only [w05]
    after_results_simp
    simp only [h.v9, h.v11] <;> rfl
  v53 := by
    simp only [w05]
    after_results_simp
    all_goals rfl

/-- Window `w06` (operations 101 … 120): from the buffers live before it to those live after it. -/
theorem step06 (V : Valuation τ sig (Elt Ideal)) (a0 : FVec Ideal S64x64 .f32) (a1 : FVec Ideal S64 .f32) (a2 a3 : FVec Ideal S64x64 .f32) (a4 : FVec Ideal S4096 .f32) (h : Live06 V a0 a1 a2 a3 a4) :
    Live07 (after (w06 (F := Ideal)) V) a0 a1 a2 a3 a4 where
  arg0 := (after_of_writes_sub (w06 (F := Ideal)) V w06_writes (by decide)).trans h.arg0
  arg1 := (after_of_writes_sub (w06 (F := Ideal)) V w06_writes (by decide)).trans h.arg1
  arg2 := (after_of_writes_sub (w06 (F := Ideal)) V w06_writes (by decide)).trans h.arg2
  arg3 := (after_of_writes_sub (w06 (F := Ideal)) V w06_writes (by decide)).trans h.arg3
  arg4 := (after_of_writes_sub (w06 (F := Ideal)) V w06_writes (by decide)).trans h.arg4
  c := (after_of_writes_sub (w06 (F := Ideal)) V w06_writes (by decide)).trans h.c
  c_2 := (after_of_writes_sub (w06 (F := Ideal)) V w06_writes (by decide)).trans h.c_2
  c_4 := (after_of_writes_sub (w06 (F := Ideal)) V w06_writes (by decide)).trans h.c_4
  c_5 := (after_of_writes_sub (w06 (F := Ideal)) V w06_writes (by decide)).trans h.c_5
  c_6 := (after_of_writes_sub (w06 (F := Ideal)) V w06_writes (by decide)).trans h.c_6
  c_7 := (after_of_writes_sub (w06 (F := Ideal)) V w06_writes (by decide)).trans h.c_7
  c_8 := (after_of_writes_sub (w06 (F := Ideal)) V w06_writes (by decide)).trans h.c_8
  c_9 := (after_of_writes_sub (w06 (F := Ideal)) V w06_writes (by decide)).trans h.c_9
  c_10 := (after_of_writes_sub (w06 (F := Ideal)) V w06_writes (by decide)).trans h.c_10
  c_11 := (after_of_writes_sub (w06 (F := Ideal)) V w06_writes (by decide)).trans h.c_11
  c_12 := (after_of_writes_sub (w06 (F := Ideal)) V w06_writes (by decide)).trans h.c_12
  c_13 := (after_of_writes_sub (w06 (F := Ideal)) V w06_writes (by decide)).trans h.c_13
  c_14 := (after_of_writes_sub (w06 (F := Ideal)) V w06_writes (by decide)).trans h.c_14
  c_15 := (after_of_writes_sub (w06 (F := Ideal)) V w06_writes (by decide)).trans h.c_15
  c_16 := (after_of_writes_sub (w06 (F := Ideal)) V w06_writes (by decide)).trans h.c_16
  c_17 := (after_of_writes_sub (w06 (F := Ideal)) V w06_writes (by decide)).trans h.c_17
  c_18 := (after_of_writes_sub (w06 (F := Ideal)) V w06_writes (by decide)).trans h.c_18
  c_19 := (after_of_writes_sub (w06 (F := Ideal)) V w06_writes (by decide)).trans h.c_19
  c_20 := (after_of_writes_sub (w06 (F := Ideal)) V w06_writes (by decide)).trans h.c_20
  c_21 := (after_of_writes_sub (w06 (F := Ideal)) V w06_writes (by decide)).trans h.c_21
  c_22 := (after_of_writes_sub (w06 (F := Ideal)) V w06_writes (by decide)).trans h.c_22
  c_23 := (after_of_writes_sub (w06 (F := Ideal)) V w06_writes (by decide)).trans h.c_23
  c_24 := (after_of_writes_sub (w06 (F := Ideal)) V w06_writes (by decide)).trans h.c_24
  c_25 := (after_of_writes_sub (w06 (F := Ideal)) V w06_writes (by decide)).trans h.c_25
  v9 := (after_of_writes_sub (w06 (F := Ideal)) V w06_writes (by decide)).trans h.v9
  v11 := (after_of_writes_sub (w06 (F := Ideal)) V w06_writes (by decide)).trans h.v11
  v18 := (after_of_writes_sub (w06 (F := Ideal)) V w06_writes (by decide)).trans h.v18
  v25 := (after_of_writes_sub (w06 (F := Ideal)) V w06_writes (by decide)).trans h.v25
  v31 := (after_of_writes_sub (w06 (F := Ideal)) V w06_writes (by decide)).trans h.v31
  v37 := (after_of_writes_sub (w06 (F := Ideal)) V w06_writes (by decide)).trans h.v37
  v43 := (after_of_writes_sub (w06 (F := Ideal)) V w06_writes (by decide)).trans h.v43
  v49 := (after_of_writes_sub (w06 (F := Ideal)) V w06_writes (by decide)).trans h.v49
  v50 := (after_of_writes_sub (w06 (F := Ideal)) V w06_writes (by decide)).trans h.v50
  v62 := by
    simp only [w06]
    after_results_simp
    simp only [h.v52, h.c, h.c_1, h.v53, h.c_0, h.v50] <;> rfl
  v66 := by
    simp only [w06]
    after_results_simp
    simp only [h.v9, h.v11] <;> rfl
  v69 := by
    simp only [w06]
    after_results_simp
    simp only [h.c_2, h.c_3] <;> rfl
  v70 := by
    simp only [w06]
    after_results_simp
    all_goals rfl

end Cert.ReferenceIdeal.RefRun

end
-- ==== Proof.RefStepC.lean ====
/- The reference's run, windows w07, w08, w09: each operation's result buffer at its stage, the other live buffers kept. -/
import proofs.«134289_j17918603559171_2_alg».proof.Proof.RefLive

set_option maxRecDepth 8192
set_option maxHeartbeats 2000000

noncomputable section

namespace Cert.ReferenceIdeal.RefRun

open Cert.ReferenceIdeal Cert.ReferenceIdeal.RefStages Idealize.ShloMosaic Idealize.ShloMosaic.TcCoe Idealize.SL.Sem Idealize.ShloMosaic.StableHlo

/-- Window `w07` (operations 121 … 140): from the buffers live before it to those live after it. -/
theorem step07 (V : Valuation τ sig (Elt Ideal)) (a0 : FVec Ideal S64x64 .f32) (a1 : FVec Ideal S64 .f32) (a2 a3 : FVec Ideal S64x64 .f32) (a4 : FVec Ideal S4096 .f32) (h : Live07 V a0 a1 a2 a3 a4) :
    Live08 (after (w07 (F := Ideal)) V) a0 a1 a2 a3 a4 where
  arg0 := (after_of_writes_sub (w07 (F := Ideal)) V w07_writes (by decide)).trans h.arg0
  arg1 := (after_of_writes_sub (w07 (F := Ideal)) V w07_writes (by decide)).trans h.arg1
  arg2 := (after_of_writes_sub (w07 (F := Ideal)) V w07_writes (by decide)).trans h.arg2
  arg3 := (after_of_writes_sub (w07 (F := Ideal)) V w07_writes (by decide)).trans h.arg3
  arg4 := (after_of_writes_sub (w07 (F := Ideal)) V w07_writes (by decide)).trans h.arg4
  c := (after_of_writes_sub (w07 (F := Ideal)) V w07_writes (by decide)).trans h.c
  c_2 := (after_of_writes_sub (w07 (F := Ideal)) V w07_writes (by decide)).trans h.c_2
  c_8 := (after_of_writes_sub (w07 (F := Ideal)) V w07_writes (by decide)).trans h.c_8
  c_9 := (after_of_writes_sub (w07 (F := Ideal)) V w07_writes (by decide)).trans h.c_9
  c_10 := (after_of_writes_sub (w07 (F := Ideal)) V w07_writes (by decide)).trans h.c_10
  c_11 := (after_of_writes_sub (w07 (F := Ideal)) V w07_writes (by decide)).trans h.c_11
  c_12 := (after_of_writes_sub (w07 (F := Ideal)) V w07_writes (by decide)).trans h.c_12
  c_13 := (after_of_writes_sub (w07 (F := Ideal)) V w07_writes (by decide)).trans h.c_13
  c_14 := (after_of_writes_sub (w07 (F := Ideal)) V w07_writes (by decide)).trans h.c_14
  c_15 := (after_of_writes_sub (w07 (F := Ideal)) V w07_writes (by decide)).trans h.c_15
  c_16 := (after_of_writes_sub (w07 (F := Ideal)) V w07_writes (by decide)).trans h.c_16
  c_17 := (after_of_writes_sub (w07 (F := Ideal)) V w07_writes (by decide)).trans h.c_17
  c_18 := (after_of_writes_sub (w07 (F := Ideal)) V w07_writes (by decide)).trans h.c_18
  c_19 := (after_of_writes_sub (w07 (F := Ideal)) V w07_writes (by decide)).trans h.c_19
  c_20 := (after_of_writes_sub (w07 (F := Ideal)) V w07_writes (by decide)).trans h.c_20
  c_21 := (after_of_writes_sub (w07 (F := Ideal)) V w07_writes (by decide)).trans h.c_21
  c_22 := (after_of_writes_sub (w07 (F := Ideal)) V w07_writes (by decide)).trans h.c_22
  c_23 := (after_of_writes_sub (w07 (F := Ideal)) V w07_writes (by decide)).trans h.c_23
  c_24 := (after_of_writes_sub (w07 (F := Ideal)) V w07_writes (by decide)).trans h.c_24
  c_25 := (after_of_writes_sub (w07 (F := Ideal)) V w07_writes (by decide)).trans h.c_25
  v9 := (after_of_writes_sub (w07 (F := Ideal)) V w07_writes (by decide)).trans h.v9
  v11 := (after_of_writes_sub (w07 (F := Ideal)) V w07_writes (by decide)).trans h.v11
  v18 := (after_of_writes_sub (w07 (F := Ideal)) V w07_writes (by decide)).trans h.v18
  v25 := (after_of_writes_sub (w07 (F := Ideal)) V w07_writes (by decide)).trans h.v25
  v31 := (after_of_writes_sub (w07 (F := Ideal)) V w07_writes (by decide)).trans h.v31
  v37 := (after_of_writes_sub (w07 (F := Ideal)) V w07_writes (by decide)).trans h.v37
  v43 := (after_of_writes_sub (w07 (F := Ideal)) V w07_writes (by decide)).trans h.v43
  v49 := (after_of_writes_sub (w07 (F := Ideal)) V w07_writes (by decide)).trans h.v49
  v50 := (after_of_writes_sub (w07 (F := Ideal)) V w07_writes (by decide)).trans h.v50
  v76 := by
    simp only [w07]
    after_results_simp
    simp only [h.v66, h.c_4, h.v70, h.c_5, h.v69, h.v62] <;> rfl
  v79 := by
    simp only [w07]
    after_results_simp
    simp only [h.v9, h.v11] <;> rfl
  v88 := by
    simp only [w07]
    after_results_simp
    simp only [h.c, h.c_7, h.c_6] <;> rfl

/-- Window `w08` (operations 141 … 160): from the buffers live before it to those live after it. -/
theorem step08 (V : Valuation τ sig (Elt Ideal)) (a0 : FVec Ideal S64x64 .f32) (a1 : FVec Ideal S64 .f32) (a2 a3 : FVec Ideal S64x64 .f32) (a4 : FVec Ideal S4096 .f32) (h : Live08 V a0 a1 a2 a3 a4) :
    Live09 (after (w08 (F := Ideal)) V) a0 a1 a2 a3 a4 where
  arg0 := (after_of_writes_sub (w08 (F := Ideal)) V w08_writes (by decide)).trans h.arg0
  arg1 := (after_of_writes_sub (w08 (F := Ideal)) V w08_writes (by decide)).trans h.arg1
  arg2 := (after_of_writes_sub (w08 (F := Ideal)) V w08_writes (by decide)).trans h.arg2
  arg3 := (after_of_writes_sub (w08 (F := Ideal)) V w08_writes (by decide)).trans h.arg3
  arg4 := (after_of_writes_sub (w08 (F := Ideal)) V w08_writes (by decide)).trans h.arg4
  c := (after_of_writes_sub (w08 (F := Ideal)) V w08_writes (by decide)).trans h.c
  c_11 := (after_of_writes_sub (w08 (F := Ideal)) V w08_writes (by decide)).trans h.c_11
  c_12 := (after_of_writes_sub (w08 (F := Ideal)) V w08_writes (by decide)).trans h.c_12
  c_13 := (after_of_writes_sub (w08 (F := Ideal)) V w08_writes (by decide)).trans h.c_13
  c_14 := (after_of_writes_sub (w08 (F := Ideal)) V w08_writes (by decide)).trans h.c_14
  c_15 := (after_of_writes_sub (w08 (F := Ideal)) V w08_writes (by decide)).trans h.c_15
  c_16 := (after_of_writes_sub (w08 (F := Ideal)) V w08_writes (by decide)).trans h.c_16
  c_17 := (after_of_writes_sub (w08 (F := Ideal)) V w08_writes (by decide)).trans h.c_17
  c_18 := (after_of_writes_sub (w08 (F := Ideal)) V w08_writes (by decide)).trans h.c_18
  c_19 := (after_of_writes_sub (w08 (F := Ideal)) V w08_writes (by decide)).trans h.c_19
  c_20 := (after_of_writes_sub (w08 (F := Ideal)) V w08_writes (by decide)).trans h.c_20
  c_21 := (after_of_writes_sub (w08 (F := Ideal)) V w08_writes (by decide)).trans h.c_21
  c_22 := (after_of_writes_sub (w08 (F := Ideal)) V w08_writes (by decide)).trans h.c_22
  c_23 := (after_of_writes_sub (w08 (F := Ideal)) V w08_writes (by decide)).trans h.c_23
  c_24 := (after_of_writes_sub (w08 (F := Ideal)) V w08_writes (by decide)).trans h.c_24
  c_25 := (after_of_writes_sub (w08 (F := Ideal)) V w08_writes (by decide)).trans h.c_25
  v9 := (after_of_writes_sub (w08 (F := Ideal)) V w08_writes (by decide)).trans h.v9
  v11 := (after_of_writes_sub (w08 (F := Ideal)) V w08_writes (by decide)).trans h.v11
  v18 := (after_of_writes_sub (w08 (F := Ideal)) V w08_writes (by decide)).trans h.v18
  v25 := (after_of_writes_sub (w08 (F := Ideal)) V w08_writes (by decide)).trans h.v25
  v31 := (after_of_writes_sub (w08 (F := Ideal)) V w08_writes (by decide)).trans h.v31
  v37 := (after_of_writes_sub (w08 (F := Ideal)) V w08_writes (by decide)).trans h.v37
  v43 := (after_of_writes_sub (w08 (F := Ideal)) V w08_writes (by decide)).trans h.v43
  v49 := (after_of_writes_sub (w08 (F := Ideal)) V w08_writes (by decide)).trans h.v49
  v50 := (after_of_writes_sub (w08 (F := Ideal)) V w08_writes (by decide)).trans h.v50
  v76 := (after_of_writes_sub (w08 (F := Ideal)) V w08_writes (by decide)).trans h.v76
  v102 := by
    simp only [w08]
    after_results_simp
    simp only [h.v9, h.v11, h.c_2, h.c_10, h.c_8, h.c_9, h.v79, h.v88, h.v50] <;> rfl
  v104 := by
    simp only [w08]
    after_results_simp
    simp only [h.v9, h.v11] <;> rfl
  v105 := by
    simp only [w08]
    after_results_simp
    all_goals rfl

/-- Window `w09` (operations 161 … 180): from the buffers live before it to those live after it. -/
theorem step09 (V : Valuation τ sig (Elt Ideal)) (a0 : FVec Ideal S64x64 .f32) (a1 : FVec Ideal S64 .f32) (a2 a3 : FVec Ideal S64x64 .f32) (a4 : FVec Ideal S4096 .f32) (h : Live09 V a0 a1 a2 a3 a4) :
    Live10 (after (w09 (F := Ideal)) V) a0 a1 a2 a3 a4 where
  arg0 := (after_of_writes_sub (w09 (F := Ideal)) V w09_writes (by decide)).trans h.arg0
  arg1 := (after_of_writes_sub (w09 (F := Ideal)) V w09_writes (by decide)).trans h.arg1
  arg2 := (after_of_writes_sub (w09 (F := Ideal)) V w09_writes (by decide)).trans h.arg2
  arg3 := (after_of_writes_sub (w09 (F := Ideal)) V w09_writes (by decide)).trans h.arg3
  arg4 := (after_of_writes_sub (w09 (F := Ideal)) V w09_writes (by decide)).trans h.arg4
  c := (after_of_writes_sub (w09 (F := Ideal)) V w09_writes (by decide)).trans h.c
  c_15 := (after_of_writes_sub (w09 (F := Ideal)) V w09_writes (by decide)).trans h.c_15
  c_16 := (after_of_writes_sub (w09 (F := Ideal)) V w09_writes (by decide)).trans h.c_16
  c_17 := (after_of_writes_sub (w09 (F := Ideal)) V w09_writes (by decide)).trans h.c_17
  c_18 := (after_of_writes_sub (w09 (F := Ideal)) V w09_writes (by decide)).trans h.c_18
  c_19 := (after_of_writes_sub (w09 (F := Ideal)) V w09_writes (by decide)).trans h.c_19
  c_20 := (after_of_writes_sub (w09 (F := Ideal)) V w09_writes (by decide)).trans h.c_20
  c_21 := (after_of_writes_sub (w09 (F := Ideal)) V w09_writes (by decide)).trans h.c_21
  c_22 := (after_of_writes_sub (w09 (F := Ideal)) V w09_writes (by decide)).trans h.c_22
  c_23 := (after_of_writes_sub (w09 (F := Ideal)) V w09_writes (by decide)).trans h.c_23
  c_24 := (after_of_writes_sub (w09 (F := Ideal)) V w09_writes (by decide)).trans h.c_24
  c_25 := (after_of_writes_sub (w09 (F := Ideal)) V w09_writes (by decide)).trans h.c_25
  v9 := (after_of_writes_sub (w09 (F := Ideal)) V w09_writes (by decide)).trans h.v9
  v11 := (after_of_writes_sub (w09 (F := Ideal)) V w09_writes (by decide)).trans h.v11
  v18 := (after_of_writes_sub (w09 (F := Ideal)) V w09_writes (by decide)).trans h.v18
  v25 := (after_of_writes_sub (w09 (F := Ideal)) V w09_writes (by decide)).trans h.v25
  v31 := (after_of_writes_sub (w09 (F := Ideal)) V w09_writes (by decide)).trans h.v31
  v37 := (after_of_writes_sub (w09 (F := Ideal)) V w09_writes (by decide)).trans h.v37
  v43 := (after_of_writes_sub (w09 (F := Ideal)) V w09_writes (by decide)).trans h.v43
  v49 := (after_of_writes_sub (w09 (F := Ideal)) V w09_writes (by decide)).trans h.v49
  v50 := (after_of_writes_sub (w09 (F := Ideal)) V w09_writes (by decide)).trans h.v50
  v76 := (after_of_writes_sub (w09 (F := Ideal)) V w09_writes (by decide)).trans h.v76
  v102 := (after_of_writes_sub (w09 (F := Ideal)) V w09_writes (by decide)).trans h.v102
  v114 := by
    simp only [w09]
    after_results_simp
    simp only [h.v104, h.c, h.c_12, h.v105, h.c_11, h.v50] <;> rfl
  v122 := by
    simp only [w09]
    after_results_simp
    simp only [h.v9, h.c_13, h.c_14, h.v11] <;> rfl
  c_54 := by
    simp only [w09]
    after_results_simp
    all_goals rfl

end Cert.ReferenceIdeal.RefRun

end
-- ==== Proof.RefStepD.lean ====
/- The reference's run, windows w10, w11, w12: each operation's result buffer at its stage, the other live buffers kept. -/
import proofs.«134289_j17918603559171_2_alg».proof.Proof.RefLive

set_option maxRecDepth 8192
set_option maxHeartbeats 2000000

noncomputable section

namespace Cert.ReferenceIdeal.RefRun

open Cert.ReferenceIdeal Cert.ReferenceIdeal.RefStages Idealize.ShloMosaic Idealize.ShloMosaic.TcCoe Idealize.SL.Sem Idealize.ShloMosaic.StableHlo

/-- Window `w10` (operations 181 … 200): from the buffers live before it to those live after it. -/
theorem step10 (V : Valuation τ sig (Elt Ideal)) (a0 : FVec Ideal S64x64 .f32) (a1 : FVec Ideal S64 .f32) (a2 a3 : FVec Ideal S64x64 .f32) (a4 : FVec Ideal S4096 .f32) (h : Live10 V a0 a1 a2 a3 a4) :
    Live11 (after (w10 (F := Ideal)) V) a0 a1 a2 a3 a4 where
  arg0 := (after_of_writes_sub (w10 (F := Ideal)) V w10_writes (by decide)).trans h.arg0
  arg1 := (after_of_writes_sub (w10 (F := Ideal)) V w10_writes (by decide)).trans h.arg1
  arg2 := (after_of_writes_sub (w10 (F := Ideal)) V w10_writes (by decide)).trans h.arg2
  arg3 := (after_of_writes_sub (w10 (F := Ideal)) V w10_writes (by decide)).trans h.arg3
  arg4 := (after_of_writes_sub (w10 (F := Ideal)) V w10_writes (by decide)).trans h.arg4
  c := (after_of_writes_sub (w10 (F := Ideal)) V w10_writes (by decide)).trans h.c
  c_20 := (after_of_writes_sub (w10 (F := Ideal)) V w10_writes (by decide)).trans h.c_20
  c_21 := (after_of_writes_sub (w10 (F := Ideal)) V w10_writes (by decide)).trans h.c_21
  c_22 := (after_of_writes_sub (w10 (F := Ideal)) V w10_writes (by decide)).trans h.c_22
  c_23 := (after_of_writes_sub (w10 (F := Ideal)) V w10_writes (by decide)).trans h.c_23
  c_24 := (after_of_writes_sub (w10 (F := Ideal)) V w10_writes (by decide)).trans h.c_24
  c_25 := (after_of_writes_sub (w10 (F := Ideal)) V w10_writes (by decide)).trans h.c_25
  v9 := (after_of_writes_sub (w10 (F := Ideal)) V w10_writes (by decide)).trans h.v9
  v11 := (after_of_writes_sub (w10 (F := Ideal)) V w10_writes (by decide)).trans h.v11
  v18 := (after_of_writes_sub (w10 (F := Ideal)) V w10_writes (by decide)).trans h.v18
  v25 := (after_of_writes_sub (w10 (F := Ideal)) V w10_writes (by decide)).trans h.v25
  v31 := (after_of_writes_sub (w10 (F := Ideal)) V w10_writes (by decide)).trans h.v31
  v37 := (after_of_writes_sub (w10 (F := Ideal)) V w10_writes (by decide)).trans h.v37
  v43 := (after_of_writes_sub (w10 (F := Ideal)) V w10_writes (by decide)).trans h.v43
  v49 := (after_of_writes_sub (w10 (F := Ideal)) V w10_writes (by decide)).trans h.v49
  v50 := (after_of_writes_sub (w10 (F := Ideal)) V w10_writes (by decide)).trans h.v50
  v76 := (after_of_writes_sub (w10 (F := Ideal)) V w10_writes (by decide)).trans h.v76
  v102 := (after_of_writes_sub (w10 (F := Ideal)) V w10_writes (by decide)).trans h.v102
  v132 := by
    simp only [w10]
    after_results_simp
    simp only [h.v122, h.c_17, h.c_18, h.c_15, h.c_54, h.c_16, h.v114] <;> rfl
  v135 := by
    simp only [w10]
    after_results_simp
    simp only [h.v9, h.v11] <;> rfl
  v138 := by
    simp only [w10]
    after_results_simp
    simp only [h.c, h.c_19] <;> rfl
  v139 := by
    simp only [w10]
    after_results_simp
    all_goals rfl

/-- Window `w11` (operations 201 … 220): from the buffers live before it to those live after it. -/
theorem step11 (V : Valuation τ sig (Elt Ideal)) (a0 : FVec Ideal S64x64 .f32) (a1 : FVec Ideal S64 .f32) (a2 a3 : FVec Ideal S64x64 .f32) (a4 : FVec Ideal S4096 .f32) (h : Live11 V a0 a1 a2 a3 a4) :
    Live12 (after (w11 (F := Ideal)) V) a0 a1 a2 a3 a4 where
  arg0 := (after_of_writes_sub (w11 (F := Ideal)) V w11_writes (by decide)).trans h.arg0
  arg1 := (after_of_writes_sub (w11 (F := Ideal)) V w11_writes (by decide)).trans h.arg1
  arg2 := (after_of_writes_sub (w11 (F := Ideal)) V w11_writes (by decide)).trans h.arg2
  arg3 := (after_of_writes_sub (w11 (F := Ideal)) V w11_writes (by decide)).trans h.arg3
  arg4 := (after_of_writes_sub (w11 (F := Ideal)) V w11_writes (by decide)).trans h.arg4
  c_24 := (after_of_writes_sub (w11 (F := Ideal)) V w11_writes (by decide)).trans h.c_24
  c_25 := (after_of_writes_sub (w11 (F := Ideal)) V w11_writes (by decide)).trans h.c_25
  v18 := (after_of_writes_sub (w11 (F := Ideal)) V w11_writes (by decide)).trans h.v18
  v25 := (after_of_writes_sub (w11 (F := Ideal)) V w11_writes (by decide)).trans h.v25
  v31 := (after_of_writes_sub (w11 (F := Ideal)) V w11_writes (by decide)).trans h.v31
  v37 := (after_of_writes_sub (w11 (F := Ideal)) V w11_writes (by decide)).trans h.v37
  v43 := (after_of_writes_sub (w11 (F := Ideal)) V w11_writes (by decide)).trans h.v43
  v49 := (after_of_writes_sub (w11 (F := Ideal)) V w11_writes (by decide)).trans h.v49
  v50 := (after_of_writes_sub (w11 (F := Ideal)) V w11_writes (by decide)).trans h.v50
  v76 := (after_of_writes_sub (w11 (F := Ideal)) V w11_writes (by decide)).trans h.v76
  v102 := (after_of_writes_sub (w11 (F := Ideal)) V w11_writes (by decide)).trans h.v102
  v132 := (after_of_writes_sub (w11 (F := Ideal)) V w11_writes (by decide)).trans h.v132
  v145 := by
    simp only [w11]
    after_results_simp
    simp only [h.v135, h.c, h.v139, h.c_20, h.v138, h.v50] <;> rfl
  v152 := by
    simp only [w11]
    after_results_simp
    simp only [h.v9, h.c_21, h.c_22, h.v11] <;> rfl
  v155 := by
    simp only [w11]
    after_results_simp
    simp only [h.c_21, h.c_23] <;> rfl
  v156 := by
    simp only [w11]
    after_results_simp
    all_goals rfl

/-- Window `w12` (operations 221 … 240): from the buffers live before it to those live after it. -/
theorem step12 (V : Valuation τ sig (Elt Ideal)) (a0 : FVec Ideal S64x64 .f32) (a1 : FVec Ideal S64 .f32) (a2 a3 : FVec Ideal S64x64 .f32) (a4 : FVec Ideal S4096 .f32) (h : Live12 V a0 a1 a2 a3 a4) :
    Live13 (after (w12 (F := Ideal)) V) a0 a1 a2 a3 a4 where
  arg0 := (after_of_writes_sub (w12 (F := Ideal)) V w12_writes (by decide)).trans h.arg0
  arg1 := (after_of_writes_sub (w12 (F := Ideal)) V w12_writes (by decide)).trans h.arg1
  arg2 := (after_of_writes_sub (w12 (F := Ideal)) V w12_writes (by decide)).trans h.arg2
  arg3 := (after_of_writes_sub (w12 (F := Ideal)) V w12_writes (by decide)).trans h.arg3
  arg4 := (after_of_writes_sub (w12 (F := Ideal)) V w12_writes (by decide)).trans h.arg4
  v25 := (after_of_writes_sub (w12 (F := Ideal)) V w12_writes (by decide)).trans h.v25
  v37 := (after_of_writes_sub (w12 (F := Ideal)) V w12_writes (by decide)).trans h.v37
  v49 := (after_of_writes_sub (w12 (F := Ideal)) V w12_writes (by decide)).trans h.v49
  v50 := (after_of_writes_sub (w12 (F := Ideal)) V w12_writes (by decide)).trans h.v50
  v76 := (after_of_writes_sub (w12 (F := Ideal)) V w12_writes (by decide)).trans h.v76
  v102 := (after_of_writes_sub (w12 (F := Ideal)) V w12_writes (by decide)).trans h.v102
  v132 := (after_of_writes_sub (w12 (F := Ideal)) V w12_writes (by decide)).trans h.v132
  v162 := by
    simp only [w12]
    after_results_simp
    simp only [h.v152, h.c_24, h.v156, h.c_25, h.v155, h.v145] <;> rfl
  v164 := by
    simp only [w12]
    after_results_simp
    simp only [h.v18] <;> rfl
  v166 := by
    simp only [w12]
    after_results_simp
    simp only [h.v31] <;> rfl
  v168 := by
    simp only [w12]
    after_results_simp
    simp only [h.v43] <;> rfl
  v171 := by
    simp only [w12]
    after_results_simp
    simp only [h.v31, h.v76] <;> rfl
  v173 := by
    simp only [w12]
    after_results_simp
    simp only [h.v43] <;> rfl

end Cert.ReferenceIdeal.RefRun

end
-- ==== Proof.RefStepE.lean ====
/- The reference's run, windows w13, w14, w15: each operation's result buffer at its stage, the other live buffers kept. -/
import proofs.«134289_j17918603559171_2_alg».proof.Proof.RefLive

set_option maxRecDepth 8192
set_option maxHeartbeats 2000000

noncomputable section

namespace Cert.ReferenceIdeal.RefRun

open Cert.ReferenceIdeal Cert.ReferenceIdeal.RefStages Idealize.ShloMosaic Idealize.ShloMosaic.TcCoe Idealize.SL.Sem Idealize.ShloMosaic.StableHlo

/-- Window `w13` (operations 241 … 242): from the buffers live before it to those live after it. -/
theorem step13 (V : Valuation τ sig (Elt Ideal)) (a0 : FVec Ideal S64x64 .f32) (a1 : FVec Ideal S64 .f32) (a2 a3 : FVec Ideal S64x64 .f32) (a4 : FVec Ideal S4096 .f32) (h : Live13 V a0 a1 a2 a3 a4) :
    Live14 (after (w13 (F := Ideal)) V) a0 a1 a2 a3 a4 where
  arg0 := (after_of_writes_sub (w13 (F := Ideal)) V w13_writes (by decide)).trans h.arg0
  arg1 := (after_of_writes_sub (w13 (F := Ideal)) V w13_writes (by decide)).trans h.arg1
  arg2 := (after_of_writes_sub (w13 (F := Ideal)) V w13_writes (by decide)).trans h.arg2
  arg3 := (after_of_writes_sub (w13 (F := Ideal)) V w13_writes (by decide)).trans h.arg3
  arg4 := (after_of_writes_sub (w13 (F := Ideal)) V w13_writes (by decide)).trans h.arg4
  v37 := (after_of_writes_sub (w13 (F := Ideal)) V w13_writes (by decide)).trans h.v37
  v49 := (after_of_writes_sub (w13 (F := Ideal)) V w13_writes (by decide)).trans h.v49
  v50 := (after_of_writes_sub (w13 (F := Ideal)) V w13_writes (by decide)).trans h.v50
  v76 := (after_of_writes_sub (w13 (F := Ideal)) V w13_writes (by decide)).trans h.v76
  v102 := (after_of_writes_sub (w13 (F := Ideal)) V w13_writes (by decide)).trans h.v102
  v132 := (after_of_writes_sub (w13 (F := Ideal)) V w13_writes (by decide)).trans h.v132
  v162 := (after_of_writes_sub (w13 (F := Ideal)) V w13_writes (by decide)).trans h.v162
  v164 := (after_of_writes_sub (w13 (F := Ideal)) V w13_writes (by decide)).trans h.v164
  v166 := (after_of_writes_sub (w13 (F := Ideal)) V w13_writes (by decide)).trans h.v166
  v168 := (after_of_writes_sub (w13 (F := Ideal)) V w13_writes (by decide)).trans h.v168
  v171 := (after_of_writes_sub (w13 (F := Ideal)) V w13_writes (by decide)).trans h.v171
  v174 := by
    simp only [w13]
    after_results_simp
    simp only [h.v173, h.v132] <;> rfl
  v175 := by
    simp only [w13]
    after_results_simp
    simp only [h.v25, h.v164] <;> rfl

/-- Window `w14` (operations 243 … 255): from the buffers live before it to those live after it. -/
theorem step14 (V : Valuation τ sig (Elt Ideal)) (a0 : FVec Ideal S64x64 .f32) (a1 : FVec Ideal S64 .f32) (a2 a3 : FVec Ideal S64x64 .f32) (a4 : FVec Ideal S4096 .f32) (h : Live14 V a0 a1 a2 a3 a4) :
    Live15 (after (w14 (F := Ideal)) V) a0 a1 a2 a3 a4 where
  arg0 := (after_of_writes_sub (w14 (F := Ideal)) V w14_writes (by decide)).trans h.arg0
  arg1 := (after_of_writes_sub (w14 (F := Ideal)) V w14_writes (by decide)).trans h.arg1
  arg2 := (after_of_writes_sub (w14 (F := Ideal)) V w14_writes (by decide)).trans h.arg2
  arg3 := (after_of_writes_sub (w14 (F := Ideal)) V w14_writes (by decide)).trans h.arg3
  arg4 := (after_of_writes_sub (w14 (F := Ideal)) V w14_writes (by decide)).trans h.arg4
  v37 := (after_of_writes_sub (w14 (F := Ideal)) V w14_writes (by decide)).trans h.v37
  v49 := (after_of_writes_sub (w14 (F := Ideal)) V w14_writes (by decide)).trans h.v49
  v50 := (after_of_writes_sub (w14 (F := Ideal)) V w14_writes (by decide)).trans h.v50
  v76 := (after_of_writes_sub (w14 (F := Ideal)) V w14_writes (by decide)).trans h.v76
  v102 := (after_of_writes_sub (w14 (F := Ideal)) V w14_writes (by decide)).trans h.v102
  v132 := (after_of_writes_sub (w14 (F := Ideal)) V w14_writes (by decide)).trans h.v132
  v162 := (after_of_writes_sub (w14 (F := Ideal)) V w14_writes (by decide)).trans h.v162
  v164 := (after_of_writes_sub (w14 (F := Ideal)) V w14_writes (by decide)).trans h.v164
  v166 := (after_of_writes_sub (w14 (F := Ideal)) V w14_writes (by decide)).trans h.v166
  v168 := (after_of_writes_sub (w14 (F := Ideal)) V w14_writes (by decide)).trans h.v168
  v171 := (after_of_writes_sub (w14 (F := Ideal)) V w14_writes (by decide)).trans h.v171
  v174 := (after_of_writes_sub (w14 (F := Ideal)) V w14_writes (by decide)).trans h.v174
  v176 := by
    simp only [w14, TRef.nullary, TRef.unary, TRef.binary, TRef.ternary, TRef.nary]
    after_results_simp
    simp only [TRef.toBuf, TRef.ofBuf, TRef.of, cast_eq]
    simp only [h.v175] <;> rfl

/-- Window `w15` (operations 256 … 280): from the buffers live before it to those live after it. -/
theorem step15 (V : Valuation τ sig (Elt Ideal)) (a0 : FVec Ideal S64x64 .f32) (a1 : FVec Ideal S64 .f32) (a2 a3 : FVec Ideal S64x64 .f32) (a4 : FVec Ideal S4096 .f32) (h : Live15 V a0 a1 a2 a3 a4) :
    Live16 (after (w15 (F := Ideal)) V) a0 a1 a2 a3 a4 where
  arg0 := (after_of_writes_sub (w15 (F := Ideal)) V w15_writes (by decide)).trans h.arg0
  arg1 := (after_of_writes_sub (w15 (F := Ideal)) V w15_writes (by decide)).trans h.arg1
  arg2 := (after_of_writes_sub (w15 (F := Ideal)) V w15_writes (by decide)).trans h.arg2
  arg3 := (after_of_writes_sub (w15 (F := Ideal)) V w15_writes (by decide)).trans h.arg3
  arg4 := (after_of_writes_sub (w15 (F := Ideal)) V w15_writes (by decide)).trans h.arg4
  v49 := (after_of_writes_sub (w15 (F := Ideal)) V w15_writes (by decide)).trans h.v49
  v50 := (after_of_writes_sub (w15 (F := Ideal)) V w15_writes (by decide)).trans h.v50
  v162 := (after_of_writes_sub (w15 (F := Ideal)) V w15_writes (by decide)).trans h.v162
  v168 := (after_of_writes_sub (w15 (F := Ideal)) V w15_writes (by decide)).trans h.v168
  v183 := by
    simp only [w15]
    after_results_simp
    simp only [h.v162, h.v174, h.v102, h.v171, h.v164, h.v176] <;> rfl
  v190 := by
    simp only [w15]
    after_results_simp
    simp only [h.v37, h.v166, h.v76, h.v164] <;> rfl
  v197 := by
    simp only [w15]
    after_results_simp
    simp only [h.v49, h.v168, h.v132, h.v164] <;> rfl
  v200 := by
    simp only [w15]
    after_results_simp
    simp only [h.v102, h.v166] <;> rfl
  v201 := by
    simp only [w15]
    after_results_simp
    simp only [h.v37, h.v166] <;> rfl

end Cert.ReferenceIdeal.RefRun

end
-- ==== Proof.RefStepF.lean ====
/- The reference's run, windows w16, w17, w18, w19: each operation's result buffer at its stage, the other live buffers kept. -/
import proofs.«134289_j17918603559171_2_alg».proof.Proof.RefLive

set_option maxRecDepth 8192
set_option maxHeartbeats 2000000

noncomputable section

namespace Cert.ReferenceIdeal.RefRun

open Cert.ReferenceIdeal Cert.ReferenceIdeal.RefStages Idealize.ShloMosaic Idealize.ShloMosaic.TcCoe Idealize.SL.Sem Idealize.ShloMosaic.StableHlo
open Cert.ReferenceIdeal.Facts₀ Cert.ReferenceIdeal.Facts

/-- Window `w16` (operations 281 … 293): from the buffers live before it to those live after it. -/
theorem step16 (V : Valuation τ sig (Elt Ideal)) (a0 : FVec Ideal S64x64 .f32) (a1 : FVec Ideal S64 .f32) (a2 a3 : FVec Ideal S64x64 .f32) (a4 : FVec Ideal S4096 .f32) (h : Live16 V a0 a1 a2 a3 a4) :
    Live17 (after (w16 (F := Ideal)) V) a0 a1 a2 a3 a4 where
  arg0 := (after_of_writes_sub (w16 (F := Ideal)) V w16_writes (by decide)).trans h.arg0
  arg1 := (after_of_writes_sub (w16 (F := Ideal)) V w16_writes (by decide)).trans h.arg1
  arg2 := (after_of_writes_sub (w16 (F := Ideal)) V w16_writes (by decide)).trans h.arg2
  arg3 := (after_of_writes_sub (w16 (F := Ideal)) V w16_writes (by decide)).trans h.arg3
  arg4 := (after_of_writes_sub (w16 (F := Ideal)) V w16_writes (by decide)).trans h.arg4
  v49 := (after_of_writes_sub (w16 (F := Ideal)) V w16_writes (by decide)).trans h.v49
  v50 := (after_of_writes_sub (w16 (F := Ideal)) V w16_writes (by decide)).trans h.v50
  v162 := (after_of_writes_sub (w16 (F := Ideal)) V w16_writes (by decide)).trans h.v162
  v168 := (after_of_writes_sub (w16 (F := Ideal)) V w16_writes (by decide)).trans h.v168
  v183 := (after_of_writes_sub (w16 (F := Ideal)) V w16_writes (by decide)).trans h.v183
  v190 := (after_of_writes_sub (w16 (F := Ideal)) V w16_writes (by decide)).trans h.v190
  v197 := (after_of_writes_sub (w16 (F := Ideal)) V w16_writes (by decide)).trans h.v197
  v200 := (after_of_writes_sub (w16 (F := Ideal)) V w16_writes (by decide)).trans h.v200
  v202 := by
    simp only [w16, TRef.nullary, TRef.unary, TRef.binary, TRef.ternary, TRef.nary]
    after_results_simp
    simp only [TRef.toBuf, TRef.ofBuf, TRef.of, cast_eq]
    simp only [h.v201] <;> rfl

/-- Window `w17` (operations 294 … 297): from the buffers live before it to those live after it. -/
theorem step17 (V : Valuation τ sig (Elt Ideal)) (a0 : FVec Ideal S64x64 .f32) (a1 : FVec Ideal S64 .f32) (a2 a3 : FVec Ideal S64x64 .f32) (a4 : FVec Ideal S4096 .f32) (h : Live17 V a0 a1 a2 a3 a4) :
    Live18 (after (w17 (F := Ideal)) V) a0 a1 a2 a3 a4 where
  arg0 := (after_of_writes_sub (w17 (F := Ideal)) V w17_writes (by decide)).trans h.arg0
  arg1 := (after_of_writes_sub (w17 (F := Ideal)) V w17_writes (by decide)).trans h.arg1
  arg2 := (after_of_writes_sub (w17 (F := Ideal)) V w17_writes (by decide)).trans h.arg2
  arg3 := (after_of_writes_sub (w17 (F := Ideal)) V w17_writes (by decide)).trans h.arg3
  arg4 := (after_of_writes_sub (w17 (F := Ideal)) V w17_writes (by decide)).trans h.arg4
  v50 := (after_of_writes_sub (w17 (F := Ideal)) V w17_writes (by decide)).trans h.v50
  v183 := (after_of_writes_sub (w17 (F := Ideal)) V w17_writes (by decide)).trans h.v183
  v190 := (after_of_writes_sub (w17 (F := Ideal)) V w17_writes (by decide)).trans h.v190
  v197 := (after_of_writes_sub (w17 (F := Ideal)) V w17_writes (by decide)).trans h.v197
  v200 := (after_of_writes_sub (w17 (F := Ideal)) V w17_writes (by decide)).trans h.v200
  v202 := (after_of_writes_sub (w17 (F := Ideal)) V w17_writes (by decide)).trans h.v202
  v205 := by
    simp only [w17]
    after_results_simp
    simp only [h.v162, h.v168] <;> rfl
  v206 := by
    simp only [w17]
    after_results_simp
    simp only [h.v49, h.v168] <;> rfl

/-- Window `w18` (operations 298 … 310): from the buffers live before it to those live after it. -/
theorem step18 (V : Valuation τ sig (Elt Ideal)) (a0 : FVec Ideal S64x64 .f32) (a1 : FVec Ideal S64 .f32) (a2 a3 : FVec Ideal S64x64 .f32) (a4 : FVec Ideal S4096 .f32) (h : Live18 V a0 a1 a2 a3 a4) :
    Live19 (after (w18 (F := Ideal)) V) a0 a1 a2 a3 a4 where
  arg0 := (after_of_writes_sub (w18 (F := Ideal)) V w18_writes (by decide)).trans h.arg0
  arg1 := (after_of_writes_sub (w18 (F := Ideal)) V w18_writes (by decide)).trans h.arg1
  arg2 := (after_of_writes_sub (w18 (F := Ideal)) V w18_writes (by decide)).trans h.arg2
  arg3 := (after_of_writes_sub (w18 (F := Ideal)) V w18_writes (by decide)).trans h.arg3
  arg4 := (after_of_writes_sub (w18 (F := Ideal)) V w18_writes (by decide)).trans h.arg4
  v50 := (after_of_writes_sub (w18 (F := Ideal)) V w18_writes (by decide)).trans h.v50
  v183 := (after_of_writes_sub (w18 (F := Ideal)) V w18_writes (by decide)).trans h.v183
  v190 := (after_of_writes_sub (w18 (F := Ideal)) V w18_writes (by decide)).trans h.v190
  v197 := (after_of_writes_sub (w18 (F := Ideal)) V w18_writes (by decide)).trans h.v197
  v200 := (after_of_writes_sub (w18 (F := Ideal)) V w18_writes (by decide)).trans h.v200
  v202 := (after_of_writes_sub (w18 (F := Ideal)) V w18_writes (by decide)).trans h.v202
  v205 := (after_of_writes_sub (w18 (F := Ideal)) V w18_writes (by decide)).trans h.v205
  v207 := by
    simp only [w18, TRef.nullary, TRef.unary, TRef.binary, TRef.ternary, TRef.nary]
    after_results_simp
    simp only [TRef.toBuf, TRef.ofBuf, TRef.of, cast_eq]
    simp only [h.v206] <;> rfl

/-- The block matrix of nine blocks: three rows of three blocks side by side, stacked. -/
def blockOf (x0 x1 x2 x3 x4 x5 x6 x7 x8 : FVec Ideal S4096x4096 .f32) : FVec Ideal S12288x12288 .f32 :=
  concatenate S12288x12288 0
    [⟨S4096x12288, concatenate S4096x12288 1 [⟨S4096x4096, x0⟩, ⟨S4096x4096, x1⟩, ⟨S4096x4096, x2⟩] concatenates_S4096x4096_S4096x4096_S4096x4096_S4096x12288_d1⟩,
     ⟨S4096x12288, concatenate S4096x12288 1 [⟨S4096x4096, x3⟩, ⟨S4096x4096, x4⟩, ⟨S4096x4096, x5⟩] concatenates_S4096x4096_S4096x4096_S4096x4096_S4096x12288_d1⟩,
     ⟨S4096x12288, concatenate S4096x12288 1 [⟨S4096x4096, x6⟩, ⟨S4096x4096, x7⟩, ⟨S4096x4096, x8⟩] concatenates_S4096x4096_S4096x4096_S4096x4096_S4096x12288_d1⟩]
    concatenates_S4096x12288_S4096x12288_S4096x12288_S12288x12288_d0

attribute [local irreducible] concatenate in
/-- The last window's four concatenations at the returned buffer: the fold of the four results computes, the
    concatenations kept folded, to the block matrix of the nine operand buffers' contents. -/
theorem w19_v208 (V : Valuation τ sig (Elt Ideal)) :
    after (w19 (F := Ideal)) V (Proc.devRef .tc main_v208)
      = blockOf (V (Proc.devRef .tc main_v183)) (V (Proc.devRef .tc main_v190)) (V (Proc.devRef .tc main_v197))
          (V (Proc.devRef .tc main_v200)) (V (Proc.devRef .tc main_v202)) (V (Proc.devRef .tc main_v50))
          (V (Proc.devRef .tc main_v205)) (V (Proc.devRef .tc main_v50)) (V (Proc.devRef .tc main_v207)) := by
  simp only [w19, after_cons, after_nil]
  rfl

/-- Window `w19` (operations 311 … 314): from the buffers live before it to those live after it. -/
theorem step19 (V : Valuation τ sig (Elt Ideal)) (a0 : FVec Ideal S64x64 .f32) (a1 : FVec Ideal S64 .f32) (a2 a3 : FVec Ideal S64x64 .f32) (a4 : FVec Ideal S4096 .f32) (h : Live19 V a0 a1 a2 a3 a4) :
    Live20 (after (w19 (F := Ideal)) V) a0 a1 a2 a3 a4 where
  arg0 := (after_of_writes_sub (w19 (F := Ideal)) V w19_writes (by decide)).trans h.arg0
  arg1 := (after_of_writes_sub (w19 (F := Ideal)) V w19_writes (by decide)).trans h.arg1
  arg2 := (after_of_writes_sub (w19 (F := Ideal)) V w19_writes (by decide)).trans h.arg2
  arg3 := (after_of_writes_sub (w19 (F := Ideal)) V w19_writes (by decide)).trans h.arg3
  arg4 := (after_of_writes_sub (w19 (F := Ideal)) V w19_writes (by decide)).trans h.arg4
  v208 := by
    refine (w19_v208 V).trans ?_
    rw [h.v183, h.v190, h.v197, h.v200, h.v202, h.v50, h.v205, h.v207]
    rfl

end Cert.ReferenceIdeal.RefRun

end
-- ==== Proof.RefRun.lean ====
/- The reference's run: every weakly fair execution of @main terminates with the returned array at `result` of the
   argument arrays and the arguments unchanged; and the frame claim, which is that run with the result dropped. -/
import proofs.«134289_j17918603559171_2_alg».proof.Proof.RefStepA
import proofs.«134289_j17918603559171_2_alg».proof.Proof.RefStepB
import proofs.«134289_j17918603559171_2_alg».proof.Proof.RefStepC
import proofs.«134289_j17918603559171_2_alg».proof.Proof.RefStepD
import proofs.«134289_j17918603559171_2_alg».proof.Proof.RefStepE
import proofs.«134289_j17918603559171_2_alg».proof.Proof.RefStepF
import proofs.«134289_j17918603559171_2_alg».proof.Defs
import proofs.«134289_j17918603559171_2_alg».proof.Proof.Gen.Pre_finite_inputs

noncomputable section

namespace Cert.ReferenceIdeal.RefRun

open Cert.ReferenceIdeal Cert.ReferenceIdeal.RefStages Idealize.ShloMosaic Idealize.ShloMosaic.TcCoe Idealize.SL.Sem Idealize.ShloMosaic.StableHlo

/-- Before the first window only the arguments are live, at themselves. -/
theorem live_start (V : Valuation τ sig (Elt Ideal)) :
    Live01 V (V (Proc.devRef .tc main_arg0)) (V (Proc.devRef .tc main_arg1)) (V (Proc.devRef .tc main_arg2))
      (V (Proc.devRef .tc main_arg3)) (V (Proc.devRef .tc main_arg4)) :=
  ⟨rfl, rfl, rfl, rfl, rfl⟩

/-- After the whole list: the returned array at its stage, the arguments as they were. -/
theorem live_end (V : Valuation τ sig (Elt Ideal)) :
    Live20 (after (ops (F := Ideal)) V) (V (Proc.devRef .tc main_arg0)) (V (Proc.devRef .tc main_arg1)) (V (Proc.devRef .tc main_arg2))
      (V (Proc.devRef .tc main_arg3)) (V (Proc.devRef .tc main_arg4)) := by
  rw [after_ops]
  exact step19 _ _ _ _ _ _ (step18 _ _ _ _ _ _ (step17 _ _ _ _ _ _ (step16 _ _ _ _ _ _ (step15 _ _ _ _ _ _ (step14 _ _ _ _ _ _ (step13 _ _ _ _ _ _ (step12 _ _ _ _ _ _ (step11 _ _ _ _ _ _ (step10 _ _ _ _ _ _ (step09 _ _ _ _ _ _ (step08 _ _ _ _ _ _ (step07 _ _ _ _ _ _ (step06 _ _ _ _ _ _ (step05 _ _ _ _ _ _ (step04 _ _ _ _ _ _ (step03 _ _ _ _ _ _ (step02 _ _ _ _ _ _ (step01 _ _ _ _ _ _ (live_start V)))))))))))))))))))

/-- On every device, from any memory with zero counters: every weakly fair execution of @main terminates with the
    returned array at `result` of the argument arrays, and the argument arrays unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v208)
          = result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run defs _ _).mono (fun _ h c =>
      have L := live_end (launchContents m c)
      ⟨(h c main_v208).trans L.v208, (h c main_arg0).trans L.arg0, (h c main_arg1).trans L.arg1, (h c main_arg2).trans L.arg2,
        (h c main_arg3).trans L.arg3, (h c main_arg4).trans L.arg4⟩)
    (run_seq scopedRefs_eq scopedSems_eq defs main (fun _ => ops) main_eq (fun _ => ops_sub) m ρ (fun _ => ops_fresh))

/-- The frame claim: the run, its result dropped. -/
theorem frame : Cert.frame_ReferenceIdeal :=
  fun m ρ _ => (θ_run Cert.ReferenceIdeal.defs _ _).mono (fun _ h c => (h c).2) (run m ρ)

end Cert.ReferenceIdeal.RefRun

end
-- ==== Proof.KValPieceI.lean ====
/-
  The value of `KernelIdeal`'s region, part one: what each control case stores, as the body's arithmetic.

  The run of a case found the one piece the output buffer ends with; read back, that piece is the
  payload the printed body computes from the point's coordinates and the 512 rows of the coefficient
  table that the tile's rows name (zeros in the zero-store case).
-/
import proofs.«134289_j17918603559171_2_alg».proof.Proof.FrmI
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The first row of the tile, `512 · ti`, and its first column, `1024 · tj`, as the body computes them. -/
def v1w (t : Fin cfg0.N) : BitVec 32 := Scalar.muli (BitVec.ofNat 32 (grid0.coords t 1).val) 512#32
def v2w (t : Fin cfg0.N) : BitVec 32 := Scalar.muli (BitVec.ofNat 32 (grid0.coords t 2).val) 1024#32

theorem hzOut : (![0, 0] : Fin S512x1024.rank → Nat) = fun _ => 0 := by
  funext a; fin_cases a <;> rfl

set_option maxHeartbeats 2000000 in
theorem outZ_eq (c : Dev nD) (t : Fin cfg0.N) (h : cw t 0 = 1#1) (x0 : Vec F S4096x128 .f32) :
    outZ (F := F) c t h x0 = k0_pay11 (F := F) := by
  unfold outZ
  rw [View.read_writes_eq_canon _ _ _ (coverZ c t h x0)]
  unfold runZ
  dsimp only
  rw [View.canon_unit_zero hzOut]
  all_goals (try sl_unfold_run_names)
  all_goals (try simp only [View.readAt_eq_ld, (hs0 t).read_unread])
  all_goals (try rfl)

set_option maxHeartbeats 2000000 in
theorem outA_eq (c : Dev nD) (t : Fin cfg0.N) (h : cw t 1 = 1#1) (h' : k0_cond2 (grid0.coords t) = 1#1) (x0 : Vec F S4096x128 .f32) :
    outA (F := F) c t h x0 = k0_pay12 (k0_pay7 (v1w t) (v2w t) (View.ld x0 (Rect.unit (s := S4096x128) (k0_off1 (grid0.coords t)) S512x128.size (k0_off1_inb (grid0.coords t) h')))) (k0_pay8 (View.ld x0 (Rect.unit (s := S4096x128) (k0_off1 (grid0.coords t)) S512x128.size (k0_off1_inb (grid0.coords t) h')))) (k0_pay9 (v1w t) (v2w t)) (k0_pay10 (F := F)) := by
  unfold outA
  rw [View.read_writes_eq_canon _ _ _ (coverA c t h x0)]
  unfold runA
  dsimp only
  rw [View.canon_unit_zero hzOut]
  all_goals (try sl_unfold_run_names)
  all_goals (try simp only [View.readAt_eq_ld, (hs0 t).read_unread])
  all_goals (try rfl)

set_option maxHeartbeats 2000000 in
theorem outB_eq (c : Dev nD) (t : Fin cfg0.N) (h : cw t 2 = 1#1) (h' : k0_cond3 (grid0.coords t) = 1#1) (x0 : Vec F S4096x128 .f32) :
    outB (F := F) c t h x0 = k0_pay13 (grid0.coords t) (View.ld x0 (Rect.unit (s := S4096x128) (k0_off2 (grid0.coords t)) S512x128.size (k0_off2_inb (grid0.coords t) h'))) := by
  unfold outB
  rw [View.read_writes_eq_canon _ _ _ (coverB c t h x0)]
  unfold runB
  dsimp only
  rw [View.canon_unit_zero hzOut]
  all_goals (try sl_unfold_run_names)
  all_goals (try simp only [View.readAt_eq_ld, (hs0 t).read_unread])
  all_goals (try rfl)

set_option maxHeartbeats 2000000 in
theorem outC_eq (c : Dev nD) (t : Fin cfg0.N) (h : cw t 3 = 1#1) (h' : k0_cond4 (grid0.coords t) = 1#1) (x0 : Vec F S4096x128 .f32) :
    outC (F := F) c t h x0 = k0_pay14 (grid0.coords t) (View.ld x0 (Rect.unit (s := S4096x128) (k0_off3 (grid0.coords t)) S512x128.size (k0_off3_inb (grid0.coords t) h'))) := by
  unfold outC
  rw [View.read_writes_eq_canon _ _ _ (coverC c t h x0)]
  unfold runC
  dsimp only
  rw [View.canon_unit_zero hzOut]
  all_goals (try sl_unfold_run_names)
  all_goals (try simp only [View.readAt_eq_ld, (hs0 t).read_unread])
  all_goals (try rfl)

set_option maxHeartbeats 2000000 in
theorem outD_eq (c : Dev nD) (t : Fin cfg0.N) (h : cw t 4 = 1#1) (h' : k0_cond5 (grid0.coords t) = 1#1) (x0 : Vec F S4096x128 .f32) :
    outD (F := F) c t h x0 = k0_pay1 (v1w t) (v2w t) (View.ld x0 (Rect.unit (s := S4096x128) (k0_off4 (grid0.coords t)) S512x128.size (k0_off4_inb (grid0.coords t) h'))) := by
  unfold outD
  rw [View.read_writes_eq_canon _ _ _ (coverD c t h x0)]
  unfold runD
  dsimp only
  rw [View.canon_unit_zero hzOut]
  all_goals (try sl_unfold_run_names)
  all_goals (try simp only [View.readAt_eq_ld, (hs0 t).read_unread])
  all_goals (try rfl)

set_option maxHeartbeats 2000000 in
theorem outE_eq (c : Dev nD) (t : Fin cfg0.N) (h : cw t 5 = 1#1) (h' : k0_cond6 (grid0.coords t) = 1#1) (x0 : Vec F S4096x128 .f32) :
    outE (F := F) c t h x0 = k0_pay2 (v1w t) (v2w t) (View.ld x0 (Rect.unit (s := S4096x128) (k0_off5 (grid0.coords t)) S512x128.size (k0_off5_inb (grid0.coords t) h'))) := by
  unfold outE
  rw [View.read_writes_eq_canon _ _ _ (coverE c t h x0)]
  unfold runE
  dsimp only
  rw [View.canon_unit_zero hzOut]
  all_goals (try sl_unfold_run_names)
  all_goals (try simp only [View.readAt_eq_ld, (hs0 t).read_unread])
  all_goals (try rfl)

set_option maxHeartbeats 2000000 in
theorem outG_eq (c : Dev nD) (t : Fin cfg0.N) (h : cw t 6 = 1#1) (h' : k0_cond7 (grid0.coords t) = 1#1) (x0 : Vec F S4096x128 .f32) :
    outG (F := F) c t h x0 = k0_pay3 (v1w t) (v2w t) (View.ld x0 (Rect.unit (s := S4096x128) (k0_off6 (grid0.coords t)) S512x128.size (k0_off6_inb (grid0.coords t) h'))) := by
  unfold outG
  rw [View.read_writes_eq_canon _ _ _ (coverG c t h x0)]
  unfold runG
  dsimp only
  rw [View.canon_unit_zero hzOut]
  all_goals (try sl_unfold_run_names)
  all_goals (try simp only [View.readAt_eq_ld, (hs0 t).read_unread])
  all_goals (try rfl)

set_option maxHeartbeats 2000000 in
theorem outI_eq (c : Dev nD) (t : Fin cfg0.N) (h : cw t 7 = 1#1) (h' : k0_cond8 (grid0.coords t) = 1#1) (x0 : Vec F S4096x128 .f32) :
    outI (F := F) c t h x0 = k0_pay4 (v1w t) (v2w t) (View.ld x0 (Rect.unit (s := S4096x128) (k0_off7 (grid0.coords t)) S512x128.size (k0_off7_inb (grid0.coords t) h'))) := by
  unfold outI
  rw [View.read_writes_eq_canon _ _ _ (coverI c t h x0)]
  unfold runI
  dsimp only
  rw [View.canon_unit_zero hzOut]
  all_goals (try sl_unfold_run_names)
  all_goals (try simp only [View.readAt_eq_ld, (hs0 t).read_unread])
  all_goals (try rfl)

end Cert.KernelIdeal.Frm

end
-- ==== Proof.KValPayI.lean ====
/-
  The value of `KernelIdeal`'s region, part two: the body's arithmetic read at an entry of the tile.

  Entry (p, q) of a tile gets, for each offset of its block's band, the entry of the offset's
  coefficient column at row p when column − row of the entry equals the offset, and zero otherwise,
  summed from zero in the block's order of offsets. Column − row is kept here as the body's own 32-bit
  word (`dW`); its arithmetic is a later step.
-/
import proofs.«134289_j17918603559171_2_alg».proof.Proof.KValPieceI
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.ValueIdx

/-- Column − row of entry (p, q) of the tile whose first row is `v1` and first column `v2`, as the
    body's 32-bit word: `(v2 − v1) + q − p`. -/
def dW (v1 v2 : BitVec 32) (p : Fin 512) (q : Fin 1024) : BitVec 32 :=
  (subi (addi (broadcast S512x1024 (Scalar.subi v2 v1)) (iota .tc S512x1024 32 [1] iota_S512x1024_d1_w32))
    (iota .tc S512x1024 32 [0] iota_S512x1024_d0_w32)) (ix2 p q)

/-- One selected column: `x` when column − row is `off`, else zero. -/
def sel (v1 v2 : BitVec 32) (p : Fin 512) (q : Fin 1024) (off : BitVec 32) (x : EReal) : EReal :=
  Scalar.select (IntOp.cmpi .eq (dW v1 v2 p q) off) x 0

/-- The zero word is zero. -/
theorem zeroW : (FloatOps.ofBits (F := Ideal) FTy.f32 0#32 : EReal) = 0 := Ideal.ofBits_zero_f32

/-- Lane `j` of the tile's rows, broadcast along the tile's columns, read at (p, q): the table's
    entry (p, j). -/
theorem col_read (T : Vec Ideal S512x128 .f32) (j : Nat) (hj : j < 128) (hs : S512x128.Slices ![0, j] S512x1) (p : Fin 512) (q : Fin 1024) :
    broadcastTo S512x1024 (shapeCast S512x1 (extractStridedSlice S512x1 ![0, j] (shapeCast S512x128 T shapeCasts_S512x128_S512x128) hs)
      shapeCasts_S512x1_S512x1) broadcasts_S512x1_S512x1024 (ix2 p q) = T (ix2 p ⟨j, hj⟩) := by
  rw [shapeCast_self, shapeCast_self]
  unfold broadcastTo extractStridedSlice
  refine congrArg T (funext fun a => Fin.ext ?_)
  fin_cases a
  · show 0 + (p : ℕ) = (p : ℕ)
    exact Nat.zero_add _
  · show j + 0 = j
    rfl

/-- The zero store. -/
theorem pay11_at (p : Fin 512) (q : Fin 1024) : k0_pay11 (F := Ideal) (ix2 p q) = 0 := by
  exact zeroW

theorem pay1_at (v1 v2 : BitVec 32) (T : Vec Ideal S512x128 .f32) (p : Fin 512) (q : Fin 1024) :
    k0_pay1 (F := Ideal) v1 v2 T (ix2 p q) = ((0 + sel v1 v2 p q 0#32 (T (ix2 p ⟨9, by norm_num⟩))) + sel v1 v2 p q 4294967232#32 (T (ix2 p ⟨10, by norm_num⟩))) := by
  unfold k0_pay1
  dsimp only
  simp only [addf_apply, select_apply, broadcast_apply]
  rw [col_read T 9 (by norm_num) _ p q, col_read T 10 (by norm_num) _ p q]
  simp only [zeroW]
  rfl

theorem pay2_at (v1 v2 : BitVec 32) (T : Vec Ideal S512x128 .f32) (p : Fin 512) (q : Fin 1024) :
    k0_pay2 (F := Ideal) v1 v2 T (ix2 p q) = (0 + sel v1 v2 p q 0#32 (T (ix2 p ⟨11, by norm_num⟩))) := by
  unfold k0_pay2
  dsimp only
  simp only [addf_apply, select_apply, broadcast_apply]
  rw [col_read T 11 (by norm_num) _ p q]
  simp only [zeroW]
  rfl

theorem pay3_at (v1 v2 : BitVec 32) (T : Vec Ideal S512x128 .f32) (p : Fin 512) (q : Fin 1024) :
    k0_pay3 (F := Ideal) v1 v2 T (ix2 p q) = ((0 + sel v1 v2 p q 0#32 (T (ix2 p ⟨12, by norm_num⟩))) + sel v1 v2 p q 4294967295#32 (T (ix2 p ⟨13, by norm_num⟩))) := by
  unfold k0_pay3
  dsimp only
  simp only [addf_apply, select_apply, broadcast_apply]
  rw [col_read T 12 (by norm_num) _ p q, col_read T 13 (by norm_num) _ p q]
  simp only [zeroW]
  rfl

theorem pay4_at (v1 v2 : BitVec 32) (T : Vec Ideal S512x128 .f32) (p : Fin 512) (q : Fin 1024) :
    k0_pay4 (F := Ideal) v1 v2 T (ix2 p q) = (0 + sel v1 v2 p q 0#32 (T (ix2 p ⟨14, by norm_num⟩))) := by
  unfold k0_pay4
  dsimp only
  simp only [addf_apply, select_apply, broadcast_apply]
  rw [col_read T 14 (by norm_num) _ p q]
  simp only [zeroW]
  rfl

theorem pay12_at (v1 v2 : BitVec 32) (T : Vec Ideal S512x128 .f32) (p : Fin 512) (q : Fin 1024) :
    k0_pay12 (k0_pay7 (F := Ideal) v1 v2 T) (k0_pay8 T) (k0_pay9 v1 v2) (k0_pay10 (F := Ideal)) (ix2 p q) = (((((0 + sel v1 v2 p q 0#32 (T (ix2 p ⟨0, by norm_num⟩))) + sel v1 v2 p q 4294967232#32 (T (ix2 p ⟨1, by norm_num⟩))) + sel v1 v2 p q 64#32 (T (ix2 p ⟨2, by norm_num⟩))) + sel v1 v2 p q 4294967295#32 (T (ix2 p ⟨3, by norm_num⟩))) + sel v1 v2 p q 1#32 (T (ix2 p ⟨4, by norm_num⟩))) := by
  unfold k0_pay12 k0_pay7 k0_pay8 k0_pay9 k0_pay10 k0_pay5 k0_pay6
  dsimp only
  simp only [addf_apply, select_apply, broadcast_apply]
  rw [col_read T 0 (by norm_num) _ p q, col_read T 1 (by norm_num) _ p q, col_read T 2 (by norm_num) _ p q, col_read T 3 (by norm_num) _ p q, col_read T 4 (by norm_num) _ p q]
  simp only [zeroW]
  rfl

theorem pay13_at (i : grid0.Coords) (T : Vec Ideal S512x128 .f32) (p : Fin 512) (q : Fin 1024) :
    k0_pay13 (F := Ideal) i T (ix2 p q) = ((0 + sel (Scalar.muli (BitVec.ofNat 32 (i 1).val) 512#32) (Scalar.muli (BitVec.ofNat 32 (i 2).val) 1024#32) p q 0#32 (T (ix2 p ⟨5, by norm_num⟩))) + sel (Scalar.muli (BitVec.ofNat 32 (i 1).val) 512#32) (Scalar.muli (BitVec.ofNat 32 (i 2).val) 1024#32) p q 64#32 (T (ix2 p ⟨6, by norm_num⟩))) := by
  unfold k0_pay13
  dsimp only
  simp only [addf_apply, select_apply, broadcast_apply]
  rw [col_read T 5 (by norm_num) _ p q, col_read T 6 (by norm_num) _ p q]
  simp only [zeroW]
  rfl

theorem pay14_at (i : grid0.Coords) (T : Vec Ideal S512x128 .f32) (p : Fin 512) (q : Fin 1024) :
    k0_pay14 (F := Ideal) i T (ix2 p q) = ((0 + sel (Scalar.muli (BitVec.ofNat 32 (i 1).val) 512#32) (Scalar.muli (BitVec.ofNat 32 (i 2).val) 1024#32) p q 0#32 (T (ix2 p ⟨7, by norm_num⟩))) + sel (Scalar.muli (BitVec.ofNat 32 (i 1).val) 512#32) (Scalar.muli (BitVec.ofNat 32 (i 2).val) 1024#32) p q 1#32 (T (ix2 p ⟨8, by norm_num⟩))) := by
  unfold k0_pay14
  dsimp only
  simp only [addf_apply, select_apply, broadcast_apply]
  rw [col_read T 7 (by norm_num) _ p q, col_read T 8 (by norm_num) _ p q]
  simp only [zeroW]
  rfl

end Cert.KernelIdeal.Frm

end
-- ==== Proof.KValArithI.lean ====
/-
  The value of `KernelIdeal`'s region, part three: column − row as a number, and an entry's band sum.

  For a tile whose first row is 512·ti and first column 1024·tj (ti < 8, tj < 4) and an entry (p, q)
  of it, the body's 32-bit word for column − row does not wrap, so "the word equals the offset" is the
  plain equation between the entry's column 1024·tj + q and its row 512·ti + p shifted by the offset.
  An entry's value is then the sum, from zero and in the block's order of offsets, of the offset's
  column at the entry's row where the equation holds (`bandsum`).
-/
import proofs.«134289_j17918603559171_2_alg».proof.Proof.KValPayI
import Idealize.ShloMosaic.Lib.Affine

set_option maxRecDepth 16384

noncomputable section

namespace Cert.KernelIdeal.Frm

open Cert.KernelIdeal Cert.KernelIdeal.Gen
open Idealize.ShloMosaic Idealize.ShloMosaic.TcCoe Idealize.ShloMosaic.ValueIdx

theorem dW_eq (v1 v2 : BitVec 32) (p : Fin 512) (q : Fin 1024) :
    dW v1 v2 p q = (v2 - v1 + BitVec.ofNat 32 q.val) - BitVec.ofNat 32 p.val := by
  unfold dW
  show IntOp.subi (IntOp.addi (Scalar.subi v2 v1) (iota .tc S512x1024 32 [1] iota_S512x1024_d1_w32 (ix2 p q))) (iota .tc S512x1024 32 [0] iota_S512x1024_d0_w32 (ix2 p q)) = _
  rw [iota_single_apply, iota_single_apply]
  rfl

theorem dW_zero (ti tj : Nat) (hti : ti < 8) (htj : tj < 4) (p : Fin 512) (q : Fin 1024) :
    dW (Scalar.muli (BitVec.ofNat 32 ti) 512#32) (Scalar.muli (BitVec.ofNat 32 tj) 1024#32) p q = 0#32 ↔ 1024 * tj + q.val = 512 * ti + p.val := by
  rw [dW_eq]
  show (BitVec.ofNat 32 tj * 1024#32 - BitVec.ofNat 32 ti * 512#32 + BitVec.ofNat 32 q.val) - BitVec.ofNat 32 p.val = 0#32 ↔ _
  have hp := p.isLt; have hq := q.isLt
  constructor
  · intro h; bv_omega
  · intro h; bv_omega

theorem dW_m64 (ti tj : Nat) (hti : ti < 8) (htj : tj < 4) (p : Fin 512) (q : Fin 1024) :
    dW (Scalar.muli (BitVec.ofNat 32 ti) 512#32) (Scalar.muli (BitVec.ofNat 32 tj) 1024#32) p q = 4294967232#32 ↔ 1024 * tj + q.val + 64 = 512 * ti + p.val := by
  rw [dW_eq]
  show (BitVec.ofNat 32 tj * 1024#32 - BitVec.ofNat 32 ti * 512#32 + BitVec.ofNat 32 q.val) - BitVec.ofNat 32 p.val = 4294967232#32 ↔ _
  have hp := p.isLt; have hq := q.isLt
  constructor
  · intro h; bv_omega
  · intro h; bv_omega

theorem dW_p64 (ti tj : Nat) (hti : ti < 8) (htj : tj < 4) (p : Fin 512) (q : Fin 1024) :
    dW (Scalar.muli (BitVec.ofNat 32 ti) 512#32) (Scalar.muli (BitVec.ofNat 32 tj) 1024#32) p q = 64#32 ↔ 1024 * tj + q.val = 512 * ti + p.val + 64 := by
  rw [dW_eq]
  show (BitVec.ofNat 32 tj * 1024#32 - BitVec.ofNat 32 ti * 512#32 + BitVec.ofNat 32 q.val) - BitVec.ofNat 32 p.val = 64#32 ↔ _
  have hp := p.isLt; have hq := q.isLt
  constructor
  · intro h; bv_omega
  · intro h; bv_omega

theorem dW_m1 (ti tj : Nat) (hti : ti < 8) (htj : tj < 4) (p : Fin 512) (q : Fin 1024) :
    dW (Scalar.muli (BitVec.ofNat 32 ti) 512#32) (Scalar.muli (BitVec.ofNat 32 tj) 1024#32) p q = 4294967295#32 ↔ 1024 * tj + q.val + 1 = 512 * ti + p.val := by
  rw [dW_eq]
  show (BitVec.ofNat 32 tj * 1024#32 - BitVec.ofNat 32 ti * 512#32 + BitVec.ofNat 32 q.val) - BitVec.ofNat 32 p.val = 4294967295#32 ↔ _
  have hp := p.isLt; have hq := q.isLt
  constructor
  · intro h; bv_omega
  · intro h; bv_omega

theorem dW_p1 (ti tj : Nat) (hti : ti < 8) (htj : tj < 4) (p : Fin 512) (q : Fin 1024) :
    dW (Scalar.muli (BitVec.ofNat 32 ti) 512#32) (Scalar.muli (BitVec.ofNat 32 tj) 1024#32) p q = 1#32 ↔ 1024 * tj + q.val = 512 * ti + p.val + 1 := by
  rw [dW_eq]
  show (BitVec.ofNat 32 tj * 1024#32 - BitVec.ofNat 32 ti * 512#32 + BitVec.ofNat 32 q.val) - BitVec.ofNat 32 p.val = 1#32 ↔ _
  have hp := p.isLt; have hq := q.isLt
  constructor
  · intro h; bv_omega
  · intro h; bv_omega

/-- A selected column is the column's entry where the offset's equation holds, else zero. -/
theorem sel_of_iff (v1 v2 : BitVec 32) (p : Fin 512) (q : Fin 1024) (off : BitVec 32) (x : EReal) (P : Prop) [Decidable P]
    (h : dW v1 v2 p q = off ↔ P) : sel v1 v2 p q off x = if P then x else 0 := by
  unfold sel Scalar.select
  by_cases hp : P
  · rw [if_pos hp]; exact if_pos (IntOp.cmpi_eq.2 (h.2 hp))
  · rw [if_neg hp]; exact if_neg (fun hc => hp (h.1 (IntOp.cmpi_eq.1 hc)))

/-- The entry at row `r`, column `cc` of block `bt` (blocks numbered row-major 0 … 8), from the fifteen
    coefficient columns at row `r`: the block's offsets in the body's order, summed from zero. -/
def bandsum (bt r cc : ℕ) (col : Fin 15 → EReal) : EReal :=
  if bt = 0 then ((((0 + (if cc = r then col 0 else 0)) + (if cc + 64 = r then col 1 else 0)) + (if cc = r + 64 then col 2 else 0))
      + (if cc + 1 = r then col 3 else 0)) + (if cc = r + 1 then col 4 else 0)
  else if bt = 1 then (0 + (if cc = r then col 5 else 0)) + (if cc = r + 64 then col 6 else 0)
  else if bt = 2 then (0 + (if cc = r then col 7 else 0)) + (if cc = r + 1 then col 8 else 0)
  else if bt = 3 then (0 + (if cc = r then col 9 else 0)) + (if cc + 64 = r then col 10 else 0)
  else if bt = 4 then 0 + (if cc = r then col 11 else 0)
  else if bt = 6 then (0 + (if cc = r then col 12 else 0)) + (if cc + 1 = r then col 13 else 0)
  else if bt = 8 then 0 + (if cc = r then col 14 else 0)
  else 0

/-- Off every band the band sum is zero. -/
theorem bandsum_off (bt r cc : ℕ) (col : Fin 15 → EReal) (h : cc + 64 < r ∨ r + 64 < cc) : bandsum bt r cc col = 0 := by
  have e0 : ¬cc = r := by omega
  have e1 : ¬cc + 64 = r := by omega
  have e2 : ¬cc = r + 64 := by omega
  have e3 : ¬cc + 1 = r := by omega
  have e4 : ¬cc = r + 1 := by omega
  unfold bandsum
  simp only [if_neg e0, if_neg e1, if_neg e2, if_neg e3, if_neg e4, add_zero, ite_self]

/-! ## The grid: which block a case is in, where a tile starts, where its block goes -/

/-- The case a point is in names its block; the zero store is of an always-zero block or of a tile off
    every band — decided over the grid. -/
theorem case_block : ∀ t : Fin cfg0.N,
    (cw t 1 = 1#1 → (grid0.coords t 0).val = 0) ∧ (cw t 2 = 1#1 → (grid0.coords t 0).val = 1) ∧ (cw t 3 = 1#1 → (grid0.coords t 0).val = 2)
    ∧ (cw t 4 = 1#1 → (grid0.coords t 0).val = 3) ∧ (cw t 5 = 1#1 → (grid0.coords t 0).val = 4) ∧ (cw t 6 = 1#1 → (grid0.coords t 0).val = 6)
    ∧ (cw t 7 = 1#1 → (grid0.coords t 0).val = 8)
    ∧ (cw t 0 = 1#1 → ((grid0.coords t 0).val = 5 ∨ (grid0.coords t 0).val = 7
        ∨ 1024 * (grid0.coords t 2).val + 1023 + 64 < 512 * (grid0.coords t 1).val
        ∨ 512 * (grid0.coords t 1).val + 511 + 64 < 1024 * (grid0.coords t 2).val)) :=
  (by decide +kernel : ∀ t : Fin grid0.N, _)

/-- The rows of the table a tile loads start at the tile's first row — decided over the grid. -/
theorem off_rows : ∀ t : Fin cfg0.N,
    k0_off1 (grid0.coords t) = ![512 * (grid0.coords t 1).val, 0] ∧ k0_off2 (grid0.coords t) = ![512 * (grid0.coords t 1).val, 0]
    ∧ k0_off3 (grid0.coords t) = ![512 * (grid0.coords t 1).val, 0] ∧ k0_off4 (grid0.coords t) = ![512 * (grid0.coords t 1).val, 0]
    ∧ k0_off5 (grid0.coords t) = ![512 * (grid0.coords t 1).val, 0] ∧ k0_off6 (grid0.coords t) = ![512 * (grid0.coords t 1).val, 0]
    ∧ k0_off7 (grid0.coords t) = ![512 * (grid0.coords t 1).val, 0] :=
  (by decide +kernel : ∀ t : Fin grid0.N, _)

/-- The output's block index at a point, and the table's — decided over the grid. -/
theorem idx_out : ∀ t : Fin cfg0.N,
    win0_1.index t (0 : Fin 2) = (grid0.coords t 0).val / 3 * 8 + (grid0.coords t 1).val
    ∧ win0_1.index t (1 : Fin 2) = (grid0.coords t 0).val % 3 * 4 + (grid0.coords t 2).val
    ∧ win0_0.index t (0 : Fin 2) = 0 ∧ win0_0.index t (1 : Fin 2) = 0
    ∧ (grid0.coords t 0).val < 9 ∧ (grid0.coords t 1).val < 8 ∧ (grid0.coords t 2).val < 4 :=
  (by decide +kernel : ∀ t : Fin grid0.N, _)

/-- Every block of the output is some point's — decided over the grid. -/
theorem idx_onto : ∀ (b : Fin 9) (ti : Fin 8) (tj : Fin 4), ∃ t : Fin cfg0.N,
    (grid0.coords t 0).val = b.val ∧ (grid0.coords t 1).val = ti.val ∧ (grid0.coords t 2).val = tj.val :=
  (by decide +kernel : ∀ (b : Fin 9) (ti : Fin 8) (tj : Fin 4), ∃ t : Fin grid0.N, _)

end Cert.KernelIdeal.Frm

end
-- ==== Proof.KValTileI.lean ====
/-
  The value of `KernelIdeal`'s region, part four: from tiles to the whole matrix.

  At a point of the grid the tile written back holds, at entry (p, q), the band sum of the tile's block
  at row 512·ti + p and column 1024·tj + q over the coefficient table's row (`outsAt_at`): case by case
  the body's selected columns are the band sum's terms, and in the zero-store case the band sum vanishes
  because the block is an always-zero one or the tile lies off every band. The tile of point
  (b, ti, tj) is block (8·(b / 3) + ti, 4·(b % 3) + tj) of the 12288 × 12288 result, so the tiles cover
  it and the result is `KSpec` of the table: entry (R, C) is the band sum of block 3·(R / 4096) +
  C / 4096 at row R % 4096, column C % 4096.
-/
import proofs.«134289_j17918603559171_2_alg».proof.Proof.KValArithI

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The table row an entry of a tile reads: the tile's first row plus the entry's row in the tile. -/
def rowOf (t : Fin cfg0.N) (p : Fin 512) : Fin 4096 :=
  ⟨512 * (grid0.coords t 1).val + p.val, by have h := (idx_out t).2.2.2.2.2.1; have := p.isLt; omega⟩

/-- The coefficient table as the region finds it. -/
def tbl (c : Dev nD) : S4096x128.Idx → EReal := V m c main_v155

/-- The table's window is the whole table at every point. -/
theorem iblk0_eq (c : Dev nD) (t : Fin cfg0.N) : (iblk m c 0 t : Vec Ideal S4096x128 .f32) = tbl m c := by
  funext y
  show V m c main_v155 (((cfg0.win 0).blk t).view.emb y) = V m c main_v155 y
  refine congrArg _ (funext fun a => Fin.ext ?_)
  obtain ⟨-, -, e0, e1, -, -, -⟩ := idx_out t
  match a with
  | ⟨0, _⟩ => show win0_0.index t (0 : Fin 2) * 4096 + 1 * (y 0).val = (y 0).val; omega
  | ⟨1, _⟩ => show win0_0.index t (1 : Fin 2) * 128 + 1 * (y 1).val = (y 1).val; omega

/-- The 512 rows a tile loads, read at (p, j): the table's row 512·ti + p. -/
theorem tile_at (c : Dev nD) (t : Fin cfg0.N) (off : Fin 2 → Nat) (inb) (hoff : off = ![512 * (grid0.coords t 1).val, 0]) (hti : (grid0.coords t 1).val < 8)
    (x0 : Vec Ideal S4096x128 .f32) (p : Fin 512) (j : Fin 128) :
    View.ld x0 (Rect.unit (s := S4096x128) off S512x128.size inb) (ix2 p j)
      = x0 (ix2 (rowOf t p) j) := by
  subst hoff
  show x0 ((Rect.unit (s := S4096x128) ![512 * (grid0.coords t 1).val, 0] S512x128.size inb).emb (ix2 p j)) = _
  refine congrArg x0 (funext fun a => Fin.ext ?_)
  rw [Rect.emb_apply]
  match a with
  | ⟨0, _⟩ => show 512 * (grid0.coords t 1).val + 1 * p.val = 512 * (grid0.coords t 1).val + p.val; omega
  | ⟨1, _⟩ => show 0 + 1 * j.val = j.val; omega

theorem valA (c : Dev nD) (t : Fin cfg0.N) (h : cw t 1 = 1#1) (p : Fin 512) (q : Fin 1024) :
    outsAt (F := Ideal) m c t (ix2 p q) = bandsum (grid0.coords t 0).val (512 * (grid0.coords t 1).val + p.val) (1024 * (grid0.coords t 2).val + q.val) (fun j => tbl m c (ix2 (rowOf t p) ⟨j.val, by have := j.isLt; omega⟩)) := by
  obtain ⟨hb, -, -, -, -, -, -, -⟩ := case_block t
  obtain ⟨ho, -, -, -, -, -, -⟩ := off_rows t
  obtain ⟨-, -, -, -, -, hti, htj⟩ := idx_out t
  have h' : k0_cond2 (grid0.coords t) = 1#1 := h
  rw [outsAt_A m c t h, outA_eq c t h h', iblk0_eq, pay12_at, hb h]
  try simp only [v1w, v2w]
  rw [sel_of_iff _ _ p q _ _ _ (dW_zero (grid0.coords t 1).val (grid0.coords t 2).val hti htj p q),
    sel_of_iff _ _ p q _ _ _ (dW_m64 (grid0.coords t 1).val (grid0.coords t 2).val hti htj p q),
    sel_of_iff _ _ p q _ _ _ (dW_p64 (grid0.coords t 1).val (grid0.coords t 2).val hti htj p q),
    sel_of_iff _ _ p q _ _ _ (dW_m1 (grid0.coords t 1).val (grid0.coords t 2).val hti htj p q),
    sel_of_iff _ _ p q _ _ _ (dW_p1 (grid0.coords t 1).val (grid0.coords t 2).val hti htj p q)]
  rw [tile_at c t _ _ ho hti (tbl m c) p ⟨0, by norm_num⟩, tile_at c t _ _ ho hti (tbl m c) p ⟨1, by norm_num⟩, tile_at c t _ _ ho hti (tbl m c) p ⟨2, by norm_num⟩, tile_at c t _ _ ho hti (tbl m c) p ⟨3, by norm_num⟩, tile_at c t _ _ ho hti (tbl m c) p ⟨4, by norm_num⟩]
  rfl

theorem valB (c : Dev nD) (t : Fin cfg0.N) (h : cw t 2 = 1#1) (p : Fin 512) (q : Fin 1024) :
    outsAt (F := Ideal) m c t (ix2 p q) = bandsum (grid0.coords t 0).val (512 * (grid0.coords t 1).val + p.val) (1024 * (grid0.coords t 2).val + q.val) (fun j => tbl m c (ix2 (rowOf t p) ⟨j.val, by have := j.isLt; omega⟩)) := by
  obtain ⟨-, hb, -, -, -, -, -, -⟩ := case_block t
  obtain ⟨-, ho, -, -, -, -, -⟩ := off_rows t
  obtain ⟨-, -, -, -, -, hti, htj⟩ := idx_out t
  have h' : k0_cond3 (grid0.coords t) = 1#1 := h
  rw [outsAt_B m c t h, outB_eq c t h h', iblk0_eq, pay13_at, hb h]
  try simp only [v1w, v2w]
  rw [sel_of_iff _ _ p q _ _ _ (dW_zero (grid0.coords t 1).val (grid0.coords t 2).val hti htj p q),
    sel_of_iff _ _ p q _ _ _ (dW_p64 (grid0.coords t 1).val (grid0.coords t 2).val hti htj p q)]
  rw [tile_at c t _ _ ho hti (tbl m c) p ⟨5, by norm_num⟩, tile_at c t _ _ ho hti (tbl m c) p ⟨6, by norm_num⟩]
  rfl

theorem valC (c : Dev nD) (t : Fin cfg0.N) (h : cw t 3 = 1#1) (p : Fin 512) (q : Fin 1024) :
    outsAt (F := Ideal) m c t (ix2 p q) = bandsum (grid0.coords t 0).val (512 * (grid0.coords t 1).val + p.val) (1024 * (grid0.coords t 2).val + q.val) (fun j => tbl m c (ix2 (rowOf t p) ⟨j.val, by have := j.isLt; omega⟩)) := by
  obtain ⟨-, -, hb, -, -, -, -, -⟩ := case_block t
  obtain ⟨-, -, ho, -, -, -, -⟩ := off_rows t
  obtain ⟨-, -, -, -, -, hti, htj⟩ := idx_out t
  have h' : k0_cond4 (grid0.coords t) = 1#1 := h
  rw [outsAt_C m c t h, outC_eq c t h h', iblk0_eq, pay14_at, hb h]
  try simp only [v1w, v2w]
  rw [sel_of_iff _ _ p q _ _ _ (dW_zero (grid0.coords t 1).val (grid0.coords t 2).val hti htj p q),
    sel_of_iff _ _ p q _ _ _ (dW_p1 (grid0.coords t 1).val (grid0.coords t 2).val hti htj p q)]
  rw [tile_at c t _ _ ho hti (tbl m c) p ⟨7, by norm_num⟩, tile_at c t _ _ ho hti (tbl m c) p ⟨8, by norm_num⟩]
  rfl

theorem valD (c : Dev nD) (t : Fin cfg0.N) (h : cw t 4 = 1#1) (p : Fin 512) (q : Fin 1024) :
    outsAt (F := Ideal) m c t (ix2 p q) = bandsum (grid0.coords t 0).val (512 * (grid0.coords t 1).val + p.val) (1024 * (grid0.coords t 2).val + q.val) (fun j => tbl m c (ix2 (rowOf t p) ⟨j.val, by have := j.isLt; omega⟩)) := by
  obtain ⟨-, -, -, hb, -, -, -, -⟩ := case_block t
  obtain ⟨-, -, -, ho, -, -, -⟩ := off_rows t
  obtain ⟨-, -, -, -, -, hti, htj⟩ := idx_out t
  have h' : k0_cond5 (grid0.coords t) = 1#1 := h
  rw [outsAt_D m c t h, outD_eq c t h h', iblk0_eq, pay1_at, hb h]
  try simp only [v1w, v2w]
  rw [sel_of_iff _ _ p q _ _ _ (dW_zero (grid0.coords t 1).val (grid0.coords t 2).val hti htj p q),
    sel_of_iff _ _ p q _ _ _ (dW_m64 (grid0.coords t 1).val (grid0.coords t 2).val hti htj p q)]
  rw [tile_at c t _ _ ho hti (tbl m c) p ⟨9, by norm_num⟩, tile_at c t _ _ ho hti (tbl m c) p ⟨10, by norm_num⟩]
  rfl

theorem valE (c : Dev nD) (t : Fin cfg0.N) (h : cw t 5 = 1#1) (p : Fin 512) (q : Fin 1024) :
    outsAt (F := Ideal) m c t (ix2 p q) = bandsum (grid0.coords t 0).val (512 * (grid0.coords t 1).val + p.val) (1024 * (grid0.coords t 2).val + q.val) (fun j => tbl m c (ix2 (rowOf t p) ⟨j.val, by have := j.isLt; omega⟩)) := by
  obtain ⟨-, -, -, -, hb, -, -, -⟩ := case_block t
  obtain ⟨-, -, -, -, ho, -, -⟩ := off_rows t
  obtain ⟨-, -, -, -, -, hti, htj⟩ := idx_out t
  have h' : k0_cond6 (grid0.coords t) = 1#1 := h
  rw [outsAt_E m c t h, outE_eq c t h h', iblk0_eq, pay2_at, hb h]
  try simp only [v1w, v2w]
  rw [sel_of_iff _ _ p q _ _ _ (dW_zero (grid0.coords t 1).val (grid0.coords t 2).val hti htj p q)]
  rw [tile_at c t _ _ ho hti (tbl m c) p ⟨11, by norm_num⟩]
  rfl

theorem valG (c : Dev nD) (t : Fin cfg0.N) (h : cw t 6 = 1#1) (p : Fin 512) (q : Fin 1024) :
    outsAt (F := Ideal) m c t (ix2 p q) = bandsum (grid0.coords t 0).val (512 * (grid0.coords t 1).val + p.val) (1024 * (grid0.coords t 2).val + q.val) (fun j => tbl m c (ix2 (rowOf t p) ⟨j.val, by have := j.isLt; omega⟩)) := by
  obtain ⟨-, -, -, -, -, hb, -, -⟩ := case_block t
  obtain ⟨-, -, -, -, -, ho, -⟩ := off_rows t
  obtain ⟨-, -, -, -, -, hti, htj⟩ := idx_out t
  have h' : k0_cond7 (grid0.coords t) = 1#1 := h
  rw [outsAt_G m c t h, outG_eq c t h h', iblk0_eq, pay3_at, hb h]
  try simp only [v1w, v2w]
  rw [sel_of_iff _ _ p q _ _ _ (dW_zero (grid0.coords t 1).val (grid0.coords t 2).val hti htj p q),
    sel_of_iff _ _ p q _ _ _ (dW_m1 (grid0.coords t 1).val (grid0.coords t 2).val hti htj p q)]
  rw [tile_at c t _ _ ho hti (tbl m c) p ⟨12, by norm_num⟩, tile_at c t _ _ ho hti (tbl m c) p ⟨13, by norm_num⟩]
  rfl

theorem valI (c : Dev nD) (t : Fin cfg0.N) (h : cw t 7 = 1#1) (p : Fin 512) (q : Fin 1024) :
    outsAt (F := Ideal) m c t (ix2 p q) = bandsum (grid0.coords t 0).val (512 * (grid0.coords t 1).val + p.val) (1024 * (grid0.coords t 2).val + q.val) (fun j => tbl m c (ix2 (rowOf t p) ⟨j.val, by have := j.isLt; omega⟩)) := by
  obtain ⟨-, -, -, -, -, -, hb, -⟩ := case_block t
  obtain ⟨-, -, -, -, -, -, ho⟩ := off_rows t
  obtain ⟨-, -, -, -, -, hti, htj⟩ := idx_out t
  have h' : k0_cond8 (grid0.coords t) = 1#1 := h
  rw [outsAt_I m c t h, outI_eq c t h h', iblk0_eq, pay4_at, hb h]
  try simp only [v1w, v2w]
  rw [sel_of_iff _ _ p q _ _ _ (dW_zero (grid0.coords t 1).val (grid0.coords t 2).val hti htj p q)]
  rw [tile_at c t _ _ ho hti (tbl m c) p ⟨14, by norm_num⟩]
  rfl

theorem valZ (c : Dev nD) (t : Fin cfg0.N) (h : cw t 0 = 1#1) (p : Fin 512) (q : Fin 1024) :
    outsAt (F := Ideal) m c t (ix2 p q) = bandsum (grid0.coords t 0).val (512 * (grid0.coords t 1).val + p.val) (1024 * (grid0.coords t 2).val + q.val) (fun j => tbl m c (ix2 (rowOf t p) ⟨j.val, by have := j.isLt; omega⟩)) := by
  obtain ⟨-, -, -, -, -, -, -, hz⟩ := case_block t
  rw [outsAt_Z m c t h, outZ_eq, pay11_at]
  have hp := p.isLt; have hq := q.isLt
  rcases hz h with h5 | h7 | hlo | hhi
  · rw [h5]; rfl
  · rw [h7]; rfl
  · exact (bandsum_off _ _ _ _ (Or.inl (by omega))).symm
  · exact (bandsum_off _ _ _ _ (Or.inr (by omega))).symm

/-- The tile written back at a point, entry by entry. -/
theorem outsAt_at (c : Dev nD) (t : Fin cfg0.N) (p : Fin 512) (q : Fin 1024) :
    outsAt (F := Ideal) m c t (ix2 p q) = bandsum (grid0.coords t 0).val (512 * (grid0.coords t 1).val + p.val) (1024 * (grid0.coords t 2).val + q.val) (fun j => tbl m c (ix2 (rowOf t p) ⟨j.val, by have := j.isLt; omega⟩)) := by
  rcases exh t with h | h | h | h | h | h | h | h
  · exact valZ m c t h p q
  · exact valA m c t h p q
  · exact valB m c t h p q
  · exact valC m c t h p q
  · exact valD m c t h p q
  · exact valE m c t h p q
  · exact valG m c t h p q
  · exact valI m c t h p q

end Cert.KernelIdeal.Frm

end
-- ==== Proof.KValArrI.lean ====
/-
  The value of `KernelIdeal`'s region, part five: the whole result.

  The tile of grid point (b, ti, tj) is block (8·(b / 3) + ti, 4·(b % 3) + tj) of the 12288 × 12288
  result, in tiles of 512 × 1024; entry (p, q) of it is therefore entry (R, C) of the result with
  R = 4096·(b / 3) + 512·ti + p and C = 4096·(b % 3) + 1024·tj + q, that is block b = 3·(R / 4096) +
  C / 4096 at row R % 4096 and column C % 4096. The tiles cover the result, so after the run the
  result is `KSpec` of the coefficient table: each entry its block's band sum over the table's row.
-/
import proofs.«134289_j17918603559171_2_alg».proof.Proof.KValTileI

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The result: entry (R, C) is the band sum of block 3·(R / 4096) + C / 4096 at row R % 4096 and
    column C % 4096, over the coefficient table's row. -/
def KSpec (tb : S4096x128.Idx → EReal) (I : S12288x12288.Idx) : EReal :=
  bandsum (3 * ((I 0).val / 4096) + (I 1).val / 4096) ((I 0).val % 4096) ((I 1).val % 4096)
    (fun j => tb (ix2 ⟨(I 0).val % 4096, Nat.mod_lt _ (by norm_num)⟩ ⟨j.val, by have := j.isLt; omega⟩))

theorem bandsum_congr {bt bt' r r' cc cc' : ℕ} {col col' : Fin 15 → EReal} (hb : bt = bt') (hr : r = r') (hc : cc = cc')
    (hcol : ∀ j, col j = col' j) : bandsum bt r cc col = bandsum bt' r' cc' col' := by
  subst hb hr hc; exact congrArg _ (funext hcol)

/-- What a point writes back is its block of the result. -/
theorem flushed_eq (c : Dev nD) (t : Fin cfg0.N) :
    (dats m 0 c).flushed 1 t = ((cfg0.win 1).blk t).view.read (Elt Ideal) (KSpec (tbl m c)) := by
  show (cfg0.win 1).cut (grid0.coords t) ((dats m 0 c).after 1 t) = _
  rw [after0_1]
  funext y
  obtain ⟨p, q, rfl⟩ : ∃ (p : Fin 512) (q : Fin 1024), y = ix2 p q := ⟨y 0, y 1, eq_ix2 y⟩
  show outsAt (F := Ideal) m c t (ix2 p q) = KSpec (tbl m c) (((cfg0.win 1).blk t).view.emb (ix2 p q))
  rw [outsAt_at]
  obtain ⟨e0, e1, -, -, hbt, hti, htj⟩ := idx_out t
  have hp := p.isLt; have hq := q.isLt
  have hR : ((((cfg0.win 1).blk t).view.emb (ix2 p q)) (0 : Fin 2)).val = ((grid0.coords t 0).val / 3 * 8 + (grid0.coords t 1).val) * 512 + p.val := by
    show win0_1.index t (0 : Fin 2) * 512 + 1 * p.val = _
    rw [e0]; omega
  have hC : ((((cfg0.win 1).blk t).view.emb (ix2 p q)) (1 : Fin 2)).val = ((grid0.coords t 0).val % 3 * 4 + (grid0.coords t 2).val) * 1024 + q.val := by
    show win0_1.index t (1 : Fin 2) * 1024 + 1 * q.val = _
    rw [e1]; omega
  unfold KSpec
  refine bandsum_congr ?_ ?_ ?_ ?_
  · rw [hR, hC]; omega
  · rw [hR]; omega
  · rw [hC]; omega
  · intro j
    refine congrArg (tbl m c) (congrArg (fun x => ix2 x _) (Fin.ext ?_))
    show 512 * (grid0.coords t 1).val + p.val = ((((cfg0.win 1).blk t).view.emb (ix2 p q)) (0 : Fin 2)).val % 4096
    rw [hR]; omega

/-- An index of the result is in a point's block iff each coordinate is in the block's range. -/
theorem mem_blk (t : Fin cfg0.N) (i : S12288x12288.Idx) :
    i ∈ ((cfg0.win 1).blk t).view.set ↔ ∀ a : Fin 2, win0_1.index t a * S512x1024.size a ≤ (i a).val ∧ (i a).val < win0_1.index t a * S512x1024.size a + S512x1024.size a := by
  show i ∈ ((View.whole main_v156).slice (win0_1.rect t)).set ↔ _
  rw [View.set_slice_whole, Rect.mem_set_unit]
  exact Iff.rfl

/-- Every entry of the result is in some point's block. -/
theorem cover (i : S12288x12288.Idx) : ∃ t : Fin cfg0.N, (cfg0.win 1).flush t = true ∧ i ∈ ((cfg0.win 1).blk t).view.set := by
  have hi0 : (i 0).val < 12288 := (i 0).isLt
  have hi1 : (i 1).val < 12288 := (i 1).isLt
  obtain ⟨t, hb, hi, hj⟩ := idx_onto ⟨3 * ((i 0).val / 4096) + (i 1).val / 4096, by omega⟩ ⟨(i 0).val % 4096 / 512, by omega⟩
    ⟨(i 1).val % 4096 / 1024, by omega⟩
  obtain ⟨e0, e1, -, -, -, -, -⟩ := idx_out t
  simp only [] at hb hi hj
  refine ⟨t, flush0_1 t, ?_⟩
  rw [mem_blk]
  intro a
  match a with
  | ⟨0, _⟩ =>
    show win0_1.index t (0 : Fin 2) * 512 ≤ (i 0).val ∧ (i 0).val < win0_1.index t (0 : Fin 2) * 512 + 512
    rw [e0, hb, hi]; omega
  | ⟨1, _⟩ =>
    show win0_1.index t (1 : Fin 2) * 1024 ≤ (i 1).val ∧ (i 1).val < win0_1.index t (1 : Fin 2) * 1024 + 1024
    rw [e1, hb, hj]; omega

/-- The result after the run. -/
theorem final (c : Dev nD) : (dats m 0 c).arrAt 1 cfg0.N = KSpec (tbl m c) :=
  (dats m 0 c).arrAt_eq_of_cover 1 (KSpec (tbl m c)) (fun t _ => flushed_eq m c t) cover

/-- The run of @main with the result named: the band sums of the coefficient table; the arguments
    unchanged. -/
theorem run_value : θ_run defs (onTc (τ := τ) (main (F := Ideal))) ⟨m, fun _ => 0, ρ⟩ (fun r => ∀ c : Dev nD,
      r.2.mem ((c.tc : Thread nD τ).loc main_v156) = KSpec (tbl m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 1).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Frm

end
-- ==== Proof.KHostStages.lean ====
/-
  The host side of the kernel program, stage by stage: every array the program computes before its one
  pallas_call, as a pure function of the five arguments (a0 = c, a1 = kp, a2 = k_x, a3 = k_y, a4 = delta_k),
  each definition exactly one printed operation (or one short chain of them) over earlier names, read at the
  ideal instance.  The last one, `RF`, is the [4096,128] coefficient table the pallas_call takes: fifteen
  row-indexed columns and 113 columns of zero padding.
-/
import proofs.«134289_j17918603559171_2_alg».proof.Proof.Gen.KernelIdeal.Launch
import Idealize.ShloMosaic.PureOps.Ideal

noncomputable section

namespace Cert.KernelIdeal.KHost

open Idealize.ShloMosaic

/-! ## Small pieces used many times -/

/-- The scalar constant of word `w` spread over a [4096] array. -/
def splat4096 (w : BitVec 32) : FVec Ideal S4096 .f32 :=
  broadcastInDim S4096 ![] Gen.bcast_S_S4096 (constant (F := Ideal) S_ .f32 w)

/-- The scalar constant of word `w` spread over a [64] array. -/
def splat64 (w : BitVec 32) : FVec Ideal S64 .f32 :=
  broadcastInDim S64 ![] Gen.bcast_S_S64 (constant (F := Ideal) S_ .f32 w)

/-- The scalar constant of word `w` spread over a [64,64] array. -/
def splat64x64 (w : BitVec 32) : FVec Ideal S64x64 .f32 :=
  broadcastInDim S64x64 ![] Gen.bcast_S_S64x64 (constant (F := Ideal) S_ .f32 w)

/-- A [64,64] array transposed and flattened to [4096] (`x.T.reshape(-1)`). -/
def flatT (x : FVec Ideal S64x64 .f32) : FVec Ideal S4096 .f32 :=
  shapeCast S4096 (transpose S64x64 [1, 0] x Gen.transposes_S64x64_S64x64_1_0) Gen.shapeCasts_S64x64_S4096

/-- A [64] array tiled 64 times to [4096] (`jnp.tile(v, 64)`): viewed [1,64], broadcast to [64,64], flattened. -/
def tile64 (v : FVec Ideal S64 .f32) : FVec Ideal S4096 .f32 :=
  shapeCast S4096 (broadcastInDim S64x64 ![0, 1] Gen.bcast_S1x64_S64x64_0_1 (shapeCast S1x64 v Gen.shapeCasts_S64_S1x64))
    Gen.shapeCasts_S64x64_S4096

/-- Shift towards higher indices by 64, zeros entering at the front: entry `p` is `v (p - 64)`, or 0 for `p < 64`. -/
def shiftDown64 (v : FVec Ideal S4096 .f32) : FVec Ideal S4096 .f32 :=
  concatenate S4096 0 [⟨S64, splat64 0x00000000#32⟩, ⟨S4032, extractStridedSlice S4032 ![0] v Gen.slices_S4096_S4032_0⟩]
    Gen.concatenates_S64_S4032_S4096_d0

/-- Shift towards lower indices by 64, zeros entering at the back: entry `p` is `v (p + 64)`, or 0 past the end. -/
def shiftUp64 (v : FVec Ideal S4096 .f32) : FVec Ideal S4096 .f32 :=
  concatenate S4096 0 [⟨S4032, extractStridedSlice S4032 ![64] v Gen.slices_S4096_S4032_64⟩, ⟨S64, splat64 0x00000000#32⟩]
    Gen.concatenates_S4032_S64_S4096_d0

/-- Shift towards lower indices by 1, a zero entering at the back: entry `p` is `v (p + 1)`, or 0 at the last one. -/
def shiftUp1 (v : FVec Ideal S4096 .f32) : FVec Ideal S4096 .f32 :=
  concatenate S4096 0 [⟨S4095, extractStridedSlice S4095 ![1] v Gen.slices_S4096_S4095_1⟩,
      ⟨S1, broadcastInDim S1 ![] Gen.bcast_S_S1 (constant (F := Ideal) S_ .f32 0x00000000#32)⟩]
    Gen.concatenates_S4095_S1_S4096_d0

/-! ## The stages up to the shifted copies (statements 1 … 113) -/

/-- `delta_k` viewed [64,64] (main_v0). -/
def dk2d (a4 : FVec Ideal S4096 .f32) : FVec Ideal S64x64 .f32 := shapeCast S64x64 a4 Gen.shapeCasts_S4096_S64x64

/-- `kx = k_x - lr * dk2d` (main_v3) and `ky = k_y - lr * dk2d` (main_v6): the same operations on the second or third
    argument. -/
def kxy (k : FVec Ideal S64x64 .f32) (a4 : FVec Ideal S4096 .f32) : FVec Ideal S64x64 .f32 :=
  subf k (mulf (splat64x64 0x3A83126F#32) (dk2d a4))

/-- `dx = (10 * max c) * sqrt2` as a scalar array (main_v9). -/
def dxs (a0 : FVec Ideal S64x64 .f32) : FVec Ideal S_ .f32 :=
  mulf (mulf (constant (F := Ideal) S_ .f32 0x41200000#32)
      (Host.reduce FloatOps.maximumf a0 (constant (F := Ideal) S_ .f32 0xFF800000#32) Gen.reducesTo_S64x64_S_d0_1 Gen.h_S_))
    (constant (F := Ideal) S_ .f32 0x3FB504F3#32)

/-- `cf_dx = c.T.reshape(-1) / dx` (main_v13); `cf_dy` (main_v15) is the same operations. -/
def cf_dx (a0 : FVec Ideal S64x64 .f32) : FVec Ideal S4096 .f32 :=
  Host.divf (flatT a0) (broadcastInDim S4096 ![] Gen.bcast_S_S4096 (dxs a0))

/-- `Mdiag_small = 1 - kp / 2` (main_v19). -/
def mdiagSmall (a1 : FVec Ideal S64 .f32) : FVec Ideal S64 .f32 :=
  subf (splat64 0x3F800000#32) (Host.divf a1 (splat64 0x40000000#32))

/-- `Mpdiag_small = 1 + kp / 2` (main_v23). -/
def mpdiagSmall (a1 : FVec Ideal S64 .f32) : FVec Ideal S64 .f32 :=
  addf (splat64 0x3F800000#32) (Host.divf a1 (splat64 0x40000000#32))

/-- `minv = 1 / tile(Mdiag_small)` (main_v31). -/
def minv (a1 : FVec Ideal S64 .f32) : FVec Ideal S4096 .f32 :=
  Host.divf (splat4096 0x3F800000#32) (tile64 (mdiagSmall a1))

/-- `M_term = minv * tile(Mpdiag_small)` (main_v32). -/
def mterm (a1 : FVec Ideal S64 .f32) : FVec Ideal S4096 .f32 := mulf (minv a1) (tile64 (mpdiagSmall a1))

/-- `1 + k.T.reshape(-1) / 2` (main_v38 for kx, main_v53 for ky). -/
def ndiag (k : FVec Ideal S64x64 .f32) : FVec Ideal S4096 .f32 :=
  addf (splat4096 0x3F800000#32) (Host.divf (flatT k) (splat4096 0x40000000#32))

/-- `1 - k.T.reshape(-1) / 2` (main_v44 for kx, main_v59 for ky). -/
def npdiag (k : FVec Ideal S64x64 .f32) : FVec Ideal S4096 .f32 :=
  subf (splat4096 0x3F800000#32) (Host.divf (flatT k) (splat4096 0x40000000#32))

/-- `1 / ndiag` (nxinv = main_v46, nyinv = main_v61). -/
def ninv (k : FVec Ideal S64x64 .f32) : FVec Ideal S4096 .f32 := Host.divf (splat4096 0x3F800000#32) (ndiag k)

/-- `ninv * npdiag` (A22v = main_v47, A33v = main_v62). -/
def avv (k : FVec Ideal S64x64 .f32) : FVec Ideal S4096 .f32 := mulf (ninv k) (npdiag k)

/-! ## `arange(4096) % 64` and the two boundary masks (statements 114 … 142) -/

/-- The divisor the remainder call uses: 64, or 1 if it were 0 (main_call0_v2). -/
def remDiv : IVec S_ 32 :=
  select (cmpi .eq (id (constantI S_ 32 64#32)) (constantI S_ 32 0#32)) (constantI S_ 32 1#32) (id (constantI S_ 32 64#32))

/-- The truncated remainder of the row number by the divisor (main_call0_v4). -/
def remT : IVec S4096 32 := Host.remsi (iotaInDim S4096 32 0) (broadcastInDim S4096 ![] Gen.bcast_S_S4096 remDiv)

/-- `arange(4096) % 64` with jnp's sign fix-up (main_v85): where the truncated remainder is not zero and its sign
    differs from the divisor's, the divisor is added. -/
def rmod : IVec S4096 32 :=
  select
    (andi
      (cmpi .ne
        (cmpi .slt remT (broadcastInDim S4096 ![] Gen.bcast_S_S4096 (constantI S_ 32 0#32)))
        (broadcastInDim S4096 ![] Gen.bcast_S_S4096 (cmpi .slt remDiv (constantI S_ 32 0#32))))
      (cmpi .ne remT (broadcastInDim S4096 ![] Gen.bcast_S_S4096 (constantI S_ 32 0#32))))
    (addi remT (broadcastInDim S4096 ![] Gen.bcast_S_S4096 remDiv))
    remT

/-- The 0/1 mask "`rmod` is not `w`" as floats (mask_first = main_v88 at w = 0, mask_last = main_v91 at w = 63). -/
def maskNe (r : IVec S4096 32) (w : BitVec 32) : FVec Ideal S4096 .f32 :=
  uitofp (F := Ideal) .f32 (cmpi .ne r (broadcastInDim S4096 ![] Gen.bcast_S_S4096 (constantI S_ 32 w)))

/-! ## The fifteen columns, each as printed, over the stage arrays (statements 143 … 189) -/

section Columns
variable (mt mi cx cy nx ny cxm cxp nxp cyp nyp a22 a33 a22p a33p mf ml : FVec Ideal S4096 .f32)

/-- d0 (main_v106). -/
def colD0 : FVec Ideal S4096 .f32 :=
  addf mt (mulf mi (subf (subf (subf (mulf (Host.negf (mulf cx cx)) nx) (mulf (mulf cx cx) nxp)) (mulf (mulf cy cy) ny))
    (mulf (mulf ml (mulf cyp cyp)) nyp)))
/-- dmN (main_v109). -/
def colDmN : FVec Ideal S4096 .f32 := mulf (mulf (mulf mi cx) cxm) nx
/-- dpN (main_v112). -/
def colDpN : FVec Ideal S4096 .f32 := mulf (mulf (mulf mi cx) cxp) nxp
/-- dm1 (main_v116). -/
def colDm1 : FVec Ideal S4096 .f32 := mulf (mulf (mulf mf mi) (mulf cy cy)) ny
/-- dp1 (main_v120). -/
def colDp1 : FVec Ideal S4096 .f32 := mulf (mulf (mulf ml mi) (mulf cyp cyp)) nyp
/-- e0 (main_v122). -/
def colE0 : FVec Ideal S4096 .f32 := mulf (mulf mi cx) a22
/-- epN (main_v125). -/
def colEpN : FVec Ideal S4096 .f32 := mulf (mulf (Host.negf mi) cx) a22p
/-- f0 (main_v127). -/
def colF0 : FVec Ideal S4096 .f32 := mulf (mulf mi cy) a33
/-- fp1 (main_v131). -/
def colFp1 : FVec Ideal S4096 .f32 := mulf (mulf (mulf (Host.negf ml) mi) cyp) a33p
/-- g0 (main_v133). -/
def colG0 : FVec Ideal S4096 .f32 := mulf (Host.negf nx) cx
/-- gmN (main_v134). -/
def colGmN : FVec Ideal S4096 .f32 := mulf nx cxm
/-- i0 (main_v136). -/
def colI0 : FVec Ideal S4096 .f32 := mulf (Host.negf ny) cy
/-- im1 (main_v138). -/
def colIm1 : FVec Ideal S4096 .f32 := mulf (mulf mf ny) cy

end Columns

/-- A [4096] array as a [4096,1] column. -/
def asCol (v : FVec Ideal S4096 .f32) : FVec Ideal S4096x1 .f32 := broadcastInDim S4096x1 ![0] Gen.bcast_S4096_S4096x1_0 v

/-- Fifteen columns side by side (main_v154). -/
def stack15 (u : Fin 15 → FVec Ideal S4096x1 .f32) : FVec Ideal S4096x15 .f32 :=
  concatenate S4096x15 1 [⟨S4096x1, u 0⟩, ⟨S4096x1, u 1⟩, ⟨S4096x1, u 2⟩, ⟨S4096x1, u 3⟩, ⟨S4096x1, u 4⟩, ⟨S4096x1, u 5⟩,
    ⟨S4096x1, u 6⟩, ⟨S4096x1, u 7⟩, ⟨S4096x1, u 8⟩, ⟨S4096x1, u 9⟩, ⟨S4096x1, u 10⟩, ⟨S4096x1, u 11⟩, ⟨S4096x1, u 12⟩,
    ⟨S4096x1, u 13⟩, ⟨S4096x1, u 14⟩]
    Gen.concatenates_S4096x1_S4096x1_S4096x1_S4096x1_S4096x1_S4096x1_S4096x1_S4096x1_S4096x1_S4096x1_S4096x1_S4096x1_S4096x1_S4096x1_S4096x1_S4096x15_d1

/-- The padding to 128 columns with the float of the integer 0 (main_v155). -/
def pad128 (x : FVec Ideal S4096x15 .f32) : FVec Ideal S4096x128 .f32 :=
  pad S4096x128 ![0, 0] ![0, 113] ![0, 0] x (sitofp (F := Ideal) .f32 (constantI S_ 32 0#32)) Gen.pads_S4096x15_S4096x128_000_01130 Gen.h_S_

/-! ## The table as a function of the arguments -/

section Table
variable (a0 : FVec Ideal S64x64 .f32) (a1 : FVec Ideal S64 .f32) (a2 a3 : FVec Ideal S64x64 .f32) (a4 : FVec Ideal S4096 .f32)

/-- The fifteen columns over the arguments, in the order d0, dmN, dpN, dm1, dp1, e0, epN, f0, fp1, g0, gmN, h0, i0, im1, h2. -/
def cols : Fin 15 → FVec Ideal S4096 .f32 :=
  ![colD0 (mterm a1) (minv a1) (cf_dx a0) (cf_dx a0) (ninv (kxy a2 a4)) (ninv (kxy a3 a4)) (shiftUp64 (ninv (kxy a2 a4)))
      (shiftUp1 (cf_dx a0)) (shiftUp1 (ninv (kxy a3 a4))) (maskNe rmod 63#32),
    colDmN (minv a1) (cf_dx a0) (ninv (kxy a2 a4)) (shiftDown64 (cf_dx a0)),
    colDpN (minv a1) (cf_dx a0) (shiftUp64 (cf_dx a0)) (shiftUp64 (ninv (kxy a2 a4))),
    colDm1 (minv a1) (cf_dx a0) (ninv (kxy a3 a4)) (maskNe rmod 0#32),
    colDp1 (minv a1) (shiftUp1 (cf_dx a0)) (shiftUp1 (ninv (kxy a3 a4))) (maskNe rmod 63#32),
    colE0 (minv a1) (cf_dx a0) (avv (kxy a2 a4)),
    colEpN (minv a1) (cf_dx a0) (shiftUp64 (avv (kxy a2 a4))),
    colF0 (minv a1) (cf_dx a0) (avv (kxy a3 a4)),
    colFp1 (minv a1) (shiftUp1 (cf_dx a0)) (shiftUp1 (avv (kxy a3 a4))) (maskNe rmod 63#32),
    colG0 (cf_dx a0) (ninv (kxy a2 a4)),
    colGmN (ninv (kxy a2 a4)) (shiftDown64 (cf_dx a0)),
    avv (kxy a2 a4),
    colI0 (cf_dx a0) (ninv (kxy a3 a4)),
    colIm1 (cf_dx a0) (ninv (kxy a3 a4)) (maskNe rmod 0#32),
    avv (kxy a3 a4)]

/-- The [4096,15] array of the stacked columns (main_v154). -/
def feats : FVec Ideal S4096x15 .f32 := stack15 fun k => asCol (cols a0 a1 a2 a3 a4 k)

/-- **The coefficient table** the pallas_call takes (main_v155). -/
def RF : FVec Ideal S4096x128 .f32 := pad128 (feats a0 a1 a2 a3 a4)

end Table

end Cert.KernelIdeal.KHost

end
-- ==== Proof.KHostRunLib.lean ====
/-
  Tools for reading a fold of host operations at a buffer: the fold over a concatenation of operation lists, the
  result of a fifteen-operand operation with each operand's contents at its own reference, and the rewriting pass
  that turns a fold at a buffer into the operations' composed term.
-/
import Idealize.ShloMosaic.Lib.StableHlo.Run

namespace Cert.KernelIdeal.KHost

open Idealize.ShloMosaic Idealize.ShloMosaic.StableHlo

variable {τ : Topo} {sig : RefSig} {Val : EltTy → Type}

/-- Running two lists of operations one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- An operation over a LITERAL family of fifteen references: its result with each operand's contents at its own
    reference, so that a rewriting pass goes on into the operands. -/
theorem nary15_result' {x0 x1 x2 x3 x4 x5 x6 x7 x8 x9 x10 x11 x12 x13 x14 y : Ref sig .tc}
    (f : ((k : Fin 15) → ((![x0, x1, x2, x3, x4, x5, x6, x7, x8, x9, x10, x11, x12, x13, x14] : Fin 15 → Ref sig .tc) k).ty.Contents Val) → y.ty.Contents Val) (hxs hy)
    (F : Valuation τ sig Val) :
    (nary (τ := τ) ![x0, x1, x2, x3, x4, x5, x6, x7, x8, x9, x10, x11, x12, x13, x14] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (fun i => i.elim0)))))))))))))))) := by
  rw [nary_result]; congr 1; funext k; fin_cases k <;> rfl

/-- Two pieces laid end to end along an axis, the pieces as arguments of their own. (The printed two-piece
    concatenation keeps each piece inside a dependent pair of its shape and itself, where a rewriting pass does not
    reach it; this is the same array.) -/
def catPair {α : Type} (t : Shape) (ax : Fin t.rank) (s₁ s₂ : Shape) (a : s₁.Idx → α) (b : s₂.Idx → α)
    (h : Shape.Concatenates [s₁, s₂] t ax) : t.Idx → α :=
  concatenate t ax [⟨s₁, a⟩, ⟨s₂, b⟩] h

theorem concatenate_pair {α : Type} (t : Shape) (ax : Fin t.rank) (s₁ s₂ : Shape) (a : s₁.Idx → α) (b : s₂.Idx → α)
    (h : Shape.Concatenates [s₁, s₂] t ax) :
    concatenate t ax [⟨s₁, a⟩, ⟨s₂, b⟩] h = catPair t ax s₁ s₂ a b h := rfl

/-- A fold of host operations at a buffer, rewritten to the operations' composed term of the contents before it. -/
macro "host_results" : tactic =>
  `(tactic| (simp (disch := decide) only [after_cons, after_nil,
      nullary_result', unary_result', binary_result', ternary_result', quaternary_result', reshape_result',
      nary15_result',
      nullary_result_ne', unary_result_ne', binary_result_ne', ternary_result_ne', quaternary_result_ne', reshape_result_ne',
      nary_result_ne', concatenate_pair]))

end Cert.KernelIdeal.KHost
-- ==== Proof.KHostRunA.lean ====
/-
  The host operations up to the remainder call, read at the buffers the fifteen columns are computed from: each
  holds its stage array, a function of the argument arrays only.
-/
import proofs.«134289_j17918603559171_2_alg».proof.Proof.KHostStages
import proofs.«134289_j17918603559171_2_alg».proof.Proof.KHostRunLib

noncomputable section

namespace Cert.KernelIdeal.KHost

open Idealize.ShloMosaic Idealize.ShloMosaic.TcCoe Idealize.ShloMosaic.StableHlo

theorem a_v13 (W : Valuation τ sig (Elt Ideal)) :
    after (Gen.hostOps0_1 (F := Ideal)) (after (Gen.hostOps0 (F := Ideal)) W) (Proc.devRef .tc main_v13) = cf_dx (W (Proc.devRef .tc main_arg0)) := by
  dsimp only [Gen.hostOps0, Gen.hostOps0_1]; host_results; rfl

theorem a_v15 (W : Valuation τ sig (Elt Ideal)) :
    after (Gen.hostOps0_1 (F := Ideal)) (after (Gen.hostOps0 (F := Ideal)) W) (Proc.devRef .tc main_v15) = cf_dx (W (Proc.devRef .tc main_arg0)) := by
  dsimp only [Gen.hostOps0, Gen.hostOps0_1]; host_results; rfl

theorem a_v31 (W : Valuation τ sig (Elt Ideal)) :
    after (Gen.hostOps0_1 (F := Ideal)) (after (Gen.hostOps0 (F := Ideal)) W) (Proc.devRef .tc main_v31) = minv (W (Proc.devRef .tc main_arg1)) := by
  dsimp only [Gen.hostOps0, Gen.hostOps0_1]; host_results; rfl

theorem a_v32 (W : Valuation τ sig (Elt Ideal)) :
    after (Gen.hostOps0_1 (F := Ideal)) (after (Gen.hostOps0 (F := Ideal)) W) (Proc.devRef .tc main_v32) = mterm (W (Proc.devRef .tc main_arg1)) := by
  dsimp only [Gen.hostOps0, Gen.hostOps0_1]; host_results; rfl

theorem a_v46 (W : Valuation τ sig (Elt Ideal)) :
    after (Gen.hostOps0_1 (F := Ideal)) (after (Gen.hostOps0 (F := Ideal)) W) (Proc.devRef .tc main_v46) = ninv (kxy (W (Proc.devRef .tc main_arg2)) (W (Proc.devRef .tc main_arg4))) := by
  dsimp only [Gen.hostOps0, Gen.hostOps0_1]; host_results; rfl

theorem a_v61 (W : Valuation τ sig (Elt Ideal)) :
    after (Gen.hostOps0_1 (F := Ideal)) (after (Gen.hostOps0 (F := Ideal)) W) (Proc.devRef .tc main_v61) = ninv (kxy (W (Proc.devRef .tc main_arg3)) (W (Proc.devRef .tc main_arg4))) := by
  dsimp only [Gen.hostOps0, Gen.hostOps0_1]; host_results; rfl

theorem a_v47 (W : Valuation τ sig (Elt Ideal)) :
    after (Gen.hostOps0_1 (F := Ideal)) (after (Gen.hostOps0 (F := Ideal)) W) (Proc.devRef .tc main_v47) = avv (kxy (W (Proc.devRef .tc main_arg2)) (W (Proc.devRef .tc main_arg4))) := by
  dsimp only [Gen.hostOps0, Gen.hostOps0_1]; host_results; rfl

theorem a_v62 (W : Valuation τ sig (Elt Ideal)) :
    after (Gen.hostOps0_1 (F := Ideal)) (after (Gen.hostOps0 (F := Ideal)) W) (Proc.devRef .tc main_v62) = avv (kxy (W (Proc.devRef .tc main_arg3)) (W (Proc.devRef .tc main_arg4))) := by
  dsimp only [Gen.hostOps0, Gen.hostOps0_1]; host_results; rfl

end Cert.KernelIdeal.KHost

end
-- ==== Proof.KHostRunB.lean ====
/-
  The host operations up to the remainder call, read at the shifted copies and at the row number modulo 64: each
  holds its stage array, a function of the argument arrays only.
-/
import proofs.«134289_j17918603559171_2_alg».proof.Proof.KHostStages
import proofs.«134289_j17918603559171_2_alg».proof.Proof.KHostRunLib

noncomputable section

namespace Cert.KernelIdeal.KHost

open Idealize.ShloMosaic Idealize.ShloMosaic.TcCoe Idealize.ShloMosaic.StableHlo

theorem a_v65 (W : Valuation τ sig (Elt Ideal)) :
    after (Gen.hostOps0_1 (F := Ideal)) (after (Gen.hostOps0 (F := Ideal)) W) (Proc.devRef .tc main_v65) = shiftDown64 (cf_dx (W (Proc.devRef .tc main_arg0))) := by
  dsimp only [Gen.hostOps0, Gen.hostOps0_1]; host_results; rfl

theorem a_v68 (W : Valuation τ sig (Elt Ideal)) :
    after (Gen.hostOps0_1 (F := Ideal)) (after (Gen.hostOps0 (F := Ideal)) W) (Proc.devRef .tc main_v68) = shiftUp64 (cf_dx (W (Proc.devRef .tc main_arg0))) := by
  dsimp only [Gen.hostOps0, Gen.hostOps0_1]; host_results; rfl

theorem a_v71 (W : Valuation τ sig (Elt Ideal)) :
    after (Gen.hostOps0_1 (F := Ideal)) (after (Gen.hostOps0 (F := Ideal)) W) (Proc.devRef .tc main_v71) = shiftUp64 (ninv (kxy (W (Proc.devRef .tc main_arg2)) (W (Proc.devRef .tc main_arg4)))) := by
  dsimp only [Gen.hostOps0, Gen.hostOps0_1]; host_results; rfl

theorem a_v74 (W : Valuation τ sig (Elt Ideal)) :
    after (Gen.hostOps0_1 (F := Ideal)) (after (Gen.hostOps0 (F := Ideal)) W) (Proc.devRef .tc main_v74) = shiftUp1 (cf_dx (W (Proc.devRef .tc main_arg0))) := by
  dsimp only [Gen.hostOps0, Gen.hostOps0_1]; host_results; rfl

theorem a_v77 (W : Valuation τ sig (Elt Ideal)) :
    after (Gen.hostOps0_1 (F := Ideal)) (after (Gen.hostOps0 (F := Ideal)) W) (Proc.devRef .tc main_v77) = shiftUp1 (ninv (kxy (W (Proc.devRef .tc main_arg3)) (W (Proc.devRef .tc main_arg4)))) := by
  dsimp only [Gen.hostOps0, Gen.hostOps0_1]; host_results; rfl

theorem a_v80 (W : Valuation τ sig (Elt Ideal)) :
    after (Gen.hostOps0_1 (F := Ideal)) (after (Gen.hostOps0 (F := Ideal)) W) (Proc.devRef .tc main_v80) = shiftUp64 (avv (kxy (W (Proc.devRef .tc main_arg2)) (W (Proc.devRef .tc main_arg4)))) := by
  dsimp only [Gen.hostOps0, Gen.hostOps0_1]; host_results; rfl

theorem a_v83 (W : Valuation τ sig (Elt Ideal)) :
    after (Gen.hostOps0_1 (F := Ideal)) (after (Gen.hostOps0 (F := Ideal)) W) (Proc.devRef .tc main_v83) = shiftUp1 (avv (kxy (W (Proc.devRef .tc main_arg3)) (W (Proc.devRef .tc main_arg4)))) := by
  dsimp only [Gen.hostOps0, Gen.hostOps0_1]; host_results; rfl

theorem a_v85 (W : Valuation τ sig (Elt Ideal)) :
    after (Gen.hostOps0_1 (F := Ideal)) (after (Gen.hostOps0 (F := Ideal)) W) (Proc.devRef .tc main_v85) = rmod := by
  dsimp only [Gen.hostOps0, Gen.hostOps0_1]; host_results; rfl

end Cert.KernelIdeal.KHost

end
-- ==== Proof.KHostRunC.lean ====
/-
  The fifteen columns, their stacking and the padding, read off the last two stretches of host operations: from
  any contents `X` of the buffers before them, the table is the padded stack of the columns computed from the
  sixteen stage buffers of `X`.
-/
import proofs.«134289_j17918603559171_2_alg».proof.Proof.KHostStages
import proofs.«134289_j17918603559171_2_alg».proof.Proof.KHostRunLib

noncomputable section

namespace Cert.KernelIdeal.KHost

open Idealize.ShloMosaic Idealize.ShloMosaic.TcCoe Idealize.ShloMosaic.StableHlo

/-- The fifteen columns over the sixteen stage arrays they are computed from (the two masks from the row number
    modulo 64), in the order d0, dmN, dpN, dm1, dp1, e0, epN, f0, fp1, g0, gmN, h0, i0, im1, h2. -/
def colsOf (mt mi cx cy nx ny cxm cxp nxp cyp nyp a22 a33 a22p a33p : FVec Ideal S4096 .f32) (rm : IVec S4096 32) :
    Fin 15 → FVec Ideal S4096 .f32 :=
  ![colD0 mt mi cx cy nx ny nxp cyp nyp (maskNe rm 63#32),
    colDmN mi cx nx cxm,
    colDpN mi cx cxp nxp,
    colDm1 mi cy ny (maskNe rm 0#32),
    colDp1 mi cyp nyp (maskNe rm 63#32),
    colE0 mi cx a22,
    colEpN mi cx a22p,
    colF0 mi cy a33,
    colFp1 mi cyp a33p (maskNe rm 63#32),
    colG0 cx nx,
    colGmN nx cxm,
    a22,
    colI0 cy ny,
    colIm1 cy ny (maskNe rm 0#32),
    a33]

/-- The columns over the arguments are the columns over the stage arrays of the arguments. -/
theorem cols_eq (a0 : FVec Ideal S64x64 .f32) (a1 : FVec Ideal S64 .f32) (a2 a3 : FVec Ideal S64x64 .f32) (a4 : FVec Ideal S4096 .f32) :
    cols a0 a1 a2 a3 a4 = colsOf (mterm a1) (minv a1) (cf_dx a0) (cf_dx a0) (ninv (kxy a2 a4)) (ninv (kxy a3 a4))
      (shiftDown64 (cf_dx a0)) (shiftUp64 (cf_dx a0)) (shiftUp64 (ninv (kxy a2 a4))) (shiftUp1 (cf_dx a0))
      (shiftUp1 (ninv (kxy a3 a4))) (avv (kxy a2 a4)) (avv (kxy a3 a4)) (shiftUp64 (avv (kxy a2 a4)))
      (shiftUp1 (avv (kxy a3 a4))) rmod := rfl

/-- The table after the last two stretches, from any contents `X` before them. -/
theorem bc_v155 (X : Valuation τ sig (Elt Ideal)) :
    after (Gen.hostOps0_3 (F := Ideal)) (after (Gen.hostOps0_2 (F := Ideal)) X) (Proc.devRef .tc main_v155)
      = pad128 (stack15 fun k => asCol (colsOf (X (Proc.devRef .tc main_v32)) (X (Proc.devRef .tc main_v31)) (X (Proc.devRef .tc main_v13)) (X (Proc.devRef .tc main_v15)) (X (Proc.devRef .tc main_v46)) (X (Proc.devRef .tc main_v61))
          (X (Proc.devRef .tc main_v65)) (X (Proc.devRef .tc main_v68)) (X (Proc.devRef .tc main_v71)) (X (Proc.devRef .tc main_v74)) (X (Proc.devRef .tc main_v77)) (X (Proc.devRef .tc main_v47)) (X (Proc.devRef .tc main_v62)) (X (Proc.devRef .tc main_v80)) (X (Proc.devRef .tc main_v83))
          (X (Proc.devRef .tc main_v85)) k)) := by
  dsimp only [Gen.hostOps0_2, Gen.hostOps0_3]; host_results; rfl

end Cert.KernelIdeal.KHost

end
-- ==== Proof.KHostRun.lean ====
/-
  What the kernel program's host operations hand to the pallas_call: on every core, after the host operations
  before the region, the operand buffer holds the coefficient table `RF` of the five argument arrays.
-/
import proofs.«134289_j17918603559171_2_alg».proof.Proof.KHostRunA
import proofs.«134289_j17918603559171_2_alg».proof.Proof.KHostRunB
import proofs.«134289_j17918603559171_2_alg».proof.Proof.KHostRunC

noncomputable section

namespace Cert.KernelIdeal.KHost

open Idealize.ShloMosaic Idealize.ShloMosaic.TcCoe Idealize.ShloMosaic.StableHlo

/-- Core `c`'s buffers when the region is entered: the launch memory after the four stretches of host operations. -/
abbrev Vk (m : (ℓ : Loc nD τ sig) → Buf (Elt Ideal) ℓ) (c : Dev nD) : Valuation τ sig (Elt Ideal) :=
  StableHlo.after (List.flatten [Gen.hostOps0, Gen.hostOps0_1, Gen.hostOps0_2, Gen.hostOps0_3]) (fun b => m (c, b))

/-- The four stretches run one after the other. -/
theorem Vk_eq (m : (ℓ : Loc nD τ sig) → Buf (Elt Ideal) ℓ) (c : Dev nD) :
    Vk m c = after (Gen.hostOps0_3 (F := Ideal)) (after (Gen.hostOps0_2 (F := Ideal))
      (after (Gen.hostOps0_1 (F := Ideal)) (after (Gen.hostOps0 (F := Ideal)) (fun b => m (c, b))))) := by
  show after (List.flatten [Gen.hostOps0, Gen.hostOps0_1, Gen.hostOps0_2, Gen.hostOps0_3]) _ = _
  simp only [List.flatten_cons, List.flatten_nil, List.append_nil, after_append]

/-- **The operand of the pallas_call is the coefficient table of the arguments.** -/
theorem Vk_main_v155 (m : (ℓ : Loc nD τ sig) → Buf (Elt Ideal) ℓ) (c : Dev nD) :
    Vk m c (Proc.devRef .tc main_v155)
      = RF (m (c, Proc.devRef .tc main_arg0)) (m (c, Proc.devRef .tc main_arg1)) (m (c, Proc.devRef .tc main_arg2)) (m (c, Proc.devRef .tc main_arg3)) (m (c, Proc.devRef .tc main_arg4)) := by
  rw [Vk_eq, bc_v155, a_v32, a_v31, a_v13, a_v15, a_v46, a_v61, a_v65, a_v68, a_v71, a_v74, a_v77, a_v47, a_v62, a_v80,
    a_v83, a_v85]
  rfl

end Cert.KernelIdeal.KHost

end
-- ==== Proof.BridgeTbl.lean ====
/-
  The join, part one: the coefficient table the region finds is the table the host operations build
  from the five arguments.
-/
import proofs.«134289_j17918603559171_2_alg».proof.Proof.KValArrI
import proofs.«134289_j17918603559171_2_alg».proof.Proof.KHostRun

set_option maxRecDepth 16384

noncomputable section

namespace Cert.Bridge

open Idealize.ShloMosaic Idealize.ShloMosaic.TcCoe Idealize.SL.Sem
open Cert.KernelIdeal

/-- The region's table is the host-built table of the launch arguments. -/
theorem tbl_eq (m : (ℓ : Loc nD τ sig) → Buf (Elt Ideal) ℓ) (c : Dev nD) :
    Cert.KernelIdeal.Frm.tbl m c
      = Cert.KernelIdeal.KHost.RF (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
  Cert.KernelIdeal.KHost.Vk_main_v155 m c

end Cert.Bridge

end
-- ==== Proof.LibFiniteDecode.lean ====
/-
  A printed finiteness test read back at the ideal instance, and a maximum over finitely many reals.

  A precondition that every float input is finite prints, per input array, as `|x| < +∞` at every element,
  reduced by `and`.  At the ideal instance `|x|` is `max x (-x)` and `+∞` is `⊤`, so such a test says that
  every element is a real number.  A maximum, started from `-∞`, over a family of reals that is finite and
  not empty is again a real number (it is one of them); so a scalar computed from it by multiplying with
  real literals is a real, and it is not zero when the maximum and the literals are not.
-/
import Idealize.ShloMosaic.Lib.ReduceAll
import Idealize.ShloMosaic.Lib.IdealHost
import Idealize.ShloMosaic.PureOps.Ideal.Laws

namespace Idealize.ShloMosaic.FiniteDecode

open Idealize.ShloMosaic Idealize.ShloMosaic.ValueIdx

/-- A shape of rank zero has one index. -/
instance subsingleton_rank0 : Subsingleton (⟨0, ![]⟩ : Shape).Idx := ⟨fun a b => funext fun d => d.elim0⟩

/-! ## Comparisons that came out true -/

/-- An ordered "less than" that is 1 says the order relation holds. -/
theorem cmp_olt_eq_one {x y : EReal} (h : Ideal.cmp .olt x y = 1#1) : x < y := by
  by_contra hn
  simp [Ideal.cmp, hn] at h

/-- A "not equal" that is 1 says the two extended reals differ. -/
theorem cmp_une_eq_one {x y : EReal} (h : Ideal.cmp .une x y = 1#1) : x ≠ y := by
  intro hxy
  simp [Ideal.cmp, hxy] at h

/-- A "not equal" test of an array against an array that is zero at an index, when it is 1 there, says the
    first array's element there is not zero. -/
theorem ne_zero_of_cmpf_une {s : Shape} (x z : FVec Ideal s .f32) (i : s.Idx) (hz : z i = 0)
    (h : cmpf .une x z i = 1#1) : x i ≠ 0 := by
  rw [cmpf_apply] at h
  have h1 : x i ≠ z i := cmp_une_eq_one h
  rwa [hz] at h1

/-- An extended real whose absolute value `max x (-x)` lies below `⊤` is a real number. -/
theorem real_of_abs_lt_top {x : EReal} (h : max x (-x) < ⊤) : ∃ r : ℝ, x = (r : EReal) := by
  induction x using EReal.rec with
  | bot => simp at h
  | coe r => exact ⟨r, rfl⟩
  | top => simp at h

/-! ## Four literals -/

/-- The pattern of `+∞`. -/
theorem ofBits_pos_inf : Ideal.ofBits .f32 0x7F800000#32 = ⊤ := by simp [Ideal.ofBits, Ideal.ieee]

/-- The pattern of `-∞`. -/
theorem ofBits_neg_inf : Ideal.ofBits .f32 0xFF800000#32 = ⊥ := by simp [Ideal.ofBits, Ideal.ieee]

/-- The pattern `0x41200000` is ten. -/
theorem ofBits_ten : Ideal.ofBits .f32 0x41200000#32 = ((10 : ℝ) : EReal) := by
  simp [Ideal.ofBits, Ideal.ieee, -EReal.coe_mul]; norm_num

/-- The pattern `0x3FB504F3`, the single-precision square root of two, is `11863283 / 2^23`. -/
theorem ofBits_sqrt2 : Ideal.ofBits .f32 0x3FB504F3#32 = ((11863283 / 8388608 : ℝ) : EReal) := by
  simp [Ideal.ofBits, Ideal.ieee, -EReal.coe_mul]; norm_num

/-! ## A whole array is finite -/

/-- The conjunction over all elements of `|x| < +∞`, when it is 1, says every element of `x` is a real number. -/
theorem all_real {s t u : Shape} {axes : List (Fin s.rank)} [Subsingleton t.Idx] (x : FVec Ideal s .f32)
    (hb : (⟨0, ![]⟩ : Shape).BroadcastsInDim s ![]) (init : u.Idx → BitVec 1) (h : s.ReducesTo axes t)
    (hu : 0 < u.numel) (j : t.Idx)
    (e : Host.reduce IntOp.andi (cmpf .olt (Host.absf x)
        (broadcastInDim s ![] hb (constant (F := Ideal) (⟨0, ![]⟩ : Shape) .f32 0x7F800000#32))) init h hu j = 1#1)
    (i : s.Idx) : ∃ r : ℝ, x i = (r : EReal) := by
  have e1 := Host.reduce_andi_all _ init h hu j e i
  rw [cmpf_apply, broadcastInDim_scalar_apply] at e1
  have e2 : max (x i) (-(x i)) < Ideal.ofBits .f32 0x7F800000#32 := cmp_olt_eq_one e1
  rw [ofBits_pos_inf] at e2
  exact real_of_abs_lt_top e2

/-! ## A maximum of finitely many reals -/

/-- A maximum from `⊥` over a finite family of reals that is not empty is a real. -/
theorem fold_max_real {ι : Type} (s : Finset ι) (f : ι → EReal) (hs : s.Nonempty)
    (hf : ∀ i ∈ s, ∃ r : ℝ, f i = (r : EReal)) : ∃ r : ℝ, s.fold max ⊥ f = (r : EReal) := by
  obtain ⟨i0, hi0⟩ := hs
  have h1 : s.fold max ⊥ f ≠ ⊤ := by
    apply ne_of_lt
    rw [Finset.fold_max_lt]
    refine ⟨bot_lt_top, fun x hx => ?_⟩
    obtain ⟨r, hr⟩ := hf x hx
    rw [hr]; exact EReal.coe_lt_top r
  have h2 : s.fold max ⊥ f ≠ ⊥ := by
    apply ne_of_gt
    rw [Finset.lt_fold_max]
    obtain ⟨r, hr⟩ := hf i0 hi0
    exact Or.inr ⟨i0, hi0, by rw [hr]; exact EReal.bot_lt_coe r⟩
  exact ⟨(s.fold max ⊥ f).toReal, (EReal.coe_toReal h1 h2).symm⟩

/-- The host's reduce with a maximum body over all axes, from `-∞`, of an array of reals that has an element,
    is a real. -/
theorem hostReduce_max_real {s t u : Shape} {axes : List (Fin s.rank)} [Subsingleton t.Idx] (x : FVec Ideal s .f32)
    (init : u.Idx → Ideal .f32) (h : s.ReducesTo axes t) (hu : 0 < u.numel) (j : t.Idx)
    (hinit : init (Shape.Idx.first hu) = ⊥) (i0 : s.Idx) (hx : ∀ i, ∃ r : ℝ, x i = (r : EReal)) :
    ∃ r : ℝ, Host.reduce (FloatOps.maximumf (F := Ideal) (φ := .f32)) x init h hu j = (r : EReal) := by
  rw [Host.reduce_eq_fold, hinit]
  exact fold_max_real _ x ⟨i0, Finset.mem_filter.2 ⟨Finset.mem_univ _, Subsingleton.elim _ _⟩⟩ (fun i _ => hx i)

/-! ## The scalar `(10 · max) · √2` -/

/-- With every element of `a` a real and the maximum of `a` not zero, the scalar `(10 · max a) · s`,
    `s` the single-precision square root of two, is a real number that is not zero. -/
theorem scaled_max_real (a : FVec Ideal (⟨2, ![64, 64]⟩ : Shape) .f32)
    (h : (⟨2, ![64, 64]⟩ : Shape).ReducesTo [0, 1] (⟨0, ![]⟩ : Shape)) (hu : 0 < (⟨0, ![]⟩ : Shape).numel)
    (hx : ∀ i, ∃ r : ℝ, a i = (r : EReal))
    (hne : Host.reduce (FloatOps.maximumf (F := Ideal) (φ := .f32)) a
        (constant (F := Ideal) (⟨0, ![]⟩ : Shape) .f32 0xFF800000#32) h hu ix0 ≠ 0) :
    ∃ d : ℝ, d ≠ 0 ∧
      mulf (mulf (constant (F := Ideal) (⟨0, ![]⟩ : Shape) .f32 0x41200000#32)
          (Host.reduce (FloatOps.maximumf (F := Ideal) (φ := .f32)) a
            (constant (F := Ideal) (⟨0, ![]⟩ : Shape) .f32 0xFF800000#32) h hu))
        (constant (F := Ideal) (⟨0, ![]⟩ : Shape) .f32 0x3FB504F3#32) ix0 = (d : EReal) := by
  obtain ⟨r, hr⟩ := hostReduce_max_real a (constant (F := Ideal) (⟨0, ![]⟩ : Shape) .f32 0xFF800000#32) h hu ix0
    ofBits_neg_inf (ix2 (0 : Fin 64) (0 : Fin 64)) hx
  have hr0 : r ≠ 0 := by
    intro h0
    apply hne
    rw [hr, h0, EReal.coe_zero]
  refine ⟨10 * r * (11863283 / 8388608), by positivity, ?_⟩
  show (Ideal.ofBits .f32 0x41200000#32 * Host.reduce (FloatOps.maximumf (F := Ideal) (φ := .f32)) a
      (constant (F := Ideal) (⟨0, ![]⟩ : Shape) .f32 0xFF800000#32) h hu ix0) * Ideal.ofBits .f32 0x3FB504F3#32 = _
  rw [hr, ofBits_ten, ofBits_sqrt2, ← EReal.coe_mul, ← EReal.coe_mul]

end Idealize.ShloMosaic.FiniteDecode
-- ==== Proof.LibERealBand.lean ====
/-
  Equalities on the extended reals that use only the laws valid at every element, the infinities included.

  On the extended reals addition and multiplication are commutative and associative, `0` and `1` are the
  usual units, `0 * x = 0` for every `x`, negation moves freely through a product
  (`(-a) * b = -(a * b) = a * (-b)`) and subtraction is addition of the negative.  What fails at the
  infinities is distributivity and `-(a + b) = -a + -b`; nothing below uses either.

  * `div_neg_of_real`: dividing by a real divisor that is not zero commutes with negation.  (At the divisor
    zero it does not: a quotient by zero is the infinity of the dividend's sign and `0 / 0` is the junk
    value `⊥`, so `(-0) / 0 = ⊥` while `-(0 / 0) = ⊤`.)
  * `div_real`: the same quotient as a product with the real reciprocal, the form the tactic below works on.
  * `ereal_band`: closes a goal `lhs = rhs` between two expressions of extended reals that agree up to the
    laws listed above: negations are pushed out of every product and units dropped, subtractions become sums
    of negatives, and what is left is compared up to commutativity and associativity of `+` and `*`.
-/
import Idealize.ShloMosaic.PureOps.Ideal

namespace Idealize.ShloMosaic.ERealBand

open Idealize.ShloMosaic

/-- A quotient by a real divisor that is not zero is the product with the real reciprocal. -/
theorem div_real (x : EReal) (d : ℝ) (hd : d ≠ 0) : Ideal.div x (d : EReal) = x * ((d⁻¹ : ℝ) : EReal) := by
  rw [Ideal.div_coe hd, one_div]

/-- Dividing by a real divisor that is not zero commutes with negation. -/
theorem div_neg_of_real (x : EReal) (d : ℝ) (hd : d ≠ 0) :
    Ideal.div (-x) (d : EReal) = -(Ideal.div x (d : EReal)) := by
  rw [Ideal.div_coe hd, Ideal.div_coe hd, neg_mul]

/-- A quotient of a real by a real divisor that is not zero is a real. -/
theorem div_real_real (r d : ℝ) (hd : d ≠ 0) : Ideal.div (r : EReal) (d : EReal) = ((r * d⁻¹ : ℝ) : EReal) := by
  rw [div_real _ _ hd, ← EReal.coe_mul]

/-- Push negations out of products, drop the units `0` and `1`, and write subtraction as addition of the
    negative; then compare the two sides up to commutativity and associativity of `+` and `*`.  Every law
    used holds at every extended real. -/
macro "ereal_band" : tactic =>
  `(tactic| (
    try simp only [neg_mul, mul_neg, neg_neg, neg_zero, one_mul, mul_one, zero_mul, mul_zero, add_zero, zero_add,
      sub_eq_add_neg]
    first
      | done
      | rfl
      | ac_rfl
      | (simp only [mul_comm, mul_left_comm, mul_assoc, add_comm, add_left_comm, add_assoc]; done)))

section Tests

variable (n n' m x y y' a k k' : EReal)

example : (-n) * x = n * (-x) := by ereal_band
example : ((-m) * x) * a = (m * (-x)) * a := by ereal_band
example : (m * x) * y * n = m * ((x * n) * y) := by ereal_band
example : m * (((x * n) * (-x) + ((-x) * n') * x) + ((y * k) * (-y) + ((-y') * k') * y'))
    = m * ((((-(x * x)) * n - (x * x) * n') - (y * y) * k) - (1 * (y' * y')) * k') := by ereal_band
example : m * (((x * n) * (-x) + ((-x) * n') * x) + ((y * k) * (-y) + 0))
    = m * ((((-(x * x)) * n - (x * x) * n') - (y * y) * k) - (0 * (y' * y')) * k') := by ereal_band
example : x - y = -y + x := by ereal_band
example : 0 * x + y * 1 = y := by ereal_band

end Tests

end Idealize.ShloMosaic.ERealBand
-- ==== Proof.BridgePre.lean ====
/-
  The precondition read back: what "the finiteness predicate is all ones" says about the five argument arrays,
  and the step size `dx` both programs compute.

  The precondition is the conjunction of, for each of the five float arrays, `|x| < +∞` at every element, and of
  `max(c) ≠ 0`.  At the ideal instance the first five say that every element of every argument is a real
  number, and then `max(c)`, a maximum over the 4096 reals of `c`, is itself a real; it is not zero by the last
  conjunct.  Both programs compute `dx = (10 · max(c)) · √2` (the square root in single precision) by the same
  three operations, so `dx` is a real number that is not zero — the one place where the two programs, which
  divide by `dx` on different sides of a negation, need more than the laws valid on all extended reals.
-/
import proofs.«134289_j17918603559171_2_alg».proof.Defs
import proofs.«134289_j17918603559171_2_alg».proof.Proof.Gen.Pre_finite_inputs
import proofs.«134289_j17918603559171_2_alg».proof.Proof.KHostStages
import proofs.«134289_j17918603559171_2_alg».proof.Proof.RefStages
import proofs.«134289_j17918603559171_2_alg».proof.Proof.LibFiniteDecode
import proofs.«134289_j17918603559171_2_alg».proof.Proof.LibERealBand

noncomputable section

namespace Cert.Bridge

open Idealize.ShloMosaic Idealize.ShloMosaic.ValueIdx Idealize.ShloMosaic.FiniteDecode

/-! ## The predicate, for any five arrays -/

section Decode

variable [hP : Cert.Pre_finite_inputs.Facts]

open Cert.Pre_finite_inputs Cert.Pre_finite_inputs.Facts

/-- What the predicate says: every element of every array is a real, and the maximum of the first is not zero. -/
structure Finite (a0 : FVec Ideal S64x64 .f32) (a1 : FVec Ideal S64 .f32) (a2 a3 : FVec Ideal S64x64 .f32)
    (a4 : FVec Ideal S4096 .f32) : Prop where
  real0 : ∀ i, ∃ r : ℝ, a0 i = (r : EReal)
  real1 : ∀ i, ∃ r : ℝ, a1 i = (r : EReal)
  real2 : ∀ i, ∃ r : ℝ, a2 i = (r : EReal)
  real3 : ∀ i, ∃ r : ℝ, a3 i = (r : EReal)
  real4 : ∀ i, ∃ r : ℝ, a4 i = (r : EReal)
  max_ne_zero : Host.reduce (FloatOps.maximumf (F := Ideal) (φ := .f32)) a0
      (constant (F := Ideal) S_ .f32 0xFF800000#32) reducesTo_S64x64_S_d0_1 h_S_ ix0 ≠ 0

/-- The predicate all ones gives `Finite`. -/
theorem finite_of_fn (a0 : FVec Ideal S64x64 .f32) (a1 : FVec Ideal S64 .f32) (a2 a3 : FVec Ideal S64x64 .f32)
    (a4 : FVec Ideal S4096 .f32) (h : fn (F := Ideal) a0 a1 a2 a3 a4 = fun _ => 1#1) : Finite a0 a1 a2 a3 a4 := by
  have h0 := congrFun h ix0
  dsimp only [fn, fn_part1] at h0
  have k5 := IntOp.andi_eq_one.1 h0
  have k4 := IntOp.andi_eq_one.1 k5.1
  have k3 := IntOp.andi_eq_one.1 k4.1
  have k2 := IntOp.andi_eq_one.1 k3.1
  have k1 := IntOp.andi_eq_one.1 k2.1
  have k6 := ne_zero_of_cmpf_une _ _ ix0 (Ideal.ofBits_zero_f32 : constant (F := Ideal) S_ .f32 0x00000000#32 ix0 = 0) k5.2
  exact ⟨all_real a0 _ _ _ _ ix0 k1.1, all_real a1 _ _ _ _ ix0 k1.2, all_real a2 _ _ _ _ ix0 k2.2,
    all_real a3 _ _ _ _ ix0 k3.2, all_real a4 _ _ _ _ ix0 k4.2, k6⟩

/-- The precondition of the idealized kernel, on a device, gives `Finite` of that device's five argument arrays. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Finite (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) :=
  finite_of_fn _ _ _ _ _ (h c)

/-! ## The step size -/

variable {a0 : FVec Ideal S64x64 .f32} {a1 : FVec Ideal S64 .f32} {a2 a3 : FVec Ideal S64x64 .f32}
  {a4 : FVec Ideal S4096 .f32}

/-- The reference's `dx` and the kernel's are the same three operations on the same array. -/
theorem res_v9_eq_dxs : Cert.ReferenceIdeal.RefStages.res_v9 a0 a1 a2 a3 a4 = Cert.KernelIdeal.KHost.dxs a0 := rfl

/-- Under `Finite` the kernel's `dx` is a real number that is not zero. -/
theorem dxs_real (hf : Finite a0 a1 a2 a3 a4) : ∃ d : ℝ, d ≠ 0 ∧ Cert.KernelIdeal.KHost.dxs a0 ix0 = (d : EReal) :=
  scaled_max_real a0 _ _ hf.real0 hf.max_ne_zero

/-- Under `Finite` both programs' `dx` are one real number that is not zero. -/
theorem dx_real_of_finite (hf : Finite a0 a1 a2 a3 a4) : ∃ d : ℝ, d ≠ 0 ∧ Cert.KernelIdeal.KHost.dxs a0 ix0 = (d : EReal)
    ∧ Cert.ReferenceIdeal.RefStages.res_v9 a0 a1 a2 a3 a4 ix0 = (d : EReal) := by
  obtain ⟨d, hd, e⟩ := dxs_real hf
  exact ⟨d, hd, e, e⟩

end Decode

/-! ## The statement the assembly uses -/

/-- Under the kernel's precondition, on every device, the kernel's `dx` is a real number that is not zero. -/
theorem dx_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∃ d : ℝ, d ≠ 0 ∧ Cert.KernelIdeal.KHost.dxs
      (m ((c.tc : Thread Cert.KernelIdeal.nD Cert.KernelIdeal.τ).loc Cert.KernelIdeal.main_arg0)) ValueIdx.ix0 = (d : EReal) :=
  dxs_real (hP := Cert.Pre_finite_inputs.Gen.facts) (finite_of_pre (hP := Cert.Pre_finite_inputs.Gen.facts) m h c)

/-- The same for the reference's `dx`, read from a memory that agrees with the kernel's on the first argument. -/
theorem dx_real_ref (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (a1 : FVec Ideal Cert.ReferenceIdeal.S64 .f32) (a2 a3 : FVec Ideal Cert.ReferenceIdeal.S64x64 .f32)
    (a4 : FVec Ideal Cert.ReferenceIdeal.S4096 .f32) :
    ∃ d : ℝ, d ≠ 0 ∧ Cert.KernelIdeal.KHost.dxs
        (m ((c.tc : Thread Cert.KernelIdeal.nD Cert.KernelIdeal.τ).loc Cert.KernelIdeal.main_arg0)) ValueIdx.ix0 = (d : EReal)
      ∧ Cert.ReferenceIdeal.RefStages.res_v9
        (m ((c.tc : Thread Cert.KernelIdeal.nD Cert.KernelIdeal.τ).loc Cert.KernelIdeal.main_arg0)) a1 a2 a3 a4 ValueIdx.ix0
          = (d : EReal) := by
  obtain ⟨d, hd, e⟩ := dx_real m h c
  exact ⟨d, hd, e, e⟩

end Cert.Bridge

end
-- ==== Proof.RefDownBlock.lean ====
/-
  The reference's `jnp.block` read at an index.

  The returned array is a 3 × 3 arrangement of `[4096, 4096]` blocks: each block row is three blocks laid side by side
  along the columns, and the three block rows are stacked along the rows. Entry `(R, C)` of the result, with
  `R = 4096 p + r` and `C = 4096 q + c`, is therefore entry `(r, c)` of block `(p, q)`. The zero block is the zero
  matrix.
-/
import proofs.«134289_j17918603559171_2_alg».proof.Proof.RefStages
import Idealize.ShloMosaic.Lib.Pipeline.Value
import Idealize.ShloMosaic.Lib.ValueIdx
import Idealize.ShloMosaic.PureOps.Ideal.Laws

noncomputable section

namespace Cert.ReferenceIdeal.RefDown

open Idealize.ShloMosaic Idealize.ShloMosaic.ValueIdx Cert.ReferenceIdeal Cert.ReferenceIdeal.Facts₀ Cert.ReferenceIdeal.Facts
open Cert.ReferenceIdeal.RefStages

/-! ## Three equal pieces laid end to end, read at an index -/

section Pieces
variable {α : Type}

/-- One of three things, by its number. -/
def pick3 {β : Type} (x0 x1 x2 : β) (q : Fin 3) : β :=
  match q with
  | ⟨0, _⟩ => x0
  | ⟨1, _⟩ => x1
  | ⟨2, _⟩ => x2

/-- Three `[4096, 4096]` pieces side by side along the columns: column `4096 q + c` of the whole is column `c` of
    piece `q`, in the same row. -/
theorem cols3_apply (x0 x1 x2 : S4096x4096.Idx → α)
    (h : Shape.Concatenates [S4096x4096, S4096x4096, S4096x4096] S4096x12288 1)
    (r : Fin 4096) (C : Fin 12288) (q : Fin 3) (c : Fin 4096) (hC : C.val = 4096 * q.val + c.val) :
    concatenate S4096x12288 1 [⟨S4096x4096, x0⟩, ⟨S4096x4096, x1⟩, ⟨S4096x4096, x2⟩] h (ix2 r C)
      = pick3 x0 x1 x2 q (ix2 r c) := by
  have hoff : ∀ b : Fin S4096x4096.rank, b.cast (rfl : S4096x4096.rank = S4096x12288.rank) ≠ (1 : Fin S4096x12288.rank) →
      ((ix2 r c : S4096x4096.Idx) b).val = ((ix2 r C : S4096x12288.Idx) (b.cast rfl)).val := fun b hb => by
    match b with
    | ⟨0, _⟩ => rfl
    | ⟨1, _⟩ => exact absurd rfl hb
  match q, hC with
  | ⟨0, _⟩, hC =>
    have hC' : C.val = 4096 * 0 + c.val := hC
    refine concatenate_apply_piece (1 : Fin S4096x12288.rank) [⟨S4096x4096, x0⟩, ⟨S4096x4096, x1⟩, ⟨S4096x4096, x2⟩] h (ix2 r C) 0
      (show 0 < 3 by omega) S4096x4096 x0 rfl rfl 0 rfl (ix2 r c) hoff ?_
    show 0 + c.val = C.val
    omega
  | ⟨1, _⟩, hC =>
    have hC' : C.val = 4096 * 1 + c.val := hC
    refine concatenate_apply_piece (1 : Fin S4096x12288.rank) [⟨S4096x4096, x0⟩, ⟨S4096x4096, x1⟩, ⟨S4096x4096, x2⟩] h (ix2 r C) 1
      (show 1 < 3 by omega) S4096x4096 x1 rfl rfl 4096 rfl (ix2 r c) hoff ?_
    show 4096 + c.val = C.val
    omega
  | ⟨2, _⟩, hC =>
    have hC' : C.val = 4096 * 2 + c.val := hC
    refine concatenate_apply_piece (1 : Fin S4096x12288.rank) [⟨S4096x4096, x0⟩, ⟨S4096x4096, x1⟩, ⟨S4096x4096, x2⟩] h (ix2 r C) 2
      (show 2 < 3 by omega) S4096x4096 x2 rfl rfl 8192 rfl (ix2 r c) hoff ?_
    show 8192 + c.val = C.val
    omega

/-- Three `[4096, 12288]` pieces stacked along the rows: row `4096 p + r` of the whole is row `r` of piece `p`, in the
    same column. -/
theorem rows3_apply (y0 y1 y2 : S4096x12288.Idx → α)
    (h : Shape.Concatenates [S4096x12288, S4096x12288, S4096x12288] S12288x12288 0)
    (R C : Fin 12288) (p : Fin 3) (r : Fin 4096) (hR : R.val = 4096 * p.val + r.val) :
    concatenate S12288x12288 0 [⟨S4096x12288, y0⟩, ⟨S4096x12288, y1⟩, ⟨S4096x12288, y2⟩] h (ix2 R C)
      = pick3 y0 y1 y2 p (ix2 r C) := by
  have hoff : ∀ b : Fin S4096x12288.rank, b.cast (rfl : S4096x12288.rank = S12288x12288.rank) ≠ (0 : Fin S12288x12288.rank) →
      ((ix2 r C : S4096x12288.Idx) b).val = ((ix2 R C : S12288x12288.Idx) (b.cast rfl)).val := fun b hb => by
    match b with
    | ⟨0, _⟩ => exact absurd rfl hb
    | ⟨1, _⟩ => rfl
  match p, hR with
  | ⟨0, _⟩, hR =>
    have hR' : R.val = 4096 * 0 + r.val := hR
    refine concatenate_apply_piece (0 : Fin S12288x12288.rank) [⟨S4096x12288, y0⟩, ⟨S4096x12288, y1⟩, ⟨S4096x12288, y2⟩] h (ix2 R C) 0
      (show 0 < 3 by omega) S4096x12288 y0 rfl rfl 0 rfl (ix2 r C) hoff ?_
    show 0 + r.val = R.val
    omega
  | ⟨1, _⟩, hR =>
    have hR' : R.val = 4096 * 1 + r.val := hR
    refine concatenate_apply_piece (0 : Fin S12288x12288.rank) [⟨S4096x12288, y0⟩, ⟨S4096x12288, y1⟩, ⟨S4096x12288, y2⟩] h (ix2 R C) 1
      (show 1 < 3 by omega) S4096x12288 y1 rfl rfl 4096 rfl (ix2 r C) hoff ?_
    show 4096 + r.val = R.val
    omega
  | ⟨2, _⟩, hR =>
    have hR' : R.val = 4096 * 2 + r.val := hR
    refine concatenate_apply_piece (0 : Fin S12288x12288.rank) [⟨S4096x12288, y0⟩, ⟨S4096x12288, y1⟩, ⟨S4096x12288, y2⟩] h (ix2 R C) 2
      (show 2 < 3 by omega) S4096x12288 y2 rfl rfl 8192 rfl (ix2 r C) hoff ?_
    show 8192 + r.val = R.val
    omega

end Pieces

/-! ## The zero block -/

/-- The zero matrix is zero everywhere. -/
theorem res_v50_apply (a0 : FVec Ideal S64x64 .f32) (a1 : FVec Ideal S64 .f32) (a2 a3 : FVec Ideal S64x64 .f32) (a4 : FVec Ideal S4096 .f32) (r c : Fin 4096) :
    res_v50 a0 a1 a2 a3 a4 (ix2 r c) = 0 := by
  unfold res_v50
  refine (broadcastInDim_apply (![] : Fin 0 → Fin S4096x4096.rank) bcast_S_S4096x4096 _ (ix2 r c) ix0 fun ax => ax.elim0).trans ?_
  unfold res_cst_42
  rw [constant_apply]
  exact Ideal.ofBits_zero_f32

/-! ## The block matrix -/

/-- Block `(p, q)` of the returned matrix. -/
def blk (a0 : FVec Ideal S64x64 .f32) (a1 : FVec Ideal S64 .f32) (a2 a3 : FVec Ideal S64x64 .f32) (a4 : FVec Ideal S4096 .f32) (p q : Fin 3) : FVec Ideal S4096x4096 .f32 :=
  pick3
    (pick3 (res_v183 a0 a1 a2 a3 a4) (res_v190 a0 a1 a2 a3 a4) (res_v197 a0 a1 a2 a3 a4) q)
    (pick3 (res_v200 a0 a1 a2 a3 a4) (res_v202 a0 a1 a2 a3 a4) (res_v50 a0 a1 a2 a3 a4) q)
    (pick3 (res_v205 a0 a1 a2 a3 a4) (res_v50 a0 a1 a2 a3 a4) (res_v207 a0 a1 a2 a3 a4) q) p

/-- The returned matrix at `(4096 p + r, 4096 q + c)` is block `(p, q)` at `(r, c)`. -/
theorem result_apply_of (a0 : FVec Ideal S64x64 .f32) (a1 : FVec Ideal S64 .f32) (a2 a3 : FVec Ideal S64x64 .f32) (a4 : FVec Ideal S4096 .f32) (R C : Fin 12288) (p q : Fin 3) (r c : Fin 4096)
    (hR : R.val = 4096 * p.val + r.val) (hC : C.val = 4096 * q.val + c.val) :
    result a0 a1 a2 a3 a4 (ix2 R C) = blk a0 a1 a2 a3 a4 p q (ix2 r c) := by
  unfold result res_v208
  rw [rows3_apply _ _ _ _ R C p r hR]
  unfold blk
  match p with
  | ⟨0, _⟩ =>
    show res_call3_v0 a0 a1 a2 a3 a4 (ix2 r C) = _
    unfold res_call3_v0
    exact cols3_apply _ _ _ _ r C q c hC
  | ⟨1, _⟩ =>
    show res_call3_v1 a0 a1 a2 a3 a4 (ix2 r C) = _
    unfold res_call3_v1
    exact cols3_apply _ _ _ _ r C q c hC
  | ⟨2, _⟩ =>
    show res_call3_v2 a0 a1 a2 a3 a4 (ix2 r C) = _
    unfold res_call3_v2
    exact cols3_apply _ _ _ _ r C q c hC

/-- The returned matrix at any `(R, C)`: block `(R / 4096, C / 4096)` at `(R % 4096, C % 4096)`. -/
theorem result_apply (a0 : FVec Ideal S64x64 .f32) (a1 : FVec Ideal S64 .f32) (a2 a3 : FVec Ideal S64x64 .f32) (a4 : FVec Ideal S4096 .f32) (R C : Fin 12288) :
    result a0 a1 a2 a3 a4 (ix2 R C)
      = blk a0 a1 a2 a3 a4 ⟨R.val / 4096, by have := R.isLt; omega⟩ ⟨C.val / 4096, by have := C.isLt; omega⟩
          (ix2 ⟨R.val % 4096, Nat.mod_lt _ (by decide)⟩ ⟨C.val % 4096, Nat.mod_lt _ (by decide)⟩) :=
  result_apply_of a0 a1 a2 a3 a4 R C _ _ _ _ (Nat.div_add_mod R.val 4096).symm (Nat.div_add_mod C.val 4096).symm

/-- The nine blocks by name. -/
theorem blk_00 (a0 : FVec Ideal S64x64 .f32) (a1 : FVec Ideal S64 .f32) (a2 a3 : FVec Ideal S64x64 .f32) (a4 : FVec Ideal S4096 .f32) : blk a0 a1 a2 a3 a4 0 0 = res_v183 a0 a1 a2 a3 a4 := rfl
theorem blk_01 (a0 : FVec Ideal S64x64 .f32) (a1 : FVec Ideal S64 .f32) (a2 a3 : FVec Ideal S64x64 .f32) (a4 : FVec Ideal S4096 .f32) : blk a0 a1 a2 a3 a4 0 1 = res_v190 a0 a1 a2 a3 a4 := rfl
theorem blk_02 (a0 : FVec Ideal S64x64 .f32) (a1 : FVec Ideal S64 .f32) (a2 a3 : FVec Ideal S64x64 .f32) (a4 : FVec Ideal S4096 .f32) : blk a0 a1 a2 a3 a4 0 2 = res_v197 a0 a1 a2 a3 a4 := rfl
theorem blk_10 (a0 : FVec Ideal S64x64 .f32) (a1 : FVec Ideal S64 .f32) (a2 a3 : FVec Ideal S64x64 .f32) (a4 : FVec Ideal S4096 .f32) : blk a0 a1 a2 a3 a4 1 0 = res_v200 a0 a1 a2 a3 a4 := rfl
theorem blk_11 (a0 : FVec Ideal S64x64 .f32) (a1 : FVec Ideal S64 .f32) (a2 a3 : FVec Ideal S64x64 .f32) (a4 : FVec Ideal S4096 .f32) : blk a0 a1 a2 a3 a4 1 1 = res_v202 a0 a1 a2 a3 a4 := rfl
theorem blk_12 (a0 : FVec Ideal S64x64 .f32) (a1 : FVec Ideal S64 .f32) (a2 a3 : FVec Ideal S64x64 .f32) (a4 : FVec Ideal S4096 .f32) : blk a0 a1 a2 a3 a4 1 2 = res_v50 a0 a1 a2 a3 a4 := rfl
theorem blk_20 (a0 : FVec Ideal S64x64 .f32) (a1 : FVec Ideal S64 .f32) (a2 a3 : FVec Ideal S64x64 .f32) (a4 : FVec Ideal S4096 .f32) : blk a0 a1 a2 a3 a4 2 0 = res_v205 a0 a1 a2 a3 a4 := rfl
theorem blk_21 (a0 : FVec Ideal S64x64 .f32) (a1 : FVec Ideal S64 .f32) (a2 a3 : FVec Ideal S64x64 .f32) (a4 : FVec Ideal S4096 .f32) : blk a0 a1 a2 a3 a4 2 1 = res_v50 a0 a1 a2 a3 a4 := rfl
theorem blk_22 (a0 : FVec Ideal S64x64 .f32) (a1 : FVec Ideal S64 .f32) (a2 a3 : FVec Ideal S64x64 .f32) (a4 : FVec Ideal S4096 .f32) : blk a0 a1 a2 a3 a4 2 2 = res_v207 a0 a1 a2 a3 a4 := rfl

end Cert.ReferenceIdeal.RefDown

end
-- ==== Proof.KHostRead.lean ====
/-
  The coefficient table read at an index.  Row `r` of the flattened grid is the point (r % 64, r / 64) of the
  64×64 grid (the arrays are transposed before they are flattened), a tiled [64] vector repeats with period 64,
  a shifted copy reads a neighbour or zero, the masks are 0/1 according to r % 64, and the table's entry (r, j)
  is column j's entry at r for j < 15 and zero for the padding columns.
-/
import proofs.«134289_j17918603559171_2_alg».proof.Proof.KHostStages
import Idealize.ShloMosaic.Lib.Pipeline.Value
import Idealize.ShloMosaic.Lib.IdealHost
import Idealize.ShloMosaic.Lib.ValueIdx

noncomputable section

namespace Cert.KernelIdeal.KHost

open Idealize.ShloMosaic Idealize.ShloMosaic.ValueIdx

/-- The position of row `r` inside its block of 64: `r % 64`. -/
def lo (r : Fin 4096) : Fin 64 := ⟨r.val % 64, Nat.mod_lt _ (by decide)⟩
/-- The block of 64 that row `r` lies in: `r / 64`. -/
def hi (r : Fin 4096) : Fin 64 := ⟨r.val / 64, by have := r.isLt; omega⟩

theorem lo_val (r : Fin 4096) : (lo r).val = r.val % 64 := rfl
theorem hi_val (r : Fin 4096) : (hi r).val = r.val / 64 := rfl

/-! ## Layout operations at an index -/

section Layout
variable {α : Type}

/-- A unit-stride slice of a rank-1 array at `j` is the operand at `off + j`. -/
theorem slice1_apply {n m : Nat} (off : Nat) (x : (⟨1, ![n]⟩ : Shape).Idx → α)
    (h : (⟨1, ![n]⟩ : Shape).Slices ![off] ⟨1, ![m]⟩) (j : Fin m) (hb : off + j.val < n) :
    extractStridedSlice ⟨1, ![m]⟩ ![off] x h (ix1 j) = x (ix1 ⟨off + j.val, hb⟩) :=
  extractStridedSlice_apply ![off] x h (ix1 j) (ix1 ⟨off + j.val, hb⟩) (fun a => by match a with | ⟨0, _⟩ => rfl)

/-- Two rank-1 pieces laid end to end: below the first extent the first piece, from it on the second. -/
theorem cat1_apply {n1 n2 n : Nat} (x1 : (⟨1, ![n1]⟩ : Shape).Idx → α) (x2 : (⟨1, ![n2]⟩ : Shape).Idx → α)
    (h : Shape.Concatenates [(⟨1, ![n1]⟩ : Shape), ⟨1, ![n2]⟩] ⟨1, ![n]⟩ 0) (hn : n = n1 + n2) (r : Fin n) :
    concatenate ⟨1, ![n]⟩ 0 [⟨⟨1, ![n1]⟩, x1⟩, ⟨⟨1, ![n2]⟩, x2⟩] h (ix1 r)
      = if hlt : r.val < n1 then x1 (ix1 ⟨r.val, hlt⟩) else x2 (ix1 ⟨r.val - n1, by have := r.isLt; omega⟩) := by
  by_cases hlt : r.val < n1
  · rw [dif_pos hlt]
    exact concatenate_pair_apply_left (0 : Fin 1) x1 x2 h (ix1 r) rfl (ix1 ⟨r.val, hlt⟩)
      (fun b => by match b with | ⟨0, _⟩ => rfl)
  · rw [dif_neg hlt]
    exact concatenate_pair_apply_right (0 : Fin 1) x1 x2 h (ix1 r) rfl rfl (ix1 ⟨r.val - n1, by have := r.isLt; omega⟩)
      (fun b hb => by match b with | ⟨0, _⟩ => exact absurd rfl hb)
      (by show r.val - n1 + n1 = r.val; omega)

end Layout

/-- A transposed and flattened [64,64] array at row `r`: the array at (r % 64, r / 64). -/
theorem flatT_apply (x : FVec Ideal S64x64 .f32) (r : Fin 4096) : flatT x (ix1 r) = x (ix2 (lo r) (hi r)) := by
  unfold flatT
  refine (shapeCast_apply _ Gen.shapeCasts_S64x64_S4096 (ix1 r) (ix2 (hi r) (lo r)) ?_).trans ?_
  · rw [Shape.rowMajor_val_two, Shape.rowMajor_val_one]
    show r.val / 64 * 64 + r.val % 64 = r.val
    omega
  · exact transpose_apply [1, 0] x Gen.transposes_S64x64_S64x64_1_0 (ix2 (hi r) (lo r)) (ix2 (lo r) (hi r))
      (fun b => by match b with | ⟨0, _⟩ => rfl | ⟨1, _⟩ => rfl)

/-- A [64] array tiled to [4096] at row `r`: the array at r % 64. -/
theorem tile64_apply (v : FVec Ideal S64 .f32) (r : Fin 4096) : tile64 v (ix1 r) = v (ix1 (lo r)) := by
  unfold tile64
  refine (shapeCast_apply _ Gen.shapeCasts_S64x64_S4096 (ix1 r) (ix2 (hi r) (lo r)) ?_).trans ?_
  · rw [Shape.rowMajor_val_two, Shape.rowMajor_val_one]
    show r.val / 64 * 64 + r.val % 64 = r.val
    omega
  refine (broadcastInDim_apply ![0, 1] Gen.bcast_S1x64_S64x64_0_1 _ (ix2 (hi r) (lo r)) (ix2 (0 : Fin 1) (lo r))
    (fun a => by match a with | ⟨0, _⟩ => rfl | ⟨1, _⟩ => rfl)).trans ?_
  refine shapeCast_apply v Gen.shapeCasts_S64_S1x64 (ix2 (0 : Fin 1) (lo r)) (ix1 (lo r)) ?_
  rw [Shape.rowMajor_val_two, Shape.rowMajor_val_one]
  show (lo r).val = 0 * 64 + (lo r).val
  omega

/-- `delta_k` viewed [64,64] at (i, j): entry 64 i + j. -/
theorem dk2d_apply (a4 : FVec Ideal S4096 .f32) (i j : Fin 64) :
    dk2d a4 (ix2 i j) = a4 (ix1 ⟨i.val * 64 + j.val, by have := i.isLt; have := j.isLt; omega⟩) := by
  unfold dk2d
  refine shapeCast_apply a4 Gen.shapeCasts_S4096_S64x64 (ix2 i j) (ix1 ⟨i.val * 64 + j.val, _⟩) ?_
  rw [Shape.rowMajor_val_two, Shape.rowMajor_val_one]
  rfl

theorem splat4096_apply (w : BitVec 32) (r : Fin 4096) : splat4096 w (ix1 r) = Ideal.ofBits .f32 w := by
  unfold splat4096; exact broadcastInDim_scalar_apply _ _ _
theorem splat64_apply (w : BitVec 32) (i : Fin 64) : splat64 w (ix1 i) = Ideal.ofBits .f32 w := by
  unfold splat64; exact broadcastInDim_scalar_apply _ _ _
theorem splat64x64_apply (w : BitVec 32) (i j : Fin 64) : splat64x64 w (ix2 i j) = Ideal.ofBits .f32 w := by
  unfold splat64x64; exact broadcastInDim_scalar_apply _ _ _

/-- The shift by 64 towards higher indices: `v (r - 64)`, or 0 in the first block. -/
theorem shiftDown64_apply (v : FVec Ideal S4096 .f32) (r : Fin 4096) :
    shiftDown64 v (ix1 r) = if h : 64 ≤ r.val then v (ix1 ⟨r.val - 64, by have := r.isLt; omega⟩) else 0 := by
  unfold shiftDown64
  refine (cat1_apply _ _ Gen.concatenates_S64_S4032_S4096_d0 rfl r).trans ?_
  by_cases h : 64 ≤ r.val
  · rw [dif_neg (by omega), dif_pos h]
    refine (slice1_apply 0 v Gen.slices_S4096_S4032_0 ⟨r.val - 64, by have := r.isLt; omega⟩ (by have := r.isLt; show 0 + (r.val - 64) < 4096; omega)).trans ?_
    exact congrArg v (congrArg ix1 (Fin.ext (by show 0 + (r.val - 64) = r.val - 64; omega)))
  · rw [dif_pos (by omega), dif_neg h, splat64_apply]
    exact Ideal.ofBits_zero_f32

/-- The shift by 64 towards lower indices: `v (r + 64)`, or 0 in the last block. -/
theorem shiftUp64_apply (v : FVec Ideal S4096 .f32) (r : Fin 4096) :
    shiftUp64 v (ix1 r) = if h : r.val + 64 < 4096 then v (ix1 ⟨r.val + 64, h⟩) else 0 := by
  unfold shiftUp64
  refine (cat1_apply _ _ Gen.concatenates_S4032_S64_S4096_d0 rfl r).trans ?_
  by_cases h : r.val + 64 < 4096
  · rw [dif_pos (show r.val < 4032 by omega), dif_pos h]
    refine (slice1_apply 64 v Gen.slices_S4096_S4032_64 ⟨r.val, by omega⟩ (by show 64 + r.val < 4096; omega)).trans ?_
    exact congrArg v (congrArg ix1 (Fin.ext (by show 64 + r.val = r.val + 64; omega)))
  · rw [dif_neg (show ¬ r.val < 4032 by omega), dif_neg h, splat64_apply]
    exact Ideal.ofBits_zero_f32

/-- The shift by 1 towards lower indices: `v (r + 1)`, or 0 at the last row. -/
theorem shiftUp1_apply (v : FVec Ideal S4096 .f32) (r : Fin 4096) :
    shiftUp1 v (ix1 r) = if h : r.val + 1 < 4096 then v (ix1 ⟨r.val + 1, h⟩) else 0 := by
  unfold shiftUp1
  refine (cat1_apply _ _ Gen.concatenates_S4095_S1_S4096_d0 rfl r).trans ?_
  by_cases h : r.val + 1 < 4096
  · rw [dif_pos (show r.val < 4095 by omega), dif_pos h]
    refine (slice1_apply 1 v Gen.slices_S4096_S4095_1 ⟨r.val, by omega⟩ (by show 1 + r.val < 4096; omega)).trans ?_
    exact congrArg v (congrArg ix1 (Fin.ext (by show 1 + r.val = r.val + 1; omega)))
  · rw [dif_neg (show ¬ r.val < 4095 by omega), dif_neg h]
    refine (broadcastInDim_scalar_apply _ _ _).trans ?_
    exact Ideal.ofBits_zero_f32

/-! ## The stacked columns and the padding at an index -/

/-- A [4096] array as a column, at (r, 0). -/
theorem asCol_apply (v : FVec Ideal S4096 .f32) (r : Fin 4096) : asCol v (ix2 r (0 : Fin 1)) = v (ix1 r) := by
  unfold asCol
  exact broadcastInDim_apply ![0] Gen.bcast_S4096_S4096x1_0 v (ix2 r (0 : Fin 1)) (ix1 r)
    (fun a => by match a with | ⟨0, _⟩ => rfl)

/-- Fifteen columns side by side, at (r, c): column c at (r, 0). -/
theorem stack15_apply (u : Fin 15 → FVec Ideal S4096x1 .f32) (r : Fin 4096) (c : Fin 15) :
    stack15 u (ix2 r c) = u c (ix2 r (0 : Fin 1)) := by
  unfold stack15
  exact concatenate_ofFn_unit_apply (t := S4096x15) (s₁ := S4096x1) (1 : Fin 2) (fun n : Fin 15 => u n)
    Gen.concatenates_S4096x1_S4096x1_S4096x1_S4096x1_S4096x1_S4096x1_S4096x1_S4096x1_S4096x1_S4096x1_S4096x1_S4096x1_S4096x1_S4096x1_S4096x1_S4096x15_d1
    rfl rfl (ix2 r c) c rfl (ix2 r (0 : Fin 1))
    (fun b hb => by match b with | ⟨0, _⟩ => rfl | ⟨1, _⟩ => exact absurd rfl hb)

/-- The float of the integer zero is zero. -/
theorem padValue_eq : (sitofp (F := Ideal) .f32 (constantI S_ 32 0#32)) (Shape.Idx.first Gen.h_S_) = 0 := by
  show (((0#32 : BitVec 32).toInt : ℝ) : EReal) = 0
  simp

/-- The padding to 128 columns at (r, j): the operand for j < 15, zero after. -/
theorem pad128_apply (x : FVec Ideal S4096x15 .f32) (r : Fin 4096) (j : Fin 128) :
    pad128 x (ix2 r j) = if h : j.val < 15 then x (ix2 r ⟨j.val, h⟩) else 0 := by
  unfold pad128 pad
  by_cases hj : j.val < 15
  · rw [dif_pos hj]
    split
    · refine congrArg x (funext fun a => Fin.ext ?_)
      match a with
      | ⟨0, _⟩ => show (r.val - 0) / (0 + 1) = r.val; omega
      | ⟨1, _⟩ => show (j.val - 0) / (0 + 1) = j.val; omega
    · next hin =>
      refine absurd (fun a => ?_) hin
      match a with
      | ⟨0, _⟩ => show 0 ≤ r.val ∧ (r.val - 0) % (0 + 1) = 0 ∧ (r.val - 0) / (0 + 1) < 4096; have := r.isLt; omega
      | ⟨1, _⟩ => show 0 ≤ j.val ∧ (j.val - 0) % (0 + 1) = 0 ∧ (j.val - 0) / (0 + 1) < 15; omega
  · rw [dif_neg hj]
    split
    · next hin =>
      have h1 := (hin ⟨1, by decide⟩).2.2
      exact absurd (show (j.val - 0) / (0 + 1) < 15 from h1) (by omega)
    · exact padValue_eq

/-- **The table at (r, j)**: column j at row r for j < 15, zero in the padding. -/
theorem RF_apply (a0 : FVec Ideal S64x64 .f32) (a1 : FVec Ideal S64 .f32) (a2 a3 : FVec Ideal S64x64 .f32)
    (a4 : FVec Ideal S4096 .f32) (r : Fin 4096) (j : Fin 128) :
    RF a0 a1 a2 a3 a4 (ix2 r j) = if h : j.val < 15 then cols a0 a1 a2 a3 a4 ⟨j.val, h⟩ (ix1 r) else 0 := by
  unfold RF
  refine (pad128_apply _ r j).trans ?_
  by_cases hj : j.val < 15
  · rw [dif_pos hj, dif_pos hj]
    unfold feats
    exact (stack15_apply _ r ⟨j.val, hj⟩).trans (asCol_apply _ r)
  · rw [dif_neg hj, dif_neg hj]

/-- The padding columns are zero. -/
theorem RF_pad (a0 : FVec Ideal S64x64 .f32) (a1 : FVec Ideal S64 .f32) (a2 a3 : FVec Ideal S64x64 .f32)
    (a4 : FVec Ideal S4096 .f32) (r : Fin 4096) (j : Fin 128) (hj : 15 ≤ j.val) : RF a0 a1 a2 a3 a4 (ix2 r j) = 0 := by
  rw [RF_apply, dif_neg (by omega)]

end Cert.KernelIdeal.KHost

end
-- ==== Proof.KHostCols.lean ====
/-
  The stage arrays and the fifteen columns at a row `r`, as extended reals.  Row `r` is the grid point
  (r % 64, r / 64); every float operation stays in the printed order and association.
-/
import proofs.«134289_j17918603559171_2_alg».proof.Proof.KHostRead
import Idealize.ShloMosaic.Lib.Decide

noncomputable section

namespace Cert.KernelIdeal.KHost

open Idealize.ShloMosaic Idealize.ShloMosaic.ValueIdx

/-! ## `arange(4096) % 64` and the two masks -/

/-- The row number modulo 64, as a word: for a non-negative row number the truncated remainder needs no fix-up. -/
theorem rmod_apply : ∀ r : Fin 4096, rmod (ix1 r) = BitVec.ofNat 32 (r.val % 64) := by decide +kernel

/-- The 0/1 mask "`r % 64` is not `w`" at row `r`. -/
theorem maskNe_apply (w : BitVec 32) (r : Fin 4096) :
    maskNe rmod w (ix1 r) = if BitVec.ofNat 32 (r.val % 64) = w then (0 : EReal) else 1 := by
  show (((IntOp.cmpi .ne (rmod (ix1 r)) w).toNat : ℝ) : EReal) = _
  rw [rmod_apply]
  unfold IntOp.cmpi
  by_cases h : BitVec.ofNat 32 (r.val % 64) = w
  · rw [if_pos h]; simp [h]
  · rw [if_neg h]
    have hb : (BitVec.ofNat 32 (r.val % 64) != w) = true := by simpa [bne_iff_ne] using h
    simp [hb]

theorem ofNat_mod64_eq (r : Fin 4096) (c : Nat) (hc : c < 64) :
    BitVec.ofNat 32 (r.val % 64) = BitVec.ofNat 32 c ↔ r.val % 64 = c := by
  constructor
  · intro e
    have := congrArg BitVec.toNat e
    simp only [BitVec.toNat_ofNat] at this
    have h1 : r.val % 64 < 64 := Nat.mod_lt _ (by decide)
    omega
  · intro e; rw [e]

/-- mask_first: 0 on the first row of each block of 64, 1 elsewhere. -/
theorem maskFirst_apply (r : Fin 4096) : maskNe rmod 0#32 (ix1 r) = if r.val % 64 = 0 then (0 : EReal) else 1 := by
  rw [maskNe_apply]
  by_cases h : r.val % 64 = 0
  · rw [if_pos h, if_pos ((ofNat_mod64_eq r 0 (by decide)).mpr h)]
  · rw [if_neg h, if_neg (fun e => h ((ofNat_mod64_eq r 0 (by decide)).mp e))]

/-- mask_last: 0 on the last row of each block of 64, 1 elsewhere. -/
theorem maskLast_apply (r : Fin 4096) : maskNe rmod 63#32 (ix1 r) = if r.val % 64 = 63 then (0 : EReal) else 1 := by
  rw [maskNe_apply]
  by_cases h : r.val % 64 = 63
  · rw [if_pos h, if_pos ((ofNat_mod64_eq r 63 (by decide)).mpr h)]
  · rw [if_neg h, if_neg (fun e => h ((ofNat_mod64_eq r 63 (by decide)).mp e))]

/-! ## The stage arrays at a row -/

/-- `k - lr * dk2d` at the grid point (i, j): `delta_k` is read at 64 i + j. -/
theorem kxy_apply (k : FVec Ideal S64x64 .f32) (a4 : FVec Ideal S4096 .f32) (i j : Fin 64) :
    kxy k a4 (ix2 i j) = k (ix2 i j)
      - Ideal.ofBits .f32 0x3A83126F#32 * a4 (ix1 ⟨i.val * 64 + j.val, by have := i.isLt; have := j.isLt; omega⟩) := by
  show k (ix2 i j) - splat64x64 0x3A83126F#32 (ix2 i j) * dk2d a4 (ix2 i j) = _
  rw [splat64x64_apply, dk2d_apply]

/-- `dx`: ten times the largest entry of `c`, times the float square root of two. -/
theorem dxs_apply (a0 : FVec Ideal S64x64 .f32) :
    dxs a0 ix0 = Ideal.ofBits .f32 0x41200000#32
        * Host.reduce FloatOps.maximumf a0 (constant (F := Ideal) S_ .f32 0xFF800000#32) Gen.reducesTo_S64x64_S_d0_1 Gen.h_S_ ix0
        * Ideal.ofBits .f32 0x3FB504F3#32 := rfl

/-- `cf_dx` (and `cf_dy`) at row `r`: `c` at (r % 64, r / 64), over `dx`. -/
theorem cf_dx_apply (a0 : FVec Ideal S64x64 .f32) (r : Fin 4096) :
    cf_dx a0 (ix1 r) = Ideal.div (a0 (ix2 (lo r) (hi r))) (dxs a0 ix0) := by
  unfold cf_dx
  rw [hostDivf_apply, flatT_apply, broadcastInDim_scalar_apply]

theorem mdiagSmall_apply (a1 : FVec Ideal S64 .f32) (i : Fin 64) :
    mdiagSmall a1 (ix1 i) = Ideal.ofBits .f32 0x3F800000#32 - Ideal.div (a1 (ix1 i)) (Ideal.ofBits .f32 0x40000000#32) := by
  show splat64 0x3F800000#32 (ix1 i) - Ideal.div (a1 (ix1 i)) (splat64 0x40000000#32 (ix1 i)) = _
  rw [splat64_apply, splat64_apply]

theorem mpdiagSmall_apply (a1 : FVec Ideal S64 .f32) (i : Fin 64) :
    mpdiagSmall a1 (ix1 i) = Ideal.ofBits .f32 0x3F800000#32 + Ideal.div (a1 (ix1 i)) (Ideal.ofBits .f32 0x40000000#32) := by
  show splat64 0x3F800000#32 (ix1 i) + Ideal.div (a1 (ix1 i)) (splat64 0x40000000#32 (ix1 i)) = _
  rw [splat64_apply, splat64_apply]

/-- `minv` at row `r`: `1 / (1 - kp (r % 64) / 2)`. -/
theorem minv_apply (a1 : FVec Ideal S64 .f32) (r : Fin 4096) :
    minv a1 (ix1 r) = Ideal.div (Ideal.ofBits .f32 0x3F800000#32)
      (Ideal.ofBits .f32 0x3F800000#32 - Ideal.div (a1 (ix1 (lo r))) (Ideal.ofBits .f32 0x40000000#32)) := by
  show Ideal.div (splat4096 0x3F800000#32 (ix1 r)) (tile64 (mdiagSmall a1) (ix1 r)) = _
  rw [splat4096_apply, tile64_apply, mdiagSmall_apply]

/-- `M_term` at row `r`: `minv r * (1 + kp (r % 64) / 2)`. -/
theorem mterm_apply (a1 : FVec Ideal S64 .f32) (r : Fin 4096) :
    mterm a1 (ix1 r) = minv a1 (ix1 r)
      * (Ideal.ofBits .f32 0x3F800000#32 + Ideal.div (a1 (ix1 (lo r))) (Ideal.ofBits .f32 0x40000000#32)) := by
  show minv a1 (ix1 r) * tile64 (mpdiagSmall a1) (ix1 r) = _
  rw [tile64_apply, mpdiagSmall_apply]

/-- `1 + k (r % 64, r / 64) / 2`. -/
theorem ndiag_apply (k : FVec Ideal S64x64 .f32) (r : Fin 4096) :
    ndiag k (ix1 r) = Ideal.ofBits .f32 0x3F800000#32 + Ideal.div (k (ix2 (lo r) (hi r))) (Ideal.ofBits .f32 0x40000000#32) := by
  show splat4096 0x3F800000#32 (ix1 r) + Ideal.div (flatT k (ix1 r)) (splat4096 0x40000000#32 (ix1 r)) = _
  rw [splat4096_apply, splat4096_apply, flatT_apply]

/-- `1 - k (r % 64, r / 64) / 2`. -/
theorem npdiag_apply (k : FVec Ideal S64x64 .f32) (r : Fin 4096) :
    npdiag k (ix1 r) = Ideal.ofBits .f32 0x3F800000#32 - Ideal.div (k (ix2 (lo r) (hi r))) (Ideal.ofBits .f32 0x40000000#32) := by
  show splat4096 0x3F800000#32 (ix1 r) - Ideal.div (flatT k (ix1 r)) (splat4096 0x40000000#32 (ix1 r)) = _
  rw [splat4096_apply, splat4096_apply, flatT_apply]

/-- `1 / ndiag` at row `r`. -/
theorem ninv_apply (k : FVec Ideal S64x64 .f32) (r : Fin 4096) :
    ninv k (ix1 r) = Ideal.div (Ideal.ofBits .f32 0x3F800000#32) (ndiag k (ix1 r)) := by
  show Ideal.div (splat4096 0x3F800000#32 (ix1 r)) (ndiag k (ix1 r)) = _
  rw [splat4096_apply]

/-- `ninv * npdiag` at row `r`. -/
theorem avv_apply (k : FVec Ideal S64x64 .f32) (r : Fin 4096) : avv k (ix1 r) = ninv k (ix1 r) * npdiag k (ix1 r) := rfl

/-! ## The columns at a row, in the printed association -/

section Columns
variable (mt mi cx cy nx ny cxm cxp nxp cyp nyp a22 a33 a22p a33p mf ml : FVec Ideal S4096 .f32) (i : S4096.Idx)

theorem colD0_apply : colD0 mt mi cx cy nx ny nxp cyp nyp ml i
    = mt i + mi i * (-(cx i * cx i) * nx i - cx i * cx i * nxp i - cy i * cy i * ny i - ml i * (cyp i * cyp i) * nyp i) := rfl
theorem colDmN_apply : colDmN mi cx nx cxm i = mi i * cx i * cxm i * nx i := rfl
theorem colDpN_apply : colDpN mi cx cxp nxp i = mi i * cx i * cxp i * nxp i := rfl
theorem colDm1_apply : colDm1 mi cy ny mf i = mf i * mi i * (cy i * cy i) * ny i := rfl
theorem colDp1_apply : colDp1 mi cyp nyp ml i = ml i * mi i * (cyp i * cyp i) * nyp i := rfl
theorem colE0_apply : colE0 mi cx a22 i = mi i * cx i * a22 i := rfl
theorem colEpN_apply : colEpN mi cx a22p i = -(mi i) * cx i * a22p i := rfl
theorem colF0_apply : colF0 mi cy a33 i = mi i * cy i * a33 i := rfl
theorem colFp1_apply : colFp1 mi cyp a33p ml i = -(ml i) * mi i * cyp i * a33p i := rfl
theorem colG0_apply : colG0 cx nx i = -(nx i) * cx i := rfl
theorem colGmN_apply : colGmN nx cxm i = nx i * cxm i := rfl
theorem colI0_apply : colI0 cy ny i = -(ny i) * cy i := rfl
theorem colIm1_apply : colIm1 cy ny mf i = mf i * ny i * cy i := rfl

end Columns

/-! ## Which column is which -/

section Which
variable (a0 : FVec Ideal S64x64 .f32) (a1 : FVec Ideal S64 .f32) (a2 a3 : FVec Ideal S64x64 .f32) (a4 : FVec Ideal S4096 .f32)

theorem cols_0 (h : 0 < 15) : cols a0 a1 a2 a3 a4 ⟨0, h⟩ = colD0 (mterm a1) (minv a1) (cf_dx a0) (cf_dx a0) (ninv (kxy a2 a4)) (ninv (kxy a3 a4)) (shiftUp64 (ninv (kxy a2 a4))) (shiftUp1 (cf_dx a0)) (shiftUp1 (ninv (kxy a3 a4))) (maskNe rmod 63#32) := rfl
theorem cols_1 (h : 1 < 15) : cols a0 a1 a2 a3 a4 ⟨1, h⟩ = colDmN (minv a1) (cf_dx a0) (ninv (kxy a2 a4)) (shiftDown64 (cf_dx a0)) := rfl
theorem cols_2 (h : 2 < 15) : cols a0 a1 a2 a3 a4 ⟨2, h⟩ = colDpN (minv a1) (cf_dx a0) (shiftUp64 (cf_dx a0)) (shiftUp64 (ninv (kxy a2 a4))) := rfl
theorem cols_3 (h : 3 < 15) : cols a0 a1 a2 a3 a4 ⟨3, h⟩ = colDm1 (minv a1) (cf_dx a0) (ninv (kxy a3 a4)) (maskNe rmod 0#32) := rfl
theorem cols_4 (h : 4 < 15) : cols a0 a1 a2 a3 a4 ⟨4, h⟩ = colDp1 (minv a1) (shiftUp1 (cf_dx a0)) (shiftUp1 (ninv (kxy a3 a4))) (maskNe rmod 63#32) := rfl
theorem cols_5 (h : 5 < 15) : cols a0 a1 a2 a3 a4 ⟨5, h⟩ = colE0 (minv a1) (cf_dx a0) (avv (kxy a2 a4)) := rfl
theorem cols_6 (h : 6 < 15) : cols a0 a1 a2 a3 a4 ⟨6, h⟩ = colEpN (minv a1) (cf_dx a0) (shiftUp64 (avv (kxy a2 a4))) := rfl
theorem cols_7 (h : 7 < 15) : cols a0 a1 a2 a3 a4 ⟨7, h⟩ = colF0 (minv a1) (cf_dx a0) (avv (kxy a3 a4)) := rfl
theorem cols_8 (h : 8 < 15) : cols a0 a1 a2 a3 a4 ⟨8, h⟩ = colFp1 (minv a1) (shiftUp1 (cf_dx a0)) (shiftUp1 (avv (kxy a3 a4))) (maskNe rmod 63#32) := rfl
theorem cols_9 (h : 9 < 15) : cols a0 a1 a2 a3 a4 ⟨9, h⟩ = colG0 (cf_dx a0) (ninv (kxy a2 a4)) := rfl
theorem cols_10 (h : 10 < 15) : cols a0 a1 a2 a3 a4 ⟨10, h⟩ = colGmN (ninv (kxy a2 a4)) (shiftDown64 (cf_dx a0)) := rfl
theorem cols_11 (h : 11 < 15) : cols a0 a1 a2 a3 a4 ⟨11, h⟩ = avv (kxy a2 a4) := rfl
theorem cols_12 (h : 12 < 15) : cols a0 a1 a2 a3 a4 ⟨12, h⟩ = colI0 (cf_dx a0) (ninv (kxy a3 a4)) := rfl
theorem cols_13 (h : 13 < 15) : cols a0 a1 a2 a3 a4 ⟨13, h⟩ = colIm1 (cf_dx a0) (ninv (kxy a3 a4)) (maskNe rmod 0#32) := rfl
theorem cols_14 (h : 14 < 15) : cols a0 a1 a2 a3 a4 ⟨14, h⟩ = avv (kxy a3 a4) := rfl

end Which

end Cert.KernelIdeal.KHost

end
-- ==== Proof.KHostTable.lean ====
/-
  The coefficient table entry by entry.  At row `r` (the grid point (r % 64, r / 64)) each of the fifteen columns
  is a product of the stage values at `r` and at its neighbours `r ± 64`, `r + 1`; a neighbour outside the
  array contributes zero, and the two masks switch off the neighbour across a block boundary.  Every float
  operation is in the printed order and association.
-/
import proofs.«134289_j17918603559171_2_alg».proof.Proof.KHostCols

noncomputable section

namespace Cert.KernelIdeal.KHost

open Idealize.ShloMosaic Idealize.ShloMosaic.ValueIdx

/-! ## Scalar names -/

/-- `cf_dx` (= `cf_dy`) at row `r`. -/
def cfS (a0 : FVec Ideal S64x64 .f32) (r : Fin 4096) : EReal := cf_dx a0 (ix1 r)
/-- `minv` at row `r`. -/
def miS (a1 : FVec Ideal S64 .f32) (r : Fin 4096) : EReal := minv a1 (ix1 r)
/-- `M_term` at row `r`. -/
def mtS (a1 : FVec Ideal S64 .f32) (r : Fin 4096) : EReal := mterm a1 (ix1 r)
/-- `nxinv` / `nyinv` at row `r` (`k` is `kx` or `ky`). -/
def nS (k : FVec Ideal S64x64 .f32) (r : Fin 4096) : EReal := ninv k (ix1 r)
/-- `A22v` / `A33v` at row `r` (`k` is `kx` or `ky`). -/
def aS (k : FVec Ideal S64x64 .f32) (r : Fin 4096) : EReal := avv k (ix1 r)
/-- The value 64 rows further on, zero past the end. -/
def up64 (f : Fin 4096 → EReal) (r : Fin 4096) : EReal := if h : r.val + 64 < 4096 then f ⟨r.val + 64, h⟩ else 0
/-- The value 64 rows back, zero before the start. -/
def dn64 (f : Fin 4096 → EReal) (r : Fin 4096) : EReal :=
  if h : 64 ≤ r.val then f ⟨r.val - 64, by have := r.isLt; omega⟩ else 0
/-- The value one row further on, zero past the end. -/
def up1 (f : Fin 4096 → EReal) (r : Fin 4096) : EReal := if h : r.val + 1 < 4096 then f ⟨r.val + 1, h⟩ else 0
/-- mask_first: 0 on the first row of a block of 64, 1 elsewhere. -/
def mfS (r : Fin 4096) : EReal := if r.val % 64 = 0 then 0 else 1
/-- mask_last: 0 on the last row of a block of 64, 1 elsewhere. -/
def mlS (r : Fin 4096) : EReal := if r.val % 64 = 63 then 0 else 1

/-! ## The scalar names over the arguments -/

/-- `cf` at row `r`: `c` at the grid point (r % 64, r / 64), over `dx`. -/
theorem cfS_eq (a0 : FVec Ideal S64x64 .f32) (r : Fin 4096) :
    cfS a0 r = Ideal.div (a0 (ix2 (lo r) (hi r))) (dxs a0 ix0) := cf_dx_apply a0 r

/-- `minv` at row `r`: `1 / (1 - kp (r % 64) / 2)`. -/
theorem miS_eq (a1 : FVec Ideal S64 .f32) (r : Fin 4096) :
    miS a1 r = Ideal.div (Ideal.ofBits .f32 0x3F800000#32)
      (Ideal.ofBits .f32 0x3F800000#32 - Ideal.div (a1 (ix1 (lo r))) (Ideal.ofBits .f32 0x40000000#32)) := minv_apply a1 r

/-- `M_term` at row `r`: `minv r * (1 + kp (r % 64) / 2)`. -/
theorem mtS_eq (a1 : FVec Ideal S64 .f32) (r : Fin 4096) :
    mtS a1 r = miS a1 r
      * (Ideal.ofBits .f32 0x3F800000#32 + Ideal.div (a1 (ix1 (lo r))) (Ideal.ofBits .f32 0x40000000#32)) := mterm_apply a1 r

/-- `nxinv` / `nyinv` at row `r`: `1 / (1 + k (r % 64, r / 64) / 2)`. -/
theorem nS_eq (k : FVec Ideal S64x64 .f32) (r : Fin 4096) :
    nS k r = Ideal.div (Ideal.ofBits .f32 0x3F800000#32)
      (Ideal.ofBits .f32 0x3F800000#32 + Ideal.div (k (ix2 (lo r) (hi r))) (Ideal.ofBits .f32 0x40000000#32)) := by
  unfold nS; rw [ninv_apply, ndiag_apply]

/-- `A22v` / `A33v` at row `r`: `ninv r * (1 - k (r % 64, r / 64) / 2)`. -/
theorem aS_eq (k : FVec Ideal S64x64 .f32) (r : Fin 4096) :
    aS k r = nS k r
      * (Ideal.ofBits .f32 0x3F800000#32 - Ideal.div (k (ix2 (lo r) (hi r))) (Ideal.ofBits .f32 0x40000000#32)) := by
  unfold aS nS; rw [avv_apply, npdiag_apply]

/-- `kx` / `ky` at the grid point of row `r`: `k - lr * delta_k`, `delta_k` read at 64 (r % 64) + r / 64. -/
theorem kxy_row (k : FVec Ideal S64x64 .f32) (a4 : FVec Ideal S4096 .f32) (r : Fin 4096) :
    kxy k a4 (ix2 (lo r) (hi r)) = k (ix2 (lo r) (hi r))
      - Ideal.ofBits .f32 0x3A83126F#32
        * a4 (ix1 ⟨(lo r).val * 64 + (hi r).val, by have := (lo r).isLt; have := (hi r).isLt; omega⟩) :=
  kxy_apply k a4 (lo r) (hi r)

/-! ## The fifteen columns -/

section Table
variable (a0 : FVec Ideal S64x64 .f32) (a1 : FVec Ideal S64 .f32) (a2 a3 : FVec Ideal S64x64 .f32) (a4 : FVec Ideal S4096 .f32)

/-- Column 0 (d0) at row `r`. -/
theorem RF_c0 (r : Fin 4096) : RF a0 a1 a2 a3 a4 (ix2 r (⟨0, by decide⟩ : Fin 128))
    = mtS a1 r + miS a1 r * (-(cfS a0 r * cfS a0 r) * nS (kxy a2 a4) r - cfS a0 r * cfS a0 r * up64 (nS (kxy a2 a4)) r - cfS a0 r * cfS a0 r * nS (kxy a3 a4) r - mlS r * (up1 (cfS a0) r * up1 (cfS a0) r) * up1 (nS (kxy a3 a4)) r) := by
  rw [RF_apply, dif_pos (show (⟨0, by decide⟩ : Fin 128).val < 15 by decide), cols_0, colD0_apply, shiftUp64_apply, shiftUp1_apply, shiftUp1_apply, maskLast_apply]
  rfl

/-- Column 1 (dmN) at row `r`. -/
theorem RF_c1 (r : Fin 4096) : RF a0 a1 a2 a3 a4 (ix2 r (⟨1, by decide⟩ : Fin 128))
    = miS a1 r * cfS a0 r * dn64 (cfS a0) r * nS (kxy a2 a4) r := by
  rw [RF_apply, dif_pos (show (⟨1, by decide⟩ : Fin 128).val < 15 by decide), cols_1, colDmN_apply, shiftDown64_apply]
  rfl

/-- Column 2 (dpN) at row `r`. -/
theorem RF_c2 (r : Fin 4096) : RF a0 a1 a2 a3 a4 (ix2 r (⟨2, by decide⟩ : Fin 128))
    = miS a1 r * cfS a0 r * up64 (cfS a0) r * up64 (nS (kxy a2 a4)) r := by
  rw [RF_apply, dif_pos (show (⟨2, by decide⟩ : Fin 128).val < 15 by decide), cols_2, colDpN_apply, shiftUp64_apply, shiftUp64_apply]
  rfl

/-- Column 3 (dm1) at row `r`. -/
theorem RF_c3 (r : Fin 4096) : RF a0 a1 a2 a3 a4 (ix2 r (⟨3, by decide⟩ : Fin 128))
    = mfS r * miS a1 r * (cfS a0 r * cfS a0 r) * nS (kxy a3 a4) r := by
  rw [RF_apply, dif_pos (show (⟨3, by decide⟩ : Fin 128).val < 15 by decide), cols_3, colDm1_apply, maskFirst_apply]
  rfl

/-- Column 4 (dp1) at row `r`. -/
theorem RF_c4 (r : Fin 4096) : RF a0 a1 a2 a3 a4 (ix2 r (⟨4, by decide⟩ : Fin 128))
    = mlS r * miS a1 r * (up1 (cfS a0) r * up1 (cfS a0) r) * up1 (nS (kxy a3 a4)) r := by
  rw [RF_apply, dif_pos (show (⟨4, by decide⟩ : Fin 128).val < 15 by decide), cols_4, colDp1_apply, shiftUp1_apply, shiftUp1_apply, maskLast_apply]
  rfl

/-- Column 5 (e0) at row `r`. -/
theorem RF_c5 (r : Fin 4096) : RF a0 a1 a2 a3 a4 (ix2 r (⟨5, by decide⟩ : Fin 128))
    = miS a1 r * cfS a0 r * aS (kxy a2 a4) r := by
  rw [RF_apply, dif_pos (show (⟨5, by decide⟩ : Fin 128).val < 15 by decide), cols_5, colE0_apply]
  rfl

/-- Column 6 (epN) at row `r`. -/
theorem RF_c6 (r : Fin 4096) : RF a0 a1 a2 a3 a4 (ix2 r (⟨6, by decide⟩ : Fin 128))
    = -(miS a1 r) * cfS a0 r * up64 (aS (kxy a2 a4)) r := by
  rw [RF_apply, dif_pos (show (⟨6, by decide⟩ : Fin 128).val < 15 by decide), cols_6, colEpN_apply, shiftUp64_apply]
  rfl

/-- Column 7 (f0) at row `r`. -/
theorem RF_c7 (r : Fin 4096) : RF a0 a1 a2 a3 a4 (ix2 r (⟨7, by decide⟩ : Fin 128))
    = miS a1 r * cfS a0 r * aS (kxy a3 a4) r := by
  rw [RF_apply, dif_pos (show (⟨7, by decide⟩ : Fin 128).val < 15 by decide), cols_7, colF0_apply]
  rfl

/-- Column 8 (fp1) at row `r`. -/
theorem RF_c8 (r : Fin 4096) : RF a0 a1 a2 a3 a4 (ix2 r (⟨8, by decide⟩ : Fin 128))
    = -(mlS r) * miS a1 r * up1 (cfS a0) r * up1 (aS (kxy a3 a4)) r := by
  rw [RF_apply, dif_pos (show (⟨8, by decide⟩ : Fin 128).val < 15 by decide), cols_8, colFp1_apply, shiftUp1_apply, shiftUp1_apply, maskLast_apply]
  rfl

/-- Column 9 (g0) at row `r`. -/
theorem RF_c9 (r : Fin 4096) : RF a0 a1 a2 a3 a4 (ix2 r (⟨9, by decide⟩ : Fin 128))
    = -(nS (kxy a2 a4) r) * cfS a0 r := by
  rw [RF_apply, dif_pos (show (⟨9, by decide⟩ : Fin 128).val < 15 by decide), cols_9, colG0_apply]
  rfl

/-- Column 10 (gmN) at row `r`. -/
theorem RF_c10 (r : Fin 4096) : RF a0 a1 a2 a3 a4 (ix2 r (⟨10, by decide⟩ : Fin 128))
    = nS (kxy a2 a4) r * dn64 (cfS a0) r := by
  rw [RF_apply, dif_pos (show (⟨10, by decide⟩ : Fin 128).val < 15 by decide), cols_10, colGmN_apply, shiftDown64_apply]
  rfl

/-- Column 11 (h0) at row `r`. -/
theorem RF_c11 (r : Fin 4096) : RF a0 a1 a2 a3 a4 (ix2 r (⟨11, by decide⟩ : Fin 128))
    = aS (kxy a2 a4) r := by
  rw [RF_apply, dif_pos (show (⟨11, by decide⟩ : Fin 128).val < 15 by decide), cols_11]
  rfl

/-- Column 12 (i0) at row `r`. -/
theorem RF_c12 (r : Fin 4096) : RF a0 a1 a2 a3 a4 (ix2 r (⟨12, by decide⟩ : Fin 128))
    = -(nS (kxy a3 a4) r) * cfS a0 r := by
  rw [RF_apply, dif_pos (show (⟨12, by decide⟩ : Fin 128).val < 15 by decide), cols_12, colI0_apply]
  rfl

/-- Column 13 (im1) at row `r`. -/
theorem RF_c13 (r : Fin 4096) : RF a0 a1 a2 a3 a4 (ix2 r (⟨13, by decide⟩ : Fin 128))
    = mfS r * nS (kxy a3 a4) r * cfS a0 r := by
  rw [RF_apply, dif_pos (show (⟨13, by decide⟩ : Fin 128).val < 15 by decide), cols_13, colIm1_apply, maskFirst_apply]
  rfl

/-- Column 14 (h2) at row `r`. -/
theorem RF_c14 (r : Fin 4096) : RF a0 a1 a2 a3 a4 (ix2 r (⟨14, by decide⟩ : Fin 128))
    = aS (kxy a3 a4) r := by
  rw [RF_apply, dif_pos (show (⟨14, by decide⟩ : Fin 128).val < 15 by decide), cols_14]
  rfl

end Table

end Cert.KernelIdeal.KHost

end
-- ==== Proof.LibKeepdims.lean ====
/-
  Keepdims layouts read at an index given by coordinates.

  A reduction that keeps its axis, and the broadcast that undoes it, print as casts and broadcasts through shapes with a
  unit axis: a matrix [a, c] viewed [a, 1, c] or [a, b] viewed [a, b, 1], a vector [a] viewed as the column [a, 1] or as
  [a, 1, 1], a row [b] viewed [1, b], and each of those broadcast back along its unit axis. Each lemma says which entry
  of the operand the result holds at (p, q, r); a unit axis always reads its one entry. Generic in the extents and in
  the element type, for the vector unit's `broadcastTo` / `shapeCast` and for the host's `broadcastInDim`. Last, a
  sum along the middle axis of a rank-3 array, on the vector unit and on the host, as the sum over that coordinate.
-/
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.LibKeepdims

open Idealize.ShloMosaic Idealize.ShloMosaic.ValueIdx

variable {α : Type}

/-- One axis of a broadcast's index obligation: a unit axis reads entry 0, any other axis its own coordinate. -/
local macro "bcast_axis " x:term:max n:term:max : tactic =>
  `(tactic| first
    | rfl
    | (show ($x).val = if $n = 1 then 0 else ($x).val
       split
       · have := ($x).isLt; omega
       · rfl))

/-! ## The vector unit's broadcasts and casts -/

/-- `[a, 1, c]` broadcast to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ => bcast_axis p a
  | ⟨1, _⟩ => rfl
  | ⟨2, _⟩ => bcast_axis r c

/-- `[a, b, 1]` broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ => bcast_axis p a
  | ⟨1, _⟩ => bcast_axis q b
  | ⟨2, _⟩ => rfl

/-- `[a, c]` cast to `[a, 1, c]` reads, at `(p, u, r)`, the operand at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- `[a, b]` cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[a]` cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The host's broadcasts in dimensions -/

/-- A row `[b]` as `[1, b]` (dimension 1) reads, at `(u, q)`, the operand at `q`. -/
theorem broadcastInDim_b_1b_apply {b : ℕ} (h : (⟨1, ![b]⟩ : Shape).BroadcastsInDim ⟨2, ![1, b]⟩ ![1])
    (x : (⟨1, ![b]⟩ : Shape).Idx → α) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ => bcast_axis q b

/-- A vector `[a]` as the column `[a, 1]` (dimension 0) reads, at `(p, u)`, the operand at `p`. -/
theorem broadcastInDim_a_a1_apply {a : ℕ} (h : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ => bcast_axis p a

/-- A column `[a, 1]` broadcast to `[a, b]` reads, at `(p, q)`, the operand at `(p, 0)`. -/
theorem broadcastInDim_a1_ab_apply {a b : ℕ} (h : (⟨2, ![a, 1]⟩ : Shape).BroadcastsInDim ⟨2, ![a, b]⟩ ![0, 1])
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ => bcast_axis p a
  | ⟨1, _⟩ => rfl

/-- `[a, c]` as `[a, 1, c]` (dimensions 0 and 2) reads, at `(p, u, r)`, the operand at `(p, r)`. -/
theorem broadcastInDim_ac_a1c_apply {a c : ℕ} (h : (⟨2, ![a, c]⟩ : Shape).BroadcastsInDim ⟨3, ![a, 1, c]⟩ ![0, 2])
    (x : (⟨2, ![a, c]⟩ : Shape).Idx → α) (p : Fin a) (u : Fin 1) (r : Fin c) :
    broadcastInDim ⟨3, ![a, 1, c]⟩ ![0, 2] h x (ix3 p u r) = x (ix2 p r) := by
  refine broadcastInDim_apply ![0, 2] h x (ix3 p u r) (ix2 p r) fun ax => ?_
  match ax with
  | ⟨0, _⟩ => bcast_axis p a
  | ⟨1, _⟩ => bcast_axis r c

/-- A vector `[a]` as `[a, 1, 1]` (dimension 0) reads, at `(p, u, u')`, the operand at `p`. -/
theorem broadcastInDim_a_a11_apply {a : ℕ} (h : (⟨1, ![a]⟩ : Shape).BroadcastsInDim ⟨3, ![a, 1, 1]⟩ ![0])
    (x : (⟨1, ![a]⟩ : Shape).Idx → α) (p : Fin a) (u u' : Fin 1) :
    broadcastInDim ⟨3, ![a, 1, 1]⟩ ![0] h x (ix3 p u u') = x (ix1 p) := by
  refine broadcastInDim_apply ![0] h x (ix3 p u u') (ix1 p) fun ax => ?_
  match ax with
  | ⟨0, _⟩ => bcast_axis p a

/-- `[a, 1, 1]` broadcast to `[a, 1, c]` reads, at `(p, u, r)`, the operand at `(p, 0, 0)`. -/
theorem broadcastInDim_a11_a1c_apply {a c : ℕ} (h : (⟨3, ![a, 1, 1]⟩ : Shape).BroadcastsInDim ⟨3, ![a, 1, c]⟩ ![0, 1, 2])
    (x : (⟨3, ![a, 1, 1]⟩ : Shape).Idx → α) (p : Fin a) (u : Fin 1) (r : Fin c) :
    broadcastInDim ⟨3, ![a, 1, c]⟩ ![0, 1, 2] h x (ix3 p u r) = x (ix3 p (0 : Fin 1) (0 : Fin 1)) := by
  refine broadcastInDim_apply ![0, 1, 2] h x (ix3 p u r) (ix3 p (0 : Fin 1) (0 : Fin 1)) fun ax => ?_
  match ax with
  | ⟨0, _⟩ => bcast_axis p a
  | ⟨1, _⟩ => rfl
  | ⟨2, _⟩ => rfl

/-- `[a, 1, c]` broadcast to `[a, b, c]` reads, at `(p, q, r)`, the operand at `(p, 0, r)`. -/
theorem broadcastInDim_a1c_abc_apply {a b c : ℕ} (h : (⟨3, ![a, 1, c]⟩ : Shape).BroadcastsInDim ⟨3, ![a, b, c]⟩ ![0, 1, 2])
    (x : (⟨3, ![a, 1, c]⟩ : Shape).Idx → α) (p : Fin a) (q : Fin b) (r : Fin c) :
    broadcastInDim ⟨3, ![a, b, c]⟩ ![0, 1, 2] h x (ix3 p q r) = x (ix3 p (0 : Fin 1) r) := by
  refine broadcastInDim_apply ![0, 1, 2] h x (ix3 p q r) (ix3 p (0 : Fin 1) r) fun ax => ?_
  match ax with
  | ⟨0, _⟩ => bcast_axis p a
  | ⟨1, _⟩ => rfl
  | ⟨2, _⟩ => bcast_axis r c

/-- `[a, b]` as `[a, b, 1]` (dimensions 0 and 1) reads, at `(p, q, u)`, the operand at `(p, q)`. -/
theorem broadcastInDim_ab_ab1_apply {a b : ℕ} (h : (⟨2, ![a, b]⟩ : Shape).BroadcastsInDim ⟨3, ![a, b, 1]⟩ ![0, 1])
    (x : (⟨2, ![a, b]⟩ : Shape).Idx → α) (p : Fin a) (q : Fin b) (u : Fin 1) :
    broadcastInDim ⟨3, ![a, b, 1]⟩ ![0, 1] h x (ix3 p q u) = x (ix2 p q) := by
  refine broadcastInDim_apply ![0, 1] h x (ix3 p q u) (ix2 p q) fun ax => ?_
  match ax with
  | ⟨0, _⟩ => bcast_axis p a
  | ⟨1, _⟩ => bcast_axis q b

/-- `[a, b, 1]` broadcast to `[a, b, c]` reads, at `(p, q, r)`, the operand at `(p, q, 0)`. -/
theorem broadcastInDim_ab1_abc_apply {a b c : ℕ} (h : (⟨3, ![a, b, 1]⟩ : Shape).BroadcastsInDim ⟨3, ![a, b, c]⟩ ![0, 1, 2])
    (x : (⟨3, ![a, b, 1]⟩ : Shape).Idx → α) (p : Fin a) (q : Fin b) (r : Fin c) :
    broadcastInDim ⟨3, ![a, b, c]⟩ ![0, 1, 2] h x (ix3 p q r) = x (ix3 p q (0 : Fin 1)) := by
  refine broadcastInDim_apply ![0, 1, 2] h x (ix3 p q r) (ix3 p q (0 : Fin 1)) fun ax => ?_
  match ax with
  | ⟨0, _⟩ => bcast_axis p a
  | ⟨1, _⟩ => bcast_axis q b
  | ⟨2, _⟩ => rfl

/-! ## A sum along the middle axis of a rank-3 array -/

/-- The index a one-axis reduction of `[a, b, c]` along axis 1 inserts the coordinate into. -/
theorem lift_mid {a b c : ℕ} (h : (⟨3, ![a, b, c]⟩ : Shape).Reduces [1] ⟨2, ![a, c]⟩) (p : Fin a) (r : Fin c) (k : Fin b) :
    h.lift (ix2 p r) k = ix3 p k r := by
  funext ax; apply Fin.ext
  match ax with
  | ⟨0, _⟩ => rfl
  | ⟨1, _⟩ => rfl
  | ⟨2, _⟩ => rfl

/-- The vector unit's sum of an `[a, b, c]` vector along axis 1, at `(p, r)`, is the sum over the middle coordinate. -/
theorem midSum_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (r : Fin c) :
    multiReduction (F := Ideal) .add [1] ⟨2, ![a, c]⟩ src acc h hφ hacc (ix2 p r) = ∑ k : Fin b, src (ix3 p k r) := by
  refine (Ideal.multiReduction_add_single src acc h hφ hacc (ix2 p r)).trans ?_
  exact Finset.sum_congr rfl fun k _ => congrArg src (lift_mid h p r k)

/-- The host's sum of an `[a, b, c]` array along axis 1 from an initial value, at `(p, r)`: the initial value plus the
    sum over the middle coordinate. -/
theorem hostMidSum_apply {a b c : ℕ} {φ : FTy} {u : Shape} (x : FVec Ideal ⟨3, ![a, b, c]⟩ φ) (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (p : Fin a) (r : Fin c) :
    Host.reduceAdd x init h' hu (ix2 p r) = init (Shape.Idx.first hu) + ∑ k : Fin b, x (ix3 p k r) := by
  rw [hostReduceAdd_apply, Ideal.hostReduceAdd_single h' h]
  exact congrArg _ (Finset.sum_congr rfl fun k _ => congrArg x (lift_mid h p r k))

end Cert.LibKeepdims

end
-- ==== Proof.RefDownScale.lean ====
/-
  The reference's row and column scalings read at an index.

  `m[:, None] * X` prints as the vector `m` made a column and broadcast along each row, times `X`; `X * n[None, :]` as
  the vector `n` made a row and broadcast down each column. At `(r, c)` the first is `m r * X (r, c)` and the second
  `X (r, c) * n c`. Every product and sum below is kept in the printed order and association.
-/
import proofs.«134289_j17918603559171_2_alg».proof.Proof.RefStages
import proofs.«134289_j17918603559171_2_alg».proof.Proof.LibKeepdims
import Idealize.ShloMosaic.Lib.Pipeline.Value
import Idealize.ShloMosaic.Lib.ValueIdx
import Idealize.ShloMosaic.Lib.IdealHost

noncomputable section

namespace Cert.ReferenceIdeal.RefDown

open Idealize.ShloMosaic Idealize.ShloMosaic.ValueIdx Cert.ReferenceIdeal Cert.ReferenceIdeal.Facts₀ Cert.ReferenceIdeal.Facts
open Cert.ReferenceIdeal.RefStages Cert.LibKeepdims

/-! ## The two broadcast chains -/

/-- A vector made a column `[4096, 1]` and broadcast to `[4096, 4096]` reads, at `(r, c)`, the vector at `r`. -/
theorem col_bcast_apply (v : FVec Ideal S4096 .f32) (r c : Fin 4096) :
    broadcastInDim S4096x4096 ![0, 1] bcast_S4096x1_S4096x4096_0_1
        (broadcastInDim S4096x1 ![0] bcast_S4096_S4096x1_0 v) (ix2 r c) = v (ix1 r) := by
  refine (broadcastInDim_a1_ab_apply bcast_S4096x1_S4096x4096_0_1 _ r c).trans ?_
  exact broadcastInDim_a_a1_apply bcast_S4096_S4096x1_0 v r 0

/-- A vector made a row `[1, 4096]` and broadcast to `[4096, 4096]` reads, at `(r, c)`, the vector at `c`. -/
theorem row_bcast_apply (v : FVec Ideal S4096 .f32) (r c : Fin 4096) :
    broadcastInDim S4096x4096 ![0, 1] bcast_S1x4096_S4096x4096_0_1
        (broadcastInDim S1x4096 ![1] bcast_S4096_S1x4096_1 v) (ix2 r c) = v (ix1 c) := by
  refine (broadcastInDim_apply ![0, 1] bcast_S1x4096_S4096x4096_0_1 _ (ix2 r c) (ix2 (0 : Fin 1) c) fun ax => ?_).trans ?_
  · match ax with
    | ⟨0, _⟩ => rfl
    | ⟨1, _⟩ => rfl
  · exact broadcastInDim_b_1b_apply bcast_S4096_S1x4096_1 v 0 c

/-- The constant one spread over a vector is one everywhere. -/
theorem ones_apply (r : Fin 4096) :
    broadcastInDim S4096 (![] : Fin 0 → Fin S4096.rank) bcast_S_S4096
        (constant (F := Ideal) S_ .f32 0x3F800000#32) (ix1 r) = 1 := by
  refine (broadcastInDim_scalar_apply bcast_S_S4096 _ (ix1 r)).trans ?_
  rw [constant_apply]
  exact Ideal.ofBits_one_f32

/-! ## The reciprocal diagonals -/

/-- `minv = 1 / Mdiag` at `r`. -/
theorem res_v164_apply (a0 : FVec Ideal S64x64 .f32) (a1 : FVec Ideal S64 .f32) (a2 a3 : FVec Ideal S64x64 .f32) (a4 : FVec Ideal S4096 .f32) (r : Fin 4096) :
    res_v164 a0 a1 a2 a3 a4 (ix1 r) = Ideal.div 1 (res_v18 a0 a1 a2 a3 a4 (ix1 r)) := by
  unfold res_v164 res_v163 res_cst_61
  rw [hostDivf_apply, ones_apply]

/-- `nxinv = 1 / Nxdiag` at `r`. -/
theorem res_v166_apply (a0 : FVec Ideal S64x64 .f32) (a1 : FVec Ideal S64 .f32) (a2 a3 : FVec Ideal S64x64 .f32) (a4 : FVec Ideal S4096 .f32) (r : Fin 4096) :
    res_v166 a0 a1 a2 a3 a4 (ix1 r) = Ideal.div 1 (res_v31 a0 a1 a2 a3 a4 (ix1 r)) := by
  unfold res_v166 res_v165 res_cst_62
  rw [hostDivf_apply, ones_apply]

/-- `nyinv = 1 / Nydiag` at `r`. -/
theorem res_v168_apply (a0 : FVec Ideal S64x64 .f32) (a1 : FVec Ideal S64 .f32) (a2 a3 : FVec Ideal S64x64 .f32) (a4 : FVec Ideal S4096 .f32) (r : Fin 4096) :
    res_v168 a0 a1 a2 a3 a4 (ix1 r) = Ideal.div 1 (res_v43 a0 a1 a2 a3 a4 (ix1 r)) := by
  unfold res_v168 res_v167 res_cst_63
  rw [hostDivf_apply, ones_apply]

/-! ## Products of diagonals -/

/-- `minv * Mpdiag` at `r`. -/
theorem res_v175_apply (a0 : FVec Ideal S64x64 .f32) (a1 : FVec Ideal S64 .f32) (a2 a3 : FVec Ideal S64x64 .f32) (a4 : FVec Ideal S4096 .f32) (r : Fin 4096) :
    res_v175 a0 a1 a2 a3 a4 (ix1 r) = res_v164 a0 a1 a2 a3 a4 (ix1 r) * res_v25 a0 a1 a2 a3 a4 (ix1 r) := by
  unfold res_v175
  exact mulf_apply _ _ _

/-- `nxinv * Nxpdiag` at `c` (the column factor of `A12`). -/
theorem res_v187_apply (a0 : FVec Ideal S64x64 .f32) (a1 : FVec Ideal S64 .f32) (a2 a3 : FVec Ideal S64x64 .f32) (a4 : FVec Ideal S4096 .f32) (c : Fin 4096) :
    res_v187 a0 a1 a2 a3 a4 (ix1 c) = res_v166 a0 a1 a2 a3 a4 (ix1 c) * res_v37 a0 a1 a2 a3 a4 (ix1 c) := by
  unfold res_v187
  exact mulf_apply _ _ _

/-- `nyinv * Nypdiag` at `c` (the column factor of `A13`). -/
theorem res_v194_apply (a0 : FVec Ideal S64x64 .f32) (a1 : FVec Ideal S64 .f32) (a2 a3 : FVec Ideal S64x64 .f32) (a4 : FVec Ideal S4096 .f32) (c : Fin 4096) :
    res_v194 a0 a1 a2 a3 a4 (ix1 c) = res_v168 a0 a1 a2 a3 a4 (ix1 c) * res_v49 a0 a1 a2 a3 a4 (ix1 c) := by
  unfold res_v194
  exact mulf_apply _ _ _

/-- `nxinv * Nxpdiag` at `r` (the diagonal of `A22`). -/
theorem res_v201_apply (a0 : FVec Ideal S64x64 .f32) (a1 : FVec Ideal S64 .f32) (a2 a3 : FVec Ideal S64x64 .f32) (a4 : FVec Ideal S4096 .f32) (r : Fin 4096) :
    res_v201 a0 a1 a2 a3 a4 (ix1 r) = res_v166 a0 a1 a2 a3 a4 (ix1 r) * res_v37 a0 a1 a2 a3 a4 (ix1 r) := by
  unfold res_v201
  exact mulf_apply _ _ _

/-- `nyinv * Nypdiag` at `r` (the diagonal of `A33`). -/
theorem res_v206_apply (a0 : FVec Ideal S64x64 .f32) (a1 : FVec Ideal S64 .f32) (a2 a3 : FVec Ideal S64x64 .f32) (a4 : FVec Ideal S4096 .f32) (r : Fin 4096) :
    res_v206 a0 a1 a2 a3 a4 (ix1 r) = res_v168 a0 a1 a2 a3 a4 (ix1 r) * res_v49 a0 a1 a2 a3 a4 (ix1 r) := by
  unfold res_v206
  exact mulf_apply _ _ _

/-! ## `A11 = diag (minv * Mpdiag) + minv[:, None] * (Tx @ Sx + Ty @ Sy)` -/

/-- `Tx @ Sx + Ty @ Sy` at `(r, c)`. -/
theorem res_v180_apply (a0 : FVec Ideal S64x64 .f32) (a1 : FVec Ideal S64 .f32) (a2 a3 : FVec Ideal S64x64 .f32) (a4 : FVec Ideal S4096 .f32) (r c : Fin 4096) :
    res_v180 a0 a1 a2 a3 a4 (ix2 r c) = res_v178 a0 a1 a2 a3 a4 (ix2 r c) + res_v179 a0 a1 a2 a3 a4 (ix2 r c) := by
  unfold res_v180
  exact addf_apply _ _ _

/-- `minv[:, None] * (Tx @ Sx + Ty @ Sy)` at `(r, c)`. -/
theorem res_v182_apply (a0 : FVec Ideal S64x64 .f32) (a1 : FVec Ideal S64 .f32) (a2 a3 : FVec Ideal S64x64 .f32) (a4 : FVec Ideal S4096 .f32) (r c : Fin 4096) :
    res_v182 a0 a1 a2 a3 a4 (ix2 r c) = res_v164 a0 a1 a2 a3 a4 (ix1 r) * res_v180 a0 a1 a2 a3 a4 (ix2 r c) := by
  unfold res_v182 res_v181 res_v177
  rw [mulf_apply, col_bcast_apply]

/-- `A11` at `(r, c)`. -/
theorem res_v183_apply (a0 : FVec Ideal S64x64 .f32) (a1 : FVec Ideal S64 .f32) (a2 a3 : FVec Ideal S64x64 .f32) (a4 : FVec Ideal S4096 .f32) (r c : Fin 4096) :
    res_v183 a0 a1 a2 a3 a4 (ix2 r c) = res_v176 a0 a1 a2 a3 a4 (ix2 r c) + res_v182 a0 a1 a2 a3 a4 (ix2 r c) := by
  unfold res_v183
  exact addf_apply _ _ _

/-! ## `A12 = (minv[:, None] * Rx) * (nxinv * Nxpdiag)[None, :]` -/

/-- `minv[:, None] * Rx` at `(r, c)`. -/
theorem res_v186_apply (a0 : FVec Ideal S64x64 .f32) (a1 : FVec Ideal S64 .f32) (a2 a3 : FVec Ideal S64x64 .f32) (a4 : FVec Ideal S4096 .f32) (r c : Fin 4096) :
    res_v186 a0 a1 a2 a3 a4 (ix2 r c) = res_v164 a0 a1 a2 a3 a4 (ix1 r) * res_v76 a0 a1 a2 a3 a4 (ix2 r c) := by
  unfold res_v186 res_v185 res_v184
  rw [mulf_apply, col_bcast_apply]

/-- `A12` at `(r, c)`. -/
theorem res_v190_apply (a0 : FVec Ideal S64x64 .f32) (a1 : FVec Ideal S64 .f32) (a2 a3 : FVec Ideal S64x64 .f32) (a4 : FVec Ideal S4096 .f32) (r c : Fin 4096) :
    res_v190 a0 a1 a2 a3 a4 (ix2 r c)
      = (res_v164 a0 a1 a2 a3 a4 (ix1 r) * res_v76 a0 a1 a2 a3 a4 (ix2 r c)) * (res_v166 a0 a1 a2 a3 a4 (ix1 c) * res_v37 a0 a1 a2 a3 a4 (ix1 c)) := by
  unfold res_v190 res_v189 res_v188
  rw [mulf_apply, row_bcast_apply, res_v186_apply, res_v187_apply]

/-! ## `A13 = (minv[:, None] * Ry) * (nyinv * Nypdiag)[None, :]` -/

/-- `minv[:, None] * Ry` at `(r, c)`. -/
theorem res_v193_apply (a0 : FVec Ideal S64x64 .f32) (a1 : FVec Ideal S64 .f32) (a2 a3 : FVec Ideal S64x64 .f32) (a4 : FVec Ideal S4096 .f32) (r c : Fin 4096) :
    res_v193 a0 a1 a2 a3 a4 (ix2 r c) = res_v164 a0 a1 a2 a3 a4 (ix1 r) * res_v132 a0 a1 a2 a3 a4 (ix2 r c) := by
  unfold res_v193 res_v192 res_v191
  rw [mulf_apply, col_bcast_apply]

/-- `A13` at `(r, c)`. -/
theorem res_v197_apply (a0 : FVec Ideal S64x64 .f32) (a1 : FVec Ideal S64 .f32) (a2 a3 : FVec Ideal S64x64 .f32) (a4 : FVec Ideal S4096 .f32) (r c : Fin 4096) :
    res_v197 a0 a1 a2 a3 a4 (ix2 r c)
      = (res_v164 a0 a1 a2 a3 a4 (ix1 r) * res_v132 a0 a1 a2 a3 a4 (ix2 r c)) * (res_v168 a0 a1 a2 a3 a4 (ix1 c) * res_v49 a0 a1 a2 a3 a4 (ix1 c)) := by
  unfold res_v197 res_v196 res_v195
  rw [mulf_apply, row_bcast_apply, res_v193_apply, res_v194_apply]

/-! ## `A21 = nxinv[:, None] * Sx` and `A31 = nyinv[:, None] * Sy` -/

/-- `A21` at `(r, c)`. -/
theorem res_v200_apply (a0 : FVec Ideal S64x64 .f32) (a1 : FVec Ideal S64 .f32) (a2 a3 : FVec Ideal S64x64 .f32) (a4 : FVec Ideal S4096 .f32) (r c : Fin 4096) :
    res_v200 a0 a1 a2 a3 a4 (ix2 r c) = res_v166 a0 a1 a2 a3 a4 (ix1 r) * res_v102 a0 a1 a2 a3 a4 (ix2 r c) := by
  unfold res_v200 res_v199 res_v198
  rw [mulf_apply, col_bcast_apply]

/-- `A31` at `(r, c)`. -/
theorem res_v205_apply (a0 : FVec Ideal S64x64 .f32) (a1 : FVec Ideal S64 .f32) (a2 a3 : FVec Ideal S64x64 .f32) (a4 : FVec Ideal S4096 .f32) (r c : Fin 4096) :
    res_v205 a0 a1 a2 a3 a4 (ix2 r c) = res_v168 a0 a1 a2 a3 a4 (ix1 r) * res_v162 a0 a1 a2 a3 a4 (ix2 r c) := by
  unfold res_v205 res_v204 res_v203
  rw [mulf_apply, col_bcast_apply]

end Cert.ReferenceIdeal.RefDown

end
-- ==== Proof.RefDownDiag.lean ====
/-
  The reference's `jnp.diag` read at an index.

  `jnp.diag v` of a vector `v : [4096]` is printed as: the vector padded by nothing, made a column, broadcast along the
  rows' entries to `[4096, 4096]`, and selected against the zero matrix where the row number (plus the offset 0) equals
  the column number. Entry `(r, c)` is therefore `v r` when `r = c` and `0` otherwise.
-/
import proofs.«134289_j17918603559171_2_alg».proof.Proof.RefStages
import proofs.«134289_j17918603559171_2_alg».proof.Proof.LibKeepdims
import Idealize.ShloMosaic.Lib.Pipeline.Value
import Idealize.ShloMosaic.Lib.ValueIdx
import Idealize.ShloMosaic.Lib.IdealHost
import Idealize.ShloMosaic.Lib.KernelVsHost
import Idealize.ShloMosaic.PureOps.Ideal.Laws

noncomputable section

namespace Cert.ReferenceIdeal.RefDown

open Idealize.ShloMosaic Idealize.ShloMosaic.ValueIdx Cert.ReferenceIdeal Cert.ReferenceIdeal.Facts₀ Cert.ReferenceIdeal.Facts
open Cert.ReferenceIdeal.RefStages Cert.LibKeepdims

/-! ## The pieces of a diagonal matrix, each at an index -/

/-- The comparison "row number plus zero equals column number" on 32-bit words, for numbers below 4096, is the
    equality of the numbers. -/
theorem diag_bit (r c : Fin 4096) :
    IntOp.cmpi .eq (IntOp.addi (BitVec.ofNat 32 r.val) 0#32) (BitVec.ofNat 32 c.val) = if r = c then 1#1 else 0#1 := by
  have hr := r.isLt
  have hc := c.isLt
  by_cases h : r = c
  · subst h
    rw [if_pos rfl]
    simp [IntOp.cmpi, IntOp.addi]
  · rw [if_neg h]
    have hne : ¬ (BitVec.ofNat 32 r.val = BitVec.ofNat 32 c.val) := fun e => h (Fin.ext (by
      have e' := congrArg BitVec.toNat e
      rw [BitVec.toNat_ofNat, BitVec.toNat_ofNat] at e'
      omega))
    have hb : (BitVec.ofNat 32 r.val == BitVec.ofNat 32 c.val) = false := beq_eq_false_iff_ne.mpr hne
    simp [IntOp.cmpi, IntOp.addi, hb]

/-- A select on that comparison is the `if` on the equality. -/
theorem select_diag_bit {β : Type} (r c : Fin 4096) (A B : β) :
    Scalar.select (IntOp.cmpi .eq (IntOp.addi (BitVec.ofNat 32 r.val) 0#32) (BitVec.ofNat 32 c.val)) A B
      = if r = c then A else B := by
  rw [diag_bit]
  by_cases h : r = c
  · rw [if_pos h, if_pos h]; exact select_one A B
  · rw [if_neg h, if_neg h]; exact select_zero A B

/-- A vector padded by nothing is the vector. -/
theorem pad_none_apply (v : FVec Ideal S4096 .f32) (z : FVec Ideal S_ .f32) (r : Fin 4096) :
    pad S4096 ![0] ![0] ![0] v z pads_S4096_S4096_000 h_S_ (ix1 r) = v (ix1 r) := by
  refine pad_apply_of_inside ![0] ![0] ![0] v z pads_S4096_S4096_000 h_S_ (ix1 r) (ix1 r) fun ax => ?_
  match ax with
  | ⟨0, _⟩ =>
    show r.val = 0 + r.val * (0 + 1)
    omega

/-- A vector made a column and broadcast along the columns reads, at `(r, c)`, the vector at `r`. -/
theorem column_apply (v : FVec Ideal S4096 .f32) (r c : Fin 4096) :
    broadcastInDim S4096x4096 ![0, 1] bcast_S4096x1_S4096x4096_0_1
        (broadcastInDim S4096x1 ![0] bcast_S4096_S4096x1_0 v) (ix2 r c) = v (ix1 r) := by
  refine (broadcastInDim_a1_ab_apply bcast_S4096x1_S4096x4096_0_1 _ r c).trans ?_
  exact broadcastInDim_a_a1_apply bcast_S4096_S4096x1_0 v r 0

/-- The zero constant spread over `[4096, 4096]` is zero everywhere. -/
theorem zeros_apply (r c : Fin 4096) :
    broadcastInDim S4096x4096 (![] : Fin 0 → Fin S4096x4096.rank) bcast_S_S4096x4096
        (constant (F := Ideal) S_ .f32 0x00000000#32) (ix2 r c) = 0 := by
  refine (broadcastInDim_apply (![] : Fin 0 → Fin S4096x4096.rank) bcast_S_S4096x4096 _ (ix2 r c) ix0 fun ax => ax.elim0).trans ?_
  rw [constant_apply]
  exact Ideal.ofBits_zero_f32

/-- The printed diagonal-matrix construction over any vector `v`, at `(r, c)`. -/
theorem diag_apply (v : FVec Ideal S4096 .f32) (r c : Fin 4096) :
    select
        (cmpi .eq (addi (iotaInDim S4096x4096 32 0)
            (broadcastInDim S4096x4096 (![] : Fin 0 → Fin S4096x4096.rank) bcast_S_S4096x4096 (constantI S_ 32 0#32)))
          (iotaInDim S4096x4096 32 1))
        (broadcastInDim S4096x4096 ![0, 1] bcast_S4096x1_S4096x4096_0_1
          (broadcastInDim S4096x1 ![0] bcast_S4096_S4096x1_0
            (pad S4096 ![0] ![0] ![0] v (constant (F := Ideal) S_ .f32 0x00000000#32) pads_S4096_S4096_000 h_S_)))
        (broadcastInDim S4096x4096 (![] : Fin 0 → Fin S4096x4096.rank) bcast_S_S4096x4096
          (constant (F := Ideal) S_ .f32 0x00000000#32))
        (ix2 r c)
      = if r = c then v (ix1 r) else 0 := by
  rw [select_apply, column_apply, pad_none_apply, zeros_apply]
  exact select_diag_bit r c _ _

/-! ## The three diagonal blocks -/

/-- `diag (minv * Mpdiag)` at `(r, c)`. -/
theorem res_v176_apply (a0 : FVec Ideal S64x64 .f32) (a1 : FVec Ideal S64 .f32) (a2 a3 : FVec Ideal S64x64 .f32) (a4 : FVec Ideal S4096 .f32) (r c : Fin 4096) :
    res_v176 a0 a1 a2 a3 a4 (ix2 r c) = if r = c then res_v175 a0 a1 a2 a3 a4 (ix1 r) else 0 :=
  diag_apply (res_v175 a0 a1 a2 a3 a4) r c

/-- `diag (nxinv * Nxpdiag)` at `(r, c)`. -/
theorem res_v202_apply (a0 : FVec Ideal S64x64 .f32) (a1 : FVec Ideal S64 .f32) (a2 a3 : FVec Ideal S64x64 .f32) (a4 : FVec Ideal S4096 .f32) (r c : Fin 4096) :
    res_v202 a0 a1 a2 a3 a4 (ix2 r c) = if r = c then res_v201 a0 a1 a2 a3 a4 (ix1 r) else 0 :=
  diag_apply (res_v201 a0 a1 a2 a3 a4) r c

/-- `diag (nyinv * Nypdiag)` at `(r, c)`. -/
theorem res_v207_apply (a0 : FVec Ideal S64x64 .f32) (a1 : FVec Ideal S64 .f32) (a2 a3 : FVec Ideal S64x64 .f32) (a4 : FVec Ideal S4096 .f32) (r c : Fin 4096) :
    res_v207 a0 a1 a2 a3 a4 (ix2 r c) = if r = c then res_v206 a0 a1 a2 a3 a4 (ix1 r) else 0 :=
  diag_apply (res_v206 a0 a1 a2 a3 a4) r c

end Cert.ReferenceIdeal.RefDown

end
-- ==== Proof.LibScatterSetRead.lean ====
/-
  A replacing scatter read at an index.

  A scatter whose body returns the update ("set") is a left fold over the updates in row-major order, each update
  replacing the element its index lands on. Read at one element `i` of the operand: when no update lands on `i`
  the element is the operand's; when exactly one update `j₀` lands on `i` the element is that update — whatever the
  other updates do, since each of them changes another element only. Both are proved by induction over the fold, for
  any dimension numbers.

  The second half specialises this to the form `x.at[rows, cols].set(v)` lowers to: an operand `[A, B]`, scatter
  indices `[n, 2]` (one row and one column word per update, the index vector along axis 1), updates `[n]`, both
  operand axes inserted and indexed. Update `k` lands on `(r, c)` exactly when its two index words, read as signed
  integers, are `r` and `c`; an index word outside the operand drops the update. Also the two-column table
  `[n, 1] ++ [n, 1] → [n, 2]` such a scatter's indices are assembled from, read at `(k, 0)` and `(k, 1)`.
  Generic in the extents and in the width of the index words.
-/
import Idealize.ShloMosaic.Lib.ValueIdx
import Idealize.ShloMosaic.Lib.Pipeline.Value

namespace Idealize.ShloMosaic.ScatterSetRead

open Idealize.ShloMosaic Idealize.ShloMosaic.ValueIdx

/-! ## The fold, for any dimension numbers -/

section Fold
variable {α : Type} {s si u : Shape} {w : Nat}

/-- One step of the replacing scatter's fold: update number `n` (in row-major order) replaces the element it lands
    on, or is dropped when it lands outside the operand. -/
def setStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

theorem scatter_set_eq_foldl (d : ScatterDims s si u) (x : s.Idx → α) (idx : IVec si w) (upd : u.Idx → α) :
    Host.scatter d (fun _ b => b) x idx upd = (List.finRange u.numel).foldl (setStep d idx upd) x := rfl

/-- A step whose update lands elsewhere (or nowhere) leaves the element at `i` as it was. -/
theorem setStep_of_ne (d : ScatterDims s si u) (idx : IVec si w) (upd : u.Idx → α) (r : s.Idx → α) (n : Fin u.numel)
    (i : s.Idx) (h : d.resultIdx? (u.rowMajor.symm n) idx ≠ some i) : setStep d idx upd r n i = r i := by
  unfold setStep
  cases hq : d.resultIdx? (u.rowMajor.symm n) idx with
  | none => rfl
  | some j =>
    show (if i = j then upd (u.rowMajor.symm n) else r i) = r i
    exact if_neg (fun e => h (by rw [hq, e]))

/-- A step whose update lands on `i` puts the update there. -/
theorem setStep_of_eq (d : ScatterDims s si u) (idx : IVec si w) (upd : u.Idx → α) (r : s.Idx → α) (n : Fin u.numel)
    (i : s.Idx) (h : d.resultIdx? (u.rowMajor.symm n) idx = some i) :
    setStep d idx upd r n i = upd (u.rowMajor.symm n) := by
  unfold setStep
  rw [h]
  show (if i = i then upd (u.rowMajor.symm n) else r i) = _
  exact if_pos rfl

/-- Updates none of which lands on `i` leave the element at `i` unchanged. -/
theorem foldl_setStep_miss (d : ScatterDims s si u) (idx : IVec si w) (upd : u.Idx → α) (i : s.Idx)
    (l : List (Fin u.numel)) (r : s.Idx → α)
    (h : ∀ n ∈ l, d.resultIdx? (u.rowMajor.symm n) idx ≠ some i) :
    l.foldl (setStep d idx upd) r i = r i := by
  induction l generalizing r with
  | nil => rfl
  | cons a t ih =>
    rw [List.foldl_cons, ih _ (fun n hn => h n (List.mem_cons_of_mem _ hn))]
    exact setStep_of_ne d idx upd r a i (h a List.mem_cons_self)

/-- Among updates taken once each, when `n₀` is the only one that lands on `i`, the element at `i` ends as update
    `n₀`: the updates before it change other elements or are overwritten by it, the ones after it change other
    elements. -/
theorem foldl_setStep_hit (d : ScatterDims s si u) (idx : IVec si w) (upd : u.Idx → α) (i : s.Idx)
    (n₀ : Fin u.numel) (h₀ : d.resultIdx? (u.rowMajor.symm n₀) idx = some i)
    (l : List (Fin u.numel)) (hl : l.Nodup) (hn₀ : n₀ ∈ l) (r : s.Idx → α)
    (huniq : ∀ n ∈ l, d.resultIdx? (u.rowMajor.symm n) idx = some i → n = n₀) :
    l.foldl (setStep d idx upd) r i = upd (u.rowMajor.symm n₀) := by
  induction l generalizing r with
  | nil => exact absurd hn₀ List.not_mem_nil
  | cons a t ih =>
    rw [List.foldl_cons]
    have hnd := List.nodup_cons.mp hl
    by_cases ha : a = n₀
    · subst ha
      rw [foldl_setStep_miss d idx upd i t _ (fun n hn e => hnd.1 (huniq n (List.mem_cons_of_mem _ hn) e ▸ hn))]
      exact setStep_of_eq d idx upd r a i h₀
    · have hmem : n₀ ∈ t := by
        rcases List.mem_cons.mp hn₀ with e | e
        · exact absurd e.symm ha
        · exact e
      exact ih hnd.2 hmem _ (fun n hn => huniq n (List.mem_cons_of_mem _ hn))

/-- **The replacing scatter where exactly one update lands**: the element is that update. -/
theorem scatter_set_apply_of_hit (d : ScatterDims s si u) (x : s.Idx → α) (idx : IVec si w) (upd : u.Idx → α)
    (i : s.Idx) (j₀ : u.Idx) (h₀ : d.resultIdx? j₀ idx = some i)
    (huniq : ∀ j, d.resultIdx? j idx = some i → j = j₀) :
    Host.scatter d (fun _ b => b) x idx upd i = upd j₀ := by
  rw [scatter_set_eq_foldl]
  have e : u.rowMajor.symm (u.rowMajor j₀) = j₀ := u.rowMajor.symm_apply_apply j₀
  rw [foldl_setStep_hit d idx upd i (u.rowMajor j₀) (by rw [e]; exact h₀) _ (List.nodup_finRange _)
    (List.mem_finRange _) x (fun n _ hn => by
      have := huniq _ hn
      rw [← this]; exact (u.rowMajor.apply_symm_apply n).symm), e]

/-- **The replacing scatter where no update lands**: the element is the operand's. -/
theorem scatter_set_apply_of_miss (d : ScatterDims s si u) (x : s.Idx → α) (idx : IVec si w) (upd : u.Idx → α)
    (i : s.Idx) (hmiss : ∀ j, d.resultIdx? j idx ≠ some i) :
    Host.scatter d (fun _ b => b) x idx upd i = x i := by
  rw [scatter_set_eq_foldl]
  exact foldl_setStep_miss d idx upd i _ x (fun n _ => hmiss _)

end Fold

/-! ## Row and column words: operand `[A, B]`, scatter indices `[n, 2]`, updates `[n]` -/

section Pair
variable {α : Type} {A B n w : Nat}

/-- The dimension numbers of `x.at[rows, cols].set(v)`: operand `[A, B]`, scatter indices `[n, 2]` with the index
    vector along axis 1, updates `[n]`; both operand axes are inserted and indexed, and there is no window axis. -/
abbrev pairScatterDims (A B n : Nat)
    (wf : ScatterDims.WF ⟨2, ![A, B]⟩ ⟨2, ![n, 2]⟩ ⟨1, ![n]⟩ [] [0, 1] [0, 1] 1) :
    ScatterDims ⟨2, ![A, B]⟩ ⟨2, ![n, 2]⟩ ⟨1, ![n]⟩ where
  updateWindowDims := []
  insertedWindowDims := [0, 1]
  scatterDimsToOperandDims := [0, 1]
  indexVectorDim := 1
  wf := wf

variable (wf : ScatterDims.WF ⟨2, ![A, B]⟩ ⟨2, ![n, 2]⟩ ⟨1, ![n]⟩ [] [0, 1] [0, 1] 1)

local notation "P" => pairScatterDims A B n wf

/-- On the row axis the window of update `k` starts at its row word, read signed. -/
theorem pair_start_zero (idx : IVec ⟨2, ![n, 2]⟩ w) (k : Fin n) :
    (P).start (ix1 k) idx 0 = (idx (ix2 k 0)).toInt := by
  unfold ScatterDims.start
  rw [dif_pos (show (0 : Fin 2) ∈ (P).scatterDimsToOperandDims from List.mem_cons_self)]
  have hsi : (P).siIdx (ix1 k)
      ⟨List.idxOf (0 : Fin 2) (P).scatterDimsToOperandDims,
        List.idxOf_lt_length_iff.2 List.mem_cons_self⟩ = ix2 k 0 := by
    funext b; refine Fin.ext ?_
    match b with
    | ⟨0, _⟩ => rfl
    | ⟨1, _⟩ => rfl
  rw [hsi]

/-- On the column axis it starts at its column word, read signed. -/
theorem pair_start_one (idx : IVec ⟨2, ![n, 2]⟩ w) (k : Fin n) :
    (P).start (ix1 k) idx 1 = (idx (ix2 k 1)).toInt := by
  unfold ScatterDims.start
  rw [dif_pos (show (1 : Fin 2) ∈ (P).scatterDimsToOperandDims from
    List.mem_cons_of_mem _ List.mem_cons_self)]
  have hsi : (P).siIdx (ix1 k)
      ⟨List.idxOf (1 : Fin 2) (P).scatterDimsToOperandDims,
        List.idxOf_lt_length_iff.2 (List.mem_cons_of_mem _ List.mem_cons_self)⟩ = ix2 k 1 := by
    funext b; refine Fin.ext ?_
    match b with
    | ⟨0, _⟩ => rfl
    | ⟨1, _⟩ => rfl
  rw [hsi]

/-- Both operand axes are inserted: the window coordinate is `0` on each. -/
theorem pair_window (k : Fin n) (a : Fin 2) : (P).window (ix1 k) a = 0 := by
  unfold ScatterDims.window
  rw [dif_neg (show a ∉ (⟨2, ![A, B]⟩ : Shape).kept [0, 1] by
    match a with
    | ⟨0, _⟩ => simp [Shape.kept, List.mem_filter]
    | ⟨1, _⟩ => simp [Shape.kept, List.mem_filter])]

/-- Update `k` lands on `(r, c)` exactly when its row word is `r` and its column word is `c`, read signed. -/
theorem pair_resultIdx?_eq_some_iff (idx : IVec ⟨2, ![n, 2]⟩ w) (k : Fin n) (r : Fin A) (c : Fin B) :
    (P).resultIdx? (ix1 k) idx = some (ix2 r c)
      ↔ (idx (ix2 k 0)).toInt = (r.val : Int) ∧ (idx (ix2 k 1)).toInt = (c.val : Int) := by
  have h0 : (P).start (ix1 k) idx 0 + ((P).window (ix1 k) 0 : Int) = (idx (ix2 k 0)).toInt := by
    rw [pair_start_zero, pair_window]; simp
  have h1 : (P).start (ix1 k) idx 1 + ((P).window (ix1 k) 1 : Int) = (idx (ix2 k 1)).toInt := by
    rw [pair_start_one, pair_window]; simp
  unfold ScatterDims.resultIdx?
  constructor
  · intro h
    split at h
    · rename_i hall
      have hq := Option.some.inj h
      have q0 : ((P).start (ix1 k) idx 0 + ((P).window (ix1 k) 0 : Int)).toNat = r.val :=
        congrArg (fun q => ((q 0 : Fin _) : Nat)) hq
      have q1 : ((P).start (ix1 k) idx 1 + ((P).window (ix1 k) 1 : Int)).toNat = c.val :=
        congrArg (fun q => ((q 1 : Fin _) : Nat)) hq
      have a0 : 0 ≤ (P).start (ix1 k) idx 0 + ((P).window (ix1 k) 0 : Int) := (hall 0).1
      have a1 : 0 ≤ (P).start (ix1 k) idx 1 + ((P).window (ix1 k) 1 : Int) := (hall 1).1
      rw [h0] at q0 a0
      rw [h1] at q1 a1
      omega
    · exact absurd h (by simp)
  · intro hp
    have hall : ∀ a, 0 ≤ (P).start (ix1 k) idx a + ((P).window (ix1 k) a : Int)
        ∧ (P).start (ix1 k) idx a + ((P).window (ix1 k) a : Int) < ((⟨2, ![A, B]⟩ : Shape).size a : Int) := by
      intro a
      match a with
      | ⟨0, _⟩ =>
        exact (show 0 ≤ (P).start (ix1 k) idx 0 + ((P).window (ix1 k) 0 : Int)
          ∧ (P).start (ix1 k) idx 0 + ((P).window (ix1 k) 0 : Int) < (A : Int) by
            rw [h0, hp.1]; have := r.isLt; omega)
      | ⟨1, _⟩ =>
        exact (show 0 ≤ (P).start (ix1 k) idx 1 + ((P).window (ix1 k) 1 : Int)
          ∧ (P).start (ix1 k) idx 1 + ((P).window (ix1 k) 1 : Int) < (B : Int) by
            rw [h1, hp.2]; have := c.isLt; omega)
    rw [dif_pos hall]
    congr 1
    funext a
    refine Fin.ext ?_
    match a with
    | ⟨0, _⟩ =>
      show (((P).start (ix1 k) idx 0 + ((P).window (ix1 k) 0 : Int)).toNat) = r.val
      rw [h0, hp.1]; simp
    | ⟨1, _⟩ =>
      show (((P).start (ix1 k) idx 1 + ((P).window (ix1 k) 1 : Int)).toNat) = c.val
      rw [h1, hp.2]; simp

/-- **`x.at[rows, cols].set(v)` at `(r, c)` where update `k` is the only one addressed to `(r, c)`**: `v[k]`. -/
theorem scatter_pair_apply_of_hit (x : (⟨2, ![A, B]⟩ : Shape).Idx → α) (idx : IVec ⟨2, ![n, 2]⟩ w)
    (upd : (⟨1, ![n]⟩ : Shape).Idx → α) (r : Fin A) (c : Fin B) (k : Fin n)
    (hr : (idx (ix2 k 0)).toInt = (r.val : Int)) (hc : (idx (ix2 k 1)).toInt = (c.val : Int))
    (huniq : ∀ k' : Fin n, (idx (ix2 k' 0)).toInt = (r.val : Int) → (idx (ix2 k' 1)).toInt = (c.val : Int) → k' = k) :
    Host.scatter (P) (fun _ b => b) x idx upd (ix2 r c) = upd (ix1 k) := by
  refine scatter_set_apply_of_hit (P) x idx upd (ix2 r c) (ix1 k)
    ((pair_resultIdx?_eq_some_iff wf idx k r c).mpr ⟨hr, hc⟩) (fun j hj => ?_)
  rw [eq_ix1 j] at hj ⊢
  have := (pair_resultIdx?_eq_some_iff wf idx (j 0) r c).mp hj
  exact congrArg ix1 (huniq (j 0) this.1 this.2)

/-- **`x.at[rows, cols].set(v)` at `(r, c)` where no update is addressed to `(r, c)`**: `x[r, c]`. -/
theorem scatter_pair_apply_of_miss (x : (⟨2, ![A, B]⟩ : Shape).Idx → α) (idx : IVec ⟨2, ![n, 2]⟩ w)
    (upd : (⟨1, ![n]⟩ : Shape).Idx → α) (r : Fin A) (c : Fin B)
    (hmiss : ∀ k : Fin n, ¬ ((idx (ix2 k 0)).toInt = (r.val : Int) ∧ (idx (ix2 k 1)).toInt = (c.val : Int))) :
    Host.scatter (P) (fun _ b => b) x idx upd (ix2 r c) = x (ix2 r c) := by
  refine scatter_set_apply_of_miss (P) x idx upd (ix2 r c) (fun j hj => ?_)
  rw [eq_ix1 j] at hj
  exact hmiss (j 0) ((pair_resultIdx?_eq_some_iff wf idx (j 0) r c).mp hj)

end Pair

/-! ## The two-column index table -/

section Columns
variable {α : Type} {n : Nat}

/-- `[n, 1] ++ [n, 1] → [n, 2]` along axis 1, at column 0: the first piece. -/
theorem concat_columns_apply_zero (a b : (⟨2, ![n, 1]⟩ : Shape).Idx → α)
    (h : Shape.Concatenates [(⟨2, ![n, 1]⟩ : Shape), ⟨2, ![n, 1]⟩] ⟨2, ![n, 2]⟩ 1) (k : Fin n) :
    concatenate (⟨2, ![n, 2]⟩ : Shape) 1 [⟨⟨2, ![n, 1]⟩, a⟩, ⟨⟨2, ![n, 1]⟩, b⟩] h (ix2 k 0) = a (ix2 k 0) := by
  refine concatenate_pair_apply_left (t := ⟨2, ![n, 2]⟩) (s₁ := ⟨2, ![n, 1]⟩) (s₂ := ⟨2, ![n, 1]⟩) (1 : Fin 2) a b h
    (ix2 k 0) rfl (ix2 k 0) (fun bb => ?_)
  match bb with
  | ⟨0, _⟩ => rfl
  | ⟨1, _⟩ => rfl

/-- … at column 1: the second piece. -/
theorem concat_columns_apply_one (a b : (⟨2, ![n, 1]⟩ : Shape).Idx → α)
    (h : Shape.Concatenates [(⟨2, ![n, 1]⟩ : Shape), ⟨2, ![n, 1]⟩] ⟨2, ![n, 2]⟩ 1) (k : Fin n) :
    concatenate (⟨2, ![n, 2]⟩ : Shape) 1 [⟨⟨2, ![n, 1]⟩, a⟩, ⟨⟨2, ![n, 1]⟩, b⟩] h (ix2 k 1) = b (ix2 k 0) := by
  refine concatenate_pair_apply_right (t := ⟨2, ![n, 2]⟩) (s₁ := ⟨2, ![n, 1]⟩) (s₂ := ⟨2, ![n, 1]⟩) (1 : Fin 2) a b h
    (ix2 k 1) rfl rfl (ix2 k 0) (fun bb hb => ?_) rfl
  match bb with
  | ⟨0, _⟩ => rfl
  | ⟨1, _⟩ => exact absurd rfl hb

end Columns

end Idealize.ShloMosaic.ScatterSetRead
-- ==== Proof.LibGatherScatterRead.lean ====
/-
  The host's row gather and accumulating row scatter, read at an index.

  A gather of whole rows of an `n × f` array at `m` start indices (one index word per result row) returns, at
  result element `(e, j)`, the operand's element `(r, j)` where `r` is the start word of `e` read as a signed
  integer and clamped into `[0, n - 1]`. An accumulating scatter of `m` rows into an `n × f` array adds, at
  element `(p, j)`, the entries `(e, j)` of exactly those update rows `e` whose start word, read as a signed
  integer, is `p`: a row whose start word is not a row of the operand is dropped. The same two readings for
  vectors (no second axis). Generic in the extents and in the width of the index words.
-/
import Idealize.ShloMosaic.Lib.ValueIdx
import Idealize.ShloMosaic.PureOps.Ideal
import Idealize.ShloMosaic.PureOps.Ideal.Laws
import Idealize.ShloMosaic.PureOps.Contract

noncomputable section

open scoped BigOperators

namespace Idealize.ShloMosaic.GatherScatterRead

open Idealize.ShloMosaic Idealize.ShloMosaic.ValueIdx

/-! ## Gather of rows -/

section GatherRows
variable {α : Type}

/-- The dimension numbers of a gather of whole rows: operand `[n, f]`, start indices `[m, 1]`, result `[m, f]`;
    the row axis is collapsed and indexed, the second axis is the offset axis with the full slice `f`. -/
abbrev rowsGatherDims (n m f : Nat)
    (wf : GatherDims.WF ⟨2, ![n, f]⟩ ⟨2, ![m, 1]⟩ ⟨2, ![m, f]⟩ [1] [0] [] [0] [] 1 ![1, f]) :
    GatherDims ⟨2, ![n, f]⟩ ⟨2, ![m, 1]⟩ ⟨2, ![m, f]⟩ where
  offsetDims := [1]
  collapsedSliceDims := [0]
  operandBatchingDims := []
  startIndicesBatchingDims := []
  startIndexMap := [0]
  indexVectorDim := 1
  sliceSizes := ![1, f]
  wf := wf

/-- The row gather read at `(e, j)`: the operand at row `idx[e, 0]`, read signed and clamped into `[0, n - 1]`,
    and column `j`. -/
theorem gather_rows_apply {n m f w : Nat} (hn : 0 < n)
    (wf : GatherDims.WF ⟨2, ![n, f]⟩ ⟨2, ![m, 1]⟩ ⟨2, ![m, f]⟩ [1] [0] [] [0] [] 1 ![1, f])
    (x : (⟨2, ![n, f]⟩ : Shape).Idx → α) (idx : IVec ⟨2, ![m, 1]⟩ w) (e : Fin m) (j : Fin f) :
    Host.gather (rowsGatherDims n m f wf) x idx (ix2 e j)
      = x (ix2 ⟨min (idx (ix2 e 0)).toInt.toNat (n - 1), by omega⟩ j) := by
  unfold Host.gather
  congr 1
  funext a
  refine Fin.ext ?_
  match a with
  | ⟨0, _⟩ =>
    show (rowsGatherDims n m f wf).start (ix2 e j) idx 0 + (rowsGatherDims n m f wf).batchCoord (ix2 e j) 0
      + (rowsGatherDims n m f wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims n m f wf).startIndexMap from List.mem_singleton.mpr rfl)]
    have hsi : (rowsGatherDims n m f wf).siIdx (ix2 e j) ⟨List.idxOf (0 : Fin 2) (rowsGatherDims n m f wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsGatherDims n m f wf).start (ix2 e j) idx 1 + (rowsGatherDims n m f wf).batchCoord (ix2 e j) 1
      + (rowsGatherDims n m f wf).offCoord (ix2 e j) 1 = j.val
    rw [GatherDims.batchCoord_eq_zero _ _ _ List.not_mem_nil]
    have hst : (rowsGatherDims n m f wf).start (ix2 e j) idx 1 = 0 := by
      unfold GatherDims.start
      rw [dif_neg (show (1 : Fin 2) ∉ ([0] : List (Fin 2)) by decide)]
    rw [hst]
    have hoff : (rowsGatherDims n m f wf).offCoord (ix2 e j) 1 = j.val := by
      unfold GatherDims.offCoord
      rw [dif_pos ((GatherDims.mem_sKept _ _).mpr ⟨show (1 : Fin 2) ∉ ([0] : List (Fin 2)) by decide, List.not_mem_nil⟩)]
      rfl
    rw [hoff]; omega

end GatherRows

/-! ## Accumulating scatter of rows -/

section ScatterRows

/-- The dimension numbers of a scatter of whole rows: operand `[n, f]`, scatter indices `[m, 1]`, updates `[m, f]`;
    the row axis is the inserted and indexed one, the second axis is the window axis. -/
abbrev rowsScatterDims (n m f : Nat)
    (wf : ScatterDims.WF ⟨2, ![n, f]⟩ ⟨2, ![m, 1]⟩ ⟨2, ![m, f]⟩ [1] [0] [0] 1) :
    ScatterDims ⟨2, ![n, f]⟩ ⟨2, ![m, 1]⟩ ⟨2, ![m, f]⟩ where
  updateWindowDims := [1]
  insertedWindowDims := [0]
  scatterDimsToOperandDims := [0]
  indexVectorDim := 1
  wf := wf

variable {n m f w : Nat} (wf : ScatterDims.WF ⟨2, ![n, f]⟩ ⟨2, ![m, 1]⟩ ⟨2, ![m, f]⟩ [1] [0] [0] 1)

local notation "D" => rowsScatterDims n m f wf

/-- On the row axis the window of update `(e, j)` starts at the start word of `e`, read signed. -/
theorem rows_start_zero (idx : IVec ⟨2, ![m, 1]⟩ w) (e : Fin m) (j : Fin f) :
    (D).start (ix2 e j) idx 0 = (idx (ix2 e 0)).toInt := by
  unfold ScatterDims.start
  rw [dif_pos (show (0 : Fin 2) ∈ (D).scatterDimsToOperandDims from List.mem_singleton.mpr rfl)]
  have hsi : (D).siIdx (ix2 e j)
      ⟨List.idxOf (0 : Fin 2) (D).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the second axis the window starts at `0`. -/
theorem rows_start_one (idx : IVec ⟨2, ![m, 1]⟩ w) (e : Fin m) (j : Fin f) :
    (D).start (ix2 e j) idx 1 = 0 := by
  unfold ScatterDims.start
  rw [dif_neg (show (1 : Fin 2) ∉ ([0] : List (Fin 2)) by decide)]

/-- The row axis is inserted: its window coordinate is `0`. -/
theorem rows_window_zero (e : Fin m) (j : Fin f) : (D).window (ix2 e j) 0 = 0 := by
  unfold ScatterDims.window
  rw [dif_neg (show (0 : Fin 2) ∉ (⟨2, ![n, f]⟩ : Shape).kept [0] by
    simp [Shape.kept, List.mem_filter])]

/-- On the second axis the window coordinate of update `(e, j)` is `j`. -/
theorem rows_window_one (e : Fin m) (j : Fin f) : (D).window (ix2 e j) 1 = j.val := by
  unfold ScatterDims.window
  rw [dif_pos (show (1 : Fin 2) ∈ (⟨2, ![n, f]⟩ : Shape).kept [0] by
    simp [Shape.kept, List.mem_filter, List.mem_finRange])]
  rfl

/-- Update `(e, j')` lands on operand element `(p, j)` exactly when the start word of `e`, read signed, is `p`
    and `j' = j`. -/
theorem rows_resultIdx?_eq_some_iff (idx : IVec ⟨2, ![m, 1]⟩ w) (e : Fin m) (j' : Fin f) (p : Fin n) (j : Fin f) :
    (D).resultIdx? (ix2 e j') idx = some (ix2 p j)
      ↔ (idx (ix2 e 0)).toInt = (p.val : Int) ∧ j' = j := by
  have h0 : (D).start (ix2 e j') idx 0 + ((D).window (ix2 e j') 0 : Int) = (idx (ix2 e 0)).toInt := by
    rw [rows_start_zero, rows_window_zero]; simp
  have h1 : (D).start (ix2 e j') idx 1 + ((D).window (ix2 e j') 1 : Int) = (j'.val : Int) := by
    rw [rows_start_one, rows_window_one]; simp
  unfold ScatterDims.resultIdx?
  constructor
  · intro h
    split at h
    · rename_i hall
      have hq := Option.some.inj h
      have q0 : ((D).start (ix2 e j') idx 0 + ((D).window (ix2 e j') 0 : Int)).toNat = p.val :=
        congrArg (fun q => ((q 0 : Fin _) : Nat)) hq
      have q1 : ((D).start (ix2 e j') idx 1 + ((D).window (ix2 e j') 1 : Int)).toNat = j.val :=
        congrArg (fun q => ((q 1 : Fin _) : Nat)) hq
      have a0 : 0 ≤ (D).start (ix2 e j') idx 0 + ((D).window (ix2 e j') 0 : Int) := (hall 0).1
      rw [h0] at q0 a0
      rw [h1] at q1
      exact ⟨by omega, Fin.ext (by omega)⟩
    · exact absurd h (by simp)
  · rintro ⟨hp, rfl⟩
    have hall : ∀ a, 0 ≤ (D).start (ix2 e j') idx a + ((D).window (ix2 e j') a : Int)
        ∧ (D).start (ix2 e j') idx a + ((D).window (ix2 e j') a : Int) < ((⟨2, ![n, f]⟩ : Shape).size a : Int) := by
      intro a
      match a with
      | ⟨0, _⟩ =>
        exact (show 0 ≤ (D).start (ix2 e j') idx 0 + ((D).window (ix2 e j') 0 : Int)
          ∧ (D).start (ix2 e j') idx 0 + ((D).window (ix2 e j') 0 : Int) < (n : Int) by
            rw [h0, hp]; have := p.isLt; omega)
      | ⟨1, _⟩ =>
        exact (show 0 ≤ (D).start (ix2 e j') idx 1 + ((D).window (ix2 e j') 1 : Int)
          ∧ (D).start (ix2 e j') idx 1 + ((D).window (ix2 e j') 1 : Int) < (f : Int) by
            rw [h1]; have := j'.isLt; omega)
    rw [dif_pos hall]
    congr 1
    funext a
    refine Fin.ext ?_
    match a with
    | ⟨0, _⟩ =>
      show (((D).start (ix2 e j') idx 0 + ((D).window (ix2 e j') 0 : Int)).toNat) = p.val
      rw [h0, hp]; simp
    | ⟨1, _⟩ =>
      show (((D).start (ix2 e j') idx 1 + ((D).window (ix2 e j') 1 : Int)).toNat) = j'.val
      rw [h1]; simp

/-- The accumulating row scatter read at `(p, j)`: the operand's element plus the entries `(e, j)` of the update
    rows `e` whose start word `idx[e, 0]`, read signed, is `p`. -/
theorem scatterAdd_rows_apply {φ : FTy} (x : FVec Ideal ⟨2, ![n, f]⟩ φ) (idx : IVec ⟨2, ![m, 1]⟩ w)
    (upd : FVec Ideal ⟨2, ![m, f]⟩ φ) (p : Fin n) (j : Fin f) :
    Host.scatterAdd (rowsScatterDims n m f wf) x idx upd (ix2 p j)
      = x (ix2 p j) + ∑ e ∈ Finset.univ.filter (fun e : Fin m => (idx (ix2 e 0)).toInt = (p.val : Int)),
          upd (ix2 e j) := by
  show x (ix2 p j) + ∑ q ∈ Finset.univ.filter (fun q => (D).resultIdx? q idx = some (ix2 p j)), upd q = _
  congr 1
  rw [Finset.sum_filter, sum_idx2, Finset.sum_filter]
  refine Finset.sum_congr rfl fun e _ => ?_
  simp only [rows_resultIdx?_eq_some_iff]
  by_cases h : (idx (ix2 e 0)).toInt = (p.val : Int)
  · simp [h]
  · simp [h]

end ScatterRows

/-! ## The same two readings for vectors -/

section Vectors

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (g : (⟨1, ![n]⟩ : Shape).Idx → M) :
    ∑ i, g i = ∑ a : Fin n, g (ix1 a) := by
  rw [← Equiv.sum_comp (idxEquiv1 (n := n)).symm g]
  rfl

/-- The dimension numbers of a gather of single elements of a vector: operand `[n]`, start indices `[m, 1]`,
    result `[m]`; the one operand axis is collapsed and indexed. -/
abbrev vecGatherDims (n m : Nat)
    (wf : GatherDims.WF ⟨1, ![n]⟩ ⟨2, ![m, 1]⟩ ⟨1, ![m]⟩ [] [0] [] [0] [] 1 ![1]) :
    GatherDims ⟨1, ![n]⟩ ⟨2, ![m, 1]⟩ ⟨1, ![m]⟩ where
  offsetDims := []
  collapsedSliceDims := [0]
  operandBatchingDims := []
  startIndicesBatchingDims := []
  startIndexMap := [0]
  indexVectorDim := 1
  sliceSizes := ![1]
  wf := wf

/-- The vector gather read at `e`: the operand at `idx[e, 0]`, read signed and clamped into `[0, n - 1]`. -/
theorem gather_vec_apply {α : Type} {n m w : Nat} (hn : 0 < n)
    (wf : GatherDims.WF ⟨1, ![n]⟩ ⟨2, ![m, 1]⟩ ⟨1, ![m]⟩ [] [0] [] [0] [] 1 ![1])
    (x : (⟨1, ![n]⟩ : Shape).Idx → α) (idx : IVec ⟨2, ![m, 1]⟩ w) (e : Fin m) :
    Host.gather (vecGatherDims n m wf) x idx (ix1 e)
      = x (ix1 ⟨min (idx (ix2 e 0)).toInt.toNat (n - 1), by omega⟩) := by
  unfold Host.gather
  congr 1
  funext a
  obtain rfl : a = 0 := Subsingleton.elim _ _
  refine Fin.ext ?_
  show (vecGatherDims n m wf).start (ix1 e) idx 0 + (vecGatherDims n m wf).batchCoord (ix1 e) 0
    + (vecGatherDims n m wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims n m wf).startIndexMap from List.mem_singleton.mpr rfl)]
  have hsi : (vecGatherDims n m wf).siIdx (ix1 e) ⟨List.idxOf (0 : Fin 1) (vecGatherDims n m wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of a scatter of single elements into a vector: operand `[n]`, scatter indices `[m, 1]`,
    updates `[m]`; the one operand axis is the inserted and indexed one, and there is no window axis. -/
abbrev vecScatterDims (n m : Nat)
    (wf : ScatterDims.WF ⟨1, ![n]⟩ ⟨2, ![m, 1]⟩ ⟨1, ![m]⟩ [] [0] [0] 1) :
    ScatterDims ⟨1, ![n]⟩ ⟨2, ![m, 1]⟩ ⟨1, ![m]⟩ where
  updateWindowDims := []
  insertedWindowDims := [0]
  scatterDimsToOperandDims := [0]
  indexVectorDim := 1
  wf := wf

variable {n m w : Nat} (wf : ScatterDims.WF ⟨1, ![n]⟩ ⟨2, ![m, 1]⟩ ⟨1, ![m]⟩ [] [0] [0] 1)

local notation "V" => vecScatterDims n m wf

/-- The window of update `e` starts at the start word of `e`, read signed. -/
theorem vec_start_zero (idx : IVec ⟨2, ![m, 1]⟩ w) (e : Fin m) :
    (V).start (ix1 e) idx 0 = (idx (ix2 e 0)).toInt := by
  unfold ScatterDims.start
  rw [dif_pos (show (0 : Fin 1) ∈ (V).scatterDimsToOperandDims from List.mem_singleton.mpr rfl)]
  have hsi : (V).siIdx (ix1 e)
      ⟨List.idxOf (0 : Fin 1) (V).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: its window coordinate is `0`. -/
theorem vec_window_zero (e : Fin m) : (V).window (ix1 e) 0 = 0 := by
  unfold ScatterDims.window
  rw [dif_neg (show (0 : Fin 1) ∉ (⟨1, ![n]⟩ : Shape).kept [0] by
    simp [Shape.kept, List.mem_filter])]

/-- Update `e` lands on operand element `p` exactly when the start word of `e`, read signed, is `p`. -/
theorem vec_resultIdx?_eq_some_iff (idx : IVec ⟨2, ![m, 1]⟩ w) (e : Fin m) (p : Fin n) :
    (V).resultIdx? (ix1 e) idx = some (ix1 p) ↔ (idx (ix2 e 0)).toInt = (p.val : Int) := by
  have h0 : (V).start (ix1 e) idx 0 + ((V).window (ix1 e) 0 : Int) = (idx (ix2 e 0)).toInt := by
    rw [vec_start_zero, vec_window_zero]; simp
  unfold ScatterDims.resultIdx?
  constructor
  · intro h
    split at h
    · rename_i hall
      have hq := Option.some.inj h
      have q0 : ((V).start (ix1 e) idx 0 + ((V).window (ix1 e) 0 : Int)).toNat = p.val :=
        congrArg (fun q => ((q 0 : Fin _) : Nat)) hq
      have a0 : 0 ≤ (V).start (ix1 e) idx 0 + ((V).window (ix1 e) 0 : Int) := (hall 0).1
      rw [h0] at q0 a0
      omega
    · exact absurd h (by simp)
  · intro hp
    have hall : ∀ a, 0 ≤ (V).start (ix1 e) idx a + ((V).window (ix1 e) a : Int)
        ∧ (V).start (ix1 e) idx a + ((V).window (ix1 e) a : Int) < ((⟨1, ![n]⟩ : Shape).size a : Int) := by
      intro a
      obtain rfl : a = 0 := Subsingleton.elim _ _
      exact (show 0 ≤ (V).start (ix1 e) idx 0 + ((V).window (ix1 e) 0 : Int)
        ∧ (V).start (ix1 e) idx 0 + ((V).window (ix1 e) 0 : Int) < (n : Int) by
          rw [h0, hp]; have := p.isLt; omega)
    rw [dif_pos hall]
    congr 1
    funext a
    obtain rfl : a = 0 := Subsingleton.elim _ _
    refine Fin.ext ?_
    show (((V).start (ix1 e) idx 0 + ((V).window (ix1 e) 0 : Int)).toNat) = p.val
    rw [h0, hp]; simp

/-- The accumulating vector scatter read at `p`: the operand's element plus the updates `e` whose start word
    `idx[e, 0]`, read signed, is `p`. -/
theorem scatterAdd_vec_apply {φ : FTy} (x : FVec Ideal ⟨1, ![n]⟩ φ) (idx : IVec ⟨2, ![m, 1]⟩ w)
    (upd : FVec Ideal ⟨1, ![m]⟩ φ) (p : Fin n) :
    Host.scatterAdd (vecScatterDims n m wf) x idx upd (ix1 p)
      = x (ix1 p) + ∑ e ∈ Finset.univ.filter (fun e : Fin m => (idx (ix2 e 0)).toInt = (p.val : Int)),
          upd (ix1 e) := by
  show x (ix1 p) + ∑ q ∈ Finset.univ.filter (fun q => (V).resultIdx? q idx = some (ix1 p)), upd q = _
  congr 1
  rw [Finset.sum_filter, sum_idx1, Finset.sum_filter]
  refine Finset.sum_congr rfl fun e _ => ?_
  simp only [vec_resultIdx?_eq_some_iff]

end Vectors

/-! ## The records at literal extents -/

section Literal

/-- At literal extents the fields of the row scatter's record compute to the stated lists. -/
example (wf : ScatterDims.WF ⟨2, ![100000, 8]⟩ ⟨2, ![3200000, 1]⟩ ⟨2, ![3200000, 8]⟩ [1] [0] [0] 1) :
    (rowsScatterDims 100000 3200000 8 wf).updateWindowDims = [1] := rfl

end Literal

end Idealize.ShloMosaic.GatherScatterRead

end
-- ==== Proof.RefReadTables.lean ====
/-
  The reference's dense index tables in closed form, and which update of each `.at[rows, cols].set(values)` is
  addressed to a given matrix entry.

  The flat index `g = 64 · i + ii` runs over a 64 × 64 field column by column. The tables are: every flat index
  `k` (4096 entries); the 4032 flat indices `k` that have a neighbour one block further, and those neighbours
  `k + 64`; the 4032 flat indices that are not the last of their block of 64, which are `k + k / 63` in increasing
  order, and their successors `k + k / 63 + 1` — the same numbers are the flat indices that are not the first of
  their block, and their predecessors. Each table is checked entry by entry against its closed form. Every entry is
  far below `2 ^ 31`, so its signed reading is the number itself, and the wrap-around of negative indices the
  program performs (a select under an all-false mask) returns the table unchanged.
-/
import proofs.«134289_j17918603559171_2_alg».proof.ReferenceIdeal
import proofs.«134289_j17918603559171_2_alg».proof.Proof.LibScatterSetRead
import proofs.«134289_j17918603559171_2_alg».proof.Proof.LibGatherScatterRead
import proofs.«134289_j17918603559171_2_alg».proof.Proof.LibKeepdims
import Idealize.ShloMosaic.Lib.ValueIdx
import Idealize.ShloMosaic.Lib.Pipeline.Value

namespace Cert.ReferenceIdeal.RefRead

open Idealize.ShloMosaic Idealize.ShloMosaic.ValueIdx Cert.ReferenceIdeal
open Idealize.ShloMosaic.ScatterSetRead

/-! ## The tables, entry by entry -/

/-- A Boolean check over `0 … n - 1` that evaluates to true holds at every `k < n`. -/
theorem all_range {n : Nat} {p : Nat → Bool} (h : (List.range n).all p = true) (k : Nat) (hk : k < n) : p k = true :=
  List.all_eq_true.mp h k (List.mem_range.mpr hk)

/-- A 32-bit word holding a number below `2 ^ 31` reads, signed, as that number. -/
theorem toInt_ofNat_small (m : Nat) (h : m < 2147483648) : (BitVec.ofNat 32 m).toInt = (m : Int) := by
  have e : (BitVec.ofNat 32 m).toNat = m := by
    rw [BitVec.toNat_ofNat]; exact Nat.mod_eq_of_lt (by omega)
  rw [BitVec.toInt_eq_toNat_cond, e, if_pos (by omega)]

/-- `g`: every flat index: entry `k` is `k`. -/
theorem lit0t_eq (k : Nat) (hk : k < 4096) : lit0t k = BitVec.ofNat 32 (k) :=
  eq_of_beq (all_range (p := fun k => lit0t k == BitVec.ofNat 32 (k)) (by decide +kernel) k hk)

/-- … and the buffer's element `k`, read signed. -/
theorem lit0_toInt (k : Fin 4096) : (lit0 (S4096.rowMajor (ix1 k))).toInt = ((k.val : Nat) : Int) := by
  have h : (S4096.rowMajor (ix1 k)).val = k.val := Shape.rowMajor_val_one _
  have e : lit0 (S4096.rowMajor (ix1 k)) = lit0t (S4096.rowMajor (ix1 k)).val := rfl
  rw [e, h, lit0t_eq _ k.isLt]
  exact toInt_ofNat_small _ (by have := k.isLt; omega)

/-- `gxs`: the flat indices with a block neighbour `+ 64`: entry `k` is `k`. -/
theorem lit1t_eq (k : Nat) (hk : k < 4032) : lit1t k = BitVec.ofNat 32 (k) :=
  eq_of_beq (all_range (p := fun k => lit1t k == BitVec.ofNat 32 (k)) (by decide +kernel) k hk)

/-- … and the buffer's element `k`, read signed. -/
theorem lit1_toInt (k : Fin 4032) : (lit1 (S4032.rowMajor (ix1 k))).toInt = ((k.val : Nat) : Int) := by
  have h : (S4032.rowMajor (ix1 k)).val = k.val := Shape.rowMajor_val_one _
  have e : lit1 (S4032.rowMajor (ix1 k)) = lit1t (S4032.rowMajor (ix1 k)).val := rfl
  rw [e, h, lit1t_eq _ k.isLt]
  exact toInt_ofNat_small _ (by have := k.isLt; omega)

/-- `gxs + 64`: entry `k` is `k + 64`. -/
theorem lit2t_eq (k : Nat) (hk : k < 4032) : lit2t k = BitVec.ofNat 32 (k + 64) :=
  eq_of_beq (all_range (p := fun k => lit2t k == BitVec.ofNat 32 (k + 64)) (by decide +kernel) k hk)

/-- … and the buffer's element `k`, read signed. -/
theorem lit2_toInt (k : Fin 4032) : (lit2 (S4032.rowMajor (ix1 k))).toInt = ((k.val + 64 : Nat) : Int) := by
  have h : (S4032.rowMajor (ix1 k)).val = k.val := Shape.rowMajor_val_one _
  have e : lit2 (S4032.rowMajor (ix1 k)) = lit2t (S4032.rowMajor (ix1 k)).val := rfl
  rw [e, h, lit2t_eq _ k.isLt]
  exact toInt_ofNat_small _ (by have := k.isLt; omega)

/-- `gxs + 64`: entry `k` is `k + 64`. -/
theorem lit3t_eq (k : Nat) (hk : k < 4032) : lit3t k = BitVec.ofNat 32 (k + 64) :=
  eq_of_beq (all_range (p := fun k => lit3t k == BitVec.ofNat 32 (k + 64)) (by decide +kernel) k hk)

/-- … and the buffer's element `k`, read signed. -/
theorem lit3_toInt (k : Fin 4032) : (lit3 (S4032.rowMajor (ix1 k))).toInt = ((k.val + 64 : Nat) : Int) := by
  have h : (S4032.rowMajor (ix1 k)).val = k.val := Shape.rowMajor_val_one _
  have e : lit3 (S4032.rowMajor (ix1 k)) = lit3t (S4032.rowMajor (ix1 k)).val := rfl
  rw [e, h, lit3t_eq _ k.isLt]
  exact toInt_ofNat_small _ (by have := k.isLt; omega)

/-- `gup + 1`: entry `k` is `k + k / 63 + 1`. -/
theorem lit4t_eq (k : Nat) (hk : k < 4032) : lit4t k = BitVec.ofNat 32 (k + k / 63 + 1) :=
  eq_of_beq (all_range (p := fun k => lit4t k == BitVec.ofNat 32 (k + k / 63 + 1)) (by decide +kernel) k hk)

/-- … and the buffer's element `k`, read signed. -/
theorem lit4_toInt (k : Fin 4032) : (lit4 (S4032.rowMajor (ix1 k))).toInt = ((k.val + k.val / 63 + 1 : Nat) : Int) := by
  have h : (S4032.rowMajor (ix1 k)).val = k.val := Shape.rowMajor_val_one _
  have e : lit4 (S4032.rowMajor (ix1 k)) = lit4t (S4032.rowMajor (ix1 k)).val := rfl
  rw [e, h, lit4t_eq _ k.isLt]
  exact toInt_ofNat_small _ (by have := k.isLt; omega)

/-- `gup`: the flat indices that are not last in their block of 64: entry `k` is `k + k / 63`. -/
theorem lit5t_eq (k : Nat) (hk : k < 4032) : lit5t k = BitVec.ofNat 32 (k + k / 63) :=
  eq_of_beq (all_range (p := fun k => lit5t k == BitVec.ofNat 32 (k + k / 63)) (by decide +kernel) k hk)

/-- … and the buffer's element `k`, read signed. -/
theorem lit5_toInt (k : Fin 4032) : (lit5 (S4032.rowMajor (ix1 k))).toInt = ((k.val + k.val / 63 : Nat) : Int) := by
  have h : (S4032.rowMajor (ix1 k)).val = k.val := Shape.rowMajor_val_one _
  have e : lit5 (S4032.rowMajor (ix1 k)) = lit5t (S4032.rowMajor (ix1 k)).val := rfl
  rw [e, h, lit5t_eq _ k.isLt]
  exact toInt_ofNat_small _ (by have := k.isLt; omega)

/-- `gup + 1`: entry `k` is `k + k / 63 + 1`. -/
theorem lit6t_eq (k : Nat) (hk : k < 4032) : lit6t k = BitVec.ofNat 32 (k + k / 63 + 1) :=
  eq_of_beq (all_range (p := fun k => lit6t k == BitVec.ofNat 32 (k + k / 63 + 1)) (by decide +kernel) k hk)

/-- … and the buffer's element `k`, read signed. -/
theorem lit6_toInt (k : Fin 4032) : (lit6 (S4032.rowMajor (ix1 k))).toInt = ((k.val + k.val / 63 + 1 : Nat) : Int) := by
  have h : (S4032.rowMajor (ix1 k)).val = k.val := Shape.rowMajor_val_one _
  have e : lit6 (S4032.rowMajor (ix1 k)) = lit6t (S4032.rowMajor (ix1 k)).val := rfl
  rw [e, h, lit6t_eq _ k.isLt]
  exact toInt_ofNat_small _ (by have := k.isLt; omega)

/-- `glo`: the flat indices that are not first in their block of 64: entry `k` is `k + k / 63 + 1`. -/
theorem lit7t_eq (k : Nat) (hk : k < 4032) : lit7t k = BitVec.ofNat 32 (k + k / 63 + 1) :=
  eq_of_beq (all_range (p := fun k => lit7t k == BitVec.ofNat 32 (k + k / 63 + 1)) (by decide +kernel) k hk)

/-- … and the buffer's element `k`, read signed. -/
theorem lit7_toInt (k : Fin 4032) : (lit7 (S4032.rowMajor (ix1 k))).toInt = ((k.val + k.val / 63 + 1 : Nat) : Int) := by
  have h : (S4032.rowMajor (ix1 k)).val = k.val := Shape.rowMajor_val_one _
  have e : lit7 (S4032.rowMajor (ix1 k)) = lit7t (S4032.rowMajor (ix1 k)).val := rfl
  rw [e, h, lit7t_eq _ k.isLt]
  exact toInt_ofNat_small _ (by have := k.isLt; omega)

/-- `glo - 1`: entry `k` is `k + k / 63`. -/
theorem lit8t_eq (k : Nat) (hk : k < 4032) : lit8t k = BitVec.ofNat 32 (k + k / 63) :=
  eq_of_beq (all_range (p := fun k => lit8t k == BitVec.ofNat 32 (k + k / 63)) (by decide +kernel) k hk)

/-- … and the buffer's element `k`, read signed. -/
theorem lit8_toInt (k : Fin 4032) : (lit8 (S4032.rowMajor (ix1 k))).toInt = ((k.val + k.val / 63 : Nat) : Int) := by
  have h : (S4032.rowMajor (ix1 k)).val = k.val := Shape.rowMajor_val_one _
  have e : lit8 (S4032.rowMajor (ix1 k)) = lit8t (S4032.rowMajor (ix1 k)).val := rfl
  rw [e, h, lit8t_eq _ k.isLt]
  exact toInt_ofNat_small _ (by have := k.isLt; omega)

/-! ## The index table of `.at[rows, cols]` -/

section AtIdx
variable {n : Nat}

/-- The scatter indices of `.at[rows, cols]`: the two tables as the columns of an `[n, 2]` table, each after the
    wrap-around of negative indices, which is a select under an all-false mask. -/
abbrev atIdx (n : Nat) (hb : (⟨1, ![n]⟩ : Shape).BroadcastsInDim ⟨2, ![n, 1]⟩ ![0])
    (hc : Shape.Concatenates [(⟨2, ![n, 1]⟩ : Shape), ⟨2, ![n, 1]⟩] ⟨2, ![n, 2]⟩ 1)
    (wr rows wc cols : IVec ⟨1, ![n]⟩ 32) : IVec ⟨2, ![n, 2]⟩ 32 :=
  concatenate (⟨2, ![n, 2]⟩ : Shape) 1
    [⟨⟨2, ![n, 1]⟩, broadcastInDim ⟨2, ![n, 1]⟩ ![0] hb (select (constantI ⟨1, ![n]⟩ 1 0#1) wr rows)⟩,
     ⟨⟨2, ![n, 1]⟩, broadcastInDim ⟨2, ![n, 1]⟩ ![0] hb (select (constantI ⟨1, ![n]⟩ 1 0#1) wc cols)⟩] hc

theorem atIdx_zero (hb : (⟨1, ![n]⟩ : Shape).BroadcastsInDim ⟨2, ![n, 1]⟩ ![0])
    (hc : Shape.Concatenates [(⟨2, ![n, 1]⟩ : Shape), ⟨2, ![n, 1]⟩] ⟨2, ![n, 2]⟩ 1)
    (wr rows wc cols : IVec ⟨1, ![n]⟩ 32) (k : Fin n) :
    atIdx n hb hc wr rows wc cols (ix2 k 0) = rows (ix1 k) := by
  refine (concat_columns_apply_zero _ _ hc k).trans ?_
  refine (Cert.LibKeepdims.broadcastInDim_a_a1_apply hb _ k 0).trans ?_
  exact select_zero _ _

theorem atIdx_one (hb : (⟨1, ![n]⟩ : Shape).BroadcastsInDim ⟨2, ![n, 1]⟩ ![0])
    (hc : Shape.Concatenates [(⟨2, ![n, 1]⟩ : Shape), ⟨2, ![n, 1]⟩] ⟨2, ![n, 2]⟩ 1)
    (wr rows wc cols : IVec ⟨1, ![n]⟩ 32) (k : Fin n) :
    atIdx n hb hc wr rows wc cols (ix2 k 1) = cols (ix1 k) := by
  refine (concat_columns_apply_one _ _ hc k).trans ?_
  refine (Cert.LibKeepdims.broadcastInDim_a_a1_apply hb _ k 0).trans ?_
  exact select_zero _ _

variable {α : Type} {A B : Nat}

/-- `x.at[rows, cols].set(v)` at `(r, c)` when update `k` is the only one with `(rows k, cols k) = (r, c)`. -/
theorem atSet_hit (wf : ScatterDims.WF ⟨2, ![A, B]⟩ ⟨2, ![n, 2]⟩ ⟨1, ![n]⟩ [] [0, 1] [0, 1] 1)
    (hb : (⟨1, ![n]⟩ : Shape).BroadcastsInDim ⟨2, ![n, 1]⟩ ![0])
    (hc : Shape.Concatenates [(⟨2, ![n, 1]⟩ : Shape), ⟨2, ![n, 1]⟩] ⟨2, ![n, 2]⟩ 1)
    (x : (⟨2, ![A, B]⟩ : Shape).Idx → α) (wr rows wc cols : IVec ⟨1, ![n]⟩ 32)
    (upd : (⟨1, ![n]⟩ : Shape).Idx → α) (r : Fin A) (c : Fin B) (k : Fin n)
    (hr : (rows (ix1 k)).toInt = (r.val : Int)) (hcl : (cols (ix1 k)).toInt = (c.val : Int))
    (huniq : ∀ k' : Fin n, (rows (ix1 k')).toInt = (r.val : Int) → (cols (ix1 k')).toInt = (c.val : Int) → k' = k) :
    Host.scatter (pairScatterDims A B n wf) (fun _ b => b) x (atIdx n hb hc wr rows wc cols) upd (ix2 r c)
      = upd (ix1 k) := by
  refine scatter_pair_apply_of_hit wf x _ upd r c k ?_ ?_ (fun k' h0 h1 => ?_)
  · rw [atIdx_zero]; exact hr
  · rw [atIdx_one]; exact hcl
  · rw [atIdx_zero] at h0; rw [atIdx_one] at h1; exact huniq k' h0 h1

/-- … and when no update has `(rows k, cols k) = (r, c)`. -/
theorem atSet_miss (wf : ScatterDims.WF ⟨2, ![A, B]⟩ ⟨2, ![n, 2]⟩ ⟨1, ![n]⟩ [] [0, 1] [0, 1] 1)
    (hb : (⟨1, ![n]⟩ : Shape).BroadcastsInDim ⟨2, ![n, 1]⟩ ![0])
    (hc : Shape.Concatenates [(⟨2, ![n, 1]⟩ : Shape), ⟨2, ![n, 1]⟩] ⟨2, ![n, 2]⟩ 1)
    (x : (⟨2, ![A, B]⟩ : Shape).Idx → α) (wr rows wc cols : IVec ⟨1, ![n]⟩ 32)
    (upd : (⟨1, ![n]⟩ : Shape).Idx → α) (r : Fin A) (c : Fin B)
    (hmiss : ∀ k : Fin n, ¬ ((rows (ix1 k)).toInt = (r.val : Int) ∧ (cols (ix1 k)).toInt = (c.val : Int))) :
    Host.scatter (pairScatterDims A B n wf) (fun _ b => b) x (atIdx n hb hc wr rows wc cols) upd (ix2 r c)
      = x (ix2 r c) := by
  refine scatter_pair_apply_of_miss wf x _ upd r c (fun k h => hmiss k ?_)
  rw [atIdx_zero, atIdx_one] at h; exact h

end AtIdx

/-! ## Which update is addressed to an entry: the arithmetic of the tables -/

/-- The `k`-th flat index that is not last in its block, `k + k / 63`, is indeed not last in its block … -/
theorem up_mod (k : Nat) (hk : k < 4032) : (k + k / 63) % 64 ≠ 63 ∧ k + k / 63 + 1 < 4096 := by omega

/-- … every such flat index `r` is the `(r - r / 64)`-th of them … -/
theorem up_of_row (r : Nat) (hr : r < 4096) (h : r % 64 ≠ 63) : (r - r / 64) + (r - r / 64) / 63 = r ∧ r - r / 64 < 4032 := by
  omega

/-- … and of no other. -/
theorem up_unique (k r : Nat) (hk : k < 4032) (h : k + k / 63 = r) : k = r - r / 64 := by omega

/-- The `k`-th flat index that is not first in its block, `k + k / 63 + 1`, is indeed not first in its block … -/
theorem lo_mod (k : Nat) (hk : k < 4032) : (k + k / 63 + 1) % 64 ≠ 0 ∧ k + k / 63 + 1 < 4096 := by omega

/-- … every such flat index `r` is the `(r - 1 - (r - 1) / 64)`-th of them … -/
theorem lo_of_row (r : Nat) (hr : r < 4096) (h : r % 64 ≠ 0) :
    (r - 1 - (r - 1) / 64) + (r - 1 - (r - 1) / 64) / 63 + 1 = r ∧ r - 1 - (r - 1) / 64 < 4032 := by
  omega

/-- … and of no other. -/
theorem lo_unique (k r : Nat) (hk : k < 4032) (h : k + k / 63 + 1 = r) : k = r - 1 - (r - 1) / 64 := by omega

end Cert.ReferenceIdeal.RefRead
-- ==== Proof.RefReadMats.lean ====
/-
  The reference's four sparse matrices read at an entry.

  Each is a zero matrix with the diagonal set from one vector and then a second set of entries — one block further
  right (`Rx`), one block further down (`Sx`), one place right inside a block of 64 (`Ry`), one place left inside a
  block (`Sy`) — set from another. The two sets of entries never meet, and inside each set no entry is addressed
  twice, so an entry of the result is the value addressed to it, or zero. Every float operation is kept as the
  program has it: the quotient by the scalar `dx`, and the negation before it where the program negates first.
-/
import proofs.«134289_j17918603559171_2_alg».proof.Proof.RefStages
import proofs.«134289_j17918603559171_2_alg».proof.Proof.RefReadTables

noncomputable section

namespace Cert.ReferenceIdeal.RefRead

open Idealize.ShloMosaic Idealize.ShloMosaic.ValueIdx
open Cert.ReferenceIdeal Cert.ReferenceIdeal.Facts₀ Cert.ReferenceIdeal.Facts Cert.ReferenceIdeal.RefStages
open Idealize.ShloMosaic.ScatterSetRead Idealize.ShloMosaic.GatherScatterRead

/-! ## Two general readings -/

/-- A scalar broadcast to a vector reads the scalar everywhere. -/
theorem bcast_scalar_apply {α : Type} {n : Nat} (h : (⟨0, ![]⟩ : Shape).BroadcastsInDim ⟨1, ![n]⟩ ![])
    (x : (⟨0, ![]⟩ : Shape).Idx → α) (k : Fin n) : broadcastInDim ⟨1, ![n]⟩ ![] h x (ix1 k) = x ix0 :=
  broadcastInDim_apply ![] h x (ix1 k) ix0 (fun a => a.elim0)

/-- … and to a matrix. -/
theorem bcast_scalar_apply2 {α : Type} {m n : Nat} (h : (⟨0, ![]⟩ : Shape).BroadcastsInDim ⟨2, ![m, n]⟩ ![])
    (x : (⟨0, ![]⟩ : Shape).Idx → α) (r : Fin m) (c : Fin n) : broadcastInDim ⟨2, ![m, n]⟩ ![] h x (ix2 r c) = x ix0 :=
  broadcastInDim_apply ![] h x (ix2 r c) ix0 (fun a => a.elim0)

/-- The leading `n` entries of a vector. -/
theorem slice0_apply {α : Type} {N n : Nat} (h : (⟨1, ![N]⟩ : Shape).Slices ![0] ⟨1, ![n]⟩) (hn : n ≤ N)
    (x : (⟨1, ![N]⟩ : Shape).Idx → α) (k : Fin n) :
    extractStridedSlice ⟨1, ![n]⟩ ![0] x h (ix1 k) = x (ix1 ⟨k.val, Nat.lt_of_lt_of_le k.isLt hn⟩) := by
  unfold extractStridedSlice
  refine congrArg x (funext fun a => Fin.ext ?_)
  match a with
  | ⟨0, _⟩ => exact Nat.zero_add _

/-! ## A diagonal and a second set of entries -/

section TwoSet
variable {α : Type} {N n : Nat}

/-- `Z.at[g, g].set(d).at[rows, cols].set(o)` at an entry the second set addresses (once): its value there. -/
theorem twoSet_off
    (wf2 : ScatterDims.WF ⟨2, ![N, N]⟩ ⟨2, ![n, 2]⟩ ⟨1, ![n]⟩ [] [0, 1] [0, 1] 1)
    (hb2 : (⟨1, ![n]⟩ : Shape).BroadcastsInDim ⟨2, ![n, 1]⟩ ![0])
    (hc2 : Shape.Concatenates [(⟨2, ![n, 1]⟩ : Shape), ⟨2, ![n, 1]⟩] ⟨2, ![n, 2]⟩ 1)
    (X : (⟨2, ![N, N]⟩ : Shape).Idx → α) (w2 rows w2' cols : IVec ⟨1, ![n]⟩ 32) (o : (⟨1, ![n]⟩ : Shape).Idx → α)
    (f g : Nat → Nat)
    (hrows : ∀ k : Fin n, (rows (ix1 k)).toInt = ((f k.val : Nat) : Int))
    (hcols : ∀ k : Fin n, (cols (ix1 k)).toInt = ((g k.val : Nat) : Int))
    (r c : Fin N) (k : Fin n) (hr : f k.val = r.val) (hc : g k.val = c.val)
    (huniq : ∀ k' : Fin n, f k'.val = r.val → g k'.val = c.val → k'.val = k.val) :
    Host.scatter (pairScatterDims N N n wf2) (fun _ b => b) X (atIdx n hb2 hc2 w2 rows w2' cols) o (ix2 r c)
      = o (ix1 k) := by
  refine atSet_hit wf2 hb2 hc2 X w2 rows w2' cols o r c k ?_ ?_ (fun k' h0 h1 => Fin.ext (huniq k' ?_ ?_))
  · rw [hrows, hr]
  · rw [hcols, hc]
  · rw [hrows] at h0; exact_mod_cast h0
  · rw [hcols] at h1; exact_mod_cast h1

/-- … on the diagonal, where the second set addresses nothing: the diagonal's value. -/
theorem twoSet_diag
    (wf1 : ScatterDims.WF ⟨2, ![N, N]⟩ ⟨2, ![N, 2]⟩ ⟨1, ![N]⟩ [] [0, 1] [0, 1] 1)
    (wf2 : ScatterDims.WF ⟨2, ![N, N]⟩ ⟨2, ![n, 2]⟩ ⟨1, ![n]⟩ [] [0, 1] [0, 1] 1)
    (hb1 : (⟨1, ![N]⟩ : Shape).BroadcastsInDim ⟨2, ![N, 1]⟩ ![0])
    (hc1 : Shape.Concatenates [(⟨2, ![N, 1]⟩ : Shape), ⟨2, ![N, 1]⟩] ⟨2, ![N, 2]⟩ 1)
    (hb2 : (⟨1, ![n]⟩ : Shape).BroadcastsInDim ⟨2, ![n, 1]⟩ ![0])
    (hc2 : Shape.Concatenates [(⟨2, ![n, 1]⟩ : Shape), ⟨2, ![n, 1]⟩] ⟨2, ![n, 2]⟩ 1)
    (Z : (⟨2, ![N, N]⟩ : Shape).Idx → α) (w1 g1 w1' g1' : IVec ⟨1, ![N]⟩ 32) (d : (⟨1, ![N]⟩ : Shape).Idx → α)
    (w2 rows w2' cols : IVec ⟨1, ![n]⟩ 32) (o : (⟨1, ![n]⟩ : Shape).Idx → α)
    (f g : Nat → Nat)
    (hg1 : ∀ k : Fin N, (g1 (ix1 k)).toInt = ((k.val : Nat) : Int))
    (hg1' : ∀ k : Fin N, (g1' (ix1 k)).toInt = ((k.val : Nat) : Int))
    (hrows : ∀ k : Fin n, (rows (ix1 k)).toInt = ((f k.val : Nat) : Int))
    (hcols : ∀ k : Fin n, (cols (ix1 k)).toInt = ((g k.val : Nat) : Int))
    (r : Fin N) (hmiss : ∀ k : Fin n, ¬ (f k.val = r.val ∧ g k.val = r.val)) :
    Host.scatter (pairScatterDims N N n wf2) (fun _ b => b)
        (Host.scatter (pairScatterDims N N N wf1) (fun _ b => b) Z (atIdx N hb1 hc1 w1 g1 w1' g1') d)
        (atIdx n hb2 hc2 w2 rows w2' cols) o (ix2 r r)
      = d (ix1 r) := by
  refine (atSet_miss wf2 hb2 hc2 _ w2 rows w2' cols o r r (fun k h => hmiss k ⟨?_, ?_⟩)).trans
    (atSet_hit wf1 hb1 hc1 Z w1 g1 w1' g1' d r r r (hg1 r) (hg1' r) (fun k' h0 _ => Fin.ext ?_))
  · have h0 := h.1; rw [hrows] at h0; exact_mod_cast h0
  · have h1 := h.2; rw [hcols] at h1; exact_mod_cast h1
  · rw [hg1] at h0; exact_mod_cast h0

/-- … and off the diagonal, where the second set addresses nothing: the matrix underneath. -/
theorem twoSet_zero
    (wf1 : ScatterDims.WF ⟨2, ![N, N]⟩ ⟨2, ![N, 2]⟩ ⟨1, ![N]⟩ [] [0, 1] [0, 1] 1)
    (wf2 : ScatterDims.WF ⟨2, ![N, N]⟩ ⟨2, ![n, 2]⟩ ⟨1, ![n]⟩ [] [0, 1] [0, 1] 1)
    (hb1 : (⟨1, ![N]⟩ : Shape).BroadcastsInDim ⟨2, ![N, 1]⟩ ![0])
    (hc1 : Shape.Concatenates [(⟨2, ![N, 1]⟩ : Shape), ⟨2, ![N, 1]⟩] ⟨2, ![N, 2]⟩ 1)
    (hb2 : (⟨1, ![n]⟩ : Shape).BroadcastsInDim ⟨2, ![n, 1]⟩ ![0])
    (hc2 : Shape.Concatenates [(⟨2, ![n, 1]⟩ : Shape), ⟨2, ![n, 1]⟩] ⟨2, ![n, 2]⟩ 1)
    (Z : (⟨2, ![N, N]⟩ : Shape).Idx → α) (w1 g1 w1' g1' : IVec ⟨1, ![N]⟩ 32) (d : (⟨1, ![N]⟩ : Shape).Idx → α)
    (w2 rows w2' cols : IVec ⟨1, ![n]⟩ 32) (o : (⟨1, ![n]⟩ : Shape).Idx → α)
    (f g : Nat → Nat)
    (hg1 : ∀ k : Fin N, (g1 (ix1 k)).toInt = ((k.val : Nat) : Int))
    (hg1' : ∀ k : Fin N, (g1' (ix1 k)).toInt = ((k.val : Nat) : Int))
    (hrows : ∀ k : Fin n, (rows (ix1 k)).toInt = ((f k.val : Nat) : Int))
    (hcols : ∀ k : Fin n, (cols (ix1 k)).toInt = ((g k.val : Nat) : Int))
    (r c : Fin N) (hne : c.val ≠ r.val) (hmiss : ∀ k : Fin n, ¬ (f k.val = r.val ∧ g k.val = c.val)) :
    Host.scatter (pairScatterDims N N n wf2) (fun _ b => b)
        (Host.scatter (pairScatterDims N N N wf1) (fun _ b => b) Z (atIdx N hb1 hc1 w1 g1 w1' g1') d)
        (atIdx n hb2 hc2 w2 rows w2' cols) o (ix2 r c)
      = Z (ix2 r c) := by
  refine (atSet_miss wf2 hb2 hc2 _ w2 rows w2' cols o r c (fun k h => hmiss k ⟨?_, ?_⟩)).trans
    (atSet_miss wf1 hb1 hc1 Z w1 g1 w1' g1' d r c (fun k h => hne ?_))
  · have h0 := h.1; rw [hrows] at h0; exact_mod_cast h0
  · have h1 := h.2; rw [hcols] at h1; exact_mod_cast h1
  · have h0 := h.1; have h1 := h.2; rw [hg1] at h0; rw [hg1'] at h1; omega

end TwoSet

/-! ## The stages -/

section Stages
variable (a0 : FVec Ideal S64x64 .f32) (a1 : FVec Ideal S64 .f32) (a2 a3 : FVec Ideal S64x64 .f32) (a4 : FVec Ideal S4096 .f32)

/-- The field `c`, flattened column by column: entry `k`. -/
def cf (k : Fin 4096) : Ideal .f32 := res_v11 a0 a1 a2 a3 a4 (ix1 k)

/-- The grid spacing `dx`, a scalar. -/
def dx : Ideal .f32 := res_v9 a0 a1 a2 a3 a4 ix0

/-- The zero matrix everything is set into. -/
theorem zero_at (r c : Fin 4096) : res_v50 a0 a1 a2 a3 a4 (ix2 r c) = 0 :=
  (bcast_scalar_apply2 bcast_S_S4096x4096 (res_cst_42 a0 a1 a2 a3 a4) r c).trans Ideal.ofBits_zero_f32

/-! ### The vectors the entries are set from -/

theorem quot_at (num : FVec Ideal S4096 .f32) (k : Fin 4096) :
    Host.divf (F := Ideal) num (broadcastInDim S4096 ![] bcast_S_S4096 (res_v9 a0 a1 a2 a3 a4)) (ix1 k)
      = Ideal.div (num (ix1 k)) (dx a0 a1 a2 a3 a4) := by
  show FloatOps.hostDivf (num (ix1 k)) (broadcastInDim S4096 ![] bcast_S_S4096 (res_v9 a0 a1 a2 a3 a4) (ix1 k)) = _
  rw [Ideal.hostDivf_def, bcast_scalar_apply bcast_S_S4096 (res_v9 a0 a1 a2 a3 a4) k]
  rfl

theorem quot_at' (num : FVec Ideal S4032 .f32) (k : Fin 4032) :
    Host.divf (F := Ideal) num (broadcastInDim S4032 ![] bcast_S_S4032 (res_v9 a0 a1 a2 a3 a4)) (ix1 k)
      = Ideal.div (num (ix1 k)) (dx a0 a1 a2 a3 a4) := by
  show FloatOps.hostDivf (num (ix1 k)) (broadcastInDim S4032 ![] bcast_S_S4032 (res_v9 a0 a1 a2 a3 a4) (ix1 k)) = _
  rw [Ideal.hostDivf_def, bcast_scalar_apply bcast_S_S4032 (res_v9 a0 a1 a2 a3 a4) k]
  rfl

/-- `cflat / dx`. -/
theorem v52_at (k : Fin 4096) : res_v52 a0 a1 a2 a3 a4 (ix1 k) = Ideal.div (cf a0 a1 a2 a3 a4 k) (dx a0 a1 a2 a3 a4) :=
  quot_at a0 a1 a2 a3 a4 (res_v11 a0 a1 a2 a3 a4) k

theorem v104_at (k : Fin 4096) : res_v104 a0 a1 a2 a3 a4 (ix1 k) = Ideal.div (cf a0 a1 a2 a3 a4 k) (dx a0 a1 a2 a3 a4) :=
  quot_at a0 a1 a2 a3 a4 (res_v11 a0 a1 a2 a3 a4) k

/-- `(-cflat) / dx`: negated first, then divided. -/
theorem v79_at (k : Fin 4096) : res_v79 a0 a1 a2 a3 a4 (ix1 k) = Ideal.div (-(cf a0 a1 a2 a3 a4 k)) (dx a0 a1 a2 a3 a4) :=
  quot_at a0 a1 a2 a3 a4 (res_v77 a0 a1 a2 a3 a4) k

theorem v135_at (k : Fin 4096) : res_v135 a0 a1 a2 a3 a4 (ix1 k) = Ideal.div (-(cf a0 a1 a2 a3 a4 k)) (dx a0 a1 a2 a3 a4) :=
  quot_at a0 a1 a2 a3 a4 (res_v133 a0 a1 a2 a3 a4) k

/-- The leading 4032 entries of the flattened field. -/
theorem lead_at (k : Fin 4032) :
    extractStridedSlice S4032 ![0] (res_v11 a0 a1 a2 a3 a4) slices_S4096_S4032_0 (ix1 k)
      = cf a0 a1 a2 a3 a4 ⟨k.val, Nat.lt_of_lt_of_le k.isLt (by decide)⟩ :=
  slice0_apply slices_S4096_S4032_0 (by decide) (res_v11 a0 a1 a2 a3 a4) k

/-- `(-cflat[:4032]) / dx`. -/
theorem v66_at (k : Fin 4032) :
    res_v66 a0 a1 a2 a3 a4 (ix1 k) = Ideal.div (-(cf a0 a1 a2 a3 a4 ⟨k.val, Nat.lt_of_lt_of_le k.isLt (by decide)⟩)) (dx a0 a1 a2 a3 a4) :=
  (quot_at' a0 a1 a2 a3 a4 (res_v64 a0 a1 a2 a3 a4) k).trans
    (congrArg (fun t => Ideal.div (-t) (dx a0 a1 a2 a3 a4)) (lead_at a0 a1 a2 a3 a4 k))

/-- `cflat[:4032] / dx`. -/
theorem v92_at (k : Fin 4032) :
    res_v92 a0 a1 a2 a3 a4 (ix1 k) = Ideal.div (cf a0 a1 a2 a3 a4 ⟨k.val, Nat.lt_of_lt_of_le k.isLt (by decide)⟩) (dx a0 a1 a2 a3 a4) :=
  (quot_at' a0 a1 a2 a3 a4 (res_v90 a0 a1 a2 a3 a4) k).trans
    (congrArg (fun t => Ideal.div t (dx a0 a1 a2 a3 a4)) (lead_at a0 a1 a2 a3 a4 k))

/-- The flattened field gathered at the table `k ↦ k + k / 63 + 1` (all its entries are inside the field, so the
    clamp of a gather's start index does nothing). -/
theorem gather_succ_at (tab : IVec S4032 32) (w : IVec S4032 32)
    (htab : ∀ k : Fin 4032, (tab (ix1 k)).toInt = ((k.val + k.val / 63 + 1 : Nat) : Int)) (k : Fin 4032) :
    Host.gather gather_S4096_S4032x1_S4032_n_0_n_n_0_1_1 (res_v11 a0 a1 a2 a3 a4)
        (broadcastInDim S4032x1 ![0] bcast_S4032_S4032x1_0 (select (constantI S4032 1 0#1) w tab)) (ix1 k)
      = cf a0 a1 a2 a3 a4 ⟨k.val + k.val / 63 + 1, by have := k.isLt; omega⟩ := by
  have hrec : gather_S4096_S4032x1_S4032_n_0_n_n_0_1_1
      = vecGatherDims 4096 4032 gather_S4096_S4032x1_S4032_n_0_n_n_0_1_1_wf := rfl
  have hidx : (broadcastInDim S4032x1 ![0] bcast_S4032_S4032x1_0 (select (constantI S4032 1 0#1) w tab) (ix2 k 0)).toInt
      = ((k.val + k.val / 63 + 1 : Nat) : Int) := by
    have e : broadcastInDim S4032x1 ![0] bcast_S4032_S4032x1_0 (select (constantI S4032 1 0#1) w tab) (ix2 k 0)
        = tab (ix1 k) :=
      (Cert.LibKeepdims.broadcastInDim_a_a1_apply bcast_S4032_S4032x1_0 _ k 0).trans (select_zero _ _)
    rw [e]; exact htab k
  rw [hrec]
  refine (gather_vec_apply (by decide) _ _ _ k).trans ?_
  unfold cf
  refine congrArg _ (congrArg ix1 (Fin.ext ?_))
  show min (Int.toNat _) (4096 - 1) = k.val + k.val / 63 + 1
  rw [hidx, Int.toNat_natCast]
  have := k.isLt
  omega

/-- `(-cflat[gup + 1]) / dx`. -/
theorem v122_at (k : Fin 4032) :
    res_v122 a0 a1 a2 a3 a4 (ix1 k)
      = Ideal.div (-(cf a0 a1 a2 a3 a4 ⟨k.val + k.val / 63 + 1, by have := k.isLt; omega⟩)) (dx a0 a1 a2 a3 a4) :=
  (quot_at' a0 a1 a2 a3 a4 (res_v120 a0 a1 a2 a3 a4) k).trans
    (congrArg (fun t => Ideal.div (-t) (dx a0 a1 a2 a3 a4))
      (gather_succ_at a0 a1 a2 a3 a4 (res_c_13 a0 a1 a2 a3 a4) (res_v116 a0 a1 a2 a3 a4) (fun k => lit4_toInt k) k))

/-- `cflat[glo] / dx`. -/
theorem v152_at (k : Fin 4032) :
    res_v152 a0 a1 a2 a3 a4 (ix1 k)
      = Ideal.div (cf a0 a1 a2 a3 a4 ⟨k.val + k.val / 63 + 1, by have := k.isLt; omega⟩) (dx a0 a1 a2 a3 a4) :=
  (quot_at' a0 a1 a2 a3 a4 (res_v150 a0 a1 a2 a3 a4) k).trans
    (congrArg (fun t => Ideal.div t (dx a0 a1 a2 a3 a4))
      (gather_succ_at a0 a1 a2 a3 a4 (res_c_21 a0 a1 a2 a3 a4) (res_v147 a0 a1 a2 a3 a4) (fun k => lit7_toInt k) k))

/-! ### The four matrices as a diagonal and a second set of entries -/

theorem res_v76_eq : res_v76 a0 a1 a2 a3 a4 =
    Host.scatter (pairScatterDims 4096 4096 4032 scatter_S4096x4096_S4032x2_S4032_n_01_01_1_wf) (fun _ b => b)
      (Host.scatter (pairScatterDims 4096 4096 4096 scatter_S4096x4096_S4096x2_S4096_n_01_01_1_wf) (fun _ b => b) (res_v50 a0 a1 a2 a3 a4)
        (atIdx 4096 bcast_S4096_S4096x1_0 concatenates_S4096x1_S4096x1_S4096x2_d1 (res_v54 a0 a1 a2 a3 a4) (res_c a0 a1 a2 a3 a4) (res_v57 a0 a1 a2 a3 a4) (res_c a0 a1 a2 a3 a4))
        (res_v52 a0 a1 a2 a3 a4))
      (atIdx 4032 bcast_S4032_S4032x1_0 concatenates_S4032x1_S4032x1_S4032x2_d1 (res_v68 a0 a1 a2 a3 a4) (res_c_2 a0 a1 a2 a3 a4) (res_v71 a0 a1 a2 a3 a4) (res_c_4 a0 a1 a2 a3 a4))
      (res_v66 a0 a1 a2 a3 a4) := rfl

theorem res_v102_eq : res_v102 a0 a1 a2 a3 a4 =
    Host.scatter (pairScatterDims 4096 4096 4032 scatter_S4096x4096_S4032x2_S4032_n_01_01_1_wf) (fun _ b => b)
      (Host.scatter (pairScatterDims 4096 4096 4096 scatter_S4096x4096_S4096x2_S4096_n_01_01_1_wf) (fun _ b => b) (res_v50 a0 a1 a2 a3 a4)
        (atIdx 4096 bcast_S4096_S4096x1_0 concatenates_S4096x1_S4096x1_S4096x2_d1 (res_v81 a0 a1 a2 a3 a4) (res_c a0 a1 a2 a3 a4) (res_v84 a0 a1 a2 a3 a4) (res_c a0 a1 a2 a3 a4))
        (res_v79 a0 a1 a2 a3 a4))
      (atIdx 4032 bcast_S4032_S4032x1_0 concatenates_S4032x1_S4032x1_S4032x2_d1 (res_v94 a0 a1 a2 a3 a4) (res_c_8 a0 a1 a2 a3 a4) (res_v97 a0 a1 a2 a3 a4) (res_c_2 a0 a1 a2 a3 a4))
      (res_v92 a0 a1 a2 a3 a4) := rfl

theorem res_v132_eq : res_v132 a0 a1 a2 a3 a4 =
    Host.scatter (pairScatterDims 4096 4096 4032 scatter_S4096x4096_S4032x2_S4032_n_01_01_1_wf) (fun _ b => b)
      (Host.scatter (pairScatterDims 4096 4096 4096 scatter_S4096x4096_S4096x2_S4096_n_01_01_1_wf) (fun _ b => b) (res_v50 a0 a1 a2 a3 a4)
        (atIdx 4096 bcast_S4096_S4096x1_0 concatenates_S4096x1_S4096x1_S4096x2_d1 (res_v106 a0 a1 a2 a3 a4) (res_c a0 a1 a2 a3 a4) (res_v109 a0 a1 a2 a3 a4) (res_c a0 a1 a2 a3 a4))
        (res_v104 a0 a1 a2 a3 a4))
      (atIdx 4032 bcast_S4032_S4032x1_0 concatenates_S4032x1_S4032x1_S4032x2_d1 (res_v124 a0 a1 a2 a3 a4) (res_c_15 a0 a1 a2 a3 a4) (res_v127 a0 a1 a2 a3 a4) (res_c_17 a0 a1 a2 a3 a4))
      (res_v122 a0 a1 a2 a3 a4) := rfl

theorem res_v162_eq : res_v162 a0 a1 a2 a3 a4 =
    Host.scatter (pairScatterDims 4096 4096 4032 scatter_S4096x4096_S4032x2_S4032_n_01_01_1_wf) (fun _ b => b)
      (Host.scatter (pairScatterDims 4096 4096 4096 scatter_S4096x4096_S4096x2_S4096_n_01_01_1_wf) (fun _ b => b) (res_v50 a0 a1 a2 a3 a4)
        (atIdx 4096 bcast_S4096_S4096x1_0 concatenates_S4096x1_S4096x1_S4096x2_d1 (res_v137 a0 a1 a2 a3 a4) (res_c a0 a1 a2 a3 a4) (res_v140 a0 a1 a2 a3 a4) (res_c a0 a1 a2 a3 a4))
        (res_v135 a0 a1 a2 a3 a4))
      (atIdx 4032 bcast_S4032_S4032x1_0 concatenates_S4032x1_S4032x1_S4032x2_d1 (res_v154 a0 a1 a2 a3 a4) (res_c_21 a0 a1 a2 a3 a4) (res_v157 a0 a1 a2 a3 a4) (res_c_24 a0 a1 a2 a3 a4))
      (res_v152 a0 a1 a2 a3 a4) := rfl

/-! ### `Rx`: the diagonal `cflat / dx`, and `(-cflat) / dx` one block to the right -/

theorem Rx_diag (r : Fin 4096) : res_v76 a0 a1 a2 a3 a4 (ix2 r r) = Ideal.div (cf a0 a1 a2 a3 a4 r) (dx a0 a1 a2 a3 a4) := by
  rw [res_v76_eq]
  exact (twoSet_diag scatter_S4096x4096_S4096x2_S4096_n_01_01_1_wf scatter_S4096x4096_S4032x2_S4032_n_01_01_1_wf bcast_S4096_S4096x1_0 concatenates_S4096x1_S4096x1_S4096x2_d1 bcast_S4032_S4032x1_0 concatenates_S4032x1_S4032x1_S4032x2_d1 _ _ _ _ _ _ _ _ _ _ _ (fun k => k) (fun k => k + 64)
    (fun k => lit0_toInt k) (fun k => lit0_toInt k) (fun k => lit1_toInt k) (fun k => lit2_toInt k) r
    (fun k h => by have := h.1; have := h.2; omega)).trans (v52_at a0 a1 a2 a3 a4 r)

theorem Rx_off (r : Fin 4096) (h : r.val < 4032) :
    res_v76 a0 a1 a2 a3 a4 (ix2 r ⟨r.val + 64, by omega⟩) = Ideal.div (-(cf a0 a1 a2 a3 a4 r)) (dx a0 a1 a2 a3 a4) := by
  rw [res_v76_eq]
  exact (twoSet_off scatter_S4096x4096_S4032x2_S4032_n_01_01_1_wf bcast_S4032_S4032x1_0 concatenates_S4032x1_S4032x1_S4032x2_d1 _ _ _ _ _ _ (fun k => k) (fun k => k + 64)
    (fun k => lit1_toInt k) (fun k => lit2_toInt k) r ⟨r.val + 64, by omega⟩ ⟨r.val, h⟩ rfl rfl
    (fun k' h0 _ => h0)).trans (v66_at a0 a1 a2 a3 a4 ⟨r.val, h⟩)

theorem Rx_zero (r c : Fin 4096) (h0 : c.val ≠ r.val) (h1 : c.val ≠ r.val + 64) : res_v76 a0 a1 a2 a3 a4 (ix2 r c) = 0 := by
  rw [res_v76_eq]
  exact (twoSet_zero scatter_S4096x4096_S4096x2_S4096_n_01_01_1_wf scatter_S4096x4096_S4032x2_S4032_n_01_01_1_wf bcast_S4096_S4096x1_0 concatenates_S4096x1_S4096x1_S4096x2_d1 bcast_S4032_S4032x1_0 concatenates_S4032x1_S4032x1_S4032x2_d1 _ _ _ _ _ _ _ _ _ _ _ (fun k => k) (fun k => k + 64)
    (fun k => lit0_toInt k) (fun k => lit0_toInt k) (fun k => lit1_toInt k) (fun k => lit2_toInt k) r c h0
    (fun k h => by have := h.1; have := h.2; omega)).trans (zero_at a0 a1 a2 a3 a4 r c)

/-! ### `Sx`: the diagonal `(-cflat) / dx`, and `cflat / dx` of the row one block up, one block below -/

theorem Sx_diag (r : Fin 4096) : res_v102 a0 a1 a2 a3 a4 (ix2 r r) = Ideal.div (-(cf a0 a1 a2 a3 a4 r)) (dx a0 a1 a2 a3 a4) := by
  rw [res_v102_eq]
  exact (twoSet_diag scatter_S4096x4096_S4096x2_S4096_n_01_01_1_wf scatter_S4096x4096_S4032x2_S4032_n_01_01_1_wf bcast_S4096_S4096x1_0 concatenates_S4096x1_S4096x1_S4096x2_d1 bcast_S4032_S4032x1_0 concatenates_S4032x1_S4032x1_S4032x2_d1 _ _ _ _ _ _ _ _ _ _ _ (fun k => k + 64) (fun k => k)
    (fun k => lit0_toInt k) (fun k => lit0_toInt k) (fun k => lit3_toInt k) (fun k => lit1_toInt k) r
    (fun k h => by have := h.1; have := h.2; omega)).trans (v79_at a0 a1 a2 a3 a4 r)

theorem Sx_off (c : Fin 4096) (h : c.val < 4032) :
    res_v102 a0 a1 a2 a3 a4 (ix2 ⟨c.val + 64, by omega⟩ c) = Ideal.div (cf a0 a1 a2 a3 a4 c) (dx a0 a1 a2 a3 a4) := by
  rw [res_v102_eq]
  exact (twoSet_off scatter_S4096x4096_S4032x2_S4032_n_01_01_1_wf bcast_S4032_S4032x1_0 concatenates_S4032x1_S4032x1_S4032x2_d1 _ _ _ _ _ _ (fun k => k + 64) (fun k => k)
    (fun k => lit3_toInt k) (fun k => lit1_toInt k) ⟨c.val + 64, by omega⟩ c ⟨c.val, h⟩ rfl rfl
    (fun k' _ h1 => h1)).trans (v92_at a0 a1 a2 a3 a4 ⟨c.val, h⟩)

theorem Sx_zero (r c : Fin 4096) (h0 : c.val ≠ r.val) (h1 : r.val ≠ c.val + 64) : res_v102 a0 a1 a2 a3 a4 (ix2 r c) = 0 := by
  rw [res_v102_eq]
  exact (twoSet_zero scatter_S4096x4096_S4096x2_S4096_n_01_01_1_wf scatter_S4096x4096_S4032x2_S4032_n_01_01_1_wf bcast_S4096_S4096x1_0 concatenates_S4096x1_S4096x1_S4096x2_d1 bcast_S4032_S4032x1_0 concatenates_S4032x1_S4032x1_S4032x2_d1 _ _ _ _ _ _ _ _ _ _ _ (fun k => k + 64) (fun k => k)
    (fun k => lit0_toInt k) (fun k => lit0_toInt k) (fun k => lit3_toInt k) (fun k => lit1_toInt k) r c h0
    (fun k h => by have := h.1; have := h.2; omega)).trans (zero_at a0 a1 a2 a3 a4 r c)

/-! ### `Ry`: the diagonal `cflat / dx`, and `(-cflat[r + 1]) / dx` one place right, inside a block of 64 -/

theorem Ry_diag (r : Fin 4096) : res_v132 a0 a1 a2 a3 a4 (ix2 r r) = Ideal.div (cf a0 a1 a2 a3 a4 r) (dx a0 a1 a2 a3 a4) := by
  rw [res_v132_eq]
  exact (twoSet_diag scatter_S4096x4096_S4096x2_S4096_n_01_01_1_wf scatter_S4096x4096_S4032x2_S4032_n_01_01_1_wf bcast_S4096_S4096x1_0 concatenates_S4096x1_S4096x1_S4096x2_d1 bcast_S4032_S4032x1_0 concatenates_S4032x1_S4032x1_S4032x2_d1 _ _ _ _ _ _ _ _ _ _ _
    (fun k => k + k / 63) (fun k => k + k / 63 + 1)
    (fun k => lit0_toInt k) (fun k => lit0_toInt k) (fun k => lit5_toInt k) (fun k => lit6_toInt k) r
    (fun k h => by have := h.1; have := h.2; omega)).trans (v104_at a0 a1 a2 a3 a4 r)

theorem Ry_off (r : Fin 4096) (h : r.val % 64 ≠ 63) :
    res_v132 a0 a1 a2 a3 a4 (ix2 r ⟨r.val + 1, by have := r.isLt; omega⟩)
      = Ideal.div (-(cf a0 a1 a2 a3 a4 ⟨r.val + 1, by have := r.isLt; omega⟩)) (dx a0 a1 a2 a3 a4) := by
  have hr := r.isLt
  have hk : r.val - r.val / 64 < 4032 := by omega
  have e : r.val - r.val / 64 + (r.val - r.val / 64) / 63 = r.val := by omega
  rw [res_v132_eq]
  refine (twoSet_off scatter_S4096x4096_S4032x2_S4032_n_01_01_1_wf bcast_S4032_S4032x1_0 concatenates_S4032x1_S4032x1_S4032x2_d1 _ _ _ _ _ _ (fun k => k + k / 63) (fun k => k + k / 63 + 1)
    (fun k => lit5_toInt k) (fun k => lit6_toInt k) r ⟨r.val + 1, by omega⟩ ⟨r.val - r.val / 64, hk⟩ e
    (by show r.val - r.val / 64 + (r.val - r.val / 64) / 63 + 1 = r.val + 1; omega)
    (fun k' h0 _ => by have := k'.isLt; show k'.val = r.val - r.val / 64; omega)).trans ?_
  refine (v122_at a0 a1 a2 a3 a4 ⟨r.val - r.val / 64, hk⟩).trans ?_
  congr 3
  exact Fin.ext (by show r.val - r.val / 64 + (r.val - r.val / 64) / 63 + 1 = r.val + 1; omega)

theorem Ry_zero (r c : Fin 4096) (h0 : c.val ≠ r.val) (h1 : ¬ (c.val = r.val + 1 ∧ r.val % 64 ≠ 63)) :
    res_v132 a0 a1 a2 a3 a4 (ix2 r c) = 0 := by
  rw [res_v132_eq]
  exact (twoSet_zero scatter_S4096x4096_S4096x2_S4096_n_01_01_1_wf scatter_S4096x4096_S4032x2_S4032_n_01_01_1_wf bcast_S4096_S4096x1_0 concatenates_S4096x1_S4096x1_S4096x2_d1 bcast_S4032_S4032x1_0 concatenates_S4032x1_S4032x1_S4032x2_d1 _ _ _ _ _ _ _ _ _ _ _
    (fun k => k + k / 63) (fun k => k + k / 63 + 1)
    (fun k => lit0_toInt k) (fun k => lit0_toInt k) (fun k => lit5_toInt k) (fun k => lit6_toInt k) r c h0
    (fun k h => by have := h.1; have := h.2; have := k.isLt; omega)).trans (zero_at a0 a1 a2 a3 a4 r c)

/-! ### `Sy`: the diagonal `(-cflat) / dx`, and `cflat[r] / dx` one place left, inside a block of 64 -/

theorem Sy_diag (r : Fin 4096) : res_v162 a0 a1 a2 a3 a4 (ix2 r r) = Ideal.div (-(cf a0 a1 a2 a3 a4 r)) (dx a0 a1 a2 a3 a4) := by
  rw [res_v162_eq]
  exact (twoSet_diag scatter_S4096x4096_S4096x2_S4096_n_01_01_1_wf scatter_S4096x4096_S4032x2_S4032_n_01_01_1_wf bcast_S4096_S4096x1_0 concatenates_S4096x1_S4096x1_S4096x2_d1 bcast_S4032_S4032x1_0 concatenates_S4032x1_S4032x1_S4032x2_d1 _ _ _ _ _ _ _ _ _ _ _
    (fun k => k + k / 63 + 1) (fun k => k + k / 63)
    (fun k => lit0_toInt k) (fun k => lit0_toInt k) (fun k => lit7_toInt k) (fun k => lit8_toInt k) r
    (fun k h => by have := h.1; have := h.2; omega)).trans (v135_at a0 a1 a2 a3 a4 r)

theorem Sy_off (r : Fin 4096) (h : r.val % 64 ≠ 0) :
    res_v162 a0 a1 a2 a3 a4 (ix2 r ⟨r.val - 1, by have := r.isLt; omega⟩) = Ideal.div (cf a0 a1 a2 a3 a4 r) (dx a0 a1 a2 a3 a4) := by
  have hr := r.isLt
  have hk : r.val - 1 - (r.val - 1) / 64 < 4032 := by omega
  have e : r.val - 1 - (r.val - 1) / 64 + (r.val - 1 - (r.val - 1) / 64) / 63 + 1 = r.val := by omega
  rw [res_v162_eq]
  refine (twoSet_off scatter_S4096x4096_S4032x2_S4032_n_01_01_1_wf bcast_S4032_S4032x1_0 concatenates_S4032x1_S4032x1_S4032x2_d1 _ _ _ _ _ _ (fun k => k + k / 63 + 1) (fun k => k + k / 63)
    (fun k => lit7_toInt k) (fun k => lit8_toInt k) r ⟨r.val - 1, by omega⟩ ⟨r.val - 1 - (r.val - 1) / 64, hk⟩ e
    (by show r.val - 1 - (r.val - 1) / 64 + (r.val - 1 - (r.val - 1) / 64) / 63 = r.val - 1; omega)
    (fun k' h0 _ => by have := k'.isLt; show k'.val = r.val - 1 - (r.val - 1) / 64; omega)).trans ?_
  refine (v152_at a0 a1 a2 a3 a4 ⟨r.val - 1 - (r.val - 1) / 64, hk⟩).trans ?_
  congr 2
  exact Fin.ext e

theorem Sy_zero (r c : Fin 4096) (h0 : c.val ≠ r.val) (h1 : ¬ (c.val + 1 = r.val ∧ r.val % 64 ≠ 0)) :
    res_v162 a0 a1 a2 a3 a4 (ix2 r c) = 0 := by
  rw [res_v162_eq]
  exact (twoSet_zero scatter_S4096x4096_S4096x2_S4096_n_01_01_1_wf scatter_S4096x4096_S4032x2_S4032_n_01_01_1_wf bcast_S4096_S4096x1_0 concatenates_S4096x1_S4096x1_S4096x2_d1 bcast_S4032_S4032x1_0 concatenates_S4032x1_S4032x1_S4032x2_d1 _ _ _ _ _ _ _ _ _ _ _
    (fun k => k + k / 63 + 1) (fun k => k + k / 63)
    (fun k => lit0_toInt k) (fun k => lit0_toInt k) (fun k => lit7_toInt k) (fun k => lit8_toInt k) r c h0
    (fun k h => by have := h.1; have := h.2; have := k.isLt; omega)).trans (zero_at a0 a1 a2 a3 a4 r c)

end Stages

end Cert.ReferenceIdeal.RefRead
-- ==== Proof.RefReadMatsIf.lean ====
/-
  The four sparse matrices at an arbitrary entry, as one case distinction each: the diagonal, the second set of
  entries, zero elsewhere. The float operations are the program's: the quotient by `dx`, the negation before it where
  the program negates first.
-/
import proofs.«134289_j17918603559171_2_alg».proof.Proof.RefReadMats

noncomputable section

namespace Cert.ReferenceIdeal.RefRead

open Idealize.ShloMosaic Idealize.ShloMosaic.ValueIdx
open Cert.ReferenceIdeal Cert.ReferenceIdeal.RefStages

variable (a0 : FVec Ideal S64x64 .f32) (a1 : FVec Ideal S64 .f32) (a2 a3 : FVec Ideal S64x64 .f32) (a4 : FVec Ideal S4096 .f32)

/-- `Rx[r, c]`: `cflat[r] / dx` on the diagonal, `(-cflat[r]) / dx` one block to the right, else zero. -/
theorem Rx_apply (r c : Fin 4096) :
    res_v76 a0 a1 a2 a3 a4 (ix2 r c)
      = if c.val = r.val then Ideal.div (cf a0 a1 a2 a3 a4 r) (dx a0 a1 a2 a3 a4)
        else if c.val = r.val + 64 then Ideal.div (-(cf a0 a1 a2 a3 a4 r)) (dx a0 a1 a2 a3 a4) else 0 := by
  by_cases h0 : c.val = r.val
  · rw [if_pos h0]
    obtain rfl : c = r := Fin.ext h0
    exact Rx_diag a0 a1 a2 a3 a4 c
  · rw [if_neg h0]
    by_cases h1 : c.val = r.val + 64
    · rw [if_pos h1]
      have hr : r.val < 4032 := by have := c.isLt; omega
      have e : c = ⟨r.val + 64, by omega⟩ := Fin.ext h1
      rw [e]
      exact Rx_off a0 a1 a2 a3 a4 r hr
    · rw [if_neg h1]
      exact Rx_zero a0 a1 a2 a3 a4 r c h0 h1

/-- `Sx[r, c]`: `(-cflat[r]) / dx` on the diagonal, `cflat[c] / dx` one block below it, else zero. -/
theorem Sx_apply (r c : Fin 4096) :
    res_v102 a0 a1 a2 a3 a4 (ix2 r c)
      = if c.val = r.val then Ideal.div (-(cf a0 a1 a2 a3 a4 r)) (dx a0 a1 a2 a3 a4)
        else if r.val = c.val + 64 then Ideal.div (cf a0 a1 a2 a3 a4 c) (dx a0 a1 a2 a3 a4) else 0 := by
  by_cases h0 : c.val = r.val
  · rw [if_pos h0]
    obtain rfl : c = r := Fin.ext h0
    exact Sx_diag a0 a1 a2 a3 a4 c
  · rw [if_neg h0]
    by_cases h1 : r.val = c.val + 64
    · rw [if_pos h1]
      have hc : c.val < 4032 := by have := r.isLt; omega
      have e : r = ⟨c.val + 64, by omega⟩ := Fin.ext h1
      rw [e]
      exact Sx_off a0 a1 a2 a3 a4 c hc
    · rw [if_neg h1]
      exact Sx_zero a0 a1 a2 a3 a4 r c h0 h1

/-- `Ry[r, c]`: `cflat[r] / dx` on the diagonal, `(-cflat[c]) / dx` at `c = r + 1` when `r` is not the last of its
    block of 64, else zero. -/
theorem Ry_apply (r c : Fin 4096) :
    res_v132 a0 a1 a2 a3 a4 (ix2 r c)
      = if c.val = r.val then Ideal.div (cf a0 a1 a2 a3 a4 r) (dx a0 a1 a2 a3 a4)
        else if c.val = r.val + 1 ∧ r.val % 64 ≠ 63 then Ideal.div (-(cf a0 a1 a2 a3 a4 c)) (dx a0 a1 a2 a3 a4) else 0 := by
  by_cases h0 : c.val = r.val
  · rw [if_pos h0]
    obtain rfl : c = r := Fin.ext h0
    exact Ry_diag a0 a1 a2 a3 a4 c
  · rw [if_neg h0]
    by_cases h1 : c.val = r.val + 1 ∧ r.val % 64 ≠ 63
    · rw [if_pos h1]
      have e : c = ⟨r.val + 1, by have := r.isLt; have := h1.2; omega⟩ := Fin.ext h1.1
      rw [e]
      exact Ry_off a0 a1 a2 a3 a4 r h1.2
    · rw [if_neg h1]
      exact Ry_zero a0 a1 a2 a3 a4 r c h0 h1

/-- `Sy[r, c]`: `(-cflat[r]) / dx` on the diagonal, `cflat[r] / dx` at `c = r - 1` when `r` is not the first of its
    block of 64, else zero. -/
theorem Sy_apply (r c : Fin 4096) :
    res_v162 a0 a1 a2 a3 a4 (ix2 r c)
      = if c.val = r.val then Ideal.div (-(cf a0 a1 a2 a3 a4 r)) (dx a0 a1 a2 a3 a4)
        else if c.val + 1 = r.val ∧ r.val % 64 ≠ 0 then Ideal.div (cf a0 a1 a2 a3 a4 r) (dx a0 a1 a2 a3 a4) else 0 := by
  by_cases h0 : c.val = r.val
  · rw [if_pos h0]
    obtain rfl : c = r := Fin.ext h0
    exact Sy_diag a0 a1 a2 a3 a4 c
  · rw [if_neg h0]
    by_cases h1 : c.val + 1 = r.val ∧ r.val % 64 ≠ 0
    · rw [if_pos h1]
      have e : c = ⟨r.val - 1, by have := r.isLt; omega⟩ := Fin.ext (by show c.val = r.val - 1; omega)
      rw [e]
      exact Sy_off a0 a1 a2 a3 a4 r h1.2
    · rw [if_neg h1]
      exact Sy_zero a0 a1 a2 a3 a4 r c h0 h1

end Cert.ReferenceIdeal.RefRead
-- ==== Proof.RefSpec.lean ====
/-
  The blocks of the returned matrix that need no matrix product, in closed form at an entry `(r, c)`.

  With `cf k` the flattened field at `k` and `dx` the grid step, the four sparse matrices are a diagonal and one more
  set of entries each. Scaling their rows by a reciprocal diagonal (and, for `A12` and `A13`, their columns by a product
  of diagonals) gives five of the blocks; two more are diagonal matrices. The products stand in the program's order
  and association; nothing is simplified. `A11` is stated over the values of the two matrix products at the entry.
-/
import proofs.«134289_j17918603559171_2_alg».proof.Proof.RefDownScale
import proofs.«134289_j17918603559171_2_alg».proof.Proof.RefDownDiag
import proofs.«134289_j17918603559171_2_alg».proof.Proof.RefReadMatsIf

noncomputable section

namespace Cert.ReferenceIdeal.RefSpec

open Idealize.ShloMosaic Idealize.ShloMosaic.ValueIdx Cert.ReferenceIdeal Cert.ReferenceIdeal.Facts₀ Cert.ReferenceIdeal.Facts
open Cert.ReferenceIdeal.RefStages Cert.ReferenceIdeal.RefDown
open Cert.ReferenceIdeal.RefRead (cf dx Rx_apply Sx_apply Ry_apply Sy_apply)

/-- `A12 (r, c) = (minv r * Rx (r, c)) * (nxinv c * Nxpdiag c)`. -/
theorem A12_apply (a0 : FVec Ideal S64x64 .f32) (a1 : FVec Ideal S64 .f32) (a2 a3 : FVec Ideal S64x64 .f32) (a4 : FVec Ideal S4096 .f32) (r c : Fin 4096) :
    res_v190 a0 a1 a2 a3 a4 (ix2 r c)
      = (res_v164 a0 a1 a2 a3 a4 (ix1 r)
          * (if c.val = r.val then Ideal.div (cf a0 a1 a2 a3 a4 r) (dx a0 a1 a2 a3 a4)
             else if c.val = r.val + 64 then Ideal.div (-(cf a0 a1 a2 a3 a4 r)) (dx a0 a1 a2 a3 a4) else 0))
        * (res_v166 a0 a1 a2 a3 a4 (ix1 c) * res_v37 a0 a1 a2 a3 a4 (ix1 c)) := by
  rw [res_v190_apply, Rx_apply]

/-- `A13 (r, c) = (minv r * Ry (r, c)) * (nyinv c * Nypdiag c)`. -/
theorem A13_apply (a0 : FVec Ideal S64x64 .f32) (a1 : FVec Ideal S64 .f32) (a2 a3 : FVec Ideal S64x64 .f32) (a4 : FVec Ideal S4096 .f32) (r c : Fin 4096) :
    res_v197 a0 a1 a2 a3 a4 (ix2 r c)
      = (res_v164 a0 a1 a2 a3 a4 (ix1 r)
          * (if c.val = r.val then Ideal.div (cf a0 a1 a2 a3 a4 r) (dx a0 a1 a2 a3 a4)
             else if c.val = r.val + 1 ∧ r.val % 64 ≠ 63 then Ideal.div (-(cf a0 a1 a2 a3 a4 c)) (dx a0 a1 a2 a3 a4) else 0))
        * (res_v168 a0 a1 a2 a3 a4 (ix1 c) * res_v49 a0 a1 a2 a3 a4 (ix1 c)) := by
  rw [res_v197_apply, Ry_apply]

/-- `A21 (r, c) = nxinv r * Sx (r, c)`. -/
theorem A21_apply (a0 : FVec Ideal S64x64 .f32) (a1 : FVec Ideal S64 .f32) (a2 a3 : FVec Ideal S64x64 .f32) (a4 : FVec Ideal S4096 .f32) (r c : Fin 4096) :
    res_v200 a0 a1 a2 a3 a4 (ix2 r c)
      = res_v166 a0 a1 a2 a3 a4 (ix1 r)
          * (if c.val = r.val then Ideal.div (-(cf a0 a1 a2 a3 a4 r)) (dx a0 a1 a2 a3 a4)
             else if r.val = c.val + 64 then Ideal.div (cf a0 a1 a2 a3 a4 c) (dx a0 a1 a2 a3 a4) else 0) := by
  rw [res_v200_apply, Sx_apply]

/-- `A22 (r, c)`: `nxinv r * Nxpdiag r` on the diagonal, zero off it. -/
theorem A22_apply (a0 : FVec Ideal S64x64 .f32) (a1 : FVec Ideal S64 .f32) (a2 a3 : FVec Ideal S64x64 .f32) (a4 : FVec Ideal S4096 .f32) (r c : Fin 4096) :
    res_v202 a0 a1 a2 a3 a4 (ix2 r c) = if r = c then res_v166 a0 a1 a2 a3 a4 (ix1 r) * res_v37 a0 a1 a2 a3 a4 (ix1 r) else 0 := by
  rw [res_v202_apply, res_v201_apply]

/-- `A31 (r, c) = nyinv r * Sy (r, c)`. -/
theorem A31_apply (a0 : FVec Ideal S64x64 .f32) (a1 : FVec Ideal S64 .f32) (a2 a3 : FVec Ideal S64x64 .f32) (a4 : FVec Ideal S4096 .f32) (r c : Fin 4096) :
    res_v205 a0 a1 a2 a3 a4 (ix2 r c)
      = res_v168 a0 a1 a2 a3 a4 (ix1 r)
          * (if c.val = r.val then Ideal.div (-(cf a0 a1 a2 a3 a4 r)) (dx a0 a1 a2 a3 a4)
             else if c.val + 1 = r.val ∧ r.val % 64 ≠ 0 then Ideal.div (cf a0 a1 a2 a3 a4 r) (dx a0 a1 a2 a3 a4) else 0) := by
  rw [res_v205_apply, Sy_apply]

/-- `A33 (r, c)`: `nyinv r * Nypdiag r` on the diagonal, zero off it. -/
theorem A33_apply (a0 : FVec Ideal S64x64 .f32) (a1 : FVec Ideal S64 .f32) (a2 a3 : FVec Ideal S64x64 .f32) (a4 : FVec Ideal S4096 .f32) (r c : Fin 4096) :
    res_v207 a0 a1 a2 a3 a4 (ix2 r c) = if r = c then res_v168 a0 a1 a2 a3 a4 (ix1 r) * res_v49 a0 a1 a2 a3 a4 (ix1 r) else 0 := by
  rw [res_v207_apply, res_v206_apply]

/-- `A11 (r, c) = diag (minv * Mpdiag) (r, c) + minv r * ((Tx @ Sx) (r, c) + (Ty @ Sy) (r, c))`, over the two products'
    values `P` and `Q` at the entry. -/
theorem A11_apply_of (a0 : FVec Ideal S64x64 .f32) (a1 : FVec Ideal S64 .f32) (a2 a3 : FVec Ideal S64x64 .f32) (a4 : FVec Ideal S4096 .f32) (r c : Fin 4096) (P Q : Ideal .f32)
    (hP : res_v178 a0 a1 a2 a3 a4 (ix2 r c) = P) (hQ : res_v179 a0 a1 a2 a3 a4 (ix2 r c) = Q) :
    res_v183 a0 a1 a2 a3 a4 (ix2 r c)
      = (if r = c then res_v164 a0 a1 a2 a3 a4 (ix1 r) * res_v25 a0 a1 a2 a3 a4 (ix1 r) else 0)
        + res_v164 a0 a1 a2 a3 a4 (ix1 r) * (P + Q) := by
  rw [res_v183_apply, res_v176_apply, res_v175_apply, res_v182_apply, res_v180_apply, hP, hQ]

/-- `A11 (r, c)` over the products themselves. -/
theorem A11_apply (a0 : FVec Ideal S64x64 .f32) (a1 : FVec Ideal S64 .f32) (a2 a3 : FVec Ideal S64x64 .f32) (a4 : FVec Ideal S4096 .f32) (r c : Fin 4096) :
    res_v183 a0 a1 a2 a3 a4 (ix2 r c)
      = (if r = c then res_v164 a0 a1 a2 a3 a4 (ix1 r) * res_v25 a0 a1 a2 a3 a4 (ix1 r) else 0)
        + res_v164 a0 a1 a2 a3 a4 (ix1 r) * (res_v178 a0 a1 a2 a3 a4 (ix2 r c) + res_v179 a0 a1 a2 a3 a4 (ix2 r c)) :=
  A11_apply_of a0 a1 a2 a3 a4 r c _ _ rfl rfl

end Cert.ReferenceIdeal.RefSpec

end
-- ==== Proof.RefVecs.lean ====
/-
  The reference's vector stages read at a row, down to the five argument arrays.

  A `[64, 64]` field is flattened column by column: row `r` of the flat vector is the field at
  `(r % 64, r / 64)`. A `[64]` vector tiled 64 times reads, at row `r`, its entry `r % 64`. The updated parameters are
  `k - lr * delta_k` with `delta_k` read row by row, entry `64 i + j` at `(i, j)`. With those three layouts each
  diagonal is one arithmetic expression of the arguments; every float operation stands in the program's order.
-/
import proofs.«134289_j17918603559171_2_alg».proof.Proof.RefStages
import proofs.«134289_j17918603559171_2_alg».proof.Proof.KHostRead
import Idealize.ShloMosaic.Lib.Pipeline.Value
import Idealize.ShloMosaic.Lib.ValueIdx
import Idealize.ShloMosaic.Lib.IdealHost

noncomputable section

namespace Cert.ReferenceIdeal.RefVecs

open Idealize.ShloMosaic Idealize.ShloMosaic.ValueIdx Cert.ReferenceIdeal Cert.ReferenceIdeal.Facts₀ Cert.ReferenceIdeal.Facts
open Cert.ReferenceIdeal.RefStages
open Cert.KernelIdeal.KHost (lo hi lo_val hi_val)

/-! ## The three layouts -/

/-- A `[64, 64]` array transposed and flattened, at row `r`: the array at `(r % 64, r / 64)`. -/
theorem flatT_apply (x : FVec Ideal S64x64 .f32) (r : Fin 4096) :
    shapeCast S4096 (transpose S64x64 [1, 0] x transposes_S64x64_S64x64_1_0) shapeCasts_S64x64_S4096 (ix1 r)
      = x (ix2 (lo r) (hi r)) := by
  refine (shapeCast_apply _ shapeCasts_S64x64_S4096 (ix1 r) (ix2 (hi r) (lo r)) ?_).trans ?_
  · rw [Shape.rowMajor_val_two, Shape.rowMajor_val_one]
    show r.val / 64 * 64 + r.val % 64 = r.val
    omega
  · exact transpose_apply [1, 0] x transposes_S64x64_S64x64_1_0 (ix2 (hi r) (lo r)) (ix2 (lo r) (hi r))
      (fun b => by match b with | ⟨0, _⟩ => rfl | ⟨1, _⟩ => rfl)

/-- A `[64]` vector viewed as one row, repeated 64 times and flattened, at row `r`: the vector at `r % 64`. -/
theorem tile_apply (v : FVec Ideal S64 .f32) (r : Fin 4096) :
    shapeCast S4096 (broadcastInDim S64x64 ![0, 1] bcast_S1x64_S64x64_0_1 (shapeCast S1x64 v shapeCasts_S64_S1x64))
        shapeCasts_S64x64_S4096 (ix1 r) = v (ix1 (lo r)) := by
  refine (shapeCast_apply _ shapeCasts_S64x64_S4096 (ix1 r) (ix2 (hi r) (lo r)) ?_).trans ?_
  · rw [Shape.rowMajor_val_two, Shape.rowMajor_val_one]
    show r.val / 64 * 64 + r.val % 64 = r.val
    omega
  refine (broadcastInDim_apply ![0, 1] bcast_S1x64_S64x64_0_1 _ (ix2 (hi r) (lo r)) (ix2 (0 : Fin 1) (lo r))
    (fun a => by match a with | ⟨0, _⟩ => rfl | ⟨1, _⟩ => rfl)).trans ?_
  refine shapeCast_apply v shapeCasts_S64_S1x64 (ix2 (0 : Fin 1) (lo r)) (ix1 (lo r)) ?_
  rw [Shape.rowMajor_val_two, Shape.rowMajor_val_one]
  show (lo r).val = 0 * 64 + (lo r).val
  omega

/-- `delta_k` viewed `[64, 64]`, at `(i, j)`: entry `64 i + j`. -/
theorem res_v0_apply (a0 : FVec Ideal S64x64 .f32) (a1 : FVec Ideal S64 .f32) (a2 a3 : FVec Ideal S64x64 .f32) (a4 : FVec Ideal S4096 .f32) (i j : Fin 64) :
    res_v0 a0 a1 a2 a3 a4 (ix2 i j) = a4 (ix1 ⟨i.val * 64 + j.val, by have := i.isLt; have := j.isLt; omega⟩) := by
  unfold res_v0
  refine shapeCast_apply a4 shapeCasts_S4096_S64x64 (ix2 i j) (ix1 ⟨i.val * 64 + j.val, _⟩) ?_
  rw [Shape.rowMajor_val_two, Shape.rowMajor_val_one]
  rfl

/-! ## The updated parameters -/

/-- `kx = k_x - lr * delta_k` at `(i, j)`. -/
theorem res_v3_apply (a0 : FVec Ideal S64x64 .f32) (a1 : FVec Ideal S64 .f32) (a2 a3 : FVec Ideal S64x64 .f32) (a4 : FVec Ideal S4096 .f32) (i j : Fin 64) :
    res_v3 a0 a1 a2 a3 a4 (ix2 i j) = a2 (ix2 i j)
      - Ideal.ofBits .f32 0x3A83126F#32 * a4 (ix1 ⟨i.val * 64 + j.val, by have := i.isLt; have := j.isLt; omega⟩) := by
  unfold res_v3 res_v2 res_v1 res_cst
  rw [subf_apply, mulf_apply, broadcastInDim_scalar_apply, constant_apply, res_v0_apply]

/-- `ky = k_y - lr * delta_k` at `(i, j)`. -/
theorem res_v6_apply (a0 : FVec Ideal S64x64 .f32) (a1 : FVec Ideal S64 .f32) (a2 a3 : FVec Ideal S64x64 .f32) (a4 : FVec Ideal S4096 .f32) (i j : Fin 64) :
    res_v6 a0 a1 a2 a3 a4 (ix2 i j) = a3 (ix2 i j)
      - Ideal.ofBits .f32 0x3A83126F#32 * a4 (ix1 ⟨i.val * 64 + j.val, by have := i.isLt; have := j.isLt; omega⟩) := by
  unfold res_v6 res_v5 res_v4 res_cst_26
  rw [subf_apply, mulf_apply, broadcastInDim_scalar_apply, constant_apply, res_v0_apply]

/-! ## The grid step and the flattened field -/

/-- `dx`: ten times the largest entry of `c`, times the float square root of two. -/
theorem res_v9_apply (a0 : FVec Ideal S64x64 .f32) (a1 : FVec Ideal S64 .f32) (a2 a3 : FVec Ideal S64x64 .f32) (a4 : FVec Ideal S4096 .f32) :
    res_v9 a0 a1 a2 a3 a4 ix0 = (Ideal.ofBits .f32 0x41200000#32
        * Host.reduce (FloatOps.maximumf (F := Ideal)) a0 (constant (F := Ideal) S_ .f32 0xFF800000#32) reducesTo_S64x64_S_d0_1 h_S_ ix0)
        * Ideal.ofBits .f32 0x3FB504F3#32 := by
  unfold res_v9 res_v8 res_v7 res_cst_27 res_cst_28 res_cst_29
  rw [mulf_apply, mulf_apply, constant_apply, constant_apply]

/-- `cflat` at row `r`: `c` at `(r % 64, r / 64)`. -/
theorem res_v11_apply (a0 : FVec Ideal S64x64 .f32) (a1 : FVec Ideal S64 .f32) (a2 a3 : FVec Ideal S64x64 .f32) (a4 : FVec Ideal S4096 .f32) (r : Fin 4096) :
    res_v11 a0 a1 a2 a3 a4 (ix1 r) = a0 (ix2 (lo r) (hi r)) := by
  unfold res_v11 res_v10
  exact flatT_apply a0 r

/-! ## `Mdiag` and `Mpdiag` -/

/-- `1 - kp / 2` at `i`. -/
theorem res_v15_apply (a0 : FVec Ideal S64x64 .f32) (a1 : FVec Ideal S64 .f32) (a2 a3 : FVec Ideal S64x64 .f32) (a4 : FVec Ideal S4096 .f32) (i : Fin 64) :
    res_v15 a0 a1 a2 a3 a4 (ix1 i)
      = Ideal.ofBits .f32 0x3F800000#32 - Ideal.div (a1 (ix1 i)) (Ideal.ofBits .f32 0x40000000#32) := by
  unfold res_v15 res_v14 res_v13 res_v12 res_cst_30 res_cst_31
  rw [subf_apply, hostDivf_apply, broadcastInDim_scalar_apply, broadcastInDim_scalar_apply, constant_apply, constant_apply]

/-- `1 + kp / 2` at `i`. -/
theorem res_v22_apply (a0 : FVec Ideal S64x64 .f32) (a1 : FVec Ideal S64 .f32) (a2 a3 : FVec Ideal S64x64 .f32) (a4 : FVec Ideal S4096 .f32) (i : Fin 64) :
    res_v22 a0 a1 a2 a3 a4 (ix1 i)
      = Ideal.ofBits .f32 0x3F800000#32 + Ideal.div (a1 (ix1 i)) (Ideal.ofBits .f32 0x40000000#32) := by
  unfold res_v22 res_v21 res_v20 res_v19 res_cst_32 res_cst_33
  rw [addf_apply, hostDivf_apply, broadcastInDim_scalar_apply, broadcastInDim_scalar_apply, constant_apply, constant_apply]

/-- `Mdiag` at row `r`: `1 - kp (r % 64) / 2`. -/
theorem res_v18_apply (a0 : FVec Ideal S64x64 .f32) (a1 : FVec Ideal S64 .f32) (a2 a3 : FVec Ideal S64x64 .f32) (a4 : FVec Ideal S4096 .f32) (r : Fin 4096) :
    res_v18 a0 a1 a2 a3 a4 (ix1 r)
      = Ideal.ofBits .f32 0x3F800000#32 - Ideal.div (a1 (ix1 (lo r))) (Ideal.ofBits .f32 0x40000000#32) := by
  unfold res_v18 res_v17 res_v16
  rw [tile_apply, res_v15_apply]

/-- `Mpdiag` at row `r`: `1 + kp (r % 64) / 2`. -/
theorem res_v25_apply (a0 : FVec Ideal S64x64 .f32) (a1 : FVec Ideal S64 .f32) (a2 a3 : FVec Ideal S64x64 .f32) (a4 : FVec Ideal S4096 .f32) (r : Fin 4096) :
    res_v25 a0 a1 a2 a3 a4 (ix1 r)
      = Ideal.ofBits .f32 0x3F800000#32 + Ideal.div (a1 (ix1 (lo r))) (Ideal.ofBits .f32 0x40000000#32) := by
  unfold res_v25 res_v24 res_v23
  rw [tile_apply, res_v22_apply]

/-! ## `Nxdiag`, `Nxpdiag`, `Nydiag`, `Nypdiag` over the updated parameters -/

/-- `Nxdiag` at row `r`: `1 + kx (r % 64, r / 64) / 2`. -/
theorem res_v31_apply (a0 : FVec Ideal S64x64 .f32) (a1 : FVec Ideal S64 .f32) (a2 a3 : FVec Ideal S64x64 .f32) (a4 : FVec Ideal S4096 .f32) (r : Fin 4096) :
    res_v31 a0 a1 a2 a3 a4 (ix1 r)
      = Ideal.ofBits .f32 0x3F800000#32 + Ideal.div (res_v3 a0 a1 a2 a3 a4 (ix2 (lo r) (hi r))) (Ideal.ofBits .f32 0x40000000#32) := by
  unfold res_v31 res_v30 res_v29 res_v28 res_v27 res_v26 res_cst_34 res_cst_35
  rw [addf_apply, hostDivf_apply, broadcastInDim_scalar_apply, broadcastInDim_scalar_apply, constant_apply, constant_apply,
    flatT_apply]

/-- `Nxpdiag` at row `r`: `1 - kx (r % 64, r / 64) / 2`. -/
theorem res_v37_apply (a0 : FVec Ideal S64x64 .f32) (a1 : FVec Ideal S64 .f32) (a2 a3 : FVec Ideal S64x64 .f32) (a4 : FVec Ideal S4096 .f32) (r : Fin 4096) :
    res_v37 a0 a1 a2 a3 a4 (ix1 r)
      = Ideal.ofBits .f32 0x3F800000#32 - Ideal.div (res_v3 a0 a1 a2 a3 a4 (ix2 (lo r) (hi r))) (Ideal.ofBits .f32 0x40000000#32) := by
  unfold res_v37 res_v36 res_v35 res_v34 res_v33 res_v32 res_cst_36 res_cst_37
  rw [subf_apply, hostDivf_apply, broadcastInDim_scalar_apply, broadcastInDim_scalar_apply, constant_apply, constant_apply,
    flatT_apply]

/-- `Nydiag` at row `r`: `1 + ky (r % 64, r / 64) / 2`. -/
theorem res_v43_apply (a0 : FVec Ideal S64x64 .f32) (a1 : FVec Ideal S64 .f32) (a2 a3 : FVec Ideal S64x64 .f32) (a4 : FVec Ideal S4096 .f32) (r : Fin 4096) :
    res_v43 a0 a1 a2 a3 a4 (ix1 r)
      = Ideal.ofBits .f32 0x3F800000#32 + Ideal.div (res_v6 a0 a1 a2 a3 a4 (ix2 (lo r) (hi r))) (Ideal.ofBits .f32 0x40000000#32) := by
  unfold res_v43 res_v42 res_v41 res_v40 res_v39 res_v38 res_cst_38 res_cst_39
  rw [addf_apply, hostDivf_apply, broadcastInDim_scalar_apply, broadcastInDim_scalar_apply, constant_apply, constant_apply,
    flatT_apply]

/-- `Nypdiag` at row `r`: `1 - ky (r % 64, r / 64) / 2`. -/
theorem res_v49_apply (a0 : FVec Ideal S64x64 .f32) (a1 : FVec Ideal S64 .f32) (a2 a3 : FVec Ideal S64x64 .f32) (a4 : FVec Ideal S4096 .f32) (r : Fin 4096) :
    res_v49 a0 a1 a2 a3 a4 (ix1 r)
      = Ideal.ofBits .f32 0x3F800000#32 - Ideal.div (res_v6 a0 a1 a2 a3 a4 (ix2 (lo r) (hi r))) (Ideal.ofBits .f32 0x40000000#32) := by
  unfold res_v49 res_v48 res_v47 res_v46 res_v45 res_v44 res_cst_40 res_cst_41
  rw [subf_apply, hostDivf_apply, broadcastInDim_scalar_apply, broadcastInDim_scalar_apply, constant_apply, constant_apply,
    flatT_apply]

/-! ## The same four, down to the arguments -/

/-- `kx` at the grid point of row `r`, from the arguments. -/
theorem res_v3_row (a0 : FVec Ideal S64x64 .f32) (a1 : FVec Ideal S64 .f32) (a2 a3 : FVec Ideal S64x64 .f32) (a4 : FVec Ideal S4096 .f32) (r : Fin 4096) :
    res_v3 a0 a1 a2 a3 a4 (ix2 (lo r) (hi r)) = a2 (ix2 (lo r) (hi r))
      - Ideal.ofBits .f32 0x3A83126F#32
        * a4 (ix1 ⟨(lo r).val * 64 + (hi r).val, by have := (lo r).isLt; have := (hi r).isLt; omega⟩) :=
  res_v3_apply a0 a1 a2 a3 a4 (lo r) (hi r)

/-- `ky` at the grid point of row `r`, from the arguments. -/
theorem res_v6_row (a0 : FVec Ideal S64x64 .f32) (a1 : FVec Ideal S64 .f32) (a2 a3 : FVec Ideal S64x64 .f32) (a4 : FVec Ideal S4096 .f32) (r : Fin 4096) :
    res_v6 a0 a1 a2 a3 a4 (ix2 (lo r) (hi r)) = a3 (ix2 (lo r) (hi r))
      - Ideal.ofBits .f32 0x3A83126F#32
        * a4 (ix1 ⟨(lo r).val * 64 + (hi r).val, by have := (lo r).isLt; have := (hi r).isLt; omega⟩) :=
  res_v6_apply a0 a1 a2 a3 a4 (lo r) (hi r)

end Cert.ReferenceIdeal.RefVecs

end
-- ==== Proof.BridgeAtoms.lean ====
/-
  The two programs' row-indexed quantities are the same numbers.  The reference divides the flattened field by the
  grid step where it uses it and builds each reciprocal diagonal from the same three layouts — the transposed
  flattening, the tiling, the row-by-row view of `delta_k` — as the kernel program's host side; so at every row the
  reference's `minv`, `nxinv`, `nyinv`, their products with `Nxpdiag` / `Nypdiag` and `cflat / dx` are the kernel
  side's stage values, float operation by float operation.
-/
import proofs.«134289_j17918603559171_2_alg».proof.Proof.KHostTable
import proofs.«134289_j17918603559171_2_alg».proof.Proof.RefSpec
import proofs.«134289_j17918603559171_2_alg».proof.Proof.RefVecs
import proofs.«134289_j17918603559171_2_alg».proof.Proof.LibERealBand

noncomputable section

namespace Cert.Bridge

open Idealize.ShloMosaic Idealize.ShloMosaic.ValueIdx
open Cert.KernelIdeal.KHost (lo hi cfS miS mtS nS aS kxy dxs)
open Cert.ReferenceIdeal.RefStages (res_v164 res_v166 res_v168 res_v37 res_v49 res_v25)

variable (a0 : FVec Ideal Cert.KernelIdeal.S64x64 .f32) (a1 : FVec Ideal Cert.KernelIdeal.S64 .f32)
  (a2 a3 : FVec Ideal Cert.KernelIdeal.S64x64 .f32) (a4 : FVec Ideal Cert.KernelIdeal.S4096 .f32)

/-- The grid step is the same number in both programs: ten times the largest entry of `c`, times the float root of two. -/
theorem dx_eq : Cert.ReferenceIdeal.RefRead.dx a0 a1 a2 a3 a4 = dxs a0 ix0 := by
  unfold Cert.ReferenceIdeal.RefRead.dx
  rw [Cert.ReferenceIdeal.RefVecs.res_v9_apply, Cert.KernelIdeal.KHost.dxs_apply]

/-- The reference's `cflat r / dx` is the kernel side's `cf_dx` at `r`. -/
theorem cf_eq (r : Fin 4096) :
    Ideal.div (Cert.ReferenceIdeal.RefRead.cf a0 a1 a2 a3 a4 r) (Cert.ReferenceIdeal.RefRead.dx a0 a1 a2 a3 a4) = cfS a0 r := by
  rw [Cert.KernelIdeal.KHost.cfS_eq, dx_eq]
  unfold Cert.ReferenceIdeal.RefRead.cf
  rw [Cert.ReferenceIdeal.RefVecs.res_v11_apply]

/-- Where the reference negates before it divides, the quotient is the negative: the grid step is a real that is not zero. -/
theorem cf_neg_eq (hD : ∃ d : ℝ, d ≠ 0 ∧ dxs a0 ix0 = (d : EReal)) (r : Fin 4096) :
    Ideal.div (-(Cert.ReferenceIdeal.RefRead.cf a0 a1 a2 a3 a4 r)) (Cert.ReferenceIdeal.RefRead.dx a0 a1 a2 a3 a4) = -(cfS a0 r) := by
  obtain ⟨d, hd, hdx⟩ := hD
  rw [← cf_eq a0 a1 a2 a3 a4 r, dx_eq, hdx]
  exact Idealize.ShloMosaic.ERealBand.div_neg_of_real _ d hd

/-- `minv` at a row. -/
theorem minv_eq (r : Fin 4096) : res_v164 a0 a1 a2 a3 a4 (ix1 r) = miS a1 r := by
  rw [Cert.ReferenceIdeal.RefDown.res_v164_apply, Cert.ReferenceIdeal.RefVecs.res_v18_apply, Cert.KernelIdeal.KHost.miS_eq,
    Ideal.ofBits_one_f32]

/-- `Mpdiag` at a row. -/
theorem mpdiag_eq (r : Fin 4096) :
    res_v25 a0 a1 a2 a3 a4 (ix1 r)
      = Ideal.ofBits .f32 0x3F800000#32 + Ideal.div (a1 (ix1 (lo r))) (Ideal.ofBits .f32 0x40000000#32) :=
  Cert.ReferenceIdeal.RefVecs.res_v25_apply a0 a1 a2 a3 a4 r

/-- `nxinv` at a row. -/
theorem nx_eq (r : Fin 4096) : res_v166 a0 a1 a2 a3 a4 (ix1 r) = nS (kxy a2 a4) r := by
  rw [Cert.ReferenceIdeal.RefDown.res_v166_apply, Cert.ReferenceIdeal.RefVecs.res_v31_apply, Cert.ReferenceIdeal.RefVecs.res_v3_row,
    Cert.KernelIdeal.KHost.nS_eq, Cert.KernelIdeal.KHost.kxy_row, Ideal.ofBits_one_f32]

/-- `nyinv` at a row. -/
theorem ny_eq (r : Fin 4096) : res_v168 a0 a1 a2 a3 a4 (ix1 r) = nS (kxy a3 a4) r := by
  rw [Cert.ReferenceIdeal.RefDown.res_v168_apply, Cert.ReferenceIdeal.RefVecs.res_v43_apply, Cert.ReferenceIdeal.RefVecs.res_v6_row,
    Cert.KernelIdeal.KHost.nS_eq, Cert.KernelIdeal.KHost.kxy_row, Ideal.ofBits_one_f32]

/-- `nxinv * Nxpdiag` at a row. -/
theorem ax_eq (r : Fin 4096) : res_v166 a0 a1 a2 a3 a4 (ix1 r) * res_v37 a0 a1 a2 a3 a4 (ix1 r) = aS (kxy a2 a4) r := by
  rw [Cert.KernelIdeal.KHost.aS_eq, ← nx_eq a0 a1 a2 a3 a4 r, Cert.ReferenceIdeal.RefVecs.res_v37_apply,
    Cert.ReferenceIdeal.RefVecs.res_v3_row, Cert.KernelIdeal.KHost.kxy_row]

/-- `nyinv * Nypdiag` at a row. -/
theorem ay_eq (r : Fin 4096) : res_v168 a0 a1 a2 a3 a4 (ix1 r) * res_v49 a0 a1 a2 a3 a4 (ix1 r) = aS (kxy a3 a4) r := by
  rw [Cert.KernelIdeal.KHost.aS_eq, ← ny_eq a0 a1 a2 a3 a4 r, Cert.ReferenceIdeal.RefVecs.res_v49_apply,
    Cert.ReferenceIdeal.RefVecs.res_v6_row, Cert.KernelIdeal.KHost.kxy_row]

end Cert.Bridge

end
-- ==== Proof.BridgeBlocks.lean ====
/-
  The join of the two programs on eight of the nine 4096×4096 blocks of the result (all but the first, `A11`).

  On the kernel side an entry (r, c) of a block is the band sum of the table's columns: the block's diagonal
  column where c = r, and one off-diagonal column where c is r ± 64 or r ± 1.  On the reference side the block is a
  sparse matrix with its rows (and for `A12`, `A13` its columns) scaled by reciprocal diagonals.  Entry by entry
  the two are products of the same row quantities; they differ only in where a sign sits and in the order of the
  factors, which the extended reals allow to move (commutativity, associativity, a sign through a product, the
  units 0 and 1) — and in that the reference negates the field before dividing by the grid step, which is the
  negative of the quotient because the grid step is a real that is not zero.  At the ends of the array and across
  the boundary of a block of 64 both sides are zero.
-/
import proofs.«134289_j17918603559171_2_alg».proof.Proof.BridgeAtoms
import proofs.«134289_j17918603559171_2_alg».proof.Proof.KValArithI
import proofs.«134289_j17918603559171_2_alg».proof.Proof.RefDownBlock

noncomputable section

namespace Cert.Bridge

open Idealize.ShloMosaic Idealize.ShloMosaic.ValueIdx Idealize.ShloMosaic.ERealBand
open Cert.KernelIdeal.KHost (RF cfS miS mtS nS aS kxy dxs up64 dn64 up1 mfS mlS)

/-! ## A neighbour that exists is the neighbour -/

theorem up64_of (f : Fin 4096 → EReal) (r cc : Fin 4096) (h : cc.val = r.val + 64) : up64 f r = f cc := by
  unfold Cert.KernelIdeal.KHost.up64
  rw [dif_pos (show r.val + 64 < 4096 by have := cc.isLt; omega)]
  exact congrArg f (Fin.ext h.symm)

theorem dn64_of (f : Fin 4096 → EReal) (r cc : Fin 4096) (h : cc.val + 64 = r.val) : dn64 f r = f cc := by
  unfold Cert.KernelIdeal.KHost.dn64
  rw [dif_pos (show 64 ≤ r.val by omega)]
  exact congrArg f (Fin.ext (by show r.val - 64 = cc.val; omega))

theorem up1_of (f : Fin 4096 → EReal) (r cc : Fin 4096) (h : cc.val = r.val + 1) : up1 f r = f cc := by
  unfold Cert.KernelIdeal.KHost.up1
  rw [dif_pos (show r.val + 1 < 4096 by have := cc.isLt; omega)]
  exact congrArg f (Fin.ext h.symm)

variable (a0 : FVec Ideal Cert.KernelIdeal.S64x64 .f32) (a1 : FVec Ideal Cert.KernelIdeal.S64 .f32)
  (a2 a3 : FVec Ideal Cert.KernelIdeal.S64x64 .f32) (a4 : FVec Ideal Cert.KernelIdeal.S4096 .f32)

/-! ## The two diagonal blocks `A22` and `A33`, and the two zero blocks -/

/-- `A22`: `nxinv * Nxpdiag` on the diagonal. -/
theorem block_4 (hD : ∃ d : ℝ, d ≠ 0 ∧ dxs a0 ix0 = (d : EReal)) (r cc : Fin 4096) :
    Cert.KernelIdeal.Frm.bandsum 4 r.val cc.val (fun j => RF a0 a1 a2 a3 a4 (ix2 r ⟨j.val, by have := j.isLt; omega⟩))
      = Cert.ReferenceIdeal.RefDown.blk a0 a1 a2 a3 a4 ⟨4 / 3, by decide⟩ ⟨4 % 3, by decide⟩ (ix2 r cc) := by
  show (0 : EReal) + (if cc.val = r.val then RF a0 a1 a2 a3 a4 (ix2 r (⟨11, by decide⟩ : Fin 128)) else 0)
      = Cert.ReferenceIdeal.RefStages.res_v202 a0 a1 a2 a3 a4 (ix2 r cc)
  rw [Cert.ReferenceIdeal.RefSpec.A22_apply, Cert.KernelIdeal.KHost.RF_c11, ax_eq, zero_add]
  by_cases h : cc.val = r.val
  · rw [if_pos h, if_pos (Fin.ext h.symm)]
  · rw [if_neg h, if_neg (fun e => h (congrArg Fin.val e).symm)]

/-- `A33`: `nyinv * Nypdiag` on the diagonal. -/
theorem block_8 (hD : ∃ d : ℝ, d ≠ 0 ∧ dxs a0 ix0 = (d : EReal)) (r cc : Fin 4096) :
    Cert.KernelIdeal.Frm.bandsum 8 r.val cc.val (fun j => RF a0 a1 a2 a3 a4 (ix2 r ⟨j.val, by have := j.isLt; omega⟩))
      = Cert.ReferenceIdeal.RefDown.blk a0 a1 a2 a3 a4 ⟨8 / 3, by decide⟩ ⟨8 % 3, by decide⟩ (ix2 r cc) := by
  show (0 : EReal) + (if cc.val = r.val then RF a0 a1 a2 a3 a4 (ix2 r (⟨14, by decide⟩ : Fin 128)) else 0)
      = Cert.ReferenceIdeal.RefStages.res_v207 a0 a1 a2 a3 a4 (ix2 r cc)
  rw [Cert.ReferenceIdeal.RefSpec.A33_apply, Cert.KernelIdeal.KHost.RF_c14, ay_eq, zero_add]
  by_cases h : cc.val = r.val
  · rw [if_pos h, if_pos (Fin.ext h.symm)]
  · rw [if_neg h, if_neg (fun e => h (congrArg Fin.val e).symm)]

/-- `A23` is zero. -/
theorem block_5 (hD : ∃ d : ℝ, d ≠ 0 ∧ dxs a0 ix0 = (d : EReal)) (r cc : Fin 4096) :
    Cert.KernelIdeal.Frm.bandsum 5 r.val cc.val (fun j => RF a0 a1 a2 a3 a4 (ix2 r ⟨j.val, by have := j.isLt; omega⟩))
      = Cert.ReferenceIdeal.RefDown.blk a0 a1 a2 a3 a4 ⟨5 / 3, by decide⟩ ⟨5 % 3, by decide⟩ (ix2 r cc) := by
  show (0 : EReal) = Cert.ReferenceIdeal.RefStages.res_v50 a0 a1 a2 a3 a4 (ix2 r cc)
  rw [Cert.ReferenceIdeal.RefDown.res_v50_apply]

/-- `A32` is zero. -/
theorem block_7 (hD : ∃ d : ℝ, d ≠ 0 ∧ dxs a0 ix0 = (d : EReal)) (r cc : Fin 4096) :
    Cert.KernelIdeal.Frm.bandsum 7 r.val cc.val (fun j => RF a0 a1 a2 a3 a4 (ix2 r ⟨j.val, by have := j.isLt; omega⟩))
      = Cert.ReferenceIdeal.RefDown.blk a0 a1 a2 a3 a4 ⟨7 / 3, by decide⟩ ⟨7 % 3, by decide⟩ (ix2 r cc) := by
  show (0 : EReal) = Cert.ReferenceIdeal.RefStages.res_v50 a0 a1 a2 a3 a4 (ix2 r cc)
  rw [Cert.ReferenceIdeal.RefDown.res_v50_apply]

/-! ## `A21 = nxinv[:, None] * Sx` and `A31 = nyinv[:, None] * Sy` -/

/-- `A21`: `-nxinv r * cf r` on the diagonal, `nxinv r * cf (r - 64)` one block to the left. -/
theorem block_3 (hD : ∃ d : ℝ, d ≠ 0 ∧ dxs a0 ix0 = (d : EReal)) (r cc : Fin 4096) :
    Cert.KernelIdeal.Frm.bandsum 3 r.val cc.val (fun j => RF a0 a1 a2 a3 a4 (ix2 r ⟨j.val, by have := j.isLt; omega⟩))
      = Cert.ReferenceIdeal.RefDown.blk a0 a1 a2 a3 a4 ⟨3 / 3, by decide⟩ ⟨3 % 3, by decide⟩ (ix2 r cc) := by
  show ((0 : EReal) + (if cc.val = r.val then RF a0 a1 a2 a3 a4 (ix2 r (⟨9, by decide⟩ : Fin 128)) else 0))
        + (if cc.val + 64 = r.val then RF a0 a1 a2 a3 a4 (ix2 r (⟨10, by decide⟩ : Fin 128)) else 0)
      = Cert.ReferenceIdeal.RefStages.res_v200 a0 a1 a2 a3 a4 (ix2 r cc)
  rw [Cert.ReferenceIdeal.RefSpec.A21_apply, Cert.KernelIdeal.KHost.RF_c9, Cert.KernelIdeal.KHost.RF_c10, nx_eq,
    cf_neg_eq a0 a1 a2 a3 a4 hD, cf_eq]
  by_cases h0 : cc.val = r.val
  · have h1 : ¬ cc.val + 64 = r.val := by omega
    simp only [if_pos h0, if_neg h1]
    ereal_band
  · by_cases h1 : cc.val + 64 = r.val
    · have h2 : r.val = cc.val + 64 := h1.symm
      simp only [if_neg h0, if_pos h1, if_pos h2]
      rw [dn64_of _ r cc h1]
      ereal_band
    · have h2 : ¬ r.val = cc.val + 64 := fun e => h1 e.symm
      simp only [if_neg h0, if_neg h1, if_neg h2]
      ereal_band

/-- `A31`: `-nyinv r * cf r` on the diagonal, `nyinv r * cf r` one to the left unless `r` is the first row of its
    block of 64. -/
theorem block_6 (hD : ∃ d : ℝ, d ≠ 0 ∧ dxs a0 ix0 = (d : EReal)) (r cc : Fin 4096) :
    Cert.KernelIdeal.Frm.bandsum 6 r.val cc.val (fun j => RF a0 a1 a2 a3 a4 (ix2 r ⟨j.val, by have := j.isLt; omega⟩))
      = Cert.ReferenceIdeal.RefDown.blk a0 a1 a2 a3 a4 ⟨6 / 3, by decide⟩ ⟨6 % 3, by decide⟩ (ix2 r cc) := by
  show ((0 : EReal) + (if cc.val = r.val then RF a0 a1 a2 a3 a4 (ix2 r (⟨12, by decide⟩ : Fin 128)) else 0))
        + (if cc.val + 1 = r.val then RF a0 a1 a2 a3 a4 (ix2 r (⟨13, by decide⟩ : Fin 128)) else 0)
      = Cert.ReferenceIdeal.RefStages.res_v205 a0 a1 a2 a3 a4 (ix2 r cc)
  rw [Cert.ReferenceIdeal.RefSpec.A31_apply, Cert.KernelIdeal.KHost.RF_c12, Cert.KernelIdeal.KHost.RF_c13, ny_eq,
    cf_neg_eq a0 a1 a2 a3 a4 hD, cf_eq]
  unfold Cert.KernelIdeal.KHost.mfS
  by_cases h0 : cc.val = r.val
  · have h1 : ¬ cc.val + 1 = r.val := by omega
    simp only [if_pos h0, if_neg h1]
    ereal_band
  · by_cases h1 : cc.val + 1 = r.val
    · by_cases hm : r.val % 64 = 0
      · have h2 : ¬ (cc.val + 1 = r.val ∧ r.val % 64 ≠ 0) := fun h => h.2 hm
        simp only [if_neg h0, if_pos h1, if_pos hm, if_neg h2]
        ereal_band
      · have h2 : cc.val + 1 = r.val ∧ r.val % 64 ≠ 0 := ⟨h1, hm⟩
        simp only [if_neg h0, if_pos h1, if_neg hm, if_pos h2]
        ereal_band
    · have h2 : ¬ (cc.val + 1 = r.val ∧ r.val % 64 ≠ 0) := fun h => h1 h.1
      simp only [if_neg h0, if_neg h1, if_neg h2]
      ereal_band

/-! ## `A12 = (minv[:, None] * Rx) * (nxinv * Nxpdiag)[None, :]` and `A13` likewise with `Ry` -/

/-- `A12`: `minv r * cf r * A22v r` on the diagonal, `-minv r * cf r * A22v (r + 64)` one block to the right. -/
theorem block_1 (hD : ∃ d : ℝ, d ≠ 0 ∧ dxs a0 ix0 = (d : EReal)) (r cc : Fin 4096) :
    Cert.KernelIdeal.Frm.bandsum 1 r.val cc.val (fun j => RF a0 a1 a2 a3 a4 (ix2 r ⟨j.val, by have := j.isLt; omega⟩))
      = Cert.ReferenceIdeal.RefDown.blk a0 a1 a2 a3 a4 ⟨1 / 3, by decide⟩ ⟨1 % 3, by decide⟩ (ix2 r cc) := by
  show ((0 : EReal) + (if cc.val = r.val then RF a0 a1 a2 a3 a4 (ix2 r (⟨5, by decide⟩ : Fin 128)) else 0))
        + (if cc.val = r.val + 64 then RF a0 a1 a2 a3 a4 (ix2 r (⟨6, by decide⟩ : Fin 128)) else 0)
      = Cert.ReferenceIdeal.RefStages.res_v190 a0 a1 a2 a3 a4 (ix2 r cc)
  rw [Cert.ReferenceIdeal.RefSpec.A12_apply, Cert.KernelIdeal.KHost.RF_c5, Cert.KernelIdeal.KHost.RF_c6, minv_eq, ax_eq,
    cf_neg_eq a0 a1 a2 a3 a4 hD, cf_eq]
  by_cases h0 : cc.val = r.val
  · have h1 : ¬ cc.val = r.val + 64 := by omega
    have e : cc = r := Fin.ext h0
    simp only [if_pos h0, if_neg h1]
    rw [e]
    ereal_band
  · by_cases h1 : cc.val = r.val + 64
    · simp only [if_neg h0, if_pos h1]
      rw [up64_of _ r cc h1]
      ereal_band
    · simp only [if_neg h0, if_neg h1]
      ereal_band

/-- `A13`: `minv r * cf r * A33v r` on the diagonal, `-minv r * cf (r + 1) * A33v (r + 1)` one to the right unless `r`
    is the last row of its block of 64. -/
theorem block_2 (hD : ∃ d : ℝ, d ≠ 0 ∧ dxs a0 ix0 = (d : EReal)) (r cc : Fin 4096) :
    Cert.KernelIdeal.Frm.bandsum 2 r.val cc.val (fun j => RF a0 a1 a2 a3 a4 (ix2 r ⟨j.val, by have := j.isLt; omega⟩))
      = Cert.ReferenceIdeal.RefDown.blk a0 a1 a2 a3 a4 ⟨2 / 3, by decide⟩ ⟨2 % 3, by decide⟩ (ix2 r cc) := by
  show ((0 : EReal) + (if cc.val = r.val then RF a0 a1 a2 a3 a4 (ix2 r (⟨7, by decide⟩ : Fin 128)) else 0))
        + (if cc.val = r.val + 1 then RF a0 a1 a2 a3 a4 (ix2 r (⟨8, by decide⟩ : Fin 128)) else 0)
      = Cert.ReferenceIdeal.RefStages.res_v197 a0 a1 a2 a3 a4 (ix2 r cc)
  rw [Cert.ReferenceIdeal.RefSpec.A13_apply, Cert.KernelIdeal.KHost.RF_c7, Cert.KernelIdeal.KHost.RF_c8, minv_eq, ay_eq,
    cf_neg_eq a0 a1 a2 a3 a4 hD, cf_eq]
  unfold Cert.KernelIdeal.KHost.mlS
  by_cases h0 : cc.val = r.val
  · have h1 : ¬ cc.val = r.val + 1 := by omega
    have h2 : ¬ (cc.val = r.val + 1 ∧ r.val % 64 ≠ 63) := fun h => h1 h.1
    have e : cc = r := Fin.ext h0
    simp only [if_pos h0, if_neg h1]
    rw [e]
    ereal_band
  · by_cases h1 : cc.val = r.val + 1
    · rw [up1_of _ r cc h1, up1_of _ r cc h1]
      by_cases hm : r.val % 64 = 63
      · have h2 : ¬ (cc.val = r.val + 1 ∧ r.val % 64 ≠ 63) := fun h => h.2 hm
        simp only [if_neg h0, if_pos h1, if_pos hm, if_neg h2]
        ereal_band
      · have h2 : cc.val = r.val + 1 ∧ r.val % 64 ≠ 63 := ⟨h1, hm⟩
        simp only [if_neg h0, if_pos h1, if_neg hm, if_pos h2]
        ereal_band
    · have h2 : ¬ (cc.val = r.val + 1 ∧ r.val % 64 ≠ 63) := fun h => h1 h.1
      simp only [if_neg h0, if_neg h1, if_neg h2]
      ereal_band

end Cert.Bridge

end
-- ==== Proof.LibHostMatmul.lean ====
/-
  The host's plain matrix product read at an index, at the extended reals: `[m, k] × [k, n]` as a `dot_general`
  contracting the left operand's columns against the right operand's rows is, at `(i, j)`, the sum over the
  contracted coordinate of the products of the entries (no accumulator, no rounding, no order).
-/
import Idealize.ShloMosaic.Lib.ValueIdx
import Idealize.ShloMosaic.PureOps.Ideal.Laws

noncomputable section

open scoped BigOperators

namespace Cert.HostMatmul

open Idealize.ShloMosaic Idealize.ShloMosaic.ValueIdx

/-- `[m, k] × [k, n]` on the host, at `(i, j)`: `∑ c, A[i, c] · B[c, j]`. -/
theorem dotGeneral_plain_apply {m k n : ℕ} {φ₁ φ₂ : FTy} (prec : Option ContractPrecision)
    (A : FVec Ideal ⟨2, ![m, k]⟩ φ₁) (B : FVec Ideal ⟨2, ![k, n]⟩ φ₂) (i : Fin m) (j : Fin n) :
    Host.dotGeneral (DotDims.plain m k n) prec A B (ix2 i j) = ∑ c : Fin k, A (ix2 i c) * B (ix2 c j) := by
  show FloatOps.dotGeneral _ prec _ A B (ix2 i j) = _
  rw [Ideal.dotGeneral_apply, ← Equiv.sum_comp (contrEquiv1 (DotDims.plain m k n) k rfl rfl).symm]
  refine Finset.sum_congr rfl fun c _ => ?_
  have c2 := contrEquiv1_symm_val (DotDims.plain m k n) k rfl rfl c
  have l2 : (DotDims.plain m k n).lhsIdx (ix2 i j) ((contrEquiv1 _ k rfl rfl).symm c) = ix2 i c := by
    funext ax; apply Fin.ext
    match ax with
    | ⟨0, _⟩ => simp [DotDims.lhsIdx, DotDims.plain]; rfl
    | ⟨1, _⟩ => simp [DotDims.lhsIdx, DotDims.plain]; exact c2
  have r2 : (DotDims.plain m k n).rhsIdx (ix2 i j) ((contrEquiv1 _ k rfl rfl).symm c) = ix2 c j := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.HostMatmul

end
-- ==== Proof.RefReadDot.lean ====
/-
  The two matrix products of the reference read at an entry.

  `Tx = Rx · diag(nxinv)` scales column `k` of `Rx` by `nxinv[k]`, and `Tx @ Sx` is, at `(r, c)`, the sum over `k` of
  `Tx[r, k] · Sx[k, c]`. Row `r` of `Rx` is zero except at `k = r` and (when `r` has a block to its right) at
  `k = r + 64`, and a zero factor makes a product zero, so the sum has at most these two terms; each of them is then
  read off `Sx`, which is zero except on its diagonal and one block below it. The same for `Ty @ Sy` with the
  neighbours inside a block of 64. Every product keeps the program's association, `(R · n) · S`.
-/
import proofs.«134289_j17918603559171_2_alg».proof.Proof.RefReadMatsIf
import proofs.«134289_j17918603559171_2_alg».proof.Proof.LibHostMatmul

noncomputable section

open scoped BigOperators

namespace Cert.ReferenceIdeal.RefRead

open Idealize.ShloMosaic Idealize.ShloMosaic.ValueIdx
open Cert.ReferenceIdeal Cert.ReferenceIdeal.Facts₀ Cert.ReferenceIdeal.Facts Cert.ReferenceIdeal.RefStages

/-! ## Two general facts -/

/-- A row `[1, b]` broadcast down to `[a, b]` reads, at `(p, q)`, the row's entry `q`. -/
theorem broadcastInDim_1b_ab_apply {α : Type} {a b : ℕ}
    (h : (⟨2, ![1, b]⟩ : Shape).BroadcastsInDim ⟨2, ![a, b]⟩ ![0, 1])
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ => rfl
  | ⟨1, _⟩ =>
    show q.val = if b = 1 then 0 else q.val
    split
    · have := q.isLt; omega
    · rfl

/-- A sum whose terms vanish except at `r` and, under a condition `P`, at one more place `q`. -/
theorem sum_two {M : Type} [AddCommMonoid M] {n : Nat} (f : Fin n → M) (r : Fin n) (q : Nat) (P : Prop) [Decidable P]
    (hq : P → q < n) (hne : q ≠ r.val)
    (h0 : ∀ k : Fin n, k.val ≠ r.val → ¬ (P ∧ k.val = q) → f k = 0) :
    ∑ k, f k = f r + (if h : P then f ⟨q, hq h⟩ else 0) := by
  by_cases h : P
  · rw [dif_pos h]
    refine Finset.sum_eq_add r ⟨q, hq h⟩ (fun e => hne (congrArg Fin.val e).symm) (fun k _ hk => ?_)
      (fun hn => absurd (Finset.mem_univ _) hn) (fun hn => absurd (Finset.mem_univ _) hn)
    exact h0 k (fun e => hk.1 (Fin.ext e)) (fun e => hk.2 (Fin.ext e.2))
  · rw [dif_neg h, add_zero]
    exact Finset.sum_eq_single r (fun k _ hk => h0 k (fun e => hk (Fin.ext e)) (fun e => h e.1))
      (fun hn => absurd (Finset.mem_univ _) hn)

section Stages
variable (a0 : FVec Ideal S64x64 .f32) (a1 : FVec Ideal S64 .f32) (a2 a3 : FVec Ideal S64x64 .f32) (a4 : FVec Ideal S4096 .f32)

/-- The reciprocals `nxinv`, `nyinv` of the two diagonal matrices, entry `k`. -/
def nx (k : Fin 4096) : Ideal .f32 := res_v166 a0 a1 a2 a3 a4 (ix1 k)
def ny (k : Fin 4096) : Ideal .f32 := res_v168 a0 a1 a2 a3 a4 (ix1 k)

/-! ## The column scalings -/

/-- `Tx[r, k] = Rx[r, k] · nxinv[k]`. -/
theorem Tx_at (r k : Fin 4096) :
    res_v171 a0 a1 a2 a3 a4 (ix2 r k) = res_v76 a0 a1 a2 a3 a4 (ix2 r k) * res_v166 a0 a1 a2 a3 a4 (ix1 k) :=
  (mulf_apply (res_v76 a0 a1 a2 a3 a4) (res_v170 a0 a1 a2 a3 a4) (ix2 r k)).trans
    (congrArg (fun t => res_v76 a0 a1 a2 a3 a4 (ix2 r k) * t)
      ((broadcastInDim_1b_ab_apply bcast_S1x4096_S4096x4096_0_1 (res_v169 a0 a1 a2 a3 a4) r k).trans
        (Cert.LibKeepdims.broadcastInDim_b_1b_apply bcast_S4096_S1x4096_1 (res_v166 a0 a1 a2 a3 a4) 0 k)))

/-- `Ty[r, k] = Ry[r, k] · nyinv[k]`. -/
theorem Ty_at (r k : Fin 4096) :
    res_v174 a0 a1 a2 a3 a4 (ix2 r k) = res_v132 a0 a1 a2 a3 a4 (ix2 r k) * res_v168 a0 a1 a2 a3 a4 (ix1 k) :=
  (mulf_apply (res_v132 a0 a1 a2 a3 a4) (res_v173 a0 a1 a2 a3 a4) (ix2 r k)).trans
    (congrArg (fun t => res_v132 a0 a1 a2 a3 a4 (ix2 r k) * t)
      ((broadcastInDim_1b_ab_apply bcast_S1x4096_S4096x4096_0_1 (res_v172 a0 a1 a2 a3 a4) r k).trans
        (Cert.LibKeepdims.broadcastInDim_b_1b_apply bcast_S4096_S1x4096_1 (res_v168 a0 a1 a2 a3 a4) 0 k)))

/-! ## The products as sums -/

theorem TxSx_sum (r c : Fin 4096) :
    res_v178 a0 a1 a2 a3 a4 (ix2 r c) = ∑ k : Fin 4096, res_v171 a0 a1 a2 a3 a4 (ix2 r k) * res_v102 a0 a1 a2 a3 a4 (ix2 k c) :=
  Cert.HostMatmul.dotGeneral_plain_apply none (res_v171 a0 a1 a2 a3 a4) (res_v102 a0 a1 a2 a3 a4) r c

theorem TySy_sum (r c : Fin 4096) :
    res_v179 a0 a1 a2 a3 a4 (ix2 r c) = ∑ k : Fin 4096, res_v174 a0 a1 a2 a3 a4 (ix2 r k) * res_v162 a0 a1 a2 a3 a4 (ix2 k c) :=
  Cert.HostMatmul.dotGeneral_plain_apply none (res_v174 a0 a1 a2 a3 a4) (res_v162 a0 a1 a2 a3 a4) r c

/-! ## At most two terms -/

/-- `(Tx @ Sx)[r, c] = Tx[r, r] · Sx[r, c] + Tx[r, r + 64] · Sx[r + 64, c]`, the second term only when `r` has a block to
    its right. -/
theorem TxSx_two (r c : Fin 4096) :
    res_v178 a0 a1 a2 a3 a4 (ix2 r c)
      = res_v171 a0 a1 a2 a3 a4 (ix2 r r) * res_v102 a0 a1 a2 a3 a4 (ix2 r c)
        + (if h : r.val < 4032 then
            res_v171 a0 a1 a2 a3 a4 (ix2 r ⟨r.val + 64, by omega⟩) * res_v102 a0 a1 a2 a3 a4 (ix2 ⟨r.val + 64, by omega⟩ c)
          else 0) := by
  rw [TxSx_sum]
  refine sum_two (fun k => res_v171 a0 a1 a2 a3 a4 (ix2 r k) * res_v102 a0 a1 a2 a3 a4 (ix2 k c)) r (r.val + 64) (r.val < 4032)
    (fun h => by omega) (by omega) (fun k h1 h2 => ?_)
  show res_v171 a0 a1 a2 a3 a4 (ix2 r k) * res_v102 a0 a1 a2 a3 a4 (ix2 k c) = 0
  rw [Tx_at, Rx_zero a0 a1 a2 a3 a4 r k h1 (fun e => h2 ⟨by have := k.isLt; omega, e⟩), zero_mul, zero_mul]

/-- `(Ty @ Sy)[r, c] = Ty[r, r] · Sy[r, c] + Ty[r, r + 1] · Sy[r + 1, c]`, the second term only when `r` is not the last of
    its block of 64. -/
theorem TySy_two (r c : Fin 4096) :
    res_v179 a0 a1 a2 a3 a4 (ix2 r c)
      = res_v174 a0 a1 a2 a3 a4 (ix2 r r) * res_v162 a0 a1 a2 a3 a4 (ix2 r c)
        + (if h : r.val % 64 ≠ 63 then
            res_v174 a0 a1 a2 a3 a4 (ix2 r ⟨r.val + 1, by have := r.isLt; omega⟩)
              * res_v162 a0 a1 a2 a3 a4 (ix2 ⟨r.val + 1, by have := r.isLt; omega⟩ c)
          else 0) := by
  rw [TySy_sum]
  refine sum_two (fun k => res_v174 a0 a1 a2 a3 a4 (ix2 r k) * res_v162 a0 a1 a2 a3 a4 (ix2 k c)) r (r.val + 1) (r.val % 64 ≠ 63)
    (fun h => by have := r.isLt; omega) (by omega) (fun k h1 h2 => ?_)
  show res_v174 a0 a1 a2 a3 a4 (ix2 r k) * res_v162 a0 a1 a2 a3 a4 (ix2 k c) = 0
  rw [Ty_at, Ry_zero a0 a1 a2 a3 a4 r k h1 (fun e => h2 ⟨e.2, e.1⟩), zero_mul, zero_mul]

end Stages

/-! ## The products in closed form -/

section Closed
variable (a0 : FVec Ideal S64x64 .f32) (a1 : FVec Ideal S64 .f32) (a2 a3 : FVec Ideal S64x64 .f32) (a4 : FVec Ideal S4096 .f32)

/-- `Tx[r, r] = (cflat[r] / dx) · nxinv[r]`. -/
theorem Tx_diag (r : Fin 4096) :
    res_v171 a0 a1 a2 a3 a4 (ix2 r r) = Ideal.div (cf a0 a1 a2 a3 a4 r) (dx a0 a1 a2 a3 a4) * nx a0 a1 a2 a3 a4 r := by
  rw [Tx_at, Rx_diag]; rfl

/-- `Tx[r, r + 64] = ((-cflat[r]) / dx) · nxinv[r + 64]`. -/
theorem Tx_off (r : Fin 4096) (h : r.val < 4032) :
    res_v171 a0 a1 a2 a3 a4 (ix2 r ⟨r.val + 64, by omega⟩)
      = Ideal.div (-(cf a0 a1 a2 a3 a4 r)) (dx a0 a1 a2 a3 a4) * nx a0 a1 a2 a3 a4 ⟨r.val + 64, by omega⟩ := by
  rw [Tx_at, Rx_off a0 a1 a2 a3 a4 r h]; rfl

/-- `Ty[r, r] = (cflat[r] / dx) · nyinv[r]`. -/
theorem Ty_diag (r : Fin 4096) :
    res_v174 a0 a1 a2 a3 a4 (ix2 r r) = Ideal.div (cf a0 a1 a2 a3 a4 r) (dx a0 a1 a2 a3 a4) * ny a0 a1 a2 a3 a4 r := by
  rw [Ty_at, Ry_diag]; rfl

/-- `Ty[r, r + 1] = ((-cflat[r + 1]) / dx) · nyinv[r + 1]`, for `r` not the last of its block. -/
theorem Ty_off (r : Fin 4096) (h : r.val % 64 ≠ 63) :
    res_v174 a0 a1 a2 a3 a4 (ix2 r ⟨r.val + 1, by have := r.isLt; omega⟩)
      = Ideal.div (-(cf a0 a1 a2 a3 a4 ⟨r.val + 1, by have := r.isLt; omega⟩)) (dx a0 a1 a2 a3 a4)
        * ny a0 a1 a2 a3 a4 ⟨r.val + 1, by have := r.isLt; omega⟩ := by
  rw [Ty_at, Ry_off a0 a1 a2 a3 a4 r h]; rfl

/-- `(Tx @ Sx)[r, c]`: on the diagonal the two terms through `k = r` and `k = r + 64`; one block to the right the
    term through `k = r + 64 = c`; one block to the left the term through `k = r`; zero elsewhere. -/
theorem TxSx_apply (r c : Fin 4096) :
    res_v178 a0 a1 a2 a3 a4 (ix2 r c)
      = if c.val = r.val then
          (Ideal.div (cf a0 a1 a2 a3 a4 r) (dx a0 a1 a2 a3 a4) * nx a0 a1 a2 a3 a4 r) * Ideal.div (-(cf a0 a1 a2 a3 a4 r)) (dx a0 a1 a2 a3 a4)
            + (if h : r.val < 4032 then
                (Ideal.div (-(cf a0 a1 a2 a3 a4 r)) (dx a0 a1 a2 a3 a4) * nx a0 a1 a2 a3 a4 ⟨r.val + 64, by omega⟩) * Ideal.div (cf a0 a1 a2 a3 a4 r) (dx a0 a1 a2 a3 a4)
              else 0)
        else if c.val = r.val + 64 then
          (Ideal.div (-(cf a0 a1 a2 a3 a4 r)) (dx a0 a1 a2 a3 a4) * nx a0 a1 a2 a3 a4 c) * Ideal.div (-(cf a0 a1 a2 a3 a4 c)) (dx a0 a1 a2 a3 a4)
        else if c.val + 64 = r.val then
          (Ideal.div (cf a0 a1 a2 a3 a4 r) (dx a0 a1 a2 a3 a4) * nx a0 a1 a2 a3 a4 r) * Ideal.div (cf a0 a1 a2 a3 a4 c) (dx a0 a1 a2 a3 a4)
        else 0 := by
  rw [TxSx_two, Tx_diag]
  by_cases h0 : c.val = r.val
  · obtain rfl : c = r := Fin.ext h0
    by_cases h : c.val < 4032
    · rw [if_pos (rfl : c.val = c.val), Sx_diag, dif_pos h, dif_pos h, Tx_off a0 a1 a2 a3 a4 c h, Sx_off a0 a1 a2 a3 a4 c h]
    · rw [if_pos (rfl : c.val = c.val), Sx_diag, dif_neg h, dif_neg h]
  · rw [if_neg h0]
    by_cases h1 : c.val = r.val + 64
    · have hr : r.val < 4032 := by have := c.isLt; omega
      have e : (⟨r.val + 64, by omega⟩ : Fin 4096) = c := Fin.ext h1.symm
      rw [if_pos h1, dif_pos hr, Sx_zero a0 a1 a2 a3 a4 r c h0 (by omega), mul_zero, zero_add, Tx_off a0 a1 a2 a3 a4 r hr, e, Sx_diag]
    · rw [if_neg h1]
      have hz : (if h : r.val < 4032 then
            res_v171 a0 a1 a2 a3 a4 (ix2 r ⟨r.val + 64, by omega⟩) * res_v102 a0 a1 a2 a3 a4 (ix2 ⟨r.val + 64, by omega⟩ c)
          else 0) = 0 := by
        split
        · rw [Sx_zero a0 a1 a2 a3 a4 ⟨r.val + 64, by omega⟩ c (by show c.val ≠ r.val + 64; omega)
            (by show r.val + 64 ≠ c.val + 64; omega), mul_zero]
        · rfl
      rw [hz, add_zero]
      by_cases h2 : c.val + 64 = r.val
      · have hc : c.val < 4032 := by have := r.isLt; omega
        have e : (⟨c.val + 64, by omega⟩ : Fin 4096) = r := Fin.ext h2
        have hS := Sx_off a0 a1 a2 a3 a4 c hc
        rw [e] at hS
        rw [if_pos h2, hS]
      · rw [if_neg h2, Sx_zero a0 a1 a2 a3 a4 r c h0 (fun e => h2 e.symm), mul_zero]

/-- `(Ty @ Sy)[r, c]`: on the diagonal the two terms through `k = r` and `k = r + 1`; at `c = r + 1` the term through
    `k = c`; at `c = r - 1` the term through `k = r` — the last two only inside a block of 64; zero elsewhere. -/
theorem TySy_apply (r c : Fin 4096) :
    res_v179 a0 a1 a2 a3 a4 (ix2 r c)
      = if c.val = r.val then
          (Ideal.div (cf a0 a1 a2 a3 a4 r) (dx a0 a1 a2 a3 a4) * ny a0 a1 a2 a3 a4 r) * Ideal.div (-(cf a0 a1 a2 a3 a4 r)) (dx a0 a1 a2 a3 a4)
            + (if h : r.val % 64 ≠ 63 then
                (Ideal.div (-(cf a0 a1 a2 a3 a4 ⟨r.val + 1, by have := r.isLt; omega⟩)) (dx a0 a1 a2 a3 a4)
                    * ny a0 a1 a2 a3 a4 ⟨r.val + 1, by have := r.isLt; omega⟩)
                  * Ideal.div (cf a0 a1 a2 a3 a4 ⟨r.val + 1, by have := r.isLt; omega⟩) (dx a0 a1 a2 a3 a4)
              else 0)
        else if c.val = r.val + 1 ∧ r.val % 64 ≠ 63 then
          (Ideal.div (-(cf a0 a1 a2 a3 a4 c)) (dx a0 a1 a2 a3 a4) * ny a0 a1 a2 a3 a4 c) * Ideal.div (-(cf a0 a1 a2 a3 a4 c)) (dx a0 a1 a2 a3 a4)
        else if c.val + 1 = r.val ∧ r.val % 64 ≠ 0 then
          (Ideal.div (cf a0 a1 a2 a3 a4 r) (dx a0 a1 a2 a3 a4) * ny a0 a1 a2 a3 a4 r) * Ideal.div (cf a0 a1 a2 a3 a4 r) (dx a0 a1 a2 a3 a4)
        else 0 := by
  have hr := r.isLt
  rw [TySy_two, Ty_diag]
  by_cases h0 : c.val = r.val
  · obtain rfl : c = r := Fin.ext h0
    by_cases h : c.val % 64 ≠ 63
    · have hS : res_v162 a0 a1 a2 a3 a4 (ix2 ⟨c.val + 1, by omega⟩ c)
          = Ideal.div (cf a0 a1 a2 a3 a4 ⟨c.val + 1, by omega⟩) (dx a0 a1 a2 a3 a4) := by
        rw [Sy_apply, if_neg (show ¬ c.val = c.val + 1 by omega),
          if_pos (show c.val + 1 = c.val + 1 ∧ (c.val + 1) % 64 ≠ 0 from ⟨rfl, by omega⟩)]
      rw [if_pos (rfl : c.val = c.val), Sy_diag, dif_pos h, dif_pos h, Ty_off a0 a1 a2 a3 a4 c h, hS]
    · rw [if_pos (rfl : c.val = c.val), Sy_diag, dif_neg h, dif_neg h]
  · rw [if_neg h0]
    by_cases h1 : c.val = r.val + 1 ∧ r.val % 64 ≠ 63
    · have e : (⟨r.val + 1, by omega⟩ : Fin 4096) = c := Fin.ext h1.1.symm
      rw [if_pos h1, dif_pos h1.2, Sy_zero a0 a1 a2 a3 a4 r c h0 (fun e => by have := e.1; omega), mul_zero, zero_add,
        Ty_off a0 a1 a2 a3 a4 r h1.2, e, Sy_diag]
    · rw [if_neg h1]
      have hz : (if h : r.val % 64 ≠ 63 then
            res_v174 a0 a1 a2 a3 a4 (ix2 r ⟨r.val + 1, by omega⟩) * res_v162 a0 a1 a2 a3 a4 (ix2 ⟨r.val + 1, by omega⟩ c)
          else 0) = 0 := by
        split
        · rename_i h
          rw [Sy_zero a0 a1 a2 a3 a4 ⟨r.val + 1, by omega⟩ c (by show c.val ≠ r.val + 1; omega)
            (fun e => by have e1 : c.val + 1 = r.val + 1 := e.1; omega), mul_zero]
        · rfl
      rw [hz, add_zero]
      by_cases h2 : c.val + 1 = r.val ∧ r.val % 64 ≠ 0
      · have e : (⟨r.val - 1, by omega⟩ : Fin 4096) = c := Fin.ext (by show r.val - 1 = c.val; omega)
        have hS := Sy_off a0 a1 a2 a3 a4 r h2.2
        rw [e] at hS
        rw [if_pos h2, hS]
      · rw [if_neg h2, Sy_zero a0 a1 a2 a3 a4 r c h0 h2, mul_zero]

/-- The sum of the two products, entry by entry. -/
theorem v180_at (r c : Fin 4096) :
    res_v180 a0 a1 a2 a3 a4 (ix2 r c) = res_v178 a0 a1 a2 a3 a4 (ix2 r c) + res_v179 a0 a1 a2 a3 a4 (ix2 r c) :=
  addf_apply (res_v178 a0 a1 a2 a3 a4) (res_v179 a0 a1 a2 a3 a4) (ix2 r c)

end Closed

end Cert.ReferenceIdeal.RefRead
-- ==== Proof.RefSpecA11.lean ====
/-
  The first block of the returned matrix in closed form at an entry `(r, c)`:
  `A11 = diag (minv * Mpdiag) + minv[:, None] * (Tx @ Sx + Ty @ Sy)`, with each of the two matrix products written as
  its at most two nonzero terms. The sums and products stand in the program's order and association.
-/
import proofs.«134289_j17918603559171_2_alg».proof.Proof.RefSpec
import proofs.«134289_j17918603559171_2_alg».proof.Proof.RefReadDot

noncomputable section

namespace Cert.ReferenceIdeal.RefSpec

open Idealize.ShloMosaic Idealize.ShloMosaic.ValueIdx Cert.ReferenceIdeal Cert.ReferenceIdeal.Facts₀ Cert.ReferenceIdeal.Facts
open Cert.ReferenceIdeal.RefStages Cert.ReferenceIdeal.RefDown
open Cert.ReferenceIdeal.RefRead (cf dx nx ny TxSx_apply TySy_apply)

/-- `A11 (r, c)`, every stage read down to the diagonals, the flattened field and the grid step. -/
theorem A11_closed (a0 : FVec Ideal S64x64 .f32) (a1 : FVec Ideal S64 .f32) (a2 a3 : FVec Ideal S64x64 .f32) (a4 : FVec Ideal S4096 .f32) (r c : Fin 4096) :
    res_v183 a0 a1 a2 a3 a4 (ix2 r c)
      = (if r = c then res_v164 a0 a1 a2 a3 a4 (ix1 r) * res_v25 a0 a1 a2 a3 a4 (ix1 r) else 0)
        + res_v164 a0 a1 a2 a3 a4 (ix1 r)
          * ((if c.val = r.val then
                      (Ideal.div (cf a0 a1 a2 a3 a4 r) (dx a0 a1 a2 a3 a4) * nx a0 a1 a2 a3 a4 r) * Ideal.div (-(cf a0 a1 a2 a3 a4 r)) (dx a0 a1 a2 a3 a4)
                        + (if h : r.val < 4032 then
                            (Ideal.div (-(cf a0 a1 a2 a3 a4 r)) (dx a0 a1 a2 a3 a4) * nx a0 a1 a2 a3 a4 ⟨r.val + 64, by omega⟩) * Ideal.div (cf a0 a1 a2 a3 a4 r) (dx a0 a1 a2 a3 a4)
                          else 0)
                    else if c.val = r.val + 64 then
                      (Ideal.div (-(cf a0 a1 a2 a3 a4 r)) (dx a0 a1 a2 a3 a4) * nx a0 a1 a2 a3 a4 c) * Ideal.div (-(cf a0 a1 a2 a3 a4 c)) (dx a0 a1 a2 a3 a4)
                    else if c.val + 64 = r.val then
                      (Ideal.div (cf a0 a1 a2 a3 a4 r) (dx a0 a1 a2 a3 a4) * nx a0 a1 a2 a3 a4 r) * Ideal.div (cf a0 a1 a2 a3 a4 c) (dx a0 a1 a2 a3 a4)
                    else 0)
            + (if c.val = r.val then
                      (Ideal.div (cf a0 a1 a2 a3 a4 r) (dx a0 a1 a2 a3 a4) * ny a0 a1 a2 a3 a4 r) * Ideal.div (-(cf a0 a1 a2 a3 a4 r)) (dx a0 a1 a2 a3 a4)
                        + (if h : r.val % 64 ≠ 63 then
                            (Ideal.div (-(cf a0 a1 a2 a3 a4 ⟨r.val + 1, by have := r.isLt; omega⟩)) (dx a0 a1 a2 a3 a4)
                                * ny a0 a1 a2 a3 a4 ⟨r.val + 1, by have := r.isLt; omega⟩)
                              * Ideal.div (cf a0 a1 a2 a3 a4 ⟨r.val + 1, by have := r.isLt; omega⟩) (dx a0 a1 a2 a3 a4)
                          else 0)
                    else if c.val = r.val + 1 ∧ r.val % 64 ≠ 63 then
                      (Ideal.div (-(cf a0 a1 a2 a3 a4 c)) (dx a0 a1 a2 a3 a4) * ny a0 a1 a2 a3 a4 c) * Ideal.div (-(cf a0 a1 a2 a3 a4 c)) (dx a0 a1 a2 a3 a4)
                    else if c.val + 1 = r.val ∧ r.val % 64 ≠ 0 then
                      (Ideal.div (cf a0 a1 a2 a3 a4 r) (dx a0 a1 a2 a3 a4) * ny a0 a1 a2 a3 a4 r) * Ideal.div (cf a0 a1 a2 a3 a4 r) (dx a0 a1 a2 a3 a4)
                    else 0)) :=
  A11_apply_of a0 a1 a2 a3 a4 r c _ _ (TxSx_apply a0 a1 a2 a3 a4 r c) (TySy_apply a0 a1 a2 a3 a4 r c)

end Cert.ReferenceIdeal.RefSpec

end
-- ==== Proof.BridgeA11.lean ====
/-
  Block 0 of the result: the kernel's band sum is the reference's `A11`.

  Row `r` of the kernel's coefficient table holds five numbers for this block: the diagonal entry and the entries 64
  columns to the left and right and one column to the left and right. The reference's
  `A11 = diag (minv * Mpdiag) + minv[:, None] * (Tx @ Sx + Ty @ Sy)` has, at `(r, c)`, at most two nonzero terms in each
  matrix product. With `k r = cflat r / dx`, and `(-x) / dx = -(x / dx)` because `dx` is a nonzero real, both sides are
  the same products of `k`, `nxinv`, `nyinv`, `minv` up to the order and grouping of `+` and `*`, the sign of a
  product, and the units `0` and `1` — laws that hold at every extended real; no distributivity is used.
-/
import proofs.«134289_j17918603559171_2_alg».proof.Proof.RefSpecA11
import proofs.«134289_j17918603559171_2_alg».proof.Proof.RefDownBlock
import proofs.«134289_j17918603559171_2_alg».proof.Proof.RefVecs
import proofs.«134289_j17918603559171_2_alg».proof.Proof.KHostTable
import proofs.«134289_j17918603559171_2_alg».proof.Proof.KValArithI
import proofs.«134289_j17918603559171_2_alg».proof.Proof.LibERealBand

noncomputable section

namespace Cert.Bridge

open Idealize.ShloMosaic Idealize.ShloMosaic.ValueIdx Idealize.ShloMosaic.ERealBand
open Cert.KernelIdeal.KHost (lo hi cfS miS mtS nS kxy dxs RF up64 dn64 up1 mfS mlS cfS_eq miS_eq mtS_eq nS_eq kxy_row
  dxs_apply RF_c0 RF_c1 RF_c2 RF_c3 RF_c4)
open Cert.ReferenceIdeal.RefStages
open Cert.ReferenceIdeal.RefRead (cf dx nx ny)

/-! ## The two sides over abstract diagonals -/

/-- The kernel's band sum for block 0 at `(r, cc)`, over the row values `K`, `NX`, `NY` and the two numbers
    `mi = minv r`, `mt = minv r * Mpdiag r`. -/
def kernelSide (r cc : Fin 4096) (K NX NY : Fin 4096 → EReal) (mi mt : EReal) : EReal :=
  ((((0 + (if cc.val = r.val then
          mt + mi * (-(K r * K r) * NX r - K r * K r * up64 NX r - K r * K r * NY r
            - mlS r * (up1 K r * up1 K r) * up1 NY r) else 0))
        + (if cc.val + 64 = r.val then mi * K r * dn64 K r * NX r else 0))
        + (if cc.val = r.val + 64 then mi * K r * up64 K r * up64 NX r else 0))
        + (if cc.val + 1 = r.val then mfS r * mi * (K r * K r) * NY r else 0))
        + (if cc.val = r.val + 1 then mlS r * mi * (up1 K r * up1 K r) * up1 NY r else 0)

/-- The reference's `A11` at `(r, cc)` over the same values. -/
def refSide (r cc : Fin 4096) (K NX NY : Fin 4096 → EReal) (mi mt : EReal) : EReal :=
  (if r = cc then mt else 0)
        + mi * ((if cc.val = r.val then
                  (K r * NX r) * (-(K r))
                    + (if h : r.val < 4032 then ((-(K r)) * NX ⟨r.val + 64, by omega⟩) * K r else 0)
                else if cc.val = r.val + 64 then ((-(K r)) * NX cc) * (-(K cc))
                else if cc.val + 64 = r.val then (K r * NX r) * K cc
                else 0)
              + (if cc.val = r.val then
                  (K r * NY r) * (-(K r))
                    + (if h : r.val % 64 ≠ 63 then
                        ((-(K ⟨r.val + 1, by have := r.isLt; omega⟩)) * NY ⟨r.val + 1, by have := r.isLt; omega⟩)
                          * K ⟨r.val + 1, by have := r.isLt; omega⟩ else 0)
                else if cc.val = r.val + 1 ∧ r.val % 64 ≠ 63 then ((-(K cc)) * NY cc) * (-(K cc))
                else if cc.val + 1 = r.val ∧ r.val % 64 ≠ 0 then (K r * NY r) * K r
                else 0))

/-- The two sides agree: on each of the five bands the surviving terms are the same products, and off the bands
    both are zero. -/
theorem a11_core (r cc : Fin 4096) (K NX NY : Fin 4096 → EReal) (mi mt : EReal) :
    kernelSide r cc K NX NY mi mt = refSide r cc K NX NY mi mt := by
  unfold kernelSide refSide
  have hr := r.isLt
  have hc := cc.isLt
  by_cases h0 : cc.val = r.val
  · -- the diagonal: both terms through the row itself, and the two neighbours below
    obtain rfl : cc = r := Fin.ext h0
    have e1 : ¬ cc.val + 64 = cc.val := by omega
    have e2 : ¬ cc.val = cc.val + 64 := by omega
    have e3 : ¬ cc.val + 1 = cc.val := by omega
    have e4 : ¬ cc.val = cc.val + 1 := by omega
    simp only [if_true, if_false, e1, e2, e3, e4, up64, up1, mlS]
    by_cases hA : cc.val < 4032
    · have hA' : cc.val + 64 < 4096 := by omega
      simp only [dif_pos hA, dif_pos hA']
      generalize NX ⟨cc.val + 64, hA'⟩ = n64
      by_cases hB : cc.val % 64 = 63
      · simp only [if_pos hB, dif_neg (not_not.mpr hB)]
        ereal_band
      · have hC : cc.val + 1 < 4096 := by omega
        simp only [if_neg hB, dif_pos (show cc.val % 64 ≠ 63 from hB), dif_pos hC]
        generalize K ⟨cc.val + 1, hC⟩ = k1
        generalize NY ⟨cc.val + 1, hC⟩ = m1
        ereal_band
    · have hA' : ¬ cc.val + 64 < 4096 := by omega
      simp only [dif_neg hA, dif_neg hA']
      by_cases hB : cc.val % 64 = 63
      · simp only [if_pos hB, dif_neg (not_not.mpr hB)]
        ereal_band
      · have hC : cc.val + 1 < 4096 := by omega
        simp only [if_neg hB, dif_pos (show cc.val % 64 ≠ 63 from hB), dif_pos hC]
        generalize K ⟨cc.val + 1, hC⟩ = k1
        generalize NY ⟨cc.val + 1, hC⟩ = m1
        ereal_band
  · have hne : ¬ r = cc := fun e => h0 (by rw [e])
    by_cases h1 : cc.val + 64 = r.val
    · -- one block to the left: the term through the row itself
      have e2 : ¬ cc.val = r.val + 64 := by omega
      have e3 : ¬ cc.val + 1 = r.val := by omega
      have e4 : ¬ cc.val = r.val + 1 := by omega
      have h64 : 64 ≤ r.val := by omega
      have hKc : ∀ p, K ⟨r.val - 64, p⟩ = K cc := fun p =>
        congrArg K (Fin.ext (by show r.val - 64 = cc.val; omega))
      simp only [if_pos h1, if_neg h0, if_neg e2, if_neg e3, if_neg e4, if_neg hne,
        if_neg (show ¬ (cc.val = r.val + 1 ∧ r.val % 64 ≠ 63) from fun h => e4 h.1),
        if_neg (show ¬ (cc.val + 1 = r.val ∧ r.val % 64 ≠ 0) from fun h => e3 h.1), dn64, dif_pos h64, hKc]
      ereal_band
    · by_cases h2 : cc.val = r.val + 64
      · -- one block to the right: the term through the neighbour 64 rows on
        have e3 : ¬ cc.val + 1 = r.val := by omega
        have e4 : ¬ cc.val = r.val + 1 := by omega
        have hlt : r.val + 64 < 4096 := by omega
        have hKc : ∀ p, K ⟨r.val + 64, p⟩ = K cc := fun p =>
          congrArg K (Fin.ext (by show r.val + 64 = cc.val; omega))
        have hNc : ∀ p, NX ⟨r.val + 64, p⟩ = NX cc := fun p =>
          congrArg NX (Fin.ext (by show r.val + 64 = cc.val; omega))
        simp only [if_pos h2, if_neg h0, if_neg h1, if_neg e3, if_neg e4, if_neg hne,
          if_neg (show ¬ (cc.val = r.val + 1 ∧ r.val % 64 ≠ 63) from fun h => e4 h.1),
          if_neg (show ¬ (cc.val + 1 = r.val ∧ r.val % 64 ≠ 0) from fun h => e3 h.1), up64, dif_pos hlt, hKc, hNc]
        ereal_band
      · by_cases h3 : cc.val + 1 = r.val
        · -- one column to the left: the term through the row itself, inside a block of 64
          have e4 : ¬ cc.val = r.val + 1 := by omega
          by_cases hF : r.val % 64 = 0
          · simp only [if_pos h3, if_neg h0, if_neg h1, if_neg h2, if_neg e4, if_neg hne,
              if_neg (show ¬ (cc.val = r.val + 1 ∧ r.val % 64 ≠ 63) from fun h => e4 h.1),
              if_neg (show ¬ (cc.val + 1 = r.val ∧ r.val % 64 ≠ 0) from fun h => h.2 hF), mfS, if_pos hF]
            ereal_band
          · simp only [if_pos h3, if_neg h0, if_neg h1, if_neg h2, if_neg e4, if_neg hne,
              if_neg (show ¬ (cc.val = r.val + 1 ∧ r.val % 64 ≠ 63) from fun h => e4 h.1),
              if_pos (show cc.val + 1 = r.val ∧ r.val % 64 ≠ 0 from ⟨h3, hF⟩), mfS, if_neg hF]
            ereal_band
        · by_cases h4 : cc.val = r.val + 1
          · -- one column to the right: the term through the next row, inside a block of 64
            by_cases hB : r.val % 64 = 63
            · simp only [if_pos h4, if_neg h0, if_neg h1, if_neg h2, if_neg h3, if_neg hne,
                if_neg (show ¬ (cc.val = r.val + 1 ∧ r.val % 64 ≠ 63) from fun h => h.2 hB),
                if_neg (show ¬ (cc.val + 1 = r.val ∧ r.val % 64 ≠ 0) from fun h => h3 h.1), mlS, if_pos hB]
              ereal_band
            · have hlt : r.val + 1 < 4096 := by omega
              have hKc : ∀ p, K ⟨r.val + 1, p⟩ = K cc := fun p =>
                congrArg K (Fin.ext (by show r.val + 1 = cc.val; omega))
              have hNc : ∀ p, NY ⟨r.val + 1, p⟩ = NY cc := fun p =>
                congrArg NY (Fin.ext (by show r.val + 1 = cc.val; omega))
              simp only [if_pos h4, if_neg h0, if_neg h1, if_neg h2, if_neg h3, if_neg hne,
                if_pos (show cc.val = r.val + 1 ∧ r.val % 64 ≠ 63 from ⟨h4, hB⟩), mlS, if_neg hB, up1, dif_pos hlt,
                hKc, hNc]
              ereal_band
          · -- off every band
            simp only [if_neg h0, if_neg h1, if_neg h2, if_neg h3, if_neg h4, if_neg hne,
              if_neg (show ¬ (cc.val = r.val + 1 ∧ r.val % 64 ≠ 63) from fun h => h4 h.1),
              if_neg (show ¬ (cc.val + 1 = r.val ∧ r.val % 64 ≠ 0) from fun h => h3 h.1)]
            ereal_band

/-! ## The reference's stages in the kernel's names -/

section Atoms
variable (a0 : FVec Ideal Cert.KernelIdeal.S64x64 .f32) (a1 : FVec Ideal Cert.KernelIdeal.S64 .f32)
  (a2 a3 : FVec Ideal Cert.KernelIdeal.S64x64 .f32) (a4 : FVec Ideal Cert.KernelIdeal.S4096 .f32)

/-- The grid step is the same number in both programs. -/
theorem ref_dx : dx a0 a1 a2 a3 a4 = dxs a0 ix0 :=
  (Cert.ReferenceIdeal.RefVecs.res_v9_apply a0 a1 a2 a3 a4).trans (dxs_apply a0).symm

/-- `cflat k / dx`. -/
theorem ref_cf (k : Fin 4096) : Ideal.div (cf a0 a1 a2 a3 a4 k) (dx a0 a1 a2 a3 a4) = cfS a0 k := by
  rw [cfS_eq, ← ref_dx a0 a1 a2 a3 a4]
  show Ideal.div (res_v11 a0 a1 a2 a3 a4 (ix1 k)) _ = _
  rw [Cert.ReferenceIdeal.RefVecs.res_v11_apply]

/-- `(-cflat k) / dx = -(cflat k / dx)`, the grid step being a nonzero real. -/
theorem ref_ncf (d : ℝ) (hd : d ≠ 0) (hdx : dxs a0 ix0 = (d : EReal)) (k : Fin 4096) :
    Ideal.div (-(cf a0 a1 a2 a3 a4 k)) (dx a0 a1 a2 a3 a4) = -(cfS a0 k) := by
  rw [← ref_cf a0 a1 a2 a3 a4 k, ref_dx a0 a1 a2 a3 a4, hdx]
  exact div_neg_of_real _ d hd

/-- `minv` at row `r`. -/
theorem ref_mi (r : Fin 4096) : res_v164 a0 a1 a2 a3 a4 (ix1 r) = miS a1 r := by
  rw [miS_eq, Cert.ReferenceIdeal.RefDown.res_v164_apply, Cert.ReferenceIdeal.RefVecs.res_v18_apply, Ideal.ofBits_one_f32]

/-- `minv * Mpdiag` at row `r`. -/
theorem ref_mt (r : Fin 4096) : res_v164 a0 a1 a2 a3 a4 (ix1 r) * res_v25 a0 a1 a2 a3 a4 (ix1 r) = mtS a1 r := by
  rw [mtS_eq, ref_mi, Cert.ReferenceIdeal.RefVecs.res_v25_apply]

/-- `nxinv` at row `k`. -/
theorem ref_nx (k : Fin 4096) : nx a0 a1 a2 a3 a4 k = nS (kxy a2 a4) k := by
  show res_v166 a0 a1 a2 a3 a4 (ix1 k) = _
  rw [nS_eq, kxy_row, Cert.ReferenceIdeal.RefDown.res_v166_apply, Cert.ReferenceIdeal.RefVecs.res_v31_apply,
    Cert.ReferenceIdeal.RefVecs.res_v3_row, Ideal.ofBits_one_f32]

/-- `nyinv` at row `k`. -/
theorem ref_ny (k : Fin 4096) : ny a0 a1 a2 a3 a4 k = nS (kxy a3 a4) k := by
  show res_v168 a0 a1 a2 a3 a4 (ix1 k) = _
  rw [nS_eq, kxy_row, Cert.ReferenceIdeal.RefDown.res_v168_apply, Cert.ReferenceIdeal.RefVecs.res_v43_apply,
    Cert.ReferenceIdeal.RefVecs.res_v6_row, Ideal.ofBits_one_f32]

end Atoms

/-! ## The block -/

/-- The band sum of block 0 with its five columns named. -/
theorem bandsum_zero (r cc : ℕ) (col : Fin 15 → EReal) :
    Cert.KernelIdeal.Frm.bandsum 0 r cc col
      = ((((0 + (if cc = r then col ⟨0, by decide⟩ else 0)) + (if cc + 64 = r then col ⟨1, by decide⟩ else 0))
          + (if cc = r + 64 then col ⟨2, by decide⟩ else 0)) + (if cc + 1 = r then col ⟨3, by decide⟩ else 0))
          + (if cc = r + 1 then col ⟨4, by decide⟩ else 0) := by
  unfold Cert.KernelIdeal.Frm.bandsum
  exact if_pos rfl

/-- **Block 0**: at every `(r, cc)` the kernel's band sum over its table row is the reference's `A11`. -/
theorem block_0 (a0 : FVec Ideal Cert.KernelIdeal.S64x64 .f32) (a1 : FVec Ideal Cert.KernelIdeal.S64 .f32)
    (a2 a3 : FVec Ideal Cert.KernelIdeal.S64x64 .f32) (a4 : FVec Ideal Cert.KernelIdeal.S4096 .f32)
    (hD : ∃ d : ℝ, d ≠ 0 ∧ Cert.KernelIdeal.KHost.dxs a0 ValueIdx.ix0 = (d : EReal)) (r cc : Fin 4096) :
    Cert.KernelIdeal.Frm.bandsum 0 r.val cc.val
        (fun j => Cert.KernelIdeal.KHost.RF a0 a1 a2 a3 a4 (ValueIdx.ix2 r ⟨j.val, by have := j.isLt; omega⟩))
      = Cert.ReferenceIdeal.RefDown.blk a0 a1 a2 a3 a4 ⟨0 / 3, by decide⟩ ⟨0 % 3, by decide⟩ (ValueIdx.ix2 r cc) := by
  obtain ⟨d, hd, hdx⟩ := hD
  have hK : Cert.KernelIdeal.Frm.bandsum 0 r.val cc.val
        (fun j => RF a0 a1 a2 a3 a4 (ix2 r ⟨j.val, by have := j.isLt; omega⟩))
      = kernelSide r cc (cfS a0) (nS (kxy a2 a4)) (nS (kxy a3 a4)) (miS a1 r) (mtS a1 r) := by
    rw [bandsum_zero]
    dsimp only
    rw [RF_c0 a0 a1 a2 a3 a4 r, RF_c1 a0 a1 a2 a3 a4 r, RF_c2 a0 a1 a2 a3 a4 r, RF_c3 a0 a1 a2 a3 a4 r, RF_c4 a0 a1 a2 a3 a4 r]
    rfl
  have hR : Cert.ReferenceIdeal.RefDown.blk a0 a1 a2 a3 a4 ⟨0 / 3, by decide⟩ ⟨0 % 3, by decide⟩ (ix2 r cc)
      = refSide r cc (cfS a0) (nS (kxy a2 a4)) (nS (kxy a3 a4)) (miS a1 r) (mtS a1 r) := by
    show res_v183 a0 a1 a2 a3 a4 (ix2 r cc) = _
    rw [Cert.ReferenceIdeal.RefSpec.A11_closed, ref_mt]
    have hn : ∀ k : Fin 4096, Ideal.div (-(cf a0 a1 a2 a3 a4 k)) (dx a0 a1 a2 a3 a4) = -(cfS a0 k) :=
      ref_ncf a0 a1 a2 a3 a4 d hd hdx
    simp only [ref_cf, hn, ref_nx, ref_ny, ref_mi]
    rfl
  rw [hK, hR]
  exact a11_core r cc _ _ _ _ _

end Cert.Bridge

end
-- ==== Proof.BridgeMain.lean ====
/-
  The join, part three: the reference's result is the kernel's band sums of the host-built coefficient
  table, entry by entry.

  Entry (R, C) lies in block (R / 4096, C / 4096) at row R % 4096 and column C % 4096; there the
  reference's block entry and the kernel's band sum agree (the per-block identities), given that the
  common divisor dx is a nonzero real.
-/
import proofs.«134289_j17918603559171_2_alg».proof.Proof.KValArrI
import proofs.«134289_j17918603559171_2_alg».proof.Proof.RefDownBlock
import proofs.«134289_j17918603559171_2_alg».proof.Proof.BridgeBlocks
import proofs.«134289_j17918603559171_2_alg».proof.Proof.BridgeA11

set_option maxRecDepth 16384

noncomputable section

namespace Cert.Bridge

open Idealize.ShloMosaic Idealize.ShloMosaic.ValueIdx

theorem result_eq_KSpec (a0 : FVec Ideal Cert.KernelIdeal.S64x64 .f32) (a1 : FVec Ideal Cert.KernelIdeal.S64 .f32)
    (a2 a3 : FVec Ideal Cert.KernelIdeal.S64x64 .f32) (a4 : FVec Ideal Cert.KernelIdeal.S4096 .f32)
    (hD : ∃ d : ℝ, d ≠ 0 ∧ Cert.KernelIdeal.KHost.dxs a0 ValueIdx.ix0 = (d : EReal)) :
    Cert.ReferenceIdeal.RefStages.result a0 a1 a2 a3 a4
      = Cert.KernelIdeal.Frm.KSpec (Cert.KernelIdeal.KHost.RF a0 a1 a2 a3 a4) := by
  funext I
  obtain ⟨R, C, rfl⟩ : ∃ (R C : Fin 12288), I = ix2 R C := ⟨I 0, I 1, eq_ix2 I⟩
  have hR := R.isLt
  have hC := C.isLt
  let r : Fin 4096 := ⟨R.val % 4096, Nat.mod_lt _ (by decide)⟩
  let cc : Fin 4096 := ⟨C.val % 4096, Nat.mod_lt _ (by decide)⟩
  rcases (show R.val / 4096 = 0 ∨ R.val / 4096 = 1 ∨ R.val / 4096 = 2 by omega) with hp | hp | hp
  · rcases (show C.val / 4096 = 0 ∨ C.val / 4096 = 1 ∨ C.val / 4096 = 2 by omega) with hq | hq | hq
    · have hb : 3 * (R.val / 4096) + C.val / 4096 = 0 := by omega
      rw [Cert.ReferenceIdeal.RefDown.result_apply_of a0 a1 a2 a3 a4 R C ⟨0, by decide⟩ ⟨0, by decide⟩ r cc (by show R.val = 4096 * 0 + R.val % 4096; omega) (by show C.val = 4096 * 0 + C.val % 4096; omega)]
      show _ = Cert.KernelIdeal.Frm.bandsum (3 * (R.val / 4096) + C.val / 4096) r.val cc.val _
      rw [hb]
      exact (block_0 a0 a1 a2 a3 a4 hD r cc).symm
    · have hb : 3 * (R.val / 4096) + C.val / 4096 = 1 := by omega
      rw [Cert.ReferenceIdeal.RefDown.result_apply_of a0 a1 a2 a3 a4 R C ⟨0, by decide⟩ ⟨1, by decide⟩ r cc (by show R.val = 4096 * 0 + R.val % 4096; omega) (by show C.val = 4096 * 1 + C.val % 4096; omega)]
      show _ = Cert.KernelIdeal.Frm.bandsum (3 * (R.val / 4096) + C.val / 4096) r.val cc.val _
      rw [hb]
      exact (block_1 a0 a1 a2 a3 a4 hD r cc).symm
    · have hb : 3 * (R.val / 4096) + C.val / 4096 = 2 := by omega
      rw [Cert.ReferenceIdeal.RefDown.result_apply_of a0 a1 a2 a3 a4 R C ⟨0, by decide⟩ ⟨2, by decide⟩ r cc (by show R.val = 4096 * 0 + R.val % 4096; omega) (by show C.val = 4096 * 2 + C.val % 4096; omega)]
      show _ = Cert.KernelIdeal.Frm.bandsum (3 * (R.val / 4096) + C.val / 4096) r.val cc.val _
      rw [hb]
      exact (block_2 a0 a1 a2 a3 a4 hD r cc).symm
  · rcases (show C.val / 4096 = 0 ∨ C.val / 4096 = 1 ∨ C.val / 4096 = 2 by omega) with hq | hq | hq
    · have hb : 3 * (R.val / 4096) + C.val / 4096 = 3 := by omega
      rw [Cert.ReferenceIdeal.RefDown.result_apply_of a0 a1 a2 a3 a4 R C ⟨1, by decide⟩ ⟨0, by decide⟩ r cc (by show R.val = 4096 * 1 + R.val % 4096; omega) (by show C.val = 4096 * 0 + C.val % 4096; omega)]
      show _ = Cert.KernelIdeal.Frm.bandsum (3 * (R.val / 4096) + C.val / 4096) r.val cc.val _
      rw [hb]
      exact (block_3 a0 a1 a2 a3 a4 hD r cc).symm
    · have hb : 3 * (R.val / 4096) + C.val / 4096 = 4 := by omega
      rw [Cert.ReferenceIdeal.RefDown.result_apply_of a0 a1 a2 a3 a4 R C ⟨1, by decide⟩ ⟨1, by decide⟩ r cc (by show R.val = 4096 * 1 + R.val % 4096; omega) (by show C.val = 4096 * 1 + C.val % 4096; omega)]
      show _ = Cert.KernelIdeal.Frm.bandsum (3 * (R.val / 4096) + C.val / 4096) r.val cc.val _
      rw [hb]
      exact (block_4 a0 a1 a2 a3 a4 hD r cc).symm
    · have hb : 3 * (R.val / 4096) + C.val / 4096 = 5 := by omega
      rw [Cert.ReferenceIdeal.RefDown.result_apply_of a0 a1 a2 a3 a4 R C ⟨1, by decide⟩ ⟨2, by decide⟩ r cc (by show R.val = 4096 * 1 + R.val % 4096; omega) (by show C.val = 4096 * 2 + C.val % 4096; omega)]
      show _ = Cert.KernelIdeal.Frm.bandsum (3 * (R.val / 4096) + C.val / 4096) r.val cc.val _
      rw [hb]
      exact (block_5 a0 a1 a2 a3 a4 hD r cc).symm
  · rcases (show C.val / 4096 = 0 ∨ C.val / 4096 = 1 ∨ C.val / 4096 = 2 by omega) with hq | hq | hq
    · have hb : 3 * (R.val / 4096) + C.val / 4096 = 6 := by omega
      rw [Cert.ReferenceIdeal.RefDown.result_apply_of a0 a1 a2 a3 a4 R C ⟨2, by decide⟩ ⟨0, by decide⟩ r cc (by show R.val = 4096 * 2 + R.val % 4096; omega) (by show C.val = 4096 * 0 + C.val % 4096; omega)]
      show _ = Cert.KernelIdeal.Frm.bandsum (3 * (R.val / 4096) + C.val / 4096) r.val cc.val _
      rw [hb]
      exact (block_6 a0 a1 a2 a3 a4 hD r cc).symm
    · have hb : 3 * (R.val / 4096) + C.val / 4096 = 7 := by omega
      rw [Cert.ReferenceIdeal.RefDown.result_apply_of a0 a1 a2 a3 a4 R C ⟨2, by decide⟩ ⟨1, by decide⟩ r cc (by show R.val = 4096 * 2 + R.val % 4096; omega) (by show C.val = 4096 * 1 + C.val % 4096; omega)]
      show _ = Cert.KernelIdeal.Frm.bandsum (3 * (R.val / 4096) + C.val / 4096) r.val cc.val _
      rw [hb]
      exact (block_7 a0 a1 a2 a3 a4 hD r cc).symm
    · have hb : 3 * (R.val / 4096) + C.val / 4096 = 8 := by omega
      rw [Cert.ReferenceIdeal.RefDown.result_apply_of a0 a1 a2 a3 a4 R C ⟨2, by decide⟩ ⟨2, by decide⟩ r cc (by show R.val = 4096 * 2 + R.val % 4096; omega) (by show C.val = 4096 * 2 + C.val % 4096; omega)]
      show _ = Cert.KernelIdeal.Frm.bandsum (3 * (R.val / 4096) + C.val / 4096) r.val cc.val _
      rw [hb]
      exact (block_8 a0 a1 a2 a3 a4 hD r cc).symm

end Cert.Bridge

end
-- ==== Proof.lean ====
/- The proof of `Cert.Claim`: the three frames, the (empty) idealization ledger, and the agreement of the
   idealized kernel with the idealized reference at the extended reals.

   The kernel writes a 12288 × 12288 matrix of nine 4096 × 4096 blocks, each banded: an entry depends only on
   its row and on its column's offset from the row, one of 0, ±1, ±64. The host first builds a table of
   fifteen coefficient columns indexed by the row; the region then fills each 512 × 1024 tile either with
   zeros (tile off every band, or an always-zero block) or with the sum over the block's offsets of the
   column selected where column − row equals the offset. The reference builds four sparse bidiagonal
   matrices by scatters, scales rows and columns by diagonals, takes two matrix products and assembles the
   blocks; every matrix product's row-by-column sum has at most two nonzero terms.

   Value: the region's tiles are read case by case as band sums over the table (Proof/KVal*), the table
   column by column as products of the row's diagonal quantities (Proof/KHost*); the reference's scatters,
   products, diagonals and blocks are read at an index (Proof/RefRead*, RefDown*, RefSpec*, RefVecs); the two
   meet block by block and offset by offset (Proof/Bridge*), by laws valid on all extended reals, once the
   common divisor dx is a nonzero real — which is what the precondition's last conjunct, max(c) ≠ 0, gives
   (without it 0/0 reads differently on the two sides: the reference negates before dividing).

   Frames: each kernel program's @main is four stretches of host operations and one region whose body is a
   case split on the grid point (Proof/FrmBase*, FrmRuns*, Frm*); the reference is a straight-line host
   program (Proof/RefOps, RefLive, RefStep*, RefRun). -/
import proofs.«134289_j17918603559171_2_alg».proof.Defs
import proofs.«134289_j17918603559171_2_alg».proof.Proof.Gen.Kernel
import proofs.«134289_j17918603559171_2_alg».proof.Proof.Gen.KernelIdeal
import proofs.«134289_j17918603559171_2_alg».proof.Proof.Gen.ReferenceIdeal
import proofs.«134289_j17918603559171_2_alg».proof.Proof.Gen.Pre_finite_inputs
import proofs.«134289_j17918603559171_2_alg».proof.Proof.FrmK
import proofs.«134289_j17918603559171_2_alg».proof.Proof.FrmI
import proofs.«134289_j17918603559171_2_alg».proof.Proof.RefRun
import proofs.«134289_j17918603559171_2_alg».proof.Proof.KValArrI
import proofs.«134289_j17918603559171_2_alg».proof.Proof.BridgeTbl
import proofs.«134289_j17918603559171_2_alg».proof.Proof.BridgePre
import proofs.«134289_j17918603559171_2_alg».proof.Proof.BridgeMain
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Frm.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Frm.frame (F := Ideal) m ρ

theorem frame_ri : Cert.frame_ReferenceIdeal (hReferenceIdeal := Cert.ReferenceIdeal.Gen.facts) (hPre_finite_inputs := Cert.Pre_finite_inputs.Gen.facts) :=
  Cert.ReferenceIdeal.RefRun.frame

theorem preserves : Cert.preserves_Kernel_KernelIdeal := trivial

/-- At the extended reals the kernel's result is the band sums of its coefficient table (the region's
    value) and the reference's is its blocks' closed forms (its run); under the precondition — the
    inputs finite and the largest entry of `c` not zero, so that the common divisor is a nonzero real —
    the two are one array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Frm.KSpec (Cert.KernelIdeal.Frm.tbl m c), Cert.KernelIdeal.Frm.run_value m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2]
  show _ = Cert.KernelIdeal.Frm.KSpec (Cert.KernelIdeal.Frm.tbl m c)
  rw [Cert.Bridge.tbl_eq m c]
  exact Cert.Bridge.result_eq_KSpec _ _ _ _ _ (Cert.Bridge.dx_real m hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
